-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)) →
    ∃ (v0 : (c : Dev Cert.KernelIdeal.nD) → Buf (Elt Ideal) ((c.tc : Thread Cert.KernelIdeal.nD Cert.KernelIdeal.τ).loc Cert.KernelIdeal.main_v206)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v206) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v279) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x62 : Shape := ⟨2, ![200000, 62]⟩
abbrev S220000x6 : Shape := ⟨2, ![220000, 6]⟩
abbrev S40000x1 : Shape := ⟨2, ![40000, 1]⟩
abbrev S60000x2 : Shape := ⟨2, ![60000, 2]⟩
abbrev S60000x3 : Shape := ⟨2, ![60000, 3]⟩
abbrev S40000x4 : Shape := ⟨2, ![40000, 4]⟩
abbrev S200000 : Shape := ⟨1, ![200000]⟩
abbrev S62x100 : Shape := ⟨2, ![62, 100]⟩
abbrev S100 : Shape := ⟨1, ![100]⟩
abbrev S4x68x100 : Shape := ⟨3, ![4, 68, 100]⟩
abbrev S4x100 : Shape := ⟨2, ![4, 100]⟩
abbrev S100x100 : Shape := ⟨2, ![100, 100]⟩
abbrev S4x106x100 : Shape := ⟨3, ![4, 106, 100]⟩
abbrev S62x512 : Shape := ⟨2, ![62, 512]⟩
abbrev S512 : Shape := ⟨1, ![512]⟩
abbrev S100x512 : Shape := ⟨2, ![100, 512]⟩
abbrev S_ : Shape := ⟨0, ![]⟩

class Facts : Prop where
  bcast_S_S200000x62 : S_.BroadcastsInDim S200000x62 (![] : Fin 0 → Fin S200000x62.rank)
  reducesTo_S200000x62_S_d0_1 : S200000x62.ReducesTo [0, 1] S_
  h_S_ : 0 < S_.numel
  bcast_S_S220000x6 : S_.BroadcastsInDim S220000x6 (![] : Fin 0 → Fin S220000x6.rank)
  reducesTo_S220000x6_S_d0_1 : S220000x6.ReducesTo [0, 1] S_
  bcast_S_S62x100 : S_.BroadcastsInDim S62x100 (![] : Fin 0 → Fin S62x100.rank)
  reducesTo_S62x100_S_d0_1 : S62x100.ReducesTo [0, 1] S_
  bcast_S_S100 : S_.BroadcastsInDim S100 (![] : Fin 0 → Fin S100.rank)
  reducesTo_S100_S_d0 : S100.ReducesTo [0] S_
  bcast_S_S4x68x100 : S_.BroadcastsInDim S4x68x100 (![] : Fin 0 → Fin S4x68x100.rank)
  reducesTo_S4x68x100_S_d0_1_2 : S4x68x100.ReducesTo [0, 1, 2] S_
  bcast_S_S4x100 : S_.BroadcastsInDim S4x100 (![] : Fin 0 → Fin S4x100.rank)
  reducesTo_S4x100_S_d0_1 : S4x100.ReducesTo [0, 1] S_
  bcast_S_S100x100 : S_.BroadcastsInDim S100x100 (![] : Fin 0 → Fin S100x100.rank)
  reducesTo_S100x100_S_d0_1 : S100x100.ReducesTo [0, 1] S_
  bcast_S_S4x106x100 : S_.BroadcastsInDim S4x106x100 (![] : Fin 0 → Fin S4x106x100.rank)
  reducesTo_S4x106x100_S_d0_1_2 : S4x106x100.ReducesTo [0, 1, 2] S_
  bcast_S_S62x512 : S_.BroadcastsInDim S62x512 (![] : Fin 0 → Fin S62x512.rank)
  reducesTo_S62x512_S_d0_1 : S62x512.ReducesTo [0, 1] S_
  bcast_S_S512 : S_.BroadcastsInDim S512 (![] : Fin 0 → Fin S512.rank)
  reducesTo_S512_S_d0 : S512.ReducesTo [0] S_
  bcast_S_S100x512 : S_.BroadcastsInDim S100x512 (![] : Fin 0 → Fin S100x512.rank)
  reducesTo_S100x512_S_d0_1 : S100x512.ReducesTo [0, 1] S_

variable [Facts]

def fn_part4 {F : FTy → Type} [FloatOps F] (main_arg23 : FVec F S100x512 .f32) (main_arg24 : FVec F S512 .f32) (main_v63 : IVec S_ 1) (main_v67 : IVec S_ 1) : IVec S_ 1 :=
  let main_v68 : IVec S_ 1 := andi main_v63 main_v67
  let main_v69 : FVec F S100x512 .f32 := Host.absf main_arg23
  let main_cst_26 : FVec F S_ .f32 := constant S_ .f32 0x7F800000#32
  let main_v70 : FVec F S100x512 .f32 := broadcastInDim S100x512 ![] bcast_S_S100x512 main_cst_26
  let main_v71 : IVec S100x512 1 := cmpf .olt main_v69 main_v70
  let main_c_27 : IVec S_ 1 := constantI S_ 1 1#1
  let main_v72 : IVec S_ 1 := (fun x v => Host.reduce IntOp.andi x v reducesTo_S100x512_S_d0_1 h_S_) main_v71 main_c_27
  let main_v73 : IVec S_ 1 := andi main_v68 main_v72
  let main_v74 : FVec F S512 .f32 := Host.absf main_arg24
  let main_cst_28 : FVec F S_ .f32 := constant S_ .f32 0x7F800000#32
  let main_v75 : FVec F S512 .f32 := broadcastInDim S512 ![] bcast_S_S512 main_cst_28
  let main_v76 : IVec S512 1 := cmpf .olt main_v74 main_v75
  let main_c_29 : IVec S_ 1 := constantI S_ 1 1#1
  let main_v77 : IVec S_ 1 := (fun x v => Host.reduce IntOp.andi x v reducesTo_S512_S_d0 h_S_) main_v76 main_c_29
  let main_v78 : IVec S_ 1 := andi main_v73 main_v77
  main_v78

def fn_part3 {F : FTy → Type} [FloatOps F] (main_arg20 : FVec F S512 .f32) (main_arg21 : FVec F S100x512 .f32) (main_arg22 : FVec F S512 .f32) (main_arg23 : FVec F S100x512 .f32) (main_arg24 : FVec F S512 .f32) (main_v48 : IVec S_ 1) (main_v49 : FVec F S62x512 .f32) (main_v50 : FVec F S62x512 .f32) : IVec S_ 1 :=
  let main_v51 : IVec S62x512 1 := cmpf .olt main_v49 main_v50
  let main_c_19 : IVec S_ 1 := constantI S_ 1 1#1
  let main_v52 : IVec S_ 1 := (fun x v => Host.reduce IntOp.andi x v reducesTo_S62x512_S_d0_1 h_S_) main_v51 main_c_19
  let main_v53 : IVec S_ 1 := andi main_v48 main_v52
  let main_v54 : FVec F S512 .f32 := Host.absf main_arg20
  let main_cst_20 : FVec F S_ .f32 := constant S_ .f32 0x7F800000#32
  let main_v55 : FVec F S512 .f32 := broadcastInDim S512 ![] bcast_S_S512 main_cst_20
  let main_v56 : IVec S512 1 := cmpf .olt main_v54 main_v55
  let main_c_21 : IVec S_ 1 := constantI S_ 1 1#1
  let main_v57 : IVec S_ 1 := (fun x v => Host.reduce IntOp.andi x v reducesTo_S512_S_d0 h_S_) main_v56 main_c_21
  let main_v58 : IVec S_ 1 := andi main_v53 main_v57
  let main_v59 : FVec F S100x512 .f32 := Host.absf main_arg21
  let main_cst_22 : FVec F S_ .f32 := constant S_ .f32 0x7F800000#32
  let main_v60 : FVec F S100x512 .f32 := broadcastInDim S100x512 ![] bcast_S_S100x512 main_cst_22
  let main_v61 : IVec S100x512 1 := cmpf .olt main_v59 main_v60
  let main_c_23 : IVec S_ 1 := constantI S_ 1 1#1
  let main_v62 : IVec S_ 1 := (fun x v => Host.reduce IntOp.andi x v reducesTo_S100x512_S_d0_1 h_S_) main_v61 main_c_23
  let main_v63 : IVec S_ 1 := andi main_v58 main_v62
  let main_v64 : FVec F S512 .f32 := Host.absf main_arg22
  let main_cst_24 : FVec F S_ .f32 := constant S_ .f32 0x7F800000#32
  let main_v65 : FVec F S512 .f32 := broadcastInDim S512 ![] bcast_S_S512 main_cst_24
  let main_v66 : IVec S512 1 := cmpf .olt main_v64 main_v65
  let main_c_25 : IVec S_ 1 := constantI S_ 1 1#1
  let main_v67 : IVec S_ 1 := (fun x v => Host.reduce IntOp.andi x v reducesTo_S512_S_d0 h_S_) main_v66 main_c_25
  fn_part4 (F := F) main_arg23 main_arg24 main_v63 main_v67

def fn_part2 {F : FTy → Type} [FloatOps F] (main_arg16 : FVec F S100 .f32) (main_arg17 : FVec F S4x106x100 .f32) (main_arg18 : FVec F S4x100 .f32) (main_arg19 : FVec F S62x512 .f32) (main_arg20 : FVec F S512 .f32) (main_arg21 : FVec F S100x512 .f32) (main_arg22 : FVec F S512 .f32) (main_arg23 : FVec F S100x512 .f32) (main_arg24 : FVec F S512 .f32) (main_v33 : IVec S_ 1) : IVec S_ 1 :=
  let main_v34 : FVec F S100 .f32 := Host.absf main_arg16
  let main_cst_12 : FVec F S_ .f32 := constant S_ .f32 0x7F800000#32
  let main_v35 : FVec F S100 .f32 := broadcastInDim S100 ![] bcast_S_S100 main_cst_12
  let main_v36 : IVec S100 1 := cmpf .olt main_v34 main_v35
  let main_c_13 : IVec S_ 1 := constantI S_ 1 1#1
  let main_v37 : IVec S_ 1 := (fun x v => Host.reduce IntOp.andi x v reducesTo_S100_S_d0 h_S_) main_v36 main_c_13
  let main_v38 : IVec S_ 1 := andi main_v33 main_v37
  let main_v39 : FVec F S4x106x100 .f32 := Host.absf main_arg17
  let main_cst_14 : FVec F S_ .f32 := constant S_ .f32 0x7F800000#32
  let main_v40 : FVec F S4x106x100 .f32 := broadcastInDim S4x106x100 ![] bcast_S_S4x106x100 main_cst_14
  let main_v41 : IVec S4x106x100 1 := cmpf .olt main_v39 main_v40
  let main_c_15 : IVec S_ 1 := constantI S_ 1 1#1
  let main_v42 : IVec S_ 1 := (fun x v => Host.reduce IntOp.andi x v reducesTo_S4x106x100_S_d0_1_2 h_S_) main_v41 main_c_15
  let main_v43 : IVec S_ 1 := andi main_v38 main_v42
  let main_v44 : FVec F S4x100 .f32 := Host.absf main_arg18
  let main_cst_16 : FVec F S_ .f32 := constant S_ .f32 0x7F800000#32
  let main_v45 : FVec F S4x100 .f32 := broadcastInDim S4x100 ![] bcast_S_S4x100 main_cst_16
  let main_v46 : IVec S4x100 1 := cmpf .olt main_v44 main_v45
  let main_c_17 : IVec S_ 1 := constantI S_ 1 1#1
  let main_v47 : IVec S_ 1 := (fun x v => Host.reduce IntOp.andi x v reducesTo_S4x100_S_d0_1 h_S_) main_v46 main_c_17
  let main_v48 : IVec S_ 1 := andi main_v43 main_v47
  let main_v49 : FVec F S62x512 .f32 := Host.absf main_arg19
  let main_cst_18 : FVec F S_ .f32 := constant S_ .f32 0x7F800000#32
  let main_v50 : FVec F S62x512 .f32 := broadcastInDim S62x512 ![] bcast_S_S62x512 main_cst_18
  fn_part3 (F := F) main_arg20 main_arg21 main_arg22 main_arg23 main_arg24 main_v48 main_v49 main_v50

def fn_part1 {F : FTy → Type} [FloatOps F] (main_arg13 : FVec F S4x68x100 .f32) (main_arg14 : FVec F S4x100 .f32) (main_arg15 : FVec F S100x100 .f32) (main_arg16 : FVec F S100 .f32) (main_arg17 : FVec F S4x106x100 .f32) (main_arg18 : FVec F S4x100 .f32) (main_arg19 : FVec F S62x512 .f32) (main_arg20 : FVec F S512 .f32) (main_arg21 : FVec F S100x512 .f32) (main_arg22 : FVec F S512 .f32) (main_arg23 : FVec F S100x512 .f32) (main_arg24 : FVec F S512 .f32) (main_v13 : IVec S_ 1) (main_v16 : IVec S100 1) : IVec S_ 1 :=
  let main_c_5 : IVec S_ 1 := constantI S_ 1 1#1
  let main_v17 : IVec S_ 1 := (fun x v => Host.reduce IntOp.andi x v reducesTo_S100_S_d0 h_S_) main_v16 main_c_5
  let main_v18 : IVec S_ 1 := andi main_v13 main_v17
  let main_v19 : FVec F S4x68x100 .f32 := Host.absf main_arg13
  let main_cst_6 : FVec F S_ .f32 := constant S_ .f32 0x7F800000#32
  let main_v20 : FVec F S4x68x100 .f32 := broadcastInDim S4x68x100 ![] bcast_S_S4x68x100 main_cst_6
  let main_v21 : IVec S4x68x100 1 := cmpf .olt main_v19 main_v20
  let main_c_7 : IVec S_ 1 := constantI S_ 1 1#1
  let main_v22 : IVec S_ 1 := (fun x v => Host.reduce IntOp.andi x v reducesTo_S4x68x100_S_d0_1_2 h_S_) main_v21 main_c_7
  let main_v23 : IVec S_ 1 := andi main_v18 main_v22
  let main_v24 : FVec F S4x100 .f32 := Host.absf main_arg14
  let main_cst_8 : FVec F S_ .f32 := constant S_ .f32 0x7F800000#32
  let main_v25 : FVec F S4x100 .f32 := broadcastInDim S4x100 ![] bcast_S_S4x100 main_cst_8
  let main_v26 : IVec S4x100 1 := cmpf .olt main_v24 main_v25
  let main_c_9 : IVec S_ 1 := constantI S_ 1 1#1
  let main_v27 : IVec S_ 1 := (fun x v => Host.reduce IntOp.andi x v reducesTo_S4x100_S_d0_1 h_S_) main_v26 main_c_9
  let main_v28 : IVec S_ 1 := andi main_v23 main_v27
  let main_v29 : FVec F S100x100 .f32 := Host.absf main_arg15
  let main_cst_10 : FVec F S_ .f32 := constant S_ .f32 0x7F800000#32
  let main_v30 : FVec F S100x100 .f32 := broadcastInDim S100x100 ![] bcast_S_S100x100 main_cst_10
  let main_v31 : IVec S100x100 1 := cmpf .olt main_v29 main_v30
  let main_c_11 : IVec S_ 1 := constantI S_ 1 1#1
  let main_v32 : IVec S_ 1 := (fun x v => Host.reduce IntOp.andi x v reducesTo_S100x100_S_d0_1 h_S_) main_v31 main_c_11
  let main_v33 : IVec S_ 1 := andi main_v28 main_v32
  fn_part2 (F := F) main_arg16 main_arg17 main_arg18 main_arg19 main_arg20 main_arg21 main_arg22 main_arg23 main_arg24 main_v33

def fn {F : FTy → Type} [FloatOps F] (main_arg0 : FVec F S200000x62 .f32) (main_arg1 : FVec F S220000x6 .f32) (main_arg2 : IVec S40000x1 32) (main_arg3 : IVec S40000x1 32) (main_arg4 : IVec S60000x2 32) (main_arg5 : IVec S60000x2 32) (main_arg6 : IVec S60000x3 32) (main_arg7 : IVec S60000x3 32) (main_arg8 : IVec S40000x4 32) (main_arg9 : IVec S40000x4 32) (main_arg10 : IVec S200000 32) (main_arg11 : FVec F S62x100 .f32) (main_arg12 : FVec F S100 .f32) (main_arg13 : FVec F S4x68x100 .f32) (main_arg14 : FVec F S4x100 .f32) (main_arg15 : FVec F S100x100 .f32) (main_arg16 : FVec F S100 .f32) (main_arg17 : FVec F S4x106x100 .f32) (main_arg18 : FVec F S4x100 .f32) (main_arg19 : FVec F S62x512 .f32) (main_arg20 : FVec F S512 .f32) (main_arg21 : FVec F S100x512 .f32) (main_arg22 : FVec F S512 .f32) (main_arg23 : FVec F S100x512 .f32) (main_arg24 : FVec F S512 .f32) : IVec S_ 1 :=
  let main_v0 : FVec F S200000x62 .f32 := Host.absf main_arg0
  let main_cst : FVec F S_ .f32 := constant S_ .f32 0x7F800000#32
  let main_v1 : FVec F S200000x62 .f32 := broadcastInDim S200000x62 ![] bcast_S_S200000x62 main_cst
  let main_v2 : IVec S200000x62 1 := cmpf .olt main_v0 main_v1
  let main_c : IVec S_ 1 := constantI S_ 1 1#1
  let main_v3 : IVec S_ 1 := (fun x v => Host.reduce IntOp.andi x v reducesTo_S200000x62_S_d0_1 h_S_) main_v2 main_c
  let main_v4 : FVec F S220000x6 .f32 := Host.absf main_arg1
  let main_cst_0 : FVec F S_ .f32 := constant S_ .f32 0x7F800000#32
  let main_v5 : FVec F S220000x6 .f32 := broadcastInDim S220000x6 ![] bcast_S_S220000x6 main_cst_0
  let main_v6 : IVec S220000x6 1 := cmpf .olt main_v4 main_v5
  let main_c_1 : IVec S_ 1 := constantI S_ 1 1#1
  let main_v7 : IVec S_ 1 := (fun x v => Host.reduce IntOp.andi x v reducesTo_S220000x6_S_d0_1 h_S_) main_v6 main_c_1
  let main_v8 : IVec S_ 1 := andi main_v3 main_v7
  let main_v9 : FVec F S62x100 .f32 := Host.absf main_arg11
  let main_cst_2 : FVec F S_ .f32 := constant S_ .f32 0x7F800000#32
  let main_v10 : FVec F S62x100 .f32 := broadcastInDim S62x100 ![] bcast_S_S62x100 main_cst_2
  let main_v11 : IVec S62x100 1 := cmpf .olt main_v9 main_v10
  let main_c_3 : IVec S_ 1 := constantI S_ 1 1#1
  let main_v12 : IVec S_ 1 := (fun x v => Host.reduce IntOp.andi x v reducesTo_S62x100_S_d0_1 h_S_) main_v11 main_c_3
  let main_v13 : IVec S_ 1 := andi main_v8 main_v12
  let main_v14 : FVec F S100 .f32 := Host.absf main_arg12
  let main_cst_4 : FVec F S_ .f32 := constant S_ .f32 0x7F800000#32
  let main_v15 : FVec F S100 .f32 := broadcastInDim S100 ![] bcast_S_S100 main_cst_4
  let main_v16 : IVec S100 1 := cmpf .olt main_v14 main_v15
  fn_part1 (F := F) main_arg13 main_arg14 main_arg15 main_arg16 main_arg17 main_arg18 main_arg19 main_arg20 main_arg21 main_arg22 main_arg23 main_arg24 main_v13 main_v16
-- ==== Kernel.lean ====
abbrev S200000x62 : Shape := ⟨2, ![200000, 62]⟩
abbrev S220000x6 : Shape := ⟨2, ![220000, 6]⟩
abbrev S40000x1 : Shape := ⟨2, ![40000, 1]⟩
abbrev S60000x2 : Shape := ⟨2, ![60000, 2]⟩
abbrev S60000x3 : Shape := ⟨2, ![60000, 3]⟩
abbrev S40000x4 : Shape := ⟨2, ![40000, 4]⟩
abbrev S200000 : Shape := ⟨1, ![200000]⟩
abbrev S62x100 : Shape := ⟨2, ![62, 100]⟩
abbrev S100 : Shape := ⟨1, ![100]⟩
abbrev S4x68x100 : Shape := ⟨3, ![4, 68, 100]⟩
abbrev S4x100 : Shape := ⟨2, ![4, 100]⟩
abbrev S100x100 : Shape := ⟨2, ![100, 100]⟩
abbrev S4x106x100 : Shape := ⟨3, ![4, 106, 100]⟩
abbrev S62x512 : Shape := ⟨2, ![62, 512]⟩
abbrev S512 : Shape := ⟨1, ![512]⟩
abbrev S100x512 : Shape := ⟨2, ![100, 512]⟩
abbrev S1x512 : Shape := ⟨2, ![1, 512]⟩
abbrev S200000x512 : Shape := ⟨2, ![200000, 512]⟩
abbrev S2000x62 : Shape := ⟨2, ![2000, 62]⟩
abbrev S2000x512 : Shape := ⟨2, ![2000, 512]⟩
abbrev S2000 : Shape := ⟨1, ![2000]⟩
abbrev S2000x1 : Shape := ⟨2, ![2000, 1]⟩
abbrev S_ : Shape := ⟨0, ![]⟩
abbrev S8000x512 : Shape := ⟨2, ![8000, 512]⟩
abbrev S200000x1 : Shape := ⟨2, ![200000, 1]⟩
abbrev S1x100 : Shape := ⟨2, ![1, 100]⟩
abbrev S40000x1x1 : Shape := ⟨3, ![40000, 1, 1]⟩
abbrev S40000x1x62 : Shape := ⟨3, ![40000, 1, 62]⟩
abbrev S40000x62 : Shape := ⟨2, ![40000, 62]⟩
abbrev S40000x1x6 : Shape := ⟨3, ![40000, 1, 6]⟩
abbrev S40000x6 : Shape := ⟨2, ![40000, 6]⟩
abbrev S40000x68 : Shape := ⟨2, ![40000, 68]⟩
abbrev S1x68x100 : Shape := ⟨3, ![1, 68, 100]⟩
abbrev S68x100 : Shape := ⟨2, ![68, 100]⟩
abbrev S40000x100 : Shape := ⟨2, ![40000, 100]⟩
abbrev S2000x68 : Shape := ⟨2, ![2000, 68]⟩
abbrev S2000x100 : Shape := ⟨2, ![2000, 100]⟩
abbrev S60000x2x1 : Shape := ⟨3, ![60000, 2, 1]⟩
abbrev S60000x2x62 : Shape := ⟨3, ![60000, 2, 62]⟩
abbrev S60000x62 : Shape := ⟨2, ![60000, 62]⟩
abbrev S60000x2x6 : Shape := ⟨3, ![60000, 2, 6]⟩
abbrev S60000x6 : Shape := ⟨2, ![60000, 6]⟩
abbrev S60000x68 : Shape := ⟨2, ![60000, 68]⟩
abbrev S60000x100 : Shape := ⟨2, ![60000, 100]⟩
abbrev S60000x3x1 : Shape := ⟨3, ![60000, 3, 1]⟩
abbrev S60000x3x62 : Shape := ⟨3, ![60000, 3, 62]⟩
abbrev S60000x3x6 : Shape := ⟨3, ![60000, 3, 6]⟩
abbrev S40000x4x1 : Shape := ⟨3, ![40000, 4, 1]⟩
abbrev S40000x4x62 : Shape := ⟨3, ![40000, 4, 62]⟩
abbrev S40000x4x6 : Shape := ⟨3, ![40000, 4, 6]⟩
abbrev S200000x100 : Shape := ⟨2, ![200000, 100]⟩
abbrev S40000x1x100 : Shape := ⟨3, ![40000, 1, 100]⟩
abbrev S40000x106 : Shape := ⟨2, ![40000, 106]⟩
abbrev S1x106x100 : Shape := ⟨3, ![1, 106, 100]⟩
abbrev S106x100 : Shape := ⟨2, ![106, 100]⟩
abbrev S2000x106 : Shape := ⟨2, ![2000, 106]⟩
abbrev S60000x2x100 : Shape := ⟨3, ![60000, 2, 100]⟩
abbrev S60000x106 : Shape := ⟨2, ![60000, 106]⟩
abbrev S60000x3x100 : Shape := ⟨3, ![60000, 3, 100]⟩
abbrev S40000x4x100 : Shape := ⟨3, ![40000, 4, 100]⟩

abbrev nBuf : Space → Nat
  | .hbm => 283
  | .vmem => 82
  | .smem => 0
  | _ => 0

abbrev hbmTy0_0 (i : Nat) : BufTy := match i % 128 with
  | 0 => ⟨S200000x62, .f32⟩
  | 1 => ⟨S220000x6, .f32⟩
  | 2 => ⟨S40000x1, .i32⟩
  | 3 => ⟨S40000x1, .i32⟩
  | 4 => ⟨S60000x2, .i32⟩
  | 5 => ⟨S60000x2, .i32⟩
  | 6 => ⟨S60000x3, .i32⟩
  | 7 => ⟨S60000x3, .i32⟩
  | 8 => ⟨S40000x4, .i32⟩
  | 9 => ⟨S40000x4, .i32⟩
  | 10 => ⟨S200000, .i32⟩
  | 11 => ⟨S62x100, .f32⟩
  | 12 => ⟨S100, .f32⟩
  | 13 => ⟨S4x68x100, .f32⟩
  | 14 => ⟨S4x100, .f32⟩
  | 15 => ⟨S100x100, .f32⟩
  | 16 => ⟨S100, .f32⟩
  | 17 => ⟨S4x106x100, .f32⟩
  | 18 => ⟨S4x100, .f32⟩
  | 19 => ⟨S62x512, .f32⟩
  | 20 => ⟨S512, .f32⟩
  | 21 => ⟨S100x512, .f32⟩
  | 22 => ⟨S512, .f32⟩
  | 23 => ⟨S100x512, .f32⟩
  | 24 => ⟨S512, .f32⟩
  | 25 => ⟨S1x512, .f32⟩
  | 26 => ⟨S200000x512, .f32⟩
  | 27 => ⟨S_, .f32⟩
  | 28 => ⟨S8000x512, .f32⟩
  | 29 => ⟨S200000x1, .i32⟩
  | 30 => ⟨S8000x512, .f32⟩
  | 31 => ⟨S1x100, .f32⟩
  | 32 => ⟨S_, .i32⟩
  | 33 => ⟨S40000x1, .i32⟩
  | 34 => ⟨S40000x1, .i1⟩
  | 35 => ⟨S_, .i32⟩
  | 36 => ⟨S40000x1, .i32⟩
  | 37 => ⟨S40000x1, .i32⟩
  | 38 => ⟨S40000x1, .i32⟩
  | 39 => ⟨S40000x1x1, .i32⟩
  | 40 => ⟨S40000x1x62, .f32⟩
  | 41 => ⟨S_, .f32⟩
  | 42 => ⟨S40000x62, .f32⟩
  | 43 => ⟨S_, .i32⟩
  | 44 => ⟨S40000x1, .i32⟩
  | 45 => ⟨S40000x1, .i1⟩
  | 46 => ⟨S_, .i32⟩
  | 47 => ⟨S40000x1, .i32⟩
  | 48 => ⟨S40000x1, .i32⟩
  | 49 => ⟨S40000x1, .i32⟩
  | 50 => ⟨S40000x1x1, .i32⟩
  | 51 => ⟨S40000x1x6, .f32⟩
  | 52 => ⟨S_, .f32⟩
  | 53 => ⟨S40000x6, .f32⟩
  | 54 => ⟨S40000x68, .f32⟩
  | 55 => ⟨S1x68x100, .f32⟩
  | 56 => ⟨S68x100, .f32⟩
  | 57 => ⟨S1x100, .f32⟩
  | 58 => ⟨S100, .f32⟩
  | 59 => ⟨S1x100, .f32⟩
  | 60 => ⟨S40000x100, .f32⟩
  | 61 => ⟨S_, .i32⟩
  | 62 => ⟨S60000x2, .i32⟩
  | 63 => ⟨S60000x2, .i1⟩
  | 64 => ⟨S_, .i32⟩
  | 65 => ⟨S60000x2, .i32⟩
  | 66 => ⟨S60000x2, .i32⟩
  | 67 => ⟨S60000x2, .i32⟩
  | 68 => ⟨S60000x2x1, .i32⟩
  | 69 => ⟨S60000x2x62, .f32⟩
  | 70 => ⟨S_, .f32⟩
  | 71 => ⟨S60000x62, .f32⟩
  | 72 => ⟨S_, .i32⟩
  | 73 => ⟨S60000x2, .i32⟩
  | 74 => ⟨S60000x2, .i1⟩
  | 75 => ⟨S_, .i32⟩
  | 76 => ⟨S60000x2, .i32⟩
  | 77 => ⟨S60000x2, .i32⟩
  | 78 => ⟨S60000x2, .i32⟩
  | 79 => ⟨S60000x2x1, .i32⟩
  | 80 => ⟨S60000x2x6, .f32⟩
  | 81 => ⟨S_, .f32⟩
  | 82 => ⟨S60000x6, .f32⟩
  | 83 => ⟨S60000x68, .f32⟩
  | 84 => ⟨S1x68x100, .f32⟩
  | 85 => ⟨S68x100, .f32⟩
  | 86 => ⟨S1x100, .f32⟩
  | 87 => ⟨S100, .f32⟩
  | 88 => ⟨S1x100, .f32⟩
  | 89 => ⟨S60000x100, .f32⟩
  | 90 => ⟨S_, .i32⟩
  | 91 => ⟨S60000x3, .i32⟩
  | 92 => ⟨S60000x3, .i1⟩
  | 93 => ⟨S_, .i32⟩
  | 94 => ⟨S60000x3, .i32⟩
  | 95 => ⟨S60000x3, .i32⟩
  | 96 => ⟨S60000x3, .i32⟩
  | 97 => ⟨S60000x3x1, .i32⟩
  | 98 => ⟨S60000x3x62, .f32⟩
  | 99 => ⟨S_, .f32⟩
  | 100 => ⟨S60000x62, .f32⟩
  | 101 => ⟨S_, .i32⟩
  | 102 => ⟨S60000x3, .i32⟩
  | 103 => ⟨S60000x3, .i1⟩
  | 104 => ⟨S_, .i32⟩
  | 105 => ⟨S60000x3, .i32⟩
  | 106 => ⟨S60000x3, .i32⟩
  | 107 => ⟨S60000x3, .i32⟩
  | 108 => ⟨S60000x3x1, .i32⟩
  | 109 => ⟨S60000x3x6, .f32⟩
  | 110 => ⟨S_, .f32⟩
  | 111 => ⟨S60000x6, .f32⟩
  | 112 => ⟨S60000x68, .f32⟩
  | 113 => ⟨S1x68x100, .f32⟩
  | 114 => ⟨S68x100, .f32⟩
  | 115 => ⟨S1x100, .f32⟩
  | 116 => ⟨S100, .f32⟩
  | 117 => ⟨S1x100, .f32⟩
  | 118 => ⟨S60000x100, .f32⟩
  | 119 => ⟨S_, .i32⟩
  | 120 => ⟨S40000x4, .i32⟩
  | 121 => ⟨S40000x4, .i1⟩
  | 122 => ⟨S_, .i32⟩
  | 123 => ⟨S40000x4, .i32⟩
  | 124 => ⟨S40000x4, .i32⟩
  | 125 => ⟨S40000x4, .i32⟩
  | 126 => ⟨S40000x4x1, .i32⟩
  | 127 => ⟨S40000x4x62, .f32⟩
  | _ => ⟨S200000x62, .f32⟩

abbrev hbmTy0_1 (i : Nat) : BufTy := match i % 128 with
  | 0 => ⟨S_, .f32⟩
  | 1 => ⟨S40000x62, .f32⟩
  | 2 => ⟨S_, .i32⟩
  | 3 => ⟨S40000x4, .i32⟩
  | 4 => ⟨S40000x4, .i1⟩
  | 5 => ⟨S_, .i32⟩
  | 6 => ⟨S40000x4, .i32⟩
  | 7 => ⟨S40000x4, .i32⟩
  | 8 => ⟨S40000x4, .i32⟩
  | 9 => ⟨S40000x4x1, .i32⟩
  | 10 => ⟨S40000x4x6, .f32⟩
  | 11 => ⟨S_, .f32⟩
  | 12 => ⟨S40000x6, .f32⟩
  | 13 => ⟨S40000x68, .f32⟩
  | 14 => ⟨S1x68x100, .f32⟩
  | 15 => ⟨S68x100, .f32⟩
  | 16 => ⟨S1x100, .f32⟩
  | 17 => ⟨S100, .f32⟩
  | 18 => ⟨S1x100, .f32⟩
  | 19 => ⟨S40000x100, .f32⟩
  | 20 => ⟨S200000x100, .f32⟩
  | 21 => ⟨S200000x100, .f32⟩
  | 22 => ⟨S1x512, .f32⟩
  | 23 => ⟨S200000x512, .f32⟩
  | 24 => ⟨S_, .f32⟩
  | 25 => ⟨S8000x512, .f32⟩
  | 26 => ⟨S200000x1, .i32⟩
  | 27 => ⟨S8000x512, .f32⟩
  | 28 => ⟨S8000x512, .f32⟩
  | 29 => ⟨S1x100, .f32⟩
  | 30 => ⟨S_, .i32⟩
  | 31 => ⟨S40000x1, .i32⟩
  | 32 => ⟨S40000x1, .i1⟩
  | 33 => ⟨S_, .i32⟩
  | 34 => ⟨S40000x1, .i32⟩
  | 35 => ⟨S40000x1, .i32⟩
  | 36 => ⟨S40000x1, .i32⟩
  | 37 => ⟨S40000x1x1, .i32⟩
  | 38 => ⟨S40000x1x100, .f32⟩
  | 39 => ⟨S_, .f32⟩
  | 40 => ⟨S40000x100, .f32⟩
  | 41 => ⟨S_, .i32⟩
  | 42 => ⟨S40000x1, .i32⟩
  | 43 => ⟨S40000x1, .i1⟩
  | 44 => ⟨S_, .i32⟩
  | 45 => ⟨S40000x1, .i32⟩
  | 46 => ⟨S40000x1, .i32⟩
  | 47 => ⟨S40000x1, .i32⟩
  | 48 => ⟨S40000x1x1, .i32⟩
  | 49 => ⟨S40000x1x6, .f32⟩
  | 50 => ⟨S_, .f32⟩
  | 51 => ⟨S40000x6, .f32⟩
  | 52 => ⟨S40000x106, .f32⟩
  | 53 => ⟨S1x106x100, .f32⟩
  | 54 => ⟨S106x100, .f32⟩
  | 55 => ⟨S1x100, .f32⟩
  | 56 => ⟨S100, .f32⟩
  | 57 => ⟨S1x100, .f32⟩
  | 58 => ⟨S40000x100, .f32⟩
  | 59 => ⟨S_, .i32⟩
  | 60 => ⟨S60000x2, .i32⟩
  | 61 => ⟨S60000x2, .i1⟩
  | 62 => ⟨S_, .i32⟩
  | 63 => ⟨S60000x2, .i32⟩
  | 64 => ⟨S60000x2, .i32⟩
  | 65 => ⟨S60000x2, .i32⟩
  | 66 => ⟨S60000x2x1, .i32⟩
  | 67 => ⟨S60000x2x100, .f32⟩
  | 68 => ⟨S_, .f32⟩
  | 69 => ⟨S60000x100, .f32⟩
  | 70 => ⟨S_, .i32⟩
  | 71 => ⟨S60000x2, .i32⟩
  | 72 => ⟨S60000x2, .i1⟩
  | 73 => ⟨S_, .i32⟩
  | 74 => ⟨S60000x2, .i32⟩
  | 75 => ⟨S60000x2, .i32⟩
  | 76 => ⟨S60000x2, .i32⟩
  | 77 => ⟨S60000x2x1, .i32⟩
  | 78 => ⟨S60000x2x6, .f32⟩
  | 79 => ⟨S_, .f32⟩
  | 80 => ⟨S60000x6, .f32⟩
  | 81 => ⟨S60000x106, .f32⟩
  | 82 => ⟨S1x106x100, .f32⟩
  | 83 => ⟨S106x100, .f32⟩
  | 84 => ⟨S1x100, .f32⟩
  | 85 => ⟨S100, .f32⟩
  | 86 => ⟨S1x100, .f32⟩
  | 87 => ⟨S60000x100, .f32⟩
  | 88 => ⟨S_, .i32⟩
  | 89 => ⟨S60000x3, .i32⟩
  | 90 => ⟨S60000x3, .i1⟩
  | 91 => ⟨S_, .i32⟩
  | 92 => ⟨S60000x3, .i32⟩
  | 93 => ⟨S60000x3, .i32⟩
  | 94 => ⟨S60000x3, .i32⟩
  | 95 => ⟨S60000x3x1, .i32⟩
  | 96 => ⟨S60000x3x100, .f32⟩
  | 97 => ⟨S_, .f32⟩
  | 98 => ⟨S60000x100, .f32⟩
  | 99 => ⟨S_, .i32⟩
  | 100 => ⟨S60000x3, .i32⟩
  | 101 => ⟨S60000x3, .i1⟩
  | 102 => ⟨S_, .i32⟩
  | 103 => ⟨S60000x3, .i32⟩
  | 104 => ⟨S60000x3, .i32⟩
  | 105 => ⟨S60000x3, .i32⟩
  | 106 => ⟨S60000x3x1, .i32⟩
  | 107 => ⟨S60000x3x6, .f32⟩
  | 108 => ⟨S_, .f32⟩
  | 109 => ⟨S60000x6, .f32⟩
  | 110 => ⟨S60000x106, .f32⟩
  | 111 => ⟨S1x106x100, .f32⟩
  | 112 => ⟨S106x100, .f32⟩
  | 113 => ⟨S1x100, .f32⟩
  | 114 => ⟨S100, .f32⟩
  | 115 => ⟨S1x100, .f32⟩
  | 116 => ⟨S60000x100, .f32⟩
  | 117 => ⟨S_, .i32⟩
  | 118 => ⟨S40000x4, .i32⟩
  | 119 => ⟨S40000x4, .i1⟩
  | 120 => ⟨S_, .i32⟩
  | 121 => ⟨S40000x4, .i32⟩
  | 122 => ⟨S40000x4, .i32⟩
  | 123 => ⟨S40000x4, .i32⟩
  | 124 => ⟨S40000x4x1, .i32⟩
  | 125 => ⟨S40000x4x100, .f32⟩
  | 126 => ⟨S_, .f32⟩
  | 127 => ⟨S40000x100, .f32⟩
  | _ => ⟨S200000x62, .f32⟩

abbrev hbmTy0_2 (i : Nat) : BufTy := match i % 128 with
  | 0 => ⟨S_, .i32⟩
  | 1 => ⟨S40000x4, .i32⟩
  | 2 => ⟨S40000x4, .i1⟩
  | 3 => ⟨S_, .i32⟩
  | 4 => ⟨S40000x4, .i32⟩
  | 5 => ⟨S40000x4, .i32⟩
  | 6 => ⟨S40000x4, .i32⟩
  | 7 => ⟨S40000x4x1, .i32⟩
  | 8 => ⟨S40000x4x6, .f32⟩
  | 9 => ⟨S_, .f32⟩
  | 10 => ⟨S40000x6, .f32⟩
  | 11 => ⟨S40000x106, .f32⟩
  | 12 => ⟨S1x106x100, .f32⟩
  | 13 => ⟨S106x100, .f32⟩
  | 14 => ⟨S1x100, .f32⟩
  | 15 => ⟨S100, .f32⟩
  | 16 => ⟨S1x100, .f32⟩
  | 17 => ⟨S40000x100, .f32⟩
  | 18 => ⟨S200000x100, .f32⟩
  | 19 => ⟨S200000x100, .f32⟩
  | 20 => ⟨S1x512, .f32⟩
  | 21 => ⟨S200000x512, .f32⟩
  | 22 => ⟨S_, .f32⟩
  | 23 => ⟨S8000x512, .f32⟩
  | 24 => ⟨S200000x1, .i32⟩
  | 25 => ⟨S8000x512, .f32⟩
  | 26 => ⟨S8000x512, .f32⟩
  | _ => ⟨S200000x62, .f32⟩

abbrev hbmTy (i : Nat) : BufTy := match i / 128 with
  | 0 => hbmTy0_0 i
  | 1 => hbmTy0_1 i
  | 2 => hbmTy0_2 i
  | _ => ⟨S200000x62, .f32⟩

abbrev bufTy : (tb : Table) → Fin (tcTables nBuf tb) → BufTy
  | .hbm, ⟨i, _⟩ => hbmTy i
  | .local _ .vmem, ⟨0, _⟩ => ⟨S2000x62, .f32⟩
  | .local _ .vmem, ⟨1, _⟩ => ⟨S2000x62, .f32⟩
  | .local _ .vmem, ⟨2, _⟩ => ⟨S62x512, .f32⟩
  | .local _ .vmem, ⟨3, _⟩ => ⟨S1x512, .f32⟩
  | .local _ .vmem, ⟨4, _⟩ => ⟨S2000x512, .f32⟩
  | .local _ .vmem, ⟨5, _⟩ => ⟨S2000x512, .f32⟩
  | .local _ .vmem, ⟨6, _⟩ => ⟨S2000x68, .f32⟩
  | .local _ .vmem, ⟨7, _⟩ => ⟨S2000x68, .f32⟩
  | .local _ .vmem, ⟨8, _⟩ => ⟨S68x100, .f32⟩
  | .local _ .vmem, ⟨9, _⟩ => ⟨S1x100, .f32⟩
  | .local _ .vmem, ⟨10, _⟩ => ⟨S2000x100, .f32⟩
  | .local _ .vmem, ⟨11, _⟩ => ⟨S2000x100, .f32⟩
  | .local _ .vmem, ⟨12, _⟩ => ⟨S2000x68, .f32⟩
  | .local _ .vmem, ⟨13, _⟩ => ⟨S2000x68, .f32⟩
  | .local _ .vmem, ⟨14, _⟩ => ⟨S68x100, .f32⟩
  | .local _ .vmem, ⟨15, _⟩ => ⟨S1x100, .f32⟩
  | .local _ .vmem, ⟨16, _⟩ => ⟨S2000x100, .f32⟩
  | .local _ .vmem, ⟨17, _⟩ => ⟨S2000x100, .f32⟩
  | .local _ .vmem, ⟨18, _⟩ => ⟨S2000x68, .f32⟩
  | .local _ .vmem, ⟨19, _⟩ => ⟨S2000x68, .f32⟩
  | .local _ .vmem, ⟨20, _⟩ => ⟨S68x100, .f32⟩
  | .local _ .vmem, ⟨21, _⟩ => ⟨S1x100, .f32⟩
  | .local _ .vmem, ⟨22, _⟩ => ⟨S2000x100, .f32⟩
  | .local _ .vmem, ⟨23, _⟩ => ⟨S2000x100, .f32⟩
  | .local _ .vmem, ⟨24, _⟩ => ⟨S2000x68, .f32⟩
  | .local _ .vmem, ⟨25, _⟩ => ⟨S2000x68, .f32⟩
  | .local _ .vmem, ⟨26, _⟩ => ⟨S68x100, .f32⟩
  | .local _ .vmem, ⟨27, _⟩ => ⟨S1x100, .f32⟩
  | .local _ .vmem, ⟨28, _⟩ => ⟨S2000x100, .f32⟩
  | .local _ .vmem, ⟨29, _⟩ => ⟨S2000x100, .f32⟩
  | .local _ .vmem, ⟨30, _⟩ => ⟨S2000x62, .f32⟩
  | .local _ .vmem, ⟨31, _⟩ => ⟨S2000x62, .f32⟩
  | .local _ .vmem, ⟨32, _⟩ => ⟨S62x100, .f32⟩
  | .local _ .vmem, ⟨33, _⟩ => ⟨S1x100, .f32⟩
  | .local _ .vmem, ⟨34, _⟩ => ⟨S2000x100, .f32⟩
  | .local _ .vmem, ⟨35, _⟩ => ⟨S2000x100, .f32⟩
  | .local _ .vmem, ⟨36, _⟩ => ⟨S2000x100, .f32⟩
  | .local _ .vmem, ⟨37, _⟩ => ⟨S2000x100, .f32⟩
  | .local _ .vmem, ⟨38, _⟩ => ⟨S2000x100, .f32⟩
  | .local _ .vmem, ⟨39, _⟩ => ⟨S2000x100, .f32⟩
  | .local _ .vmem, ⟨40, _⟩ => ⟨S100x512, .f32⟩
  | .local _ .vmem, ⟨41, _⟩ => ⟨S1x512, .f32⟩
  | .local _ .vmem, ⟨42, _⟩ => ⟨S2000x512, .f32⟩
  | .local _ .vmem, ⟨43, _⟩ => ⟨S2000x512, .f32⟩
  | .local _ .vmem, ⟨44, _⟩ => ⟨S2000x106, .f32⟩
  | .local _ .vmem, ⟨45, _⟩ => ⟨S2000x106, .f32⟩
  | .local _ .vmem, ⟨46, _⟩ => ⟨S106x100, .f32⟩
  | .local _ .vmem, ⟨47, _⟩ => ⟨S1x100, .f32⟩
  | .local _ .vmem, ⟨48, _⟩ => ⟨S2000x100, .f32⟩
  | .local _ .vmem, ⟨49, _⟩ => ⟨S2000x100, .f32⟩
  | .local _ .vmem, ⟨50, _⟩ => ⟨S2000x106, .f32⟩
  | .local _ .vmem, ⟨51, _⟩ => ⟨S2000x106, .f32⟩
  | .local _ .vmem, ⟨52, _⟩ => ⟨S106x100, .f32⟩
  | .local _ .vmem, ⟨53, _⟩ => ⟨S1x100, .f32⟩
  | .local _ .vmem, ⟨54, _⟩ => ⟨S2000x100, .f32⟩
  | .local _ .vmem, ⟨55, _⟩ => ⟨S2000x100, .f32⟩
  | .local _ .vmem, ⟨56, _⟩ => ⟨S2000x106, .f32⟩
  | .local _ .vmem, ⟨57, _⟩ => ⟨S2000x106, .f32⟩
  | .local _ .vmem, ⟨58, _⟩ => ⟨S106x100, .f32⟩
  | .local _ .vmem, ⟨59, _⟩ => ⟨S1x100, .f32⟩
  | .local _ .vmem, ⟨60, _⟩ => ⟨S2000x100, .f32⟩
  | .local _ .vmem, ⟨61, _⟩ => ⟨S2000x100, .f32⟩
  | .local _ .vmem, ⟨62, _⟩ => ⟨S2000x106, .f32⟩
  | .local _ .vmem, ⟨63, _⟩ => ⟨S2000x106, .f32⟩
  | .local _ .vmem, ⟨64, _⟩ => ⟨S106x100, .f32⟩
  | .local _ .vmem, ⟨65, _⟩ => ⟨S1x100, .f32⟩
  | .local _ .vmem, ⟨66, _⟩ => ⟨S2000x100, .f32⟩
  | .local _ .vmem, ⟨67, _⟩ => ⟨S2000x100, .f32⟩
  | .local _ .vmem, ⟨68, _⟩ => ⟨S2000x100, .f32⟩
  | .local _ .vmem, ⟨69, _⟩ => ⟨S2000x100, .f32⟩
  | .local _ .vmem, ⟨70, _⟩ => ⟨S100x100, .f32⟩
  | .local _ .vmem, ⟨71, _⟩ => ⟨S1x100, .f32⟩
  | .local _ .vmem, ⟨72, _⟩ => ⟨S2000x100, .f32⟩
  | .local _ .vmem, ⟨73, _⟩ => ⟨S2000x100, .f32⟩
  | .local _ .vmem, ⟨74, _⟩ => ⟨S2000x100, .f32⟩
  | .local _ .vmem, ⟨75, _⟩ => ⟨S2000x100, .f32⟩
  | .local _ .vmem, ⟨76, _⟩ => ⟨S2000x100, .f32⟩
  | .local _ .vmem, ⟨77, _⟩ => ⟨S2000x100, .f32⟩
  | .local _ .vmem, ⟨78, _⟩ => ⟨S100x512, .f32⟩
  | .local _ .vmem, ⟨79, _⟩ => ⟨S1x512, .f32⟩
  | .local _ .vmem, ⟨80, _⟩ => ⟨S2000x512, .f32⟩
  | .local _ .vmem, ⟨81, _⟩ => ⟨S2000x512, .f32⟩
  | _, _ => ⟨S200000x62, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | _, _ => false

abbrev semScoped : Fin 0 → Bool
  | ⟨_, h⟩ => absurd h (Nat.not_lt_zero _)

abbrev dmaSemScoped : Fin 82 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | _ => false

abbrev sig : RefSig :=
  ofTc nBuf bufTy 0 82 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_cst : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_c : Ref sig .tc := ⟨.hbm, 32, rfl⟩
abbrev main_v6 : Ref sig .tc := ⟨.hbm, 33, rfl⟩
abbrev main_v7 : Ref sig .tc := ⟨.hbm, 34, rfl⟩
abbrev main_c_0 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_cst_1 : Ref sig .tc := ⟨.hbm, 41, rfl⟩
abbrev main_v13 : Ref sig .tc := ⟨.hbm, 42, rfl⟩
abbrev main_c_2 : Ref sig .tc := ⟨.hbm, 43, rfl⟩
abbrev main_v14 : Ref sig .tc := ⟨.hbm, 44, rfl⟩
abbrev main_v15 : Ref sig .tc := ⟨.hbm, 45, rfl⟩
abbrev main_c_3 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_cst_4 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_c_5 : Ref sig .tc := ⟨.hbm, 61, rfl⟩
abbrev main_v29 : Ref sig .tc := ⟨.hbm, 62, rfl⟩
abbrev main_v30 : Ref sig .tc := ⟨.hbm, 63, rfl⟩
abbrev main_c_6 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_cst_7 : Ref sig .tc := ⟨.hbm, 70, rfl⟩
abbrev main_v36 : Ref sig .tc := ⟨.hbm, 71, rfl⟩
abbrev main_c_8 : Ref sig .tc := ⟨.hbm, 72, rfl⟩
abbrev main_v37 : Ref sig .tc := ⟨.hbm, 73, rfl⟩
abbrev main_v38 : Ref sig .tc := ⟨.hbm, 74, rfl⟩
abbrev main_c_9 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_cst_10 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_c_11 : Ref sig .tc := ⟨.hbm, 90, rfl⟩
abbrev main_v52 : Ref sig .tc := ⟨.hbm, 91, rfl⟩
abbrev main_v53 : Ref sig .tc := ⟨.hbm, 92, rfl⟩
abbrev main_c_12 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_cst_13 : Ref sig .tc := ⟨.hbm, 99, rfl⟩
abbrev main_v59 : Ref sig .tc := ⟨.hbm, 100, rfl⟩
abbrev main_c_14 : Ref sig .tc := ⟨.hbm, 101, rfl⟩
abbrev main_v60 : Ref sig .tc := ⟨.hbm, 102, rfl⟩
abbrev main_v61 : Ref sig .tc := ⟨.hbm, 103, rfl⟩
abbrev main_c_15 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_cst_16 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_c_17 : Ref sig .tc := ⟨.hbm, 119, rfl⟩
abbrev main_v75 : Ref sig .tc := ⟨.hbm, 120, rfl⟩
abbrev main_v76 : Ref sig .tc := ⟨.hbm, 121, rfl⟩
abbrev main_c_18 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_cst_19 : Ref sig .tc := ⟨.hbm, 128, rfl⟩
abbrev main_v82 : Ref sig .tc := ⟨.hbm, 129, rfl⟩
abbrev main_c_20 : Ref sig .tc := ⟨.hbm, 130, rfl⟩
abbrev main_v83 : Ref sig .tc := ⟨.hbm, 131, rfl⟩
abbrev main_v84 : Ref sig .tc := ⟨.hbm, 132, rfl⟩
abbrev main_c_21 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_v89 : Ref sig .tc := ⟨.hbm, 138, rfl⟩
abbrev main_cst_22 : Ref sig .tc := ⟨.hbm, 139, rfl⟩
abbrev main_v90 : Ref sig .tc := ⟨.hbm, 140, rfl⟩
abbrev main_v91 : Ref sig .tc := ⟨.hbm, 141, rfl⟩
abbrev main_v92 : Ref sig .tc := ⟨.hbm, 142, rfl⟩
abbrev main_v93 : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev main_v97 : Ref sig .tc := ⟨.hbm, 147, rfl⟩
abbrev main_v98 : Ref sig .tc := ⟨.hbm, 148, rfl⟩
abbrev main_v99 : Ref sig .tc := ⟨.hbm, 149, rfl⟩
abbrev main_v100 : Ref sig .tc := ⟨.hbm, 150, rfl⟩
abbrev main_v101 : Ref sig .tc := ⟨.hbm, 151, rfl⟩
abbrev main_cst_23 : Ref sig .tc := ⟨.hbm, 152, rfl⟩
abbrev main_v102 : Ref sig .tc := ⟨.hbm, 153, rfl⟩
abbrev main_v103 : Ref sig .tc := ⟨.hbm, 154, rfl⟩
abbrev main_v104 : Ref sig .tc := ⟨.hbm, 155, rfl⟩
abbrev main_v105 : Ref sig .tc := ⟨.hbm, 156, rfl⟩
abbrev main_v106 : Ref sig .tc := ⟨.hbm, 157, rfl⟩
abbrev main_c_24 : Ref sig .tc := ⟨.hbm, 158, rfl⟩
abbrev main_v107 : Ref sig .tc := ⟨.hbm, 159, rfl⟩
abbrev main_v108 : Ref sig .tc := ⟨.hbm, 160, rfl⟩
abbrev main_c_25 : Ref sig .tc := ⟨.hbm, 161, rfl⟩
abbrev main_v109 : Ref sig .tc := ⟨.hbm, 162, rfl⟩
abbrev main_v110 : Ref sig .tc := ⟨.hbm, 163, rfl⟩
abbrev main_v111 : Ref sig .tc := ⟨.hbm, 164, rfl⟩
abbrev main_v112 : Ref sig .tc := ⟨.hbm, 165, rfl⟩
abbrev main_v113 : Ref sig .tc := ⟨.hbm, 166, rfl⟩
abbrev main_cst_26 : Ref sig .tc := ⟨.hbm, 167, rfl⟩
abbrev main_v114 : Ref sig .tc := ⟨.hbm, 168, rfl⟩
abbrev main_c_27 : Ref sig .tc := ⟨.hbm, 169, rfl⟩
abbrev main_v115 : Ref sig .tc := ⟨.hbm, 170, rfl⟩
abbrev main_v116 : Ref sig .tc := ⟨.hbm, 171, rfl⟩
abbrev main_c_28 : Ref sig .tc := ⟨.hbm, 172, rfl⟩
abbrev main_v117 : Ref sig .tc := ⟨.hbm, 173, rfl⟩
abbrev main_v118 : Ref sig .tc := ⟨.hbm, 174, rfl⟩
abbrev main_v119 : Ref sig .tc := ⟨.hbm, 175, rfl⟩
abbrev main_v120 : Ref sig .tc := ⟨.hbm, 176, rfl⟩
abbrev main_v121 : Ref sig .tc := ⟨.hbm, 177, rfl⟩
abbrev main_cst_29 : Ref sig .tc := ⟨.hbm, 178, rfl⟩
abbrev main_v122 : Ref sig .tc := ⟨.hbm, 179, rfl⟩
abbrev main_v123 : Ref sig .tc := ⟨.hbm, 180, rfl⟩
abbrev main_v124 : Ref sig .tc := ⟨.hbm, 181, rfl⟩
abbrev main_v125 : Ref sig .tc := ⟨.hbm, 182, rfl⟩
abbrev main_v126 : Ref sig .tc := ⟨.hbm, 183, rfl⟩
abbrev main_v127 : Ref sig .tc := ⟨.hbm, 184, rfl⟩
abbrev main_v128 : Ref sig .tc := ⟨.hbm, 185, rfl⟩
abbrev main_v129 : Ref sig .tc := ⟨.hbm, 186, rfl⟩
abbrev main_c_30 : Ref sig .tc := ⟨.hbm, 187, rfl⟩
abbrev main_v130 : Ref sig .tc := ⟨.hbm, 188, rfl⟩
abbrev main_v131 : Ref sig .tc := ⟨.hbm, 189, rfl⟩
abbrev main_c_31 : Ref sig .tc := ⟨.hbm, 190, rfl⟩
abbrev main_v132 : Ref sig .tc := ⟨.hbm, 191, rfl⟩
abbrev main_v133 : Ref sig .tc := ⟨.hbm, 192, rfl⟩
abbrev main_v134 : Ref sig .tc := ⟨.hbm, 193, rfl⟩
abbrev main_v135 : Ref sig .tc := ⟨.hbm, 194, rfl⟩
abbrev main_v136 : Ref sig .tc := ⟨.hbm, 195, rfl⟩
abbrev main_cst_32 : Ref sig .tc := ⟨.hbm, 196, rfl⟩
abbrev main_v137 : Ref sig .tc := ⟨.hbm, 197, rfl⟩
abbrev main_c_33 : Ref sig .tc := ⟨.hbm, 198, rfl⟩
abbrev main_v138 : Ref sig .tc := ⟨.hbm, 199, rfl⟩
abbrev main_v139 : Ref sig .tc := ⟨.hbm, 200, rfl⟩
abbrev main_c_34 : Ref sig .tc := ⟨.hbm, 201, rfl⟩
abbrev main_v140 : Ref sig .tc := ⟨.hbm, 202, rfl⟩
abbrev main_v141 : Ref sig .tc := ⟨.hbm, 203, rfl⟩
abbrev main_v142 : Ref sig .tc := ⟨.hbm, 204, rfl⟩
abbrev main_v143 : Ref sig .tc := ⟨.hbm, 205, rfl⟩
abbrev main_v144 : Ref sig .tc := ⟨.hbm, 206, rfl⟩
abbrev main_cst_35 : Ref sig .tc := ⟨.hbm, 207, rfl⟩
abbrev main_v145 : Ref sig .tc := ⟨.hbm, 208, rfl⟩
abbrev main_v146 : Ref sig .tc := ⟨.hbm, 209, rfl⟩
abbrev main_v147 : Ref sig .tc := ⟨.hbm, 210, rfl⟩
abbrev main_v148 : Ref sig .tc := ⟨.hbm, 211, rfl⟩
abbrev main_v149 : Ref sig .tc := ⟨.hbm, 212, rfl⟩
abbrev main_v150 : Ref sig .tc := ⟨.hbm, 213, rfl⟩
abbrev main_v151 : Ref sig .tc := ⟨.hbm, 214, rfl⟩
abbrev main_v152 : Ref sig .tc := ⟨.hbm, 215, rfl⟩
abbrev main_c_36 : Ref sig .tc := ⟨.hbm, 216, rfl⟩
abbrev main_v153 : Ref sig .tc := ⟨.hbm, 217, rfl⟩
abbrev main_v154 : Ref sig .tc := ⟨.hbm, 218, rfl⟩
abbrev main_c_37 : Ref sig .tc := ⟨.hbm, 219, rfl⟩
abbrev main_v155 : Ref sig .tc := ⟨.hbm, 220, rfl⟩
abbrev main_v156 : Ref sig .tc := ⟨.hbm, 221, rfl⟩
abbrev main_v157 : Ref sig .tc := ⟨.hbm, 222, rfl⟩
abbrev main_v158 : Ref sig .tc := ⟨.hbm, 223, rfl⟩
abbrev main_v159 : Ref sig .tc := ⟨.hbm, 224, rfl⟩
abbrev main_cst_38 : Ref sig .tc := ⟨.hbm, 225, rfl⟩
abbrev main_v160 : Ref sig .tc := ⟨.hbm, 226, rfl⟩
abbrev main_c_39 : Ref sig .tc := ⟨.hbm, 227, rfl⟩
abbrev main_v161 : Ref sig .tc := ⟨.hbm, 228, rfl⟩
abbrev main_v162 : Ref sig .tc := ⟨.hbm, 229, rfl⟩
abbrev main_c_40 : Ref sig .tc := ⟨.hbm, 230, rfl⟩
abbrev main_v163 : Ref sig .tc := ⟨.hbm, 231, rfl⟩
abbrev main_v164 : Ref sig .tc := ⟨.hbm, 232, rfl⟩
abbrev main_v165 : Ref sig .tc := ⟨.hbm, 233, rfl⟩
abbrev main_v166 : Ref sig .tc := ⟨.hbm, 234, rfl⟩
abbrev main_v167 : Ref sig .tc := ⟨.hbm, 235, rfl⟩
abbrev main_cst_41 : Ref sig .tc := ⟨.hbm, 236, rfl⟩
abbrev main_v168 : Ref sig .tc := ⟨.hbm, 237, rfl⟩
abbrev main_v169 : Ref sig .tc := ⟨.hbm, 238, rfl⟩
abbrev main_v170 : Ref sig .tc := ⟨.hbm, 239, rfl⟩
abbrev main_v171 : Ref sig .tc := ⟨.hbm, 240, rfl⟩
abbrev main_v172 : Ref sig .tc := ⟨.hbm, 241, rfl⟩
abbrev main_v173 : Ref sig .tc := ⟨.hbm, 242, rfl⟩
abbrev main_v174 : Ref sig .tc := ⟨.hbm, 243, rfl⟩
abbrev main_v175 : Ref sig .tc := ⟨.hbm, 244, rfl⟩
abbrev main_c_42 : Ref sig .tc := ⟨.hbm, 245, rfl⟩
abbrev main_v176 : Ref sig .tc := ⟨.hbm, 246, rfl⟩
abbrev main_v177 : Ref sig .tc := ⟨.hbm, 247, rfl⟩
abbrev main_c_43 : Ref sig .tc := ⟨.hbm, 248, rfl⟩
abbrev main_v178 : Ref sig .tc := ⟨.hbm, 249, rfl⟩
abbrev main_v179 : Ref sig .tc := ⟨.hbm, 250, rfl⟩
abbrev main_v180 : Ref sig .tc := ⟨.hbm, 251, rfl⟩
abbrev main_v181 : Ref sig .tc := ⟨.hbm, 252, rfl⟩
abbrev main_v182 : Ref sig .tc := ⟨.hbm, 253, rfl⟩
abbrev main_cst_44 : Ref sig .tc := ⟨.hbm, 254, rfl⟩
abbrev main_v183 : Ref sig .tc := ⟨.hbm, 255, rfl⟩
abbrev main_c_45 : Ref sig .tc := ⟨.hbm, 256, rfl⟩
abbrev main_v184 : Ref sig .tc := ⟨.hbm, 257, rfl⟩
abbrev main_v185 : Ref sig .tc := ⟨.hbm, 258, rfl⟩
abbrev main_c_46 : Ref sig .tc := ⟨.hbm, 259, rfl⟩
abbrev main_v186 : Ref sig .tc := ⟨.hbm, 260, rfl⟩
abbrev main_v187 : Ref sig .tc := ⟨.hbm, 261, rfl⟩
abbrev main_v188 : Ref sig .tc := ⟨.hbm, 262, rfl⟩
abbrev main_v189 : Ref sig .tc := ⟨.hbm, 263, rfl⟩
abbrev main_v190 : Ref sig .tc := ⟨.hbm, 264, rfl⟩
abbrev main_cst_47 : Ref sig .tc := ⟨.hbm, 265, rfl⟩
abbrev main_v191 : Ref sig .tc := ⟨.hbm, 266, rfl⟩
abbrev main_v192 : Ref sig .tc := ⟨.hbm, 267, rfl⟩
abbrev main_v193 : Ref sig .tc := ⟨.hbm, 268, rfl⟩
abbrev main_v194 : Ref sig .tc := ⟨.hbm, 269, rfl⟩
abbrev main_v195 : Ref sig .tc := ⟨.hbm, 270, rfl⟩
abbrev main_v196 : Ref sig .tc := ⟨.hbm, 271, rfl⟩
abbrev main_v197 : Ref sig .tc := ⟨.hbm, 272, rfl⟩
abbrev main_v198 : Ref sig .tc := ⟨.hbm, 273, rfl⟩
abbrev main_v199 : Ref sig .tc := ⟨.hbm, 274, rfl⟩
abbrev main_v200 : Ref sig .tc := ⟨.hbm, 275, rfl⟩
abbrev main_v201 : Ref sig .tc := ⟨.hbm, 276, rfl⟩
abbrev main_v202 : Ref sig .tc := ⟨.hbm, 277, rfl⟩
abbrev main_cst_48 : Ref sig .tc := ⟨.hbm, 278, rfl⟩
abbrev main_v203 : Ref sig .tc := ⟨.hbm, 279, rfl⟩
abbrev main_v204 : Ref sig .tc := ⟨.hbm, 280, rfl⟩
abbrev main_v205 : Ref sig .tc := ⟨.hbm, 281, rfl⟩
abbrev main_v206 : Ref sig .tc := ⟨.hbm, 282, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg3_0 : Ref sig .tc := ⟨.vmem, 28, rfl⟩
abbrev cc4_stg3_1 : Ref sig .tc := ⟨.vmem, 29, rfl⟩
abbrev cc5_stg0_0 : Ref sig .tc := ⟨.vmem, 30, rfl⟩
abbrev cc5_stg0_1 : Ref sig .tc := ⟨.vmem, 31, rfl⟩
abbrev cc5_stg1_0 : Ref sig .tc := ⟨.vmem, 32, rfl⟩
abbrev cc5_stg2_0 : Ref sig .tc := ⟨.vmem, 33, rfl⟩
abbrev cc5_stg3_0 : Ref sig .tc := ⟨.vmem, 34, rfl⟩
abbrev cc5_stg3_1 : Ref sig .tc := ⟨.vmem, 35, rfl⟩
abbrev cc5_stg4_0 : Ref sig .tc := ⟨.vmem, 36, rfl⟩
abbrev cc5_stg4_1 : Ref sig .tc := ⟨.vmem, 37, rfl⟩
abbrev cc6_stg0_0 : Ref sig .tc := ⟨.vmem, 38, rfl⟩
abbrev cc6_stg0_1 : Ref sig .tc := ⟨.vmem, 39, rfl⟩
abbrev cc6_stg1_0 : Ref sig .tc := ⟨.vmem, 40, rfl⟩
abbrev cc6_stg2_0 : Ref sig .tc := ⟨.vmem, 41, rfl⟩
abbrev cc6_stg3_0 : Ref sig .tc := ⟨.vmem, 42, rfl⟩
abbrev cc6_stg3_1 : Ref sig .tc := ⟨.vmem, 43, rfl⟩
abbrev cc7_stg0_0 : Ref sig .tc := ⟨.vmem, 44, rfl⟩
abbrev cc7_stg0_1 : Ref sig .tc := ⟨.vmem, 45, rfl⟩
abbrev cc7_stg1_0 : Ref sig .tc := ⟨.vmem, 46, rfl⟩
abbrev cc7_stg2_0 : Ref sig .tc := ⟨.vmem, 47, rfl⟩
abbrev cc7_stg3_0 : Ref sig .tc := ⟨.vmem, 48, rfl⟩
abbrev cc7_stg3_1 : Ref sig .tc := ⟨.vmem, 49, rfl⟩
abbrev cc8_stg0_0 : Ref sig .tc := ⟨.vmem, 50, rfl⟩
abbrev cc8_stg0_1 : Ref sig .tc := ⟨.vmem, 51, rfl⟩
abbrev cc8_stg1_0 : Ref sig .tc := ⟨.vmem, 52, rfl⟩
abbrev cc8_stg2_0 : Ref sig .tc := ⟨.vmem, 53, rfl⟩
abbrev cc8_stg3_0 : Ref sig .tc := ⟨.vmem, 54, rfl⟩
abbrev cc8_stg3_1 : Ref sig .tc := ⟨.vmem, 55, rfl⟩
abbrev cc9_stg0_0 : Ref sig .tc := ⟨.vmem, 56, rfl⟩
abbrev cc9_stg0_1 : Ref sig .tc := ⟨.vmem, 57, rfl⟩
abbrev cc9_stg1_0 : Ref sig .tc := ⟨.vmem, 58, rfl⟩
abbrev cc9_stg2_0 : Ref sig .tc := ⟨.vmem, 59, rfl⟩
abbrev cc9_stg3_0 : Ref sig .tc := ⟨.vmem, 60, rfl⟩
abbrev cc9_stg3_1 : Ref sig .tc := ⟨.vmem, 61, rfl⟩
abbrev cc10_stg0_0 : Ref sig .tc := ⟨.vmem, 62, rfl⟩
abbrev cc10_stg0_1 : Ref sig .tc := ⟨.vmem, 63, rfl⟩
abbrev cc10_stg1_0 : Ref sig .tc := ⟨.vmem, 64, rfl⟩
abbrev cc10_stg2_0 : Ref sig .tc := ⟨.vmem, 65, rfl⟩
abbrev cc10_stg3_0 : Ref sig .tc := ⟨.vmem, 66, rfl⟩
abbrev cc10_stg3_1 : Ref sig .tc := ⟨.vmem, 67, rfl⟩
abbrev cc11_stg0_0 : Ref sig .tc := ⟨.vmem, 68, rfl⟩
abbrev cc11_stg0_1 : Ref sig .tc := ⟨.vmem, 69, rfl⟩
abbrev cc11_stg1_0 : Ref sig .tc := ⟨.vmem, 70, rfl⟩
abbrev cc11_stg2_0 : Ref sig .tc := ⟨.vmem, 71, rfl⟩
abbrev cc11_stg3_0 : Ref sig .tc := ⟨.vmem, 72, rfl⟩
abbrev cc11_stg3_1 : Ref sig .tc := ⟨.vmem, 73, rfl⟩
abbrev cc11_stg4_0 : Ref sig .tc := ⟨.vmem, 74, rfl⟩
abbrev cc11_stg4_1 : Ref sig .tc := ⟨.vmem, 75, rfl⟩
abbrev cc12_stg0_0 : Ref sig .tc := ⟨.vmem, 76, rfl⟩
abbrev cc12_stg0_1 : Ref sig .tc := ⟨.vmem, 77, rfl⟩
abbrev cc12_stg1_0 : Ref sig .tc := ⟨.vmem, 78, rfl⟩
abbrev cc12_stg2_0 : Ref sig .tc := ⟨.vmem, 79, rfl⟩
abbrev cc12_stg3_0 : Ref sig .tc := ⟨.vmem, 80, rfl⟩
abbrev cc12_stg3_1 : Ref sig .tc := ⟨.vmem, 81, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem3_0 : DmaSem sig := 28
abbrev cc4_sem3_1 : DmaSem sig := 29
abbrev cc5_sem0_0 : DmaSem sig := 30
abbrev cc5_sem0_1 : DmaSem sig := 31
abbrev cc5_sem1_0 : DmaSem sig := 32
abbrev cc5_sem2_0 : DmaSem sig := 33
abbrev cc5_sem3_0 : DmaSem sig := 34
abbrev cc5_sem3_1 : DmaSem sig := 35
abbrev cc5_sem4_0 : DmaSem sig := 36
abbrev cc5_sem4_1 : DmaSem sig := 37
abbrev cc6_sem0_0 : DmaSem sig := 38
abbrev cc6_sem0_1 : DmaSem sig := 39
abbrev cc6_sem1_0 : DmaSem sig := 40
abbrev cc6_sem2_0 : DmaSem sig := 41
abbrev cc6_sem3_0 : DmaSem sig := 42
abbrev cc6_sem3_1 : DmaSem sig := 43
abbrev cc7_sem0_0 : DmaSem sig := 44
abbrev cc7_sem0_1 : DmaSem sig := 45
abbrev cc7_sem1_0 : DmaSem sig := 46
abbrev cc7_sem2_0 : DmaSem sig := 47
abbrev cc7_sem3_0 : DmaSem sig := 48
abbrev cc7_sem3_1 : DmaSem sig := 49
abbrev cc8_sem0_0 : DmaSem sig := 50
abbrev cc8_sem0_1 : DmaSem sig := 51
abbrev cc8_sem1_0 : DmaSem sig := 52
abbrev cc8_sem2_0 : DmaSem sig := 53
abbrev cc8_sem3_0 : DmaSem sig := 54
abbrev cc8_sem3_1 : DmaSem sig := 55
abbrev cc9_sem0_0 : DmaSem sig := 56
abbrev cc9_sem0_1 : DmaSem sig := 57
abbrev cc9_sem1_0 : DmaSem sig := 58
abbrev cc9_sem2_0 : DmaSem sig := 59
abbrev cc9_sem3_0 : DmaSem sig := 60
abbrev cc9_sem3_1 : DmaSem sig := 61
abbrev cc10_sem0_0 : DmaSem sig := 62
abbrev cc10_sem0_1 : DmaSem sig := 63
abbrev cc10_sem1_0 : DmaSem sig := 64
abbrev cc10_sem2_0 : DmaSem sig := 65
abbrev cc10_sem3_0 : DmaSem sig := 66
abbrev cc10_sem3_1 : DmaSem sig := 67
abbrev cc11_sem0_0 : DmaSem sig := 68
abbrev cc11_sem0_1 : DmaSem sig := 69
abbrev cc11_sem1_0 : DmaSem sig := 70
abbrev cc11_sem2_0 : DmaSem sig := 71
abbrev cc11_sem3_0 : DmaSem sig := 72
abbrev cc11_sem3_1 : DmaSem sig := 73
abbrev cc11_sem4_0 : DmaSem sig := 74
abbrev cc11_sem4_1 : DmaSem sig := 75
abbrev cc12_sem0_0 : DmaSem sig := 76
abbrev cc12_sem0_1 : DmaSem sig := 77
abbrev cc12_sem1_0 : DmaSem sig := 78
abbrev cc12_sem2_0 : DmaSem sig := 79
abbrev cc12_sem3_0 : DmaSem sig := 80
abbrev cc12_sem3_1 : DmaSem sig := 81

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x62 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S62x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x68 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S68x100 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x100 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x100 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![30], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x68 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S68x100 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x100 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x100 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![30], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x68 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S68x100 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x100 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x100 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x68 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S68x100 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x100 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S2000x100 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![100], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x62 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S62x100 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x100 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S2000x100 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 2 → Memref sig .tc .vmem S2000x100 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![100], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x100 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S100x512 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x512 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S2000x512 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x106 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S106x100 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x100 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S2000x100 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev grid8 : Pipeline.Grid := ⟨1, ![30], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S2000x106 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S106x100 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x100 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 2 → Memref sig .tc .vmem S2000x100 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev grid9 : Pipeline.Grid := ⟨1, ![30], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S2000x106 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S106x100 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x100 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 2 → Memref sig .tc .vmem S2000x100 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

abbrev grid10 : Pipeline.Grid := ⟨1, ![20], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S2000x106 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S106x100 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S1x100 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 2 → Memref sig .tc .vmem S2000x100 .f32 := fun | 0 => Memref.whole cc10_stg3_0 | 1 => Memref.whole cc10_stg3_1 | ⟨_ + 2, h⟩ => absurd h (Nat.not_lt.2 (Nat.le_add_left _ _))
abbrev sem10_3 : Fin 2 → DmaSem sig := fun | 0 => cc10_sem3_0 | 1 => cc10_sem3_1 | ⟨_ + 2, h⟩ => absurd h (Nat.not_lt.2 (Nat.le_add_left _ _))
abbrev reads10_3 : Fin grid10.rank → Bool := ![true]

abbrev grid11 : Pipeline.Grid := ⟨1, ![100], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_4 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S2000x100 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S100x100 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S1x100 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 2 → Memref sig .tc .vmem S2000x100 .f32 := fun | 0 => Memref.whole cc11_stg3_0 | 1 => Memref.whole cc11_stg3_1 | ⟨_ + 2, h⟩ => absurd h (Nat.not_lt.2 (Nat.le_add_left _ _))
abbrev sem11_3 : Fin 2 → DmaSem sig := fun | 0 => cc11_sem3_0 | 1 => cc11_sem3_1 | ⟨_ + 2, h⟩ => absurd h (Nat.not_lt.2 (Nat.le_add_left _ _))
abbrev reads11_3 : Fin grid11.rank → Bool := ![true]

abbrev stage11_4 : Fin 2 → Memref sig .tc .vmem S2000x100 .f32 := fun | 0 => Memref.whole cc11_stg4_0 | 1 => Memref.whole cc11_stg4_1 | ⟨_ + 2, h⟩ => absurd h (Nat.not_lt.2 (Nat.le_add_left _ _))
abbrev sem11_4 : Fin 2 → DmaSem sig := fun | 0 => cc11_sem4_0 | 1 => cc11_sem4_1 | ⟨_ + 2, h⟩ => absurd h (Nat.not_lt.2 (Nat.le_add_left _ _))
abbrev reads11_4 : Fin grid11.rank → Bool := ![true]

abbrev grid12 : Pipeline.Grid := ⟨1, ![100], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_2 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_3 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S2000x100 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 1 → Memref sig .tc .vmem S100x512 .f32 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false]

abbrev stage12_2 : Fin 1 → Memref sig .tc .vmem S1x512 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev stage12_3 : Fin 2 → Memref sig .tc .vmem S2000x512 .f32 := fun | 0 => Memref.whole cc12_stg3_0 | 1 => Memref.whole cc12_stg3_1 | ⟨_ + 2, h⟩ => absurd h (Nat.not_lt.2 (Nat.le_add_left _ _))
abbrev sem12_3 : Fin 2 → DmaSem sig := fun | 0 => cc12_sem3_0 | 1 => cc12_sem3_1 | ⟨_ + 2, h⟩ => absurd h (Nat.not_lt.2 (Nat.le_add_left _ _))
abbrev reads12_3 : Fin grid12.rank → Bool := ![true]

class Facts₀ : Prop where
  shapeCasts_S512_S1x512 : S512.ShapeCasts S1x512
  inb_S2000x62_S2000x62_0_0 : ∀ a, (![0, 0] : Fin 2 → Nat) a + S2000x62.size a ≤ S2000x62.size a
  h_S2000x62 : 0 < S2000x62.numel
  bitsLt_bf16_f32 : FTy.bits .bf16 < FTy.bits .f32
  inb_S62x512_S62x512_0_0 : ∀ a, (![0, 0] : Fin 2 → Nat) a + S62x512.size a ≤ S62x512.size a
  h_S62x512 : 0 < S62x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2000x512 : S1x512.Broadcasts S2000x512
  reduces_S2000x512_S2000 : S2000x512.Reduces [1] S2000
  shapeCasts_S2000_S2000x1 : S2000.ShapeCasts S2000x1
  broadcasts_S2000x1_S2000x512 : S2000x1.Broadcasts S2000x512
  inb_S2000x512_S2000x512_0_0 : ∀ a, (![0, 0] : Fin 2 → Nat) a + S2000x512.size a ≤ S2000x512.size a
  h_S2000x512 : 0 < S2000x512.numel
  bcast_S_S8000x512 : S_.BroadcastsInDim S8000x512 (![] : Fin 0 → Fin S8000x512.rank)
  bcast_S200000_S200000x1_0 : S200000.BroadcastsInDim S200000x1 (![0] : Fin 1 → Fin S200000x1.rank)
  shapeCasts_S100_S1x100 : S100.ShapeCasts S1x100
  bcast_S_S40000x1 : S_.BroadcastsInDim S40000x1 (![] : Fin 0 → Fin S40000x1.rank)
  bcast_S40000x1_S40000x1x1_0_1 : S40000x1.BroadcastsInDim S40000x1x1 (![0, 1] : Fin 2 → Fin S40000x1x1.rank)
  reducesTo_S40000x1x62_S40000x62_d1 : S40000x1x62.ReducesTo [1] S40000x62
  h_S_ : 0 < S_.numel
  reducesTo_S40000x1x6_S40000x6_d1 : S40000x1x6.ReducesTo [1] S40000x6
  concatenates_S40000x62_S40000x6_S40000x68_d1 : Shape.Concatenates [S40000x62, S40000x6] S40000x68 1
  slices_S4x68x100_S1x68x100_0_0_0 : S4x68x100.Slices ![0, 0, 0] S1x68x100
  shapeCasts_S1x68x100_S68x100 : S1x68x100.ShapeCasts S68x100
  slices_S4x100_S1x100_0_0 : S4x100.Slices ![0, 0] S1x100
  shapeCasts_S1x100_S100 : S1x100.ShapeCasts S100
  inb_S2000x68_S2000x68_0_0 : ∀ a, (![0, 0] : Fin 2 → Nat) a + S2000x68.size a ≤ S2000x68.size a
  h_S2000x68 : 0 < S2000x68.numel
  shapeCasts_S2000x68_S2000x68 : S2000x68.ShapeCasts S2000x68
  inb_S68x100_S68x100_0_0 : ∀ a, (![0, 0] : Fin 2 → Nat) a + S68x100.size a ≤ S68x100.size a
  h_S68x100 : 0 < S68x100.numel
  shapeCasts_S68x100_S68x100 : S68x100.ShapeCasts S68x100
  inb_S1x100_S1x100_0_0 : ∀ a, (![0, 0] : Fin 2 → Nat) a + S1x100.size a ≤ S1x100.size a
  h_S1x100 : 0 < S1x100.numel
  shapeCasts_S1x100_S1x100 : S1x100.ShapeCasts S1x100
  broadcasts_S1x100_S2000x100 : S1x100.Broadcasts S2000x100
  inb_S2000x100_S2000x100_0_0 : ∀ a, (![0, 0] : Fin 2 → Nat) a + S2000x100.size a ≤ S2000x100.size a
  h_S2000x100 : 0 < S2000x100.numel
  bcast_S_S60000x2 : S_.BroadcastsInDim S60000x2 (![] : Fin 0 → Fin S60000x2.rank)
  bcast_S60000x2_S60000x2x1_0_1 : S60000x2.BroadcastsInDim S60000x2x1 (![0, 1] : Fin 2 → Fin S60000x2x1.rank)
  reducesTo_S60000x2x62_S60000x62_d1 : S60000x2x62.ReducesTo [1] S60000x62
  reducesTo_S60000x2x6_S60000x6_d1 : S60000x2x6.ReducesTo [1] S60000x6
  concatenates_S60000x62_S60000x6_S60000x68_d1 : Shape.Concatenates [S60000x62, S60000x6] S60000x68 1
  slices_S4x68x100_S1x68x100_1_0_0 : S4x68x100.Slices ![1, 0, 0] S1x68x100
  slices_S4x100_S1x100_1_0 : S4x100.Slices ![1, 0] S1x100
  bcast_S_S60000x3 : S_.BroadcastsInDim S60000x3 (![] : Fin 0 → Fin S60000x3.rank)
  bcast_S60000x3_S60000x3x1_0_1 : S60000x3.BroadcastsInDim S60000x3x1 (![0, 1] : Fin 2 → Fin S60000x3x1.rank)
  reducesTo_S60000x3x62_S60000x62_d1 : S60000x3x62.ReducesTo [1] S60000x62
  reducesTo_S60000x3x6_S60000x6_d1 : S60000x3x6.ReducesTo [1] S60000x6
  slices_S4x68x100_S1x68x100_2_0_0 : S4x68x100.Slices ![2, 0, 0] S1x68x100
  slices_S4x100_S1x100_2_0 : S4x100.Slices ![2, 0] S1x100
  bcast_S_S40000x4 : S_.BroadcastsInDim S40000x4 (![] : Fin 0 → Fin S40000x4.rank)
  bcast_S40000x4_S40000x4x1_0_1 : S40000x4.BroadcastsInDim S40000x4x1 (![0, 1] : Fin 2 → Fin S40000x4x1.rank)
  reducesTo_S40000x4x62_S40000x62_d1 : S40000x4x62.ReducesTo [1] S40000x62
  reducesTo_S40000x4x6_S40000x6_d1 : S40000x4x6.ReducesTo [1] S40000x6
  slices_S4x68x100_S1x68x100_3_0_0 : S4x68x100.Slices ![3, 0, 0] S1x68x100
  slices_S4x100_S1x100_3_0 : S4x100.Slices ![3, 0] S1x100
  concatenates_S40000x100_S60000x100_S60000x100_S40000x100_S200000x100_d0 : Shape.Concatenates [S40000x100, S60000x100, S60000x100, S40000x100] S200000x100 0
  inb_S62x100_S62x100_0_0 : ∀ a, (![0, 0] : Fin 2 → Nat) a + S62x100.size a ≤ S62x100.size a
  h_S62x100 : 0 < S62x100.numel
  shapeCasts_S2000x100_S2000x100 : S2000x100.ShapeCasts S2000x100
  reduces_S2000x100_S2000 : S2000x100.Reduces [1] S2000
  broadcasts_S2000x1_S2000x100 : S2000x1.Broadcasts S2000x100
  inb_S100x512_S100x512_0_0 : ∀ a, (![0, 0] : Fin 2 → Nat) a + S100x512.size a ≤ S100x512.size a
  h_S100x512 : 0 < S100x512.numel
  reducesTo_S40000x1x100_S40000x100_d1 : S40000x1x100.ReducesTo [1] S40000x100
  concatenates_S40000x100_S40000x6_S40000x106_d1 : Shape.Concatenates [S40000x100, S40000x6] S40000x106 1
  slices_S4x106x100_S1x106x100_0_0_0 : S4x106x100.Slices ![0, 0, 0] S1x106x100
  shapeCasts_S1x106x100_S106x100 : S1x106x100.ShapeCasts S106x100
  inb_S2000x106_S2000x106_0_0 : ∀ a, (![0, 0] : Fin 2 → Nat) a + S2000x106.size a ≤ S2000x106.size a
  h_S2000x106 : 0 < S2000x106.numel
  shapeCasts_S2000x106_S2000x106 : S2000x106.ShapeCasts S2000x106
  inb_S106x100_S106x100_0_0 : ∀ a, (![0, 0] : Fin 2 → Nat) a + S106x100.size a ≤ S106x100.size a
  h_S106x100 : 0 < S106x100.numel
  shapeCasts_S106x100_S106x100 : S106x100.ShapeCasts S106x100
  reducesTo_S60000x2x100_S60000x100_d1 : S60000x2x100.ReducesTo [1] S60000x100
  concatenates_S60000x100_S60000x6_S60000x106_d1 : Shape.Concatenates [S60000x100, S60000x6] S60000x106 1
  slices_S4x106x100_S1x106x100_1_0_0 : S4x106x100.Slices ![1, 0, 0] S1x106x100
  reducesTo_S60000x3x100_S60000x100_d1 : S60000x3x100.ReducesTo [1] S60000x100
  slices_S4x106x100_S1x106x100_2_0_0 : S4x106x100.Slices ![2, 0, 0] S1x106x100
  reducesTo_S40000x4x100_S40000x100_d1 : S40000x4x100.ReducesTo [1] S40000x100
  slices_S4x106x100_S1x106x100_3_0_0 : S4x106x100.Slices ![3, 0, 0] S1x106x100
  inb_S100x100_S100x100_0_0 : ∀ a, (![0, 0] : Fin 2 → Nat) a + S100x100.size a ≤ S100x100.size a
  h_S100x100 : 0 < S100x100.numel
  dot_S2000x62_S62x512_S2000x512_1_0_0_1_n_n_wf : DotDims.WF S2000x62 S62x512 S2000x512 [1] [0] [0] [1] [] []
  scatter_S8000x512_S200000x1_S200000x512_1_0_0_1_wf : ScatterDims.WF S8000x512 S200000x1 S200000x512 [1] [0] [0] 1
  gather_S200000x62_S40000x1x1_S40000x1x62_2_0_n_n_0_2_162_wf : GatherDims.WF S200000x62 S40000x1x1 S40000x1x62 [2] [0] [] [0] [] 2 ![1, 62]
  gather_S220000x6_S40000x1x1_S40000x1x6_2_0_n_n_0_2_16_wf : GatherDims.WF S220000x6 S40000x1x1 S40000x1x6 [2] [0] [] [0] [] 2 ![1, 6]
  dot_S2000x68_S68x100_S2000x100_1_0_0_1_n_n_wf : DotDims.WF S2000x68 S68x100 S2000x100 [1] [0] [0] [1] [] []
  gather_S200000x62_S60000x2x1_S60000x2x62_2_0_n_n_0_2_162_wf : GatherDims.WF S200000x62 S60000x2x1 S60000x2x62 [2] [0] [] [0] [] 2 ![1, 62]
  gather_S220000x6_S60000x2x1_S60000x2x6_2_0_n_n_0_2_16_wf : GatherDims.WF S220000x6 S60000x2x1 S60000x2x6 [2] [0] [] [0] [] 2 ![1, 6]
  gather_S200000x62_S60000x3x1_S60000x3x62_2_0_n_n_0_2_162_wf : GatherDims.WF S200000x62 S60000x3x1 S60000x3x62 [2] [0] [] [0] [] 2 ![1, 62]
  gather_S220000x6_S60000x3x1_S60000x3x6_2_0_n_n_0_2_16_wf : GatherDims.WF S220000x6 S60000x3x1 S60000x3x6 [2] [0] [] [0] [] 2 ![1, 6]
  gather_S200000x62_S40000x4x1_S40000x4x62_2_0_n_n_0_2_162_wf : GatherDims.WF S200000x62 S40000x4x1 S40000x4x62 [2] [0] [] [0] [] 2 ![1, 62]
  gather_S220000x6_S40000x4x1_S40000x4x6_2_0_n_n_0_2_16_wf : GatherDims.WF S220000x6 S40000x4x1 S40000x4x6 [2] [0] [] [0] [] 2 ![1, 6]
  dot_S2000x62_S62x100_S2000x100_1_0_0_1_n_n_wf : DotDims.WF S2000x62 S62x100 S2000x100 [1] [0] [0] [1] [] []
  dot_S2000x100_S100x512_S2000x512_1_0_0_1_n_n_wf : DotDims.WF S2000x100 S100x512 S2000x512 [1] [0] [0] [1] [] []
  gather_S200000x100_S40000x1x1_S40000x1x100_2_0_n_n_0_2_1100_wf : GatherDims.WF S200000x100 S40000x1x1 S40000x1x100 [2] [0] [] [0] [] 2 ![1, 100]
  dot_S2000x106_S106x100_S2000x100_1_0_0_1_n_n_wf : DotDims.WF S2000x106 S106x100 S2000x100 [1] [0] [0] [1] [] []
  gather_S200000x100_S60000x2x1_S60000x2x100_2_0_n_n_0_2_1100_wf : GatherDims.WF S200000x100 S60000x2x1 S60000x2x100 [2] [0] [] [0] [] 2 ![1, 100]
  gather_S200000x100_S60000x3x1_S60000x3x100_2_0_n_n_0_2_1100_wf : GatherDims.WF S200000x100 S60000x3x1 S60000x3x100 [2] [0] [] [0] [] 2 ![1, 100]
  gather_S200000x100_S40000x4x1_S40000x4x100_2_0_n_n_0_2_1100_wf : GatherDims.WF S200000x100 S40000x4x1 S40000x4x100 [2] [0] [] [0] [] 2 ![1, 100]
  dot_S2000x100_S100x100_S2000x100_1_0_0_1_n_n_wf : DotDims.WF S2000x100 S100x100 S2000x100 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x62.size a ≤ S200000x62.size a
  hwx0_0 : ∀ i : grid0.Coords, EltTy.bits .f32 = 32 ∨ (Rect.block (s := S200000x62) S2000x62.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S62x512.size a ≤ S62x512.size a
  hwx0_1 : ∀ i : grid0.Coords, EltTy.bits .f32 = 32 ∨ (Rect.block (s := S62x512) S62x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x512.size a ≤ S200000x512.size a
  hwx0_3 : ∀ i : grid0.Coords, EltTy.bits .f32 = 32 ∨ (Rect.block (s := S200000x512) S2000x512.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x68.size a ≤ S40000x68.size a
  hwx1_0 : ∀ i : grid1.Coords, EltTy.bits .f32 = 32 ∨ (Rect.block (s := S40000x68) S2000x68.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S68x100.size a ≤ S68x100.size a
  hwx1_1 : ∀ i : grid1.Coords, EltTy.bits .f32 = 32 ∨ (Rect.block (s := S68x100) S68x100.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x100.size a ≤ S1x100.size a
  hwx1_2 : ∀ i : grid1.Coords, EltTy.bits .f32 = 32 ∨ (Rect.block (s := S1x100) S1x100.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x100.size a ≤ S40000x100.size a
  hwx1_3 : ∀ i : grid1.Coords, EltTy.bits .f32 = 32 ∨ (Rect.block (s := S40000x100) S2000x100.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x68.size a ≤ S60000x68.size a
  hwx2_0 : ∀ i : grid2.Coords, EltTy.bits .f32 = 32 ∨ (Rect.block (s := S60000x68) S2000x68.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S68x100.size a ≤ S68x100.size a
  hwx2_1 : ∀ i : grid2.Coords, EltTy.bits .f32 = 32 ∨ (Rect.block (s := S68x100) S68x100.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x100.size a ≤ S1x100.size a
  hwx2_2 : ∀ i : grid2.Coords, EltTy.bits .f32 = 32 ∨ (Rect.block (s := S1x100) S1x100.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x100.size a ≤ S60000x100.size a
  hwx2_3 : ∀ i : grid2.Coords, EltTy.bits .f32 = 32 ∨ (Rect.block (s := S60000x100) S2000x100.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x68.size a ≤ S60000x68.size a
  hwx3_0 : ∀ i : grid3.Coords, EltTy.bits .f32 = 32 ∨ (Rect.block (s := S60000x68) S2000x68.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S68x100.size a ≤ S68x100.size a
  hwx3_1 : ∀ i : grid3.Coords, EltTy.bits .f32 = 32 ∨ (Rect.block (s := S68x100) S68x100.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x100.size a ≤ S1x100.size a
  hwx3_2 : ∀ i : grid3.Coords, EltTy.bits .f32 = 32 ∨ (Rect.block (s := S1x100) S1x100.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x100.size a ≤ S60000x100.size a
  hwx3_3 : ∀ i : grid3.Coords, EltTy.bits .f32 = 32 ∨ (Rect.block (s := S60000x100) S2000x100.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x68.size a ≤ S40000x68.size a
  hwx4_0 : ∀ i : grid4.Coords, EltTy.bits .f32 = 32 ∨ (Rect.block (s := S40000x68) S2000x68.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S68x100.size a ≤ S68x100.size a
  hwx4_1 : ∀ i : grid4.Coords, EltTy.bits .f32 = 32 ∨ (Rect.block (s := S68x100) S68x100.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x100.size a ≤ S1x100.size a
  hwx4_2 : ∀ i : grid4.Coords, EltTy.bits .f32 = 32 ∨ (Rect.block (s := S1x100) S1x100.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x100.size a ≤ S40000x100.size a
  hwx4_3 : ∀ i : grid4.Coords, EltTy.bits .f32 = 32 ∨ (Rect.block (s := S40000x100) S2000x100.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x62.size a ≤ S200000x62.size a
  hwx5_0 : ∀ i : grid5.Coords, EltTy.bits .f32 = 32 ∨ (Rect.block (s := S200000x62) S2000x62.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S62x100.size a ≤ S62x100.size a
  hwx5_1 : ∀ i : grid5.Coords, EltTy.bits .f32 = 32 ∨ (Rect.block (s := S62x100) S62x100.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x100.size a ≤ S1x100.size a
  hwx5_2 : ∀ i : grid5.Coords, EltTy.bits .f32 = 32 ∨ (Rect.block (s := S1x100) S1x100.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2000x100.size a ≤ S200000x100.size a
  hwx5_3 : ∀ i : grid5.Coords, EltTy.bits .f32 = 32 ∨ (Rect.block (s := S200000x100) S2000x100.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S2000x100.size a ≤ S200000x100.size a
  hwx5_4 : ∀ i : grid5.Coords, EltTy.bits .f32 = 32 ∨ (Rect.block (s := S200000x100) S2000x100.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x100.size a ≤ S200000x100.size a
  hwx6_0 : ∀ i : grid6.Coords, EltTy.bits .f32 = 32 ∨ (Rect.block (s := S200000x100) S2000x100.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S100x512.size a ≤ S100x512.size a
  hwx6_1 : ∀ i : grid6.Coords, EltTy.bits .f32 = 32 ∨ (Rect.block (s := S100x512) S100x512.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x512.size a ≤ S1x512.size a
  hwx6_2 : ∀ i : grid6.Coords, EltTy.bits .f32 = 32 ∨ (Rect.block (s := S1x512) S1x512.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S2000x512.size a ≤ S200000x512.size a
  hwx6_3 : ∀ i : grid6.Coords, EltTy.bits .f32 = 32 ∨ (Rect.block (s := S200000x512) S2000x512.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x106.size a ≤ S40000x106.size a
  hwx7_0 : ∀ i : grid7.Coords, EltTy.bits .f32 = 32 ∨ (Rect.block (s := S40000x106) S2000x106.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S106x100.size a ≤ S106x100.size a
  hwx7_1 : ∀ i : grid7.Coords, EltTy.bits .f32 = 32 ∨ (Rect.block (s := S106x100) S106x100.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x100.size a ≤ S1x100.size a
  hwx7_2 : ∀ i : grid7.Coords, EltTy.bits .f32 = 32 ∨ (Rect.block (s := S1x100) S1x100.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S2000x100.size a ≤ S40000x100.size a
  hwx7_3 : ∀ i : grid7.Coords, EltTy.bits .f32 = 32 ∨ (Rect.block (s := S40000x100) S2000x100.size (cc7_transform_3 i) (hinb7_3 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S2000x106.size a ≤ S60000x106.size a
  hwx8_0 : ∀ i : grid8.Coords, EltTy.bits .f32 = 32 ∨ (Rect.block (s := S60000x106) S2000x106.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S106x100.size a ≤ S106x100.size a
  hwx8_1 : ∀ i : grid8.Coords, EltTy.bits .f32 = 32 ∨ (Rect.block (s := S106x100) S106x100.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x100.size a ≤ S1x100.size a
  hwx8_2 : ∀ i : grid8.Coords, EltTy.bits .f32 = 32 ∨ (Rect.block (s := S1x100) S1x100.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S2000x100.size a ≤ S60000x100.size a
  hwx8_3 : ∀ i : grid8.Coords, EltTy.bits .f32 = 32 ∨ (Rect.block (s := S60000x100) S2000x100.size (cc8_transform_3 i) (hinb8_3 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S2000x106.size a ≤ S60000x106.size a
  hwx9_0 : ∀ i : grid9.Coords, EltTy.bits .f32 = 32 ∨ (Rect.block (s := S60000x106) S2000x106.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S106x100.size a ≤ S106x100.size a
  hwx9_1 : ∀ i : grid9.Coords, EltTy.bits .f32 = 32 ∨ (Rect.block (s := S106x100) S106x100.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x100.size a ≤ S1x100.size a
  hwx9_2 : ∀ i : grid9.Coords, EltTy.bits .f32 = 32 ∨ (Rect.block (s := S1x100) S1x100.size (cc9_transform_2 i) (hinb9_2 i)).WholeWords (EltTy.packing .f32)
  hstage9_3 : ∀ j, (stage9_3 j).IsWhole
  nbuf9_3 : grid9.bufCount reads9_3 false = 2
  hreads9_3 : ∀ i i' : grid9.Coords, (∀ a, reads9_3 a = true → i a = i' a) → cc9_transform_3 i = cc9_transform_3 i'
  hinb9_3 : ∀ (i : grid9.Coords) a, (cc9_transform_3 i a + 1) * S2000x100.size a ≤ S60000x100.size a
  hwx9_3 : ∀ i : grid9.Coords, EltTy.bits .f32 = 32 ∨ (Rect.block (s := S60000x100) S2000x100.size (cc9_transform_3 i) (hinb9_3 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S2000x106.size a ≤ S40000x106.size a
  hwx10_0 : ∀ i : grid10.Coords, EltTy.bits .f32 = 32 ∨ (Rect.block (s := S40000x106) S2000x106.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S106x100.size a ≤ S106x100.size a
  hwx10_1 : ∀ i : grid10.Coords, EltTy.bits .f32 = 32 ∨ (Rect.block (s := S106x100) S106x100.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x100.size a ≤ S1x100.size a
  hwx10_2 : ∀ i : grid10.Coords, EltTy.bits .f32 = 32 ∨ (Rect.block (s := S1x100) S1x100.size (cc10_transform_2 i) (hinb10_2 i)).WholeWords (EltTy.packing .f32)
  hstage10_3 : ∀ j, (stage10_3 j).IsWhole
  nbuf10_3 : grid10.bufCount reads10_3 false = 2
  hreads10_3 : ∀ i i' : grid10.Coords, (∀ a, reads10_3 a = true → i a = i' a) → cc10_transform_3 i = cc10_transform_3 i'
  hinb10_3 : ∀ (i : grid10.Coords) a, (cc10_transform_3 i a + 1) * S2000x100.size a ≤ S40000x100.size a
  hwx10_3 : ∀ i : grid10.Coords, EltTy.bits .f32 = 32 ∨ (Rect.block (s := S40000x100) S2000x100.size (cc10_transform_3 i) (hinb10_3 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S2000x100.size a ≤ S200000x100.size a
  hwx11_0 : ∀ i : grid11.Coords, EltTy.bits .f32 = 32 ∨ (Rect.block (s := S200000x100) S2000x100.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S100x100.size a ≤ S100x100.size a
  hwx11_1 : ∀ i : grid11.Coords, EltTy.bits .f32 = 32 ∨ (Rect.block (s := S100x100) S100x100.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x100.size a ≤ S1x100.size a
  hwx11_2 : ∀ i : grid11.Coords, EltTy.bits .f32 = 32 ∨ (Rect.block (s := S1x100) S1x100.size (cc11_transform_2 i) (hinb11_2 i)).WholeWords (EltTy.packing .f32)
  hstage11_3 : ∀ j, (stage11_3 j).IsWhole
  nbuf11_3 : grid11.bufCount reads11_3 false = 2
  hreads11_3 : ∀ i i' : grid11.Coords, (∀ a, reads11_3 a = true → i a = i' a) → cc11_transform_3 i = cc11_transform_3 i'
  hinb11_3 : ∀ (i : grid11.Coords) a, (cc11_transform_3 i a + 1) * S2000x100.size a ≤ S200000x100.size a
  hwx11_3 : ∀ i : grid11.Coords, EltTy.bits .f32 = 32 ∨ (Rect.block (s := S200000x100) S2000x100.size (cc11_transform_3 i) (hinb11_3 i)).WholeWords (EltTy.packing .f32)
  hstage11_4 : ∀ j, (stage11_4 j).IsWhole
  nbuf11_4 : grid11.bufCount reads11_4 false = 2
  hreads11_4 : ∀ i i' : grid11.Coords, (∀ a, reads11_4 a = true → i a = i' a) → cc11_transform_4 i = cc11_transform_4 i'
  hinb11_4 : ∀ (i : grid11.Coords) a, (cc11_transform_4 i a + 1) * S2000x100.size a ≤ S200000x100.size a
  hwx11_4 : ∀ i : grid11.Coords, EltTy.bits .f32 = 32 ∨ (Rect.block (s := S200000x100) S2000x100.size (cc11_transform_4 i) (hinb11_4 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S2000x100.size a ≤ S200000x100.size a
  hwx12_0 : ∀ i : grid12.Coords, EltTy.bits .f32 = 32 ∨ (Rect.block (s := S200000x100) S2000x100.size (cc12_transform_0 i) (hinb12_0 i)).WholeWords (EltTy.packing .f32)
  hstage12_1 : ∀ j, (stage12_1 j).IsWhole
  nbuf12_1 : grid12.bufCount reads12_1 true = 1
  hreads12_1 : ∀ i i' : grid12.Coords, (∀ a, reads12_1 a = true → i a = i' a) → cc12_transform_1 i = cc12_transform_1 i'
  hinb12_1 : ∀ (i : grid12.Coords) a, (cc12_transform_1 i a + 1) * S100x512.size a ≤ S100x512.size a
  hwx12_1 : ∀ i : grid12.Coords, EltTy.bits .f32 = 32 ∨ (Rect.block (s := S100x512) S100x512.size (cc12_transform_1 i) (hinb12_1 i)).WholeWords (EltTy.packing .f32)
  hstage12_2 : ∀ j, (stage12_2 j).IsWhole
  nbuf12_2 : grid12.bufCount reads12_2 true = 1
  hreads12_2 : ∀ i i' : grid12.Coords, (∀ a, reads12_2 a = true → i a = i' a) → cc12_transform_2 i = cc12_transform_2 i'
  hinb12_2 : ∀ (i : grid12.Coords) a, (cc12_transform_2 i a + 1) * S1x512.size a ≤ S1x512.size a
  hwx12_2 : ∀ i : grid12.Coords, EltTy.bits .f32 = 32 ∨ (Rect.block (s := S1x512) S1x512.size (cc12_transform_2 i) (hinb12_2 i)).WholeWords (EltTy.packing .f32)
  hstage12_3 : ∀ j, (stage12_3 j).IsWhole
  nbuf12_3 : grid12.bufCount reads12_3 false = 2
  hreads12_3 : ∀ i i' : grid12.Coords, (∀ a, reads12_3 a = true → i a = i' a) → cc12_transform_3 i = cc12_transform_3 i'
  hinb12_3 : ∀ (i : grid12.Coords) a, (cc12_transform_3 i a + 1) * S2000x512.size a ≤ S200000x512.size a
  hwx12_3 : ∀ i : grid12.Coords, EltTy.bits .f32 = 32 ∨ (Rect.block (s := S200000x512) S2000x512.size (cc12_transform_3 i) (hinb12_3 i)).WholeWords (EltTy.packing .f32)

variable [Facts₀]

def dot_S2000x62_S62x512_S2000x512_1_0_0_1_n_n : DotDims S2000x62 S62x512 S2000x512 where
  lhsContracting := [1]
  rhsContracting := [0]
  lhsNonContracting := [0]
  rhsNonContracting := [1]
  lhsBatch := []
  rhsBatch := []
  wf := dot_S2000x62_S62x512_S2000x512_1_0_0_1_n_n_wf
def scatter_S8000x512_S200000x1_S200000x512_1_0_0_1 : ScatterDims S8000x512 S200000x1 S200000x512 where
  updateWindowDims := [1]
  insertedWindowDims := [0]
  scatterDimsToOperandDims := [0]
  indexVectorDim := 1
  wf := scatter_S8000x512_S200000x1_S200000x512_1_0_0_1_wf
def gather_S200000x62_S40000x1x1_S40000x1x62_2_0_n_n_0_2_162 : GatherDims S200000x62 S40000x1x1 S40000x1x62 where
  offsetDims := [2]
  collapsedSliceDims := [0]
  operandBatchingDims := []
  startIndicesBatchingDims := []
  startIndexMap := [0]
  indexVectorDim := 2
  sliceSizes := ![1, 62]
  wf := gather_S200000x62_S40000x1x1_S40000x1x62_2_0_n_n_0_2_162_wf
def gather_S220000x6_S40000x1x1_S40000x1x6_2_0_n_n_0_2_16 : GatherDims S220000x6 S40000x1x1 S40000x1x6 where
  offsetDims := [2]
  collapsedSliceDims := [0]
  operandBatchingDims := []
  startIndicesBatchingDims := []
  startIndexMap := [0]
  indexVectorDim := 2
  sliceSizes := ![1, 6]
  wf := gather_S220000x6_S40000x1x1_S40000x1x6_2_0_n_n_0_2_16_wf
def dot_S2000x68_S68x100_S2000x100_1_0_0_1_n_n : DotDims S2000x68 S68x100 S2000x100 where
  lhsContracting := [1]
  rhsContracting := [0]
  lhsNonContracting := [0]
  rhsNonContracting := [1]
  lhsBatch := []
  rhsBatch := []
  wf := dot_S2000x68_S68x100_S2000x100_1_0_0_1_n_n_wf
def gather_S200000x62_S60000x2x1_S60000x2x62_2_0_n_n_0_2_162 : GatherDims S200000x62 S60000x2x1 S60000x2x62 where
  offsetDims := [2]
  collapsedSliceDims := [0]
  operandBatchingDims := []
  startIndicesBatchingDims := []
  startIndexMap := [0]
  indexVectorDim := 2
  sliceSizes := ![1, 62]
  wf := gather_S200000x62_S60000x2x1_S60000x2x62_2_0_n_n_0_2_162_wf
def gather_S220000x6_S60000x2x1_S60000x2x6_2_0_n_n_0_2_16 : GatherDims S220000x6 S60000x2x1 S60000x2x6 where
  offsetDims := [2]
  collapsedSliceDims := [0]
  operandBatchingDims := []
  startIndicesBatchingDims := []
  startIndexMap := [0]
  indexVectorDim := 2
  sliceSizes := ![1, 6]
  wf := gather_S220000x6_S60000x2x1_S60000x2x6_2_0_n_n_0_2_16_wf
def gather_S200000x62_S60000x3x1_S60000x3x62_2_0_n_n_0_2_162 : GatherDims S200000x62 S60000x3x1 S60000x3x62 where
  offsetDims := [2]
  collapsedSliceDims := [0]
  operandBatchingDims := []
  startIndicesBatchingDims := []
  startIndexMap := [0]
  indexVectorDim := 2
  sliceSizes := ![1, 62]
  wf := gather_S200000x62_S60000x3x1_S60000x3x62_2_0_n_n_0_2_162_wf
def gather_S220000x6_S60000x3x1_S60000x3x6_2_0_n_n_0_2_16 : GatherDims S220000x6 S60000x3x1 S60000x3x6 where
  offsetDims := [2]
  collapsedSliceDims := [0]
  operandBatchingDims := []
  startIndicesBatchingDims := []
  startIndexMap := [0]
  indexVectorDim := 2
  sliceSizes := ![1, 6]
  wf := gather_S220000x6_S60000x3x1_S60000x3x6_2_0_n_n_0_2_16_wf
def gather_S200000x62_S40000x4x1_S40000x4x62_2_0_n_n_0_2_162 : GatherDims S200000x62 S40000x4x1 S40000x4x62 where
  offsetDims := [2]
  collapsedSliceDims := [0]
  operandBatchingDims := []
  startIndicesBatchingDims := []
  startIndexMap := [0]
  indexVectorDim := 2
  sliceSizes := ![1, 62]
  wf := gather_S200000x62_S40000x4x1_S40000x4x62_2_0_n_n_0_2_162_wf
def gather_S220000x6_S40000x4x1_S40000x4x6_2_0_n_n_0_2_16 : GatherDims S220000x6 S40000x4x1 S40000x4x6 where
  offsetDims := [2]
  collapsedSliceDims := [0]
  operandBatchingDims := []
  startIndicesBatchingDims := []
  startIndexMap := [0]
  indexVectorDim := 2
  sliceSizes := ![1, 6]
  wf := gather_S220000x6_S40000x4x1_S40000x4x6_2_0_n_n_0_2_16_wf
def dot_S2000x62_S62x100_S2000x100_1_0_0_1_n_n : DotDims S2000x62 S62x100 S2000x100 where
  lhsContracting := [1]
  rhsContracting := [0]
  lhsNonContracting := [0]
  rhsNonContracting := [1]
  lhsBatch := []
  rhsBatch := []
  wf := dot_S2000x62_S62x100_S2000x100_1_0_0_1_n_n_wf
def dot_S2000x100_S100x512_S2000x512_1_0_0_1_n_n : DotDims S2000x100 S100x512 S2000x512 where
  lhsContracting := [1]
  rhsContracting := [0]
  lhsNonContracting := [0]
  rhsNonContracting := [1]
  lhsBatch := []
  rhsBatch := []
  wf := dot_S2000x100_S100x512_S2000x512_1_0_0_1_n_n_wf
def gather_S200000x100_S40000x1x1_S40000x1x100_2_0_n_n_0_2_1100 : GatherDims S200000x100 S40000x1x1 S40000x1x100 where
  offsetDims := [2]
  collapsedSliceDims := [0]
  operandBatchingDims := []
  startIndicesBatchingDims := []
  startIndexMap := [0]
  indexVectorDim := 2
  sliceSizes := ![1, 100]
  wf := gather_S200000x100_S40000x1x1_S40000x1x100_2_0_n_n_0_2_1100_wf
def dot_S2000x106_S106x100_S2000x100_1_0_0_1_n_n : DotDims S2000x106 S106x100 S2000x100 where
  lhsContracting := [1]
  rhsContracting := [0]
  lhsNonContracting := [0]
  rhsNonContracting := [1]
  lhsBatch := []
  rhsBatch := []
  wf := dot_S2000x106_S106x100_S2000x100_1_0_0_1_n_n_wf
def gather_S200000x100_S60000x2x1_S60000x2x100_2_0_n_n_0_2_1100 : GatherDims S200000x100 S60000x2x1 S60000x2x100 where
  offsetDims := [2]
  collapsedSliceDims := [0]
  operandBatchingDims := []
  startIndicesBatchingDims := []
  startIndexMap := [0]
  indexVectorDim := 2
  sliceSizes := ![1, 100]
  wf := gather_S200000x100_S60000x2x1_S60000x2x100_2_0_n_n_0_2_1100_wf
def gather_S200000x100_S60000x3x1_S60000x3x100_2_0_n_n_0_2_1100 : GatherDims S200000x100 S60000x3x1 S60000x3x100 where
  offsetDims := [2]
  collapsedSliceDims := [0]
  operandBatchingDims := []
  startIndicesBatchingDims := []
  startIndexMap := [0]
  indexVectorDim := 2
  sliceSizes := ![1, 100]
  wf := gather_S200000x100_S60000x3x1_S60000x3x100_2_0_n_n_0_2_1100_wf
def gather_S200000x100_S40000x4x1_S40000x4x100_2_0_n_n_0_2_1100 : GatherDims S200000x100 S40000x4x1 S40000x4x100 where
  offsetDims := [2]
  collapsedSliceDims := [0]
  operandBatchingDims := []
  startIndicesBatchingDims := []
  startIndexMap := [0]
  indexVectorDim := 2
  sliceSizes := ![1, 100]
  wf := gather_S200000x100_S40000x4x1_S40000x4x100_2_0_n_n_0_2_1100_wf
def dot_S2000x100_S100x100_S2000x100_1_0_0_1_n_n : DotDims S2000x100 S100x100 S2000x100 where
  lhsContracting := [1]
  rhsContracting := [0]
  lhsNonContracting := [0]
  rhsNonContracting := [1]
  lhsBatch := []
  rhsBatch := []
  wf := dot_S2000x100_S100x100_S2000x100_1_0_0_1_n_n_wf

abbrev win0_0 : Pipeline.Window sig grid0 :=
  Pipeline.Window.ofSpec (Memref.whole main_arg0) S2000x62.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg19) S62x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2000x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v22) S2000x68.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S68x100.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v27) S1x100.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v28) S2000x100.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v45) S2000x68.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v47) S68x100.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v50) S1x100.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v51) S2000x100.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v68) S2000x68.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v70) S68x100.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v73) S1x100.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v74) S2000x100.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v91) S2000x68.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v93) S68x100.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v96) S1x100.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v97) S2000x100.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_arg0) S2000x62.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg11) S62x100.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v5) S1x100.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v98) S2000x100.size cc5_transform_3 reads5_3 false false 2 stage5_3 sem5_3
    hrank5 hreads5_3 hinb5_3 nbuf5_3 (Memref.isWhole_whole _) hwx5_3 hstage5_3

abbrev win5_4 : Pipeline.Window sig grid5 :=
  Pipeline.Window.ofSpec (Memref.whole main_v99) S2000x100.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v99) S2000x100.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg21) S100x512.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v100) S1x512.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v101) S2000x512.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v123) S2000x106.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v125) S106x100.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v128) S1x100.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v129) S2000x100.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev win8_0 : Pipeline.Window sig grid8 :=
  Pipeline.Window.ofSpec (Memref.whole main_v146) S2000x106.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v148) S106x100.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v151) S1x100.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v152) S2000x100.size cc8_transform_3 reads8_3 true false 2 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

abbrev win9_0 : Pipeline.Window sig grid9 :=
  Pipeline.Window.ofSpec (Memref.whole main_v169) S2000x106.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v171) S106x100.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v174) S1x100.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v175) S2000x100.size cc9_transform_3 reads9_3 true false 2 stage9_3 sem9_3
    hrank9 hreads9_3 hinb9_3 nbuf9_3 (Memref.isWhole_whole _) hwx9_3 hstage9_3

abbrev win9 : Fin 4 → Pipeline.Window sig grid9 := fun | 0 => win9_0 | 1 => win9_1 | 2 => win9_2 | 3 => win9_3 | ⟨_ + 4, h⟩ => absurd h (Nat.not_lt.2 (Nat.le_add_left _ _))
abbrev spec9 : Fin 4 → Pipeline.WinSpec sig grid9.rank := fun w => (win9 w).toWinSpec

abbrev win10_0 : Pipeline.Window sig grid10 :=
  Pipeline.Window.ofSpec (Memref.whole main_v192) S2000x106.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v194) S106x100.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v197) S1x100.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v198) S2000x100.size cc10_transform_3 reads10_3 true false 2 stage10_3 sem10_3
    hrank10 hreads10_3 hinb10_3 nbuf10_3 (Memref.isWhole_whole _) hwx10_3 hstage10_3

abbrev win10 : Fin 4 → Pipeline.Window sig grid10 := fun | 0 => win10_0 | 1 => win10_1 | 2 => win10_2 | 3 => win10_3 | ⟨_ + 4, h⟩ => absurd h (Nat.not_lt.2 (Nat.le_add_left _ _))
abbrev spec10 : Fin 4 → Pipeline.WinSpec sig grid10.rank := fun w => (win10 w).toWinSpec

abbrev win11_0 : Pipeline.Window sig grid11 :=
  Pipeline.Window.ofSpec (Memref.whole main_v99) S2000x100.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_arg15) S100x100.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v106) S1x100.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v199) S2000x100.size cc11_transform_3 reads11_3 false false 2 stage11_3 sem11_3
    hrank11 hreads11_3 hinb11_3 nbuf11_3 (Memref.isWhole_whole _) hwx11_3 hstage11_3

abbrev win11_4 : Pipeline.Window sig grid11 :=
  Pipeline.Window.ofSpec (Memref.whole main_v200) S2000x100.size cc11_transform_4 reads11_4 true false 2 stage11_4 sem11_4
    hrank11 hreads11_4 hinb11_4 nbuf11_4 (Memref.isWhole_whole _) hwx11_4 hstage11_4

abbrev win11 : Fin 5 → Pipeline.Window sig grid11 := fun | 0 => win11_0 | 1 => win11_1 | 2 => win11_2 | 3 => win11_3 | 4 => win11_4 | ⟨_ + 5, h⟩ => absurd h (Nat.not_lt.2 (Nat.le_add_left _ _))
abbrev spec11 : Fin 5 → Pipeline.WinSpec sig grid11.rank := fun w => (win11 w).toWinSpec

abbrev win12_0 : Pipeline.Window sig grid12 :=
  Pipeline.Window.ofSpec (Memref.whole main_v200) S2000x100.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_arg23) S100x512.size cc12_transform_1 reads12_1 false true 1 stage12_1 sem12_1
    hrank12 hreads12_1 hinb12_1 nbuf12_1 (Memref.isWhole_whole _) hwx12_1 hstage12_1

abbrev win12_2 : Pipeline.Window sig grid12 :=
  Pipeline.Window.ofSpec (Memref.whole main_v201) S1x512.size cc12_transform_2 reads12_2 false true 1 stage12_2 sem12_2
    hrank12 hreads12_2 hinb12_2 nbuf12_2 (Memref.isWhole_whole _) hwx12_2 hstage12_2

abbrev win12_3 : Pipeline.Window sig grid12 :=
  Pipeline.Window.ofSpec (Memref.whole main_v202) S2000x512.size cc12_transform_3 reads12_3 true false 2 stage12_3 sem12_3
    hrank12 hreads12_3 hinb12_3 nbuf12_3 (Memref.isWhole_whole _) hwx12_3 hstage12_3

abbrev win12 : Fin 4 → Pipeline.Window sig grid12 := fun | 0 => win12_0 | 1 => win12_1 | 2 => win12_2 | 3 => win12_3 | ⟨_ + 4, h⟩ => absurd h (Nat.not_lt.2 (Nat.le_add_left _ _))
abbrev spec12 : Fin 4 → Pipeline.WinSpec sig grid12.rank := fun w => (win12 w).toWinSpec

class Facts : Prop extends Facts₀ where

variable [Facts]
-- ==== ReferenceIdeal.lean ====
abbrev S200000x62 : Shape := ⟨2, ![200000, 62]⟩
abbrev S220000x6 : Shape := ⟨2, ![220000, 6]⟩
abbrev S40000x1 : Shape := ⟨2, ![40000, 1]⟩
abbrev S60000x2 : Shape := ⟨2, ![60000, 2]⟩
abbrev S60000x3 : Shape := ⟨2, ![60000, 3]⟩
abbrev S40000x4 : Shape := ⟨2, ![40000, 4]⟩
abbrev S200000 : Shape := ⟨1, ![200000]⟩
abbrev S62x100 : Shape := ⟨2, ![62, 100]⟩
abbrev S100 : Shape := ⟨1, ![100]⟩
abbrev S4x68x100 : Shape := ⟨3, ![4, 68, 100]⟩
abbrev S4x100 : Shape := ⟨2, ![4, 100]⟩
abbrev S100x100 : Shape := ⟨2, ![100, 100]⟩
abbrev S4x106x100 : Shape := ⟨3, ![4, 106, 100]⟩
abbrev S62x512 : Shape := ⟨2, ![62, 512]⟩
abbrev S512 : Shape := ⟨1, ![512]⟩
abbrev S100x512 : Shape := ⟨2, ![100, 512]⟩
abbrev S200000x512 : Shape := ⟨2, ![200000, 512]⟩
abbrev S1x512 : Shape := ⟨2, ![1, 512]⟩
abbrev S_ : Shape := ⟨0, ![]⟩
abbrev S200000x1 : Shape := ⟨2, ![200000, 1]⟩
abbrev S8000x512 : Shape := ⟨2, ![8000, 512]⟩
abbrev S200000x100 : Shape := ⟨2, ![200000, 100]⟩
abbrev S1x100 : Shape := ⟨2, ![1, 100]⟩
abbrev S40000x1x1 : Shape := ⟨3, ![40000, 1, 1]⟩
abbrev S40000x1x62 : Shape := ⟨3, ![40000, 1, 62]⟩
abbrev S40000x62 : Shape := ⟨2, ![40000, 62]⟩
abbrev S40000x1x6 : Shape := ⟨3, ![40000, 1, 6]⟩
abbrev S40000x6 : Shape := ⟨2, ![40000, 6]⟩
abbrev S40000x68 : Shape := ⟨2, ![40000, 68]⟩
abbrev S1x68x100 : Shape := ⟨3, ![1, 68, 100]⟩
abbrev S68x100 : Shape := ⟨2, ![68, 100]⟩
abbrev S40000x100 : Shape := ⟨2, ![40000, 100]⟩
abbrev S60000x2x1 : Shape := ⟨3, ![60000, 2, 1]⟩
abbrev S60000x2x62 : Shape := ⟨3, ![60000, 2, 62]⟩
abbrev S60000x62 : Shape := ⟨2, ![60000, 62]⟩
abbrev S60000x2x6 : Shape := ⟨3, ![60000, 2, 6]⟩
abbrev S60000x6 : Shape := ⟨2, ![60000, 6]⟩
abbrev S60000x68 : Shape := ⟨2, ![60000, 68]⟩
abbrev S60000x100 : Shape := ⟨2, ![60000, 100]⟩
abbrev S60000x3x1 : Shape := ⟨3, ![60000, 3, 1]⟩
abbrev S60000x3x62 : Shape := ⟨3, ![60000, 3, 62]⟩
abbrev S60000x3x6 : Shape := ⟨3, ![60000, 3, 6]⟩
abbrev S40000x4x1 : Shape := ⟨3, ![40000, 4, 1]⟩
abbrev S40000x4x62 : Shape := ⟨3, ![40000, 4, 62]⟩
abbrev S40000x4x6 : Shape := ⟨3, ![40000, 4, 6]⟩
abbrev S40000x1x100 : Shape := ⟨3, ![40000, 1, 100]⟩
abbrev S40000x106 : Shape := ⟨2, ![40000, 106]⟩
abbrev S1x106x100 : Shape := ⟨3, ![1, 106, 100]⟩
abbrev S106x100 : Shape := ⟨2, ![106, 100]⟩
abbrev S60000x2x100 : Shape := ⟨3, ![60000, 2, 100]⟩
abbrev S60000x106 : Shape := ⟨2, ![60000, 106]⟩
abbrev S60000x3x100 : Shape := ⟨3, ![60000, 3, 100]⟩
abbrev S40000x4x100 : Shape := ⟨3, ![40000, 4, 100]⟩

abbrev nBuf : Space → Nat
  | .hbm => 379
  | .vmem => 0
  | .smem => 0
  | _ => 0

abbrev hbmTy0_0 (i : Nat) : BufTy := match i % 128 with
  | 0 => ⟨S200000x62, .f32⟩
  | 1 => ⟨S220000x6, .f32⟩
  | 2 => ⟨S40000x1, .i32⟩
  | 3 => ⟨S40000x1, .i32⟩
  | 4 => ⟨S60000x2, .i32⟩
  | 5 => ⟨S60000x2, .i32⟩
  | 6 => ⟨S60000x3, .i32⟩
  | 7 => ⟨S60000x3, .i32⟩
  | 8 => ⟨S40000x4, .i32⟩
  | 9 => ⟨S40000x4, .i32⟩
  | 10 => ⟨S200000, .i32⟩
  | 11 => ⟨S62x100, .f32⟩
  | 12 => ⟨S100, .f32⟩
  | 13 => ⟨S4x68x100, .f32⟩
  | 14 => ⟨S4x100, .f32⟩
  | 15 => ⟨S100x100, .f32⟩
  | 16 => ⟨S100, .f32⟩
  | 17 => ⟨S4x106x100, .f32⟩
  | 18 => ⟨S4x100, .f32⟩
  | 19 => ⟨S62x512, .f32⟩
  | 20 => ⟨S512, .f32⟩
  | 21 => ⟨S100x512, .f32⟩
  | 22 => ⟨S512, .f32⟩
  | 23 => ⟨S100x512, .f32⟩
  | 24 => ⟨S512, .f32⟩
  | 25 => ⟨S200000x512, .f32⟩
  | 26 => ⟨S1x512, .f32⟩
  | 27 => ⟨S200000x512, .f32⟩
  | 28 => ⟨S200000x512, .f32⟩
  | 29 => ⟨S_, .f32⟩
  | 30 => ⟨S200000, .f32⟩
  | 31 => ⟨S_, .f32⟩
  | 32 => ⟨S200000, .f32⟩
  | 33 => ⟨S200000, .f32⟩
  | 34 => ⟨S200000x1, .f32⟩
  | 35 => ⟨S200000x512, .f32⟩
  | 36 => ⟨S200000x512, .f32⟩
  | 37 => ⟨S200000x512, .f32⟩
  | 38 => ⟨S_, .f32⟩
  | 39 => ⟨S200000, .f32⟩
  | 40 => ⟨S200000x1, .f32⟩
  | 41 => ⟨S200000x512, .f32⟩
  | 42 => ⟨S200000x512, .f32⟩
  | 43 => ⟨S_, .f32⟩
  | 44 => ⟨S8000x512, .f32⟩
  | 45 => ⟨S200000x1, .i32⟩
  | 46 => ⟨S8000x512, .f32⟩
  | 47 => ⟨S200000x100, .f32⟩
  | 48 => ⟨S1x100, .f32⟩
  | 49 => ⟨S200000x100, .f32⟩
  | 50 => ⟨S200000x100, .f32⟩
  | 51 => ⟨S_, .i32⟩
  | 52 => ⟨S40000x1, .i32⟩
  | 53 => ⟨S40000x1, .i1⟩
  | 54 => ⟨S_, .i32⟩
  | 55 => ⟨S40000x1, .i32⟩
  | 56 => ⟨S40000x1, .i32⟩
  | 57 => ⟨S40000x1, .i32⟩
  | 58 => ⟨S40000x1x1, .i32⟩
  | 59 => ⟨S40000x1x62, .f32⟩
  | 60 => ⟨S_, .f32⟩
  | 61 => ⟨S40000x62, .f32⟩
  | 62 => ⟨S_, .i32⟩
  | 63 => ⟨S40000x1, .i32⟩
  | 64 => ⟨S40000x1, .i1⟩
  | 65 => ⟨S_, .i32⟩
  | 66 => ⟨S40000x1, .i32⟩
  | 67 => ⟨S40000x1, .i32⟩
  | 68 => ⟨S40000x1, .i32⟩
  | 69 => ⟨S40000x1x1, .i32⟩
  | 70 => ⟨S40000x1x6, .f32⟩
  | 71 => ⟨S_, .f32⟩
  | 72 => ⟨S40000x6, .f32⟩
  | 73 => ⟨S40000x68, .f32⟩
  | 74 => ⟨S1x68x100, .f32⟩
  | 75 => ⟨S68x100, .f32⟩
  | 76 => ⟨S40000x100, .f32⟩
  | 77 => ⟨S1x100, .f32⟩
  | 78 => ⟨S100, .f32⟩
  | 79 => ⟨S1x100, .f32⟩
  | 80 => ⟨S40000x100, .f32⟩
  | 81 => ⟨S40000x100, .f32⟩
  | 82 => ⟨S_, .i32⟩
  | 83 => ⟨S60000x2, .i32⟩
  | 84 => ⟨S60000x2, .i1⟩
  | 85 => ⟨S_, .i32⟩
  | 86 => ⟨S60000x2, .i32⟩
  | 87 => ⟨S60000x2, .i32⟩
  | 88 => ⟨S60000x2, .i32⟩
  | 89 => ⟨S60000x2x1, .i32⟩
  | 90 => ⟨S60000x2x62, .f32⟩
  | 91 => ⟨S_, .f32⟩
  | 92 => ⟨S60000x62, .f32⟩
  | 93 => ⟨S_, .i32⟩
  | 94 => ⟨S60000x2, .i32⟩
  | 95 => ⟨S60000x2, .i1⟩
  | 96 => ⟨S_, .i32⟩
  | 97 => ⟨S60000x2, .i32⟩
  | 98 => ⟨S60000x2, .i32⟩
  | 99 => ⟨S60000x2, .i32⟩
  | 100 => ⟨S60000x2x1, .i32⟩
  | 101 => ⟨S60000x2x6, .f32⟩
  | 102 => ⟨S_, .f32⟩
  | 103 => ⟨S60000x6, .f32⟩
  | 104 => ⟨S60000x68, .f32⟩
  | 105 => ⟨S1x68x100, .f32⟩
  | 106 => ⟨S68x100, .f32⟩
  | 107 => ⟨S60000x100, .f32⟩
  | 108 => ⟨S1x100, .f32⟩
  | 109 => ⟨S100, .f32⟩
  | 110 => ⟨S1x100, .f32⟩
  | 111 => ⟨S60000x100, .f32⟩
  | 112 => ⟨S60000x100, .f32⟩
  | 113 => ⟨S_, .i32⟩
  | 114 => ⟨S60000x3, .i32⟩
  | 115 => ⟨S60000x3, .i1⟩
  | 116 => ⟨S_, .i32⟩
  | 117 => ⟨S60000x3, .i32⟩
  | 118 => ⟨S60000x3, .i32⟩
  | 119 => ⟨S60000x3, .i32⟩
  | 120 => ⟨S60000x3x1, .i32⟩
  | 121 => ⟨S60000x3x62, .f32⟩
  | 122 => ⟨S_, .f32⟩
  | 123 => ⟨S60000x62, .f32⟩
  | 124 => ⟨S_, .i32⟩
  | 125 => ⟨S60000x3, .i32⟩
  | 126 => ⟨S60000x3, .i1⟩
  | 127 => ⟨S_, .i32⟩
  | _ => ⟨S200000x62, .f32⟩

abbrev hbmTy0_1 (i : Nat) : BufTy := match i % 128 with
  | 0 => ⟨S60000x3, .i32⟩
  | 1 => ⟨S60000x3, .i32⟩
  | 2 => ⟨S60000x3, .i32⟩
  | 3 => ⟨S60000x3x1, .i32⟩
  | 4 => ⟨S60000x3x6, .f32⟩
  | 5 => ⟨S_, .f32⟩
  | 6 => ⟨S60000x6, .f32⟩
  | 7 => ⟨S60000x68, .f32⟩
  | 8 => ⟨S1x68x100, .f32⟩
  | 9 => ⟨S68x100, .f32⟩
  | 10 => ⟨S60000x100, .f32⟩
  | 11 => ⟨S1x100, .f32⟩
  | 12 => ⟨S100, .f32⟩
  | 13 => ⟨S1x100, .f32⟩
  | 14 => ⟨S60000x100, .f32⟩
  | 15 => ⟨S60000x100, .f32⟩
  | 16 => ⟨S_, .i32⟩
  | 17 => ⟨S40000x4, .i32⟩
  | 18 => ⟨S40000x4, .i1⟩
  | 19 => ⟨S_, .i32⟩
  | 20 => ⟨S40000x4, .i32⟩
  | 21 => ⟨S40000x4, .i32⟩
  | 22 => ⟨S40000x4, .i32⟩
  | 23 => ⟨S40000x4x1, .i32⟩
  | 24 => ⟨S40000x4x62, .f32⟩
  | 25 => ⟨S_, .f32⟩
  | 26 => ⟨S40000x62, .f32⟩
  | 27 => ⟨S_, .i32⟩
  | 28 => ⟨S40000x4, .i32⟩
  | 29 => ⟨S40000x4, .i1⟩
  | 30 => ⟨S_, .i32⟩
  | 31 => ⟨S40000x4, .i32⟩
  | 32 => ⟨S40000x4, .i32⟩
  | 33 => ⟨S40000x4, .i32⟩
  | 34 => ⟨S40000x4x1, .i32⟩
  | 35 => ⟨S40000x4x6, .f32⟩
  | 36 => ⟨S_, .f32⟩
  | 37 => ⟨S40000x6, .f32⟩
  | 38 => ⟨S40000x68, .f32⟩
  | 39 => ⟨S1x68x100, .f32⟩
  | 40 => ⟨S68x100, .f32⟩
  | 41 => ⟨S40000x100, .f32⟩
  | 42 => ⟨S1x100, .f32⟩
  | 43 => ⟨S100, .f32⟩
  | 44 => ⟨S1x100, .f32⟩
  | 45 => ⟨S40000x100, .f32⟩
  | 46 => ⟨S40000x100, .f32⟩
  | 47 => ⟨S200000x100, .f32⟩
  | 48 => ⟨S200000x100, .f32⟩
  | 49 => ⟨S200000x100, .f32⟩
  | 50 => ⟨S_, .f32⟩
  | 51 => ⟨S200000, .f32⟩
  | 52 => ⟨S200000x1, .f32⟩
  | 53 => ⟨S200000x1, .f32⟩
  | 54 => ⟨S_, .f32⟩
  | 55 => ⟨S200000x1, .f32⟩
  | 56 => ⟨S200000x1, .f32⟩
  | 57 => ⟨S200000x100, .f32⟩
  | 58 => ⟨S200000x100, .f32⟩
  | 59 => ⟨S_, .f32⟩
  | 60 => ⟨S200000x100, .f32⟩
  | 61 => ⟨S200000x100, .f32⟩
  | 62 => ⟨S200000x512, .f32⟩
  | 63 => ⟨S1x512, .f32⟩
  | 64 => ⟨S200000x512, .f32⟩
  | 65 => ⟨S200000x512, .f32⟩
  | 66 => ⟨S_, .f32⟩
  | 67 => ⟨S200000, .f32⟩
  | 68 => ⟨S_, .f32⟩
  | 69 => ⟨S200000, .f32⟩
  | 70 => ⟨S200000, .f32⟩
  | 71 => ⟨S200000x1, .f32⟩
  | 72 => ⟨S200000x512, .f32⟩
  | 73 => ⟨S200000x512, .f32⟩
  | 74 => ⟨S200000x512, .f32⟩
  | 75 => ⟨S_, .f32⟩
  | 76 => ⟨S200000, .f32⟩
  | 77 => ⟨S200000x1, .f32⟩
  | 78 => ⟨S200000x512, .f32⟩
  | 79 => ⟨S200000x512, .f32⟩
  | 80 => ⟨S_, .f32⟩
  | 81 => ⟨S8000x512, .f32⟩
  | 82 => ⟨S200000x1, .i32⟩
  | 83 => ⟨S8000x512, .f32⟩
  | 84 => ⟨S8000x512, .f32⟩
  | 85 => ⟨S200000x100, .f32⟩
  | 86 => ⟨S1x100, .f32⟩
  | 87 => ⟨S200000x100, .f32⟩
  | 88 => ⟨S200000x100, .f32⟩
  | 89 => ⟨S_, .i32⟩
  | 90 => ⟨S40000x1, .i32⟩
  | 91 => ⟨S40000x1, .i1⟩
  | 92 => ⟨S_, .i32⟩
  | 93 => ⟨S40000x1, .i32⟩
  | 94 => ⟨S40000x1, .i32⟩
  | 95 => ⟨S40000x1, .i32⟩
  | 96 => ⟨S40000x1x1, .i32⟩
  | 97 => ⟨S40000x1x100, .f32⟩
  | 98 => ⟨S_, .f32⟩
  | 99 => ⟨S40000x100, .f32⟩
  | 100 => ⟨S_, .i32⟩
  | 101 => ⟨S40000x1, .i32⟩
  | 102 => ⟨S40000x1, .i1⟩
  | 103 => ⟨S_, .i32⟩
  | 104 => ⟨S40000x1, .i32⟩
  | 105 => ⟨S40000x1, .i32⟩
  | 106 => ⟨S40000x1, .i32⟩
  | 107 => ⟨S40000x1x1, .i32⟩
  | 108 => ⟨S40000x1x6, .f32⟩
  | 109 => ⟨S_, .f32⟩
  | 110 => ⟨S40000x6, .f32⟩
  | 111 => ⟨S40000x106, .f32⟩
  | 112 => ⟨S1x106x100, .f32⟩
  | 113 => ⟨S106x100, .f32⟩
  | 114 => ⟨S40000x100, .f32⟩
  | 115 => ⟨S1x100, .f32⟩
  | 116 => ⟨S100, .f32⟩
  | 117 => ⟨S1x100, .f32⟩
  | 118 => ⟨S40000x100, .f32⟩
  | 119 => ⟨S40000x100, .f32⟩
  | 120 => ⟨S_, .i32⟩
  | 121 => ⟨S60000x2, .i32⟩
  | 122 => ⟨S60000x2, .i1⟩
  | 123 => ⟨S_, .i32⟩
  | 124 => ⟨S60000x2, .i32⟩
  | 125 => ⟨S60000x2, .i32⟩
  | 126 => ⟨S60000x2, .i32⟩
  | 127 => ⟨S60000x2x1, .i32⟩
  | _ => ⟨S200000x62, .f32⟩

abbrev hbmTy0_2 (i : Nat) : BufTy := match i % 128 with
  | 0 => ⟨S60000x2x100, .f32⟩
  | 1 => ⟨S_, .f32⟩
  | 2 => ⟨S60000x100, .f32⟩
  | 3 => ⟨S_, .i32⟩
  | 4 => ⟨S60000x2, .i32⟩
  | 5 => ⟨S60000x2, .i1⟩
  | 6 => ⟨S_, .i32⟩
  | 7 => ⟨S60000x2, .i32⟩
  | 8 => ⟨S60000x2, .i32⟩
  | 9 => ⟨S60000x2, .i32⟩
  | 10 => ⟨S60000x2x1, .i32⟩
  | 11 => ⟨S60000x2x6, .f32⟩
  | 12 => ⟨S_, .f32⟩
  | 13 => ⟨S60000x6, .f32⟩
  | 14 => ⟨S60000x106, .f32⟩
  | 15 => ⟨S1x106x100, .f32⟩
  | 16 => ⟨S106x100, .f32⟩
  | 17 => ⟨S60000x100, .f32⟩
  | 18 => ⟨S1x100, .f32⟩
  | 19 => ⟨S100, .f32⟩
  | 20 => ⟨S1x100, .f32⟩
  | 21 => ⟨S60000x100, .f32⟩
  | 22 => ⟨S60000x100, .f32⟩
  | 23 => ⟨S_, .i32⟩
  | 24 => ⟨S60000x3, .i32⟩
  | 25 => ⟨S60000x3, .i1⟩
  | 26 => ⟨S_, .i32⟩
  | 27 => ⟨S60000x3, .i32⟩
  | 28 => ⟨S60000x3, .i32⟩
  | 29 => ⟨S60000x3, .i32⟩
  | 30 => ⟨S60000x3x1, .i32⟩
  | 31 => ⟨S60000x3x100, .f32⟩
  | 32 => ⟨S_, .f32⟩
  | 33 => ⟨S60000x100, .f32⟩
  | 34 => ⟨S_, .i32⟩
  | 35 => ⟨S60000x3, .i32⟩
  | 36 => ⟨S60000x3, .i1⟩
  | 37 => ⟨S_, .i32⟩
  | 38 => ⟨S60000x3, .i32⟩
  | 39 => ⟨S60000x3, .i32⟩
  | 40 => ⟨S60000x3, .i32⟩
  | 41 => ⟨S60000x3x1, .i32⟩
  | 42 => ⟨S60000x3x6, .f32⟩
  | 43 => ⟨S_, .f32⟩
  | 44 => ⟨S60000x6, .f32⟩
  | 45 => ⟨S60000x106, .f32⟩
  | 46 => ⟨S1x106x100, .f32⟩
  | 47 => ⟨S106x100, .f32⟩
  | 48 => ⟨S60000x100, .f32⟩
  | 49 => ⟨S1x100, .f32⟩
  | 50 => ⟨S100, .f32⟩
  | 51 => ⟨S1x100, .f32⟩
  | 52 => ⟨S60000x100, .f32⟩
  | 53 => ⟨S60000x100, .f32⟩
  | 54 => ⟨S_, .i32⟩
  | 55 => ⟨S40000x4, .i32⟩
  | 56 => ⟨S40000x4, .i1⟩
  | 57 => ⟨S_, .i32⟩
  | 58 => ⟨S40000x4, .i32⟩
  | 59 => ⟨S40000x4, .i32⟩
  | 60 => ⟨S40000x4, .i32⟩
  | 61 => ⟨S40000x4x1, .i32⟩
  | 62 => ⟨S40000x4x100, .f32⟩
  | 63 => ⟨S_, .f32⟩
  | 64 => ⟨S40000x100, .f32⟩
  | 65 => ⟨S_, .i32⟩
  | 66 => ⟨S40000x4, .i32⟩
  | 67 => ⟨S40000x4, .i1⟩
  | 68 => ⟨S_, .i32⟩
  | 69 => ⟨S40000x4, .i32⟩
  | 70 => ⟨S40000x4, .i32⟩
  | 71 => ⟨S40000x4, .i32⟩
  | 72 => ⟨S40000x4x1, .i32⟩
  | 73 => ⟨S40000x4x6, .f32⟩
  | 74 => ⟨S_, .f32⟩
  | 75 => ⟨S40000x6, .f32⟩
  | 76 => ⟨S40000x106, .f32⟩
  | 77 => ⟨S1x106x100, .f32⟩
  | 78 => ⟨S106x100, .f32⟩
  | 79 => ⟨S40000x100, .f32⟩
  | 80 => ⟨S1x100, .f32⟩
  | 81 => ⟨S100, .f32⟩
  | 82 => ⟨S1x100, .f32⟩
  | 83 => ⟨S40000x100, .f32⟩
  | 84 => ⟨S40000x100, .f32⟩
  | 85 => ⟨S200000x100, .f32⟩
  | 86 => ⟨S200000x100, .f32⟩
  | 87 => ⟨S200000x100, .f32⟩
  | 88 => ⟨S_, .f32⟩
  | 89 => ⟨S200000, .f32⟩
  | 90 => ⟨S200000x1, .f32⟩
  | 91 => ⟨S200000x1, .f32⟩
  | 92 => ⟨S_, .f32⟩
  | 93 => ⟨S200000x1, .f32⟩
  | 94 => ⟨S200000x1, .f32⟩
  | 95 => ⟨S200000x100, .f32⟩
  | 96 => ⟨S200000x100, .f32⟩
  | 97 => ⟨S_, .f32⟩
  | 98 => ⟨S200000x100, .f32⟩
  | 99 => ⟨S200000x100, .f32⟩
  | 100 => ⟨S200000x512, .f32⟩
  | 101 => ⟨S1x512, .f32⟩
  | 102 => ⟨S200000x512, .f32⟩
  | 103 => ⟨S200000x512, .f32⟩
  | 104 => ⟨S_, .f32⟩
  | 105 => ⟨S200000, .f32⟩
  | 106 => ⟨S_, .f32⟩
  | 107 => ⟨S200000, .f32⟩
  | 108 => ⟨S200000, .f32⟩
  | 109 => ⟨S200000x1, .f32⟩
  | 110 => ⟨S200000x512, .f32⟩
  | 111 => ⟨S200000x512, .f32⟩
  | 112 => ⟨S200000x512, .f32⟩
  | 113 => ⟨S_, .f32⟩
  | 114 => ⟨S200000, .f32⟩
  | 115 => ⟨S200000x1, .f32⟩
  | 116 => ⟨S200000x512, .f32⟩
  | 117 => ⟨S200000x512, .f32⟩
  | 118 => ⟨S_, .f32⟩
  | 119 => ⟨S8000x512, .f32⟩
  | 120 => ⟨S200000x1, .i32⟩
  | 121 => ⟨S8000x512, .f32⟩
  | 122 => ⟨S8000x512, .f32⟩
  | _ => ⟨S200000x62, .f32⟩

abbrev hbmTy (i : Nat) : BufTy := match i / 128 with
  | 0 => hbmTy0_0 i
  | 1 => hbmTy0_1 i
  | 2 => hbmTy0_2 i
  | _ => ⟨S200000x62, .f32⟩

abbrev bufTy : (tb : Table) → Fin (tcTables nBuf tb) → BufTy
  | .hbm, ⟨i, _⟩ => hbmTy i
  | _, _ => ⟨S200000x62, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_cst : Ref sig .tc := ⟨.hbm, 29, rfl⟩
abbrev main_v4 : Ref sig .tc := ⟨.hbm, 30, rfl⟩
abbrev main_cst_0 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_cst_1 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_cst_2 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_c : Ref sig .tc := ⟨.hbm, 51, rfl⟩
abbrev main_v22 : Ref sig .tc := ⟨.hbm, 52, rfl⟩
abbrev main_v23 : Ref sig .tc := ⟨.hbm, 53, rfl⟩
abbrev main_c_3 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_cst_4 : Ref sig .tc := ⟨.hbm, 60, rfl⟩
abbrev main_v29 : Ref sig .tc := ⟨.hbm, 61, rfl⟩
abbrev main_c_5 : Ref sig .tc := ⟨.hbm, 62, rfl⟩
abbrev main_v30 : Ref sig .tc := ⟨.hbm, 63, rfl⟩
abbrev main_v31 : Ref sig .tc := ⟨.hbm, 64, rfl⟩
abbrev main_c_6 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_cst_7 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_c_8 : Ref sig .tc := ⟨.hbm, 82, rfl⟩
abbrev main_v47 : Ref sig .tc := ⟨.hbm, 83, rfl⟩
abbrev main_v48 : Ref sig .tc := ⟨.hbm, 84, rfl⟩
abbrev main_c_9 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_cst_10 : Ref sig .tc := ⟨.hbm, 91, rfl⟩
abbrev main_v54 : Ref sig .tc := ⟨.hbm, 92, rfl⟩
abbrev main_c_11 : Ref sig .tc := ⟨.hbm, 93, rfl⟩
abbrev main_v55 : Ref sig .tc := ⟨.hbm, 94, rfl⟩
abbrev main_v56 : Ref sig .tc := ⟨.hbm, 95, rfl⟩
abbrev main_c_12 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_cst_13 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_c_14 : Ref sig .tc := ⟨.hbm, 113, rfl⟩
abbrev main_v72 : Ref sig .tc := ⟨.hbm, 114, rfl⟩
abbrev main_v73 : Ref sig .tc := ⟨.hbm, 115, rfl⟩
abbrev main_c_15 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_cst_16 : Ref sig .tc := ⟨.hbm, 122, rfl⟩
abbrev main_v79 : Ref sig .tc := ⟨.hbm, 123, rfl⟩
abbrev main_c_17 : Ref sig .tc := ⟨.hbm, 124, rfl⟩
abbrev main_v80 : Ref sig .tc := ⟨.hbm, 125, rfl⟩
abbrev main_v81 : Ref sig .tc := ⟨.hbm, 126, rfl⟩
abbrev main_c_18 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_cst_19 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_c_20 : Ref sig .tc := ⟨.hbm, 144, rfl⟩
abbrev main_v97 : Ref sig .tc := ⟨.hbm, 145, rfl⟩
abbrev main_v98 : Ref sig .tc := ⟨.hbm, 146, rfl⟩
abbrev main_c_21 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_cst_22 : Ref sig .tc := ⟨.hbm, 153, rfl⟩
abbrev main_v104 : Ref sig .tc := ⟨.hbm, 154, rfl⟩
abbrev main_c_23 : Ref sig .tc := ⟨.hbm, 155, rfl⟩
abbrev main_v105 : Ref sig .tc := ⟨.hbm, 156, rfl⟩
abbrev main_v106 : Ref sig .tc := ⟨.hbm, 157, rfl⟩
abbrev main_c_24 : Ref sig .tc := ⟨.hbm, 158, rfl⟩
abbrev main_v107 : Ref sig .tc := ⟨.hbm, 159, rfl⟩
abbrev main_v108 : Ref sig .tc := ⟨.hbm, 160, rfl⟩
abbrev main_v109 : Ref sig .tc := ⟨.hbm, 161, rfl⟩
abbrev main_v110 : Ref sig .tc := ⟨.hbm, 162, rfl⟩
abbrev main_v111 : Ref sig .tc := ⟨.hbm, 163, rfl⟩
abbrev main_cst_25 : Ref sig .tc := ⟨.hbm, 164, rfl⟩
abbrev main_v112 : Ref sig .tc := ⟨.hbm, 165, rfl⟩
abbrev main_v113 : Ref sig .tc := ⟨.hbm, 166, rfl⟩
abbrev main_v114 : Ref sig .tc := ⟨.hbm, 167, rfl⟩
abbrev main_v115 : Ref sig .tc := ⟨.hbm, 168, rfl⟩
abbrev main_v116 : Ref sig .tc := ⟨.hbm, 169, rfl⟩
abbrev main_v117 : Ref sig .tc := ⟨.hbm, 170, rfl⟩
abbrev main_v118 : Ref sig .tc := ⟨.hbm, 171, rfl⟩
abbrev main_v119 : Ref sig .tc := ⟨.hbm, 172, rfl⟩
abbrev main_v120 : Ref sig .tc := ⟨.hbm, 173, rfl⟩
abbrev main_v121 : Ref sig .tc := ⟨.hbm, 174, rfl⟩
abbrev main_v122 : Ref sig .tc := ⟨.hbm, 175, rfl⟩
abbrev main_v123 : Ref sig .tc := ⟨.hbm, 176, rfl⟩
abbrev main_call0_v0 : Ref sig .tc := ⟨.hbm, 177, rfl⟩
abbrev main_call0_cst : Ref sig .tc := ⟨.hbm, 178, rfl⟩
abbrev main_call0_v1 : Ref sig .tc := ⟨.hbm, 179, rfl⟩
abbrev main_call0_v2 : Ref sig .tc := ⟨.hbm, 180, rfl⟩
abbrev main_v124 : Ref sig .tc := ⟨.hbm, 181, rfl⟩
abbrev main_cst_26 : Ref sig .tc := ⟨.hbm, 182, rfl⟩
abbrev main_v125 : Ref sig .tc := ⟨.hbm, 183, rfl⟩
abbrev main_v126 : Ref sig .tc := ⟨.hbm, 184, rfl⟩
abbrev main_v127 : Ref sig .tc := ⟨.hbm, 185, rfl⟩
abbrev main_v128 : Ref sig .tc := ⟨.hbm, 186, rfl⟩
abbrev main_call1_cst : Ref sig .tc := ⟨.hbm, 187, rfl⟩
abbrev main_call1_v0 : Ref sig .tc := ⟨.hbm, 188, rfl⟩
abbrev main_v129 : Ref sig .tc := ⟨.hbm, 189, rfl⟩
abbrev main_v130 : Ref sig .tc := ⟨.hbm, 190, rfl⟩
abbrev main_v131 : Ref sig .tc := ⟨.hbm, 191, rfl⟩
abbrev main_v132 : Ref sig .tc := ⟨.hbm, 192, rfl⟩
abbrev main_v133 : Ref sig .tc := ⟨.hbm, 193, rfl⟩
abbrev main_cst_27 : Ref sig .tc := ⟨.hbm, 194, rfl⟩
abbrev main_v134 : Ref sig .tc := ⟨.hbm, 195, rfl⟩
abbrev main_cst_28 : Ref sig .tc := ⟨.hbm, 196, rfl⟩
abbrev main_v135 : Ref sig .tc := ⟨.hbm, 197, rfl⟩
abbrev main_v136 : Ref sig .tc := ⟨.hbm, 198, rfl⟩
abbrev main_v137 : Ref sig .tc := ⟨.hbm, 199, rfl⟩
abbrev main_v138 : Ref sig .tc := ⟨.hbm, 200, rfl⟩
abbrev main_v139 : Ref sig .tc := ⟨.hbm, 201, rfl⟩
abbrev main_v140 : Ref sig .tc := ⟨.hbm, 202, rfl⟩
abbrev main_cst_29 : Ref sig .tc := ⟨.hbm, 203, rfl⟩
abbrev main_v141 : Ref sig .tc := ⟨.hbm, 204, rfl⟩
abbrev main_v142 : Ref sig .tc := ⟨.hbm, 205, rfl⟩
abbrev main_v143 : Ref sig .tc := ⟨.hbm, 206, rfl⟩
abbrev main_v144 : Ref sig .tc := ⟨.hbm, 207, rfl⟩
abbrev main_cst_30 : Ref sig .tc := ⟨.hbm, 208, rfl⟩
abbrev main_v145 : Ref sig .tc := ⟨.hbm, 209, rfl⟩
abbrev main_v146 : Ref sig .tc := ⟨.hbm, 210, rfl⟩
abbrev main_v147 : Ref sig .tc := ⟨.hbm, 211, rfl⟩
abbrev main_v148 : Ref sig .tc := ⟨.hbm, 212, rfl⟩
abbrev main_v149 : Ref sig .tc := ⟨.hbm, 213, rfl⟩
abbrev main_v150 : Ref sig .tc := ⟨.hbm, 214, rfl⟩
abbrev main_v151 : Ref sig .tc := ⟨.hbm, 215, rfl⟩
abbrev main_v152 : Ref sig .tc := ⟨.hbm, 216, rfl⟩
abbrev main_c_31 : Ref sig .tc := ⟨.hbm, 217, rfl⟩
abbrev main_v153 : Ref sig .tc := ⟨.hbm, 218, rfl⟩
abbrev main_v154 : Ref sig .tc := ⟨.hbm, 219, rfl⟩
abbrev main_c_32 : Ref sig .tc := ⟨.hbm, 220, rfl⟩
abbrev main_v155 : Ref sig .tc := ⟨.hbm, 221, rfl⟩
abbrev main_v156 : Ref sig .tc := ⟨.hbm, 222, rfl⟩
abbrev main_v157 : Ref sig .tc := ⟨.hbm, 223, rfl⟩
abbrev main_v158 : Ref sig .tc := ⟨.hbm, 224, rfl⟩
abbrev main_v159 : Ref sig .tc := ⟨.hbm, 225, rfl⟩
abbrev main_cst_33 : Ref sig .tc := ⟨.hbm, 226, rfl⟩
abbrev main_v160 : Ref sig .tc := ⟨.hbm, 227, rfl⟩
abbrev main_c_34 : Ref sig .tc := ⟨.hbm, 228, rfl⟩
abbrev main_v161 : Ref sig .tc := ⟨.hbm, 229, rfl⟩
abbrev main_v162 : Ref sig .tc := ⟨.hbm, 230, rfl⟩
abbrev main_c_35 : Ref sig .tc := ⟨.hbm, 231, rfl⟩
abbrev main_v163 : Ref sig .tc := ⟨.hbm, 232, rfl⟩
abbrev main_v164 : Ref sig .tc := ⟨.hbm, 233, rfl⟩
abbrev main_v165 : Ref sig .tc := ⟨.hbm, 234, rfl⟩
abbrev main_v166 : Ref sig .tc := ⟨.hbm, 235, rfl⟩
abbrev main_v167 : Ref sig .tc := ⟨.hbm, 236, rfl⟩
abbrev main_cst_36 : Ref sig .tc := ⟨.hbm, 237, rfl⟩
abbrev main_v168 : Ref sig .tc := ⟨.hbm, 238, rfl⟩
abbrev main_v169 : Ref sig .tc := ⟨.hbm, 239, rfl⟩
abbrev main_v170 : Ref sig .tc := ⟨.hbm, 240, rfl⟩
abbrev main_v171 : Ref sig .tc := ⟨.hbm, 241, rfl⟩
abbrev main_v172 : Ref sig .tc := ⟨.hbm, 242, rfl⟩
abbrev main_v173 : Ref sig .tc := ⟨.hbm, 243, rfl⟩
abbrev main_v174 : Ref sig .tc := ⟨.hbm, 244, rfl⟩
abbrev main_v175 : Ref sig .tc := ⟨.hbm, 245, rfl⟩
abbrev main_v176 : Ref sig .tc := ⟨.hbm, 246, rfl⟩
abbrev main_v177 : Ref sig .tc := ⟨.hbm, 247, rfl⟩
abbrev main_c_37 : Ref sig .tc := ⟨.hbm, 248, rfl⟩
abbrev main_v178 : Ref sig .tc := ⟨.hbm, 249, rfl⟩
abbrev main_v179 : Ref sig .tc := ⟨.hbm, 250, rfl⟩
abbrev main_c_38 : Ref sig .tc := ⟨.hbm, 251, rfl⟩
abbrev main_v180 : Ref sig .tc := ⟨.hbm, 252, rfl⟩
abbrev main_v181 : Ref sig .tc := ⟨.hbm, 253, rfl⟩
abbrev main_v182 : Ref sig .tc := ⟨.hbm, 254, rfl⟩
abbrev main_v183 : Ref sig .tc := ⟨.hbm, 255, rfl⟩
abbrev main_v184 : Ref sig .tc := ⟨.hbm, 256, rfl⟩
abbrev main_cst_39 : Ref sig .tc := ⟨.hbm, 257, rfl⟩
abbrev main_v185 : Ref sig .tc := ⟨.hbm, 258, rfl⟩
abbrev main_c_40 : Ref sig .tc := ⟨.hbm, 259, rfl⟩
abbrev main_v186 : Ref sig .tc := ⟨.hbm, 260, rfl⟩
abbrev main_v187 : Ref sig .tc := ⟨.hbm, 261, rfl⟩
abbrev main_c_41 : Ref sig .tc := ⟨.hbm, 262, rfl⟩
abbrev main_v188 : Ref sig .tc := ⟨.hbm, 263, rfl⟩
abbrev main_v189 : Ref sig .tc := ⟨.hbm, 264, rfl⟩
abbrev main_v190 : Ref sig .tc := ⟨.hbm, 265, rfl⟩
abbrev main_v191 : Ref sig .tc := ⟨.hbm, 266, rfl⟩
abbrev main_v192 : Ref sig .tc := ⟨.hbm, 267, rfl⟩
abbrev main_cst_42 : Ref sig .tc := ⟨.hbm, 268, rfl⟩
abbrev main_v193 : Ref sig .tc := ⟨.hbm, 269, rfl⟩
abbrev main_v194 : Ref sig .tc := ⟨.hbm, 270, rfl⟩
abbrev main_v195 : Ref sig .tc := ⟨.hbm, 271, rfl⟩
abbrev main_v196 : Ref sig .tc := ⟨.hbm, 272, rfl⟩
abbrev main_v197 : Ref sig .tc := ⟨.hbm, 273, rfl⟩
abbrev main_v198 : Ref sig .tc := ⟨.hbm, 274, rfl⟩
abbrev main_v199 : Ref sig .tc := ⟨.hbm, 275, rfl⟩
abbrev main_v200 : Ref sig .tc := ⟨.hbm, 276, rfl⟩
abbrev main_v201 : Ref sig .tc := ⟨.hbm, 277, rfl⟩
abbrev main_v202 : Ref sig .tc := ⟨.hbm, 278, rfl⟩
abbrev main_c_43 : Ref sig .tc := ⟨.hbm, 279, rfl⟩
abbrev main_v203 : Ref sig .tc := ⟨.hbm, 280, rfl⟩
abbrev main_v204 : Ref sig .tc := ⟨.hbm, 281, rfl⟩
abbrev main_c_44 : Ref sig .tc := ⟨.hbm, 282, rfl⟩
abbrev main_v205 : Ref sig .tc := ⟨.hbm, 283, rfl⟩
abbrev main_v206 : Ref sig .tc := ⟨.hbm, 284, rfl⟩
abbrev main_v207 : Ref sig .tc := ⟨.hbm, 285, rfl⟩
abbrev main_v208 : Ref sig .tc := ⟨.hbm, 286, rfl⟩
abbrev main_v209 : Ref sig .tc := ⟨.hbm, 287, rfl⟩
abbrev main_cst_45 : Ref sig .tc := ⟨.hbm, 288, rfl⟩
abbrev main_v210 : Ref sig .tc := ⟨.hbm, 289, rfl⟩
abbrev main_c_46 : Ref sig .tc := ⟨.hbm, 290, rfl⟩
abbrev main_v211 : Ref sig .tc := ⟨.hbm, 291, rfl⟩
abbrev main_v212 : Ref sig .tc := ⟨.hbm, 292, rfl⟩
abbrev main_c_47 : Ref sig .tc := ⟨.hbm, 293, rfl⟩
abbrev main_v213 : Ref sig .tc := ⟨.hbm, 294, rfl⟩
abbrev main_v214 : Ref sig .tc := ⟨.hbm, 295, rfl⟩
abbrev main_v215 : Ref sig .tc := ⟨.hbm, 296, rfl⟩
abbrev main_v216 : Ref sig .tc := ⟨.hbm, 297, rfl⟩
abbrev main_v217 : Ref sig .tc := ⟨.hbm, 298, rfl⟩
abbrev main_cst_48 : Ref sig .tc := ⟨.hbm, 299, rfl⟩
abbrev main_v218 : Ref sig .tc := ⟨.hbm, 300, rfl⟩
abbrev main_v219 : Ref sig .tc := ⟨.hbm, 301, rfl⟩
abbrev main_v220 : Ref sig .tc := ⟨.hbm, 302, rfl⟩
abbrev main_v221 : Ref sig .tc := ⟨.hbm, 303, rfl⟩
abbrev main_v222 : Ref sig .tc := ⟨.hbm, 304, rfl⟩
abbrev main_v223 : Ref sig .tc := ⟨.hbm, 305, rfl⟩
abbrev main_v224 : Ref sig .tc := ⟨.hbm, 306, rfl⟩
abbrev main_v225 : Ref sig .tc := ⟨.hbm, 307, rfl⟩
abbrev main_v226 : Ref sig .tc := ⟨.hbm, 308, rfl⟩
abbrev main_v227 : Ref sig .tc := ⟨.hbm, 309, rfl⟩
abbrev main_c_49 : Ref sig .tc := ⟨.hbm, 310, rfl⟩
abbrev main_v228 : Ref sig .tc := ⟨.hbm, 311, rfl⟩
abbrev main_v229 : Ref sig .tc := ⟨.hbm, 312, rfl⟩
abbrev main_c_50 : Ref sig .tc := ⟨.hbm, 313, rfl⟩
abbrev main_v230 : Ref sig .tc := ⟨.hbm, 314, rfl⟩
abbrev main_v231 : Ref sig .tc := ⟨.hbm, 315, rfl⟩
abbrev main_v232 : Ref sig .tc := ⟨.hbm, 316, rfl⟩
abbrev main_v233 : Ref sig .tc := ⟨.hbm, 317, rfl⟩
abbrev main_v234 : Ref sig .tc := ⟨.hbm, 318, rfl⟩
abbrev main_cst_51 : Ref sig .tc := ⟨.hbm, 319, rfl⟩
abbrev main_v235 : Ref sig .tc := ⟨.hbm, 320, rfl⟩
abbrev main_c_52 : Ref sig .tc := ⟨.hbm, 321, rfl⟩
abbrev main_v236 : Ref sig .tc := ⟨.hbm, 322, rfl⟩
abbrev main_v237 : Ref sig .tc := ⟨.hbm, 323, rfl⟩
abbrev main_c_53 : Ref sig .tc := ⟨.hbm, 324, rfl⟩
abbrev main_v238 : Ref sig .tc := ⟨.hbm, 325, rfl⟩
abbrev main_v239 : Ref sig .tc := ⟨.hbm, 326, rfl⟩
abbrev main_v240 : Ref sig .tc := ⟨.hbm, 327, rfl⟩
abbrev main_v241 : Ref sig .tc := ⟨.hbm, 328, rfl⟩
abbrev main_v242 : Ref sig .tc := ⟨.hbm, 329, rfl⟩
abbrev main_cst_54 : Ref sig .tc := ⟨.hbm, 330, rfl⟩
abbrev main_v243 : Ref sig .tc := ⟨.hbm, 331, rfl⟩
abbrev main_v244 : Ref sig .tc := ⟨.hbm, 332, rfl⟩
abbrev main_v245 : Ref sig .tc := ⟨.hbm, 333, rfl⟩
abbrev main_v246 : Ref sig .tc := ⟨.hbm, 334, rfl⟩
abbrev main_v247 : Ref sig .tc := ⟨.hbm, 335, rfl⟩
abbrev main_v248 : Ref sig .tc := ⟨.hbm, 336, rfl⟩
abbrev main_v249 : Ref sig .tc := ⟨.hbm, 337, rfl⟩
abbrev main_v250 : Ref sig .tc := ⟨.hbm, 338, rfl⟩
abbrev main_v251 : Ref sig .tc := ⟨.hbm, 339, rfl⟩
abbrev main_v252 : Ref sig .tc := ⟨.hbm, 340, rfl⟩
abbrev main_v253 : Ref sig .tc := ⟨.hbm, 341, rfl⟩
abbrev main_v254 : Ref sig .tc := ⟨.hbm, 342, rfl⟩
abbrev main_call2_v0 : Ref sig .tc := ⟨.hbm, 343, rfl⟩
abbrev main_call2_cst : Ref sig .tc := ⟨.hbm, 344, rfl⟩
abbrev main_call2_v1 : Ref sig .tc := ⟨.hbm, 345, rfl⟩
abbrev main_call2_v2 : Ref sig .tc := ⟨.hbm, 346, rfl⟩
abbrev main_v255 : Ref sig .tc := ⟨.hbm, 347, rfl⟩
abbrev main_cst_55 : Ref sig .tc := ⟨.hbm, 348, rfl⟩
abbrev main_v256 : Ref sig .tc := ⟨.hbm, 349, rfl⟩
abbrev main_v257 : Ref sig .tc := ⟨.hbm, 350, rfl⟩
abbrev main_v258 : Ref sig .tc := ⟨.hbm, 351, rfl⟩
abbrev main_v259 : Ref sig .tc := ⟨.hbm, 352, rfl⟩
abbrev main_call3_cst : Ref sig .tc := ⟨.hbm, 353, rfl⟩
abbrev main_call3_v0 : Ref sig .tc := ⟨.hbm, 354, rfl⟩
abbrev main_v260 : Ref sig .tc := ⟨.hbm, 355, rfl⟩
abbrev main_v261 : Ref sig .tc := ⟨.hbm, 356, rfl⟩
abbrev main_v262 : Ref sig .tc := ⟨.hbm, 357, rfl⟩
abbrev main_v263 : Ref sig .tc := ⟨.hbm, 358, rfl⟩
abbrev main_v264 : Ref sig .tc := ⟨.hbm, 359, rfl⟩
abbrev main_cst_56 : Ref sig .tc := ⟨.hbm, 360, rfl⟩
abbrev main_v265 : Ref sig .tc := ⟨.hbm, 361, rfl⟩
abbrev main_cst_57 : Ref sig .tc := ⟨.hbm, 362, rfl⟩
abbrev main_v266 : Ref sig .tc := ⟨.hbm, 363, rfl⟩
abbrev main_v267 : Ref sig .tc := ⟨.hbm, 364, rfl⟩
abbrev main_v268 : Ref sig .tc := ⟨.hbm, 365, rfl⟩
abbrev main_v269 : Ref sig .tc := ⟨.hbm, 366, rfl⟩
abbrev main_v270 : Ref sig .tc := ⟨.hbm, 367, rfl⟩
abbrev main_v271 : Ref sig .tc := ⟨.hbm, 368, rfl⟩
abbrev main_cst_58 : Ref sig .tc := ⟨.hbm, 369, rfl⟩
abbrev main_v272 : Ref sig .tc := ⟨.hbm, 370, rfl⟩
abbrev main_v273 : Ref sig .tc := ⟨.hbm, 371, rfl⟩
abbrev main_v274 : Ref sig .tc := ⟨.hbm, 372, rfl⟩
abbrev main_v275 : Ref sig .tc := ⟨.hbm, 373, rfl⟩
abbrev main_cst_59 : Ref sig .tc := ⟨.hbm, 374, rfl⟩
abbrev main_v276 : Ref sig .tc := ⟨.hbm, 375, rfl⟩
abbrev main_v277 : Ref sig .tc := ⟨.hbm, 376, rfl⟩
abbrev main_v278 : Ref sig .tc := ⟨.hbm, 377, rfl⟩
abbrev main_v279 : Ref sig .tc := ⟨.hbm, 378, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S200000x512_0_1 : S1x512.BroadcastsInDim S200000x512 (![0, 1] : Fin 2 → Fin S200000x512.rank)
  reducesTo_S200000x512_S200000_d1 : S200000x512.ReducesTo [1] S200000
  h_S_ : 0 < S_.numel
  bcast_S_S200000 : S_.BroadcastsInDim S200000 (![] : Fin 0 → Fin S200000.rank)
  bcast_S200000_S200000x1_0 : S200000.BroadcastsInDim S200000x1 (![0] : Fin 1 → Fin S200000x1.rank)
  bcast_S200000x1_S200000x512_0_1 : S200000x1.BroadcastsInDim S200000x512 (![0, 1] : Fin 2 → Fin S200000x512.rank)
  bcast_S_S8000x512 : S_.BroadcastsInDim S8000x512 (![] : Fin 0 → Fin S8000x512.rank)
  bcast_S100_S1x100_1 : S100.BroadcastsInDim S1x100 (![1] : Fin 1 → Fin S1x100.rank)
  bcast_S1x100_S200000x100_0_1 : S1x100.BroadcastsInDim S200000x100 (![0, 1] : Fin 2 → Fin S200000x100.rank)
  bcast_S_S40000x1 : S_.BroadcastsInDim S40000x1 (![] : Fin 0 → Fin S40000x1.rank)
  bcast_S40000x1_S40000x1x1_0_1 : S40000x1.BroadcastsInDim S40000x1x1 (![0, 1] : Fin 2 → Fin S40000x1x1.rank)
  reducesTo_S40000x1x62_S40000x62_d1 : S40000x1x62.ReducesTo [1] S40000x62
  reducesTo_S40000x1x6_S40000x6_d1 : S40000x1x6.ReducesTo [1] S40000x6
  concatenates_S40000x62_S40000x6_S40000x68_d1 : Shape.Concatenates [S40000x62, S40000x6] S40000x68 1
  slices_S4x68x100_S1x68x100_0_0_0 : S4x68x100.Slices ![0, 0, 0] S1x68x100
  shapeCasts_S1x68x100_S68x100 : S1x68x100.ShapeCasts S68x100
  slices_S4x100_S1x100_0_0 : S4x100.Slices ![0, 0] S1x100
  shapeCasts_S1x100_S100 : S1x100.ShapeCasts S100
  bcast_S1x100_S40000x100_0_1 : S1x100.BroadcastsInDim S40000x100 (![0, 1] : Fin 2 → Fin S40000x100.rank)
  bcast_S_S60000x2 : S_.BroadcastsInDim S60000x2 (![] : Fin 0 → Fin S60000x2.rank)
  bcast_S60000x2_S60000x2x1_0_1 : S60000x2.BroadcastsInDim S60000x2x1 (![0, 1] : Fin 2 → Fin S60000x2x1.rank)
  reducesTo_S60000x2x62_S60000x62_d1 : S60000x2x62.ReducesTo [1] S60000x62
  reducesTo_S60000x2x6_S60000x6_d1 : S60000x2x6.ReducesTo [1] S60000x6
  concatenates_S60000x62_S60000x6_S60000x68_d1 : Shape.Concatenates [S60000x62, S60000x6] S60000x68 1
  slices_S4x68x100_S1x68x100_1_0_0 : S4x68x100.Slices ![1, 0, 0] S1x68x100
  slices_S4x100_S1x100_1_0 : S4x100.Slices ![1, 0] S1x100
  bcast_S1x100_S60000x100_0_1 : S1x100.BroadcastsInDim S60000x100 (![0, 1] : Fin 2 → Fin S60000x100.rank)
  bcast_S_S60000x3 : S_.BroadcastsInDim S60000x3 (![] : Fin 0 → Fin S60000x3.rank)
  bcast_S60000x3_S60000x3x1_0_1 : S60000x3.BroadcastsInDim S60000x3x1 (![0, 1] : Fin 2 → Fin S60000x3x1.rank)
  reducesTo_S60000x3x62_S60000x62_d1 : S60000x3x62.ReducesTo [1] S60000x62
  reducesTo_S60000x3x6_S60000x6_d1 : S60000x3x6.ReducesTo [1] S60000x6
  slices_S4x68x100_S1x68x100_2_0_0 : S4x68x100.Slices ![2, 0, 0] S1x68x100
  slices_S4x100_S1x100_2_0 : S4x100.Slices ![2, 0] S1x100
  bcast_S_S40000x4 : S_.BroadcastsInDim S40000x4 (![] : Fin 0 → Fin S40000x4.rank)
  bcast_S40000x4_S40000x4x1_0_1 : S40000x4.BroadcastsInDim S40000x4x1 (![0, 1] : Fin 2 → Fin S40000x4x1.rank)
  reducesTo_S40000x4x62_S40000x62_d1 : S40000x4x62.ReducesTo [1] S40000x62
  reducesTo_S40000x4x6_S40000x6_d1 : S40000x4x6.ReducesTo [1] S40000x6
  slices_S4x68x100_S1x68x100_3_0_0 : S4x68x100.Slices ![3, 0, 0] S1x68x100
  slices_S4x100_S1x100_3_0 : S4x100.Slices ![3, 0] S1x100
  concatenates_S40000x100_S60000x100_S60000x100_S40000x100_S200000x100_d0 : Shape.Concatenates [S40000x100, S60000x100, S60000x100, S40000x100] S200000x100 0
  reducesTo_S200000x100_S200000_d1 : S200000x100.ReducesTo [1] S200000
  bcast_S_S200000x1 : S_.BroadcastsInDim S200000x1 (![] : Fin 0 → Fin S200000x1.rank)
  bcast_S200000x1_S200000x100_0_1 : S200000x1.BroadcastsInDim S200000x100 (![0, 1] : Fin 2 → Fin S200000x100.rank)
  bcast_S_S200000x100 : S_.BroadcastsInDim S200000x100 (![] : Fin 0 → Fin S200000x100.rank)
  reducesTo_S40000x1x100_S40000x100_d1 : S40000x1x100.ReducesTo [1] S40000x100
  concatenates_S40000x100_S40000x6_S40000x106_d1 : Shape.Concatenates [S40000x100, S40000x6] S40000x106 1
  slices_S4x106x100_S1x106x100_0_0_0 : S4x106x100.Slices ![0, 0, 0] S1x106x100
  shapeCasts_S1x106x100_S106x100 : S1x106x100.ShapeCasts S106x100
  reducesTo_S60000x2x100_S60000x100_d1 : S60000x2x100.ReducesTo [1] S60000x100
  concatenates_S60000x100_S60000x6_S60000x106_d1 : Shape.Concatenates [S60000x100, S60000x6] S60000x106 1
  slices_S4x106x100_S1x106x100_1_0_0 : S4x106x100.Slices ![1, 0, 0] S1x106x100
  reducesTo_S60000x3x100_S60000x100_d1 : S60000x3x100.ReducesTo [1] S60000x100
  slices_S4x106x100_S1x106x100_2_0_0 : S4x106x100.Slices ![2, 0, 0] S1x106x100
  reducesTo_S40000x4x100_S40000x100_d1 : S40000x4x100.ReducesTo [1] S40000x100
  slices_S4x106x100_S1x106x100_3_0_0 : S4x106x100.Slices ![3, 0, 0] S1x106x100
  dot_S200000x62_S62x512_S200000x512_1_0_0_1_n_n_wf : DotDims.WF S200000x62 S62x512 S200000x512 [1] [0] [0] [1] [] []
  scatter_S8000x512_S200000x1_S200000x512_1_0_0_1_wf : ScatterDims.WF S8000x512 S200000x1 S200000x512 [1] [0] [0] 1
  dot_S200000x62_S62x100_S200000x100_1_0_0_1_n_n_wf : DotDims.WF S200000x62 S62x100 S200000x100 [1] [0] [0] [1] [] []
  gather_S200000x62_S40000x1x1_S40000x1x62_2_0_n_n_0_2_162_wf : GatherDims.WF S200000x62 S40000x1x1 S40000x1x62 [2] [0] [] [0] [] 2 ![1, 62]
  gather_S220000x6_S40000x1x1_S40000x1x6_2_0_n_n_0_2_16_wf : GatherDims.WF S220000x6 S40000x1x1 S40000x1x6 [2] [0] [] [0] [] 2 ![1, 6]
  dot_S40000x68_S68x100_S40000x100_1_0_0_1_n_n_wf : DotDims.WF S40000x68 S68x100 S40000x100 [1] [0] [0] [1] [] []
  gather_S200000x62_S60000x2x1_S60000x2x62_2_0_n_n_0_2_162_wf : GatherDims.WF S200000x62 S60000x2x1 S60000x2x62 [2] [0] [] [0] [] 2 ![1, 62]
  gather_S220000x6_S60000x2x1_S60000x2x6_2_0_n_n_0_2_16_wf : GatherDims.WF S220000x6 S60000x2x1 S60000x2x6 [2] [0] [] [0] [] 2 ![1, 6]
  dot_S60000x68_S68x100_S60000x100_1_0_0_1_n_n_wf : DotDims.WF S60000x68 S68x100 S60000x100 [1] [0] [0] [1] [] []
  gather_S200000x62_S60000x3x1_S60000x3x62_2_0_n_n_0_2_162_wf : GatherDims.WF S200000x62 S60000x3x1 S60000x3x62 [2] [0] [] [0] [] 2 ![1, 62]
  gather_S220000x6_S60000x3x1_S60000x3x6_2_0_n_n_0_2_16_wf : GatherDims.WF S220000x6 S60000x3x1 S60000x3x6 [2] [0] [] [0] [] 2 ![1, 6]
  gather_S200000x62_S40000x4x1_S40000x4x62_2_0_n_n_0_2_162_wf : GatherDims.WF S200000x62 S40000x4x1 S40000x4x62 [2] [0] [] [0] [] 2 ![1, 62]
  gather_S220000x6_S40000x4x1_S40000x4x6_2_0_n_n_0_2_16_wf : GatherDims.WF S220000x6 S40000x4x1 S40000x4x6 [2] [0] [] [0] [] 2 ![1, 6]
  dot_S200000x100_S100x512_S200000x512_1_0_0_1_n_n_wf : DotDims.WF S200000x100 S100x512 S200000x512 [1] [0] [0] [1] [] []
  dot_S200000x100_S100x100_S200000x100_1_0_0_1_n_n_wf : DotDims.WF S200000x100 S100x100 S200000x100 [1] [0] [0] [1] [] []
  gather_S200000x100_S40000x1x1_S40000x1x100_2_0_n_n_0_2_1100_wf : GatherDims.WF S200000x100 S40000x1x1 S40000x1x100 [2] [0] [] [0] [] 2 ![1, 100]
  dot_S40000x106_S106x100_S40000x100_1_0_0_1_n_n_wf : DotDims.WF S40000x106 S106x100 S40000x100 [1] [0] [0] [1] [] []
  gather_S200000x100_S60000x2x1_S60000x2x100_2_0_n_n_0_2_1100_wf : GatherDims.WF S200000x100 S60000x2x1 S60000x2x100 [2] [0] [] [0] [] 2 ![1, 100]
  dot_S60000x106_S106x100_S60000x100_1_0_0_1_n_n_wf : DotDims.WF S60000x106 S106x100 S60000x100 [1] [0] [0] [1] [] []
  gather_S200000x100_S60000x3x1_S60000x3x100_2_0_n_n_0_2_1100_wf : GatherDims.WF S200000x100 S60000x3x1 S60000x3x100 [2] [0] [] [0] [] 2 ![1, 100]
  gather_S200000x100_S40000x4x1_S40000x4x100_2_0_n_n_0_2_1100_wf : GatherDims.WF S200000x100 S40000x4x1 S40000x4x100 [2] [0] [] [0] [] 2 ![1, 100]

variable [Facts₀]

def dot_S200000x62_S62x512_S200000x512_1_0_0_1_n_n : DotDims S200000x62 S62x512 S200000x512 where
  lhsContracting := [1]
  rhsContracting := [0]
  lhsNonContracting := [0]
  rhsNonContracting := [1]
  lhsBatch := []
  rhsBatch := []
  wf := dot_S200000x62_S62x512_S200000x512_1_0_0_1_n_n_wf
def scatter_S8000x512_S200000x1_S200000x512_1_0_0_1 : ScatterDims S8000x512 S200000x1 S200000x512 where
  updateWindowDims := [1]
  insertedWindowDims := [0]
  scatterDimsToOperandDims := [0]
  indexVectorDim := 1
  wf := scatter_S8000x512_S200000x1_S200000x512_1_0_0_1_wf
def dot_S200000x62_S62x100_S200000x100_1_0_0_1_n_n : DotDims S200000x62 S62x100 S200000x100 where
  lhsContracting := [1]
  rhsContracting := [0]
  lhsNonContracting := [0]
  rhsNonContracting := [1]
  lhsBatch := []
  rhsBatch := []
  wf := dot_S200000x62_S62x100_S200000x100_1_0_0_1_n_n_wf
def gather_S200000x62_S40000x1x1_S40000x1x62_2_0_n_n_0_2_162 : GatherDims S200000x62 S40000x1x1 S40000x1x62 where
  offsetDims := [2]
  collapsedSliceDims := [0]
  operandBatchingDims := []
  startIndicesBatchingDims := []
  startIndexMap := [0]
  indexVectorDim := 2
  sliceSizes := ![1, 62]
  wf := gather_S200000x62_S40000x1x1_S40000x1x62_2_0_n_n_0_2_162_wf
def gather_S220000x6_S40000x1x1_S40000x1x6_2_0_n_n_0_2_16 : GatherDims S220000x6 S40000x1x1 S40000x1x6 where
  offsetDims := [2]
  collapsedSliceDims := [0]
  operandBatchingDims := []
  startIndicesBatchingDims := []
  startIndexMap := [0]
  indexVectorDim := 2
  sliceSizes := ![1, 6]
  wf := gather_S220000x6_S40000x1x1_S40000x1x6_2_0_n_n_0_2_16_wf
def dot_S40000x68_S68x100_S40000x100_1_0_0_1_n_n : DotDims S40000x68 S68x100 S40000x100 where
  lhsContracting := [1]
  rhsContracting := [0]
  lhsNonContracting := [0]
  rhsNonContracting := [1]
  lhsBatch := []
  rhsBatch := []
  wf := dot_S40000x68_S68x100_S40000x100_1_0_0_1_n_n_wf
def gather_S200000x62_S60000x2x1_S60000x2x62_2_0_n_n_0_2_162 : GatherDims S200000x62 S60000x2x1 S60000x2x62 where
  offsetDims := [2]
  collapsedSliceDims := [0]
  operandBatchingDims := []
  startIndicesBatchingDims := []
  startIndexMap := [0]
  indexVectorDim := 2
  sliceSizes := ![1, 62]
  wf := gather_S200000x62_S60000x2x1_S60000x2x62_2_0_n_n_0_2_162_wf
def gather_S220000x6_S60000x2x1_S60000x2x6_2_0_n_n_0_2_16 : GatherDims S220000x6 S60000x2x1 S60000x2x6 where
  offsetDims := [2]
  collapsedSliceDims := [0]
  operandBatchingDims := []
  startIndicesBatchingDims := []
  startIndexMap := [0]
  indexVectorDim := 2
  sliceSizes := ![1, 6]
  wf := gather_S220000x6_S60000x2x1_S60000x2x6_2_0_n_n_0_2_16_wf
def dot_S60000x68_S68x100_S60000x100_1_0_0_1_n_n : DotDims S60000x68 S68x100 S60000x100 where
  lhsContracting := [1]
  rhsContracting := [0]
  lhsNonContracting := [0]
  rhsNonContracting := [1]
  lhsBatch := []
  rhsBatch := []
  wf := dot_S60000x68_S68x100_S60000x100_1_0_0_1_n_n_wf
def gather_S200000x62_S60000x3x1_S60000x3x62_2_0_n_n_0_2_162 : GatherDims S200000x62 S60000x3x1 S60000x3x62 where
  offsetDims := [2]
  collapsedSliceDims := [0]
  operandBatchingDims := []
  startIndicesBatchingDims := []
  startIndexMap := [0]
  indexVectorDim := 2
  sliceSizes := ![1, 62]
  wf := gather_S200000x62_S60000x3x1_S60000x3x62_2_0_n_n_0_2_162_wf
def gather_S220000x6_S60000x3x1_S60000x3x6_2_0_n_n_0_2_16 : GatherDims S220000x6 S60000x3x1 S60000x3x6 where
  offsetDims := [2]
  collapsedSliceDims := [0]
  operandBatchingDims := []
  startIndicesBatchingDims := []
  startIndexMap := [0]
  indexVectorDim := 2
  sliceSizes := ![1, 6]
  wf := gather_S220000x6_S60000x3x1_S60000x3x6_2_0_n_n_0_2_16_wf
def gather_S200000x62_S40000x4x1_S40000x4x62_2_0_n_n_0_2_162 : GatherDims S200000x62 S40000x4x1 S40000x4x62 where
  offsetDims := [2]
  collapsedSliceDims := [0]
  operandBatchingDims := []
  startIndicesBatchingDims := []
  startIndexMap := [0]
  indexVectorDim := 2
  sliceSizes := ![1, 62]
  wf := gather_S200000x62_S40000x4x1_S40000x4x62_2_0_n_n_0_2_162_wf
def gather_S220000x6_S40000x4x1_S40000x4x6_2_0_n_n_0_2_16 : GatherDims S220000x6 S40000x4x1 S40000x4x6 where
  offsetDims := [2]
  collapsedSliceDims := [0]
  operandBatchingDims := []
  startIndicesBatchingDims := []
  startIndexMap := [0]
  indexVectorDim := 2
  sliceSizes := ![1, 6]
  wf := gather_S220000x6_S40000x4x1_S40000x4x6_2_0_n_n_0_2_16_wf
def dot_S200000x100_S100x512_S200000x512_1_0_0_1_n_n : DotDims S200000x100 S100x512 S200000x512 where
  lhsContracting := [1]
  rhsContracting := [0]
  lhsNonContracting := [0]
  rhsNonContracting := [1]
  lhsBatch := []
  rhsBatch := []
  wf := dot_S200000x100_S100x512_S200000x512_1_0_0_1_n_n_wf
def dot_S200000x100_S100x100_S200000x100_1_0_0_1_n_n : DotDims S200000x100 S100x100 S200000x100 where
  lhsContracting := [1]
  rhsContracting := [0]
  lhsNonContracting := [0]
  rhsNonContracting := [1]
  lhsBatch := []
  rhsBatch := []
  wf := dot_S200000x100_S100x100_S200000x100_1_0_0_1_n_n_wf
def gather_S200000x100_S40000x1x1_S40000x1x100_2_0_n_n_0_2_1100 : GatherDims S200000x100 S40000x1x1 S40000x1x100 where
  offsetDims := [2]
  collapsedSliceDims := [0]
  operandBatchingDims := []
  startIndicesBatchingDims := []
  startIndexMap := [0]
  indexVectorDim := 2
  sliceSizes := ![1, 100]
  wf := gather_S200000x100_S40000x1x1_S40000x1x100_2_0_n_n_0_2_1100_wf
def dot_S40000x106_S106x100_S40000x100_1_0_0_1_n_n : DotDims S40000x106 S106x100 S40000x100 where
  lhsContracting := [1]
  rhsContracting := [0]
  lhsNonContracting := [0]
  rhsNonContracting := [1]
  lhsBatch := []
  rhsBatch := []
  wf := dot_S40000x106_S106x100_S40000x100_1_0_0_1_n_n_wf
def gather_S200000x100_S60000x2x1_S60000x2x100_2_0_n_n_0_2_1100 : GatherDims S200000x100 S60000x2x1 S60000x2x100 where
  offsetDims := [2]
  collapsedSliceDims := [0]
  operandBatchingDims := []
  startIndicesBatchingDims := []
  startIndexMap := [0]
  indexVectorDim := 2
  sliceSizes := ![1, 100]
  wf := gather_S200000x100_S60000x2x1_S60000x2x100_2_0_n_n_0_2_1100_wf
def dot_S60000x106_S106x100_S60000x100_1_0_0_1_n_n : DotDims S60000x106 S106x100 S60000x100 where
  lhsContracting := [1]
  rhsContracting := [0]
  lhsNonContracting := [0]
  rhsNonContracting := [1]
  lhsBatch := []
  rhsBatch := []
  wf := dot_S60000x106_S106x100_S60000x100_1_0_0_1_n_n_wf
def gather_S200000x100_S60000x3x1_S60000x3x100_2_0_n_n_0_2_1100 : GatherDims S200000x100 S60000x3x1 S60000x3x100 where
  offsetDims := [2]
  collapsedSliceDims := [0]
  operandBatchingDims := []
  startIndicesBatchingDims := []
  startIndexMap := [0]
  indexVectorDim := 2
  sliceSizes := ![1, 100]
  wf := gather_S200000x100_S60000x3x1_S60000x3x100_2_0_n_n_0_2_1100_wf
def gather_S200000x100_S40000x4x1_S40000x4x100_2_0_n_n_0_2_1100 : GatherDims S200000x100 S40000x4x1 S40000x4x100 where
  offsetDims := [2]
  collapsedSliceDims := [0]
  operandBatchingDims := []
  startIndicesBatchingDims := []
  startIndexMap := [0]
  indexVectorDim := 2
  sliceSizes := ![1, 100]
  wf := gather_S200000x100_S40000x4x1_S40000x4x100_2_0_n_n_0_2_1100_wf

class Facts : Prop extends Facts₀ where

variable [Facts]
-- ==== Proof.KB.Region0.lean ====
/-
  Region 0 of the program (the pallas_call of `cc0__fingerprint_kernel`, the softmax fingerprint of the atom features), at any float instance.
  At every grid point the body reads each input block whole and writes the output block whole, so the output's
  staging buffer holds one function of the input blocks (`stored0`); an input block is where the pipeline
  left it whether or not the point fetched it, because the block index of an unfetched window has not moved.
  From these: the proof data of the pipeline (`dat0`) and the body obligation at every point (`obligation0`),
  both relative to the contents `V` the region is entered with.
-/
import proofs.«143046_j34703335751794_1_alg».proof.Proof.Gen.Kernel.Launch
import proofs.«143046_j34703335751794_1_alg».proof.Proof.Gen.Kernel.Skeleton
import proofs.«143046_j34703335751794_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the rectangle of its array (as the region finds it) that the index map
    names at `t`. -/
def blk0 (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

/-- Input window 0's staging buffer holds the window's block at every point, fetched there or not. -/
theorem found0_0_of {c : Dev nD} (dat : Dat τ (Elt F) Unit ℕ (UR sig nD τ) ℕ cfg0 c)
    (hA : dat.A 0 = V c (Pipeline.arrRef spec0 0)) (hafter : ∀ t, dat.after 0 t = blk0 V c 0 t)
    (t : Fin cfg0.N) (d) : dat.before 0 t d = blk0 V c 0 t :=
  (dat.before_in_eq_fetched 0 rfl (fun _ => rfl) (fun _ _ _ => rfl)
      (fun t => by rw [hafter]; unfold Dat.blockOf blk0; rw [hA]; try rfl) t d).trans
    (by unfold Dat.fetched Dat.blockOf blk0; rw [hA]; try rfl)

/-- Input window 1's staging buffer holds the window's block at every point, fetched there or not. -/
theorem found0_1_of {c : Dev nD} (dat : Dat τ (Elt F) Unit ℕ (UR sig nD τ) ℕ cfg0 c)
    (hA : dat.A 1 = V c (Pipeline.arrRef spec0 1)) (hafter : ∀ t, dat.after 1 t = blk0 V c 1 t)
    (t : Fin cfg0.N) (d) : dat.before 1 t d = blk0 V c 1 t :=
  (dat.before_in_eq_fetched 1 rfl (fun _ => rfl) (fun _ _ _ => rfl)
      (fun t => by rw [hafter]; unfold Dat.blockOf blk0; rw [hA]; try rfl) t d).trans
    (by unfold Dat.fetched Dat.blockOf blk0; rw [hA]; try rfl)

/-- Input window 2's staging buffer holds the window's block at every point, fetched there or not. -/
theorem found0_2_of {c : Dev nD} (dat : Dat τ (Elt F) Unit ℕ (UR sig nD τ) ℕ cfg0 c)
    (hA : dat.A 2 = V c (Pipeline.arrRef spec0 2)) (hafter : ∀ t, dat.after 2 t = blk0 V c 2 t)
    (t : Fin cfg0.N) (d) : dat.before 2 t d = blk0 V c 2 t :=
  (dat.before_in_eq_fetched 2 rfl (fun _ => rfl) (fun _ _ _ => rfl)
      (fun t => by rw [hafter]; unfold Dat.blockOf blk0; rw [hA]; try rfl) t d).trans
    (by unfold Dat.fetched Dat.blockOf blk0; rw [hA]; try rfl)

/-- What the body leaves in the output's staging buffer: its one store, of the body's value at the whole input
    blocks, over the whole block. -/
def stored0 (x0 : Vec F S2000x62 .f32) (x1 : Vec F S62x512 .f32) (x2 : Vec F S1x512 .f32) : Vec F S2000x512 .f32 :=
  View.canon [⟨(Rect.unit (s := S2000x512) ![0, 0] S2000x512.size inb_S2000x512_S2000x512_0_0), k0_pay1 (View.ld x0 (Rect.unit (s := S2000x62) ![0, 0] S2000x62.size inb_S2000x62_S2000x62_0_0)) (View.ld x1 (Rect.unit (s := S62x512) ![0, 0] S62x512.size inb_S62x512_S62x512_0_0)) (View.ld x2 (Rect.unit (s := S1x512) ![0, 0] S1x512.size inb_S1x512_S1x512_0_0))⟩]

/-- The store's rectangle is the whole block. -/
theorem whole0 (p : Vec F S2000x512 .f32) (y : S2000x512.Idx) :
    ∃ pc ∈ ([⟨(Rect.unit (s := S2000x512) ![0, 0] S2000x512.size inb_S2000x512_S2000x512_0_0), p⟩] : List (View.Piece (Elt F) S2000x512 .f32)), y ∈ pc.1.set :=
  View.cover_of_tiled [⟨(Rect.unit (s := S2000x512) ![0, 0] S2000x512.size inb_S2000x512_S2000x512_0_0), p⟩] S2000x512.size (by rfl) y

set_option maxHeartbeats 1000000 in
/-- The body, run on whole staging buffers holding `x0 …` (the output's holding anything), ends with the inputs as
    they were and the output's at `stored0` of them. -/
theorem body0 (c : Dev nD) (E : Set ℕ) (i : grid0.Coords) (a0 : Memref sig .tc .vmem S2000x62 .f32) (ha0 : a0.IsWhole) (a1 : Memref sig .tc .vmem S62x512 .f32) (ha1 : a1.IsWhole) (a2 : Memref sig .tc .vmem S1x512 .f32) (ha2 : a2.IsWhole) (a3 : Memref sig .tc .vmem S2000x512 .f32) (ha3 : a3.IsWhole)
    (x0 : Vec F S2000x62 .f32) (x1 : Vec F S62x512 .f32) (x2 : Vec F S1x512 .f32) (Q : PUnit → sProp 𝕄) :
    iprop(owns (c : Thread nD τ) a0 fullShare x0 ∗ owns (c : Thread nD τ) a1 fullShare x1 ∗ owns (c : Thread nD τ) a2 fullShare x2 ∗ (∃ d, owns (c : Thread nD τ) a3 fullShare d)
        ∗ (iprop(owns (c : Thread nD τ) a0 fullShare x0 ∗ owns (c : Thread nD τ) a1 fullShare x1 ∗ owns (c : Thread nD τ) a2 fullShare x2 ∗ owns (c : Thread nD τ) a3 fullShare (stored0 x0 x1 x2)) -∗ Q ⟨⟩))
      ⊢ wp frame (wpE (defs₀ (F := F)) Variants.none c none) E (cc0__fingerprint_kernel i a0 ha0 a1 ha1 a2 ha2 a3 ha3) Q := by
  simp only [cc0__fingerprint_kernel_eq_skeleton]; unfold cc0__fingerprint_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (whole0 _)

/-- The proof data of pipeline 0 on core `c`: the arrays as the region finds them; after the body each input's
    buffer at its block and the output's at `stored0` of the input blocks; the invariant that of a kernel that
    keeps nothing between points; nothing owed. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => stored0 (blk0 V c 0 t) (blk0 V c 1 t) (blk0 V c 2 t)
  Φ _ := Pipeline.ΦA spec0 c
  q _ := fullShare
  owed _ := 0

theorem arr0 (c : Dev nD) (w : Fin cfg0.W) : (dat0 V c).A w = V c (Pipeline.arrRef spec0 w) := by
  dsimp only [dat0]
theorem left0_0 (c : Dev nD) (t : Fin cfg0.N) : (dat0 V c).after 0 t = blk0 V c 0 t := by dsimp only [dat0]
theorem left0_1 (c : Dev nD) (t : Fin cfg0.N) : (dat0 V c).after 1 t = blk0 V c 1 t := by dsimp only [dat0]
theorem left0_2 (c : Dev nD) (t : Fin cfg0.N) : (dat0 V c).after 2 t = blk0 V c 2 t := by dsimp only [dat0]
theorem left0_3 (c : Dev nD) (t : Fin cfg0.N) :
    (dat0 V c).after 3 t = stored0 (blk0 V c 0 t) (blk0 V c 1 t) (blk0 V c 2 t) := by dsimp only [dat0]
theorem found0_0 (c : Dev nD) (t : Fin cfg0.N) (d) : (dat0 V c).before 0 t d = blk0 V c 0 t :=
  found0_0_of V (dat0 V c) (arr0 V c 0) (left0_0 V c) t d
theorem found0_1 (c : Dev nD) (t : Fin cfg0.N) (d) : (dat0 V c).before 1 t d = blk0 V c 1 t :=
  found0_1_of V (dat0 V c) (arr0 V c 1) (left0_1 V c) t d
theorem found0_2 (c : Dev nD) (t : Fin cfg0.N) (d) : (dat0 V c).before 2 t d = blk0 V c 2 t :=
  found0_2_of V (dat0 V c) (arr0 V c 2) (left0_2 V c) t d

/-- What the pipeline hands the body at point `t`, -/
def handed0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what the body gives back. -/
def returned0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so `body0` applies; the invariant and the
    core's dues pass through untouched. -/
theorem at_point0 (c : Dev nD) (t : Fin cfg0.N) :
    handed0 V c t ⊢ wp frame (wpE (defs₀ (F := F)) Variants.none c none) Set.univ (bodyAt0 t) (fun _ => returned0 V c t) := by
  unfold handed0 returned0 bodyAt0
  simp only [found0_0, found0_1, found0_2]
  rw [show (dat0 V c).Φ t.succ = (dat0 V c).Φ t.castSucc from rfl,
    show (dat0 V c).owesAt () t.succ = (dat0 V c).owesAt () t.castSucc from rfl,
    left0_0, left0_1, left0_2, left0_3]
  iintro ⟨HΦ, Ho, ⟨%d0, H0⟩, ⟨%d1, H1⟩, ⟨%d2, H2⟩, ⟨%d3, H3⟩⟩
  iapply (body0 c Set.univ _ _ _ _ _ _ _ _ _ (blk0 V c 0 t) (blk0 V c 1 t) (blk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of pipeline 0, at every point. -/
theorem obligation0 (c : Dev nD) : BodyObligation (dat0 (F := F) V c) (defs₀ (F := F)) Variants.none () Set.univ := fun t => by
  rw [bigSep_W0, bigSep_W0]
  exact at_point0 V c t

end Cert.Kernel.Fr

end
-- ==== Proof.KB.Region1.lean ====
/-
  Region 1 of the program (the pallas_call of `cc1__matmul_bias_kernel`, the degree-1 neighbour product of layer 0), at any float instance.
  At every grid point the body reads each input block whole and writes the output block whole, so the output's
  staging buffer holds one function of the input blocks (`stored1`); an input block is where the pipeline
  left it whether or not the point fetched it, because the block index of an unfetched window has not moved.
  From these: the proof data of the pipeline (`dat1`) and the body obligation at every point (`obligation1`),
  both relative to the contents `V` the region is entered with.
-/
import proofs.«143046_j34703335751794_1_alg».proof.Proof.Gen.Kernel.Launch
import proofs.«143046_j34703335751794_1_alg».proof.Proof.Gen.Kernel.Skeleton
import proofs.«143046_j34703335751794_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the rectangle of its array (as the region finds it) that the index map
    names at `t`. -/
def blk1 (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

/-- Input window 0's staging buffer holds the window's block at every point, fetched there or not. -/
theorem found1_0_of {c : Dev nD} (dat : Dat τ (Elt F) Unit ℕ (UR sig nD τ) ℕ cfg1 c)
    (hA : dat.A 0 = V c (Pipeline.arrRef spec1 0)) (hafter : ∀ t, dat.after 0 t = blk1 V c 0 t)
    (t : Fin cfg1.N) (d) : dat.before 0 t d = blk1 V c 0 t :=
  (dat.before_in_eq_fetched 0 rfl (fun _ => rfl) (fun _ _ _ => rfl)
      (fun t => by rw [hafter]; unfold Dat.blockOf blk1; rw [hA]; try rfl) t d).trans
    (by unfold Dat.fetched Dat.blockOf blk1; rw [hA]; try rfl)

/-- Input window 1's staging buffer holds the window's block at every point, fetched there or not. -/
theorem found1_1_of {c : Dev nD} (dat : Dat τ (Elt F) Unit ℕ (UR sig nD τ) ℕ cfg1 c)
    (hA : dat.A 1 = V c (Pipeline.arrRef spec1 1)) (hafter : ∀ t, dat.after 1 t = blk1 V c 1 t)
    (t : Fin cfg1.N) (d) : dat.before 1 t d = blk1 V c 1 t :=
  (dat.before_in_eq_fetched 1 rfl (fun _ => rfl) (fun _ _ _ => rfl)
      (fun t => by rw [hafter]; unfold Dat.blockOf blk1; rw [hA]; try rfl) t d).trans
    (by unfold Dat.fetched Dat.blockOf blk1; rw [hA]; try rfl)

/-- Input window 2's staging buffer holds the window's block at every point, fetched there or not. -/
theorem found1_2_of {c : Dev nD} (dat : Dat τ (Elt F) Unit ℕ (UR sig nD τ) ℕ cfg1 c)
    (hA : dat.A 2 = V c (Pipeline.arrRef spec1 2)) (hafter : ∀ t, dat.after 2 t = blk1 V c 2 t)
    (t : Fin cfg1.N) (d) : dat.before 2 t d = blk1 V c 2 t :=
  (dat.before_in_eq_fetched 2 rfl (fun _ => rfl) (fun _ _ _ => rfl)
      (fun t => by rw [hafter]; unfold Dat.blockOf blk1; rw [hA]; try rfl) t d).trans
    (by unfold Dat.fetched Dat.blockOf blk1; rw [hA]; try rfl)

/-- What the body leaves in the output's staging buffer: its one store, of the body's value at the whole input
    blocks, over the whole block. -/
def stored1 (x0 : Vec F S2000x68 .f32) (x1 : Vec F S68x100 .f32) (x2 : Vec F S1x100 .f32) : Vec F S2000x100 .f32 :=
  View.canon [⟨(Rect.unit (s := S2000x100) ![0, 0] S2000x100.size inb_S2000x100_S2000x100_0_0), k1_pay1 (View.ld x0 (Rect.unit (s := S2000x68) ![0, 0] S2000x68.size inb_S2000x68_S2000x68_0_0)) (View.ld x1 (Rect.unit (s := S68x100) ![0, 0] S68x100.size inb_S68x100_S68x100_0_0)) (View.ld x2 (Rect.unit (s := S1x100) ![0, 0] S1x100.size inb_S1x100_S1x100_0_0))⟩]

/-- The store's rectangle is the whole block. -/
theorem whole1 (p : Vec F S2000x100 .f32) (y : S2000x100.Idx) :
    ∃ pc ∈ ([⟨(Rect.unit (s := S2000x100) ![0, 0] S2000x100.size inb_S2000x100_S2000x100_0_0), p⟩] : List (View.Piece (Elt F) S2000x100 .f32)), y ∈ pc.1.set :=
  View.cover_of_tiled [⟨(Rect.unit (s := S2000x100) ![0, 0] S2000x100.size inb_S2000x100_S2000x100_0_0), p⟩] S2000x100.size (by rfl) y

set_option maxHeartbeats 1000000 in
/-- The body, run on whole staging buffers holding `x0 …` (the output's holding anything), ends with the inputs as
    they were and the output's at `stored1` of them. -/
theorem body1 (c : Dev nD) (E : Set ℕ) (i : grid1.Coords) (a0 : Memref sig .tc .vmem S2000x68 .f32) (ha0 : a0.IsWhole) (a1 : Memref sig .tc .vmem S68x100 .f32) (ha1 : a1.IsWhole) (a2 : Memref sig .tc .vmem S1x100 .f32) (ha2 : a2.IsWhole) (a3 : Memref sig .tc .vmem S2000x100 .f32) (ha3 : a3.IsWhole)
    (x0 : Vec F S2000x68 .f32) (x1 : Vec F S68x100 .f32) (x2 : Vec F S1x100 .f32) (Q : PUnit → sProp 𝕄) :
    iprop(owns (c : Thread nD τ) a0 fullShare x0 ∗ owns (c : Thread nD τ) a1 fullShare x1 ∗ owns (c : Thread nD τ) a2 fullShare x2 ∗ (∃ d, owns (c : Thread nD τ) a3 fullShare d)
        ∗ (iprop(owns (c : Thread nD τ) a0 fullShare x0 ∗ owns (c : Thread nD τ) a1 fullShare x1 ∗ owns (c : Thread nD τ) a2 fullShare x2 ∗ owns (c : Thread nD τ) a3 fullShare (stored1 x0 x1 x2)) -∗ Q ⟨⟩))
      ⊢ wp frame (wpE (defs₀ (F := F)) Variants.none c none) E (cc1__matmul_bias_kernel i a0 ha0 a1 ha1 a2 ha2 a3 ha3) Q := by
  simp only [cc1__matmul_bias_kernel_eq_skeleton]; unfold cc1__matmul_bias_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (whole1 _)

/-- The proof data of pipeline 1 on core `c`: the arrays as the region finds them; after the body each input's
    buffer at its block and the output's at `stored1` of the input blocks; the invariant that of a kernel that
    keeps nothing between points; nothing owed. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => stored1 (blk1 V c 0 t) (blk1 V c 1 t) (blk1 V c 2 t)
  Φ _ := Pipeline.ΦA spec1 c
  q _ := fullShare
  owed _ := 0

theorem arr1 (c : Dev nD) (w : Fin cfg1.W) : (dat1 V c).A w = V c (Pipeline.arrRef spec1 w) := by
  dsimp only [dat1]
theorem left1_0 (c : Dev nD) (t : Fin cfg1.N) : (dat1 V c).after 0 t = blk1 V c 0 t := by dsimp only [dat1]
theorem left1_1 (c : Dev nD) (t : Fin cfg1.N) : (dat1 V c).after 1 t = blk1 V c 1 t := by dsimp only [dat1]
theorem left1_2 (c : Dev nD) (t : Fin cfg1.N) : (dat1 V c).after 2 t = blk1 V c 2 t := by dsimp only [dat1]
theorem left1_3 (c : Dev nD) (t : Fin cfg1.N) :
    (dat1 V c).after 3 t = stored1 (blk1 V c 0 t) (blk1 V c 1 t) (blk1 V c 2 t) := by dsimp only [dat1]
theorem found1_0 (c : Dev nD) (t : Fin cfg1.N) (d) : (dat1 V c).before 0 t d = blk1 V c 0 t :=
  found1_0_of V (dat1 V c) (arr1 V c 0) (left1_0 V c) t d
theorem found1_1 (c : Dev nD) (t : Fin cfg1.N) (d) : (dat1 V c).before 1 t d = blk1 V c 1 t :=
  found1_1_of V (dat1 V c) (arr1 V c 1) (left1_1 V c) t d
theorem found1_2 (c : Dev nD) (t : Fin cfg1.N) (d) : (dat1 V c).before 2 t d = blk1 V c 2 t :=
  found1_2_of V (dat1 V c) (arr1 V c 2) (left1_2 V c) t d

/-- What the pipeline hands the body at point `t`, -/
def handed1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what the body gives back. -/
def returned1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so `body1` applies; the invariant and the
    core's dues pass through untouched. -/
theorem at_point1 (c : Dev nD) (t : Fin cfg1.N) :
    handed1 V c t ⊢ wp frame (wpE (defs₀ (F := F)) Variants.none c none) Set.univ (bodyAt1 t) (fun _ => returned1 V c t) := by
  unfold handed1 returned1 bodyAt1
  simp only [found1_0, found1_1, found1_2]
  rw [show (dat1 V c).Φ t.succ = (dat1 V c).Φ t.castSucc from rfl,
    show (dat1 V c).owesAt () t.succ = (dat1 V c).owesAt () t.castSucc from rfl,
    left1_0, left1_1, left1_2, left1_3]
  iintro ⟨HΦ, Ho, ⟨%d0, H0⟩, ⟨%d1, H1⟩, ⟨%d2, H2⟩, ⟨%d3, H3⟩⟩
  iapply (body1 c Set.univ _ _ _ _ _ _ _ _ _ (blk1 V c 0 t) (blk1 V c 1 t) (blk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of pipeline 1, at every point. -/
theorem obligation1 (c : Dev nD) : BodyObligation (dat1 (F := F) V c) (defs₀ (F := F)) Variants.none () Set.univ := fun t => by
  rw [bigSep_W1, bigSep_W1]
  exact at_point1 V c t

end Cert.Kernel.Fr

end
-- ==== Proof.KB.Region2.lean ====
/-
  Region 2 of the program (the pallas_call of `cc2__matmul_bias_kernel`, the degree-2 neighbour product of layer 0), at any float instance.
  At every grid point the body reads each input block whole and writes the output block whole, so the output's
  staging buffer holds one function of the input blocks (`stored2`); an input block is where the pipeline
  left it whether or not the point fetched it, because the block index of an unfetched window has not moved.
  From these: the proof data of the pipeline (`dat2`) and the body obligation at every point (`obligation2`),
  both relative to the contents `V` the region is entered with.
-/
import proofs.«143046_j34703335751794_1_alg».proof.Proof.Gen.Kernel.Launch
import proofs.«143046_j34703335751794_1_alg».proof.Proof.Gen.Kernel.Skeleton
import proofs.«143046_j34703335751794_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the rectangle of its array (as the region finds it) that the index map
    names at `t`. -/
def blk2 (c : Dev nD) (w : Fin cfg2.W) (t : Fin cfg2.N) :
    ((cfg2.win w).xblock (cfg2.grid.coords t)).Idx → Elt F (cfg2.win w).elt :=
  ((cfg2.win w).blk t).view.read (Elt F) (V c (Pipeline.arrRef spec2 w))

/-- Input window 0's staging buffer holds the window's block at every point, fetched there or not. -/
theorem found2_0_of {c : Dev nD} (dat : Dat τ (Elt F) Unit ℕ (UR sig nD τ) ℕ cfg2 c)
    (hA : dat.A 0 = V c (Pipeline.arrRef spec2 0)) (hafter : ∀ t, dat.after 0 t = blk2 V c 0 t)
    (t : Fin cfg2.N) (d) : dat.before 0 t d = blk2 V c 0 t :=
  (dat.before_in_eq_fetched 0 rfl (fun _ => rfl) (fun _ _ _ => rfl)
      (fun t => by rw [hafter]; unfold Dat.blockOf blk2; rw [hA]; try rfl) t d).trans
    (by unfold Dat.fetched Dat.blockOf blk2; rw [hA]; try rfl)

/-- Input window 1's staging buffer holds the window's block at every point, fetched there or not. -/
theorem found2_1_of {c : Dev nD} (dat : Dat τ (Elt F) Unit ℕ (UR sig nD τ) ℕ cfg2 c)
    (hA : dat.A 1 = V c (Pipeline.arrRef spec2 1)) (hafter : ∀ t, dat.after 1 t = blk2 V c 1 t)
    (t : Fin cfg2.N) (d) : dat.before 1 t d = blk2 V c 1 t :=
  (dat.before_in_eq_fetched 1 rfl (fun _ => rfl) (fun _ _ _ => rfl)
      (fun t => by rw [hafter]; unfold Dat.blockOf blk2; rw [hA]; try rfl) t d).trans
    (by unfold Dat.fetched Dat.blockOf blk2; rw [hA]; try rfl)

/-- Input window 2's staging buffer holds the window's block at every point, fetched there or not. -/
theorem found2_2_of {c : Dev nD} (dat : Dat τ (Elt F) Unit ℕ (UR sig nD τ) ℕ cfg2 c)
    (hA : dat.A 2 = V c (Pipeline.arrRef spec2 2)) (hafter : ∀ t, dat.after 2 t = blk2 V c 2 t)
    (t : Fin cfg2.N) (d) : dat.before 2 t d = blk2 V c 2 t :=
  (dat.before_in_eq_fetched 2 rfl (fun _ => rfl) (fun _ _ _ => rfl)
      (fun t => by rw [hafter]; unfold Dat.blockOf blk2; rw [hA]; try rfl) t d).trans
    (by unfold Dat.fetched Dat.blockOf blk2; rw [hA]; try rfl)

/-- What the body leaves in the output's staging buffer: its one store, of the body's value at the whole input
    blocks, over the whole block. -/
def stored2 (x0 : Vec F S2000x68 .f32) (x1 : Vec F S68x100 .f32) (x2 : Vec F S1x100 .f32) : Vec F S2000x100 .f32 :=
  View.canon [⟨(Rect.unit (s := S2000x100) ![0, 0] S2000x100.size inb_S2000x100_S2000x100_0_0), k2_pay1 (View.ld x0 (Rect.unit (s := S2000x68) ![0, 0] S2000x68.size inb_S2000x68_S2000x68_0_0)) (View.ld x1 (Rect.unit (s := S68x100) ![0, 0] S68x100.size inb_S68x100_S68x100_0_0)) (View.ld x2 (Rect.unit (s := S1x100) ![0, 0] S1x100.size inb_S1x100_S1x100_0_0))⟩]

/-- The store's rectangle is the whole block. -/
theorem whole2 (p : Vec F S2000x100 .f32) (y : S2000x100.Idx) :
    ∃ pc ∈ ([⟨(Rect.unit (s := S2000x100) ![0, 0] S2000x100.size inb_S2000x100_S2000x100_0_0), p⟩] : List (View.Piece (Elt F) S2000x100 .f32)), y ∈ pc.1.set :=
  View.cover_of_tiled [⟨(Rect.unit (s := S2000x100) ![0, 0] S2000x100.size inb_S2000x100_S2000x100_0_0), p⟩] S2000x100.size (by rfl) y

set_option maxHeartbeats 1000000 in
/-- The body, run on whole staging buffers holding `x0 …` (the output's holding anything), ends with the inputs as
    they were and the output's at `stored2` of them. -/
theorem body2 (c : Dev nD) (E : Set ℕ) (i : grid2.Coords) (a0 : Memref sig .tc .vmem S2000x68 .f32) (ha0 : a0.IsWhole) (a1 : Memref sig .tc .vmem S68x100 .f32) (ha1 : a1.IsWhole) (a2 : Memref sig .tc .vmem S1x100 .f32) (ha2 : a2.IsWhole) (a3 : Memref sig .tc .vmem S2000x100 .f32) (ha3 : a3.IsWhole)
    (x0 : Vec F S2000x68 .f32) (x1 : Vec F S68x100 .f32) (x2 : Vec F S1x100 .f32) (Q : PUnit → sProp 𝕄) :
    iprop(owns (c : Thread nD τ) a0 fullShare x0 ∗ owns (c : Thread nD τ) a1 fullShare x1 ∗ owns (c : Thread nD τ) a2 fullShare x2 ∗ (∃ d, owns (c : Thread nD τ) a3 fullShare d)
        ∗ (iprop(owns (c : Thread nD τ) a0 fullShare x0 ∗ owns (c : Thread nD τ) a1 fullShare x1 ∗ owns (c : Thread nD τ) a2 fullShare x2 ∗ owns (c : Thread nD τ) a3 fullShare (stored2 x0 x1 x2)) -∗ Q ⟨⟩))
      ⊢ wp frame (wpE (defs₀ (F := F)) Variants.none c none) E (cc2__matmul_bias_kernel i a0 ha0 a1 ha1 a2 ha2 a3 ha3) Q := by
  simp only [cc2__matmul_bias_kernel_eq_skeleton]; unfold cc2__matmul_bias_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (whole2 _)

/-- The proof data of pipeline 2 on core `c`: the arrays as the region finds them; after the body each input's
    buffer at its block and the output's at `stored2` of the input blocks; the invariant that of a kernel that
    keeps nothing between points; nothing owed. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => blk2 V c 2 t
    | ⟨3, _⟩ => stored2 (blk2 V c 0 t) (blk2 V c 1 t) (blk2 V c 2 t)
  Φ _ := Pipeline.ΦA spec2 c
  q _ := fullShare
  owed _ := 0

theorem arr2 (c : Dev nD) (w : Fin cfg2.W) : (dat2 V c).A w = V c (Pipeline.arrRef spec2 w) := by
  dsimp only [dat2]
theorem left2_0 (c : Dev nD) (t : Fin cfg2.N) : (dat2 V c).after 0 t = blk2 V c 0 t := by dsimp only [dat2]
theorem left2_1 (c : Dev nD) (t : Fin cfg2.N) : (dat2 V c).after 1 t = blk2 V c 1 t := by dsimp only [dat2]
theorem left2_2 (c : Dev nD) (t : Fin cfg2.N) : (dat2 V c).after 2 t = blk2 V c 2 t := by dsimp only [dat2]
theorem left2_3 (c : Dev nD) (t : Fin cfg2.N) :
    (dat2 V c).after 3 t = stored2 (blk2 V c 0 t) (blk2 V c 1 t) (blk2 V c 2 t) := by dsimp only [dat2]
theorem found2_0 (c : Dev nD) (t : Fin cfg2.N) (d) : (dat2 V c).before 0 t d = blk2 V c 0 t :=
  found2_0_of V (dat2 V c) (arr2 V c 0) (left2_0 V c) t d
theorem found2_1 (c : Dev nD) (t : Fin cfg2.N) (d) : (dat2 V c).before 1 t d = blk2 V c 1 t :=
  found2_1_of V (dat2 V c) (arr2 V c 1) (left2_1 V c) t d
theorem found2_2 (c : Dev nD) (t : Fin cfg2.N) (d) : (dat2 V c).before 2 t d = blk2 V c 2 t :=
  found2_2_of V (dat2 V c) (arr2 V c 2) (left2_2 V c) t d

/-- What the pipeline hands the body at point `t`, -/
def handed2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what the body gives back. -/
def returned2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' buffers hold their blocks, so `body2` applies; the invariant and the
    core's dues pass through untouched. -/
theorem at_point2 (c : Dev nD) (t : Fin cfg2.N) :
    handed2 V c t ⊢ wp frame (wpE (defs₀ (F := F)) Variants.none c none) Set.univ (bodyAt2 t) (fun _ => returned2 V c t) := by
  unfold handed2 returned2 bodyAt2
  simp only [found2_0, found2_1, found2_2]
  rw [show (dat2 V c).Φ t.succ = (dat2 V c).Φ t.castSucc from rfl,
    show (dat2 V c).owesAt () t.succ = (dat2 V c).owesAt () t.castSucc from rfl,
    left2_0, left2_1, left2_2, left2_3]
  iintro ⟨HΦ, Ho, ⟨%d0, H0⟩, ⟨%d1, H1⟩, ⟨%d2, H2⟩, ⟨%d3, H3⟩⟩
  iapply (body2 c Set.univ _ _ _ _ _ _ _ _ _ (blk2 V c 0 t) (blk2 V c 1 t) (blk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of pipeline 2, at every point. -/
theorem obligation2 (c : Dev nD) : BodyObligation (dat2 (F := F) V c) (defs₀ (F := F)) Variants.none () Set.univ := fun t => by
  rw [bigSep_W2, bigSep_W2]
  exact at_point2 V c t

end Cert.Kernel.Fr

end
-- ==== Proof.KB.Region3.lean ====
/-
  Region 3 of the program (the pallas_call of `cc3__matmul_bias_kernel`, the degree-3 neighbour product of layer 0), at any float instance.
  At every grid point the body reads each input block whole and writes the output block whole, so the output's
  staging buffer holds one function of the input blocks (`stored3`); an input block is where the pipeline
  left it whether or not the point fetched it, because the block index of an unfetched window has not moved.
  From these: the proof data of the pipeline (`dat3`) and the body obligation at every point (`obligation3`),
  both relative to the contents `V` the region is entered with.
-/
import proofs.«143046_j34703335751794_1_alg».proof.Proof.Gen.Kernel.Launch
import proofs.«143046_j34703335751794_1_alg».proof.Proof.Gen.Kernel.Skeleton
import proofs.«143046_j34703335751794_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the rectangle of its array (as the region finds it) that the index map
    names at `t`. -/
def blk3 (c : Dev nD) (w : Fin cfg3.W) (t : Fin cfg3.N) :
    ((cfg3.win w).xblock (cfg3.grid.coords t)).Idx → Elt F (cfg3.win w).elt :=
  ((cfg3.win w).blk t).view.read (Elt F) (V c (Pipeline.arrRef spec3 w))

/-- Input window 0's staging buffer holds the window's block at every point, fetched there or not. -/
theorem found3_0_of {c : Dev nD} (dat : Dat τ (Elt F) Unit ℕ (UR sig nD τ) ℕ cfg3 c)
    (hA : dat.A 0 = V c (Pipeline.arrRef spec3 0)) (hafter : ∀ t, dat.after 0 t = blk3 V c 0 t)
    (t : Fin cfg3.N) (d) : dat.before 0 t d = blk3 V c 0 t :=
  (dat.before_in_eq_fetched 0 rfl (fun _ => rfl) (fun _ _ _ => rfl)
      (fun t => by rw [hafter]; unfold Dat.blockOf blk3; rw [hA]; try rfl) t d).trans
    (by unfold Dat.fetched Dat.blockOf blk3; rw [hA]; try rfl)

/-- Input window 1's staging buffer holds the window's block at every point, fetched there or not. -/
theorem found3_1_of {c : Dev nD} (dat : Dat τ (Elt F) Unit ℕ (UR sig nD τ) ℕ cfg3 c)
    (hA : dat.A 1 = V c (Pipeline.arrRef spec3 1)) (hafter : ∀ t, dat.after 1 t = blk3 V c 1 t)
    (t : Fin cfg3.N) (d) : dat.before 1 t d = blk3 V c 1 t :=
  (dat.before_in_eq_fetched 1 rfl (fun _ => rfl) (fun _ _ _ => rfl)
      (fun t => by rw [hafter]; unfold Dat.blockOf blk3; rw [hA]; try rfl) t d).trans
    (by unfold Dat.fetched Dat.blockOf blk3; rw [hA]; try rfl)

/-- Input window 2's staging buffer holds the window's block at every point, fetched there or not. -/
theorem found3_2_of {c : Dev nD} (dat : Dat τ (Elt F) Unit ℕ (UR sig nD τ) ℕ cfg3 c)
    (hA : dat.A 2 = V c (Pipeline.arrRef spec3 2)) (hafter : ∀ t, dat.after 2 t = blk3 V c 2 t)
    (t : Fin cfg3.N) (d) : dat.before 2 t d = blk3 V c 2 t :=
  (dat.before_in_eq_fetched 2 rfl (fun _ => rfl) (fun _ _ _ => rfl)
      (fun t => by rw [hafter]; unfold Dat.blockOf blk3; rw [hA]; try rfl) t d).trans
    (by unfold Dat.fetched Dat.blockOf blk3; rw [hA]; try rfl)

/-- What the body leaves in the output's staging buffer: its one store, of the body's value at the whole input
    blocks, over the whole block. -/
def stored3 (x0 : Vec F S2000x68 .f32) (x1 : Vec F S68x100 .f32) (x2 : Vec F S1x100 .f32) : Vec F S2000x100 .f32 :=
  View.canon [⟨(Rect.unit (s := S2000x100) ![0, 0] S2000x100.size inb_S2000x100_S2000x100_0_0), k3_pay1 (View.ld x0 (Rect.unit (s := S2000x68) ![0, 0] S2000x68.size inb_S2000x68_S2000x68_0_0)) (View.ld x1 (Rect.unit (s := S68x100) ![0, 0] S68x100.size inb_S68x100_S68x100_0_0)) (View.ld x2 (Rect.unit (s := S1x100) ![0, 0] S1x100.size inb_S1x100_S1x100_0_0))⟩]

/-- The store's rectangle is the whole block. -/
theorem whole3 (p : Vec F S2000x100 .f32) (y : S2000x100.Idx) :
    ∃ pc ∈ ([⟨(Rect.unit (s := S2000x100) ![0, 0] S2000x100.size inb_S2000x100_S2000x100_0_0), p⟩] : List (View.Piece (Elt F) S2000x100 .f32)), y ∈ pc.1.set :=
  View.cover_of_tiled [⟨(Rect.unit (s := S2000x100) ![0, 0] S2000x100.size inb_S2000x100_S2000x100_0_0), p⟩] S2000x100.size (by rfl) y

set_option maxHeartbeats 1000000 in
/-- The body, run on whole staging buffers holding `x0 …` (the output's holding anything), ends with the inputs as
    they were and the output's at `stored3` of them. -/
theorem body3 (c : Dev nD) (E : Set ℕ) (i : grid3.Coords) (a0 : Memref sig .tc .vmem S2000x68 .f32) (ha0 : a0.IsWhole) (a1 : Memref sig .tc .vmem S68x100 .f32) (ha1 : a1.IsWhole) (a2 : Memref sig .tc .vmem S1x100 .f32) (ha2 : a2.IsWhole) (a3 : Memref sig .tc .vmem S2000x100 .f32) (ha3 : a3.IsWhole)
    (x0 : Vec F S2000x68 .f32) (x1 : Vec F S68x100 .f32) (x2 : Vec F S1x100 .f32) (Q : PUnit → sProp 𝕄) :
    iprop(owns (c : Thread nD τ) a0 fullShare x0 ∗ owns (c : Thread nD τ) a1 fullShare x1 ∗ owns (c : Thread nD τ) a2 fullShare x2 ∗ (∃ d, owns (c : Thread nD τ) a3 fullShare d)
        ∗ (iprop(owns (c : Thread nD τ) a0 fullShare x0 ∗ owns (c : Thread nD τ) a1 fullShare x1 ∗ owns (c : Thread nD τ) a2 fullShare x2 ∗ owns (c : Thread nD τ) a3 fullShare (stored3 x0 x1 x2)) -∗ Q ⟨⟩))
      ⊢ wp frame (wpE (defs₀ (F := F)) Variants.none c none) E (cc3__matmul_bias_kernel i a0 ha0 a1 ha1 a2 ha2 a3 ha3) Q := by
  simp only [cc3__matmul_bias_kernel_eq_skeleton]; unfold cc3__matmul_bias_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (whole3 _)

/-- The proof data of pipeline 3 on core `c`: the arrays as the region finds them; after the body each input's
    buffer at its block and the output's at `stored3` of the input blocks; the invariant that of a kernel that
    keeps nothing between points; nothing owed. -/
def dat3 (c : Dev nD) : Dat τ (Elt F) Unit ℕ (UR sig nD τ) ℕ cfg3 c where
  A w := V c (Pipeline.arrRef spec3 w)
  after w t := match w with
    | ⟨0, _⟩ => blk3 V c 0 t
    | ⟨1, _⟩ => blk3 V c 1 t
    | ⟨2, _⟩ => blk3 V c 2 t
    | ⟨3, _⟩ => stored3 (blk3 V c 0 t) (blk3 V c 1 t) (blk3 V c 2 t)
  Φ _ := Pipeline.ΦA spec3 c
  q _ := fullShare
  owed _ := 0

theorem arr3 (c : Dev nD) (w : Fin cfg3.W) : (dat3 V c).A w = V c (Pipeline.arrRef spec3 w) := by
  dsimp only [dat3]
theorem left3_0 (c : Dev nD) (t : Fin cfg3.N) : (dat3 V c).after 0 t = blk3 V c 0 t := by dsimp only [dat3]
theorem left3_1 (c : Dev nD) (t : Fin cfg3.N) : (dat3 V c).after 1 t = blk3 V c 1 t := by dsimp only [dat3]
theorem left3_2 (c : Dev nD) (t : Fin cfg3.N) : (dat3 V c).after 2 t = blk3 V c 2 t := by dsimp only [dat3]
theorem left3_3 (c : Dev nD) (t : Fin cfg3.N) :
    (dat3 V c).after 3 t = stored3 (blk3 V c 0 t) (blk3 V c 1 t) (blk3 V c 2 t) := by dsimp only [dat3]
theorem found3_0 (c : Dev nD) (t : Fin cfg3.N) (d) : (dat3 V c).before 0 t d = blk3 V c 0 t :=
  found3_0_of V (dat3 V c) (arr3 V c 0) (left3_0 V c) t d
theorem found3_1 (c : Dev nD) (t : Fin cfg3.N) (d) : (dat3 V c).before 1 t d = blk3 V c 1 t :=
  found3_1_of V (dat3 V c) (arr3 V c 1) (left3_1 V c) t d
theorem found3_2 (c : Dev nD) (t : Fin cfg3.N) (d) : (dat3 V c).before 2 t d = blk3 V c 2 t :=
  found3_2_of V (dat3 V c) (arr3 V c 2) (left3_2 V c) t d

/-- What the pipeline hands the body at point `t`, -/
def handed3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what the body gives back. -/
def returned3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' buffers hold their blocks, so `body3` applies; the invariant and the
    core's dues pass through untouched. -/
theorem at_point3 (c : Dev nD) (t : Fin cfg3.N) :
    handed3 V c t ⊢ wp frame (wpE (defs₀ (F := F)) Variants.none c none) Set.univ (bodyAt3 t) (fun _ => returned3 V c t) := by
  unfold handed3 returned3 bodyAt3
  simp only [found3_0, found3_1, found3_2]
  rw [show (dat3 V c).Φ t.succ = (dat3 V c).Φ t.castSucc from rfl,
    show (dat3 V c).owesAt () t.succ = (dat3 V c).owesAt () t.castSucc from rfl,
    left3_0, left3_1, left3_2, left3_3]
  iintro ⟨HΦ, Ho, ⟨%d0, H0⟩, ⟨%d1, H1⟩, ⟨%d2, H2⟩, ⟨%d3, H3⟩⟩
  iapply (body3 c Set.univ _ _ _ _ _ _ _ _ _ (blk3 V c 0 t) (blk3 V c 1 t) (blk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of pipeline 3, at every point. -/
theorem obligation3 (c : Dev nD) : BodyObligation (dat3 (F := F) V c) (defs₀ (F := F)) Variants.none () Set.univ := fun t => by
  rw [bigSep_W3, bigSep_W3]
  exact at_point3 V c t

end Cert.Kernel.Fr

end
-- ==== Proof.KB.Region4.lean ====
/-
  Region 4 of the program (the pallas_call of `cc4__matmul_bias_kernel`, the degree-4 neighbour product of layer 0), at any float instance.
  At every grid point the body reads each input block whole and writes the output block whole, so the output's
  staging buffer holds one function of the input blocks (`stored4`); an input block is where the pipeline
  left it whether or not the point fetched it, because the block index of an unfetched window has not moved.
  From these: the proof data of the pipeline (`dat4`) and the body obligation at every point (`obligation4`),
  both relative to the contents `V` the region is entered with.
-/
import proofs.«143046_j34703335751794_1_alg».proof.Proof.Gen.Kernel.Launch
import proofs.«143046_j34703335751794_1_alg».proof.Proof.Gen.Kernel.Skeleton
import proofs.«143046_j34703335751794_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the rectangle of its array (as the region finds it) that the index map
    names at `t`. -/
def blk4 (c : Dev nD) (w : Fin cfg4.W) (t : Fin cfg4.N) :
    ((cfg4.win w).xblock (cfg4.grid.coords t)).Idx → Elt F (cfg4.win w).elt :=
  ((cfg4.win w).blk t).view.read (Elt F) (V c (Pipeline.arrRef spec4 w))

/-- Input window 0's staging buffer holds the window's block at every point, fetched there or not. -/
theorem found4_0_of {c : Dev nD} (dat : Dat τ (Elt F) Unit ℕ (UR sig nD τ) ℕ cfg4 c)
    (hA : dat.A 0 = V c (Pipeline.arrRef spec4 0)) (hafter : ∀ t, dat.after 0 t = blk4 V c 0 t)
    (t : Fin cfg4.N) (d) : dat.before 0 t d = blk4 V c 0 t :=
  (dat.before_in_eq_fetched 0 rfl (fun _ => rfl) (fun _ _ _ => rfl)
      (fun t => by rw [hafter]; unfold Dat.blockOf blk4; rw [hA]; try rfl) t d).trans
    (by unfold Dat.fetched Dat.blockOf blk4; rw [hA]; try rfl)

/-- Input window 1's staging buffer holds the window's block at every point, fetched there or not. -/
theorem found4_1_of {c : Dev nD} (dat : Dat τ (Elt F) Unit ℕ (UR sig nD τ) ℕ cfg4 c)
    (hA : dat.A 1 = V c (Pipeline.arrRef spec4 1)) (hafter : ∀ t, dat.after 1 t = blk4 V c 1 t)
    (t : Fin cfg4.N) (d) : dat.before 1 t d = blk4 V c 1 t :=
  (dat.before_in_eq_fetched 1 rfl (fun _ => rfl) (fun _ _ _ => rfl)
      (fun t => by rw [hafter]; unfold Dat.blockOf blk4; rw [hA]; try rfl) t d).trans
    (by unfold Dat.fetched Dat.blockOf blk4; rw [hA]; try rfl)

/-- Input window 2's staging buffer holds the window's block at every point, fetched there or not. -/
theorem found4_2_of {c : Dev nD} (dat : Dat τ (Elt F) Unit ℕ (UR sig nD τ) ℕ cfg4 c)
    (hA : dat.A 2 = V c (Pipeline.arrRef spec4 2)) (hafter : ∀ t, dat.after 2 t = blk4 V c 2 t)
    (t : Fin cfg4.N) (d) : dat.before 2 t d = blk4 V c 2 t :=
  (dat.before_in_eq_fetched 2 rfl (fun _ => rfl) (fun _ _ _ => rfl)
      (fun t => by rw [hafter]; unfold Dat.blockOf blk4; rw [hA]; try rfl) t d).trans
    (by unfold Dat.fetched Dat.blockOf blk4; rw [hA]; try rfl)

/-- What the body leaves in the output's staging buffer: its one store, of the body's value at the whole input
    blocks, over the whole block. -/
def stored4 (x0 : Vec F S2000x68 .f32) (x1 : Vec F S68x100 .f32) (x2 : Vec F S1x100 .f32) : Vec F S2000x100 .f32 :=
  View.canon [⟨(Rect.unit (s := S2000x100) ![0, 0] S2000x100.size inb_S2000x100_S2000x100_0_0), k4_pay1 (View.ld x0 (Rect.unit (s := S2000x68) ![0, 0] S2000x68.size inb_S2000x68_S2000x68_0_0)) (View.ld x1 (Rect.unit (s := S68x100) ![0, 0] S68x100.size inb_S68x100_S68x100_0_0)) (View.ld x2 (Rect.unit (s := S1x100) ![0, 0] S1x100.size inb_S1x100_S1x100_0_0))⟩]

/-- The store's rectangle is the whole block. -/
theorem whole4 (p : Vec F S2000x100 .f32) (y : S2000x100.Idx) :
    ∃ pc ∈ ([⟨(Rect.unit (s := S2000x100) ![0, 0] S2000x100.size inb_S2000x100_S2000x100_0_0), p⟩] : List (View.Piece (Elt F) S2000x100 .f32)), y ∈ pc.1.set :=
  View.cover_of_tiled [⟨(Rect.unit (s := S2000x100) ![0, 0] S2000x100.size inb_S2000x100_S2000x100_0_0), p⟩] S2000x100.size (by rfl) y

set_option maxHeartbeats 1000000 in
/-- The body, run on whole staging buffers holding `x0 …` (the output's holding anything), ends with the inputs as
    they were and the output's at `stored4` of them. -/
theorem body4 (c : Dev nD) (E : Set ℕ) (i : grid4.Coords) (a0 : Memref sig .tc .vmem S2000x68 .f32) (ha0 : a0.IsWhole) (a1 : Memref sig .tc .vmem S68x100 .f32) (ha1 : a1.IsWhole) (a2 : Memref sig .tc .vmem S1x100 .f32) (ha2 : a2.IsWhole) (a3 : Memref sig .tc .vmem S2000x100 .f32) (ha3 : a3.IsWhole)
    (x0 : Vec F S2000x68 .f32) (x1 : Vec F S68x100 .f32) (x2 : Vec F S1x100 .f32) (Q : PUnit → sProp 𝕄) :
    iprop(owns (c : Thread nD τ) a0 fullShare x0 ∗ owns (c : Thread nD τ) a1 fullShare x1 ∗ owns (c : Thread nD τ) a2 fullShare x2 ∗ (∃ d, owns (c : Thread nD τ) a3 fullShare d)
        ∗ (iprop(owns (c : Thread nD τ) a0 fullShare x0 ∗ owns (c : Thread nD τ) a1 fullShare x1 ∗ owns (c : Thread nD τ) a2 fullShare x2 ∗ owns (c : Thread nD τ) a3 fullShare (stored4 x0 x1 x2)) -∗ Q ⟨⟩))
      ⊢ wp frame (wpE (defs₀ (F := F)) Variants.none c none) E (cc4__matmul_bias_kernel i a0 ha0 a1 ha1 a2 ha2 a3 ha3) Q := by
  simp only [cc4__matmul_bias_kernel_eq_skeleton]; unfold cc4__matmul_bias_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (whole4 _)

/-- The proof data of pipeline 4 on core `c`: the arrays as the region finds them; after the body each input's
    buffer at its block and the output's at `stored4` of the input blocks; the invariant that of a kernel that
    keeps nothing between points; nothing owed. -/
def dat4 (c : Dev nD) : Dat τ (Elt F) Unit ℕ (UR sig nD τ) ℕ cfg4 c where
  A w := V c (Pipeline.arrRef spec4 w)
  after w t := match w with
    | ⟨0, _⟩ => blk4 V c 0 t
    | ⟨1, _⟩ => blk4 V c 1 t
    | ⟨2, _⟩ => blk4 V c 2 t
    | ⟨3, _⟩ => stored4 (blk4 V c 0 t) (blk4 V c 1 t) (blk4 V c 2 t)
  Φ _ := Pipeline.ΦA spec4 c
  q _ := fullShare
  owed _ := 0

theorem arr4 (c : Dev nD) (w : Fin cfg4.W) : (dat4 V c).A w = V c (Pipeline.arrRef spec4 w) := by
  dsimp only [dat4]
theorem left4_0 (c : Dev nD) (t : Fin cfg4.N) : (dat4 V c).after 0 t = blk4 V c 0 t := by dsimp only [dat4]
theorem left4_1 (c : Dev nD) (t : Fin cfg4.N) : (dat4 V c).after 1 t = blk4 V c 1 t := by dsimp only [dat4]
theorem left4_2 (c : Dev nD) (t : Fin cfg4.N) : (dat4 V c).after 2 t = blk4 V c 2 t := by dsimp only [dat4]
theorem left4_3 (c : Dev nD) (t : Fin cfg4.N) :
    (dat4 V c).after 3 t = stored4 (blk4 V c 0 t) (blk4 V c 1 t) (blk4 V c 2 t) := by dsimp only [dat4]
theorem found4_0 (c : Dev nD) (t : Fin cfg4.N) (d) : (dat4 V c).before 0 t d = blk4 V c 0 t :=
  found4_0_of V (dat4 V c) (arr4 V c 0) (left4_0 V c) t d
theorem found4_1 (c : Dev nD) (t : Fin cfg4.N) (d) : (dat4 V c).before 1 t d = blk4 V c 1 t :=
  found4_1_of V (dat4 V c) (arr4 V c 1) (left4_1 V c) t d
theorem found4_2 (c : Dev nD) (t : Fin cfg4.N) (d) : (dat4 V c).before 2 t d = blk4 V c 2 t :=
  found4_2_of V (dat4 V c) (arr4 V c 2) (left4_2 V c) t d

/-- What the pipeline hands the body at point `t`, -/
def handed4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what the body gives back. -/
def returned4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

/-- The body at any point: the inputs' buffers hold their blocks, so `body4` applies; the invariant and the
    core's dues pass through untouched. -/
theorem at_point4 (c : Dev nD) (t : Fin cfg4.N) :
    handed4 V c t ⊢ wp frame (wpE (defs₀ (F := F)) Variants.none c none) Set.univ (bodyAt4 t) (fun _ => returned4 V c t) := by
  unfold handed4 returned4 bodyAt4
  simp only [found4_0, found4_1, found4_2]
  rw [show (dat4 V c).Φ t.succ = (dat4 V c).Φ t.castSucc from rfl,
    show (dat4 V c).owesAt () t.succ = (dat4 V c).owesAt () t.castSucc from rfl,
    left4_0, left4_1, left4_2, left4_3]
  iintro ⟨HΦ, Ho, ⟨%d0, H0⟩, ⟨%d1, H1⟩, ⟨%d2, H2⟩, ⟨%d3, H3⟩⟩
  iapply (body4 c Set.univ _ _ _ _ _ _ _ _ _ (blk4 V c 0 t) (blk4 V c 1 t) (blk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of pipeline 4, at every point. -/
theorem obligation4 (c : Dev nD) : BodyObligation (dat4 (F := F) V c) (defs₀ (F := F)) Variants.none () Set.univ := fun t => by
  rw [bigSep_W4, bigSep_W4]
  exact at_point4 V c t

end Cert.Kernel.Fr

end
-- ==== Proof.KB.Region5.lean ====
/-
  Region 5 of the program (the pallas_call of `cc5__conv_finish_kernel`, the normalised, rectified layer 0), at any float instance.
  At every grid point the body reads each input block whole and writes the output block whole, so the output's
  staging buffer holds one function of the input blocks (`stored5`); an input block is where the pipeline
  left it whether or not the point fetched it, because the block index of an unfetched window has not moved.
  From these: the proof data of the pipeline (`dat5`) and the body obligation at every point (`obligation5`),
  both relative to the contents `V` the region is entered with.
-/
import proofs.«143046_j34703335751794_1_alg».proof.Proof.Gen.Kernel.Launch
import proofs.«143046_j34703335751794_1_alg».proof.Proof.Gen.Kernel.Skeleton
import proofs.«143046_j34703335751794_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the rectangle of its array (as the region finds it) that the index map
    names at `t`. -/
def blk5 (c : Dev nD) (w : Fin cfg5.W) (t : Fin cfg5.N) :
    ((cfg5.win w).xblock (cfg5.grid.coords t)).Idx → Elt F (cfg5.win w).elt :=
  ((cfg5.win w).blk t).view.read (Elt F) (V c (Pipeline.arrRef spec5 w))

/-- Input window 0's staging buffer holds the window's block at every point, fetched there or not. -/
theorem found5_0_of {c : Dev nD} (dat : Dat τ (Elt F) Unit ℕ (UR sig nD τ) ℕ cfg5 c)
    (hA : dat.A 0 = V c (Pipeline.arrRef spec5 0)) (hafter : ∀ t, dat.after 0 t = blk5 V c 0 t)
    (t : Fin cfg5.N) (d) : dat.before 0 t d = blk5 V c 0 t :=
  (dat.before_in_eq_fetched 0 rfl (fun _ => rfl) (fun _ _ _ => rfl)
      (fun t => by rw [hafter]; unfold Dat.blockOf blk5; rw [hA]; try rfl) t d).trans
    (by unfold Dat.fetched Dat.blockOf blk5; rw [hA]; try rfl)

/-- Input window 1's staging buffer holds the window's block at every point, fetched there or not. -/
theorem found5_1_of {c : Dev nD} (dat : Dat τ (Elt F) Unit ℕ (UR sig nD τ) ℕ cfg5 c)
    (hA : dat.A 1 = V c (Pipeline.arrRef spec5 1)) (hafter : ∀ t, dat.after 1 t = blk5 V c 1 t)
    (t : Fin cfg5.N) (d) : dat.before 1 t d = blk5 V c 1 t :=
  (dat.before_in_eq_fetched 1 rfl (fun _ => rfl) (fun _ _ _ => rfl)
      (fun t => by rw [hafter]; unfold Dat.blockOf blk5; rw [hA]; try rfl) t d).trans
    (by unfold Dat.fetched Dat.blockOf blk5; rw [hA]; try rfl)

/-- Input window 2's staging buffer holds the window's block at every point, fetched there or not. -/
theorem found5_2_of {c : Dev nD} (dat : Dat τ (Elt F) Unit ℕ (UR sig nD τ) ℕ cfg5 c)
    (hA : dat.A 2 = V c (Pipeline.arrRef spec5 2)) (hafter : ∀ t, dat.after 2 t = blk5 V c 2 t)
    (t : Fin cfg5.N) (d) : dat.before 2 t d = blk5 V c 2 t :=
  (dat.before_in_eq_fetched 2 rfl (fun _ => rfl) (fun _ _ _ => rfl)
      (fun t => by rw [hafter]; unfold Dat.blockOf blk5; rw [hA]; try rfl) t d).trans
    (by unfold Dat.fetched Dat.blockOf blk5; rw [hA]; try rfl)

/-- Input window 3's staging buffer holds the window's block at every point, fetched there or not. -/
theorem found5_3_of {c : Dev nD} (dat : Dat τ (Elt F) Unit ℕ (UR sig nD τ) ℕ cfg5 c)
    (hA : dat.A 3 = V c (Pipeline.arrRef spec5 3)) (hafter : ∀ t, dat.after 3 t = blk5 V c 3 t)
    (t : Fin cfg5.N) (d) : dat.before 3 t d = blk5 V c 3 t :=
  (dat.before_in_eq_fetched 3 rfl (fun _ => rfl) (fun _ _ _ => rfl)
      (fun t => by rw [hafter]; unfold Dat.blockOf blk5; rw [hA]; try rfl) t d).trans
    (by unfold Dat.fetched Dat.blockOf blk5; rw [hA]; try rfl)

/-- What the body leaves in the output's staging buffer: its one store, of the body's value at the whole input
    blocks, over the whole block. -/
def stored5 (x0 : Vec F S2000x62 .f32) (x1 : Vec F S62x100 .f32) (x2 : Vec F S1x100 .f32) (x3 : Vec F S2000x100 .f32) : Vec F S2000x100 .f32 :=
  View.canon [⟨(Rect.unit (s := S2000x100) ![0, 0] S2000x100.size inb_S2000x100_S2000x100_0_0), k5_pay1 (View.ld x0 (Rect.unit (s := S2000x62) ![0, 0] S2000x62.size inb_S2000x62_S2000x62_0_0)) (View.ld x1 (Rect.unit (s := S62x100) ![0, 0] S62x100.size inb_S62x100_S62x100_0_0)) (View.ld x2 (Rect.unit (s := S1x100) ![0, 0] S1x100.size inb_S1x100_S1x100_0_0)) (View.ld x3 (Rect.unit (s := S2000x100) ![0, 0] S2000x100.size inb_S2000x100_S2000x100_0_0))⟩]

/-- The store's rectangle is the whole block. -/
theorem whole5 (p : Vec F S2000x100 .f32) (y : S2000x100.Idx) :
    ∃ pc ∈ ([⟨(Rect.unit (s := S2000x100) ![0, 0] S2000x100.size inb_S2000x100_S2000x100_0_0), p⟩] : List (View.Piece (Elt F) S2000x100 .f32)), y ∈ pc.1.set :=
  View.cover_of_tiled [⟨(Rect.unit (s := S2000x100) ![0, 0] S2000x100.size inb_S2000x100_S2000x100_0_0), p⟩] S2000x100.size (by rfl) y

set_option maxHeartbeats 1000000 in
/-- The body, run on whole staging buffers holding `x0 …` (the output's holding anything), ends with the inputs as
    they were and the output's at `stored5` of them. -/
theorem body5 (c : Dev nD) (E : Set ℕ) (i : grid5.Coords) (a0 : Memref sig .tc .vmem S2000x62 .f32) (ha0 : a0.IsWhole) (a1 : Memref sig .tc .vmem S62x100 .f32) (ha1 : a1.IsWhole) (a2 : Memref sig .tc .vmem S1x100 .f32) (ha2 : a2.IsWhole) (a3 : Memref sig .tc .vmem S2000x100 .f32) (ha3 : a3.IsWhole) (a4 : Memref sig .tc .vmem S2000x100 .f32) (ha4 : a4.IsWhole)
    (x0 : Vec F S2000x62 .f32) (x1 : Vec F S62x100 .f32) (x2 : Vec F S1x100 .f32) (x3 : Vec F S2000x100 .f32) (Q : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ (∃ d, owns (c : Thread nD τ) a4 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare (stored5 x0 x1 x2 x3)) -∗ Q ⟨⟩))
      ⊢ wp frame (wpE (defs₀ (F := F)) Variants.none c none) E (cc5__conv_finish_kernel i a0 ha0 a1 ha1 a2 ha2 a3 ha3 a4 ha4) Q := by
  simp only [cc5__conv_finish_kernel_eq_skeleton]; unfold cc5__conv_finish_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (whole5 _)

/-- The proof data of pipeline 5 on core `c`: the arrays as the region finds them; after the body each input's
    buffer at its block and the output's at `stored5` of the input blocks; the invariant that of a kernel that
    keeps nothing between points; nothing owed. -/
def dat5 (c : Dev nD) : Dat τ (Elt F) Unit ℕ (UR sig nD τ) ℕ cfg5 c where
  A w := V c (Pipeline.arrRef spec5 w)
  after w t := match w with
    | ⟨0, _⟩ => blk5 V c 0 t
    | ⟨1, _⟩ => blk5 V c 1 t
    | ⟨2, _⟩ => blk5 V c 2 t
    | ⟨3, _⟩ => blk5 V c 3 t
    | ⟨4, _⟩ => stored5 (blk5 V c 0 t) (blk5 V c 1 t) (blk5 V c 2 t) (blk5 V c 3 t)
  Φ _ := Pipeline.ΦA spec5 c
  q _ := fullShare
  owed _ := 0

theorem arr5 (c : Dev nD) (w : Fin cfg5.W) : (dat5 V c).A w = V c (Pipeline.arrRef spec5 w) := by
  dsimp only [dat5]
theorem left5_0 (c : Dev nD) (t : Fin cfg5.N) : (dat5 V c).after 0 t = blk5 V c 0 t := by dsimp only [dat5]
theorem left5_1 (c : Dev nD) (t : Fin cfg5.N) : (dat5 V c).after 1 t = blk5 V c 1 t := by dsimp only [dat5]
theorem left5_2 (c : Dev nD) (t : Fin cfg5.N) : (dat5 V c).after 2 t = blk5 V c 2 t := by dsimp only [dat5]
theorem left5_3 (c : Dev nD) (t : Fin cfg5.N) : (dat5 V c).after 3 t = blk5 V c 3 t := by dsimp only [dat5]
theorem left5_4 (c : Dev nD) (t : Fin cfg5.N) :
    (dat5 V c).after 4 t = stored5 (blk5 V c 0 t) (blk5 V c 1 t) (blk5 V c 2 t) (blk5 V c 3 t) := by dsimp only [dat5]
theorem found5_0 (c : Dev nD) (t : Fin cfg5.N) (d) : (dat5 V c).before 0 t d = blk5 V c 0 t :=
  found5_0_of V (dat5 V c) (arr5 V c 0) (left5_0 V c) t d
theorem found5_1 (c : Dev nD) (t : Fin cfg5.N) (d) : (dat5 V c).before 1 t d = blk5 V c 1 t :=
  found5_1_of V (dat5 V c) (arr5 V c 1) (left5_1 V c) t d
theorem found5_2 (c : Dev nD) (t : Fin cfg5.N) (d) : (dat5 V c).before 2 t d = blk5 V c 2 t :=
  found5_2_of V (dat5 V c) (arr5 V c 2) (left5_2 V c) t d
theorem found5_3 (c : Dev nD) (t : Fin cfg5.N) (d) : (dat5 V c).before 3 t d = blk5 V c 3 t :=
  found5_3_of V (dat5 V c) (arr5 V c 3) (left5_3 V c) t d

/-- What the pipeline hands the body at point `t`, -/
def handed5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d)))

/-- and what the body gives back. -/
def returned5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t))

/-- The body at any point: the inputs' buffers hold their blocks, so `body5` applies; the invariant and the
    core's dues pass through untouched. -/
theorem at_point5 (c : Dev nD) (t : Fin cfg5.N) :
    handed5 V c t ⊢ wp frame (wpE (defs₀ (F := F)) Variants.none c none) Set.univ (bodyAt5 t) (fun _ => returned5 V c t) := by
  unfold handed5 returned5 bodyAt5
  simp only [found5_0, found5_1, found5_2, found5_3]
  rw [show (dat5 V c).Φ t.succ = (dat5 V c).Φ t.castSucc from rfl,
    show (dat5 V c).owesAt () t.succ = (dat5 V c).owesAt () t.castSucc from rfl,
    left5_0, left5_1, left5_2, left5_3, left5_4]
  iintro ⟨HΦ, Ho, ⟨%d0, H0⟩, ⟨%d1, H1⟩, ⟨%d2, H2⟩, ⟨%d3, H3⟩, ⟨%d4, H4⟩⟩
  iapply (body5 c Set.univ _ _ _ _ _ _ _ _ _ _ _ (blk5 V c 0 t) (blk5 V c 1 t) (blk5 V c 2 t) (blk5 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of pipeline 5, at every point. -/
theorem obligation5 (c : Dev nD) : BodyObligation (dat5 (F := F) V c) (defs₀ (F := F)) Variants.none () Set.univ := fun t => by
  rw [bigSep_W5, bigSep_W5]
  exact at_point5 V c t

end Cert.Kernel.Fr

end
-- ==== Proof.KB.Region6.lean ====
/-
  Region 6 of the program (the pallas_call of `cc6__fingerprint_kernel`, the softmax fingerprint of layer 0's features), at any float instance.
  At every grid point the body reads each input block whole and writes the output block whole, so the output's
  staging buffer holds one function of the input blocks (`stored6`); an input block is where the pipeline
  left it whether or not the point fetched it, because the block index of an unfetched window has not moved.
  From these: the proof data of the pipeline (`dat6`) and the body obligation at every point (`obligation6`),
  both relative to the contents `V` the region is entered with.
-/
import proofs.«143046_j34703335751794_1_alg».proof.Proof.Gen.Kernel.Launch
import proofs.«143046_j34703335751794_1_alg».proof.Proof.Gen.Kernel.Skeleton
import proofs.«143046_j34703335751794_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the rectangle of its array (as the region finds it) that the index map
    names at `t`. -/
def blk6 (c : Dev nD) (w : Fin cfg6.W) (t : Fin cfg6.N) :
    ((cfg6.win w).xblock (cfg6.grid.coords t)).Idx → Elt F (cfg6.win w).elt :=
  ((cfg6.win w).blk t).view.read (Elt F) (V c (Pipeline.arrRef spec6 w))

/-- Input window 0's staging buffer holds the window's block at every point, fetched there or not. -/
theorem found6_0_of {c : Dev nD} (dat : Dat τ (Elt F) Unit ℕ (UR sig nD τ) ℕ cfg6 c)
    (hA : dat.A 0 = V c (Pipeline.arrRef spec6 0)) (hafter : ∀ t, dat.after 0 t = blk6 V c 0 t)
    (t : Fin cfg6.N) (d) : dat.before 0 t d = blk6 V c 0 t :=
  (dat.before_in_eq_fetched 0 rfl (fun _ => rfl) (fun _ _ _ => rfl)
      (fun t => by rw [hafter]; unfold Dat.blockOf blk6; rw [hA]; try rfl) t d).trans
    (by unfold Dat.fetched Dat.blockOf blk6; rw [hA]; try rfl)

/-- Input window 1's staging buffer holds the window's block at every point, fetched there or not. -/
theorem found6_1_of {c : Dev nD} (dat : Dat τ (Elt F) Unit ℕ (UR sig nD τ) ℕ cfg6 c)
    (hA : dat.A 1 = V c (Pipeline.arrRef spec6 1)) (hafter : ∀ t, dat.after 1 t = blk6 V c 1 t)
    (t : Fin cfg6.N) (d) : dat.before 1 t d = blk6 V c 1 t :=
  (dat.before_in_eq_fetched 1 rfl (fun _ => rfl) (fun _ _ _ => rfl)
      (fun t => by rw [hafter]; unfold Dat.blockOf blk6; rw [hA]; try rfl) t d).trans
    (by unfold Dat.fetched Dat.blockOf blk6; rw [hA]; try rfl)

/-- Input window 2's staging buffer holds the window's block at every point, fetched there or not. -/
theorem found6_2_of {c : Dev nD} (dat : Dat τ (Elt F) Unit ℕ (UR sig nD τ) ℕ cfg6 c)
    (hA : dat.A 2 = V c (Pipeline.arrRef spec6 2)) (hafter : ∀ t, dat.after 2 t = blk6 V c 2 t)
    (t : Fin cfg6.N) (d) : dat.before 2 t d = blk6 V c 2 t :=
  (dat.before_in_eq_fetched 2 rfl (fun _ => rfl) (fun _ _ _ => rfl)
      (fun t => by rw [hafter]; unfold Dat.blockOf blk6; rw [hA]; try rfl) t d).trans
    (by unfold Dat.fetched Dat.blockOf blk6; rw [hA]; try rfl)

/-- What the body leaves in the output's staging buffer: its one store, of the body's value at the whole input
    blocks, over the whole block. -/
def stored6 (x0 : Vec F S2000x100 .f32) (x1 : Vec F S100x512 .f32) (x2 : Vec F S1x512 .f32) : Vec F S2000x512 .f32 :=
  View.canon [⟨(Rect.unit (s := S2000x512) ![0, 0] S2000x512.size inb_S2000x512_S2000x512_0_0), k6_pay1 (View.ld x0 (Rect.unit (s := S2000x100) ![0, 0] S2000x100.size inb_S2000x100_S2000x100_0_0)) (View.ld x1 (Rect.unit (s := S100x512) ![0, 0] S100x512.size inb_S100x512_S100x512_0_0)) (View.ld x2 (Rect.unit (s := S1x512) ![0, 0] S1x512.size inb_S1x512_S1x512_0_0))⟩]

/-- The store's rectangle is the whole block. -/
theorem whole6 (p : Vec F S2000x512 .f32) (y : S2000x512.Idx) :
    ∃ pc ∈ ([⟨(Rect.unit (s := S2000x512) ![0, 0] S2000x512.size inb_S2000x512_S2000x512_0_0), p⟩] : List (View.Piece (Elt F) S2000x512 .f32)), y ∈ pc.1.set :=
  View.cover_of_tiled [⟨(Rect.unit (s := S2000x512) ![0, 0] S2000x512.size inb_S2000x512_S2000x512_0_0), p⟩] S2000x512.size (by rfl) y

set_option maxHeartbeats 1000000 in
/-- The body, run on whole staging buffers holding `x0 …` (the output's holding anything), ends with the inputs as
    they were and the output's at `stored6` of them. -/
theorem body6 (c : Dev nD) (E : Set ℕ) (i : grid6.Coords) (a0 : Memref sig .tc .vmem S2000x100 .f32) (ha0 : a0.IsWhole) (a1 : Memref sig .tc .vmem S100x512 .f32) (ha1 : a1.IsWhole) (a2 : Memref sig .tc .vmem S1x512 .f32) (ha2 : a2.IsWhole) (a3 : Memref sig .tc .vmem S2000x512 .f32) (ha3 : a3.IsWhole)
    (x0 : Vec F S2000x100 .f32) (x1 : Vec F S100x512 .f32) (x2 : Vec F S1x512 .f32) (Q : PUnit → sProp 𝕄) :
    iprop(owns (c : Thread nD τ) a0 fullShare x0 ∗ owns (c : Thread nD τ) a1 fullShare x1 ∗ owns (c : Thread nD τ) a2 fullShare x2 ∗ (∃ d, owns (c : Thread nD τ) a3 fullShare d)
        ∗ (iprop(owns (c : Thread nD τ) a0 fullShare x0 ∗ owns (c : Thread nD τ) a1 fullShare x1 ∗ owns (c : Thread nD τ) a2 fullShare x2 ∗ owns (c : Thread nD τ) a3 fullShare (stored6 x0 x1 x2)) -∗ Q ⟨⟩))
      ⊢ wp frame (wpE (defs₀ (F := F)) Variants.none c none) E (cc6__fingerprint_kernel i a0 ha0 a1 ha1 a2 ha2 a3 ha3) Q := by
  simp only [cc6__fingerprint_kernel_eq_skeleton]; unfold cc6__fingerprint_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (whole6 _)

/-- The proof data of pipeline 6 on core `c`: the arrays as the region finds them; after the body each input's
    buffer at its block and the output's at `stored6` of the input blocks; the invariant that of a kernel that
    keeps nothing between points; nothing owed. -/
def dat6 (c : Dev nD) : Dat τ (Elt F) Unit ℕ (UR sig nD τ) ℕ cfg6 c where
  A w := V c (Pipeline.arrRef spec6 w)
  after w t := match w with
    | ⟨0, _⟩ => blk6 V c 0 t
    | ⟨1, _⟩ => blk6 V c 1 t
    | ⟨2, _⟩ => blk6 V c 2 t
    | ⟨3, _⟩ => stored6 (blk6 V c 0 t) (blk6 V c 1 t) (blk6 V c 2 t)
  Φ _ := Pipeline.ΦA spec6 c
  q _ := fullShare
  owed _ := 0

theorem arr6 (c : Dev nD) (w : Fin cfg6.W) : (dat6 V c).A w = V c (Pipeline.arrRef spec6 w) := by
  dsimp only [dat6]
theorem left6_0 (c : Dev nD) (t : Fin cfg6.N) : (dat6 V c).after 0 t = blk6 V c 0 t := by dsimp only [dat6]
theorem left6_1 (c : Dev nD) (t : Fin cfg6.N) : (dat6 V c).after 1 t = blk6 V c 1 t := by dsimp only [dat6]
theorem left6_2 (c : Dev nD) (t : Fin cfg6.N) : (dat6 V c).after 2 t = blk6 V c 2 t := by dsimp only [dat6]
theorem left6_3 (c : Dev nD) (t : Fin cfg6.N) :
    (dat6 V c).after 3 t = stored6 (blk6 V c 0 t) (blk6 V c 1 t) (blk6 V c 2 t) := by dsimp only [dat6]
theorem found6_0 (c : Dev nD) (t : Fin cfg6.N) (d) : (dat6 V c).before 0 t d = blk6 V c 0 t :=
  found6_0_of V (dat6 V c) (arr6 V c 0) (left6_0 V c) t d
theorem found6_1 (c : Dev nD) (t : Fin cfg6.N) (d) : (dat6 V c).before 1 t d = blk6 V c 1 t :=
  found6_1_of V (dat6 V c) (arr6 V c 1) (left6_1 V c) t d
theorem found6_2 (c : Dev nD) (t : Fin cfg6.N) (d) : (dat6 V c).before 2 t d = blk6 V c 2 t :=
  found6_2_of V (dat6 V c) (arr6 V c 2) (left6_2 V c) t d

/-- What the pipeline hands the body at point `t`, -/
def handed6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d)))

/-- and what the body gives back. -/
def returned6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t))

/-- The body at any point: the inputs' buffers hold their blocks, so `body6` applies; the invariant and the
    core's dues pass through untouched. -/
theorem at_point6 (c : Dev nD) (t : Fin cfg6.N) :
    handed6 V c t ⊢ wp frame (wpE (defs₀ (F := F)) Variants.none c none) Set.univ (bodyAt6 t) (fun _ => returned6 V c t) := by
  unfold handed6 returned6 bodyAt6
  simp only [found6_0, found6_1, found6_2]
  rw [show (dat6 V c).Φ t.succ = (dat6 V c).Φ t.castSucc from rfl,
    show (dat6 V c).owesAt () t.succ = (dat6 V c).owesAt () t.castSucc from rfl,
    left6_0, left6_1, left6_2, left6_3]
  iintro ⟨HΦ, Ho, ⟨%d0, H0⟩, ⟨%d1, H1⟩, ⟨%d2, H2⟩, ⟨%d3, H3⟩⟩
  iapply (body6 c Set.univ _ _ _ _ _ _ _ _ _ (blk6 V c 0 t) (blk6 V c 1 t) (blk6 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of pipeline 6, at every point. -/
theorem obligation6 (c : Dev nD) : BodyObligation (dat6 (F := F) V c) (defs₀ (F := F)) Variants.none () Set.univ := fun t => by
  rw [bigSep_W6, bigSep_W6]
  exact at_point6 V c t

end Cert.Kernel.Fr

end
-- ==== Proof.KB.Region7.lean ====
/-
  Region 7 of the program (the pallas_call of `cc7__matmul_bias_kernel`, the degree-1 neighbour product of layer 1), at any float instance.
  At every grid point the body reads each input block whole and writes the output block whole, so the output's
  staging buffer holds one function of the input blocks (`stored7`); an input block is where the pipeline
  left it whether or not the point fetched it, because the block index of an unfetched window has not moved.
  From these: the proof data of the pipeline (`dat7`) and the body obligation at every point (`obligation7`),
  both relative to the contents `V` the region is entered with.
-/
import proofs.«143046_j34703335751794_1_alg».proof.Proof.Gen.Kernel.Launch
import proofs.«143046_j34703335751794_1_alg».proof.Proof.Gen.Kernel.Skeleton
import proofs.«143046_j34703335751794_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the rectangle of its array (as the region finds it) that the index map
    names at `t`. -/
def blk7 (c : Dev nD) (w : Fin cfg7.W) (t : Fin cfg7.N) :
    ((cfg7.win w).xblock (cfg7.grid.coords t)).Idx → Elt F (cfg7.win w).elt :=
  ((cfg7.win w).blk t).view.read (Elt F) (V c (Pipeline.arrRef spec7 w))

/-- Input window 0's staging buffer holds the window's block at every point, fetched there or not. -/
theorem found7_0_of {c : Dev nD} (dat : Dat τ (Elt F) Unit ℕ (UR sig nD τ) ℕ cfg7 c)
    (hA : dat.A 0 = V c (Pipeline.arrRef spec7 0)) (hafter : ∀ t, dat.after 0 t = blk7 V c 0 t)
    (t : Fin cfg7.N) (d) : dat.before 0 t d = blk7 V c 0 t :=
  (dat.before_in_eq_fetched 0 rfl (fun _ => rfl) (fun _ _ _ => rfl)
      (fun t => by rw [hafter]; unfold Dat.blockOf blk7; rw [hA]; try rfl) t d).trans
    (by unfold Dat.fetched Dat.blockOf blk7; rw [hA]; try rfl)

/-- Input window 1's staging buffer holds the window's block at every point, fetched there or not. -/
theorem found7_1_of {c : Dev nD} (dat : Dat τ (Elt F) Unit ℕ (UR sig nD τ) ℕ cfg7 c)
    (hA : dat.A 1 = V c (Pipeline.arrRef spec7 1)) (hafter : ∀ t, dat.after 1 t = blk7 V c 1 t)
    (t : Fin cfg7.N) (d) : dat.before 1 t d = blk7 V c 1 t :=
  (dat.before_in_eq_fetched 1 rfl (fun _ => rfl) (fun _ _ _ => rfl)
      (fun t => by rw [hafter]; unfold Dat.blockOf blk7; rw [hA]; try rfl) t d).trans
    (by unfold Dat.fetched Dat.blockOf blk7; rw [hA]; try rfl)

/-- Input window 2's staging buffer holds the window's block at every point, fetched there or not. -/
theorem found7_2_of {c : Dev nD} (dat : Dat τ (Elt F) Unit ℕ (UR sig nD τ) ℕ cfg7 c)
    (hA : dat.A 2 = V c (Pipeline.arrRef spec7 2)) (hafter : ∀ t, dat.after 2 t = blk7 V c 2 t)
    (t : Fin cfg7.N) (d) : dat.before 2 t d = blk7 V c 2 t :=
  (dat.before_in_eq_fetched 2 rfl (fun _ => rfl) (fun _ _ _ => rfl)
      (fun t => by rw [hafter]; unfold Dat.blockOf blk7; rw [hA]; try rfl) t d).trans
    (by unfold Dat.fetched Dat.blockOf blk7; rw [hA]; try rfl)

/-- What the body leaves in the output's staging buffer: its one store, of the body's value at the whole input
    blocks, over the whole block. -/
def stored7 (x0 : Vec F S2000x106 .f32) (x1 : Vec F S106x100 .f32) (x2 : Vec F S1x100 .f32) : Vec F S2000x100 .f32 :=
  View.canon [⟨(Rect.unit (s := S2000x100) ![0, 0] S2000x100.size inb_S2000x100_S2000x100_0_0), k7_pay1 (View.ld x0 (Rect.unit (s := S2000x106) ![0, 0] S2000x106.size inb_S2000x106_S2000x106_0_0)) (View.ld x1 (Rect.unit (s := S106x100) ![0, 0] S106x100.size inb_S106x100_S106x100_0_0)) (View.ld x2 (Rect.unit (s := S1x100) ![0, 0] S1x100.size inb_S1x100_S1x100_0_0))⟩]

/-- The store's rectangle is the whole block. -/
theorem whole7 (p : Vec F S2000x100 .f32) (y : S2000x100.Idx) :
    ∃ pc ∈ ([⟨(Rect.unit (s := S2000x100) ![0, 0] S2000x100.size inb_S2000x100_S2000x100_0_0), p⟩] : List (View.Piece (Elt F) S2000x100 .f32)), y ∈ pc.1.set :=
  View.cover_of_tiled [⟨(Rect.unit (s := S2000x100) ![0, 0] S2000x100.size inb_S2000x100_S2000x100_0_0), p⟩] S2000x100.size (by rfl) y

set_option maxHeartbeats 1000000 in
/-- The body, run on whole staging buffers holding `x0 …` (the output's holding anything), ends with the inputs as
    they were and the output's at `stored7` of them. -/
theorem body7 (c : Dev nD) (E : Set ℕ) (i : grid7.Coords) (a0 : Memref sig .tc .vmem S2000x106 .f32) (ha0 : a0.IsWhole) (a1 : Memref sig .tc .vmem S106x100 .f32) (ha1 : a1.IsWhole) (a2 : Memref sig .tc .vmem S1x100 .f32) (ha2 : a2.IsWhole) (a3 : Memref sig .tc .vmem S2000x100 .f32) (ha3 : a3.IsWhole)
    (x0 : Vec F S2000x106 .f32) (x1 : Vec F S106x100 .f32) (x2 : Vec F S1x100 .f32) (Q : PUnit → sProp 𝕄) :
    iprop(owns (c : Thread nD τ) a0 fullShare x0 ∗ owns (c : Thread nD τ) a1 fullShare x1 ∗ owns (c : Thread nD τ) a2 fullShare x2 ∗ (∃ d, owns (c : Thread nD τ) a3 fullShare d)
        ∗ (iprop(owns (c : Thread nD τ) a0 fullShare x0 ∗ owns (c : Thread nD τ) a1 fullShare x1 ∗ owns (c : Thread nD τ) a2 fullShare x2 ∗ owns (c : Thread nD τ) a3 fullShare (stored7 x0 x1 x2)) -∗ Q ⟨⟩))
      ⊢ wp frame (wpE (defs₀ (F := F)) Variants.none c none) E (cc7__matmul_bias_kernel i a0 ha0 a1 ha1 a2 ha2 a3 ha3) Q := by
  simp only [cc7__matmul_bias_kernel_eq_skeleton]; unfold cc7__matmul_bias_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (whole7 _)

/-- The proof data of pipeline 7 on core `c`: the arrays as the region finds them; after the body each input's
    buffer at its block and the output's at `stored7` of the input blocks; the invariant that of a kernel that
    keeps nothing between points; nothing owed. -/
def dat7 (c : Dev nD) : Dat τ (Elt F) Unit ℕ (UR sig nD τ) ℕ cfg7 c where
  A w := V c (Pipeline.arrRef spec7 w)
  after w t := match w with
    | ⟨0, _⟩ => blk7 V c 0 t
    | ⟨1, _⟩ => blk7 V c 1 t
    | ⟨2, _⟩ => blk7 V c 2 t
    | ⟨3, _⟩ => stored7 (blk7 V c 0 t) (blk7 V c 1 t) (blk7 V c 2 t)
  Φ _ := Pipeline.ΦA spec7 c
  q _ := fullShare
  owed _ := 0

theorem arr7 (c : Dev nD) (w : Fin cfg7.W) : (dat7 V c).A w = V c (Pipeline.arrRef spec7 w) := by
  dsimp only [dat7]
theorem left7_0 (c : Dev nD) (t : Fin cfg7.N) : (dat7 V c).after 0 t = blk7 V c 0 t := by dsimp only [dat7]
theorem left7_1 (c : Dev nD) (t : Fin cfg7.N) : (dat7 V c).after 1 t = blk7 V c 1 t := by dsimp only [dat7]
theorem left7_2 (c : Dev nD) (t : Fin cfg7.N) : (dat7 V c).after 2 t = blk7 V c 2 t := by dsimp only [dat7]
theorem left7_3 (c : Dev nD) (t : Fin cfg7.N) :
    (dat7 V c).after 3 t = stored7 (blk7 V c 0 t) (blk7 V c 1 t) (blk7 V c 2 t) := by dsimp only [dat7]
theorem found7_0 (c : Dev nD) (t : Fin cfg7.N) (d) : (dat7 V c).before 0 t d = blk7 V c 0 t :=
  found7_0_of V (dat7 V c) (arr7 V c 0) (left7_0 V c) t d
theorem found7_1 (c : Dev nD) (t : Fin cfg7.N) (d) : (dat7 V c).before 1 t d = blk7 V c 1 t :=
  found7_1_of V (dat7 V c) (arr7 V c 1) (left7_1 V c) t d
theorem found7_2 (c : Dev nD) (t : Fin cfg7.N) (d) : (dat7 V c).before 2 t d = blk7 V c 2 t :=
  found7_2_of V (dat7 V c) (arr7 V c 2) (left7_2 V c) t d

/-- What the pipeline hands the body at point `t`, -/
def handed7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d)))

/-- and what the body gives back. -/
def returned7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t))

/-- The body at any point: the inputs' buffers hold their blocks, so `body7` applies; the invariant and the
    core's dues pass through untouched. -/
theorem at_point7 (c : Dev nD) (t : Fin cfg7.N) :
    handed7 V c t ⊢ wp frame (wpE (defs₀ (F := F)) Variants.none c none) Set.univ (bodyAt7 t) (fun _ => returned7 V c t) := by
  unfold handed7 returned7 bodyAt7
  simp only [found7_0, found7_1, found7_2]
  rw [show (dat7 V c).Φ t.succ = (dat7 V c).Φ t.castSucc from rfl,
    show (dat7 V c).owesAt () t.succ = (dat7 V c).owesAt () t.castSucc from rfl,
    left7_0, left7_1, left7_2, left7_3]
  iintro ⟨HΦ, Ho, ⟨%d0, H0⟩, ⟨%d1, H1⟩, ⟨%d2, H2⟩, ⟨%d3, H3⟩⟩
  iapply (body7 c Set.univ _ _ _ _ _ _ _ _ _ (blk7 V c 0 t) (blk7 V c 1 t) (blk7 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of pipeline 7, at every point. -/
theorem obligation7 (c : Dev nD) : BodyObligation (dat7 (F := F) V c) (defs₀ (F := F)) Variants.none () Set.univ := fun t => by
  rw [bigSep_W7, bigSep_W7]
  exact at_point7 V c t

end Cert.Kernel.Fr

end
-- ==== Proof.KB.Region8.lean ====
/-
  Region 8 of the program (the pallas_call of `cc8__matmul_bias_kernel`, the degree-2 neighbour product of layer 1), at any float instance.
  At every grid point the body reads each input block whole and writes the output block whole, so the output's
  staging buffer holds one function of the input blocks (`stored8`); an input block is where the pipeline
  left it whether or not the point fetched it, because the block index of an unfetched window has not moved.
  From these: the proof data of the pipeline (`dat8`) and the body obligation at every point (`obligation8`),
  both relative to the contents `V` the region is entered with.
-/
import proofs.«143046_j34703335751794_1_alg».proof.Proof.Gen.Kernel.Launch
import proofs.«143046_j34703335751794_1_alg».proof.Proof.Gen.Kernel.Skeleton
import proofs.«143046_j34703335751794_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the rectangle of its array (as the region finds it) that the index map
    names at `t`. -/
def blk8 (c : Dev nD) (w : Fin cfg8.W) (t : Fin cfg8.N) :
    ((cfg8.win w).xblock (cfg8.grid.coords t)).Idx → Elt F (cfg8.win w).elt :=
  ((cfg8.win w).blk t).view.read (Elt F) (V c (Pipeline.arrRef spec8 w))

/-- Input window 0's staging buffer holds the window's block at every point, fetched there or not. -/
theorem found8_0_of {c : Dev nD} (dat : Dat τ (Elt F) Unit ℕ (UR sig nD τ) ℕ cfg8 c)
    (hA : dat.A 0 = V c (Pipeline.arrRef spec8 0)) (hafter : ∀ t, dat.after 0 t = blk8 V c 0 t)
    (t : Fin cfg8.N) (d) : dat.before 0 t d = blk8 V c 0 t :=
  (dat.before_in_eq_fetched 0 rfl (fun _ => rfl) (fun _ _ _ => rfl)
      (fun t => by rw [hafter]; unfold Dat.blockOf blk8; rw [hA]; try rfl) t d).trans
    (by unfold Dat.fetched Dat.blockOf blk8; rw [hA]; try rfl)

/-- Input window 1's staging buffer holds the window's block at every point, fetched there or not. -/
theorem found8_1_of {c : Dev nD} (dat : Dat τ (Elt F) Unit ℕ (UR sig nD τ) ℕ cfg8 c)
    (hA : dat.A 1 = V c (Pipeline.arrRef spec8 1)) (hafter : ∀ t, dat.after 1 t = blk8 V c 1 t)
    (t : Fin cfg8.N) (d) : dat.before 1 t d = blk8 V c 1 t :=
  (dat.before_in_eq_fetched 1 rfl (fun _ => rfl) (fun _ _ _ => rfl)
      (fun t => by rw [hafter]; unfold Dat.blockOf blk8; rw [hA]; try rfl) t d).trans
    (by unfold Dat.fetched Dat.blockOf blk8; rw [hA]; try rfl)

/-- Input window 2's staging buffer holds the window's block at every point, fetched there or not. -/
theorem found8_2_of {c : Dev nD} (dat : Dat τ (Elt F) Unit ℕ (UR sig nD τ) ℕ cfg8 c)
    (hA : dat.A 2 = V c (Pipeline.arrRef spec8 2)) (hafter : ∀ t, dat.after 2 t = blk8 V c 2 t)
    (t : Fin cfg8.N) (d) : dat.before 2 t d = blk8 V c 2 t :=
  (dat.before_in_eq_fetched 2 rfl (fun _ => rfl) (fun _ _ _ => rfl)
      (fun t => by rw [hafter]; unfold Dat.blockOf blk8; rw [hA]; try rfl) t d).trans
    (by unfold Dat.fetched Dat.blockOf blk8; rw [hA]; try rfl)

/-- What the body leaves in the output's staging buffer: its one store, of the body's value at the whole input
    blocks, over the whole block. -/
def stored8 (x0 : Vec F S2000x106 .f32) (x1 : Vec F S106x100 .f32) (x2 : Vec F S1x100 .f32) : Vec F S2000x100 .f32 :=
  View.canon [⟨(Rect.unit (s := S2000x100) ![0, 0] S2000x100.size inb_S2000x100_S2000x100_0_0), k8_pay1 (View.ld x0 (Rect.unit (s := S2000x106) ![0, 0] S2000x106.size inb_S2000x106_S2000x106_0_0)) (View.ld x1 (Rect.unit (s := S106x100) ![0, 0] S106x100.size inb_S106x100_S106x100_0_0)) (View.ld x2 (Rect.unit (s := S1x100) ![0, 0] S1x100.size inb_S1x100_S1x100_0_0))⟩]

/-- The store's rectangle is the whole block. -/
theorem whole8 (p : Vec F S2000x100 .f32) (y : S2000x100.Idx) :
    ∃ pc ∈ ([⟨(Rect.unit (s := S2000x100) ![0, 0] S2000x100.size inb_S2000x100_S2000x100_0_0), p⟩] : List (View.Piece (Elt F) S2000x100 .f32)), y ∈ pc.1.set :=
  View.cover_of_tiled [⟨(Rect.unit (s := S2000x100) ![0, 0] S2000x100.size inb_S2000x100_S2000x100_0_0), p⟩] S2000x100.size (by rfl) y

set_option maxHeartbeats 1000000 in
/-- The body, run on whole staging buffers holding `x0 …` (the output's holding anything), ends with the inputs as
    they were and the output's at `stored8` of them. -/
theorem body8 (c : Dev nD) (E : Set ℕ) (i : grid8.Coords) (a0 : Memref sig .tc .vmem S2000x106 .f32) (ha0 : a0.IsWhole) (a1 : Memref sig .tc .vmem S106x100 .f32) (ha1 : a1.IsWhole) (a2 : Memref sig .tc .vmem S1x100 .f32) (ha2 : a2.IsWhole) (a3 : Memref sig .tc .vmem S2000x100 .f32) (ha3 : a3.IsWhole)
    (x0 : Vec F S2000x106 .f32) (x1 : Vec F S106x100 .f32) (x2 : Vec F S1x100 .f32) (Q : PUnit → sProp 𝕄) :
    iprop(owns (c : Thread nD τ) a0 fullShare x0 ∗ owns (c : Thread nD τ) a1 fullShare x1 ∗ owns (c : Thread nD τ) a2 fullShare x2 ∗ (∃ d, owns (c : Thread nD τ) a3 fullShare d)
        ∗ (iprop(owns (c : Thread nD τ) a0 fullShare x0 ∗ owns (c : Thread nD τ) a1 fullShare x1 ∗ owns (c : Thread nD τ) a2 fullShare x2 ∗ owns (c : Thread nD τ) a3 fullShare (stored8 x0 x1 x2)) -∗ Q ⟨⟩))
      ⊢ wp frame (wpE (defs₀ (F := F)) Variants.none c none) E (cc8__matmul_bias_kernel i a0 ha0 a1 ha1 a2 ha2 a3 ha3) Q := by
  simp only [cc8__matmul_bias_kernel_eq_skeleton]; unfold cc8__matmul_bias_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (whole8 _)

/-- The proof data of pipeline 8 on core `c`: the arrays as the region finds them; after the body each input's
    buffer at its block and the output's at `stored8` of the input blocks; the invariant that of a kernel that
    keeps nothing between points; nothing owed. -/
def dat8 (c : Dev nD) : Dat τ (Elt F) Unit ℕ (UR sig nD τ) ℕ cfg8 c where
  A w := V c (Pipeline.arrRef spec8 w)
  after w t := match w with
    | ⟨0, _⟩ => blk8 V c 0 t
    | ⟨1, _⟩ => blk8 V c 1 t
    | ⟨2, _⟩ => blk8 V c 2 t
    | ⟨3, _⟩ => stored8 (blk8 V c 0 t) (blk8 V c 1 t) (blk8 V c 2 t)
  Φ _ := Pipeline.ΦA spec8 c
  q _ := fullShare
  owed _ := 0

theorem arr8 (c : Dev nD) (w : Fin cfg8.W) : (dat8 V c).A w = V c (Pipeline.arrRef spec8 w) := by
  dsimp only [dat8]
theorem left8_0 (c : Dev nD) (t : Fin cfg8.N) : (dat8 V c).after 0 t = blk8 V c 0 t := by dsimp only [dat8]
theorem left8_1 (c : Dev nD) (t : Fin cfg8.N) : (dat8 V c).after 1 t = blk8 V c 1 t := by dsimp only [dat8]
theorem left8_2 (c : Dev nD) (t : Fin cfg8.N) : (dat8 V c).after 2 t = blk8 V c 2 t := by dsimp only [dat8]
theorem left8_3 (c : Dev nD) (t : Fin cfg8.N) :
    (dat8 V c).after 3 t = stored8 (blk8 V c 0 t) (blk8 V c 1 t) (blk8 V c 2 t) := by dsimp only [dat8]
theorem found8_0 (c : Dev nD) (t : Fin cfg8.N) (d) : (dat8 V c).before 0 t d = blk8 V c 0 t :=
  found8_0_of V (dat8 V c) (arr8 V c 0) (left8_0 V c) t d
theorem found8_1 (c : Dev nD) (t : Fin cfg8.N) (d) : (dat8 V c).before 1 t d = blk8 V c 1 t :=
  found8_1_of V (dat8 V c) (arr8 V c 1) (left8_1 V c) t d
theorem found8_2 (c : Dev nD) (t : Fin cfg8.N) (d) : (dat8 V c).before 2 t d = blk8 V c 2 t :=
  found8_2_of V (dat8 V c) (arr8 V c 2) (left8_2 V c) t d

/-- What the pipeline hands the body at point `t`, -/
def handed8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d)))

/-- and what the body gives back. -/
def returned8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t))

/-- The body at any point: the inputs' buffers hold their blocks, so `body8` applies; the invariant and the
    core's dues pass through untouched. -/
theorem at_point8 (c : Dev nD) (t : Fin cfg8.N) :
    handed8 V c t ⊢ wp frame (wpE (defs₀ (F := F)) Variants.none c none) Set.univ (bodyAt8 t) (fun _ => returned8 V c t) := by
  unfold handed8 returned8 bodyAt8
  simp only [found8_0, found8_1, found8_2]
  rw [show (dat8 V c).Φ t.succ = (dat8 V c).Φ t.castSucc from rfl,
    show (dat8 V c).owesAt () t.succ = (dat8 V c).owesAt () t.castSucc from rfl,
    left8_0, left8_1, left8_2, left8_3]
  iintro ⟨HΦ, Ho, ⟨%d0, H0⟩, ⟨%d1, H1⟩, ⟨%d2, H2⟩, ⟨%d3, H3⟩⟩
  iapply (body8 c Set.univ _ _ _ _ _ _ _ _ _ (blk8 V c 0 t) (blk8 V c 1 t) (blk8 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of pipeline 8, at every point. -/
theorem obligation8 (c : Dev nD) : BodyObligation (dat8 (F := F) V c) (defs₀ (F := F)) Variants.none () Set.univ := fun t => by
  rw [bigSep_W8, bigSep_W8]
  exact at_point8 V c t

end Cert.Kernel.Fr

end
-- ==== Proof.KB.Region9.lean ====
/-
  Region 9 of the program (the pallas_call of `cc9__matmul_bias_kernel`, the degree-3 neighbour product of layer 1), at any float instance.
  At every grid point the body reads each input block whole and writes the output block whole, so the output's
  staging buffer holds one function of the input blocks (`stored9`); an input block is where the pipeline
  left it whether or not the point fetched it, because the block index of an unfetched window has not moved.
  From these: the proof data of the pipeline (`dat9`) and the body obligation at every point (`obligation9`),
  both relative to the contents `V` the region is entered with.
-/
import proofs.«143046_j34703335751794_1_alg».proof.Proof.Gen.Kernel.Launch
import proofs.«143046_j34703335751794_1_alg».proof.Proof.Gen.Kernel.Skeleton
import proofs.«143046_j34703335751794_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the rectangle of its array (as the region finds it) that the index map
    names at `t`. -/
def blk9 (c : Dev nD) (w : Fin cfg9.W) (t : Fin cfg9.N) :
    ((cfg9.win w).xblock (cfg9.grid.coords t)).Idx → Elt F (cfg9.win w).elt :=
  ((cfg9.win w).blk t).view.read (Elt F) (V c (Pipeline.arrRef spec9 w))

/-- Input window 0's staging buffer holds the window's block at every point, fetched there or not. -/
theorem found9_0_of {c : Dev nD} (dat : Dat τ (Elt F) Unit ℕ (UR sig nD τ) ℕ cfg9 c)
    (hA : dat.A 0 = V c (Pipeline.arrRef spec9 0)) (hafter : ∀ t, dat.after 0 t = blk9 V c 0 t)
    (t : Fin cfg9.N) (d) : dat.before 0 t d = blk9 V c 0 t :=
  (dat.before_in_eq_fetched 0 rfl (fun _ => rfl) (fun _ _ _ => rfl)
      (fun t => by rw [hafter]; unfold Dat.blockOf blk9; rw [hA]; try rfl) t d).trans
    (by unfold Dat.fetched Dat.blockOf blk9; rw [hA]; try rfl)

/-- Input window 1's staging buffer holds the window's block at every point, fetched there or not. -/
theorem found9_1_of {c : Dev nD} (dat : Dat τ (Elt F) Unit ℕ (UR sig nD τ) ℕ cfg9 c)
    (hA : dat.A 1 = V c (Pipeline.arrRef spec9 1)) (hafter : ∀ t, dat.after 1 t = blk9 V c 1 t)
    (t : Fin cfg9.N) (d) : dat.before 1 t d = blk9 V c 1 t :=
  (dat.before_in_eq_fetched 1 rfl (fun _ => rfl) (fun _ _ _ => rfl)
      (fun t => by rw [hafter]; unfold Dat.blockOf blk9; rw [hA]; try rfl) t d).trans
    (by unfold Dat.fetched Dat.blockOf blk9; rw [hA]; try rfl)

/-- Input window 2's staging buffer holds the window's block at every point, fetched there or not. -/
theorem found9_2_of {c : Dev nD} (dat : Dat τ (Elt F) Unit ℕ (UR sig nD τ) ℕ cfg9 c)
    (hA : dat.A 2 = V c (Pipeline.arrRef spec9 2)) (hafter : ∀ t, dat.after 2 t = blk9 V c 2 t)
    (t : Fin cfg9.N) (d) : dat.before 2 t d = blk9 V c 2 t :=
  (dat.before_in_eq_fetched 2 rfl (fun _ => rfl) (fun _ _ _ => rfl)
      (fun t => by rw [hafter]; unfold Dat.blockOf blk9; rw [hA]; try rfl) t d).trans
    (by unfold Dat.fetched Dat.blockOf blk9; rw [hA]; try rfl)

/-- What the body leaves in the output's staging buffer: its one store, of the body's value at the whole input
    blocks, over the whole block. -/
def stored9 (x0 : Vec F S2000x106 .f32) (x1 : Vec F S106x100 .f32) (x2 : Vec F S1x100 .f32) : Vec F S2000x100 .f32 :=
  View.canon [⟨(Rect.unit (s := S2000x100) ![0, 0] S2000x100.size inb_S2000x100_S2000x100_0_0), k9_pay1 (View.ld x0 (Rect.unit (s := S2000x106) ![0, 0] S2000x106.size inb_S2000x106_S2000x106_0_0)) (View.ld x1 (Rect.unit (s := S106x100) ![0, 0] S106x100.size inb_S106x100_S106x100_0_0)) (View.ld x2 (Rect.unit (s := S1x100) ![0, 0] S1x100.size inb_S1x100_S1x100_0_0))⟩]

/-- The store's rectangle is the whole block. -/
theorem whole9 (p : Vec F S2000x100 .f32) (y : S2000x100.Idx) :
    ∃ pc ∈ ([⟨(Rect.unit (s := S2000x100) ![0, 0] S2000x100.size inb_S2000x100_S2000x100_0_0), p⟩] : List (View.Piece (Elt F) S2000x100 .f32)), y ∈ pc.1.set :=
  View.cover_of_tiled [⟨(Rect.unit (s := S2000x100) ![0, 0] S2000x100.size inb_S2000x100_S2000x100_0_0), p⟩] S2000x100.size (by rfl) y

set_option maxHeartbeats 1000000 in
/-- The body, run on whole staging buffers holding `x0 …` (the output's holding anything), ends with the inputs as
    they were and the output's at `stored9` of them. -/
theorem body9 (c : Dev nD) (E : Set ℕ) (i : grid9.Coords) (a0 : Memref sig .tc .vmem S2000x106 .f32) (ha0 : a0.IsWhole) (a1 : Memref sig .tc .vmem S106x100 .f32) (ha1 : a1.IsWhole) (a2 : Memref sig .tc .vmem S1x100 .f32) (ha2 : a2.IsWhole) (a3 : Memref sig .tc .vmem S2000x100 .f32) (ha3 : a3.IsWhole)
    (x0 : Vec F S2000x106 .f32) (x1 : Vec F S106x100 .f32) (x2 : Vec F S1x100 .f32) (Q : PUnit → sProp 𝕄) :
    iprop(owns (c : Thread nD τ) a0 fullShare x0 ∗ owns (c : Thread nD τ) a1 fullShare x1 ∗ owns (c : Thread nD τ) a2 fullShare x2 ∗ (∃ d, owns (c : Thread nD τ) a3 fullShare d)
        ∗ (iprop(owns (c : Thread nD τ) a0 fullShare x0 ∗ owns (c : Thread nD τ) a1 fullShare x1 ∗ owns (c : Thread nD τ) a2 fullShare x2 ∗ owns (c : Thread nD τ) a3 fullShare (stored9 x0 x1 x2)) -∗ Q ⟨⟩))
      ⊢ wp frame (wpE (defs₀ (F := F)) Variants.none c none) E (cc9__matmul_bias_kernel i a0 ha0 a1 ha1 a2 ha2 a3 ha3) Q := by
  simp only [cc9__matmul_bias_kernel_eq_skeleton]; unfold cc9__matmul_bias_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (whole9 _)

/-- The proof data of pipeline 9 on core `c`: the arrays as the region finds them; after the body each input's
    buffer at its block and the output's at `stored9` of the input blocks; the invariant that of a kernel that
    keeps nothing between points; nothing owed. -/
def dat9 (c : Dev nD) : Dat τ (Elt F) Unit ℕ (UR sig nD τ) ℕ cfg9 c where
  A w := V c (Pipeline.arrRef spec9 w)
  after w t := match w with
    | ⟨0, _⟩ => blk9 V c 0 t
    | ⟨1, _⟩ => blk9 V c 1 t
    | ⟨2, _⟩ => blk9 V c 2 t
    | ⟨3, _⟩ => stored9 (blk9 V c 0 t) (blk9 V c 1 t) (blk9 V c 2 t)
  Φ _ := Pipeline.ΦA spec9 c
  q _ := fullShare
  owed _ := 0

theorem arr9 (c : Dev nD) (w : Fin cfg9.W) : (dat9 V c).A w = V c (Pipeline.arrRef spec9 w) := by
  dsimp only [dat9]
theorem left9_0 (c : Dev nD) (t : Fin cfg9.N) : (dat9 V c).after 0 t = blk9 V c 0 t := by dsimp only [dat9]
theorem left9_1 (c : Dev nD) (t : Fin cfg9.N) : (dat9 V c).after 1 t = blk9 V c 1 t := by dsimp only [dat9]
theorem left9_2 (c : Dev nD) (t : Fin cfg9.N) : (dat9 V c).after 2 t = blk9 V c 2 t := by dsimp only [dat9]
theorem left9_3 (c : Dev nD) (t : Fin cfg9.N) :
    (dat9 V c).after 3 t = stored9 (blk9 V c 0 t) (blk9 V c 1 t) (blk9 V c 2 t) := by dsimp only [dat9]
theorem found9_0 (c : Dev nD) (t : Fin cfg9.N) (d) : (dat9 V c).before 0 t d = blk9 V c 0 t :=
  found9_0_of V (dat9 V c) (arr9 V c 0) (left9_0 V c) t d
theorem found9_1 (c : Dev nD) (t : Fin cfg9.N) (d) : (dat9 V c).before 1 t d = blk9 V c 1 t :=
  found9_1_of V (dat9 V c) (arr9 V c 1) (left9_1 V c) t d
theorem found9_2 (c : Dev nD) (t : Fin cfg9.N) (d) : (dat9 V c).before 2 t d = blk9 V c 2 t :=
  found9_2_of V (dat9 V c) (arr9 V c 2) (left9_2 V c) t d

/-- What the pipeline hands the body at point `t`, -/
def handed9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d)))

/-- and what the body gives back. -/
def returned9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t))

/-- The body at any point: the inputs' buffers hold their blocks, so `body9` applies; the invariant and the
    core's dues pass through untouched. -/
theorem at_point9 (c : Dev nD) (t : Fin cfg9.N) :
    handed9 V c t ⊢ wp frame (wpE (defs₀ (F := F)) Variants.none c none) Set.univ (bodyAt9 t) (fun _ => returned9 V c t) := by
  unfold handed9 returned9 bodyAt9
  simp only [found9_0, found9_1, found9_2]
  rw [show (dat9 V c).Φ t.succ = (dat9 V c).Φ t.castSucc from rfl,
    show (dat9 V c).owesAt () t.succ = (dat9 V c).owesAt () t.castSucc from rfl,
    left9_0, left9_1, left9_2, left9_3]
  iintro ⟨HΦ, Ho, ⟨%d0, H0⟩, ⟨%d1, H1⟩, ⟨%d2, H2⟩, ⟨%d3, H3⟩⟩
  iapply (body9 c Set.univ _ _ _ _ _ _ _ _ _ (blk9 V c 0 t) (blk9 V c 1 t) (blk9 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of pipeline 9, at every point. -/
theorem obligation9 (c : Dev nD) : BodyObligation (dat9 (F := F) V c) (defs₀ (F := F)) Variants.none () Set.univ := fun t => by
  rw [bigSep_W9, bigSep_W9]
  exact at_point9 V c t

end Cert.Kernel.Fr

end
-- ==== Proof.KB.Region10.lean ====
/-
  Region 10 of the program (the pallas_call of `cc10__matmul_bias_kernel`, the degree-4 neighbour product of layer 1), at any float instance.
  At every grid point the body reads each input block whole and writes the output block whole, so the output's
  staging buffer holds one function of the input blocks (`stored10`); an input block is where the pipeline
  left it whether or not the point fetched it, because the block index of an unfetched window has not moved.
  From these: the proof data of the pipeline (`dat10`) and the body obligation at every point (`obligation10`),
  both relative to the contents `V` the region is entered with.
-/
import proofs.«143046_j34703335751794_1_alg».proof.Proof.Gen.Kernel.Launch
import proofs.«143046_j34703335751794_1_alg».proof.Proof.Gen.Kernel.Skeleton
import proofs.«143046_j34703335751794_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the rectangle of its array (as the region finds it) that the index map
    names at `t`. -/
def blk10 (c : Dev nD) (w : Fin cfg10.W) (t : Fin cfg10.N) :
    ((cfg10.win w).xblock (cfg10.grid.coords t)).Idx → Elt F (cfg10.win w).elt :=
  ((cfg10.win w).blk t).view.read (Elt F) (V c (Pipeline.arrRef spec10 w))

/-- Input window 0's staging buffer holds the window's block at every point, fetched there or not. -/
theorem found10_0_of {c : Dev nD} (dat : Dat τ (Elt F) Unit ℕ (UR sig nD τ) ℕ cfg10 c)
    (hA : dat.A 0 = V c (Pipeline.arrRef spec10 0)) (hafter : ∀ t, dat.after 0 t = blk10 V c 0 t)
    (t : Fin cfg10.N) (d) : dat.before 0 t d = blk10 V c 0 t :=
  (dat.before_in_eq_fetched 0 rfl (fun _ => rfl) (fun _ _ _ => rfl)
      (fun t => by rw [hafter]; unfold Dat.blockOf blk10; rw [hA]; try rfl) t d).trans
    (by unfold Dat.fetched Dat.blockOf blk10; rw [hA]; try rfl)

/-- Input window 1's staging buffer holds the window's block at every point, fetched there or not. -/
theorem found10_1_of {c : Dev nD} (dat : Dat τ (Elt F) Unit ℕ (UR sig nD τ) ℕ cfg10 c)
    (hA : dat.A 1 = V c (Pipeline.arrRef spec10 1)) (hafter : ∀ t, dat.after 1 t = blk10 V c 1 t)
    (t : Fin cfg10.N) (d) : dat.before 1 t d = blk10 V c 1 t :=
  (dat.before_in_eq_fetched 1 rfl (fun _ => rfl) (fun _ _ _ => rfl)
      (fun t => by rw [hafter]; unfold Dat.blockOf blk10; rw [hA]; try rfl) t d).trans
    (by unfold Dat.fetched Dat.blockOf blk10; rw [hA]; try rfl)

/-- Input window 2's staging buffer holds the window's block at every point, fetched there or not. -/
theorem found10_2_of {c : Dev nD} (dat : Dat τ (Elt F) Unit ℕ (UR sig nD τ) ℕ cfg10 c)
    (hA : dat.A 2 = V c (Pipeline.arrRef spec10 2)) (hafter : ∀ t, dat.after 2 t = blk10 V c 2 t)
    (t : Fin cfg10.N) (d) : dat.before 2 t d = blk10 V c 2 t :=
  (dat.before_in_eq_fetched 2 rfl (fun _ => rfl) (fun _ _ _ => rfl)
      (fun t => by rw [hafter]; unfold Dat.blockOf blk10; rw [hA]; try rfl) t d).trans
    (by unfold Dat.fetched Dat.blockOf blk10; rw [hA]; try rfl)

/-- What the body leaves in the output's staging buffer: its one store, of the body's value at the whole input
    blocks, over the whole block. -/
def stored10 (x0 : Vec F S2000x106 .f32) (x1 : Vec F S106x100 .f32) (x2 : Vec F S1x100 .f32) : Vec F S2000x100 .f32 :=
  View.canon [⟨(Rect.unit (s := S2000x100) ![0, 0] S2000x100.size inb_S2000x100_S2000x100_0_0), k10_pay1 (View.ld x0 (Rect.unit (s := S2000x106) ![0, 0] S2000x106.size inb_S2000x106_S2000x106_0_0)) (View.ld x1 (Rect.unit (s := S106x100) ![0, 0] S106x100.size inb_S106x100_S106x100_0_0)) (View.ld x2 (Rect.unit (s := S1x100) ![0, 0] S1x100.size inb_S1x100_S1x100_0_0))⟩]

/-- The store's rectangle is the whole block. -/
theorem whole10 (p : Vec F S2000x100 .f32) (y : S2000x100.Idx) :
    ∃ pc ∈ ([⟨(Rect.unit (s := S2000x100) ![0, 0] S2000x100.size inb_S2000x100_S2000x100_0_0), p⟩] : List (View.Piece (Elt F) S2000x100 .f32)), y ∈ pc.1.set :=
  View.cover_of_tiled [⟨(Rect.unit (s := S2000x100) ![0, 0] S2000x100.size inb_S2000x100_S2000x100_0_0), p⟩] S2000x100.size (by rfl) y

set_option maxHeartbeats 1000000 in
/-- The body, run on whole staging buffers holding `x0 …` (the output's holding anything), ends with the inputs as
    they were and the output's at `stored10` of them. -/
theorem body10 (c : Dev nD) (E : Set ℕ) (i : grid10.Coords) (a0 : Memref sig .tc .vmem S2000x106 .f32) (ha0 : a0.IsWhole) (a1 : Memref sig .tc .vmem S106x100 .f32) (ha1 : a1.IsWhole) (a2 : Memref sig .tc .vmem S1x100 .f32) (ha2 : a2.IsWhole) (a3 : Memref sig .tc .vmem S2000x100 .f32) (ha3 : a3.IsWhole)
    (x0 : Vec F S2000x106 .f32) (x1 : Vec F S106x100 .f32) (x2 : Vec F S1x100 .f32) (Q : PUnit → sProp 𝕄) :
    iprop(owns (c : Thread nD τ) a0 fullShare x0 ∗ owns (c : Thread nD τ) a1 fullShare x1 ∗ owns (c : Thread nD τ) a2 fullShare x2 ∗ (∃ d, owns (c : Thread nD τ) a3 fullShare d)
        ∗ (iprop(owns (c : Thread nD τ) a0 fullShare x0 ∗ owns (c : Thread nD τ) a1 fullShare x1 ∗ owns (c : Thread nD τ) a2 fullShare x2 ∗ owns (c : Thread nD τ) a3 fullShare (stored10 x0 x1 x2)) -∗ Q ⟨⟩))
      ⊢ wp frame (wpE (defs₀ (F := F)) Variants.none c none) E (cc10__matmul_bias_kernel i a0 ha0 a1 ha1 a2 ha2 a3 ha3) Q := by
  simp only [cc10__matmul_bias_kernel_eq_skeleton]; unfold cc10__matmul_bias_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (whole10 _)

/-- The proof data of pipeline 10 on core `c`: the arrays as the region finds them; after the body each input's
    buffer at its block and the output's at `stored10` of the input blocks; the invariant that of a kernel that
    keeps nothing between points; nothing owed. -/
def dat10 (c : Dev nD) : Dat τ (Elt F) Unit ℕ (UR sig nD τ) ℕ cfg10 c where
  A w := V c (Pipeline.arrRef spec10 w)
  after w t := match w with
    | ⟨0, _⟩ => blk10 V c 0 t
    | ⟨1, _⟩ => blk10 V c 1 t
    | ⟨2, _⟩ => blk10 V c 2 t
    | ⟨3, _⟩ => stored10 (blk10 V c 0 t) (blk10 V c 1 t) (blk10 V c 2 t)
  Φ _ := Pipeline.ΦA spec10 c
  q _ := fullShare
  owed _ := 0

theorem arr10 (c : Dev nD) (w : Fin cfg10.W) : (dat10 V c).A w = V c (Pipeline.arrRef spec10 w) := by
  dsimp only [dat10]
theorem left10_0 (c : Dev nD) (t : Fin cfg10.N) : (dat10 V c).after 0 t = blk10 V c 0 t := by dsimp only [dat10]
theorem left10_1 (c : Dev nD) (t : Fin cfg10.N) : (dat10 V c).after 1 t = blk10 V c 1 t := by dsimp only [dat10]
theorem left10_2 (c : Dev nD) (t : Fin cfg10.N) : (dat10 V c).after 2 t = blk10 V c 2 t := by dsimp only [dat10]
theorem left10_3 (c : Dev nD) (t : Fin cfg10.N) :
    (dat10 V c).after 3 t = stored10 (blk10 V c 0 t) (blk10 V c 1 t) (blk10 V c 2 t) := by dsimp only [dat10]
theorem found10_0 (c : Dev nD) (t : Fin cfg10.N) (d) : (dat10 V c).before 0 t d = blk10 V c 0 t :=
  found10_0_of V (dat10 V c) (arr10 V c 0) (left10_0 V c) t d
theorem found10_1 (c : Dev nD) (t : Fin cfg10.N) (d) : (dat10 V c).before 1 t d = blk10 V c 1 t :=
  found10_1_of V (dat10 V c) (arr10 V c 1) (left10_1 V c) t d
theorem found10_2 (c : Dev nD) (t : Fin cfg10.N) (d) : (dat10 V c).before 2 t d = blk10 V c 2 t :=
  found10_2_of V (dat10 V c) (arr10 V c 2) (left10_2 V c) t d

/-- What the pipeline hands the body at point `t`, -/
def handed10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d))
    ∗ (∃ d, owns (c : Thread nD τ) (st10_3 t) fullShare ((dat10 V c).before 3 t d)))

/-- and what the body gives back. -/
def returned10 (c : Dev nD) (t : Fin cfg10.N) : sProp 𝕄 :=
  iprop((dat10 V c).Φ t.succ ∗ (dat10 V c).owesAt () t.succ
    ∗ owns (c : Thread nD τ) (st10_0 t) fullShare ((dat10 V c).after 0 t)
    ∗ owns (c : Thread nD τ) (st10_1 t) fullShare ((dat10 V c).after 1 t)
    ∗ owns (c : Thread nD τ) (st10_2 t) fullShare ((dat10 V c).after 2 t)
    ∗ owns (c : Thread nD τ) (st10_3 t) fullShare ((dat10 V c).after 3 t))

/-- The body at any point: the inputs' buffers hold their blocks, so `body10` applies; the invariant and the
    core's dues pass through untouched. -/
theorem at_point10 (c : Dev nD) (t : Fin cfg10.N) :
    handed10 V c t ⊢ wp frame (wpE (defs₀ (F := F)) Variants.none c none) Set.univ (bodyAt10 t) (fun _ => returned10 V c t) := by
  unfold handed10 returned10 bodyAt10
  simp only [found10_0, found10_1, found10_2]
  rw [show (dat10 V c).Φ t.succ = (dat10 V c).Φ t.castSucc from rfl,
    show (dat10 V c).owesAt () t.succ = (dat10 V c).owesAt () t.castSucc from rfl,
    left10_0, left10_1, left10_2, left10_3]
  iintro ⟨HΦ, Ho, ⟨%d0, H0⟩, ⟨%d1, H1⟩, ⟨%d2, H2⟩, ⟨%d3, H3⟩⟩
  iapply (body10 c Set.univ _ _ _ _ _ _ _ _ _ (blk10 V c 0 t) (blk10 V c 1 t) (blk10 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of pipeline 10, at every point. -/
theorem obligation10 (c : Dev nD) : BodyObligation (dat10 (F := F) V c) (defs₀ (F := F)) Variants.none () Set.univ := fun t => by
  rw [bigSep_W10, bigSep_W10]
  exact at_point10 V c t

end Cert.Kernel.Fr

end
-- ==== Proof.KB.Region11.lean ====
/-
  Region 11 of the program (the pallas_call of `cc11__conv_finish_kernel`, the normalised, rectified layer 1), at any float instance.
  At every grid point the body reads each input block whole and writes the output block whole, so the output's
  staging buffer holds one function of the input blocks (`stored11`); an input block is where the pipeline
  left it whether or not the point fetched it, because the block index of an unfetched window has not moved.
  From these: the proof data of the pipeline (`dat11`) and the body obligation at every point (`obligation11`),
  both relative to the contents `V` the region is entered with.
-/
import proofs.«143046_j34703335751794_1_alg».proof.Proof.Gen.Kernel.Launch
import proofs.«143046_j34703335751794_1_alg».proof.Proof.Gen.Kernel.Skeleton
import proofs.«143046_j34703335751794_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the rectangle of its array (as the region finds it) that the index map
    names at `t`. -/
def blk11 (c : Dev nD) (w : Fin cfg11.W) (t : Fin cfg11.N) :
    ((cfg11.win w).xblock (cfg11.grid.coords t)).Idx → Elt F (cfg11.win w).elt :=
  ((cfg11.win w).blk t).view.read (Elt F) (V c (Pipeline.arrRef spec11 w))

/-- Input window 0's staging buffer holds the window's block at every point, fetched there or not. -/
theorem found11_0_of {c : Dev nD} (dat : Dat τ (Elt F) Unit ℕ (UR sig nD τ) ℕ cfg11 c)
    (hA : dat.A 0 = V c (Pipeline.arrRef spec11 0)) (hafter : ∀ t, dat.after 0 t = blk11 V c 0 t)
    (t : Fin cfg11.N) (d) : dat.before 0 t d = blk11 V c 0 t :=
  (dat.before_in_eq_fetched 0 rfl (fun _ => rfl) (fun _ _ _ => rfl)
      (fun t => by rw [hafter]; unfold Dat.blockOf blk11; rw [hA]; try rfl) t d).trans
    (by unfold Dat.fetched Dat.blockOf blk11; rw [hA]; try rfl)

/-- Input window 1's staging buffer holds the window's block at every point, fetched there or not. -/
theorem found11_1_of {c : Dev nD} (dat : Dat τ (Elt F) Unit ℕ (UR sig nD τ) ℕ cfg11 c)
    (hA : dat.A 1 = V c (Pipeline.arrRef spec11 1)) (hafter : ∀ t, dat.after 1 t = blk11 V c 1 t)
    (t : Fin cfg11.N) (d) : dat.before 1 t d = blk11 V c 1 t :=
  (dat.before_in_eq_fetched 1 rfl (fun _ => rfl) (fun _ _ _ => rfl)
      (fun t => by rw [hafter]; unfold Dat.blockOf blk11; rw [hA]; try rfl) t d).trans
    (by unfold Dat.fetched Dat.blockOf blk11; rw [hA]; try rfl)

/-- Input window 2's staging buffer holds the window's block at every point, fetched there or not. -/
theorem found11_2_of {c : Dev nD} (dat : Dat τ (Elt F) Unit ℕ (UR sig nD τ) ℕ cfg11 c)
    (hA : dat.A 2 = V c (Pipeline.arrRef spec11 2)) (hafter : ∀ t, dat.after 2 t = blk11 V c 2 t)
    (t : Fin cfg11.N) (d) : dat.before 2 t d = blk11 V c 2 t :=
  (dat.before_in_eq_fetched 2 rfl (fun _ => rfl) (fun _ _ _ => rfl)
      (fun t => by rw [hafter]; unfold Dat.blockOf blk11; rw [hA]; try rfl) t d).trans
    (by unfold Dat.fetched Dat.blockOf blk11; rw [hA]; try rfl)

/-- Input window 3's staging buffer holds the window's block at every point, fetched there or not. -/
theorem found11_3_of {c : Dev nD} (dat : Dat τ (Elt F) Unit ℕ (UR sig nD τ) ℕ cfg11 c)
    (hA : dat.A 3 = V c (Pipeline.arrRef spec11 3)) (hafter : ∀ t, dat.after 3 t = blk11 V c 3 t)
    (t : Fin cfg11.N) (d) : dat.before 3 t d = blk11 V c 3 t :=
  (dat.before_in_eq_fetched 3 rfl (fun _ => rfl) (fun _ _ _ => rfl)
      (fun t => by rw [hafter]; unfold Dat.blockOf blk11; rw [hA]; try rfl) t d).trans
    (by unfold Dat.fetched Dat.blockOf blk11; rw [hA]; try rfl)

/-- What the body leaves in the output's staging buffer: its one store, of the body's value at the whole input
    blocks, over the whole block. -/
def stored11 (x0 : Vec F S2000x100 .f32) (x1 : Vec F S100x100 .f32) (x2 : Vec F S1x100 .f32) (x3 : Vec F S2000x100 .f32) : Vec F S2000x100 .f32 :=
  View.canon [⟨(Rect.unit (s := S2000x100) ![0, 0] S2000x100.size inb_S2000x100_S2000x100_0_0), k11_pay1 (View.ld x0 (Rect.unit (s := S2000x100) ![0, 0] S2000x100.size inb_S2000x100_S2000x100_0_0)) (View.ld x1 (Rect.unit (s := S100x100) ![0, 0] S100x100.size inb_S100x100_S100x100_0_0)) (View.ld x2 (Rect.unit (s := S1x100) ![0, 0] S1x100.size inb_S1x100_S1x100_0_0)) (View.ld x3 (Rect.unit (s := S2000x100) ![0, 0] S2000x100.size inb_S2000x100_S2000x100_0_0))⟩]

/-- The store's rectangle is the whole block. -/
theorem whole11 (p : Vec F S2000x100 .f32) (y : S2000x100.Idx) :
    ∃ pc ∈ ([⟨(Rect.unit (s := S2000x100) ![0, 0] S2000x100.size inb_S2000x100_S2000x100_0_0), p⟩] : List (View.Piece (Elt F) S2000x100 .f32)), y ∈ pc.1.set :=
  View.cover_of_tiled [⟨(Rect.unit (s := S2000x100) ![0, 0] S2000x100.size inb_S2000x100_S2000x100_0_0), p⟩] S2000x100.size (by rfl) y

set_option maxHeartbeats 1000000 in
/-- The body, run on whole staging buffers holding `x0 …` (the output's holding anything), ends with the inputs as
    they were and the output's at `stored11` of them. -/
theorem body11 (c : Dev nD) (E : Set ℕ) (i : grid11.Coords) (a0 : Memref sig .tc .vmem S2000x100 .f32) (ha0 : a0.IsWhole) (a1 : Memref sig .tc .vmem S100x100 .f32) (ha1 : a1.IsWhole) (a2 : Memref sig .tc .vmem S1x100 .f32) (ha2 : a2.IsWhole) (a3 : Memref sig .tc .vmem S2000x100 .f32) (ha3 : a3.IsWhole) (a4 : Memref sig .tc .vmem S2000x100 .f32) (ha4 : a4.IsWhole)
    (x0 : Vec F S2000x100 .f32) (x1 : Vec F S100x100 .f32) (x2 : Vec F S1x100 .f32) (x3 : Vec F S2000x100 .f32) (Q : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ (∃ d, owns (c : Thread nD τ) a4 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare (stored11 x0 x1 x2 x3)) -∗ Q ⟨⟩))
      ⊢ wp frame (wpE (defs₀ (F := F)) Variants.none c none) E (cc11__conv_finish_kernel i a0 ha0 a1 ha1 a2 ha2 a3 ha3 a4 ha4) Q := by
  simp only [cc11__conv_finish_kernel_eq_skeleton]; unfold cc11__conv_finish_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (whole11 _)

/-- The proof data of pipeline 11 on core `c`: the arrays as the region finds them; after the body each input's
    buffer at its block and the output's at `stored11` of the input blocks; the invariant that of a kernel that
    keeps nothing between points; nothing owed. -/
def dat11 (c : Dev nD) : Dat τ (Elt F) Unit ℕ (UR sig nD τ) ℕ cfg11 c where
  A w := V c (Pipeline.arrRef spec11 w)
  after w t := match w with
    | ⟨0, _⟩ => blk11 V c 0 t
    | ⟨1, _⟩ => blk11 V c 1 t
    | ⟨2, _⟩ => blk11 V c 2 t
    | ⟨3, _⟩ => blk11 V c 3 t
    | ⟨4, _⟩ => stored11 (blk11 V c 0 t) (blk11 V c 1 t) (blk11 V c 2 t) (blk11 V c 3 t)
  Φ _ := Pipeline.ΦA spec11 c
  q _ := fullShare
  owed _ := 0

theorem arr11 (c : Dev nD) (w : Fin cfg11.W) : (dat11 V c).A w = V c (Pipeline.arrRef spec11 w) := by
  dsimp only [dat11]
theorem left11_0 (c : Dev nD) (t : Fin cfg11.N) : (dat11 V c).after 0 t = blk11 V c 0 t := by dsimp only [dat11]
theorem left11_1 (c : Dev nD) (t : Fin cfg11.N) : (dat11 V c).after 1 t = blk11 V c 1 t := by dsimp only [dat11]
theorem left11_2 (c : Dev nD) (t : Fin cfg11.N) : (dat11 V c).after 2 t = blk11 V c 2 t := by dsimp only [dat11]
theorem left11_3 (c : Dev nD) (t : Fin cfg11.N) : (dat11 V c).after 3 t = blk11 V c 3 t := by dsimp only [dat11]
theorem left11_4 (c : Dev nD) (t : Fin cfg11.N) :
    (dat11 V c).after 4 t = stored11 (blk11 V c 0 t) (blk11 V c 1 t) (blk11 V c 2 t) (blk11 V c 3 t) := by dsimp only [dat11]
theorem found11_0 (c : Dev nD) (t : Fin cfg11.N) (d) : (dat11 V c).before 0 t d = blk11 V c 0 t :=
  found11_0_of V (dat11 V c) (arr11 V c 0) (left11_0 V c) t d
theorem found11_1 (c : Dev nD) (t : Fin cfg11.N) (d) : (dat11 V c).before 1 t d = blk11 V c 1 t :=
  found11_1_of V (dat11 V c) (arr11 V c 1) (left11_1 V c) t d
theorem found11_2 (c : Dev nD) (t : Fin cfg11.N) (d) : (dat11 V c).before 2 t d = blk11 V c 2 t :=
  found11_2_of V (dat11 V c) (arr11 V c 2) (left11_2 V c) t d
theorem found11_3 (c : Dev nD) (t : Fin cfg11.N) (d) : (dat11 V c).before 3 t d = blk11 V c 3 t :=
  found11_3_of V (dat11 V c) (arr11 V c 3) (left11_3 V c) t d

/-- What the pipeline hands the body at point `t`, -/
def handed11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d))
    ∗ (∃ d, owns (c : Thread nD τ) (st11_3 t) fullShare ((dat11 V c).before 3 t d))
    ∗ (∃ d, owns (c : Thread nD τ) (st11_4 t) fullShare ((dat11 V c).before 4 t d)))

/-- and what the body gives back. -/
def returned11 (c : Dev nD) (t : Fin cfg11.N) : sProp 𝕄 :=
  iprop((dat11 V c).Φ t.succ ∗ (dat11 V c).owesAt () t.succ
    ∗ owns (c : Thread nD τ) (st11_0 t) fullShare ((dat11 V c).after 0 t)
    ∗ owns (c : Thread nD τ) (st11_1 t) fullShare ((dat11 V c).after 1 t)
    ∗ owns (c : Thread nD τ) (st11_2 t) fullShare ((dat11 V c).after 2 t)
    ∗ owns (c : Thread nD τ) (st11_3 t) fullShare ((dat11 V c).after 3 t)
    ∗ owns (c : Thread nD τ) (st11_4 t) fullShare ((dat11 V c).after 4 t))

/-- The body at any point: the inputs' buffers hold their blocks, so `body11` applies; the invariant and the
    core's dues pass through untouched. -/
theorem at_point11 (c : Dev nD) (t : Fin cfg11.N) :
    handed11 V c t ⊢ wp frame (wpE (defs₀ (F := F)) Variants.none c none) Set.univ (bodyAt11 t) (fun _ => returned11 V c t) := by
  unfold handed11 returned11 bodyAt11
  simp only [found11_0, found11_1, found11_2, found11_3]
  rw [show (dat11 V c).Φ t.succ = (dat11 V c).Φ t.castSucc from rfl,
    show (dat11 V c).owesAt () t.succ = (dat11 V c).owesAt () t.castSucc from rfl,
    left11_0, left11_1, left11_2, left11_3, left11_4]
  iintro ⟨HΦ, Ho, ⟨%d0, H0⟩, ⟨%d1, H1⟩, ⟨%d2, H2⟩, ⟨%d3, H3⟩, ⟨%d4, H4⟩⟩
  iapply (body11 c Set.univ _ _ _ _ _ _ _ _ _ _ _ (blk11 V c 0 t) (blk11 V c 1 t) (blk11 V c 2 t) (blk11 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of pipeline 11, at every point. -/
theorem obligation11 (c : Dev nD) : BodyObligation (dat11 (F := F) V c) (defs₀ (F := F)) Variants.none () Set.univ := fun t => by
  rw [bigSep_W11, bigSep_W11]
  exact at_point11 V c t

end Cert.Kernel.Fr

end
-- ==== Proof.KB.Region12.lean ====
/-
  Region 12 of the program (the pallas_call of `cc12__fingerprint_kernel`, the softmax fingerprint of layer 1's features), at any float instance.
  At every grid point the body reads each input block whole and writes the output block whole, so the output's
  staging buffer holds one function of the input blocks (`stored12`); an input block is where the pipeline
  left it whether or not the point fetched it, because the block index of an unfetched window has not moved.
  From these: the proof data of the pipeline (`dat12`) and the body obligation at every point (`obligation12`),
  both relative to the contents `V` the region is entered with.
-/
import proofs.«143046_j34703335751794_1_alg».proof.Proof.Gen.Kernel.Launch
import proofs.«143046_j34703335751794_1_alg».proof.Proof.Gen.Kernel.Skeleton
import proofs.«143046_j34703335751794_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the rectangle of its array (as the region finds it) that the index map
    names at `t`. -/
def blk12 (c : Dev nD) (w : Fin cfg12.W) (t : Fin cfg12.N) :
    ((cfg12.win w).xblock (cfg12.grid.coords t)).Idx → Elt F (cfg12.win w).elt :=
  ((cfg12.win w).blk t).view.read (Elt F) (V c (Pipeline.arrRef spec12 w))

/-- Input window 0's staging buffer holds the window's block at every point, fetched there or not. -/
theorem found12_0_of {c : Dev nD} (dat : Dat τ (Elt F) Unit ℕ (UR sig nD τ) ℕ cfg12 c)
    (hA : dat.A 0 = V c (Pipeline.arrRef spec12 0)) (hafter : ∀ t, dat.after 0 t = blk12 V c 0 t)
    (t : Fin cfg12.N) (d) : dat.before 0 t d = blk12 V c 0 t :=
  (dat.before_in_eq_fetched 0 rfl (fun _ => rfl) (fun _ _ _ => rfl)
      (fun t => by rw [hafter]; unfold Dat.blockOf blk12; rw [hA]; try rfl) t d).trans
    (by unfold Dat.fetched Dat.blockOf blk12; rw [hA]; try rfl)

/-- Input window 1's staging buffer holds the window's block at every point, fetched there or not. -/
theorem found12_1_of {c : Dev nD} (dat : Dat τ (Elt F) Unit ℕ (UR sig nD τ) ℕ cfg12 c)
    (hA : dat.A 1 = V c (Pipeline.arrRef spec12 1)) (hafter : ∀ t, dat.after 1 t = blk12 V c 1 t)
    (t : Fin cfg12.N) (d) : dat.before 1 t d = blk12 V c 1 t :=
  (dat.before_in_eq_fetched 1 rfl (fun _ => rfl) (fun _ _ _ => rfl)
      (fun t => by rw [hafter]; unfold Dat.blockOf blk12; rw [hA]; try rfl) t d).trans
    (by unfold Dat.fetched Dat.blockOf blk12; rw [hA]; try rfl)

/-- Input window 2's staging buffer holds the window's block at every point, fetched there or not. -/
theorem found12_2_of {c : Dev nD} (dat : Dat τ (Elt F) Unit ℕ (UR sig nD τ) ℕ cfg12 c)
    (hA : dat.A 2 = V c (Pipeline.arrRef spec12 2)) (hafter : ∀ t, dat.after 2 t = blk12 V c 2 t)
    (t : Fin cfg12.N) (d) : dat.before 2 t d = blk12 V c 2 t :=
  (dat.before_in_eq_fetched 2 rfl (fun _ => rfl) (fun _ _ _ => rfl)
      (fun t => by rw [hafter]; unfold Dat.blockOf blk12; rw [hA]; try rfl) t d).trans
    (by unfold Dat.fetched Dat.blockOf blk12; rw [hA]; try rfl)

/-- What the body leaves in the output's staging buffer: its one store, of the body's value at the whole input
    blocks, over the whole block. -/
def stored12 (x0 : Vec F S2000x100 .f32) (x1 : Vec F S100x512 .f32) (x2 : Vec F S1x512 .f32) : Vec F S2000x512 .f32 :=
  View.canon [⟨(Rect.unit (s := S2000x512) ![0, 0] S2000x512.size inb_S2000x512_S2000x512_0_0), k12_pay1 (View.ld x0 (Rect.unit (s := S2000x100) ![0, 0] S2000x100.size inb_S2000x100_S2000x100_0_0)) (View.ld x1 (Rect.unit (s := S100x512) ![0, 0] S100x512.size inb_S100x512_S100x512_0_0)) (View.ld x2 (Rect.unit (s := S1x512) ![0, 0] S1x512.size inb_S1x512_S1x512_0_0))⟩]

/-- The store's rectangle is the whole block. -/
theorem whole12 (p : Vec F S2000x512 .f32) (y : S2000x512.Idx) :
    ∃ pc ∈ ([⟨(Rect.unit (s := S2000x512) ![0, 0] S2000x512.size inb_S2000x512_S2000x512_0_0), p⟩] : List (View.Piece (Elt F) S2000x512 .f32)), y ∈ pc.1.set :=
  View.cover_of_tiled [⟨(Rect.unit (s := S2000x512) ![0, 0] S2000x512.size inb_S2000x512_S2000x512_0_0), p⟩] S2000x512.size (by rfl) y

set_option maxHeartbeats 1000000 in
/-- The body, run on whole staging buffers holding `x0 …` (the output's holding anything), ends with the inputs as
    they were and the output's at `stored12` of them. -/
theorem body12 (c : Dev nD) (E : Set ℕ) (i : grid12.Coords) (a0 : Memref sig .tc .vmem S2000x100 .f32) (ha0 : a0.IsWhole) (a1 : Memref sig .tc .vmem S100x512 .f32) (ha1 : a1.IsWhole) (a2 : Memref sig .tc .vmem S1x512 .f32) (ha2 : a2.IsWhole) (a3 : Memref sig .tc .vmem S2000x512 .f32) (ha3 : a3.IsWhole)
    (x0 : Vec F S2000x100 .f32) (x1 : Vec F S100x512 .f32) (x2 : Vec F S1x512 .f32) (Q : PUnit → sProp 𝕄) :
    iprop(owns (c : Thread nD τ) a0 fullShare x0 ∗ owns (c : Thread nD τ) a1 fullShare x1 ∗ owns (c : Thread nD τ) a2 fullShare x2 ∗ (∃ d, owns (c : Thread nD τ) a3 fullShare d)
        ∗ (iprop(owns (c : Thread nD τ) a0 fullShare x0 ∗ owns (c : Thread nD τ) a1 fullShare x1 ∗ owns (c : Thread nD τ) a2 fullShare x2 ∗ owns (c : Thread nD τ) a3 fullShare (stored12 x0 x1 x2)) -∗ Q ⟨⟩))
      ⊢ wp frame (wpE (defs₀ (F := F)) Variants.none c none) E (cc12__fingerprint_kernel i a0 ha0 a1 ha1 a2 ha2 a3 ha3) Q := by
  simp only [cc12__fingerprint_kernel_eq_skeleton]; unfold cc12__fingerprint_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (whole12 _)

/-- The proof data of pipeline 12 on core `c`: the arrays as the region finds them; after the body each input's
    buffer at its block and the output's at `stored12` of the input blocks; the invariant that of a kernel that
    keeps nothing between points; nothing owed. -/
def dat12 (c : Dev nD) : Dat τ (Elt F) Unit ℕ (UR sig nD τ) ℕ cfg12 c where
  A w := V c (Pipeline.arrRef spec12 w)
  after w t := match w with
    | ⟨0, _⟩ => blk12 V c 0 t
    | ⟨1, _⟩ => blk12 V c 1 t
    | ⟨2, _⟩ => blk12 V c 2 t
    | ⟨3, _⟩ => stored12 (blk12 V c 0 t) (blk12 V c 1 t) (blk12 V c 2 t)
  Φ _ := Pipeline.ΦA spec12 c
  q _ := fullShare
  owed _ := 0

theorem arr12 (c : Dev nD) (w : Fin cfg12.W) : (dat12 V c).A w = V c (Pipeline.arrRef spec12 w) := by
  dsimp only [dat12]
theorem left12_0 (c : Dev nD) (t : Fin cfg12.N) : (dat12 V c).after 0 t = blk12 V c 0 t := by dsimp only [dat12]
theorem left12_1 (c : Dev nD) (t : Fin cfg12.N) : (dat12 V c).after 1 t = blk12 V c 1 t := by dsimp only [dat12]
theorem left12_2 (c : Dev nD) (t : Fin cfg12.N) : (dat12 V c).after 2 t = blk12 V c 2 t := by dsimp only [dat12]
theorem left12_3 (c : Dev nD) (t : Fin cfg12.N) :
    (dat12 V c).after 3 t = stored12 (blk12 V c 0 t) (blk12 V c 1 t) (blk12 V c 2 t) := by dsimp only [dat12]
theorem found12_0 (c : Dev nD) (t : Fin cfg12.N) (d) : (dat12 V c).before 0 t d = blk12 V c 0 t :=
  found12_0_of V (dat12 V c) (arr12 V c 0) (left12_0 V c) t d
theorem found12_1 (c : Dev nD) (t : Fin cfg12.N) (d) : (dat12 V c).before 1 t d = blk12 V c 1 t :=
  found12_1_of V (dat12 V c) (arr12 V c 1) (left12_1 V c) t d
theorem found12_2 (c : Dev nD) (t : Fin cfg12.N) (d) : (dat12 V c).before 2 t d = blk12 V c 2 t :=
  found12_2_of V (dat12 V c) (arr12 V c 2) (left12_2 V c) t d

/-- What the pipeline hands the body at point `t`, -/
def handed12 (c : Dev nD) (t : Fin cfg12.N) : sProp 𝕄 :=
  iprop((dat12 V c).Φ t.castSucc ∗ (dat12 V c).owesAt () t.castSucc
    ∗ (∃ d, owns (c : Thread nD τ) (st12_0 t) fullShare ((dat12 V c).before 0 t d))
    ∗ (∃ d, owns (c : Thread nD τ) (st12_1 t) fullShare ((dat12 V c).before 1 t d))
    ∗ (∃ d, owns (c : Thread nD τ) (st12_2 t) fullShare ((dat12 V c).before 2 t d))
    ∗ (∃ d, owns (c : Thread nD τ) (st12_3 t) fullShare ((dat12 V c).before 3 t d)))

/-- and what the body gives back. -/
def returned12 (c : Dev nD) (t : Fin cfg12.N) : sProp 𝕄 :=
  iprop((dat12 V c).Φ t.succ ∗ (dat12 V c).owesAt () t.succ
    ∗ owns (c : Thread nD τ) (st12_0 t) fullShare ((dat12 V c).after 0 t)
    ∗ owns (c : Thread nD τ) (st12_1 t) fullShare ((dat12 V c).after 1 t)
    ∗ owns (c : Thread nD τ) (st12_2 t) fullShare ((dat12 V c).after 2 t)
    ∗ owns (c : Thread nD τ) (st12_3 t) fullShare ((dat12 V c).after 3 t))

/-- The body at any point: the inputs' buffers hold their blocks, so `body12` applies; the invariant and the
    core's dues pass through untouched. -/
theorem at_point12 (c : Dev nD) (t : Fin cfg12.N) :
    handed12 V c t ⊢ wp frame (wpE (defs₀ (F := F)) Variants.none c none) Set.univ (bodyAt12 t) (fun _ => returned12 V c t) := by
  unfold handed12 returned12 bodyAt12
  simp only [found12_0, found12_1, found12_2]
  rw [show (dat12 V c).Φ t.succ = (dat12 V c).Φ t.castSucc from rfl,
    show (dat12 V c).owesAt () t.succ = (dat12 V c).owesAt () t.castSucc from rfl,
    left12_0, left12_1, left12_2, left12_3]
  iintro ⟨HΦ, Ho, ⟨%d0, H0⟩, ⟨%d1, H1⟩, ⟨%d2, H2⟩, ⟨%d3, H3⟩⟩
  iapply (body12 c Set.univ _ _ _ _ _ _ _ _ _ (blk12 V c 0 t) (blk12 V c 1 t) (blk12 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of pipeline 12, at every point. -/
theorem obligation12 (c : Dev nD) : BodyObligation (dat12 (F := F) V c) (defs₀ (F := F)) Variants.none () Set.univ := fun t => by
  rw [bigSep_W12, bigSep_W12]
  exact at_point12 V c t

end Cert.Kernel.Fr

end
-- ==== Proof.KB.Chain.lean ====
/-
  The buffers' contents between the items of the program (host stretch, pallas_call, host stretch, …), on each core:
  the launch memory, then alternately the fold of a host stretch's operations and the update, at a pallas_call's result
  array, to what that pipeline's write-backs leave (`Dat.arrAt` at the last point) — every other buffer, the call's
  inputs among them, as the call found it. `outs` names these contents the way the conditional frame of the program
  reads them, and `pdats` is every pipeline's proof data at the contents its call is entered with.
-/
import proofs.«143046_j34703335751794_1_alg».proof.Proof.KB.Region0
import proofs.«143046_j34703335751794_1_alg».proof.Proof.KB.Region1
import proofs.«143046_j34703335751794_1_alg».proof.Proof.KB.Region2
import proofs.«143046_j34703335751794_1_alg».proof.Proof.KB.Region3
import proofs.«143046_j34703335751794_1_alg».proof.Proof.KB.Region4
import proofs.«143046_j34703335751794_1_alg».proof.Proof.KB.Region5
import proofs.«143046_j34703335751794_1_alg».proof.Proof.KB.Region6
import proofs.«143046_j34703335751794_1_alg».proof.Proof.KB.Region7
import proofs.«143046_j34703335751794_1_alg».proof.Proof.KB.Region8
import proofs.«143046_j34703335751794_1_alg».proof.Proof.KB.Region9
import proofs.«143046_j34703335751794_1_alg».proof.Proof.KB.Region10
import proofs.«143046_j34703335751794_1_alg».proof.Proof.KB.Region11
import proofs.«143046_j34703335751794_1_alg».proof.Proof.KB.Region12
import proofs.«143046_j34703335751794_1_alg».proof.Proof.Gen.Kernel.Regions

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Core `c`'s buffers at launch. -/
abbrev W0 (c : Dev nD) : Valuation τ sig (Elt F) := fun b => m (c, b)
/-- After host stretch 0: what pallas_call 0 is entered with. -/
abbrev W1 (c : Dev nD) : Valuation τ sig (Elt F) := StableHlo.after hostOps0 (W0 m c)
abbrev E1 : (c : Dev nD) → (b : Ref sig .tc) → Buf (Elt F) ((c : Thread nD τ).loc b) := fun c b => W1 m c b
/-- After pallas_call 0: its result array `main_v1` at what the write-backs leave, the rest as entered. -/
def W2 (c : Dev nD) : Valuation τ sig (Elt F) :=
  Function.update (W1 m c) main_v1 ((dat0 (E1 m) c).arrAt 3 cfg0.N)
abbrev E2 : (c : Dev nD) → (b : Ref sig .tc) → Buf (Elt F) ((c : Thread nD τ).loc b) := fun c b => W2 m c b
theorem W2_at (c : Dev nD) : W2 m c main_v1 = (dat0 (E1 m) c).arrAt 3 cfg0.N := by
  simp only [W2, Function.update_self]
theorem W2_off (c : Dev nD) (b : Ref sig .tc) (h : b ≠ main_v1) : W2 m c b = W1 m c b := by
  simp only [W2, Function.update_of_ne (StableHlo.devRef_ne_of_ne h : (Proc.devRef .tc b : DevRef τ sig) ≠ Proc.devRef .tc main_v1)]
/-- After host stretch 1: what pallas_call 1 is entered with. -/
abbrev W3 (c : Dev nD) : Valuation τ sig (Elt F) := StableHlo.after hostOps1 (W2 m c)
abbrev E3 : (c : Dev nD) → (b : Ref sig .tc) → Buf (Elt F) ((c : Thread nD τ).loc b) := fun c b => W3 m c b
/-- After pallas_call 1: its result array `main_v28` at what the write-backs leave, the rest as entered. -/
def W4 (c : Dev nD) : Valuation τ sig (Elt F) :=
  Function.update (W3 m c) main_v28 ((dat1 (E3 m) c).arrAt 3 cfg1.N)
abbrev E4 : (c : Dev nD) → (b : Ref sig .tc) → Buf (Elt F) ((c : Thread nD τ).loc b) := fun c b => W4 m c b
theorem W4_at (c : Dev nD) : W4 m c main_v28 = (dat1 (E3 m) c).arrAt 3 cfg1.N := by
  simp only [W4, Function.update_self]
theorem W4_off (c : Dev nD) (b : Ref sig .tc) (h : b ≠ main_v28) : W4 m c b = W3 m c b := by
  simp only [W4, Function.update_of_ne (StableHlo.devRef_ne_of_ne h : (Proc.devRef .tc b : DevRef τ sig) ≠ Proc.devRef .tc main_v28)]
/-- After host stretch 2: what pallas_call 2 is entered with. -/
abbrev W5 (c : Dev nD) : Valuation τ sig (Elt F) := StableHlo.after hostOps2 (W4 m c)
abbrev E5 : (c : Dev nD) → (b : Ref sig .tc) → Buf (Elt F) ((c : Thread nD τ).loc b) := fun c b => W5 m c b
/-- After pallas_call 2: its result array `main_v51` at what the write-backs leave, the rest as entered. -/
def W6 (c : Dev nD) : Valuation τ sig (Elt F) :=
  Function.update (W5 m c) main_v51 ((dat2 (E5 m) c).arrAt 3 cfg2.N)
abbrev E6 : (c : Dev nD) → (b : Ref sig .tc) → Buf (Elt F) ((c : Thread nD τ).loc b) := fun c b => W6 m c b
theorem W6_at (c : Dev nD) : W6 m c main_v51 = (dat2 (E5 m) c).arrAt 3 cfg2.N := by
  simp only [W6, Function.update_self]
theorem W6_off (c : Dev nD) (b : Ref sig .tc) (h : b ≠ main_v51) : W6 m c b = W5 m c b := by
  simp only [W6, Function.update_of_ne (StableHlo.devRef_ne_of_ne h : (Proc.devRef .tc b : DevRef τ sig) ≠ Proc.devRef .tc main_v51)]
/-- After host stretch 3: what pallas_call 3 is entered with. -/
abbrev W7 (c : Dev nD) : Valuation τ sig (Elt F) := StableHlo.after hostOps3 (W6 m c)
abbrev E7 : (c : Dev nD) → (b : Ref sig .tc) → Buf (Elt F) ((c : Thread nD τ).loc b) := fun c b => W7 m c b
/-- After pallas_call 3: its result array `main_v74` at what the write-backs leave, the rest as entered. -/
def W8 (c : Dev nD) : Valuation τ sig (Elt F) :=
  Function.update (W7 m c) main_v74 ((dat3 (E7 m) c).arrAt 3 cfg3.N)
abbrev E8 : (c : Dev nD) → (b : Ref sig .tc) → Buf (Elt F) ((c : Thread nD τ).loc b) := fun c b => W8 m c b
theorem W8_at (c : Dev nD) : W8 m c main_v74 = (dat3 (E7 m) c).arrAt 3 cfg3.N := by
  simp only [W8, Function.update_self]
theorem W8_off (c : Dev nD) (b : Ref sig .tc) (h : b ≠ main_v74) : W8 m c b = W7 m c b := by
  simp only [W8, Function.update_of_ne (StableHlo.devRef_ne_of_ne h : (Proc.devRef .tc b : DevRef τ sig) ≠ Proc.devRef .tc main_v74)]
/-- After host stretch 4: what pallas_call 4 is entered with. -/
abbrev W9 (c : Dev nD) : Valuation τ sig (Elt F) := StableHlo.after hostOps4 (W8 m c)
abbrev E9 : (c : Dev nD) → (b : Ref sig .tc) → Buf (Elt F) ((c : Thread nD τ).loc b) := fun c b => W9 m c b
/-- After pallas_call 4: its result array `main_v97` at what the write-backs leave, the rest as entered. -/
def W10 (c : Dev nD) : Valuation τ sig (Elt F) :=
  Function.update (W9 m c) main_v97 ((dat4 (E9 m) c).arrAt 3 cfg4.N)
abbrev E10 : (c : Dev nD) → (b : Ref sig .tc) → Buf (Elt F) ((c : Thread nD τ).loc b) := fun c b => W10 m c b
theorem W10_at (c : Dev nD) : W10 m c main_v97 = (dat4 (E9 m) c).arrAt 3 cfg4.N := by
  simp only [W10, Function.update_self]
theorem W10_off (c : Dev nD) (b : Ref sig .tc) (h : b ≠ main_v97) : W10 m c b = W9 m c b := by
  simp only [W10, Function.update_of_ne (StableHlo.devRef_ne_of_ne h : (Proc.devRef .tc b : DevRef τ sig) ≠ Proc.devRef .tc main_v97)]
/-- After host stretch 5: what pallas_call 5 is entered with. -/
abbrev W11 (c : Dev nD) : Valuation τ sig (Elt F) := StableHlo.after hostOps5 (W10 m c)
abbrev E11 : (c : Dev nD) → (b : Ref sig .tc) → Buf (Elt F) ((c : Thread nD τ).loc b) := fun c b => W11 m c b
/-- After pallas_call 5: its result array `main_v99` at what the write-backs leave, the rest as entered. -/
def W12 (c : Dev nD) : Valuation τ sig (Elt F) :=
  Function.update (W11 m c) main_v99 ((dat5 (E11 m) c).arrAt 4 cfg5.N)
abbrev E12 : (c : Dev nD) → (b : Ref sig .tc) → Buf (Elt F) ((c : Thread nD τ).loc b) := fun c b => W12 m c b
theorem W12_at (c : Dev nD) : W12 m c main_v99 = (dat5 (E11 m) c).arrAt 4 cfg5.N := by
  simp only [W12, Function.update_self]
theorem W12_off (c : Dev nD) (b : Ref sig .tc) (h : b ≠ main_v99) : W12 m c b = W11 m c b := by
  simp only [W12, Function.update_of_ne (StableHlo.devRef_ne_of_ne h : (Proc.devRef .tc b : DevRef τ sig) ≠ Proc.devRef .tc main_v99)]
/-- After host stretch 6: what pallas_call 6 is entered with. -/
abbrev W13 (c : Dev nD) : Valuation τ sig (Elt F) := StableHlo.after hostOps6 (W12 m c)
abbrev E13 : (c : Dev nD) → (b : Ref sig .tc) → Buf (Elt F) ((c : Thread nD τ).loc b) := fun c b => W13 m c b
/-- After pallas_call 6: its result array `main_v101` at what the write-backs leave, the rest as entered. -/
def W14 (c : Dev nD) : Valuation τ sig (Elt F) :=
  Function.update (W13 m c) main_v101 ((dat6 (E13 m) c).arrAt 3 cfg6.N)
abbrev E14 : (c : Dev nD) → (b : Ref sig .tc) → Buf (Elt F) ((c : Thread nD τ).loc b) := fun c b => W14 m c b
theorem W14_at (c : Dev nD) : W14 m c main_v101 = (dat6 (E13 m) c).arrAt 3 cfg6.N := by
  simp only [W14, Function.update_self]
theorem W14_off (c : Dev nD) (b : Ref sig .tc) (h : b ≠ main_v101) : W14 m c b = W13 m c b := by
  simp only [W14, Function.update_of_ne (StableHlo.devRef_ne_of_ne h : (Proc.devRef .tc b : DevRef τ sig) ≠ Proc.devRef .tc main_v101)]
/-- After host stretch 7: what pallas_call 7 is entered with. -/
abbrev W15 (c : Dev nD) : Valuation τ sig (Elt F) := StableHlo.after hostOps7 (W14 m c)
abbrev E15 : (c : Dev nD) → (b : Ref sig .tc) → Buf (Elt F) ((c : Thread nD τ).loc b) := fun c b => W15 m c b
/-- After pallas_call 7: its result array `main_v129` at what the write-backs leave, the rest as entered. -/
def W16 (c : Dev nD) : Valuation τ sig (Elt F) :=
  Function.update (W15 m c) main_v129 ((dat7 (E15 m) c).arrAt 3 cfg7.N)
abbrev E16 : (c : Dev nD) → (b : Ref sig .tc) → Buf (Elt F) ((c : Thread nD τ).loc b) := fun c b => W16 m c b
theorem W16_at (c : Dev nD) : W16 m c main_v129 = (dat7 (E15 m) c).arrAt 3 cfg7.N := by
  simp only [W16, Function.update_self]
theorem W16_off (c : Dev nD) (b : Ref sig .tc) (h : b ≠ main_v129) : W16 m c b = W15 m c b := by
  simp only [W16, Function.update_of_ne (StableHlo.devRef_ne_of_ne h : (Proc.devRef .tc b : DevRef τ sig) ≠ Proc.devRef .tc main_v129)]
/-- After host stretch 8: what pallas_call 8 is entered with. -/
abbrev W17 (c : Dev nD) : Valuation τ sig (Elt F) := StableHlo.after hostOps8 (W16 m c)
abbrev E17 : (c : Dev nD) → (b : Ref sig .tc) → Buf (Elt F) ((c : Thread nD τ).loc b) := fun c b => W17 m c b
/-- After pallas_call 8: its result array `main_v152` at what the write-backs leave, the rest as entered. -/
def W18 (c : Dev nD) : Valuation τ sig (Elt F) :=
  Function.update (W17 m c) main_v152 ((dat8 (E17 m) c).arrAt 3 cfg8.N)
abbrev E18 : (c : Dev nD) → (b : Ref sig .tc) → Buf (Elt F) ((c : Thread nD τ).loc b) := fun c b => W18 m c b
theorem W18_at (c : Dev nD) : W18 m c main_v152 = (dat8 (E17 m) c).arrAt 3 cfg8.N := by
  simp only [W18, Function.update_self]
theorem W18_off (c : Dev nD) (b : Ref sig .tc) (h : b ≠ main_v152) : W18 m c b = W17 m c b := by
  simp only [W18, Function.update_of_ne (StableHlo.devRef_ne_of_ne h : (Proc.devRef .tc b : DevRef τ sig) ≠ Proc.devRef .tc main_v152)]
/-- After host stretch 9: what pallas_call 9 is entered with. -/
abbrev W19 (c : Dev nD) : Valuation τ sig (Elt F) := StableHlo.after hostOps9 (W18 m c)
abbrev E19 : (c : Dev nD) → (b : Ref sig .tc) → Buf (Elt F) ((c : Thread nD τ).loc b) := fun c b => W19 m c b
/-- After pallas_call 9: its result array `main_v175` at what the write-backs leave, the rest as entered. -/
def W20 (c : Dev nD) : Valuation τ sig (Elt F) :=
  Function.update (W19 m c) main_v175 ((dat9 (E19 m) c).arrAt 3 cfg9.N)
abbrev E20 : (c : Dev nD) → (b : Ref sig .tc) → Buf (Elt F) ((c : Thread nD τ).loc b) := fun c b => W20 m c b
theorem W20_at (c : Dev nD) : W20 m c main_v175 = (dat9 (E19 m) c).arrAt 3 cfg9.N := by
  simp only [W20, Function.update_self]
theorem W20_off (c : Dev nD) (b : Ref sig .tc) (h : b ≠ main_v175) : W20 m c b = W19 m c b := by
  simp only [W20, Function.update_of_ne (StableHlo.devRef_ne_of_ne h : (Proc.devRef .tc b : DevRef τ sig) ≠ Proc.devRef .tc main_v175)]
/-- After host stretch 10: what pallas_call 10 is entered with. -/
abbrev W21 (c : Dev nD) : Valuation τ sig (Elt F) := StableHlo.after hostOps10 (W20 m c)
abbrev E21 : (c : Dev nD) → (b : Ref sig .tc) → Buf (Elt F) ((c : Thread nD τ).loc b) := fun c b => W21 m c b
/-- After pallas_call 10: its result array `main_v198` at what the write-backs leave, the rest as entered. -/
def W22 (c : Dev nD) : Valuation τ sig (Elt F) :=
  Function.update (W21 m c) main_v198 ((dat10 (E21 m) c).arrAt 3 cfg10.N)
abbrev E22 : (c : Dev nD) → (b : Ref sig .tc) → Buf (Elt F) ((c : Thread nD τ).loc b) := fun c b => W22 m c b
theorem W22_at (c : Dev nD) : W22 m c main_v198 = (dat10 (E21 m) c).arrAt 3 cfg10.N := by
  simp only [W22, Function.update_self]
theorem W22_off (c : Dev nD) (b : Ref sig .tc) (h : b ≠ main_v198) : W22 m c b = W21 m c b := by
  simp only [W22, Function.update_of_ne (StableHlo.devRef_ne_of_ne h : (Proc.devRef .tc b : DevRef τ sig) ≠ Proc.devRef .tc main_v198)]
/-- After host stretch 11: what pallas_call 11 is entered with. -/
abbrev W23 (c : Dev nD) : Valuation τ sig (Elt F) := StableHlo.after hostOps11 (W22 m c)
abbrev E23 : (c : Dev nD) → (b : Ref sig .tc) → Buf (Elt F) ((c : Thread nD τ).loc b) := fun c b => W23 m c b
/-- After pallas_call 11: its result array `main_v200` at what the write-backs leave, the rest as entered. -/
def W24 (c : Dev nD) : Valuation τ sig (Elt F) :=
  Function.update (W23 m c) main_v200 ((dat11 (E23 m) c).arrAt 4 cfg11.N)
abbrev E24 : (c : Dev nD) → (b : Ref sig .tc) → Buf (Elt F) ((c : Thread nD τ).loc b) := fun c b => W24 m c b
theorem W24_at (c : Dev nD) : W24 m c main_v200 = (dat11 (E23 m) c).arrAt 4 cfg11.N := by
  simp only [W24, Function.update_self]
theorem W24_off (c : Dev nD) (b : Ref sig .tc) (h : b ≠ main_v200) : W24 m c b = W23 m c b := by
  simp only [W24, Function.update_of_ne (StableHlo.devRef_ne_of_ne h : (Proc.devRef .tc b : DevRef τ sig) ≠ Proc.devRef .tc main_v200)]
/-- After host stretch 12: what pallas_call 12 is entered with. -/
abbrev W25 (c : Dev nD) : Valuation τ sig (Elt F) := StableHlo.after hostOps12 (W24 m c)
abbrev E25 : (c : Dev nD) → (b : Ref sig .tc) → Buf (Elt F) ((c : Thread nD τ).loc b) := fun c b => W25 m c b
/-- After pallas_call 12: its result array `main_v202` at what the write-backs leave, the rest as entered. -/
def W26 (c : Dev nD) : Valuation τ sig (Elt F) :=
  Function.update (W25 m c) main_v202 ((dat12 (E25 m) c).arrAt 3 cfg12.N)
abbrev E26 : (c : Dev nD) → (b : Ref sig .tc) → Buf (Elt F) ((c : Thread nD τ).loc b) := fun c b => W26 m c b
theorem W26_at (c : Dev nD) : W26 m c main_v202 = (dat12 (E25 m) c).arrAt 3 cfg12.N := by
  simp only [W26, Function.update_self]
theorem W26_off (c : Dev nD) (b : Ref sig .tc) (h : b ≠ main_v202) : W26 m c b = W25 m c b := by
  simp only [W26, Function.update_of_ne (StableHlo.devRef_ne_of_ne h : (Proc.devRef .tc b : DevRef τ sig) ≠ Proc.devRef .tc main_v202)]
/-- After the last host stretch: the contents at the return. -/
abbrev W27 (c : Dev nD) : Valuation τ sig (Elt F) := StableHlo.after hostOps13 (W26 m c)

/-- The contents the pallas_calls leave, as the conditional frame names them: after item `j − 1` buffer `r` holds
    what the chain above holds there. -/
def outs : Outs (F := F) := fun j r c => match j with
  | 2 => W2 m c r
  | 4 => W4 m c r
  | 6 => W6 m c r
  | 8 => W8 m c r
  | 10 => W10 m c r
  | 12 => W12 m c r
  | 14 => W14 m c r
  | 16 => W16 m c r
  | 18 => W18 m c r
  | 20 => W20 m c r
  | 22 => W22 m c r
  | 24 => W24 m c r
  | 26 => W26 m c r
  | _ => W0 m c r

/-! The conditional frame's own chain of contents, read at `outs`, is the chain above. -/
theorem chain1 (c : Dev nD) : V1 m c = W1 m c := rfl
theorem chain2 (c : Dev nD) : V2 m (outs m) c = W2 m c := by
  show Function.update (V1 m c) _ (W2 m c _) = W2 m c
  rw [chain1]; unfold W2; rw [Function.update_self]
theorem chain3 (c : Dev nD) : V3 m (outs m) c = W3 m c := by
  show StableHlo.after hostOps1 (V2 m (outs m) c) = _; rw [chain2]
theorem chain4 (c : Dev nD) : V4 m (outs m) c = W4 m c := by
  show Function.update (V3 m (outs m) c) _ (W4 m c _) = W4 m c
  rw [chain3]; unfold W4; rw [Function.update_self]
theorem chain5 (c : Dev nD) : V5 m (outs m) c = W5 m c := by
  show StableHlo.after hostOps2 (V4 m (outs m) c) = _; rw [chain4]
theorem chain6 (c : Dev nD) : V6 m (outs m) c = W6 m c := by
  show Function.update (V5 m (outs m) c) _ (W6 m c _) = W6 m c
  rw [chain5]; unfold W6; rw [Function.update_self]
theorem chain7 (c : Dev nD) : V7 m (outs m) c = W7 m c := by
  show StableHlo.after hostOps3 (V6 m (outs m) c) = _; rw [chain6]
theorem chain8 (c : Dev nD) : V8 m (outs m) c = W8 m c := by
  show Function.update (V7 m (outs m) c) _ (W8 m c _) = W8 m c
  rw [chain7]; unfold W8; rw [Function.update_self]
theorem chain9 (c : Dev nD) : V9 m (outs m) c = W9 m c := by
  show StableHlo.after hostOps4 (V8 m (outs m) c) = _; rw [chain8]
theorem chain10 (c : Dev nD) : V10 m (outs m) c = W10 m c := by
  show Function.update (V9 m (outs m) c) _ (W10 m c _) = W10 m c
  rw [chain9]; unfold W10; rw [Function.update_self]
theorem chain11 (c : Dev nD) : V11 m (outs m) c = W11 m c := by
  show StableHlo.after hostOps5 (V10 m (outs m) c) = _; rw [chain10]
theorem chain12 (c : Dev nD) : V12 m (outs m) c = W12 m c := by
  show Function.update (V11 m (outs m) c) _ (W12 m c _) = W12 m c
  rw [chain11]; unfold W12; rw [Function.update_self]
theorem chain13 (c : Dev nD) : V13 m (outs m) c = W13 m c := by
  show StableHlo.after hostOps6 (V12 m (outs m) c) = _; rw [chain12]
theorem chain14 (c : Dev nD) : V14 m (outs m) c = W14 m c := by
  show Function.update (V13 m (outs m) c) _ (W14 m c _) = W14 m c
  rw [chain13]; unfold W14; rw [Function.update_self]
theorem chain15 (c : Dev nD) : V15 m (outs m) c = W15 m c := by
  show StableHlo.after hostOps7 (V14 m (outs m) c) = _; rw [chain14]
theorem chain16 (c : Dev nD) : V16 m (outs m) c = W16 m c := by
  show Function.update (V15 m (outs m) c) _ (W16 m c _) = W16 m c
  rw [chain15]; unfold W16; rw [Function.update_self]
theorem chain17 (c : Dev nD) : V17 m (outs m) c = W17 m c := by
  show StableHlo.after hostOps8 (V16 m (outs m) c) = _; rw [chain16]
theorem chain18 (c : Dev nD) : V18 m (outs m) c = W18 m c := by
  show Function.update (V17 m (outs m) c) _ (W18 m c _) = W18 m c
  rw [chain17]; unfold W18; rw [Function.update_self]
theorem chain19 (c : Dev nD) : V19 m (outs m) c = W19 m c := by
  show StableHlo.after hostOps9 (V18 m (outs m) c) = _; rw [chain18]
theorem chain20 (c : Dev nD) : V20 m (outs m) c = W20 m c := by
  show Function.update (V19 m (outs m) c) _ (W20 m c _) = W20 m c
  rw [chain19]; unfold W20; rw [Function.update_self]
theorem chain21 (c : Dev nD) : V21 m (outs m) c = W21 m c := by
  show StableHlo.after hostOps10 (V20 m (outs m) c) = _; rw [chain20]
theorem chain22 (c : Dev nD) : V22 m (outs m) c = W22 m c := by
  show Function.update (V21 m (outs m) c) _ (W22 m c _) = W22 m c
  rw [chain21]; unfold W22; rw [Function.update_self]
theorem chain23 (c : Dev nD) : V23 m (outs m) c = W23 m c := by
  show StableHlo.after hostOps11 (V22 m (outs m) c) = _; rw [chain22]
theorem chain24 (c : Dev nD) : V24 m (outs m) c = W24 m c := by
  show Function.update (V23 m (outs m) c) _ (W24 m c _) = W24 m c
  rw [chain23]; unfold W24; rw [Function.update_self]
theorem chain25 (c : Dev nD) : V25 m (outs m) c = W25 m c := by
  show StableHlo.after hostOps12 (V24 m (outs m) c) = _; rw [chain24]
theorem chain26 (c : Dev nD) : V26 m (outs m) c = W26 m c := by
  show Function.update (V25 m (outs m) c) _ (W26 m c _) = W26 m c
  rw [chain25]; unfold W26; rw [Function.update_self]
theorem chain27 (c : Dev nD) : V27 m (outs m) c = W27 m c := by
  show StableHlo.after hostOps13 (V26 m (outs m) c) = _; rw [chain26]

/-- At pallas_call 0's exit each of its arrays holds what the pipeline leaves there: an input what it held at
    entry, the result the write-backs' fold. -/
theorem ends0 (c : Dev nD) : ∀ w : Fin cfg0.W,
    (dat0 (E1 m) c).arrAt w cfg0.N = E2 m c (Pipeline.arrRef spec0 w)
  | ⟨0, _⟩ => by
      show (dat0 (E1 m) c).arrAt 0 cfg0.N = W2 m c main_arg0
      rw [W2_off m c main_arg0 (by decide)]
      exact ((dat0 (E1 m) c).arrAt_in 0 rfl _).trans (arr0 (E1 m) c 0)
  | ⟨1, _⟩ => by
      show (dat0 (E1 m) c).arrAt 1 cfg0.N = W2 m c main_arg19
      rw [W2_off m c main_arg19 (by decide)]
      exact ((dat0 (E1 m) c).arrAt_in 1 rfl _).trans (arr0 (E1 m) c 1)
  | ⟨2, _⟩ => by
      show (dat0 (E1 m) c).arrAt 2 cfg0.N = W2 m c main_v0
      rw [W2_off m c main_v0 (by decide)]
      exact ((dat0 (E1 m) c).arrAt_in 2 rfl _).trans (arr0 (E1 m) c 2)
  | ⟨3, _⟩ => by
      show (dat0 (E1 m) c).arrAt 3 cfg0.N = W2 m c main_v1
      rw [W2_at]
/-- Every buffer that is none of its arrays is as it was at entry. -/
theorem rest0 (c : Dev nD) : ∀ b, b ∉ Finset.univ.image (Pipeline.arrRef spec0) → E2 m c b = E1 m c b :=
  fun b hb => W2_off m c b fun e => hb (Finset.mem_image.mpr
    ⟨3, Finset.mem_univ _, (show Pipeline.arrRef spec0 3 = main_v1 from rfl).trans e.symm⟩)

/-- At pallas_call 1's exit each of its arrays holds what the pipeline leaves there: an input what it held at
    entry, the result the write-backs' fold. -/
theorem ends1 (c : Dev nD) : ∀ w : Fin cfg1.W,
    (dat1 (E3 m) c).arrAt w cfg1.N = E4 m c (Pipeline.arrRef spec1 w)
  | ⟨0, _⟩ => by
      show (dat1 (E3 m) c).arrAt 0 cfg1.N = W4 m c main_v22
      rw [W4_off m c main_v22 (by decide)]
      exact ((dat1 (E3 m) c).arrAt_in 0 rfl _).trans (arr1 (E3 m) c 0)
  | ⟨1, _⟩ => by
      show (dat1 (E3 m) c).arrAt 1 cfg1.N = W4 m c main_v24
      rw [W4_off m c main_v24 (by decide)]
      exact ((dat1 (E3 m) c).arrAt_in 1 rfl _).trans (arr1 (E3 m) c 1)
  | ⟨2, _⟩ => by
      show (dat1 (E3 m) c).arrAt 2 cfg1.N = W4 m c main_v27
      rw [W4_off m c main_v27 (by decide)]
      exact ((dat1 (E3 m) c).arrAt_in 2 rfl _).trans (arr1 (E3 m) c 2)
  | ⟨3, _⟩ => by
      show (dat1 (E3 m) c).arrAt 3 cfg1.N = W4 m c main_v28
      rw [W4_at]
/-- Every buffer that is none of its arrays is as it was at entry. -/
theorem rest1 (c : Dev nD) : ∀ b, b ∉ Finset.univ.image (Pipeline.arrRef spec1) → E4 m c b = E3 m c b :=
  fun b hb => W4_off m c b fun e => hb (Finset.mem_image.mpr
    ⟨3, Finset.mem_univ _, (show Pipeline.arrRef spec1 3 = main_v28 from rfl).trans e.symm⟩)

/-- At pallas_call 2's exit each of its arrays holds what the pipeline leaves there: an input what it held at
    entry, the result the write-backs' fold. -/
theorem ends2 (c : Dev nD) : ∀ w : Fin cfg2.W,
    (dat2 (E5 m) c).arrAt w cfg2.N = E6 m c (Pipeline.arrRef spec2 w)
  | ⟨0, _⟩ => by
      show (dat2 (E5 m) c).arrAt 0 cfg2.N = W6 m c main_v45
      rw [W6_off m c main_v45 (by decide)]
      exact ((dat2 (E5 m) c).arrAt_in 0 rfl _).trans (arr2 (E5 m) c 0)
  | ⟨1, _⟩ => by
      show (dat2 (E5 m) c).arrAt 1 cfg2.N = W6 m c main_v47
      rw [W6_off m c main_v47 (by decide)]
      exact ((dat2 (E5 m) c).arrAt_in 1 rfl _).trans (arr2 (E5 m) c 1)
  | ⟨2, _⟩ => by
      show (dat2 (E5 m) c).arrAt 2 cfg2.N = W6 m c main_v50
      rw [W6_off m c main_v50 (by decide)]
      exact ((dat2 (E5 m) c).arrAt_in 2 rfl _).trans (arr2 (E5 m) c 2)
  | ⟨3, _⟩ => by
      show (dat2 (E5 m) c).arrAt 3 cfg2.N = W6 m c main_v51
      rw [W6_at]
/-- Every buffer that is none of its arrays is as it was at entry. -/
theorem rest2 (c : Dev nD) : ∀ b, b ∉ Finset.univ.image (Pipeline.arrRef spec2) → E6 m c b = E5 m c b :=
  fun b hb => W6_off m c b fun e => hb (Finset.mem_image.mpr
    ⟨3, Finset.mem_univ _, (show Pipeline.arrRef spec2 3 = main_v51 from rfl).trans e.symm⟩)

/-- At pallas_call 3's exit each of its arrays holds what the pipeline leaves there: an input what it held at
    entry, the result the write-backs' fold. -/
theorem ends3 (c : Dev nD) : ∀ w : Fin cfg3.W,
    (dat3 (E7 m) c).arrAt w cfg3.N = E8 m c (Pipeline.arrRef spec3 w)
  | ⟨0, _⟩ => by
      show (dat3 (E7 m) c).arrAt 0 cfg3.N = W8 m c main_v68
      rw [W8_off m c main_v68 (by decide)]
      exact ((dat3 (E7 m) c).arrAt_in 0 rfl _).trans (arr3 (E7 m) c 0)
  | ⟨1, _⟩ => by
      show (dat3 (E7 m) c).arrAt 1 cfg3.N = W8 m c main_v70
      rw [W8_off m c main_v70 (by decide)]
      exact ((dat3 (E7 m) c).arrAt_in 1 rfl _).trans (arr3 (E7 m) c 1)
  | ⟨2, _⟩ => by
      show (dat3 (E7 m) c).arrAt 2 cfg3.N = W8 m c main_v73
      rw [W8_off m c main_v73 (by decide)]
      exact ((dat3 (E7 m) c).arrAt_in 2 rfl _).trans (arr3 (E7 m) c 2)
  | ⟨3, _⟩ => by
      show (dat3 (E7 m) c).arrAt 3 cfg3.N = W8 m c main_v74
      rw [W8_at]
/-- Every buffer that is none of its arrays is as it was at entry. -/
theorem rest3 (c : Dev nD) : ∀ b, b ∉ Finset.univ.image (Pipeline.arrRef spec3) → E8 m c b = E7 m c b :=
  fun b hb => W8_off m c b fun e => hb (Finset.mem_image.mpr
    ⟨3, Finset.mem_univ _, (show Pipeline.arrRef spec3 3 = main_v74 from rfl).trans e.symm⟩)

/-- At pallas_call 4's exit each of its arrays holds what the pipeline leaves there: an input what it held at
    entry, the result the write-backs' fold. -/
theorem ends4 (c : Dev nD) : ∀ w : Fin cfg4.W,
    (dat4 (E9 m) c).arrAt w cfg4.N = E10 m c (Pipeline.arrRef spec4 w)
  | ⟨0, _⟩ => by
      show (dat4 (E9 m) c).arrAt 0 cfg4.N = W10 m c main_v91
      rw [W10_off m c main_v91 (by decide)]
      exact ((dat4 (E9 m) c).arrAt_in 0 rfl _).trans (arr4 (E9 m) c 0)
  | ⟨1, _⟩ => by
      show (dat4 (E9 m) c).arrAt 1 cfg4.N = W10 m c main_v93
      rw [W10_off m c main_v93 (by decide)]
      exact ((dat4 (E9 m) c).arrAt_in 1 rfl _).trans (arr4 (E9 m) c 1)
  | ⟨2, _⟩ => by
      show (dat4 (E9 m) c).arrAt 2 cfg4.N = W10 m c main_v96
      rw [W10_off m c main_v96 (by decide)]
      exact ((dat4 (E9 m) c).arrAt_in 2 rfl _).trans (arr4 (E9 m) c 2)
  | ⟨3, _⟩ => by
      show (dat4 (E9 m) c).arrAt 3 cfg4.N = W10 m c main_v97
      rw [W10_at]
/-- Every buffer that is none of its arrays is as it was at entry. -/
theorem rest4 (c : Dev nD) : ∀ b, b ∉ Finset.univ.image (Pipeline.arrRef spec4) → E10 m c b = E9 m c b :=
  fun b hb => W10_off m c b fun e => hb (Finset.mem_image.mpr
    ⟨3, Finset.mem_univ _, (show Pipeline.arrRef spec4 3 = main_v97 from rfl).trans e.symm⟩)

/-- At pallas_call 5's exit each of its arrays holds what the pipeline leaves there: an input what it held at
    entry, the result the write-backs' fold. -/
theorem ends5 (c : Dev nD) : ∀ w : Fin cfg5.W,
    (dat5 (E11 m) c).arrAt w cfg5.N = E12 m c (Pipeline.arrRef spec5 w)
  | ⟨0, _⟩ => by
      show (dat5 (E11 m) c).arrAt 0 cfg5.N = W12 m c main_arg0
      rw [W12_off m c main_arg0 (by decide)]
      exact ((dat5 (E11 m) c).arrAt_in 0 rfl _).trans (arr5 (E11 m) c 0)
  | ⟨1, _⟩ => by
      show (dat5 (E11 m) c).arrAt 1 cfg5.N = W12 m c main_arg11
      rw [W12_off m c main_arg11 (by decide)]
      exact ((dat5 (E11 m) c).arrAt_in 1 rfl _).trans (arr5 (E11 m) c 1)
  | ⟨2, _⟩ => by
      show (dat5 (E11 m) c).arrAt 2 cfg5.N = W12 m c main_v5
      rw [W12_off m c main_v5 (by decide)]
      exact ((dat5 (E11 m) c).arrAt_in 2 rfl _).trans (arr5 (E11 m) c 2)
  | ⟨3, _⟩ => by
      show (dat5 (E11 m) c).arrAt 3 cfg5.N = W12 m c main_v98
      rw [W12_off m c main_v98 (by decide)]
      exact ((dat5 (E11 m) c).arrAt_in 3 rfl _).trans (arr5 (E11 m) c 3)
  | ⟨4, _⟩ => by
      show (dat5 (E11 m) c).arrAt 4 cfg5.N = W12 m c main_v99
      rw [W12_at]
/-- Every buffer that is none of its arrays is as it was at entry. -/
theorem rest5 (c : Dev nD) : ∀ b, b ∉ Finset.univ.image (Pipeline.arrRef spec5) → E12 m c b = E11 m c b :=
  fun b hb => W12_off m c b fun e => hb (Finset.mem_image.mpr
    ⟨4, Finset.mem_univ _, (show Pipeline.arrRef spec5 4 = main_v99 from rfl).trans e.symm⟩)

/-- At pallas_call 6's exit each of its arrays holds what the pipeline leaves there: an input what it held at
    entry, the result the write-backs' fold. -/
theorem ends6 (c : Dev nD) : ∀ w : Fin cfg6.W,
    (dat6 (E13 m) c).arrAt w cfg6.N = E14 m c (Pipeline.arrRef spec6 w)
  | ⟨0, _⟩ => by
      show (dat6 (E13 m) c).arrAt 0 cfg6.N = W14 m c main_v99
      rw [W14_off m c main_v99 (by decide)]
      exact ((dat6 (E13 m) c).arrAt_in 0 rfl _).trans (arr6 (E13 m) c 0)
  | ⟨1, _⟩ => by
      show (dat6 (E13 m) c).arrAt 1 cfg6.N = W14 m c main_arg21
      rw [W14_off m c main_arg21 (by decide)]
      exact ((dat6 (E13 m) c).arrAt_in 1 rfl _).trans (arr6 (E13 m) c 1)
  | ⟨2, _⟩ => by
      show (dat6 (E13 m) c).arrAt 2 cfg6.N = W14 m c main_v100
      rw [W14_off m c main_v100 (by decide)]
      exact ((dat6 (E13 m) c).arrAt_in 2 rfl _).trans (arr6 (E13 m) c 2)
  | ⟨3, _⟩ => by
      show (dat6 (E13 m) c).arrAt 3 cfg6.N = W14 m c main_v101
      rw [W14_at]
/-- Every buffer that is none of its arrays is as it was at entry. -/
theorem rest6 (c : Dev nD) : ∀ b, b ∉ Finset.univ.image (Pipeline.arrRef spec6) → E14 m c b = E13 m c b :=
  fun b hb => W14_off m c b fun e => hb (Finset.mem_image.mpr
    ⟨3, Finset.mem_univ _, (show Pipeline.arrRef spec6 3 = main_v101 from rfl).trans e.symm⟩)

/-- At pallas_call 7's exit each of its arrays holds what the pipeline leaves there: an input what it held at
    entry, the result the write-backs' fold. -/
theorem ends7 (c : Dev nD) : ∀ w : Fin cfg7.W,
    (dat7 (E15 m) c).arrAt w cfg7.N = E16 m c (Pipeline.arrRef spec7 w)
  | ⟨0, _⟩ => by
      show (dat7 (E15 m) c).arrAt 0 cfg7.N = W16 m c main_v123
      rw [W16_off m c main_v123 (by decide)]
      exact ((dat7 (E15 m) c).arrAt_in 0 rfl _).trans (arr7 (E15 m) c 0)
  | ⟨1, _⟩ => by
      show (dat7 (E15 m) c).arrAt 1 cfg7.N = W16 m c main_v125
      rw [W16_off m c main_v125 (by decide)]
      exact ((dat7 (E15 m) c).arrAt_in 1 rfl _).trans (arr7 (E15 m) c 1)
  | ⟨2, _⟩ => by
      show (dat7 (E15 m) c).arrAt 2 cfg7.N = W16 m c main_v128
      rw [W16_off m c main_v128 (by decide)]
      exact ((dat7 (E15 m) c).arrAt_in 2 rfl _).trans (arr7 (E15 m) c 2)
  | ⟨3, _⟩ => by
      show (dat7 (E15 m) c).arrAt 3 cfg7.N = W16 m c main_v129
      rw [W16_at]
/-- Every buffer that is none of its arrays is as it was at entry. -/
theorem rest7 (c : Dev nD) : ∀ b, b ∉ Finset.univ.image (Pipeline.arrRef spec7) → E16 m c b = E15 m c b :=
  fun b hb => W16_off m c b fun e => hb (Finset.mem_image.mpr
    ⟨3, Finset.mem_univ _, (show Pipeline.arrRef spec7 3 = main_v129 from rfl).trans e.symm⟩)

/-- At pallas_call 8's exit each of its arrays holds what the pipeline leaves there: an input what it held at
    entry, the result the write-backs' fold. -/
theorem ends8 (c : Dev nD) : ∀ w : Fin cfg8.W,
    (dat8 (E17 m) c).arrAt w cfg8.N = E18 m c (Pipeline.arrRef spec8 w)
  | ⟨0, _⟩ => by
      show (dat8 (E17 m) c).arrAt 0 cfg8.N = W18 m c main_v146
      rw [W18_off m c main_v146 (by decide)]
      exact ((dat8 (E17 m) c).arrAt_in 0 rfl _).trans (arr8 (E17 m) c 0)
  | ⟨1, _⟩ => by
      show (dat8 (E17 m) c).arrAt 1 cfg8.N = W18 m c main_v148
      rw [W18_off m c main_v148 (by decide)]
      exact ((dat8 (E17 m) c).arrAt_in 1 rfl _).trans (arr8 (E17 m) c 1)
  | ⟨2, _⟩ => by
      show (dat8 (E17 m) c).arrAt 2 cfg8.N = W18 m c main_v151
      rw [W18_off m c main_v151 (by decide)]
      exact ((dat8 (E17 m) c).arrAt_in 2 rfl _).trans (arr8 (E17 m) c 2)
  | ⟨3, _⟩ => by
      show (dat8 (E17 m) c).arrAt 3 cfg8.N = W18 m c main_v152
      rw [W18_at]
/-- Every buffer that is none of its arrays is as it was at entry. -/
theorem rest8 (c : Dev nD) : ∀ b, b ∉ Finset.univ.image (Pipeline.arrRef spec8) → E18 m c b = E17 m c b :=
  fun b hb => W18_off m c b fun e => hb (Finset.mem_image.mpr
    ⟨3, Finset.mem_univ _, (show Pipeline.arrRef spec8 3 = main_v152 from rfl).trans e.symm⟩)

/-- At pallas_call 9's exit each of its arrays holds what the pipeline leaves there: an input what it held at
    entry, the result the write-backs' fold. -/
theorem ends9 (c : Dev nD) : ∀ w : Fin cfg9.W,
    (dat9 (E19 m) c).arrAt w cfg9.N = E20 m c (Pipeline.arrRef spec9 w)
  | ⟨0, _⟩ => by
      show (dat9 (E19 m) c).arrAt 0 cfg9.N = W20 m c main_v169
      rw [W20_off m c main_v169 (by decide)]
      exact ((dat9 (E19 m) c).arrAt_in 0 rfl _).trans (arr9 (E19 m) c 0)
  | ⟨1, _⟩ => by
      show (dat9 (E19 m) c).arrAt 1 cfg9.N = W20 m c main_v171
      rw [W20_off m c main_v171 (by decide)]
      exact ((dat9 (E19 m) c).arrAt_in 1 rfl _).trans (arr9 (E19 m) c 1)
  | ⟨2, _⟩ => by
      show (dat9 (E19 m) c).arrAt 2 cfg9.N = W20 m c main_v174
      rw [W20_off m c main_v174 (by decide)]
      exact ((dat9 (E19 m) c).arrAt_in 2 rfl _).trans (arr9 (E19 m) c 2)
  | ⟨3, _⟩ => by
      show (dat9 (E19 m) c).arrAt 3 cfg9.N = W20 m c main_v175
      rw [W20_at]
/-- Every buffer that is none of its arrays is as it was at entry. -/
theorem rest9 (c : Dev nD) : ∀ b, b ∉ Finset.univ.image (Pipeline.arrRef spec9) → E20 m c b = E19 m c b :=
  fun b hb => W20_off m c b fun e => hb (Finset.mem_image.mpr
    ⟨3, Finset.mem_univ _, (show Pipeline.arrRef spec9 3 = main_v175 from rfl).trans e.symm⟩)

/-- At pallas_call 10's exit each of its arrays holds what the pipeline leaves there: an input what it held at
    entry, the result the write-backs' fold. -/
theorem ends10 (c : Dev nD) : ∀ w : Fin cfg10.W,
    (dat10 (E21 m) c).arrAt w cfg10.N = E22 m c (Pipeline.arrRef spec10 w)
  | ⟨0, _⟩ => by
      show (dat10 (E21 m) c).arrAt 0 cfg10.N = W22 m c main_v192
      rw [W22_off m c main_v192 (by decide)]
      exact ((dat10 (E21 m) c).arrAt_in 0 rfl _).trans (arr10 (E21 m) c 0)
  | ⟨1, _⟩ => by
      show (dat10 (E21 m) c).arrAt 1 cfg10.N = W22 m c main_v194
      rw [W22_off m c main_v194 (by decide)]
      exact ((dat10 (E21 m) c).arrAt_in 1 rfl _).trans (arr10 (E21 m) c 1)
  | ⟨2, _⟩ => by
      show (dat10 (E21 m) c).arrAt 2 cfg10.N = W22 m c main_v197
      rw [W22_off m c main_v197 (by decide)]
      exact ((dat10 (E21 m) c).arrAt_in 2 rfl _).trans (arr10 (E21 m) c 2)
  | ⟨3, _⟩ => by
      show (dat10 (E21 m) c).arrAt 3 cfg10.N = W22 m c main_v198
      rw [W22_at]
/-- Every buffer that is none of its arrays is as it was at entry. -/
theorem rest10 (c : Dev nD) : ∀ b, b ∉ Finset.univ.image (Pipeline.arrRef spec10) → E22 m c b = E21 m c b :=
  fun b hb => W22_off m c b fun e => hb (Finset.mem_image.mpr
    ⟨3, Finset.mem_univ _, (show Pipeline.arrRef spec10 3 = main_v198 from rfl).trans e.symm⟩)

/-- At pallas_call 11's exit each of its arrays holds what the pipeline leaves there: an input what it held at
    entry, the result the write-backs' fold. -/
theorem ends11 (c : Dev nD) : ∀ w : Fin cfg11.W,
    (dat11 (E23 m) c).arrAt w cfg11.N = E24 m c (Pipeline.arrRef spec11 w)
  | ⟨0, _⟩ => by
      show (dat11 (E23 m) c).arrAt 0 cfg11.N = W24 m c main_v99
      rw [W24_off m c main_v99 (by decide)]
      exact ((dat11 (E23 m) c).arrAt_in 0 rfl _).trans (arr11 (E23 m) c 0)
  | ⟨1, _⟩ => by
      show (dat11 (E23 m) c).arrAt 1 cfg11.N = W24 m c main_arg15
      rw [W24_off m c main_arg15 (by decide)]
      exact ((dat11 (E23 m) c).arrAt_in 1 rfl _).trans (arr11 (E23 m) c 1)
  | ⟨2, _⟩ => by
      show (dat11 (E23 m) c).arrAt 2 cfg11.N = W24 m c main_v106
      rw [W24_off m c main_v106 (by decide)]
      exact ((dat11 (E23 m) c).arrAt_in 2 rfl _).trans (arr11 (E23 m) c 2)
  | ⟨3, _⟩ => by
      show (dat11 (E23 m) c).arrAt 3 cfg11.N = W24 m c main_v199
      rw [W24_off m c main_v199 (by decide)]
      exact ((dat11 (E23 m) c).arrAt_in 3 rfl _).trans (arr11 (E23 m) c 3)
  | ⟨4, _⟩ => by
      show (dat11 (E23 m) c).arrAt 4 cfg11.N = W24 m c main_v200
      rw [W24_at]
/-- Every buffer that is none of its arrays is as it was at entry. -/
theorem rest11 (c : Dev nD) : ∀ b, b ∉ Finset.univ.image (Pipeline.arrRef spec11) → E24 m c b = E23 m c b :=
  fun b hb => W24_off m c b fun e => hb (Finset.mem_image.mpr
    ⟨4, Finset.mem_univ _, (show Pipeline.arrRef spec11 4 = main_v200 from rfl).trans e.symm⟩)

/-- At pallas_call 12's exit each of its arrays holds what the pipeline leaves there: an input what it held at
    entry, the result the write-backs' fold. -/
theorem ends12 (c : Dev nD) : ∀ w : Fin cfg12.W,
    (dat12 (E25 m) c).arrAt w cfg12.N = E26 m c (Pipeline.arrRef spec12 w)
  | ⟨0, _⟩ => by
      show (dat12 (E25 m) c).arrAt 0 cfg12.N = W26 m c main_v200
      rw [W26_off m c main_v200 (by decide)]
      exact ((dat12 (E25 m) c).arrAt_in 0 rfl _).trans (arr12 (E25 m) c 0)
  | ⟨1, _⟩ => by
      show (dat12 (E25 m) c).arrAt 1 cfg12.N = W26 m c main_arg23
      rw [W26_off m c main_arg23 (by decide)]
      exact ((dat12 (E25 m) c).arrAt_in 1 rfl _).trans (arr12 (E25 m) c 1)
  | ⟨2, _⟩ => by
      show (dat12 (E25 m) c).arrAt 2 cfg12.N = W26 m c main_v201
      rw [W26_off m c main_v201 (by decide)]
      exact ((dat12 (E25 m) c).arrAt_in 2 rfl _).trans (arr12 (E25 m) c 2)
  | ⟨3, _⟩ => by
      show (dat12 (E25 m) c).arrAt 3 cfg12.N = W26 m c main_v202
      rw [W26_at]
/-- Every buffer that is none of its arrays is as it was at entry. -/
theorem rest12 (c : Dev nD) : ∀ b, b ∉ Finset.univ.image (Pipeline.arrRef spec12) → E26 m c b = E25 m c b :=
  fun b hb => W26_off m c b fun e => hb (Finset.mem_image.mpr
    ⟨3, Finset.mem_univ _, (show Pipeline.arrRef spec12 3 = main_v202 from rfl).trans e.symm⟩)

/-- Every pipeline's proof data, each at the contents its pallas_call is entered with. -/
def pdats : (p : Fin 13) → (c : Dev nD) → Dat τ (Elt F) Unit ℕ (UR sig nD τ) ℕ (cfgs p) c
  | ⟨0, _⟩ => fun c => dat0 (E1 m) c
  | ⟨1, _⟩ => fun c => dat1 (E3 m) c
  | ⟨2, _⟩ => fun c => dat2 (E5 m) c
  | ⟨3, _⟩ => fun c => dat3 (E7 m) c
  | ⟨4, _⟩ => fun c => dat4 (E9 m) c
  | ⟨5, _⟩ => fun c => dat5 (E11 m) c
  | ⟨6, _⟩ => fun c => dat6 (E13 m) c
  | ⟨7, _⟩ => fun c => dat7 (E15 m) c
  | ⟨8, _⟩ => fun c => dat8 (E17 m) c
  | ⟨9, _⟩ => fun c => dat9 (E19 m) c
  | ⟨10, _⟩ => fun c => dat10 (E21 m) c
  | ⟨11, _⟩ => fun c => dat11 (E23 m) c
  | ⟨12, _⟩ => fun c => dat12 (E25 m) c

/-- What rides beside the buffers through every item: the core's generator register at some state (a kernel that keeps
    nothing between points takes it in and gives it back) and the core's dues, none. -/
abbrev Rr (c : Dev nD) : sProp 𝕄 := iprop((∃ r, prngReg c r) ∗ ∃ W, owes (c : Thread nD τ) (0 : CellTallies nD τ sig Unit) W)
abbrev Lz : GSem nD τ sig → Finset Unit := fun _ => ∅
abbrev lvz : GSem nD τ sig → Unit → ℕ := fun _ _ => 0

end Cert.Kernel.Fr

end
-- ==== Proof.KB.Seg0.lean ====
/-
  pallas_call 0 as a segment of the program. It is entered holding every unscoped buffer at the contents before it and
  leaves holding them at the contents after it: its arrays are split out of the unscoped buffers at entry and put back,
  the result at what the write-backs leave, at exit; the generator register goes into the kernel's invariant and comes
  back; nothing is owed and the kernel has no semaphore of its own.
-/
import proofs.«143046_j34703335751794_1_alg».proof.Proof.KB.Chain

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold
-- plain definitions in a metavariable's type
set_option backward.isDefEq.respectTransparency.types false in
def seg0 : Pipeline.RegionSeg (pcfgs (F := F)) adm (pdats m) () defs₀ Variants.none Lz lvz 0 where
  win := launch0.win.to₀
  block_pos := launch0.block_pos
  stage_whole := launch0.stage_whole
  K := PEmpty
  osem k := k.elim
  ho := Pipeline.OwnSemFacts.none _
  hbody c := (obligation0 (E1 m) c).loose
  hwaits := Pipeline.hwaits_of_owed_zero _ _ _ _ Lz lvz 0 fun _ _ => rfl
  pre c := iprop(StableHlo.held (c : Thread nD τ) (Pipeline.ucRefs τ sig) (W1 m c) ∗ Rr c)
  post c := iprop(StableHlo.held (c : Thread nD τ) (Pipeline.ucRefs τ sig) (W2 m c) ∗ Rr c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (ends0 m c) (rest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Fr

end
-- ==== Proof.KB.Seg1.lean ====
/-
  pallas_call 1 as a segment of the program. It is entered holding every unscoped buffer at the contents before it and
  leaves holding them at the contents after it: its arrays are split out of the unscoped buffers at entry and put back,
  the result at what the write-backs leave, at exit; the generator register goes into the kernel's invariant and comes
  back; nothing is owed and the kernel has no semaphore of its own.
-/
import proofs.«143046_j34703335751794_1_alg».proof.Proof.KB.Chain

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold
-- plain definitions in a metavariable's type
set_option backward.isDefEq.respectTransparency.types false in
def seg1 : Pipeline.RegionSeg (pcfgs (F := F)) adm (pdats m) () defs₀ Variants.none Lz lvz 1 where
  win := launch1.win.to₀
  block_pos := launch1.block_pos
  stage_whole := launch1.stage_whole
  K := PEmpty
  osem k := k.elim
  ho := Pipeline.OwnSemFacts.none _
  hbody c := (obligation1 (E3 m) c).loose
  hwaits := Pipeline.hwaits_of_owed_zero _ _ _ _ Lz lvz 1 fun _ _ => rfl
  pre c := iprop(StableHlo.held (c : Thread nD τ) (Pipeline.ucRefs τ sig) (W3 m c) ∗ Rr c)
  post c := iprop(StableHlo.held (c : Thread nD τ) (Pipeline.ucRefs τ sig) (W4 m c) ∗ Rr c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E3 m c) (E4 m c) ((pdats m 1 c).arrAt · cfg1.N) (ends1 m c) (rest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Fr

end
-- ==== Proof.KB.Seg2.lean ====
/-
  pallas_call 2 as a segment of the program. It is entered holding every unscoped buffer at the contents before it and
  leaves holding them at the contents after it: its arrays are split out of the unscoped buffers at entry and put back,
  the result at what the write-backs leave, at exit; the generator register goes into the kernel's invariant and comes
  back; nothing is owed and the kernel has no semaphore of its own.
-/
import proofs.«143046_j34703335751794_1_alg».proof.Proof.KB.Chain

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold
-- plain definitions in a metavariable's type
set_option backward.isDefEq.respectTransparency.types false in
def seg2 : Pipeline.RegionSeg (pcfgs (F := F)) adm (pdats m) () defs₀ Variants.none Lz lvz 2 where
  win := launch2.win.to₀
  block_pos := launch2.block_pos
  stage_whole := launch2.stage_whole
  K := PEmpty
  osem k := k.elim
  ho := Pipeline.OwnSemFacts.none _
  hbody c := (obligation2 (E5 m) c).loose
  hwaits := Pipeline.hwaits_of_owed_zero _ _ _ _ Lz lvz 2 fun _ _ => rfl
  pre c := iprop(StableHlo.held (c : Thread nD τ) (Pipeline.ucRefs τ sig) (W5 m c) ∗ Rr c)
  post c := iprop(StableHlo.held (c : Thread nD τ) (Pipeline.ucRefs τ sig) (W6 m c) ∗ Rr c)
  X c := iprop(∃ r, prngReg c r)
  Y c := iprop(∃ r, prngReg c r)
  Z c := Pipeline.unscopedRest (Ix := Unit) (Name := ℕ) (U := UR sig nD τ) (Lvl := ℕ) spec2 c (E5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E5 m c) (E6 m c) ((pdats m 2 c).arrAt · cfg2.N) (ends2 m c) (rest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Fr

end
-- ==== Proof.KB.Seg3.lean ====
/-
  pallas_call 3 as a segment of the program. It is entered holding every unscoped buffer at the contents before it and
  leaves holding them at the contents after it: its arrays are split out of the unscoped buffers at entry and put back,
  the result at what the write-backs leave, at exit; the generator register goes into the kernel's invariant and comes
  back; nothing is owed and the kernel has no semaphore of its own.
-/
import proofs.«143046_j34703335751794_1_alg».proof.Proof.KB.Chain

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold
-- plain definitions in a metavariable's type
set_option backward.isDefEq.respectTransparency.types false in
def seg3 : Pipeline.RegionSeg (pcfgs (F := F)) adm (pdats m) () defs₀ Variants.none Lz lvz 3 where
  win := launch3.win.to₀
  block_pos := launch3.block_pos
  stage_whole := launch3.stage_whole
  K := PEmpty
  osem k := k.elim
  ho := Pipeline.OwnSemFacts.none _
  hbody c := (obligation3 (E7 m) c).loose
  hwaits := Pipeline.hwaits_of_owed_zero _ _ _ _ Lz lvz 3 fun _ _ => rfl
  pre c := iprop(StableHlo.held (c : Thread nD τ) (Pipeline.ucRefs τ sig) (W7 m c) ∗ Rr c)
  post c := iprop(StableHlo.held (c : Thread nD τ) (Pipeline.ucRefs τ sig) (W8 m c) ∗ Rr c)
  X c := iprop(∃ r, prngReg c r)
  Y c := iprop(∃ r, prngReg c r)
  Z c := Pipeline.unscopedRest (Ix := Unit) (Name := ℕ) (U := UR sig nD τ) (Lvl := ℕ) spec3 c (E7 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (E7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (E7 m c) (E8 m c) ((pdats m 3 c).arrAt · cfg3.N) (ends3 m c) (rest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Fr

end
-- ==== Proof.KB.Seg4.lean ====
/-
  pallas_call 4 as a segment of the program. It is entered holding every unscoped buffer at the contents before it and
  leaves holding them at the contents after it: its arrays are split out of the unscoped buffers at entry and put back,
  the result at what the write-backs leave, at exit; the generator register goes into the kernel's invariant and comes
  back; nothing is owed and the kernel has no semaphore of its own.
-/
import proofs.«143046_j34703335751794_1_alg».proof.Proof.KB.Chain

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold
-- plain definitions in a metavariable's type
set_option backward.isDefEq.respectTransparency.types false in
def seg4 : Pipeline.RegionSeg (pcfgs (F := F)) adm (pdats m) () defs₀ Variants.none Lz lvz 4 where
  win := launch4.win.to₀
  block_pos := launch4.block_pos
  stage_whole := launch4.stage_whole
  K := PEmpty
  osem k := k.elim
  ho := Pipeline.OwnSemFacts.none _
  hbody c := (obligation4 (E9 m) c).loose
  hwaits := Pipeline.hwaits_of_owed_zero _ _ _ _ Lz lvz 4 fun _ _ => rfl
  pre c := iprop(StableHlo.held (c : Thread nD τ) (Pipeline.ucRefs τ sig) (W9 m c) ∗ Rr c)
  post c := iprop(StableHlo.held (c : Thread nD τ) (Pipeline.ucRefs τ sig) (W10 m c) ∗ Rr c)
  X c := iprop(∃ r, prngReg c r)
  Y c := iprop(∃ r, prngReg c r)
  Z c := Pipeline.unscopedRest (Ix := Unit) (Name := ℕ) (U := UR sig nD τ) (Lvl := ℕ) spec4 c (E9 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (E9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (E9 m c) (E10 m c) ((pdats m 4 c).arrAt · cfg4.N) (ends4 m c) (rest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Fr

end
-- ==== Proof.KB.Seg5.lean ====
/-
  pallas_call 5 as a segment of the program. It is entered holding every unscoped buffer at the contents before it and
  leaves holding them at the contents after it: its arrays are split out of the unscoped buffers at entry and put back,
  the result at what the write-backs leave, at exit; the generator register goes into the kernel's invariant and comes
  back; nothing is owed and the kernel has no semaphore of its own.
-/
import proofs.«143046_j34703335751794_1_alg».proof.Proof.KB.Chain

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold
-- plain definitions in a metavariable's type
set_option backward.isDefEq.respectTransparency.types false in
def seg5 : Pipeline.RegionSeg (pcfgs (F := F)) adm (pdats m) () defs₀ Variants.none Lz lvz 5 where
  win := launch5.win.to₀
  block_pos := launch5.block_pos
  stage_whole := launch5.stage_whole
  K := PEmpty
  osem k := k.elim
  ho := Pipeline.OwnSemFacts.none _
  hbody c := (obligation5 (E11 m) c).loose
  hwaits := Pipeline.hwaits_of_owed_zero _ _ _ _ Lz lvz 5 fun _ _ => rfl
  pre c := iprop(StableHlo.held (c : Thread nD τ) (Pipeline.ucRefs τ sig) (W11 m c) ∗ Rr c)
  post c := iprop(StableHlo.held (c : Thread nD τ) (Pipeline.ucRefs τ sig) (W12 m c) ∗ Rr c)
  X c := iprop(∃ r, prngReg c r)
  Y c := iprop(∃ r, prngReg c r)
  Z c := Pipeline.unscopedRest (Ix := Unit) (Name := ℕ) (U := UR sig nD τ) (Lvl := ℕ) spec5 c (E11 m c)
  hentry c := by
    rw [Pipeline.ownSems0_none]
    have hsplit := Pipeline.arrays_of_unscopedBufs (p := 5) (pcfgs (F := F)) adm (pdats m) launch5.win launch5.arr_whole c
      ((pdats m 5 c).share_full fun _ => rfl) (E11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (E11 m c) (E12 m c) ((pdats m 5 c).arrAt · cfg5.N) (ends5 m c) (rest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Fr

end
-- ==== Proof.KB.Seg6.lean ====
/-
  pallas_call 6 as a segment of the program. It is entered holding every unscoped buffer at the contents before it and
  leaves holding them at the contents after it: its arrays are split out of the unscoped buffers at entry and put back,
  the result at what the write-backs leave, at exit; the generator register goes into the kernel's invariant and comes
  back; nothing is owed and the kernel has no semaphore of its own.
-/
import proofs.«143046_j34703335751794_1_alg».proof.Proof.KB.Chain

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold
-- plain definitions in a metavariable's type
set_option backward.isDefEq.respectTransparency.types false in
def seg6 : Pipeline.RegionSeg (pcfgs (F := F)) adm (pdats m) () defs₀ Variants.none Lz lvz 6 where
  win := launch6.win.to₀
  block_pos := launch6.block_pos
  stage_whole := launch6.stage_whole
  K := PEmpty
  osem k := k.elim
  ho := Pipeline.OwnSemFacts.none _
  hbody c := (obligation6 (E13 m) c).loose
  hwaits := Pipeline.hwaits_of_owed_zero _ _ _ _ Lz lvz 6 fun _ _ => rfl
  pre c := iprop(StableHlo.held (c : Thread nD τ) (Pipeline.ucRefs τ sig) (W13 m c) ∗ Rr c)
  post c := iprop(StableHlo.held (c : Thread nD τ) (Pipeline.ucRefs τ sig) (W14 m c) ∗ Rr c)
  X c := iprop(∃ r, prngReg c r)
  Y c := iprop(∃ r, prngReg c r)
  Z c := Pipeline.unscopedRest (Ix := Unit) (Name := ℕ) (U := UR sig nD τ) (Lvl := ℕ) spec6 c (E13 m c)
  hentry c := by
    rw [Pipeline.ownSems0_none]
    have hsplit := Pipeline.arrays_of_unscopedBufs (p := 6) (pcfgs (F := F)) adm (pdats m) launch6.win launch6.arr_whole c
      ((pdats m 6 c).share_full fun _ => rfl) (E13 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m) ((pdats m 6 c).share_full fun _ => rfl)
      (E13 m c) (E14 m c) ((pdats m 6 c).arrAt · cfg6.N) (ends6 m c) (rest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Fr

end
-- ==== Proof.KB.Seg7.lean ====
/-
  pallas_call 7 as a segment of the program. It is entered holding every unscoped buffer at the contents before it and
  leaves holding them at the contents after it: its arrays are split out of the unscoped buffers at entry and put back,
  the result at what the write-backs leave, at exit; the generator register goes into the kernel's invariant and comes
  back; nothing is owed and the kernel has no semaphore of its own.
-/
import proofs.«143046_j34703335751794_1_alg».proof.Proof.KB.Chain

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold
-- plain definitions in a metavariable's type
set_option backward.isDefEq.respectTransparency.types false in
def seg7 : Pipeline.RegionSeg (pcfgs (F := F)) adm (pdats m) () defs₀ Variants.none Lz lvz 7 where
  win := launch7.win.to₀
  block_pos := launch7.block_pos
  stage_whole := launch7.stage_whole
  K := PEmpty
  osem k := k.elim
  ho := Pipeline.OwnSemFacts.none _
  hbody c := (obligation7 (E15 m) c).loose
  hwaits := Pipeline.hwaits_of_owed_zero _ _ _ _ Lz lvz 7 fun _ _ => rfl
  pre c := iprop(StableHlo.held (c : Thread nD τ) (Pipeline.ucRefs τ sig) (W15 m c) ∗ Rr c)
  post c := iprop(StableHlo.held (c : Thread nD τ) (Pipeline.ucRefs τ sig) (W16 m c) ∗ Rr c)
  X c := iprop(∃ r, prngReg c r)
  Y c := iprop(∃ r, prngReg c r)
  Z c := Pipeline.unscopedRest (Ix := Unit) (Name := ℕ) (U := UR sig nD τ) (Lvl := ℕ) spec7 c (E15 m c)
  hentry c := by
    rw [Pipeline.ownSems0_none]
    have hsplit := Pipeline.arrays_of_unscopedBufs (p := 7) (pcfgs (F := F)) adm (pdats m) launch7.win launch7.arr_whole c
      ((pdats m 7 c).share_full fun _ => rfl) (E15 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m) ((pdats m 7 c).share_full fun _ => rfl)
      (E15 m c) (E16 m c) ((pdats m 7 c).arrAt · cfg7.N) (ends7 m c) (rest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Fr

end
-- ==== Proof.KB.Seg8.lean ====
/-
  pallas_call 8 as a segment of the program. It is entered holding every unscoped buffer at the contents before it and
  leaves holding them at the contents after it: its arrays are split out of the unscoped buffers at entry and put back,
  the result at what the write-backs leave, at exit; the generator register goes into the kernel's invariant and comes
  back; nothing is owed and the kernel has no semaphore of its own.
-/
import proofs.«143046_j34703335751794_1_alg».proof.Proof.KB.Chain

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold
-- plain definitions in a metavariable's type
set_option backward.isDefEq.respectTransparency.types false in
def seg8 : Pipeline.RegionSeg (pcfgs (F := F)) adm (pdats m) () defs₀ Variants.none Lz lvz 8 where
  win := launch8.win.to₀
  block_pos := launch8.block_pos
  stage_whole := launch8.stage_whole
  K := PEmpty
  osem k := k.elim
  ho := Pipeline.OwnSemFacts.none _
  hbody c := (obligation8 (E17 m) c).loose
  hwaits := Pipeline.hwaits_of_owed_zero _ _ _ _ Lz lvz 8 fun _ _ => rfl
  pre c := iprop(StableHlo.held (c : Thread nD τ) (Pipeline.ucRefs τ sig) (W17 m c) ∗ Rr c)
  post c := iprop(StableHlo.held (c : Thread nD τ) (Pipeline.ucRefs τ sig) (W18 m c) ∗ Rr c)
  X c := iprop(∃ r, prngReg c r)
  Y c := iprop(∃ r, prngReg c r)
  Z c := Pipeline.unscopedRest (Ix := Unit) (Name := ℕ) (U := UR sig nD τ) (Lvl := ℕ) spec8 c (E17 m c)
  hentry c := by
    rw [Pipeline.ownSems0_none]
    have hsplit := Pipeline.arrays_of_unscopedBufs (p := 8) (pcfgs (F := F)) adm (pdats m) launch8.win launch8.arr_whole c
      ((pdats m 8 c).share_full fun _ => rfl) (E17 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m) ((pdats m 8 c).share_full fun _ => rfl)
      (E17 m c) (E18 m c) ((pdats m 8 c).arrAt · cfg8.N) (ends8 m c) (rest8 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Fr

end
-- ==== Proof.KB.Seg9.lean ====
/-
  pallas_call 9 as a segment of the program. It is entered holding every unscoped buffer at the contents before it and
  leaves holding them at the contents after it: its arrays are split out of the unscoped buffers at entry and put back,
  the result at what the write-backs leave, at exit; the generator register goes into the kernel's invariant and comes
  back; nothing is owed and the kernel has no semaphore of its own.
-/
import proofs.«143046_j34703335751794_1_alg».proof.Proof.KB.Chain

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold
-- plain definitions in a metavariable's type
set_option backward.isDefEq.respectTransparency.types false in
def seg9 : Pipeline.RegionSeg (pcfgs (F := F)) adm (pdats m) () defs₀ Variants.none Lz lvz 9 where
  win := launch9.win.to₀
  block_pos := launch9.block_pos
  stage_whole := launch9.stage_whole
  K := PEmpty
  osem k := k.elim
  ho := Pipeline.OwnSemFacts.none _
  hbody c := (obligation9 (E19 m) c).loose
  hwaits := Pipeline.hwaits_of_owed_zero _ _ _ _ Lz lvz 9 fun _ _ => rfl
  pre c := iprop(StableHlo.held (c : Thread nD τ) (Pipeline.ucRefs τ sig) (W19 m c) ∗ Rr c)
  post c := iprop(StableHlo.held (c : Thread nD τ) (Pipeline.ucRefs τ sig) (W20 m c) ∗ Rr c)
  X c := iprop(∃ r, prngReg c r)
  Y c := iprop(∃ r, prngReg c r)
  Z c := Pipeline.unscopedRest (Ix := Unit) (Name := ℕ) (U := UR sig nD τ) (Lvl := ℕ) spec9 c (E19 m c)
  hentry c := by
    rw [Pipeline.ownSems0_none]
    have hsplit := Pipeline.arrays_of_unscopedBufs (p := 9) (pcfgs (F := F)) adm (pdats m) launch9.win launch9.arr_whole c
      ((pdats m 9 c).share_full fun _ => rfl) (E19 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 9 c).Φ 0 = Pipeline.ΦA spec9 c from rfl]; unfold Pipeline.ΦA
    iintro ⟨Hp, -, Hr⟩
    isplitl [Hr]; · iexact Hr
    iexact Hp
  hout c := by
    rw [Pipeline.ownSems0_none, show (pdats m 9 c).Φ (Fin.last _) = Pipeline.ΦA spec9 c from rfl]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m) ((pdats m 9 c).share_full fun _ => rfl)
      (E19 m c) (E20 m c) ((pdats m 9 c).arrAt · cfg9.N) (ends9 m c) (rest9 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Fr

end
-- ==== Proof.KB.Seg10.lean ====
/-
  pallas_call 10 as a segment of the program. It is entered holding every unscoped buffer at the contents before it and
  leaves holding them at the contents after it: its arrays are split out of the unscoped buffers at entry and put back,
  the result at what the write-backs leave, at exit; the generator register goes into the kernel's invariant and comes
  back; nothing is owed and the kernel has no semaphore of its own.
-/
import proofs.«143046_j34703335751794_1_alg».proof.Proof.KB.Chain

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold
-- plain definitions in a metavariable's type
set_option backward.isDefEq.respectTransparency.types false in
def seg10 : Pipeline.RegionSeg (pcfgs (F := F)) adm (pdats m) () defs₀ Variants.none Lz lvz 10 where
  win := launch10.win.to₀
  block_pos := launch10.block_pos
  stage_whole := launch10.stage_whole
  K := PEmpty
  osem k := k.elim
  ho := Pipeline.OwnSemFacts.none _
  hbody c := (obligation10 (E21 m) c).loose
  hwaits := Pipeline.hwaits_of_owed_zero _ _ _ _ Lz lvz 10 fun _ _ => rfl
  pre c := iprop(StableHlo.held (c : Thread nD τ) (Pipeline.ucRefs τ sig) (W21 m c) ∗ Rr c)
  post c := iprop(StableHlo.held (c : Thread nD τ) (Pipeline.ucRefs τ sig) (W22 m c) ∗ Rr c)
  X c := iprop(∃ r, prngReg c r)
  Y c := iprop(∃ r, prngReg c r)
  Z c := Pipeline.unscopedRest (Ix := Unit) (Name := ℕ) (U := UR sig nD τ) (Lvl := ℕ) spec10 c (E21 m c)
  hentry c := by
    rw [Pipeline.ownSems0_none]
    have hsplit := Pipeline.arrays_of_unscopedBufs (p := 10) (pcfgs (F := F)) adm (pdats m) launch10.win launch10.arr_whole c
      ((pdats m 10 c).share_full fun _ => rfl) (E21 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 10 c).Φ 0 = Pipeline.ΦA spec10 c from rfl]; unfold Pipeline.ΦA
    iintro ⟨Hp, -, Hr⟩
    isplitl [Hr]; · iexact Hr
    iexact Hp
  hout c := by
    rw [Pipeline.ownSems0_none, show (pdats m 10 c).Φ (Fin.last _) = Pipeline.ΦA spec10 c from rfl]; unfold Pipeline.ΦA
    iintro ⟨Hr, Hp⟩
    isplitl [Hp]; · iexact Hp
    isplitr; · iempintro
    iexact Hr
  hexit c := by
    have hjoin := Pipeline.unscopedBufs_of_arrays (p := 10) (pcfgs (F := F)) adm (Ix := Unit) (Name := ℕ) (U := UR sig nD τ) (Lvl := ℕ)
      launch10.win launch10.arr_whole c (pdats m) ((pdats m 10 c).share_full fun _ => rfl)
      (E21 m c) (E22 m c) ((pdats m 10 c).arrAt · cfg10.N) (ends10 m c) (rest10 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Fr

end
-- ==== Proof.KB.Seg11.lean ====
/-
  pallas_call 11 as a segment of the program. It is entered holding every unscoped buffer at the contents before it and
  leaves holding them at the contents after it: its arrays are split out of the unscoped buffers at entry and put back,
  the result at what the write-backs leave, at exit; the generator register goes into the kernel's invariant and comes
  back; nothing is owed and the kernel has no semaphore of its own.
-/
import proofs.«143046_j34703335751794_1_alg».proof.Proof.KB.Chain

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold
-- plain definitions in a metavariable's type
set_option backward.isDefEq.respectTransparency.types false in
def seg11 : Pipeline.RegionSeg (pcfgs (F := F)) adm (pdats m) () defs₀ Variants.none Lz lvz 11 where
  win := launch11.win.to₀
  block_pos := launch11.block_pos
  stage_whole := launch11.stage_whole
  K := PEmpty
  osem k := k.elim
  ho := Pipeline.OwnSemFacts.none _
  hbody c := (obligation11 (E23 m) c).loose
  hwaits := Pipeline.hwaits_of_owed_zero _ _ _ _ Lz lvz 11 fun _ _ => rfl
  pre c := iprop(StableHlo.held (c : Thread nD τ) (Pipeline.ucRefs τ sig) (W23 m c) ∗ Rr c)
  post c := iprop(StableHlo.held (c : Thread nD τ) (Pipeline.ucRefs τ sig) (W24 m c) ∗ Rr c)
  X c := iprop(∃ r, prngReg c r)
  Y c := iprop(∃ r, prngReg c r)
  Z c := Pipeline.unscopedRest (Ix := Unit) (Name := ℕ) (U := UR sig nD τ) (Lvl := ℕ) spec11 c (E23 m c)
  hentry c := by
    rw [Pipeline.ownSems0_none]
    have hsplit := Pipeline.arrays_of_unscopedBufs (p := 11) (pcfgs (F := F)) adm (pdats m) launch11.win launch11.arr_whole c
      ((pdats m 11 c).share_full fun _ => rfl) (E23 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 11 c).Φ 0 = Pipeline.ΦA spec11 c from rfl]; unfold Pipeline.ΦA
    iintro ⟨Hp, -, Hr⟩
    isplitl [Hr]; · iexact Hr
    iexact Hp
  hout c := by
    rw [Pipeline.ownSems0_none, show (pdats m 11 c).Φ (Fin.last _) = Pipeline.ΦA spec11 c from rfl]; unfold Pipeline.ΦA
    iintro ⟨Hr, Hp⟩
    isplitl [Hp]; · iexact Hp
    isplitr; · iempintro
    iexact Hr
  hexit c := by
    have hjoin := Pipeline.unscopedBufs_of_arrays (p := 11) (pcfgs (F := F)) adm (Ix := Unit) (Name := ℕ) (U := UR sig nD τ) (Lvl := ℕ)
      launch11.win launch11.arr_whole c (pdats m) ((pdats m 11 c).share_full fun _ => rfl)
      (E23 m c) (E24 m c) ((pdats m 11 c).arrAt · cfg11.N) (ends11 m c) (rest11 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Fr

end
-- ==== Proof.KB.Seg12.lean ====
/-
  pallas_call 12 as a segment of the program. It is entered holding every unscoped buffer at the contents before it and
  leaves holding them at the contents after it: its arrays are split out of the unscoped buffers at entry and put back,
  the result at what the write-backs leave, at exit; the generator register goes into the kernel's invariant and comes
  back; nothing is owed and the kernel has no semaphore of its own.
-/
import proofs.«143046_j34703335751794_1_alg».proof.Proof.KB.Chain

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold
-- plain definitions in a metavariable's type
set_option backward.isDefEq.respectTransparency.types false in
def seg12 : Pipeline.RegionSeg (pcfgs (F := F)) adm (pdats m) () defs₀ Variants.none Lz lvz 12 where
  win := launch12.win.to₀
  block_pos := launch12.block_pos
  stage_whole := launch12.stage_whole
  K := PEmpty
  osem k := k.elim
  ho := Pipeline.OwnSemFacts.none _
  hbody c := (obligation12 (E25 m) c).loose
  hwaits := Pipeline.hwaits_of_owed_zero _ _ _ _ Lz lvz 12 fun _ _ => rfl
  pre c := iprop(StableHlo.held (c : Thread nD τ) (Pipeline.ucRefs τ sig) (W25 m c) ∗ Rr c)
  post c := iprop(StableHlo.held (c : Thread nD τ) (Pipeline.ucRefs τ sig) (W26 m c) ∗ Rr c)
  X c := iprop(∃ r, prngReg c r)
  Y c := iprop(∃ r, prngReg c r)
  Z c := Pipeline.unscopedRest (Ix := Unit) (Name := ℕ) (U := UR sig nD τ) (Lvl := ℕ) spec12 c (E25 m c)
  hentry c := by
    rw [Pipeline.ownSems0_none]
    have hsplit := Pipeline.arrays_of_unscopedBufs (p := 12) (pcfgs (F := F)) adm (pdats m) launch12.win launch12.arr_whole c
      ((pdats m 12 c).share_full fun _ => rfl) (E25 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 12 c).Φ 0 = Pipeline.ΦA spec12 c from rfl]; unfold Pipeline.ΦA
    iintro ⟨Hp, -, Hr⟩
    isplitl [Hr]; · iexact Hr
    iexact Hp
  hout c := by
    rw [Pipeline.ownSems0_none, show (pdats m 12 c).Φ (Fin.last _) = Pipeline.ΦA spec12 c from rfl]; unfold Pipeline.ΦA
    iintro ⟨Hr, Hp⟩
    isplitl [Hp]; · iexact Hp
    isplitr; · iempintro
    iexact Hr
  hexit c := by
    have hjoin := Pipeline.unscopedBufs_of_arrays (p := 12) (pcfgs (F := F)) adm (Ix := Unit) (Name := ℕ) (U := UR sig nD τ) (Lvl := ℕ)
      launch12.win launch12.arr_whole c (pdats m) ((pdats m 12 c).share_full fun _ => rfl)
      (E25 m c) (E26 m c) ((pdats m 12 c).arrAt · cfg12.N) (ends12 m c) (rest12 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Fr

end
-- ==== Proof.KB.Frame.lean ====
/-
  The frame of the program: from any memory with zero counters every weakly fair execution terminates, faults nowhere,
  and ends with each argument array as launched. The program's host side is the conditional frame over the segments;
  supplied here are the thirteen pallas_calls' segments, entered and left at the chain of contents, the launch's
  resources (the generator register and the core's dues, none, riding along), and the end owing nothing.
-/
import proofs.«143046_j34703335751794_1_alg».proof.Proof.KB.Seg0
import proofs.«143046_j34703335751794_1_alg».proof.Proof.KB.Seg1
import proofs.«143046_j34703335751794_1_alg».proof.Proof.KB.Seg2
import proofs.«143046_j34703335751794_1_alg».proof.Proof.KB.Seg3
import proofs.«143046_j34703335751794_1_alg».proof.Proof.KB.Seg4
import proofs.«143046_j34703335751794_1_alg».proof.Proof.KB.Seg5
import proofs.«143046_j34703335751794_1_alg».proof.Proof.KB.Seg6
import proofs.«143046_j34703335751794_1_alg».proof.Proof.KB.Seg7
import proofs.«143046_j34703335751794_1_alg».proof.Proof.KB.Seg8
import proofs.«143046_j34703335751794_1_alg».proof.Proof.KB.Seg9
import proofs.«143046_j34703335751794_1_alg».proof.Proof.KB.Seg10
import proofs.«143046_j34703335751794_1_alg».proof.Proof.KB.Seg11
import proofs.«143046_j34703335751794_1_alg».proof.Proof.KB.Seg12

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) :=
  frame_cond m emb₁ () Variants.none Lz lvz (fun _ _ => rfl) ρ (outs m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => Rr c)
    (Pipeline.initEach Lz lvz fun c => by
      iintro ⟨⟨-, HO, -, Hp, -⟩, -⟩
      imodintro
      isplitl [Hp]; · iexists _; iexact Hp
      iexists ∅; iexact HO)
    (fun c => by iintro ⟨-, HO⟩; iexact HO)
    (seg0 m) (fun c => by exact .rfl) (fun c => by rw [chain2]; exact .rfl)
    (seg1 m) (fun c => by rw [chain3]; exact .rfl) (fun c => by rw [chain4]; exact .rfl)
    (seg2 m) (fun c => by rw [chain5]; exact .rfl) (fun c => by rw [chain6]; exact .rfl)
    (seg3 m) (fun c => by rw [chain7]; exact .rfl) (fun c => by rw [chain8]; exact .rfl)
    (seg4 m) (fun c => by rw [chain9]; exact .rfl) (fun c => by rw [chain10]; exact .rfl)
    (seg5 m) (fun c => by rw [chain11]; exact .rfl) (fun c => by rw [chain12]; exact .rfl)
    (seg6 m) (fun c => by rw [chain13]; exact .rfl) (fun c => by rw [chain14]; exact .rfl)
    (seg7 m) (fun c => by rw [chain15]; exact .rfl) (fun c => by rw [chain16]; exact .rfl)
    (seg8 m) (fun c => by rw [chain17]; exact .rfl) (fun c => by rw [chain18]; exact .rfl)
    (seg9 m) (fun c => by rw [chain19]; exact .rfl) (fun c => by rw [chain20]; exact .rfl)
    (seg10 m) (fun c => by rw [chain21]; exact .rfl) (fun c => by rw [chain22]; exact .rfl)
    (seg11 m) (fun c => by rw [chain23]; exact .rfl) (fun c => by rw [chain24]; exact .rfl)
    (seg12 m) (fun c => by rw [chain25]; exact .rfl) (fun c => by rw [chain26]; exact .rfl)

end Cert.Kernel.Fr

end
-- ==== Proof.KI.Region0.lean ====
/-
  Region 0 of the program (the pallas_call of `cc0__fingerprint_kernel`, the softmax fingerprint of the atom features), at any float instance.
  At every grid point the body reads each input block whole and writes the output block whole, so the output's
  staging buffer holds one function of the input blocks (`stored0`); an input block is where the pipeline
  left it whether or not the point fetched it, because the block index of an unfetched window has not moved.
  From these: the proof data of the pipeline (`dat0`) and the body obligation at every point (`obligation0`),
  both relative to the contents `V` the region is entered with.
-/
import proofs.«143046_j34703335751794_1_alg».proof.Proof.Gen.KernelIdeal.Launch
import proofs.«143046_j34703335751794_1_alg».proof.Proof.Gen.KernelIdeal.Skeleton
import proofs.«143046_j34703335751794_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the rectangle of its array (as the region finds it) that the index map
    names at `t`. -/
def blk0 (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

/-- Input window 0's staging buffer holds the window's block at every point, fetched there or not. -/
theorem found0_0_of {c : Dev nD} (dat : Dat τ (Elt F) Unit ℕ (UR sig nD τ) ℕ cfg0 c)
    (hA : dat.A 0 = V c (Pipeline.arrRef spec0 0)) (hafter : ∀ t, dat.after 0 t = blk0 V c 0 t)
    (t : Fin cfg0.N) (d) : dat.before 0 t d = blk0 V c 0 t :=
  (dat.before_in_eq_fetched 0 rfl (fun _ => rfl) (fun _ _ _ => rfl)
      (fun t => by rw [hafter]; unfold Dat.blockOf blk0; rw [hA]; try rfl) t d).trans
    (by unfold Dat.fetched Dat.blockOf blk0; rw [hA]; try rfl)

/-- Input window 1's staging buffer holds the window's block at every point, fetched there or not. -/
theorem found0_1_of {c : Dev nD} (dat : Dat τ (Elt F) Unit ℕ (UR sig nD τ) ℕ cfg0 c)
    (hA : dat.A 1 = V c (Pipeline.arrRef spec0 1)) (hafter : ∀ t, dat.after 1 t = blk0 V c 1 t)
    (t : Fin cfg0.N) (d) : dat.before 1 t d = blk0 V c 1 t :=
  (dat.before_in_eq_fetched 1 rfl (fun _ => rfl) (fun _ _ _ => rfl)
      (fun t => by rw [hafter]; unfold Dat.blockOf blk0; rw [hA]; try rfl) t d).trans
    (by unfold Dat.fetched Dat.blockOf blk0; rw [hA]; try rfl)

/-- Input window 2's staging buffer holds the window's block at every point, fetched there or not. -/
theorem found0_2_of {c : Dev nD} (dat : Dat τ (Elt F) Unit ℕ (UR sig nD τ) ℕ cfg0 c)
    (hA : dat.A 2 = V c (Pipeline.arrRef spec0 2)) (hafter : ∀ t, dat.after 2 t = blk0 V c 2 t)
    (t : Fin cfg0.N) (d) : dat.before 2 t d = blk0 V c 2 t :=
  (dat.before_in_eq_fetched 2 rfl (fun _ => rfl) (fun _ _ _ => rfl)
      (fun t => by rw [hafter]; unfold Dat.blockOf blk0; rw [hA]; try rfl) t d).trans
    (by unfold Dat.fetched Dat.blockOf blk0; rw [hA]; try rfl)

/-- What the body leaves in the output's staging buffer: its one store, of the body's value at the whole input
    blocks, over the whole block. -/
def stored0 (x0 : Vec F S2000x62 .f32) (x1 : Vec F S62x512 .f32) (x2 : Vec F S1x512 .f32) : Vec F S2000x512 .f32 :=
  View.canon [⟨(Rect.unit (s := S2000x512) ![0, 0] S2000x512.size inb_S2000x512_S2000x512_0_0), k0_pay1 (View.ld x0 (Rect.unit (s := S2000x62) ![0, 0] S2000x62.size inb_S2000x62_S2000x62_0_0)) (View.ld x1 (Rect.unit (s := S62x512) ![0, 0] S62x512.size inb_S62x512_S62x512_0_0)) (View.ld x2 (Rect.unit (s := S1x512) ![0, 0] S1x512.size inb_S1x512_S1x512_0_0))⟩]

/-- The store's rectangle is the whole block. -/
theorem whole0 (p : Vec F S2000x512 .f32) (y : S2000x512.Idx) :
    ∃ pc ∈ ([⟨(Rect.unit (s := S2000x512) ![0, 0] S2000x512.size inb_S2000x512_S2000x512_0_0), p⟩] : List (View.Piece (Elt F) S2000x512 .f32)), y ∈ pc.1.set :=
  View.cover_of_tiled [⟨(Rect.unit (s := S2000x512) ![0, 0] S2000x512.size inb_S2000x512_S2000x512_0_0), p⟩] S2000x512.size (by rfl) y

set_option maxHeartbeats 1000000 in
/-- The body, run on whole staging buffers holding `x0 …` (the output's holding anything), ends with the inputs as
    they were and the output's at `stored0` of them. -/
theorem body0 (c : Dev nD) (E : Set ℕ) (i : grid0.Coords) (a0 : Memref sig .tc .vmem S2000x62 .f32) (ha0 : a0.IsWhole) (a1 : Memref sig .tc .vmem S62x512 .f32) (ha1 : a1.IsWhole) (a2 : Memref sig .tc .vmem S1x512 .f32) (ha2 : a2.IsWhole) (a3 : Memref sig .tc .vmem S2000x512 .f32) (ha3 : a3.IsWhole)
    (x0 : Vec F S2000x62 .f32) (x1 : Vec F S62x512 .f32) (x2 : Vec F S1x512 .f32) (Q : PUnit → sProp 𝕄) :
    iprop(owns (c : Thread nD τ) a0 fullShare x0 ∗ owns (c : Thread nD τ) a1 fullShare x1 ∗ owns (c : Thread nD τ) a2 fullShare x2 ∗ (∃ d, owns (c : Thread nD τ) a3 fullShare d)
        ∗ (iprop(owns (c : Thread nD τ) a0 fullShare x0 ∗ owns (c : Thread nD τ) a1 fullShare x1 ∗ owns (c : Thread nD τ) a2 fullShare x2 ∗ owns (c : Thread nD τ) a3 fullShare (stored0 x0 x1 x2)) -∗ Q ⟨⟩))
      ⊢ wp frame (wpE (defs₀ (F := F)) Variants.none c none) E (cc0__fingerprint_kernel i a0 ha0 a1 ha1 a2 ha2 a3 ha3) Q := by
  simp only [cc0__fingerprint_kernel_eq_skeleton]; unfold cc0__fingerprint_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (whole0 _)

/-- The proof data of pipeline 0 on core `c`: the arrays as the region finds them; after the body each input's
    buffer at its block and the output's at `stored0` of the input blocks; the invariant that of a kernel that
    keeps nothing between points; nothing owed. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => stored0 (blk0 V c 0 t) (blk0 V c 1 t) (blk0 V c 2 t)
  Φ _ := Pipeline.ΦA spec0 c
  q _ := fullShare
  owed _ := 0

theorem arr0 (c : Dev nD) (w : Fin cfg0.W) : (dat0 V c).A w = V c (Pipeline.arrRef spec0 w) := by
  dsimp only [dat0]
theorem left0_0 (c : Dev nD) (t : Fin cfg0.N) : (dat0 V c).after 0 t = blk0 V c 0 t := by dsimp only [dat0]
theorem left0_1 (c : Dev nD) (t : Fin cfg0.N) : (dat0 V c).after 1 t = blk0 V c 1 t := by dsimp only [dat0]
theorem left0_2 (c : Dev nD) (t : Fin cfg0.N) : (dat0 V c).after 2 t = blk0 V c 2 t := by dsimp only [dat0]
theorem left0_3 (c : Dev nD) (t : Fin cfg0.N) :
    (dat0 V c).after 3 t = stored0 (blk0 V c 0 t) (blk0 V c 1 t) (blk0 V c 2 t) := by dsimp only [dat0]
theorem found0_0 (c : Dev nD) (t : Fin cfg0.N) (d) : (dat0 V c).before 0 t d = blk0 V c 0 t :=
  found0_0_of V (dat0 V c) (arr0 V c 0) (left0_0 V c) t d
theorem found0_1 (c : Dev nD) (t : Fin cfg0.N) (d) : (dat0 V c).before 1 t d = blk0 V c 1 t :=
  found0_1_of V (dat0 V c) (arr0 V c 1) (left0_1 V c) t d
theorem found0_2 (c : Dev nD) (t : Fin cfg0.N) (d) : (dat0 V c).before 2 t d = blk0 V c 2 t :=
  found0_2_of V (dat0 V c) (arr0 V c 2) (left0_2 V c) t d

/-- What the pipeline hands the body at point `t`, -/
def handed0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what the body gives back. -/
def returned0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so `body0` applies; the invariant and the
    core's dues pass through untouched. -/
theorem at_point0 (c : Dev nD) (t : Fin cfg0.N) :
    handed0 V c t ⊢ wp frame (wpE (defs₀ (F := F)) Variants.none c none) Set.univ (bodyAt0 t) (fun _ => returned0 V c t) := by
  unfold handed0 returned0 bodyAt0
  simp only [found0_0, found0_1, found0_2]
  rw [show (dat0 V c).Φ t.succ = (dat0 V c).Φ t.castSucc from rfl,
    show (dat0 V c).owesAt () t.succ = (dat0 V c).owesAt () t.castSucc from rfl,
    left0_0, left0_1, left0_2, left0_3]
  iintro ⟨HΦ, Ho, ⟨%d0, H0⟩, ⟨%d1, H1⟩, ⟨%d2, H2⟩, ⟨%d3, H3⟩⟩
  iapply (body0 c Set.univ _ _ _ _ _ _ _ _ _ (blk0 V c 0 t) (blk0 V c 1 t) (blk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of pipeline 0, at every point. -/
theorem obligation0 (c : Dev nD) : BodyObligation (dat0 (F := F) V c) (defs₀ (F := F)) Variants.none () Set.univ := fun t => by
  rw [bigSep_W0, bigSep_W0]
  exact at_point0 V c t

end Cert.KernelIdeal.Fr

end
-- ==== Proof.KI.Region1.lean ====
/-
  Region 1 of the program (the pallas_call of `cc1__matmul_bias_kernel`, the degree-1 neighbour product of layer 0), at any float instance.
  At every grid point the body reads each input block whole and writes the output block whole, so the output's
  staging buffer holds one function of the input blocks (`stored1`); an input block is where the pipeline
  left it whether or not the point fetched it, because the block index of an unfetched window has not moved.
  From these: the proof data of the pipeline (`dat1`) and the body obligation at every point (`obligation1`),
  both relative to the contents `V` the region is entered with.
-/
import proofs.«143046_j34703335751794_1_alg».proof.Proof.Gen.KernelIdeal.Launch
import proofs.«143046_j34703335751794_1_alg».proof.Proof.Gen.KernelIdeal.Skeleton
import proofs.«143046_j34703335751794_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the rectangle of its array (as the region finds it) that the index map
    names at `t`. -/
def blk1 (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

/-- Input window 0's staging buffer holds the window's block at every point, fetched there or not. -/
theorem found1_0_of {c : Dev nD} (dat : Dat τ (Elt F) Unit ℕ (UR sig nD τ) ℕ cfg1 c)
    (hA : dat.A 0 = V c (Pipeline.arrRef spec1 0)) (hafter : ∀ t, dat.after 0 t = blk1 V c 0 t)
    (t : Fin cfg1.N) (d) : dat.before 0 t d = blk1 V c 0 t :=
  (dat.before_in_eq_fetched 0 rfl (fun _ => rfl) (fun _ _ _ => rfl)
      (fun t => by rw [hafter]; unfold Dat.blockOf blk1; rw [hA]; try rfl) t d).trans
    (by unfold Dat.fetched Dat.blockOf blk1; rw [hA]; try rfl)

/-- Input window 1's staging buffer holds the window's block at every point, fetched there or not. -/
theorem found1_1_of {c : Dev nD} (dat : Dat τ (Elt F) Unit ℕ (UR sig nD τ) ℕ cfg1 c)
    (hA : dat.A 1 = V c (Pipeline.arrRef spec1 1)) (hafter : ∀ t, dat.after 1 t = blk1 V c 1 t)
    (t : Fin cfg1.N) (d) : dat.before 1 t d = blk1 V c 1 t :=
  (dat.before_in_eq_fetched 1 rfl (fun _ => rfl) (fun _ _ _ => rfl)
      (fun t => by rw [hafter]; unfold Dat.blockOf blk1; rw [hA]; try rfl) t d).trans
    (by unfold Dat.fetched Dat.blockOf blk1; rw [hA]; try rfl)

/-- Input window 2's staging buffer holds the window's block at every point, fetched there or not. -/
theorem found1_2_of {c : Dev nD} (dat : Dat τ (Elt F) Unit ℕ (UR sig nD τ) ℕ cfg1 c)
    (hA : dat.A 2 = V c (Pipeline.arrRef spec1 2)) (hafter : ∀ t, dat.after 2 t = blk1 V c 2 t)
    (t : Fin cfg1.N) (d) : dat.before 2 t d = blk1 V c 2 t :=
  (dat.before_in_eq_fetched 2 rfl (fun _ => rfl) (fun _ _ _ => rfl)
      (fun t => by rw [hafter]; unfold Dat.blockOf blk1; rw [hA]; try rfl) t d).trans
    (by unfold Dat.fetched Dat.blockOf blk1; rw [hA]; try rfl)

/-- What the body leaves in the output's staging buffer: its one store, of the body's value at the whole input
    blocks, over the whole block. -/
def stored1 (x0 : Vec F S2000x68 .f32) (x1 : Vec F S68x100 .f32) (x2 : Vec F S1x100 .f32) : Vec F S2000x100 .f32 :=
  View.canon [⟨(Rect.unit (s := S2000x100) ![0, 0] S2000x100.size inb_S2000x100_S2000x100_0_0), k1_pay1 (View.ld x0 (Rect.unit (s := S2000x68) ![0, 0] S2000x68.size inb_S2000x68_S2000x68_0_0)) (View.ld x1 (Rect.unit (s := S68x100) ![0, 0] S68x100.size inb_S68x100_S68x100_0_0)) (View.ld x2 (Rect.unit (s := S1x100) ![0, 0] S1x100.size inb_S1x100_S1x100_0_0))⟩]

/-- The store's rectangle is the whole block. -/
theorem whole1 (p : Vec F S2000x100 .f32) (y : S2000x100.Idx) :
    ∃ pc ∈ ([⟨(Rect.unit (s := S2000x100) ![0, 0] S2000x100.size inb_S2000x100_S2000x100_0_0), p⟩] : List (View.Piece (Elt F) S2000x100 .f32)), y ∈ pc.1.set :=
  View.cover_of_tiled [⟨(Rect.unit (s := S2000x100) ![0, 0] S2000x100.size inb_S2000x100_S2000x100_0_0), p⟩] S2000x100.size (by rfl) y

set_option maxHeartbeats 1000000 in
/-- The body, run on whole staging buffers holding `x0 …` (the output's holding anything), ends with the inputs as
    they were and the output's at `stored1` of them. -/
theorem body1 (c : Dev nD) (E : Set ℕ) (i : grid1.Coords) (a0 : Memref sig .tc .vmem S2000x68 .f32) (ha0 : a0.IsWhole) (a1 : Memref sig .tc .vmem S68x100 .f32) (ha1 : a1.IsWhole) (a2 : Memref sig .tc .vmem S1x100 .f32) (ha2 : a2.IsWhole) (a3 : Memref sig .tc .vmem S2000x100 .f32) (ha3 : a3.IsWhole)
    (x0 : Vec F S2000x68 .f32) (x1 : Vec F S68x100 .f32) (x2 : Vec F S1x100 .f32) (Q : PUnit → sProp 𝕄) :
    iprop(owns (c : Thread nD τ) a0 fullShare x0 ∗ owns (c : Thread nD τ) a1 fullShare x1 ∗ owns (c : Thread nD τ) a2 fullShare x2 ∗ (∃ d, owns (c : Thread nD τ) a3 fullShare d)
        ∗ (iprop(owns (c : Thread nD τ) a0 fullShare x0 ∗ owns (c : Thread nD τ) a1 fullShare x1 ∗ owns (c : Thread nD τ) a2 fullShare x2 ∗ owns (c : Thread nD τ) a3 fullShare (stored1 x0 x1 x2)) -∗ Q ⟨⟩))
      ⊢ wp frame (wpE (defs₀ (F := F)) Variants.none c none) E (cc1__matmul_bias_kernel i a0 ha0 a1 ha1 a2 ha2 a3 ha3) Q := by
  simp only [cc1__matmul_bias_kernel_eq_skeleton]; unfold cc1__matmul_bias_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (whole1 _)

/-- The proof data of pipeline 1 on core `c`: the arrays as the region finds them; after the body each input's
    buffer at its block and the output's at `stored1` of the input blocks; the invariant that of a kernel that
    keeps nothing between points; nothing owed. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => stored1 (blk1 V c 0 t) (blk1 V c 1 t) (blk1 V c 2 t)
  Φ _ := Pipeline.ΦA spec1 c
  q _ := fullShare
  owed _ := 0

theorem arr1 (c : Dev nD) (w : Fin cfg1.W) : (dat1 V c).A w = V c (Pipeline.arrRef spec1 w) := by
  dsimp only [dat1]
theorem left1_0 (c : Dev nD) (t : Fin cfg1.N) : (dat1 V c).after 0 t = blk1 V c 0 t := by dsimp only [dat1]
theorem left1_1 (c : Dev nD) (t : Fin cfg1.N) : (dat1 V c).after 1 t = blk1 V c 1 t := by dsimp only [dat1]
theorem left1_2 (c : Dev nD) (t : Fin cfg1.N) : (dat1 V c).after 2 t = blk1 V c 2 t := by dsimp only [dat1]
theorem left1_3 (c : Dev nD) (t : Fin cfg1.N) :
    (dat1 V c).after 3 t = stored1 (blk1 V c 0 t) (blk1 V c 1 t) (blk1 V c 2 t) := by dsimp only [dat1]
theorem found1_0 (c : Dev nD) (t : Fin cfg1.N) (d) : (dat1 V c).before 0 t d = blk1 V c 0 t :=
  found1_0_of V (dat1 V c) (arr1 V c 0) (left1_0 V c) t d
theorem found1_1 (c : Dev nD) (t : Fin cfg1.N) (d) : (dat1 V c).before 1 t d = blk1 V c 1 t :=
  found1_1_of V (dat1 V c) (arr1 V c 1) (left1_1 V c) t d
theorem found1_2 (c : Dev nD) (t : Fin cfg1.N) (d) : (dat1 V c).before 2 t d = blk1 V c 2 t :=
  found1_2_of V (dat1 V c) (arr1 V c 2) (left1_2 V c) t d

/-- What the pipeline hands the body at point `t`, -/
def handed1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what the body gives back. -/
def returned1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so `body1` applies; the invariant and the
    core's dues pass through untouched. -/
theorem at_point1 (c : Dev nD) (t : Fin cfg1.N) :
    handed1 V c t ⊢ wp frame (wpE (defs₀ (F := F)) Variants.none c none) Set.univ (bodyAt1 t) (fun _ => returned1 V c t) := by
  unfold handed1 returned1 bodyAt1
  simp only [found1_0, found1_1, found1_2]
  rw [show (dat1 V c).Φ t.succ = (dat1 V c).Φ t.castSucc from rfl,
    show (dat1 V c).owesAt () t.succ = (dat1 V c).owesAt () t.castSucc from rfl,
    left1_0, left1_1, left1_2, left1_3]
  iintro ⟨HΦ, Ho, ⟨%d0, H0⟩, ⟨%d1, H1⟩, ⟨%d2, H2⟩, ⟨%d3, H3⟩⟩
  iapply (body1 c Set.univ _ _ _ _ _ _ _ _ _ (blk1 V c 0 t) (blk1 V c 1 t) (blk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of pipeline 1, at every point. -/
theorem obligation1 (c : Dev nD) : BodyObligation (dat1 (F := F) V c) (defs₀ (F := F)) Variants.none () Set.univ := fun t => by
  rw [bigSep_W1, bigSep_W1]
  exact at_point1 V c t

end Cert.KernelIdeal.Fr

end
-- ==== Proof.KI.Region2.lean ====
/-
  Region 2 of the program (the pallas_call of `cc2__matmul_bias_kernel`, the degree-2 neighbour product of layer 0), at any float instance.
  At every grid point the body reads each input block whole and writes the output block whole, so the output's
  staging buffer holds one function of the input blocks (`stored2`); an input block is where the pipeline
  left it whether or not the point fetched it, because the block index of an unfetched window has not moved.
  From these: the proof data of the pipeline (`dat2`) and the body obligation at every point (`obligation2`),
  both relative to the contents `V` the region is entered with.
-/
import proofs.«143046_j34703335751794_1_alg».proof.Proof.Gen.KernelIdeal.Launch
import proofs.«143046_j34703335751794_1_alg».proof.Proof.Gen.KernelIdeal.Skeleton
import proofs.«143046_j34703335751794_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the rectangle of its array (as the region finds it) that the index map
    names at `t`. -/
def blk2 (c : Dev nD) (w : Fin cfg2.W) (t : Fin cfg2.N) :
    ((cfg2.win w).xblock (cfg2.grid.coords t)).Idx → Elt F (cfg2.win w).elt :=
  ((cfg2.win w).blk t).view.read (Elt F) (V c (Pipeline.arrRef spec2 w))

/-- Input window 0's staging buffer holds the window's block at every point, fetched there or not. -/
theorem found2_0_of {c : Dev nD} (dat : Dat τ (Elt F) Unit ℕ (UR sig nD τ) ℕ cfg2 c)
    (hA : dat.A 0 = V c (Pipeline.arrRef spec2 0)) (hafter : ∀ t, dat.after 0 t = blk2 V c 0 t)
    (t : Fin cfg2.N) (d) : dat.before 0 t d = blk2 V c 0 t :=
  (dat.before_in_eq_fetched 0 rfl (fun _ => rfl) (fun _ _ _ => rfl)
      (fun t => by rw [hafter]; unfold Dat.blockOf blk2; rw [hA]; try rfl) t d).trans
    (by unfold Dat.fetched Dat.blockOf blk2; rw [hA]; try rfl)

/-- Input window 1's staging buffer holds the window's block at every point, fetched there or not. -/
theorem found2_1_of {c : Dev nD} (dat : Dat τ (Elt F) Unit ℕ (UR sig nD τ) ℕ cfg2 c)
    (hA : dat.A 1 = V c (Pipeline.arrRef spec2 1)) (hafter : ∀ t, dat.after 1 t = blk2 V c 1 t)
    (t : Fin cfg2.N) (d) : dat.before 1 t d = blk2 V c 1 t :=
  (dat.before_in_eq_fetched 1 rfl (fun _ => rfl) (fun _ _ _ => rfl)
      (fun t => by rw [hafter]; unfold Dat.blockOf blk2; rw [hA]; try rfl) t d).trans
    (by unfold Dat.fetched Dat.blockOf blk2; rw [hA]; try rfl)

/-- Input window 2's staging buffer holds the window's block at every point, fetched there or not. -/
theorem found2_2_of {c : Dev nD} (dat : Dat τ (Elt F) Unit ℕ (UR sig nD τ) ℕ cfg2 c)
    (hA : dat.A 2 = V c (Pipeline.arrRef spec2 2)) (hafter : ∀ t, dat.after 2 t = blk2 V c 2 t)
    (t : Fin cfg2.N) (d) : dat.before 2 t d = blk2 V c 2 t :=
  (dat.before_in_eq_fetched 2 rfl (fun _ => rfl) (fun _ _ _ => rfl)
      (fun t => by rw [hafter]; unfold Dat.blockOf blk2; rw [hA]; try rfl) t d).trans
    (by unfold Dat.fetched Dat.blockOf blk2; rw [hA]; try rfl)

/-- What the body leaves in the output's staging buffer: its one store, of the body's value at the whole input
    blocks, over the whole block. -/
def stored2 (x0 : Vec F S2000x68 .f32) (x1 : Vec F S68x100 .f32) (x2 : Vec F S1x100 .f32) : Vec F S2000x100 .f32 :=
  View.canon [⟨(Rect.unit (s := S2000x100) ![0, 0] S2000x100.size inb_S2000x100_S2000x100_0_0), k2_pay1 (View.ld x0 (Rect.unit (s := S2000x68) ![0, 0] S2000x68.size inb_S2000x68_S2000x68_0_0)) (View.ld x1 (Rect.unit (s := S68x100) ![0, 0] S68x100.size inb_S68x100_S68x100_0_0)) (View.ld x2 (Rect.unit (s := S1x100) ![0, 0] S1x100.size inb_S1x100_S1x100_0_0))⟩]

/-- The store's rectangle is the whole block. -/
theorem whole2 (p : Vec F S2000x100 .f32) (y : S2000x100.Idx) :
    ∃ pc ∈ ([⟨(Rect.unit (s := S2000x100) ![0, 0] S2000x100.size inb_S2000x100_S2000x100_0_0), p⟩] : List (View.Piece (Elt F) S2000x100 .f32)), y ∈ pc.1.set :=
  View.cover_of_tiled [⟨(Rect.unit (s := S2000x100) ![0, 0] S2000x100.size inb_S2000x100_S2000x100_0_0), p⟩] S2000x100.size (by rfl) y

set_option maxHeartbeats 1000000 in
/-- The body, run on whole staging buffers holding `x0 …` (the output's holding anything), ends with the inputs as
    they were and the output's at `stored2` of them. -/
theorem body2 (c : Dev nD) (E : Set ℕ) (i : grid2.Coords) (a0 : Memref sig .tc .vmem S2000x68 .f32) (ha0 : a0.IsWhole) (a1 : Memref sig .tc .vmem S68x100 .f32) (ha1 : a1.IsWhole) (a2 : Memref sig .tc .vmem S1x100 .f32) (ha2 : a2.IsWhole) (a3 : Memref sig .tc .vmem S2000x100 .f32) (ha3 : a3.IsWhole)
    (x0 : Vec F S2000x68 .f32) (x1 : Vec F S68x100 .f32) (x2 : Vec F S1x100 .f32) (Q : PUnit → sProp 𝕄) :
    iprop(owns (c : Thread nD τ) a0 fullShare x0 ∗ owns (c : Thread nD τ) a1 fullShare x1 ∗ owns (c : Thread nD τ) a2 fullShare x2 ∗ (∃ d, owns (c : Thread nD τ) a3 fullShare d)
        ∗ (iprop(owns (c : Thread nD τ) a0 fullShare x0 ∗ owns (c : Thread nD τ) a1 fullShare x1 ∗ owns (c : Thread nD τ) a2 fullShare x2 ∗ owns (c : Thread nD τ) a3 fullShare (stored2 x0 x1 x2)) -∗ Q ⟨⟩))
      ⊢ wp frame (wpE (defs₀ (F := F)) Variants.none c none) E (cc2__matmul_bias_kernel i a0 ha0 a1 ha1 a2 ha2 a3 ha3) Q := by
  simp only [cc2__matmul_bias_kernel_eq_skeleton]; unfold cc2__matmul_bias_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (whole2 _)

/-- The proof data of pipeline 2 on core `c`: the arrays as the region finds them; after the body each input's
    buffer at its block and the output's at `stored2` of the input blocks; the invariant that of a kernel that
    keeps nothing between points; nothing owed. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => blk2 V c 2 t
    | ⟨3, _⟩ => stored2 (blk2 V c 0 t) (blk2 V c 1 t) (blk2 V c 2 t)
  Φ _ := Pipeline.ΦA spec2 c
  q _ := fullShare
  owed _ := 0

theorem arr2 (c : Dev nD) (w : Fin cfg2.W) : (dat2 V c).A w = V c (Pipeline.arrRef spec2 w) := by
  dsimp only [dat2]
theorem left2_0 (c : Dev nD) (t : Fin cfg2.N) : (dat2 V c).after 0 t = blk2 V c 0 t := by dsimp only [dat2]
theorem left2_1 (c : Dev nD) (t : Fin cfg2.N) : (dat2 V c).after 1 t = blk2 V c 1 t := by dsimp only [dat2]
theorem left2_2 (c : Dev nD) (t : Fin cfg2.N) : (dat2 V c).after 2 t = blk2 V c 2 t := by dsimp only [dat2]
theorem left2_3 (c : Dev nD) (t : Fin cfg2.N) :
    (dat2 V c).after 3 t = stored2 (blk2 V c 0 t) (blk2 V c 1 t) (blk2 V c 2 t) := by dsimp only [dat2]
theorem found2_0 (c : Dev nD) (t : Fin cfg2.N) (d) : (dat2 V c).before 0 t d = blk2 V c 0 t :=
  found2_0_of V (dat2 V c) (arr2 V c 0) (left2_0 V c) t d
theorem found2_1 (c : Dev nD) (t : Fin cfg2.N) (d) : (dat2 V c).before 1 t d = blk2 V c 1 t :=
  found2_1_of V (dat2 V c) (arr2 V c 1) (left2_1 V c) t d
theorem found2_2 (c : Dev nD) (t : Fin cfg2.N) (d) : (dat2 V c).before 2 t d = blk2 V c 2 t :=
  found2_2_of V (dat2 V c) (arr2 V c 2) (left2_2 V c) t d

/-- What the pipeline hands the body at point `t`, -/
def handed2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what the body gives back. -/
def returned2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' buffers hold their blocks, so `body2` applies; the invariant and the
    core's dues pass through untouched. -/
theorem at_point2 (c : Dev nD) (t : Fin cfg2.N) :
    handed2 V c t ⊢ wp frame (wpE (defs₀ (F := F)) Variants.none c none) Set.univ (bodyAt2 t) (fun _ => returned2 V c t) := by
  unfold handed2 returned2 bodyAt2
  simp only [found2_0, found2_1, found2_2]
  rw [show (dat2 V c).Φ t.succ = (dat2 V c).Φ t.castSucc from rfl,
    show (dat2 V c).owesAt () t.succ = (dat2 V c).owesAt () t.castSucc from rfl,
    left2_0, left2_1, left2_2, left2_3]
  iintro ⟨HΦ, Ho, ⟨%d0, H0⟩, ⟨%d1, H1⟩, ⟨%d2, H2⟩, ⟨%d3, H3⟩⟩
  iapply (body2 c Set.univ _ _ _ _ _ _ _ _ _ (blk2 V c 0 t) (blk2 V c 1 t) (blk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of pipeline 2, at every point. -/
theorem obligation2 (c : Dev nD) : BodyObligation (dat2 (F := F) V c) (defs₀ (F := F)) Variants.none () Set.univ := fun t => by
  rw [bigSep_W2, bigSep_W2]
  exact at_point2 V c t

end Cert.KernelIdeal.Fr

end
-- ==== Proof.KI.Region3.lean ====
/-
  Region 3 of the program (the pallas_call of `cc3__matmul_bias_kernel`, the degree-3 neighbour product of layer 0), at any float instance.
  At every grid point the body reads each input block whole and writes the output block whole, so the output's
  staging buffer holds one function of the input blocks (`stored3`); an input block is where the pipeline
  left it whether or not the point fetched it, because the block index of an unfetched window has not moved.
  From these: the proof data of the pipeline (`dat3`) and the body obligation at every point (`obligation3`),
  both relative to the contents `V` the region is entered with.
-/
import proofs.«143046_j34703335751794_1_alg».proof.Proof.Gen.KernelIdeal.Launch
import proofs.«143046_j34703335751794_1_alg».proof.Proof.Gen.KernelIdeal.Skeleton
import proofs.«143046_j34703335751794_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the rectangle of its array (as the region finds it) that the index map
    names at `t`. -/
def blk3 (c : Dev nD) (w : Fin cfg3.W) (t : Fin cfg3.N) :
    ((cfg3.win w).xblock (cfg3.grid.coords t)).Idx → Elt F (cfg3.win w).elt :=
  ((cfg3.win w).blk t).view.read (Elt F) (V c (Pipeline.arrRef spec3 w))

/-- Input window 0's staging buffer holds the window's block at every point, fetched there or not. -/
theorem found3_0_of {c : Dev nD} (dat : Dat τ (Elt F) Unit ℕ (UR sig nD τ) ℕ cfg3 c)
    (hA : dat.A 0 = V c (Pipeline.arrRef spec3 0)) (hafter : ∀ t, dat.after 0 t = blk3 V c 0 t)
    (t : Fin cfg3.N) (d) : dat.before 0 t d = blk3 V c 0 t :=
  (dat.before_in_eq_fetched 0 rfl (fun _ => rfl) (fun _ _ _ => rfl)
      (fun t => by rw [hafter]; unfold Dat.blockOf blk3; rw [hA]; try rfl) t d).trans
    (by unfold Dat.fetched Dat.blockOf blk3; rw [hA]; try rfl)

/-- Input window 1's staging buffer holds the window's block at every point, fetched there or not. -/
theorem found3_1_of {c : Dev nD} (dat : Dat τ (Elt F) Unit ℕ (UR sig nD τ) ℕ cfg3 c)
    (hA : dat.A 1 = V c (Pipeline.arrRef spec3 1)) (hafter : ∀ t, dat.after 1 t = blk3 V c 1 t)
    (t : Fin cfg3.N) (d) : dat.before 1 t d = blk3 V c 1 t :=
  (dat.before_in_eq_fetched 1 rfl (fun _ => rfl) (fun _ _ _ => rfl)
      (fun t => by rw [hafter]; unfold Dat.blockOf blk3; rw [hA]; try rfl) t d).trans
    (by unfold Dat.fetched Dat.blockOf blk3; rw [hA]; try rfl)

/-- Input window 2's staging buffer holds the window's block at every point, fetched there or not. -/
theorem found3_2_of {c : Dev nD} (dat : Dat τ (Elt F) Unit ℕ (UR sig nD τ) ℕ cfg3 c)
    (hA : dat.A 2 = V c (Pipeline.arrRef spec3 2)) (hafter : ∀ t, dat.after 2 t = blk3 V c 2 t)
    (t : Fin cfg3.N) (d) : dat.before 2 t d = blk3 V c 2 t :=
  (dat.before_in_eq_fetched 2 rfl (fun _ => rfl) (fun _ _ _ => rfl)
      (fun t => by rw [hafter]; unfold Dat.blockOf blk3; rw [hA]; try rfl) t d).trans
    (by unfold Dat.fetched Dat.blockOf blk3; rw [hA]; try rfl)

/-- What the body leaves in the output's staging buffer: its one store, of the body's value at the whole input
    blocks, over the whole block. -/
def stored3 (x0 : Vec F S2000x68 .f32) (x1 : Vec F S68x100 .f32) (x2 : Vec F S1x100 .f32) : Vec F S2000x100 .f32 :=
  View.canon [⟨(Rect.unit (s := S2000x100) ![0, 0] S2000x100.size inb_S2000x100_S2000x100_0_0), k3_pay1 (View.ld x0 (Rect.unit (s := S2000x68) ![0, 0] S2000x68.size inb_S2000x68_S2000x68_0_0)) (View.ld x1 (Rect.unit (s := S68x100) ![0, 0] S68x100.size inb_S68x100_S68x100_0_0)) (View.ld x2 (Rect.unit (s := S1x100) ![0, 0] S1x100.size inb_S1x100_S1x100_0_0))⟩]

/-- The store's rectangle is the whole block. -/
theorem whole3 (p : Vec F S2000x100 .f32) (y : S2000x100.Idx) :
    ∃ pc ∈ ([⟨(Rect.unit (s := S2000x100) ![0, 0] S2000x100.size inb_S2000x100_S2000x100_0_0), p⟩] : List (View.Piece (Elt F) S2000x100 .f32)), y ∈ pc.1.set :=
  View.cover_of_tiled [⟨(Rect.unit (s := S2000x100) ![0, 0] S2000x100.size inb_S2000x100_S2000x100_0_0), p⟩] S2000x100.size (by rfl) y

set_option maxHeartbeats 1000000 in
/-- The body, run on whole staging buffers holding `x0 …` (the output's holding anything), ends with the inputs as
    they were and the output's at `stored3` of them. -/
theorem body3 (c : Dev nD) (E : Set ℕ) (i : grid3.Coords) (a0 : Memref sig .tc .vmem S2000x68 .f32) (ha0 : a0.IsWhole) (a1 : Memref sig .tc .vmem S68x100 .f32) (ha1 : a1.IsWhole) (a2 : Memref sig .tc .vmem S1x100 .f32) (ha2 : a2.IsWhole) (a3 : Memref sig .tc .vmem S2000x100 .f32) (ha3 : a3.IsWhole)
    (x0 : Vec F S2000x68 .f32) (x1 : Vec F S68x100 .f32) (x2 : Vec F S1x100 .f32) (Q : PUnit → sProp 𝕄) :
    iprop(owns (c : Thread nD τ) a0 fullShare x0 ∗ owns (c : Thread nD τ) a1 fullShare x1 ∗ owns (c : Thread nD τ) a2 fullShare x2 ∗ (∃ d, owns (c : Thread nD τ) a3 fullShare d)
        ∗ (iprop(owns (c : Thread nD τ) a0 fullShare x0 ∗ owns (c : Thread nD τ) a1 fullShare x1 ∗ owns (c : Thread nD τ) a2 fullShare x2 ∗ owns (c : Thread nD τ) a3 fullShare (stored3 x0 x1 x2)) -∗ Q ⟨⟩))
      ⊢ wp frame (wpE (defs₀ (F := F)) Variants.none c none) E (cc3__matmul_bias_kernel i a0 ha0 a1 ha1 a2 ha2 a3 ha3) Q := by
  simp only [cc3__matmul_bias_kernel_eq_skeleton]; unfold cc3__matmul_bias_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (whole3 _)

/-- The proof data of pipeline 3 on core `c`: the arrays as the region finds them; after the body each input's
    buffer at its block and the output's at `stored3` of the input blocks; the invariant that of a kernel that
    keeps nothing between points; nothing owed. -/
def dat3 (c : Dev nD) : Dat τ (Elt F) Unit ℕ (UR sig nD τ) ℕ cfg3 c where
  A w := V c (Pipeline.arrRef spec3 w)
  after w t := match w with
    | ⟨0, _⟩ => blk3 V c 0 t
    | ⟨1, _⟩ => blk3 V c 1 t
    | ⟨2, _⟩ => blk3 V c 2 t
    | ⟨3, _⟩ => stored3 (blk3 V c 0 t) (blk3 V c 1 t) (blk3 V c 2 t)
  Φ _ := Pipeline.ΦA spec3 c
  q _ := fullShare
  owed _ := 0

theorem arr3 (c : Dev nD) (w : Fin cfg3.W) : (dat3 V c).A w = V c (Pipeline.arrRef spec3 w) := by
  dsimp only [dat3]
theorem left3_0 (c : Dev nD) (t : Fin cfg3.N) : (dat3 V c).after 0 t = blk3 V c 0 t := by dsimp only [dat3]
theorem left3_1 (c : Dev nD) (t : Fin cfg3.N) : (dat3 V c).after 1 t = blk3 V c 1 t := by dsimp only [dat3]
theorem left3_2 (c : Dev nD) (t : Fin cfg3.N) : (dat3 V c).after 2 t = blk3 V c 2 t := by dsimp only [dat3]
theorem left3_3 (c : Dev nD) (t : Fin cfg3.N) :
    (dat3 V c).after 3 t = stored3 (blk3 V c 0 t) (blk3 V c 1 t) (blk3 V c 2 t) := by dsimp only [dat3]
theorem found3_0 (c : Dev nD) (t : Fin cfg3.N) (d) : (dat3 V c).before 0 t d = blk3 V c 0 t :=
  found3_0_of V (dat3 V c) (arr3 V c 0) (left3_0 V c) t d
theorem found3_1 (c : Dev nD) (t : Fin cfg3.N) (d) : (dat3 V c).before 1 t d = blk3 V c 1 t :=
  found3_1_of V (dat3 V c) (arr3 V c 1) (left3_1 V c) t d
theorem found3_2 (c : Dev nD) (t : Fin cfg3.N) (d) : (dat3 V c).before 2 t d = blk3 V c 2 t :=
  found3_2_of V (dat3 V c) (arr3 V c 2) (left3_2 V c) t d

/-- What the pipeline hands the body at point `t`, -/
def handed3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what the body gives back. -/
def returned3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' buffers hold their blocks, so `body3` applies; the invariant and the
    core's dues pass through untouched. -/
theorem at_point3 (c : Dev nD) (t : Fin cfg3.N) :
    handed3 V c t ⊢ wp frame (wpE (defs₀ (F := F)) Variants.none c none) Set.univ (bodyAt3 t) (fun _ => returned3 V c t) := by
  unfold handed3 returned3 bodyAt3
  simp only [found3_0, found3_1, found3_2]
  rw [show (dat3 V c).Φ t.succ = (dat3 V c).Φ t.castSucc from rfl,
    show (dat3 V c).owesAt () t.succ = (dat3 V c).owesAt () t.castSucc from rfl,
    left3_0, left3_1, left3_2, left3_3]
  iintro ⟨HΦ, Ho, ⟨%d0, H0⟩, ⟨%d1, H1⟩, ⟨%d2, H2⟩, ⟨%d3, H3⟩⟩
  iapply (body3 c Set.univ _ _ _ _ _ _ _ _ _ (blk3 V c 0 t) (blk3 V c 1 t) (blk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of pipeline 3, at every point. -/
theorem obligation3 (c : Dev nD) : BodyObligation (dat3 (F := F) V c) (defs₀ (F := F)) Variants.none () Set.univ := fun t => by
  rw [bigSep_W3, bigSep_W3]
  exact at_point3 V c t

end Cert.KernelIdeal.Fr

end
-- ==== Proof.KI.Region4.lean ====
/-
  Region 4 of the program (the pallas_call of `cc4__matmul_bias_kernel`, the degree-4 neighbour product of layer 0), at any float instance.
  At every grid point the body reads each input block whole and writes the output block whole, so the output's
  staging buffer holds one function of the input blocks (`stored4`); an input block is where the pipeline
  left it whether or not the point fetched it, because the block index of an unfetched window has not moved.
  From these: the proof data of the pipeline (`dat4`) and the body obligation at every point (`obligation4`),
  both relative to the contents `V` the region is entered with.
-/
import proofs.«143046_j34703335751794_1_alg».proof.Proof.Gen.KernelIdeal.Launch
import proofs.«143046_j34703335751794_1_alg».proof.Proof.Gen.KernelIdeal.Skeleton
import proofs.«143046_j34703335751794_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the rectangle of its array (as the region finds it) that the index map
    names at `t`. -/
def blk4 (c : Dev nD) (w : Fin cfg4.W) (t : Fin cfg4.N) :
    ((cfg4.win w).xblock (cfg4.grid.coords t)).Idx → Elt F (cfg4.win w).elt :=
  ((cfg4.win w).blk t).view.read (Elt F) (V c (Pipeline.arrRef spec4 w))

/-- Input window 0's staging buffer holds the window's block at every point, fetched there or not. -/
theorem found4_0_of {c : Dev nD} (dat : Dat τ (Elt F) Unit ℕ (UR sig nD τ) ℕ cfg4 c)
    (hA : dat.A 0 = V c (Pipeline.arrRef spec4 0)) (hafter : ∀ t, dat.after 0 t = blk4 V c 0 t)
    (t : Fin cfg4.N) (d) : dat.before 0 t d = blk4 V c 0 t :=
  (dat.before_in_eq_fetched 0 rfl (fun _ => rfl) (fun _ _ _ => rfl)
      (fun t => by rw [hafter]; unfold Dat.blockOf blk4; rw [hA]; try rfl) t d).trans
    (by unfold Dat.fetched Dat.blockOf blk4; rw [hA]; try rfl)

/-- Input window 1's staging buffer holds the window's block at every point, fetched there or not. -/
theorem found4_1_of {c : Dev nD} (dat : Dat τ (Elt F) Unit ℕ (UR sig nD τ) ℕ cfg4 c)
    (hA : dat.A 1 = V c (Pipeline.arrRef spec4 1)) (hafter : ∀ t, dat.after 1 t = blk4 V c 1 t)
    (t : Fin cfg4.N) (d) : dat.before 1 t d = blk4 V c 1 t :=
  (dat.before_in_eq_fetched 1 rfl (fun _ => rfl) (fun _ _ _ => rfl)
      (fun t => by rw [hafter]; unfold Dat.blockOf blk4; rw [hA]; try rfl) t d).trans
    (by unfold Dat.fetched Dat.blockOf blk4; rw [hA]; try rfl)

/-- Input window 2's staging buffer holds the window's block at every point, fetched there or not. -/
theorem found4_2_of {c : Dev nD} (dat : Dat τ (Elt F) Unit ℕ (UR sig nD τ) ℕ cfg4 c)
    (hA : dat.A 2 = V c (Pipeline.arrRef spec4 2)) (hafter : ∀ t, dat.after 2 t = blk4 V c 2 t)
    (t : Fin cfg4.N) (d) : dat.before 2 t d = blk4 V c 2 t :=
  (dat.before_in_eq_fetched 2 rfl (fun _ => rfl) (fun _ _ _ => rfl)
      (fun t => by rw [hafter]; unfold Dat.blockOf blk4; rw [hA]; try rfl) t d).trans
    (by unfold Dat.fetched Dat.blockOf blk4; rw [hA]; try rfl)

/-- What the body leaves in the output's staging buffer: its one store, of the body's value at the whole input
    blocks, over the whole block. -/
def stored4 (x0 : Vec F S2000x68 .f32) (x1 : Vec F S68x100 .f32) (x2 : Vec F S1x100 .f32) : Vec F S2000x100 .f32 :=
  View.canon [⟨(Rect.unit (s := S2000x100) ![0, 0] S2000x100.size inb_S2000x100_S2000x100_0_0), k4_pay1 (View.ld x0 (Rect.unit (s := S2000x68) ![0, 0] S2000x68.size inb_S2000x68_S2000x68_0_0)) (View.ld x1 (Rect.unit (s := S68x100) ![0, 0] S68x100.size inb_S68x100_S68x100_0_0)) (View.ld x2 (Rect.unit (s := S1x100) ![0, 0] S1x100.size inb_S1x100_S1x100_0_0))⟩]

/-- The store's rectangle is the whole block. -/
theorem whole4 (p : Vec F S2000x100 .f32) (y : S2000x100.Idx) :
    ∃ pc ∈ ([⟨(Rect.unit (s := S2000x100) ![0, 0] S2000x100.size inb_S2000x100_S2000x100_0_0), p⟩] : List (View.Piece (Elt F) S2000x100 .f32)), y ∈ pc.1.set :=
  View.cover_of_tiled [⟨(Rect.unit (s := S2000x100) ![0, 0] S2000x100.size inb_S2000x100_S2000x100_0_0), p⟩] S2000x100.size (by rfl) y

set_option maxHeartbeats 1000000 in
/-- The body, run on whole staging buffers holding `x0 …` (the output's holding anything), ends with the inputs as
    they were and the output's at `stored4` of them. -/
theorem body4 (c : Dev nD) (E : Set ℕ) (i : grid4.Coords) (a0 : Memref sig .tc .vmem S2000x68 .f32) (ha0 : a0.IsWhole) (a1 : Memref sig .tc .vmem S68x100 .f32) (ha1 : a1.IsWhole) (a2 : Memref sig .tc .vmem S1x100 .f32) (ha2 : a2.IsWhole) (a3 : Memref sig .tc .vmem S2000x100 .f32) (ha3 : a3.IsWhole)
    (x0 : Vec F S2000x68 .f32) (x1 : Vec F S68x100 .f32) (x2 : Vec F S1x100 .f32) (Q : PUnit → sProp 𝕄) :
    iprop(owns (c : Thread nD τ) a0 fullShare x0 ∗ owns (c : Thread nD τ) a1 fullShare x1 ∗ owns (c : Thread nD τ) a2 fullShare x2 ∗ (∃ d, owns (c : Thread nD τ) a3 fullShare d)
        ∗ (iprop(owns (c : Thread nD τ) a0 fullShare x0 ∗ owns (c : Thread nD τ) a1 fullShare x1 ∗ owns (c : Thread nD τ) a2 fullShare x2 ∗ owns (c : Thread nD τ) a3 fullShare (stored4 x0 x1 x2)) -∗ Q ⟨⟩))
      ⊢ wp frame (wpE (defs₀ (F := F)) Variants.none c none) E (cc4__matmul_bias_kernel i a0 ha0 a1 ha1 a2 ha2 a3 ha3) Q := by
  simp only [cc4__matmul_bias_kernel_eq_skeleton]; unfold cc4__matmul_bias_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (whole4 _)

/-- The proof data of pipeline 4 on core `c`: the arrays as the region finds them; after the body each input's
    buffer at its block and the output's at `stored4` of the input blocks; the invariant that of a kernel that
    keeps nothing between points; nothing owed. -/
def dat4 (c : Dev nD) : Dat τ (Elt F) Unit ℕ (UR sig nD τ) ℕ cfg4 c where
  A w := V c (Pipeline.arrRef spec4 w)
  after w t := match w with
    | ⟨0, _⟩ => blk4 V c 0 t
    | ⟨1, _⟩ => blk4 V c 1 t
    | ⟨2, _⟩ => blk4 V c 2 t
    | ⟨3, _⟩ => stored4 (blk4 V c 0 t) (blk4 V c 1 t) (blk4 V c 2 t)
  Φ _ := Pipeline.ΦA spec4 c
  q _ := fullShare
  owed _ := 0

theorem arr4 (c : Dev nD) (w : Fin cfg4.W) : (dat4 V c).A w = V c (Pipeline.arrRef spec4 w) := by
  dsimp only [dat4]
theorem left4_0 (c : Dev nD) (t : Fin cfg4.N) : (dat4 V c).after 0 t = blk4 V c 0 t := by dsimp only [dat4]
theorem left4_1 (c : Dev nD) (t : Fin cfg4.N) : (dat4 V c).after 1 t = blk4 V c 1 t := by dsimp only [dat4]
theorem left4_2 (c : Dev nD) (t : Fin cfg4.N) : (dat4 V c).after 2 t = blk4 V c 2 t := by dsimp only [dat4]
theorem left4_3 (c : Dev nD) (t : Fin cfg4.N) :
    (dat4 V c).after 3 t = stored4 (blk4 V c 0 t) (blk4 V c 1 t) (blk4 V c 2 t) := by dsimp only [dat4]
theorem found4_0 (c : Dev nD) (t : Fin cfg4.N) (d) : (dat4 V c).before 0 t d = blk4 V c 0 t :=
  found4_0_of V (dat4 V c) (arr4 V c 0) (left4_0 V c) t d
theorem found4_1 (c : Dev nD) (t : Fin cfg4.N) (d) : (dat4 V c).before 1 t d = blk4 V c 1 t :=
  found4_1_of V (dat4 V c) (arr4 V c 1) (left4_1 V c) t d
theorem found4_2 (c : Dev nD) (t : Fin cfg4.N) (d) : (dat4 V c).before 2 t d = blk4 V c 2 t :=
  found4_2_of V (dat4 V c) (arr4 V c 2) (left4_2 V c) t d

/-- What the pipeline hands the body at point `t`, -/
def handed4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what the body gives back. -/
def returned4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

/-- The body at any point: the inputs' buffers hold their blocks, so `body4` applies; the invariant and the
    core's dues pass through untouched. -/
theorem at_point4 (c : Dev nD) (t : Fin cfg4.N) :
    handed4 V c t ⊢ wp frame (wpE (defs₀ (F := F)) Variants.none c none) Set.univ (bodyAt4 t) (fun _ => returned4 V c t) := by
  unfold handed4 returned4 bodyAt4
  simp only [found4_0, found4_1, found4_2]
  rw [show (dat4 V c).Φ t.succ = (dat4 V c).Φ t.castSucc from rfl,
    show (dat4 V c).owesAt () t.succ = (dat4 V c).owesAt () t.castSucc from rfl,
    left4_0, left4_1, left4_2, left4_3]
  iintro ⟨HΦ, Ho, ⟨%d0, H0⟩, ⟨%d1, H1⟩, ⟨%d2, H2⟩, ⟨%d3, H3⟩⟩
  iapply (body4 c Set.univ _ _ _ _ _ _ _ _ _ (blk4 V c 0 t) (blk4 V c 1 t) (blk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of pipeline 4, at every point. -/
theorem obligation4 (c : Dev nD) : BodyObligation (dat4 (F := F) V c) (defs₀ (F := F)) Variants.none () Set.univ := fun t => by
  rw [bigSep_W4, bigSep_W4]
  exact at_point4 V c t

end Cert.KernelIdeal.Fr

end
-- ==== Proof.KI.Region5.lean ====
/-
  Region 5 of the program (the pallas_call of `cc5__conv_finish_kernel`, the normalised, rectified layer 0), at any float instance.
  At every grid point the body reads each input block whole and writes the output block whole, so the output's
  staging buffer holds one function of the input blocks (`stored5`); an input block is where the pipeline
  left it whether or not the point fetched it, because the block index of an unfetched window has not moved.
  From these: the proof data of the pipeline (`dat5`) and the body obligation at every point (`obligation5`),
  both relative to the contents `V` the region is entered with.
-/
import proofs.«143046_j34703335751794_1_alg».proof.Proof.Gen.KernelIdeal.Launch
import proofs.«143046_j34703335751794_1_alg».proof.Proof.Gen.KernelIdeal.Skeleton
import proofs.«143046_j34703335751794_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the rectangle of its array (as the region finds it) that the index map
    names at `t`. -/
def blk5 (c : Dev nD) (w : Fin cfg5.W) (t : Fin cfg5.N) :
    ((cfg5.win w).xblock (cfg5.grid.coords t)).Idx → Elt F (cfg5.win w).elt :=
  ((cfg5.win w).blk t).view.read (Elt F) (V c (Pipeline.arrRef spec5 w))

/-- Input window 0's staging buffer holds the window's block at every point, fetched there or not. -/
theorem found5_0_of {c : Dev nD} (dat : Dat τ (Elt F) Unit ℕ (UR sig nD τ) ℕ cfg5 c)
    (hA : dat.A 0 = V c (Pipeline.arrRef spec5 0)) (hafter : ∀ t, dat.after 0 t = blk5 V c 0 t)
    (t : Fin cfg5.N) (d) : dat.before 0 t d = blk5 V c 0 t :=
  (dat.before_in_eq_fetched 0 rfl (fun _ => rfl) (fun _ _ _ => rfl)
      (fun t => by rw [hafter]; unfold Dat.blockOf blk5; rw [hA]; try rfl) t d).trans
    (by unfold Dat.fetched Dat.blockOf blk5; rw [hA]; try rfl)

/-- Input window 1's staging buffer holds the window's block at every point, fetched there or not. -/
theorem found5_1_of {c : Dev nD} (dat : Dat τ (Elt F) Unit ℕ (UR sig nD τ) ℕ cfg5 c)
    (hA : dat.A 1 = V c (Pipeline.arrRef spec5 1)) (hafter : ∀ t, dat.after 1 t = blk5 V c 1 t)
    (t : Fin cfg5.N) (d) : dat.before 1 t d = blk5 V c 1 t :=
  (dat.before_in_eq_fetched 1 rfl (fun _ => rfl) (fun _ _ _ => rfl)
      (fun t => by rw [hafter]; unfold Dat.blockOf blk5; rw [hA]; try rfl) t d).trans
    (by unfold Dat.fetched Dat.blockOf blk5; rw [hA]; try rfl)

/-- Input window 2's staging buffer holds the window's block at every point, fetched there or not. -/
theorem found5_2_of {c : Dev nD} (dat : Dat τ (Elt F) Unit ℕ (UR sig nD τ) ℕ cfg5 c)
    (hA : dat.A 2 = V c (Pipeline.arrRef spec5 2)) (hafter : ∀ t, dat.after 2 t = blk5 V c 2 t)
    (t : Fin cfg5.N) (d) : dat.before 2 t d = blk5 V c 2 t :=
  (dat.before_in_eq_fetched 2 rfl (fun _ => rfl) (fun _ _ _ => rfl)
      (fun t => by rw [hafter]; unfold Dat.blockOf blk5; rw [hA]; try rfl) t d).trans
    (by unfold Dat.fetched Dat.blockOf blk5; rw [hA]; try rfl)

/-- Input window 3's staging buffer holds the window's block at every point, fetched there or not. -/
theorem found5_3_of {c : Dev nD} (dat : Dat τ (Elt F) Unit ℕ (UR sig nD τ) ℕ cfg5 c)
    (hA : dat.A 3 = V c (Pipeline.arrRef spec5 3)) (hafter : ∀ t, dat.after 3 t = blk5 V c 3 t)
    (t : Fin cfg5.N) (d) : dat.before 3 t d = blk5 V c 3 t :=
  (dat.before_in_eq_fetched 3 rfl (fun _ => rfl) (fun _ _ _ => rfl)
      (fun t => by rw [hafter]; unfold Dat.blockOf blk5; rw [hA]; try rfl) t d).trans
    (by unfold Dat.fetched Dat.blockOf blk5; rw [hA]; try rfl)

/-- What the body leaves in the output's staging buffer: its one store, of the body's value at the whole input
    blocks, over the whole block. -/
def stored5 (x0 : Vec F S2000x62 .f32) (x1 : Vec F S62x100 .f32) (x2 : Vec F S1x100 .f32) (x3 : Vec F S2000x100 .f32) : Vec F S2000x100 .f32 :=
  View.canon [⟨(Rect.unit (s := S2000x100) ![0, 0] S2000x100.size inb_S2000x100_S2000x100_0_0), k5_pay1 (View.ld x0 (Rect.unit (s := S2000x62) ![0, 0] S2000x62.size inb_S2000x62_S2000x62_0_0)) (View.ld x1 (Rect.unit (s := S62x100) ![0, 0] S62x100.size inb_S62x100_S62x100_0_0)) (View.ld x2 (Rect.unit (s := S1x100) ![0, 0] S1x100.size inb_S1x100_S1x100_0_0)) (View.ld x3 (Rect.unit (s := S2000x100) ![0, 0] S2000x100.size inb_S2000x100_S2000x100_0_0))⟩]

/-- The store's rectangle is the whole block. -/
theorem whole5 (p : Vec F S2000x100 .f32) (y : S2000x100.Idx) :
    ∃ pc ∈ ([⟨(Rect.unit (s := S2000x100) ![0, 0] S2000x100.size inb_S2000x100_S2000x100_0_0), p⟩] : List (View.Piece (Elt F) S2000x100 .f32)), y ∈ pc.1.set :=
  View.cover_of_tiled [⟨(Rect.unit (s := S2000x100) ![0, 0] S2000x100.size inb_S2000x100_S2000x100_0_0), p⟩] S2000x100.size (by rfl) y

set_option maxHeartbeats 1000000 in
/-- The body, run on whole staging buffers holding `x0 …` (the output's holding anything), ends with the inputs as
    they were and the output's at `stored5` of them. -/
theorem body5 (c : Dev nD) (E : Set ℕ) (i : grid5.Coords) (a0 : Memref sig .tc .vmem S2000x62 .f32) (ha0 : a0.IsWhole) (a1 : Memref sig .tc .vmem S62x100 .f32) (ha1 : a1.IsWhole) (a2 : Memref sig .tc .vmem S1x100 .f32) (ha2 : a2.IsWhole) (a3 : Memref sig .tc .vmem S2000x100 .f32) (ha3 : a3.IsWhole) (a4 : Memref sig .tc .vmem S2000x100 .f32) (ha4 : a4.IsWhole)
    (x0 : Vec F S2000x62 .f32) (x1 : Vec F S62x100 .f32) (x2 : Vec F S1x100 .f32) (x3 : Vec F S2000x100 .f32) (Q : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ (∃ d, owns (c : Thread nD τ) a4 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare (stored5 x0 x1 x2 x3)) -∗ Q ⟨⟩))
      ⊢ wp frame (wpE (defs₀ (F := F)) Variants.none c none) E (cc5__conv_finish_kernel i a0 ha0 a1 ha1 a2 ha2 a3 ha3 a4 ha4) Q := by
  simp only [cc5__conv_finish_kernel_eq_skeleton]; unfold cc5__conv_finish_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (whole5 _)

/-- The proof data of pipeline 5 on core `c`: the arrays as the region finds them; after the body each input's
    buffer at its block and the output's at `stored5` of the input blocks; the invariant that of a kernel that
    keeps nothing between points; nothing owed. -/
def dat5 (c : Dev nD) : Dat τ (Elt F) Unit ℕ (UR sig nD τ) ℕ cfg5 c where
  A w := V c (Pipeline.arrRef spec5 w)
  after w t := match w with
    | ⟨0, _⟩ => blk5 V c 0 t
    | ⟨1, _⟩ => blk5 V c 1 t
    | ⟨2, _⟩ => blk5 V c 2 t
    | ⟨3, _⟩ => blk5 V c 3 t
    | ⟨4, _⟩ => stored5 (blk5 V c 0 t) (blk5 V c 1 t) (blk5 V c 2 t) (blk5 V c 3 t)
  Φ _ := Pipeline.ΦA spec5 c
  q _ := fullShare
  owed _ := 0

theorem arr5 (c : Dev nD) (w : Fin cfg5.W) : (dat5 V c).A w = V c (Pipeline.arrRef spec5 w) := by
  dsimp only [dat5]
theorem left5_0 (c : Dev nD) (t : Fin cfg5.N) : (dat5 V c).after 0 t = blk5 V c 0 t := by dsimp only [dat5]
theorem left5_1 (c : Dev nD) (t : Fin cfg5.N) : (dat5 V c).after 1 t = blk5 V c 1 t := by dsimp only [dat5]
theorem left5_2 (c : Dev nD) (t : Fin cfg5.N) : (dat5 V c).after 2 t = blk5 V c 2 t := by dsimp only [dat5]
theorem left5_3 (c : Dev nD) (t : Fin cfg5.N) : (dat5 V c).after 3 t = blk5 V c 3 t := by dsimp only [dat5]
theorem left5_4 (c : Dev nD) (t : Fin cfg5.N) :
    (dat5 V c).after 4 t = stored5 (blk5 V c 0 t) (blk5 V c 1 t) (blk5 V c 2 t) (blk5 V c 3 t) := by dsimp only [dat5]
theorem found5_0 (c : Dev nD) (t : Fin cfg5.N) (d) : (dat5 V c).before 0 t d = blk5 V c 0 t :=
  found5_0_of V (dat5 V c) (arr5 V c 0) (left5_0 V c) t d
theorem found5_1 (c : Dev nD) (t : Fin cfg5.N) (d) : (dat5 V c).before 1 t d = blk5 V c 1 t :=
  found5_1_of V (dat5 V c) (arr5 V c 1) (left5_1 V c) t d
theorem found5_2 (c : Dev nD) (t : Fin cfg5.N) (d) : (dat5 V c).before 2 t d = blk5 V c 2 t :=
  found5_2_of V (dat5 V c) (arr5 V c 2) (left5_2 V c) t d
theorem found5_3 (c : Dev nD) (t : Fin cfg5.N) (d) : (dat5 V c).before 3 t d = blk5 V c 3 t :=
  found5_3_of V (dat5 V c) (arr5 V c 3) (left5_3 V c) t d

/-- What the pipeline hands the body at point `t`, -/
def handed5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d)))

/-- and what the body gives back. -/
def returned5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t))

/-- The body at any point: the inputs' buffers hold their blocks, so `body5` applies; the invariant and the
    core's dues pass through untouched. -/
theorem at_point5 (c : Dev nD) (t : Fin cfg5.N) :
    handed5 V c t ⊢ wp frame (wpE (defs₀ (F := F)) Variants.none c none) Set.univ (bodyAt5 t) (fun _ => returned5 V c t) := by
  unfold handed5 returned5 bodyAt5
  simp only [found5_0, found5_1, found5_2, found5_3]
  rw [show (dat5 V c).Φ t.succ = (dat5 V c).Φ t.castSucc from rfl,
    show (dat5 V c).owesAt () t.succ = (dat5 V c).owesAt () t.castSucc from rfl,
    left5_0, left5_1, left5_2, left5_3, left5_4]
  iintro ⟨HΦ, Ho, ⟨%d0, H0⟩, ⟨%d1, H1⟩, ⟨%d2, H2⟩, ⟨%d3, H3⟩, ⟨%d4, H4⟩⟩
  iapply (body5 c Set.univ _ _ _ _ _ _ _ _ _ _ _ (blk5 V c 0 t) (blk5 V c 1 t) (blk5 V c 2 t) (blk5 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of pipeline 5, at every point. -/
theorem obligation5 (c : Dev nD) : BodyObligation (dat5 (F := F) V c) (defs₀ (F := F)) Variants.none () Set.univ := fun t => by
  rw [bigSep_W5, bigSep_W5]
  exact at_point5 V c t

end Cert.KernelIdeal.Fr

end
-- ==== Proof.KI.Region6.lean ====
/-
  Region 6 of the program (the pallas_call of `cc6__fingerprint_kernel`, the softmax fingerprint of layer 0's features), at any float instance.
  At every grid point the body reads each input block whole and writes the output block whole, so the output's
  staging buffer holds one function of the input blocks (`stored6`); an input block is where the pipeline
  left it whether or not the point fetched it, because the block index of an unfetched window has not moved.
  From these: the proof data of the pipeline (`dat6`) and the body obligation at every point (`obligation6`),
  both relative to the contents `V` the region is entered with.
-/
import proofs.«143046_j34703335751794_1_alg».proof.Proof.Gen.KernelIdeal.Launch
import proofs.«143046_j34703335751794_1_alg».proof.Proof.Gen.KernelIdeal.Skeleton
import proofs.«143046_j34703335751794_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the rectangle of its array (as the region finds it) that the index map
    names at `t`. -/
def blk6 (c : Dev nD) (w : Fin cfg6.W) (t : Fin cfg6.N) :
    ((cfg6.win w).xblock (cfg6.grid.coords t)).Idx → Elt F (cfg6.win w).elt :=
  ((cfg6.win w).blk t).view.read (Elt F) (V c (Pipeline.arrRef spec6 w))

/-- Input window 0's staging buffer holds the window's block at every point, fetched there or not. -/
theorem found6_0_of {c : Dev nD} (dat : Dat τ (Elt F) Unit ℕ (UR sig nD τ) ℕ cfg6 c)
    (hA : dat.A 0 = V c (Pipeline.arrRef spec6 0)) (hafter : ∀ t, dat.after 0 t = blk6 V c 0 t)
    (t : Fin cfg6.N) (d) : dat.before 0 t d = blk6 V c 0 t :=
  (dat.before_in_eq_fetched 0 rfl (fun _ => rfl) (fun _ _ _ => rfl)
      (fun t => by rw [hafter]; unfold Dat.blockOf blk6; rw [hA]; try rfl) t d).trans
    (by unfold Dat.fetched Dat.blockOf blk6; rw [hA]; try rfl)

/-- Input window 1's staging buffer holds the window's block at every point, fetched there or not. -/
theorem found6_1_of {c : Dev nD} (dat : Dat τ (Elt F) Unit ℕ (UR sig nD τ) ℕ cfg6 c)
    (hA : dat.A 1 = V c (Pipeline.arrRef spec6 1)) (hafter : ∀ t, dat.after 1 t = blk6 V c 1 t)
    (t : Fin cfg6.N) (d) : dat.before 1 t d = blk6 V c 1 t :=
  (dat.before_in_eq_fetched 1 rfl (fun _ => rfl) (fun _ _ _ => rfl)
      (fun t => by rw [hafter]; unfold Dat.blockOf blk6; rw [hA]; try rfl) t d).trans
    (by unfold Dat.fetched Dat.blockOf blk6; rw [hA]; try rfl)

/-- Input window 2's staging buffer holds the window's block at every point, fetched there or not. -/
theorem found6_2_of {c : Dev nD} (dat : Dat τ (Elt F) Unit ℕ (UR sig nD τ) ℕ cfg6 c)
    (hA : dat.A 2 = V c (Pipeline.arrRef spec6 2)) (hafter : ∀ t, dat.after 2 t = blk6 V c 2 t)
    (t : Fin cfg6.N) (d) : dat.before 2 t d = blk6 V c 2 t :=
  (dat.before_in_eq_fetched 2 rfl (fun _ => rfl) (fun _ _ _ => rfl)
      (fun t => by rw [hafter]; unfold Dat.blockOf blk6; rw [hA]; try rfl) t d).trans
    (by unfold Dat.fetched Dat.blockOf blk6; rw [hA]; try rfl)

/-- What the body leaves in the output's staging buffer: its one store, of the body's value at the whole input
    blocks, over the whole block. -/
def stored6 (x0 : Vec F S2000x100 .f32) (x1 : Vec F S100x512 .f32) (x2 : Vec F S1x512 .f32) : Vec F S2000x512 .f32 :=
  View.canon [⟨(Rect.unit (s := S2000x512) ![0, 0] S2000x512.size inb_S2000x512_S2000x512_0_0), k6_pay1 (View.ld x0 (Rect.unit (s := S2000x100) ![0, 0] S2000x100.size inb_S2000x100_S2000x100_0_0)) (View.ld x1 (Rect.unit (s := S100x512) ![0, 0] S100x512.size inb_S100x512_S100x512_0_0)) (View.ld x2 (Rect.unit (s := S1x512) ![0, 0] S1x512.size inb_S1x512_S1x512_0_0))⟩]

/-- The store's rectangle is the whole block. -/
theorem whole6 (p : Vec F S2000x512 .f32) (y : S2000x512.Idx) :
    ∃ pc ∈ ([⟨(Rect.unit (s := S2000x512) ![0, 0] S2000x512.size inb_S2000x512_S2000x512_0_0), p⟩] : List (View.Piece (Elt F) S2000x512 .f32)), y ∈ pc.1.set :=
  View.cover_of_tiled [⟨(Rect.unit (s := S2000x512) ![0, 0] S2000x512.size inb_S2000x512_S2000x512_0_0), p⟩] S2000x512.size (by rfl) y

set_option maxHeartbeats 1000000 in
/-- The body, run on whole staging buffers holding `x0 …` (the output's holding anything), ends with the inputs as
    they were and the output's at `stored6` of them. -/
theorem body6 (c : Dev nD) (E : Set ℕ) (i : grid6.Coords) (a0 : Memref sig .tc .vmem S2000x100 .f32) (ha0 : a0.IsWhole) (a1 : Memref sig .tc .vmem S100x512 .f32) (ha1 : a1.IsWhole) (a2 : Memref sig .tc .vmem S1x512 .f32) (ha2 : a2.IsWhole) (a3 : Memref sig .tc .vmem S2000x512 .f32) (ha3 : a3.IsWhole)
    (x0 : Vec F S2000x100 .f32) (x1 : Vec F S100x512 .f32) (x2 : Vec F S1x512 .f32) (Q : PUnit → sProp 𝕄) :
    iprop(owns (c : Thread nD τ) a0 fullShare x0 ∗ owns (c : Thread nD τ) a1 fullShare x1 ∗ owns (c : Thread nD τ) a2 fullShare x2 ∗ (∃ d, owns (c : Thread nD τ) a3 fullShare d)
        ∗ (iprop(owns (c : Thread nD τ) a0 fullShare x0 ∗ owns (c : Thread nD τ) a1 fullShare x1 ∗ owns (c : Thread nD τ) a2 fullShare x2 ∗ owns (c : Thread nD τ) a3 fullShare (stored6 x0 x1 x2)) -∗ Q ⟨⟩))
      ⊢ wp frame (wpE (defs₀ (F := F)) Variants.none c none) E (cc6__fingerprint_kernel i a0 ha0 a1 ha1 a2 ha2 a3 ha3) Q := by
  simp only [cc6__fingerprint_kernel_eq_skeleton]; unfold cc6__fingerprint_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (whole6 _)

/-- The proof data of pipeline 6 on core `c`: the arrays as the region finds them; after the body each input's
    buffer at its block and the output's at `stored6` of the input blocks; the invariant that of a kernel that
    keeps nothing between points; nothing owed. -/
def dat6 (c : Dev nD) : Dat τ (Elt F) Unit ℕ (UR sig nD τ) ℕ cfg6 c where
  A w := V c (Pipeline.arrRef spec6 w)
  after w t := match w with
    | ⟨0, _⟩ => blk6 V c 0 t
    | ⟨1, _⟩ => blk6 V c 1 t
    | ⟨2, _⟩ => blk6 V c 2 t
    | ⟨3, _⟩ => stored6 (blk6 V c 0 t) (blk6 V c 1 t) (blk6 V c 2 t)
  Φ _ := Pipeline.ΦA spec6 c
  q _ := fullShare
  owed _ := 0

theorem arr6 (c : Dev nD) (w : Fin cfg6.W) : (dat6 V c).A w = V c (Pipeline.arrRef spec6 w) := by
  dsimp only [dat6]
theorem left6_0 (c : Dev nD) (t : Fin cfg6.N) : (dat6 V c).after 0 t = blk6 V c 0 t := by dsimp only [dat6]
theorem left6_1 (c : Dev nD) (t : Fin cfg6.N) : (dat6 V c).after 1 t = blk6 V c 1 t := by dsimp only [dat6]
theorem left6_2 (c : Dev nD) (t : Fin cfg6.N) : (dat6 V c).after 2 t = blk6 V c 2 t := by dsimp only [dat6]
theorem left6_3 (c : Dev nD) (t : Fin cfg6.N) :
    (dat6 V c).after 3 t = stored6 (blk6 V c 0 t) (blk6 V c 1 t) (blk6 V c 2 t) := by dsimp only [dat6]
theorem found6_0 (c : Dev nD) (t : Fin cfg6.N) (d) : (dat6 V c).before 0 t d = blk6 V c 0 t :=
  found6_0_of V (dat6 V c) (arr6 V c 0) (left6_0 V c) t d
theorem found6_1 (c : Dev nD) (t : Fin cfg6.N) (d) : (dat6 V c).before 1 t d = blk6 V c 1 t :=
  found6_1_of V (dat6 V c) (arr6 V c 1) (left6_1 V c) t d
theorem found6_2 (c : Dev nD) (t : Fin cfg6.N) (d) : (dat6 V c).before 2 t d = blk6 V c 2 t :=
  found6_2_of V (dat6 V c) (arr6 V c 2) (left6_2 V c) t d

/-- What the pipeline hands the body at point `t`, -/
def handed6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d)))

/-- and what the body gives back. -/
def returned6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t))

/-- The body at any point: the inputs' buffers hold their blocks, so `body6` applies; the invariant and the
    core's dues pass through untouched. -/
theorem at_point6 (c : Dev nD) (t : Fin cfg6.N) :
    handed6 V c t ⊢ wp frame (wpE (defs₀ (F := F)) Variants.none c none) Set.univ (bodyAt6 t) (fun _ => returned6 V c t) := by
  unfold handed6 returned6 bodyAt6
  simp only [found6_0, found6_1, found6_2]
  rw [show (dat6 V c).Φ t.succ = (dat6 V c).Φ t.castSucc from rfl,
    show (dat6 V c).owesAt () t.succ = (dat6 V c).owesAt () t.castSucc from rfl,
    left6_0, left6_1, left6_2, left6_3]
  iintro ⟨HΦ, Ho, ⟨%d0, H0⟩, ⟨%d1, H1⟩, ⟨%d2, H2⟩, ⟨%d3, H3⟩⟩
  iapply (body6 c Set.univ _ _ _ _ _ _ _ _ _ (blk6 V c 0 t) (blk6 V c 1 t) (blk6 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of pipeline 6, at every point. -/
theorem obligation6 (c : Dev nD) : BodyObligation (dat6 (F := F) V c) (defs₀ (F := F)) Variants.none () Set.univ := fun t => by
  rw [bigSep_W6, bigSep_W6]
  exact at_point6 V c t

end Cert.KernelIdeal.Fr

end
-- ==== Proof.KI.Region7.lean ====
/-
  Region 7 of the program (the pallas_call of `cc7__matmul_bias_kernel`, the degree-1 neighbour product of layer 1), at any float instance.
  At every grid point the body reads each input block whole and writes the output block whole, so the output's
  staging buffer holds one function of the input blocks (`stored7`); an input block is where the pipeline
  left it whether or not the point fetched it, because the block index of an unfetched window has not moved.
  From these: the proof data of the pipeline (`dat7`) and the body obligation at every point (`obligation7`),
  both relative to the contents `V` the region is entered with.
-/
import proofs.«143046_j34703335751794_1_alg».proof.Proof.Gen.KernelIdeal.Launch
import proofs.«143046_j34703335751794_1_alg».proof.Proof.Gen.KernelIdeal.Skeleton
import proofs.«143046_j34703335751794_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the rectangle of its array (as the region finds it) that the index map
    names at `t`. -/
def blk7 (c : Dev nD) (w : Fin cfg7.W) (t : Fin cfg7.N) :
    ((cfg7.win w).xblock (cfg7.grid.coords t)).Idx → Elt F (cfg7.win w).elt :=
  ((cfg7.win w).blk t).view.read (Elt F) (V c (Pipeline.arrRef spec7 w))

/-- Input window 0's staging buffer holds the window's block at every point, fetched there or not. -/
theorem found7_0_of {c : Dev nD} (dat : Dat τ (Elt F) Unit ℕ (UR sig nD τ) ℕ cfg7 c)
    (hA : dat.A 0 = V c (Pipeline.arrRef spec7 0)) (hafter : ∀ t, dat.after 0 t = blk7 V c 0 t)
    (t : Fin cfg7.N) (d) : dat.before 0 t d = blk7 V c 0 t :=
  (dat.before_in_eq_fetched 0 rfl (fun _ => rfl) (fun _ _ _ => rfl)
      (fun t => by rw [hafter]; unfold Dat.blockOf blk7; rw [hA]; try rfl) t d).trans
    (by unfold Dat.fetched Dat.blockOf blk7; rw [hA]; try rfl)

/-- Input window 1's staging buffer holds the window's block at every point, fetched there or not. -/
theorem found7_1_of {c : Dev nD} (dat : Dat τ (Elt F) Unit ℕ (UR sig nD τ) ℕ cfg7 c)
    (hA : dat.A 1 = V c (Pipeline.arrRef spec7 1)) (hafter : ∀ t, dat.after 1 t = blk7 V c 1 t)
    (t : Fin cfg7.N) (d) : dat.before 1 t d = blk7 V c 1 t :=
  (dat.before_in_eq_fetched 1 rfl (fun _ => rfl) (fun _ _ _ => rfl)
      (fun t => by rw [hafter]; unfold Dat.blockOf blk7; rw [hA]; try rfl) t d).trans
    (by unfold Dat.fetched Dat.blockOf blk7; rw [hA]; try rfl)

/-- Input window 2's staging buffer holds the window's block at every point, fetched there or not. -/
theorem found7_2_of {c : Dev nD} (dat : Dat τ (Elt F) Unit ℕ (UR sig nD τ) ℕ cfg7 c)
    (hA : dat.A 2 = V c (Pipeline.arrRef spec7 2)) (hafter : ∀ t, dat.after 2 t = blk7 V c 2 t)
    (t : Fin cfg7.N) (d) : dat.before 2 t d = blk7 V c 2 t :=
  (dat.before_in_eq_fetched 2 rfl (fun _ => rfl) (fun _ _ _ => rfl)
      (fun t => by rw [hafter]; unfold Dat.blockOf blk7; rw [hA]; try rfl) t d).trans
    (by unfold Dat.fetched Dat.blockOf blk7; rw [hA]; try rfl)

/-- What the body leaves in the output's staging buffer: its one store, of the body's value at the whole input
    blocks, over the whole block. -/
def stored7 (x0 : Vec F S2000x106 .f32) (x1 : Vec F S106x100 .f32) (x2 : Vec F S1x100 .f32) : Vec F S2000x100 .f32 :=
  View.canon [⟨(Rect.unit (s := S2000x100) ![0, 0] S2000x100.size inb_S2000x100_S2000x100_0_0), k7_pay1 (View.ld x0 (Rect.unit (s := S2000x106) ![0, 0] S2000x106.size inb_S2000x106_S2000x106_0_0)) (View.ld x1 (Rect.unit (s := S106x100) ![0, 0] S106x100.size inb_S106x100_S106x100_0_0)) (View.ld x2 (Rect.unit (s := S1x100) ![0, 0] S1x100.size inb_S1x100_S1x100_0_0))⟩]

/-- The store's rectangle is the whole block. -/
theorem whole7 (p : Vec F S2000x100 .f32) (y : S2000x100.Idx) :
    ∃ pc ∈ ([⟨(Rect.unit (s := S2000x100) ![0, 0] S2000x100.size inb_S2000x100_S2000x100_0_0), p⟩] : List (View.Piece (Elt F) S2000x100 .f32)), y ∈ pc.1.set :=
  View.cover_of_tiled [⟨(Rect.unit (s := S2000x100) ![0, 0] S2000x100.size inb_S2000x100_S2000x100_0_0), p⟩] S2000x100.size (by rfl) y

set_option maxHeartbeats 1000000 in
/-- The body, run on whole staging buffers holding `x0 …` (the output's holding anything), ends with the inputs as
    they were and the output's at `stored7` of them. -/
theorem body7 (c : Dev nD) (E : Set ℕ) (i : grid7.Coords) (a0 : Memref sig .tc .vmem S2000x106 .f32) (ha0 : a0.IsWhole) (a1 : Memref sig .tc .vmem S106x100 .f32) (ha1 : a1.IsWhole) (a2 : Memref sig .tc .vmem S1x100 .f32) (ha2 : a2.IsWhole) (a3 : Memref sig .tc .vmem S2000x100 .f32) (ha3 : a3.IsWhole)
    (x0 : Vec F S2000x106 .f32) (x1 : Vec F S106x100 .f32) (x2 : Vec F S1x100 .f32) (Q : PUnit → sProp 𝕄) :
    iprop(owns (c : Thread nD τ) a0 fullShare x0 ∗ owns (c : Thread nD τ) a1 fullShare x1 ∗ owns (c : Thread nD τ) a2 fullShare x2 ∗ (∃ d, owns (c : Thread nD τ) a3 fullShare d)
        ∗ (iprop(owns (c : Thread nD τ) a0 fullShare x0 ∗ owns (c : Thread nD τ) a1 fullShare x1 ∗ owns (c : Thread nD τ) a2 fullShare x2 ∗ owns (c : Thread nD τ) a3 fullShare (stored7 x0 x1 x2)) -∗ Q ⟨⟩))
      ⊢ wp frame (wpE (defs₀ (F := F)) Variants.none c none) E (cc7__matmul_bias_kernel i a0 ha0 a1 ha1 a2 ha2 a3 ha3) Q := by
  simp only [cc7__matmul_bias_kernel_eq_skeleton]; unfold cc7__matmul_bias_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (whole7 _)

/-- The proof data of pipeline 7 on core `c`: the arrays as the region finds them; after the body each input's
    buffer at its block and the output's at `stored7` of the input blocks; the invariant that of a kernel that
    keeps nothing between points; nothing owed. -/
def dat7 (c : Dev nD) : Dat τ (Elt F) Unit ℕ (UR sig nD τ) ℕ cfg7 c where
  A w := V c (Pipeline.arrRef spec7 w)
  after w t := match w with
    | ⟨0, _⟩ => blk7 V c 0 t
    | ⟨1, _⟩ => blk7 V c 1 t
    | ⟨2, _⟩ => blk7 V c 2 t
    | ⟨3, _⟩ => stored7 (blk7 V c 0 t) (blk7 V c 1 t) (blk7 V c 2 t)
  Φ _ := Pipeline.ΦA spec7 c
  q _ := fullShare
  owed _ := 0

theorem arr7 (c : Dev nD) (w : Fin cfg7.W) : (dat7 V c).A w = V c (Pipeline.arrRef spec7 w) := by
  dsimp only [dat7]
theorem left7_0 (c : Dev nD) (t : Fin cfg7.N) : (dat7 V c).after 0 t = blk7 V c 0 t := by dsimp only [dat7]
theorem left7_1 (c : Dev nD) (t : Fin cfg7.N) : (dat7 V c).after 1 t = blk7 V c 1 t := by dsimp only [dat7]
theorem left7_2 (c : Dev nD) (t : Fin cfg7.N) : (dat7 V c).after 2 t = blk7 V c 2 t := by dsimp only [dat7]
theorem left7_3 (c : Dev nD) (t : Fin cfg7.N) :
    (dat7 V c).after 3 t = stored7 (blk7 V c 0 t) (blk7 V c 1 t) (blk7 V c 2 t) := by dsimp only [dat7]
theorem found7_0 (c : Dev nD) (t : Fin cfg7.N) (d) : (dat7 V c).before 0 t d = blk7 V c 0 t :=
  found7_0_of V (dat7 V c) (arr7 V c 0) (left7_0 V c) t d
theorem found7_1 (c : Dev nD) (t : Fin cfg7.N) (d) : (dat7 V c).before 1 t d = blk7 V c 1 t :=
  found7_1_of V (dat7 V c) (arr7 V c 1) (left7_1 V c) t d
theorem found7_2 (c : Dev nD) (t : Fin cfg7.N) (d) : (dat7 V c).before 2 t d = blk7 V c 2 t :=
  found7_2_of V (dat7 V c) (arr7 V c 2) (left7_2 V c) t d

/-- What the pipeline hands the body at point `t`, -/
def handed7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d)))

/-- and what the body gives back. -/
def returned7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t))

/-- The body at any point: the inputs' buffers hold their blocks, so `body7` applies; the invariant and the
    core's dues pass through untouched. -/
theorem at_point7 (c : Dev nD) (t : Fin cfg7.N) :
    handed7 V c t ⊢ wp frame (wpE (defs₀ (F := F)) Variants.none c none) Set.univ (bodyAt7 t) (fun _ => returned7 V c t) := by
  unfold handed7 returned7 bodyAt7
  simp only [found7_0, found7_1, found7_2]
  rw [show (dat7 V c).Φ t.succ = (dat7 V c).Φ t.castSucc from rfl,
    show (dat7 V c).owesAt () t.succ = (dat7 V c).owesAt () t.castSucc from rfl,
    left7_0, left7_1, left7_2, left7_3]
  iintro ⟨HΦ, Ho, ⟨%d0, H0⟩, ⟨%d1, H1⟩, ⟨%d2, H2⟩, ⟨%d3, H3⟩⟩
  iapply (body7 c Set.univ _ _ _ _ _ _ _ _ _ (blk7 V c 0 t) (blk7 V c 1 t) (blk7 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of pipeline 7, at every point. -/
theorem obligation7 (c : Dev nD) : BodyObligation (dat7 (F := F) V c) (defs₀ (F := F)) Variants.none () Set.univ := fun t => by
  rw [bigSep_W7, bigSep_W7]
  exact at_point7 V c t

end Cert.KernelIdeal.Fr

end
-- ==== Proof.KI.Region8.lean ====
/-
  Region 8 of the program (the pallas_call of `cc8__matmul_bias_kernel`, the degree-2 neighbour product of layer 1), at any float instance.
  At every grid point the body reads each input block whole and writes the output block whole, so the output's
  staging buffer holds one function of the input blocks (`stored8`); an input block is where the pipeline
  left it whether or not the point fetched it, because the block index of an unfetched window has not moved.
  From these: the proof data of the pipeline (`dat8`) and the body obligation at every point (`obligation8`),
  both relative to the contents `V` the region is entered with.
-/
import proofs.«143046_j34703335751794_1_alg».proof.Proof.Gen.KernelIdeal.Launch
import proofs.«143046_j34703335751794_1_alg».proof.Proof.Gen.KernelIdeal.Skeleton
import proofs.«143046_j34703335751794_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the rectangle of its array (as the region finds it) that the index map
    names at `t`. -/
def blk8 (c : Dev nD) (w : Fin cfg8.W) (t : Fin cfg8.N) :
    ((cfg8.win w).xblock (cfg8.grid.coords t)).Idx → Elt F (cfg8.win w).elt :=
  ((cfg8.win w).blk t).view.read (Elt F) (V c (Pipeline.arrRef spec8 w))

/-- Input window 0's staging buffer holds the window's block at every point, fetched there or not. -/
theorem found8_0_of {c : Dev nD} (dat : Dat τ (Elt F) Unit ℕ (UR sig nD τ) ℕ cfg8 c)
    (hA : dat.A 0 = V c (Pipeline.arrRef spec8 0)) (hafter : ∀ t, dat.after 0 t = blk8 V c 0 t)
    (t : Fin cfg8.N) (d) : dat.before 0 t d = blk8 V c 0 t :=
  (dat.before_in_eq_fetched 0 rfl (fun _ => rfl) (fun _ _ _ => rfl)
      (fun t => by rw [hafter]; unfold Dat.blockOf blk8; rw [hA]; try rfl) t d).trans
    (by unfold Dat.fetched Dat.blockOf blk8; rw [hA]; try rfl)

/-- Input window 1's staging buffer holds the window's block at every point, fetched there or not. -/
theorem found8_1_of {c : Dev nD} (dat : Dat τ (Elt F) Unit ℕ (UR sig nD τ) ℕ cfg8 c)
    (hA : dat.A 1 = V c (Pipeline.arrRef spec8 1)) (hafter : ∀ t, dat.after 1 t = blk8 V c 1 t)
    (t : Fin cfg8.N) (d) : dat.before 1 t d = blk8 V c 1 t :=
  (dat.before_in_eq_fetched 1 rfl (fun _ => rfl) (fun _ _ _ => rfl)
      (fun t => by rw [hafter]; unfold Dat.blockOf blk8; rw [hA]; try rfl) t d).trans
    (by unfold Dat.fetched Dat.blockOf blk8; rw [hA]; try rfl)

/-- Input window 2's staging buffer holds the window's block at every point, fetched there or not. -/
theorem found8_2_of {c : Dev nD} (dat : Dat τ (Elt F) Unit ℕ (UR sig nD τ) ℕ cfg8 c)
    (hA : dat.A 2 = V c (Pipeline.arrRef spec8 2)) (hafter : ∀ t, dat.after 2 t = blk8 V c 2 t)
    (t : Fin cfg8.N) (d) : dat.before 2 t d = blk8 V c 2 t :=
  (dat.before_in_eq_fetched 2 rfl (fun _ => rfl) (fun _ _ _ => rfl)
      (fun t => by rw [hafter]; unfold Dat.blockOf blk8; rw [hA]; try rfl) t d).trans
    (by unfold Dat.fetched Dat.blockOf blk8; rw [hA]; try rfl)

/-- What the body leaves in the output's staging buffer: its one store, of the body's value at the whole input
    blocks, over the whole block. -/
def stored8 (x0 : Vec F S2000x106 .f32) (x1 : Vec F S106x100 .f32) (x2 : Vec F S1x100 .f32) : Vec F S2000x100 .f32 :=
  View.canon [⟨(Rect.unit (s := S2000x100) ![0, 0] S2000x100.size inb_S2000x100_S2000x100_0_0), k8_pay1 (View.ld x0 (Rect.unit (s := S2000x106) ![0, 0] S2000x106.size inb_S2000x106_S2000x106_0_0)) (View.ld x1 (Rect.unit (s := S106x100) ![0, 0] S106x100.size inb_S106x100_S106x100_0_0)) (View.ld x2 (Rect.unit (s := S1x100) ![0, 0] S1x100.size inb_S1x100_S1x100_0_0))⟩]

/-- The store's rectangle is the whole block. -/
theorem whole8 (p : Vec F S2000x100 .f32) (y : S2000x100.Idx) :
    ∃ pc ∈ ([⟨(Rect.unit (s := S2000x100) ![0, 0] S2000x100.size inb_S2000x100_S2000x100_0_0), p⟩] : List (View.Piece (Elt F) S2000x100 .f32)), y ∈ pc.1.set :=
  View.cover_of_tiled [⟨(Rect.unit (s := S2000x100) ![0, 0] S2000x100.size inb_S2000x100_S2000x100_0_0), p⟩] S2000x100.size (by rfl) y

set_option maxHeartbeats 1000000 in
/-- The body, run on whole staging buffers holding `x0 …` (the output's holding anything), ends with the inputs as
    they were and the output's at `stored8` of them. -/
theorem body8 (c : Dev nD) (E : Set ℕ) (i : grid8.Coords) (a0 : Memref sig .tc .vmem S2000x106 .f32) (ha0 : a0.IsWhole) (a1 : Memref sig .tc .vmem S106x100 .f32) (ha1 : a1.IsWhole) (a2 : Memref sig .tc .vmem S1x100 .f32) (ha2 : a2.IsWhole) (a3 : Memref sig .tc .vmem S2000x100 .f32) (ha3 : a3.IsWhole)
    (x0 : Vec F S2000x106 .f32) (x1 : Vec F S106x100 .f32) (x2 : Vec F S1x100 .f32) (Q : PUnit → sProp 𝕄) :
    iprop(owns (c : Thread nD τ) a0 fullShare x0 ∗ owns (c : Thread nD τ) a1 fullShare x1 ∗ owns (c : Thread nD τ) a2 fullShare x2 ∗ (∃ d, owns (c : Thread nD τ) a3 fullShare d)
        ∗ (iprop(owns (c : Thread nD τ) a0 fullShare x0 ∗ owns (c : Thread nD τ) a1 fullShare x1 ∗ owns (c : Thread nD τ) a2 fullShare x2 ∗ owns (c : Thread nD τ) a3 fullShare (stored8 x0 x1 x2)) -∗ Q ⟨⟩))
      ⊢ wp frame (wpE (defs₀ (F := F)) Variants.none c none) E (cc8__matmul_bias_kernel i a0 ha0 a1 ha1 a2 ha2 a3 ha3) Q := by
  simp only [cc8__matmul_bias_kernel_eq_skeleton]; unfold cc8__matmul_bias_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (whole8 _)

/-- The proof data of pipeline 8 on core `c`: the arrays as the region finds them; after the body each input's
    buffer at its block and the output's at `stored8` of the input blocks; the invariant that of a kernel that
    keeps nothing between points; nothing owed. -/
def dat8 (c : Dev nD) : Dat τ (Elt F) Unit ℕ (UR sig nD τ) ℕ cfg8 c where
  A w := V c (Pipeline.arrRef spec8 w)
  after w t := match w with
    | ⟨0, _⟩ => blk8 V c 0 t
    | ⟨1, _⟩ => blk8 V c 1 t
    | ⟨2, _⟩ => blk8 V c 2 t
    | ⟨3, _⟩ => stored8 (blk8 V c 0 t) (blk8 V c 1 t) (blk8 V c 2 t)
  Φ _ := Pipeline.ΦA spec8 c
  q _ := fullShare
  owed _ := 0

theorem arr8 (c : Dev nD) (w : Fin cfg8.W) : (dat8 V c).A w = V c (Pipeline.arrRef spec8 w) := by
  dsimp only [dat8]
theorem left8_0 (c : Dev nD) (t : Fin cfg8.N) : (dat8 V c).after 0 t = blk8 V c 0 t := by dsimp only [dat8]
theorem left8_1 (c : Dev nD) (t : Fin cfg8.N) : (dat8 V c).after 1 t = blk8 V c 1 t := by dsimp only [dat8]
theorem left8_2 (c : Dev nD) (t : Fin cfg8.N) : (dat8 V c).after 2 t = blk8 V c 2 t := by dsimp only [dat8]
theorem left8_3 (c : Dev nD) (t : Fin cfg8.N) :
    (dat8 V c).after 3 t = stored8 (blk8 V c 0 t) (blk8 V c 1 t) (blk8 V c 2 t) := by dsimp only [dat8]
theorem found8_0 (c : Dev nD) (t : Fin cfg8.N) (d) : (dat8 V c).before 0 t d = blk8 V c 0 t :=
  found8_0_of V (dat8 V c) (arr8 V c 0) (left8_0 V c) t d
theorem found8_1 (c : Dev nD) (t : Fin cfg8.N) (d) : (dat8 V c).before 1 t d = blk8 V c 1 t :=
  found8_1_of V (dat8 V c) (arr8 V c 1) (left8_1 V c) t d
theorem found8_2 (c : Dev nD) (t : Fin cfg8.N) (d) : (dat8 V c).before 2 t d = blk8 V c 2 t :=
  found8_2_of V (dat8 V c) (arr8 V c 2) (left8_2 V c) t d

/-- What the pipeline hands the body at point `t`, -/
def handed8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d)))

/-- and what the body gives back. -/
def returned8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t))

/-- The body at any point: the inputs' buffers hold their blocks, so `body8` applies; the invariant and the
    core's dues pass through untouched. -/
theorem at_point8 (c : Dev nD) (t : Fin cfg8.N) :
    handed8 V c t ⊢ wp frame (wpE (defs₀ (F := F)) Variants.none c none) Set.univ (bodyAt8 t) (fun _ => returned8 V c t) := by
  unfold handed8 returned8 bodyAt8
  simp only [found8_0, found8_1, found8_2]
  rw [show (dat8 V c).Φ t.succ = (dat8 V c).Φ t.castSucc from rfl,
    show (dat8 V c).owesAt () t.succ = (dat8 V c).owesAt () t.castSucc from rfl,
    left8_0, left8_1, left8_2, left8_3]
  iintro ⟨HΦ, Ho, ⟨%d0, H0⟩, ⟨%d1, H1⟩, ⟨%d2, H2⟩, ⟨%d3, H3⟩⟩
  iapply (body8 c Set.univ _ _ _ _ _ _ _ _ _ (blk8 V c 0 t) (blk8 V c 1 t) (blk8 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of pipeline 8, at every point. -/
theorem obligation8 (c : Dev nD) : BodyObligation (dat8 (F := F) V c) (defs₀ (F := F)) Variants.none () Set.univ := fun t => by
  rw [bigSep_W8, bigSep_W8]
  exact at_point8 V c t

end Cert.KernelIdeal.Fr

end
-- ==== Proof.KI.Region9.lean ====
/-
  Region 9 of the program (the pallas_call of `cc9__matmul_bias_kernel`, the degree-3 neighbour product of layer 1), at any float instance.
  At every grid point the body reads each input block whole and writes the output block whole, so the output's
  staging buffer holds one function of the input blocks (`stored9`); an input block is where the pipeline
  left it whether or not the point fetched it, because the block index of an unfetched window has not moved.
  From these: the proof data of the pipeline (`dat9`) and the body obligation at every point (`obligation9`),
  both relative to the contents `V` the region is entered with.
-/
import proofs.«143046_j34703335751794_1_alg».proof.Proof.Gen.KernelIdeal.Launch
import proofs.«143046_j34703335751794_1_alg».proof.Proof.Gen.KernelIdeal.Skeleton
import proofs.«143046_j34703335751794_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the rectangle of its array (as the region finds it) that the index map
    names at `t`. -/
def blk9 (c : Dev nD) (w : Fin cfg9.W) (t : Fin cfg9.N) :
    ((cfg9.win w).xblock (cfg9.grid.coords t)).Idx → Elt F (cfg9.win w).elt :=
  ((cfg9.win w).blk t).view.read (Elt F) (V c (Pipeline.arrRef spec9 w))

/-- Input window 0's staging buffer holds the window's block at every point, fetched there or not. -/
theorem found9_0_of {c : Dev nD} (dat : Dat τ (Elt F) Unit ℕ (UR sig nD τ) ℕ cfg9 c)
    (hA : dat.A 0 = V c (Pipeline.arrRef spec9 0)) (hafter : ∀ t, dat.after 0 t = blk9 V c 0 t)
    (t : Fin cfg9.N) (d) : dat.before 0 t d = blk9 V c 0 t :=
  (dat.before_in_eq_fetched 0 rfl (fun _ => rfl) (fun _ _ _ => rfl)
      (fun t => by rw [hafter]; unfold Dat.blockOf blk9; rw [hA]; try rfl) t d).trans
    (by unfold Dat.fetched Dat.blockOf blk9; rw [hA]; try rfl)

/-- Input window 1's staging buffer holds the window's block at every point, fetched there or not. -/
theorem found9_1_of {c : Dev nD} (dat : Dat τ (Elt F) Unit ℕ (UR sig nD τ) ℕ cfg9 c)
    (hA : dat.A 1 = V c (Pipeline.arrRef spec9 1)) (hafter : ∀ t, dat.after 1 t = blk9 V c 1 t)
    (t : Fin cfg9.N) (d) : dat.before 1 t d = blk9 V c 1 t :=
  (dat.before_in_eq_fetched 1 rfl (fun _ => rfl) (fun _ _ _ => rfl)
      (fun t => by rw [hafter]; unfold Dat.blockOf blk9; rw [hA]; try rfl) t d).trans
    (by unfold Dat.fetched Dat.blockOf blk9; rw [hA]; try rfl)

/-- Input window 2's staging buffer holds the window's block at every point, fetched there or not. -/
theorem found9_2_of {c : Dev nD} (dat : Dat τ (Elt F) Unit ℕ (UR sig nD τ) ℕ cfg9 c)
    (hA : dat.A 2 = V c (Pipeline.arrRef spec9 2)) (hafter : ∀ t, dat.after 2 t = blk9 V c 2 t)
    (t : Fin cfg9.N) (d) : dat.before 2 t d = blk9 V c 2 t :=
  (dat.before_in_eq_fetched 2 rfl (fun _ => rfl) (fun _ _ _ => rfl)
      (fun t => by rw [hafter]; unfold Dat.blockOf blk9; rw [hA]; try rfl) t d).trans
    (by unfold Dat.fetched Dat.blockOf blk9; rw [hA]; try rfl)

/-- What the body leaves in the output's staging buffer: its one store, of the body's value at the whole input
    blocks, over the whole block. -/
def stored9 (x0 : Vec F S2000x106 .f32) (x1 : Vec F S106x100 .f32) (x2 : Vec F S1x100 .f32) : Vec F S2000x100 .f32 :=
  View.canon [⟨(Rect.unit (s := S2000x100) ![0, 0] S2000x100.size inb_S2000x100_S2000x100_0_0), k9_pay1 (View.ld x0 (Rect.unit (s := S2000x106) ![0, 0] S2000x106.size inb_S2000x106_S2000x106_0_0)) (View.ld x1 (Rect.unit (s := S106x100) ![0, 0] S106x100.size inb_S106x100_S106x100_0_0)) (View.ld x2 (Rect.unit (s := S1x100) ![0, 0] S1x100.size inb_S1x100_S1x100_0_0))⟩]

/-- The store's rectangle is the whole block. -/
theorem whole9 (p : Vec F S2000x100 .f32) (y : S2000x100.Idx) :
    ∃ pc ∈ ([⟨(Rect.unit (s := S2000x100) ![0, 0] S2000x100.size inb_S2000x100_S2000x100_0_0), p⟩] : List (View.Piece (Elt F) S2000x100 .f32)), y ∈ pc.1.set :=
  View.cover_of_tiled [⟨(Rect.unit (s := S2000x100) ![0, 0] S2000x100.size inb_S2000x100_S2000x100_0_0), p⟩] S2000x100.size (by rfl) y

set_option maxHeartbeats 1000000 in
/-- The body, run on whole staging buffers holding `x0 …` (the output's holding anything), ends with the inputs as
    they were and the output's at `stored9` of them. -/
theorem body9 (c : Dev nD) (E : Set ℕ) (i : grid9.Coords) (a0 : Memref sig .tc .vmem S2000x106 .f32) (ha0 : a0.IsWhole) (a1 : Memref sig .tc .vmem S106x100 .f32) (ha1 : a1.IsWhole) (a2 : Memref sig .tc .vmem S1x100 .f32) (ha2 : a2.IsWhole) (a3 : Memref sig .tc .vmem S2000x100 .f32) (ha3 : a3.IsWhole)
    (x0 : Vec F S2000x106 .f32) (x1 : Vec F S106x100 .f32) (x2 : Vec F S1x100 .f32) (Q : PUnit → sProp 𝕄) :
    iprop(owns (c : Thread nD τ) a0 fullShare x0 ∗ owns (c : Thread nD τ) a1 fullShare x1 ∗ owns (c : Thread nD τ) a2 fullShare x2 ∗ (∃ d, owns (c : Thread nD τ) a3 fullShare d)
        ∗ (iprop(owns (c : Thread nD τ) a0 fullShare x0 ∗ owns (c : Thread nD τ) a1 fullShare x1 ∗ owns (c : Thread nD τ) a2 fullShare x2 ∗ owns (c : Thread nD τ) a3 fullShare (stored9 x0 x1 x2)) -∗ Q ⟨⟩))
      ⊢ wp frame (wpE (defs₀ (F := F)) Variants.none c none) E (cc9__matmul_bias_kernel i a0 ha0 a1 ha1 a2 ha2 a3 ha3) Q := by
  simp only [cc9__matmul_bias_kernel_eq_skeleton]; unfold cc9__matmul_bias_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (whole9 _)

/-- The proof data of pipeline 9 on core `c`: the arrays as the region finds them; after the body each input's
    buffer at its block and the output's at `stored9` of the input blocks; the invariant that of a kernel that
    keeps nothing between points; nothing owed. -/
def dat9 (c : Dev nD) : Dat τ (Elt F) Unit ℕ (UR sig nD τ) ℕ cfg9 c where
  A w := V c (Pipeline.arrRef spec9 w)
  after w t := match w with
    | ⟨0, _⟩ => blk9 V c 0 t
    | ⟨1, _⟩ => blk9 V c 1 t
    | ⟨2, _⟩ => blk9 V c 2 t
    | ⟨3, _⟩ => stored9 (blk9 V c 0 t) (blk9 V c 1 t) (blk9 V c 2 t)
  Φ _ := Pipeline.ΦA spec9 c
  q _ := fullShare
  owed _ := 0

theorem arr9 (c : Dev nD) (w : Fin cfg9.W) : (dat9 V c).A w = V c (Pipeline.arrRef spec9 w) := by
  dsimp only [dat9]
theorem left9_0 (c : Dev nD) (t : Fin cfg9.N) : (dat9 V c).after 0 t = blk9 V c 0 t := by dsimp only [dat9]
theorem left9_1 (c : Dev nD) (t : Fin cfg9.N) : (dat9 V c).after 1 t = blk9 V c 1 t := by dsimp only [dat9]
theorem left9_2 (c : Dev nD) (t : Fin cfg9.N) : (dat9 V c).after 2 t = blk9 V c 2 t := by dsimp only [dat9]
theorem left9_3 (c : Dev nD) (t : Fin cfg9.N) :
    (dat9 V c).after 3 t = stored9 (blk9 V c 0 t) (blk9 V c 1 t) (blk9 V c 2 t) := by dsimp only [dat9]
theorem found9_0 (c : Dev nD) (t : Fin cfg9.N) (d) : (dat9 V c).before 0 t d = blk9 V c 0 t :=
  found9_0_of V (dat9 V c) (arr9 V c 0) (left9_0 V c) t d
theorem found9_1 (c : Dev nD) (t : Fin cfg9.N) (d) : (dat9 V c).before 1 t d = blk9 V c 1 t :=
  found9_1_of V (dat9 V c) (arr9 V c 1) (left9_1 V c) t d
theorem found9_2 (c : Dev nD) (t : Fin cfg9.N) (d) : (dat9 V c).before 2 t d = blk9 V c 2 t :=
  found9_2_of V (dat9 V c) (arr9 V c 2) (left9_2 V c) t d

/-- What the pipeline hands the body at point `t`, -/
def handed9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d)))

/-- and what the body gives back. -/
def returned9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t))

/-- The body at any point: the inputs' buffers hold their blocks, so `body9` applies; the invariant and the
    core's dues pass through untouched. -/
theorem at_point9 (c : Dev nD) (t : Fin cfg9.N) :
    handed9 V c t ⊢ wp frame (wpE (defs₀ (F := F)) Variants.none c none) Set.univ (bodyAt9 t) (fun _ => returned9 V c t) := by
  unfold handed9 returned9 bodyAt9
  simp only [found9_0, found9_1, found9_2]
  rw [show (dat9 V c).Φ t.succ = (dat9 V c).Φ t.castSucc from rfl,
    show (dat9 V c).owesAt () t.succ = (dat9 V c).owesAt () t.castSucc from rfl,
    left9_0, left9_1, left9_2, left9_3]
  iintro ⟨HΦ, Ho, ⟨%d0, H0⟩, ⟨%d1, H1⟩, ⟨%d2, H2⟩, ⟨%d3, H3⟩⟩
  iapply (body9 c Set.univ _ _ _ _ _ _ _ _ _ (blk9 V c 0 t) (blk9 V c 1 t) (blk9 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of pipeline 9, at every point. -/
theorem obligation9 (c : Dev nD) : BodyObligation (dat9 (F := F) V c) (defs₀ (F := F)) Variants.none () Set.univ := fun t => by
  rw [bigSep_W9, bigSep_W9]
  exact at_point9 V c t

end Cert.KernelIdeal.Fr

end
-- ==== Proof.KI.Region10.lean ====
/-
  Region 10 of the program (the pallas_call of `cc10__matmul_bias_kernel`, the degree-4 neighbour product of layer 1), at any float instance.
  At every grid point the body reads each input block whole and writes the output block whole, so the output's
  staging buffer holds one function of the input blocks (`stored10`); an input block is where the pipeline
  left it whether or not the point fetched it, because the block index of an unfetched window has not moved.
  From these: the proof data of the pipeline (`dat10`) and the body obligation at every point (`obligation10`),
  both relative to the contents `V` the region is entered with.
-/
import proofs.«143046_j34703335751794_1_alg».proof.Proof.Gen.KernelIdeal.Launch
import proofs.«143046_j34703335751794_1_alg».proof.Proof.Gen.KernelIdeal.Skeleton
import proofs.«143046_j34703335751794_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the rectangle of its array (as the region finds it) that the index map
    names at `t`. -/
def blk10 (c : Dev nD) (w : Fin cfg10.W) (t : Fin cfg10.N) :
    ((cfg10.win w).xblock (cfg10.grid.coords t)).Idx → Elt F (cfg10.win w).elt :=
  ((cfg10.win w).blk t).view.read (Elt F) (V c (Pipeline.arrRef spec10 w))

/-- Input window 0's staging buffer holds the window's block at every point, fetched there or not. -/
theorem found10_0_of {c : Dev nD} (dat : Dat τ (Elt F) Unit ℕ (UR sig nD τ) ℕ cfg10 c)
    (hA : dat.A 0 = V c (Pipeline.arrRef spec10 0)) (hafter : ∀ t, dat.after 0 t = blk10 V c 0 t)
    (t : Fin cfg10.N) (d) : dat.before 0 t d = blk10 V c 0 t :=
  (dat.before_in_eq_fetched 0 rfl (fun _ => rfl) (fun _ _ _ => rfl)
      (fun t => by rw [hafter]; unfold Dat.blockOf blk10; rw [hA]; try rfl) t d).trans
    (by unfold Dat.fetched Dat.blockOf blk10; rw [hA]; try rfl)

/-- Input window 1's staging buffer holds the window's block at every point, fetched there or not. -/
theorem found10_1_of {c : Dev nD} (dat : Dat τ (Elt F) Unit ℕ (UR sig nD τ) ℕ cfg10 c)
    (hA : dat.A 1 = V c (Pipeline.arrRef spec10 1)) (hafter : ∀ t, dat.after 1 t = blk10 V c 1 t)
    (t : Fin cfg10.N) (d) : dat.before 1 t d = blk10 V c 1 t :=
  (dat.before_in_eq_fetched 1 rfl (fun _ => rfl) (fun _ _ _ => rfl)
      (fun t => by rw [hafter]; unfold Dat.blockOf blk10; rw [hA]; try rfl) t d).trans
    (by unfold Dat.fetched Dat.blockOf blk10; rw [hA]; try rfl)

/-- Input window 2's staging buffer holds the window's block at every point, fetched there or not. -/
theorem found10_2_of {c : Dev nD} (dat : Dat τ (Elt F) Unit ℕ (UR sig nD τ) ℕ cfg10 c)
    (hA : dat.A 2 = V c (Pipeline.arrRef spec10 2)) (hafter : ∀ t, dat.after 2 t = blk10 V c 2 t)
    (t : Fin cfg10.N) (d) : dat.before 2 t d = blk10 V c 2 t :=
  (dat.before_in_eq_fetched 2 rfl (fun _ => rfl) (fun _ _ _ => rfl)
      (fun t => by rw [hafter]; unfold Dat.blockOf blk10; rw [hA]; try rfl) t d).trans
    (by unfold Dat.fetched Dat.blockOf blk10; rw [hA]; try rfl)

/-- What the body leaves in the output's staging buffer: its one store, of the body's value at the whole input
    blocks, over the whole block. -/
def stored10 (x0 : Vec F S2000x106 .f32) (x1 : Vec F S106x100 .f32) (x2 : Vec F S1x100 .f32) : Vec F S2000x100 .f32 :=
  View.canon [⟨(Rect.unit (s := S2000x100) ![0, 0] S2000x100.size inb_S2000x100_S2000x100_0_0), k10_pay1 (View.ld x0 (Rect.unit (s := S2000x106) ![0, 0] S2000x106.size inb_S2000x106_S2000x106_0_0)) (View.ld x1 (Rect.unit (s := S106x100) ![0, 0] S106x100.size inb_S106x100_S106x100_0_0)) (View.ld x2 (Rect.unit (s := S1x100) ![0, 0] S1x100.size inb_S1x100_S1x100_0_0))⟩]

/-- The store's rectangle is the whole block. -/
theorem whole10 (p : Vec F S2000x100 .f32) (y : S2000x100.Idx) :
    ∃ pc ∈ ([⟨(Rect.unit (s := S2000x100) ![0, 0] S2000x100.size inb_S2000x100_S2000x100_0_0), p⟩] : List (View.Piece (Elt F) S2000x100 .f32)), y ∈ pc.1.set :=
  View.cover_of_tiled [⟨(Rect.unit (s := S2000x100) ![0, 0] S2000x100.size inb_S2000x100_S2000x100_0_0), p⟩] S2000x100.size (by rfl) y

set_option maxHeartbeats 1000000 in
/-- The body, run on whole staging buffers holding `x0 …` (the output's holding anything), ends with the inputs as
    they were and the output's at `stored10` of them. -/
theorem body10 (c : Dev nD) (E : Set ℕ) (i : grid10.Coords) (a0 : Memref sig .tc .vmem S2000x106 .f32) (ha0 : a0.IsWhole) (a1 : Memref sig .tc .vmem S106x100 .f32) (ha1 : a1.IsWhole) (a2 : Memref sig .tc .vmem S1x100 .f32) (ha2 : a2.IsWhole) (a3 : Memref sig .tc .vmem S2000x100 .f32) (ha3 : a3.IsWhole)
    (x0 : Vec F S2000x106 .f32) (x1 : Vec F S106x100 .f32) (x2 : Vec F S1x100 .f32) (Q : PUnit → sProp 𝕄) :
    iprop(owns (c : Thread nD τ) a0 fullShare x0 ∗ owns (c : Thread nD τ) a1 fullShare x1 ∗ owns (c : Thread nD τ) a2 fullShare x2 ∗ (∃ d, owns (c : Thread nD τ) a3 fullShare d)
        ∗ (iprop(owns (c : Thread nD τ) a0 fullShare x0 ∗ owns (c : Thread nD τ) a1 fullShare x1 ∗ owns (c : Thread nD τ) a2 fullShare x2 ∗ owns (c : Thread nD τ) a3 fullShare (stored10 x0 x1 x2)) -∗ Q ⟨⟩))
      ⊢ wp frame (wpE (defs₀ (F := F)) Variants.none c none) E (cc10__matmul_bias_kernel i a0 ha0 a1 ha1 a2 ha2 a3 ha3) Q := by
  simp only [cc10__matmul_bias_kernel_eq_skeleton]; unfold cc10__matmul_bias_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (whole10 _)

/-- The proof data of pipeline 10 on core `c`: the arrays as the region finds them; after the body each input's
    buffer at its block and the output's at `stored10` of the input blocks; the invariant that of a kernel that
    keeps nothing between points; nothing owed. -/
def dat10 (c : Dev nD) : Dat τ (Elt F) Unit ℕ (UR sig nD τ) ℕ cfg10 c where
  A w := V c (Pipeline.arrRef spec10 w)
  after w t := match w with
    | ⟨0, _⟩ => blk10 V c 0 t
    | ⟨1, _⟩ => blk10 V c 1 t
    | ⟨2, _⟩ => blk10 V c 2 t
    | ⟨3, _⟩ => stored10 (blk10 V c 0 t) (blk10 V c 1 t) (blk10 V c 2 t)
  Φ _ := Pipeline.ΦA spec10 c
  q _ := fullShare
  owed _ := 0

theorem arr10 (c : Dev nD) (w : Fin cfg10.W) : (dat10 V c).A w = V c (Pipeline.arrRef spec10 w) := by
  dsimp only [dat10]
theorem left10_0 (c : Dev nD) (t : Fin cfg10.N) : (dat10 V c).after 0 t = blk10 V c 0 t := by dsimp only [dat10]
theorem left10_1 (c : Dev nD) (t : Fin cfg10.N) : (dat10 V c).after 1 t = blk10 V c 1 t := by dsimp only [dat10]
theorem left10_2 (c : Dev nD) (t : Fin cfg10.N) : (dat10 V c).after 2 t = blk10 V c 2 t := by dsimp only [dat10]
theorem left10_3 (c : Dev nD) (t : Fin cfg10.N) :
    (dat10 V c).after 3 t = stored10 (blk10 V c 0 t) (blk10 V c 1 t) (blk10 V c 2 t) := by dsimp only [dat10]
theorem found10_0 (c : Dev nD) (t : Fin cfg10.N) (d) : (dat10 V c).before 0 t d = blk10 V c 0 t :=
  found10_0_of V (dat10 V c) (arr10 V c 0) (left10_0 V c) t d
theorem found10_1 (c : Dev nD) (t : Fin cfg10.N) (d) : (dat10 V c).before 1 t d = blk10 V c 1 t :=
  found10_1_of V (dat10 V c) (arr10 V c 1) (left10_1 V c) t d
theorem found10_2 (c : Dev nD) (t : Fin cfg10.N) (d) : (dat10 V c).before 2 t d = blk10 V c 2 t :=
  found10_2_of V (dat10 V c) (arr10 V c 2) (left10_2 V c) t d

/-- What the pipeline hands the body at point `t`, -/
def handed10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d))
    ∗ (∃ d, owns (c : Thread nD τ) (st10_3 t) fullShare ((dat10 V c).before 3 t d)))

/-- and what the body gives back. -/
def returned10 (c : Dev nD) (t : Fin cfg10.N) : sProp 𝕄 :=
  iprop((dat10 V c).Φ t.succ ∗ (dat10 V c).owesAt () t.succ
    ∗ owns (c : Thread nD τ) (st10_0 t) fullShare ((dat10 V c).after 0 t)
    ∗ owns (c : Thread nD τ) (st10_1 t) fullShare ((dat10 V c).after 1 t)
    ∗ owns (c : Thread nD τ) (st10_2 t) fullShare ((dat10 V c).after 2 t)
    ∗ owns (c : Thread nD τ) (st10_3 t) fullShare ((dat10 V c).after 3 t))

/-- The body at any point: the inputs' buffers hold their blocks, so `body10` applies; the invariant and the
    core's dues pass through untouched. -/
theorem at_point10 (c : Dev nD) (t : Fin cfg10.N) :
    handed10 V c t ⊢ wp frame (wpE (defs₀ (F := F)) Variants.none c none) Set.univ (bodyAt10 t) (fun _ => returned10 V c t) := by
  unfold handed10 returned10 bodyAt10
  simp only [found10_0, found10_1, found10_2]
  rw [show (dat10 V c).Φ t.succ = (dat10 V c).Φ t.castSucc from rfl,
    show (dat10 V c).owesAt () t.succ = (dat10 V c).owesAt () t.castSucc from rfl,
    left10_0, left10_1, left10_2, left10_3]
  iintro ⟨HΦ, Ho, ⟨%d0, H0⟩, ⟨%d1, H1⟩, ⟨%d2, H2⟩, ⟨%d3, H3⟩⟩
  iapply (body10 c Set.univ _ _ _ _ _ _ _ _ _ (blk10 V c 0 t) (blk10 V c 1 t) (blk10 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of pipeline 10, at every point. -/
theorem obligation10 (c : Dev nD) : BodyObligation (dat10 (F := F) V c) (defs₀ (F := F)) Variants.none () Set.univ := fun t => by
  rw [bigSep_W10, bigSep_W10]
  exact at_point10 V c t

end Cert.KernelIdeal.Fr

end
-- ==== Proof.KI.Region11.lean ====
/-
  Region 11 of the program (the pallas_call of `cc11__conv_finish_kernel`, the normalised, rectified layer 1), at any float instance.
  At every grid point the body reads each input block whole and writes the output block whole, so the output's
  staging buffer holds one function of the input blocks (`stored11`); an input block is where the pipeline
  left it whether or not the point fetched it, because the block index of an unfetched window has not moved.
  From these: the proof data of the pipeline (`dat11`) and the body obligation at every point (`obligation11`),
  both relative to the contents `V` the region is entered with.
-/
import proofs.«143046_j34703335751794_1_alg».proof.Proof.Gen.KernelIdeal.Launch
import proofs.«143046_j34703335751794_1_alg».proof.Proof.Gen.KernelIdeal.Skeleton
import proofs.«143046_j34703335751794_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the rectangle of its array (as the region finds it) that the index map
    names at `t`. -/
def blk11 (c : Dev nD) (w : Fin cfg11.W) (t : Fin cfg11.N) :
    ((cfg11.win w).xblock (cfg11.grid.coords t)).Idx → Elt F (cfg11.win w).elt :=
  ((cfg11.win w).blk t).view.read (Elt F) (V c (Pipeline.arrRef spec11 w))

/-- Input window 0's staging buffer holds the window's block at every point, fetched there or not. -/
theorem found11_0_of {c : Dev nD} (dat : Dat τ (Elt F) Unit ℕ (UR sig nD τ) ℕ cfg11 c)
    (hA : dat.A 0 = V c (Pipeline.arrRef spec11 0)) (hafter : ∀ t, dat.after 0 t = blk11 V c 0 t)
    (t : Fin cfg11.N) (d) : dat.before 0 t d = blk11 V c 0 t :=
  (dat.before_in_eq_fetched 0 rfl (fun _ => rfl) (fun _ _ _ => rfl)
      (fun t => by rw [hafter]; unfold Dat.blockOf blk11; rw [hA]; try rfl) t d).trans
    (by unfold Dat.fetched Dat.blockOf blk11; rw [hA]; try rfl)

/-- Input window 1's staging buffer holds the window's block at every point, fetched there or not. -/
theorem found11_1_of {c : Dev nD} (dat : Dat τ (Elt F) Unit ℕ (UR sig nD τ) ℕ cfg11 c)
    (hA : dat.A 1 = V c (Pipeline.arrRef spec11 1)) (hafter : ∀ t, dat.after 1 t = blk11 V c 1 t)
    (t : Fin cfg11.N) (d) : dat.before 1 t d = blk11 V c 1 t :=
  (dat.before_in_eq_fetched 1 rfl (fun _ => rfl) (fun _ _ _ => rfl)
      (fun t => by rw [hafter]; unfold Dat.blockOf blk11; rw [hA]; try rfl) t d).trans
    (by unfold Dat.fetched Dat.blockOf blk11; rw [hA]; try rfl)

/-- Input window 2's staging buffer holds the window's block at every point, fetched there or not. -/
theorem found11_2_of {c : Dev nD} (dat : Dat τ (Elt F) Unit ℕ (UR sig nD τ) ℕ cfg11 c)
    (hA : dat.A 2 = V c (Pipeline.arrRef spec11 2)) (hafter : ∀ t, dat.after 2 t = blk11 V c 2 t)
    (t : Fin cfg11.N) (d) : dat.before 2 t d = blk11 V c 2 t :=
  (dat.before_in_eq_fetched 2 rfl (fun _ => rfl) (fun _ _ _ => rfl)
      (fun t => by rw [hafter]; unfold Dat.blockOf blk11; rw [hA]; try rfl) t d).trans
    (by unfold Dat.fetched Dat.blockOf blk11; rw [hA]; try rfl)

/-- Input window 3's staging buffer holds the window's block at every point, fetched there or not. -/
theorem found11_3_of {c : Dev nD} (dat : Dat τ (Elt F) Unit ℕ (UR sig nD τ) ℕ cfg11 c)
    (hA : dat.A 3 = V c (Pipeline.arrRef spec11 3)) (hafter : ∀ t, dat.after 3 t = blk11 V c 3 t)
    (t : Fin cfg11.N) (d) : dat.before 3 t d = blk11 V c 3 t :=
  (dat.before_in_eq_fetched 3 rfl (fun _ => rfl) (fun _ _ _ => rfl)
      (fun t => by rw [hafter]; unfold Dat.blockOf blk11; rw [hA]; try rfl) t d).trans
    (by unfold Dat.fetched Dat.blockOf blk11; rw [hA]; try rfl)

/-- What the body leaves in the output's staging buffer: its one store, of the body's value at the whole input
    blocks, over the whole block. -/
def stored11 (x0 : Vec F S2000x100 .f32) (x1 : Vec F S100x100 .f32) (x2 : Vec F S1x100 .f32) (x3 : Vec F S2000x100 .f32) : Vec F S2000x100 .f32 :=
  View.canon [⟨(Rect.unit (s := S2000x100) ![0, 0] S2000x100.size inb_S2000x100_S2000x100_0_0), k11_pay1 (View.ld x0 (Rect.unit (s := S2000x100) ![0, 0] S2000x100.size inb_S2000x100_S2000x100_0_0)) (View.ld x1 (Rect.unit (s := S100x100) ![0, 0] S100x100.size inb_S100x100_S100x100_0_0)) (View.ld x2 (Rect.unit (s := S1x100) ![0, 0] S1x100.size inb_S1x100_S1x100_0_0)) (View.ld x3 (Rect.unit (s := S2000x100) ![0, 0] S2000x100.size inb_S2000x100_S2000x100_0_0))⟩]

/-- The store's rectangle is the whole block. -/
theorem whole11 (p : Vec F S2000x100 .f32) (y : S2000x100.Idx) :
    ∃ pc ∈ ([⟨(Rect.unit (s := S2000x100) ![0, 0] S2000x100.size inb_S2000x100_S2000x100_0_0), p⟩] : List (View.Piece (Elt F) S2000x100 .f32)), y ∈ pc.1.set :=
  View.cover_of_tiled [⟨(Rect.unit (s := S2000x100) ![0, 0] S2000x100.size inb_S2000x100_S2000x100_0_0), p⟩] S2000x100.size (by rfl) y

set_option maxHeartbeats 1000000 in
/-- The body, run on whole staging buffers holding `x0 …` (the output's holding anything), ends with the inputs as
    they were and the output's at `stored11` of them. -/
theorem body11 (c : Dev nD) (E : Set ℕ) (i : grid11.Coords) (a0 : Memref sig .tc .vmem S2000x100 .f32) (ha0 : a0.IsWhole) (a1 : Memref sig .tc .vmem S100x100 .f32) (ha1 : a1.IsWhole) (a2 : Memref sig .tc .vmem S1x100 .f32) (ha2 : a2.IsWhole) (a3 : Memref sig .tc .vmem S2000x100 .f32) (ha3 : a3.IsWhole) (a4 : Memref sig .tc .vmem S2000x100 .f32) (ha4 : a4.IsWhole)
    (x0 : Vec F S2000x100 .f32) (x1 : Vec F S100x100 .f32) (x2 : Vec F S1x100 .f32) (x3 : Vec F S2000x100 .f32) (Q : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ (∃ d, owns (c : Thread nD τ) a4 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare (stored11 x0 x1 x2 x3)) -∗ Q ⟨⟩))
      ⊢ wp frame (wpE (defs₀ (F := F)) Variants.none c none) E (cc11__conv_finish_kernel i a0 ha0 a1 ha1 a2 ha2 a3 ha3 a4 ha4) Q := by
  simp only [cc11__conv_finish_kernel_eq_skeleton]; unfold cc11__conv_finish_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (whole11 _)

/-- The proof data of pipeline 11 on core `c`: the arrays as the region finds them; after the body each input's
    buffer at its block and the output's at `stored11` of the input blocks; the invariant that of a kernel that
    keeps nothing between points; nothing owed. -/
def dat11 (c : Dev nD) : Dat τ (Elt F) Unit ℕ (UR sig nD τ) ℕ cfg11 c where
  A w := V c (Pipeline.arrRef spec11 w)
  after w t := match w with
    | ⟨0, _⟩ => blk11 V c 0 t
    | ⟨1, _⟩ => blk11 V c 1 t
    | ⟨2, _⟩ => blk11 V c 2 t
    | ⟨3, _⟩ => blk11 V c 3 t
    | ⟨4, _⟩ => stored11 (blk11 V c 0 t) (blk11 V c 1 t) (blk11 V c 2 t) (blk11 V c 3 t)
  Φ _ := Pipeline.ΦA spec11 c
  q _ := fullShare
  owed _ := 0

theorem arr11 (c : Dev nD) (w : Fin cfg11.W) : (dat11 V c).A w = V c (Pipeline.arrRef spec11 w) := by
  dsimp only [dat11]
theorem left11_0 (c : Dev nD) (t : Fin cfg11.N) : (dat11 V c).after 0 t = blk11 V c 0 t := by dsimp only [dat11]
theorem left11_1 (c : Dev nD) (t : Fin cfg11.N) : (dat11 V c).after 1 t = blk11 V c 1 t := by dsimp only [dat11]
theorem left11_2 (c : Dev nD) (t : Fin cfg11.N) : (dat11 V c).after 2 t = blk11 V c 2 t := by dsimp only [dat11]
theorem left11_3 (c : Dev nD) (t : Fin cfg11.N) : (dat11 V c).after 3 t = blk11 V c 3 t := by dsimp only [dat11]
theorem left11_4 (c : Dev nD) (t : Fin cfg11.N) :
    (dat11 V c).after 4 t = stored11 (blk11 V c 0 t) (blk11 V c 1 t) (blk11 V c 2 t) (blk11 V c 3 t) := by dsimp only [dat11]
theorem found11_0 (c : Dev nD) (t : Fin cfg11.N) (d) : (dat11 V c).before 0 t d = blk11 V c 0 t :=
  found11_0_of V (dat11 V c) (arr11 V c 0) (left11_0 V c) t d
theorem found11_1 (c : Dev nD) (t : Fin cfg11.N) (d) : (dat11 V c).before 1 t d = blk11 V c 1 t :=
  found11_1_of V (dat11 V c) (arr11 V c 1) (left11_1 V c) t d
theorem found11_2 (c : Dev nD) (t : Fin cfg11.N) (d) : (dat11 V c).before 2 t d = blk11 V c 2 t :=
  found11_2_of V (dat11 V c) (arr11 V c 2) (left11_2 V c) t d
theorem found11_3 (c : Dev nD) (t : Fin cfg11.N) (d) : (dat11 V c).before 3 t d = blk11 V c 3 t :=
  found11_3_of V (dat11 V c) (arr11 V c 3) (left11_3 V c) t d

/-- What the pipeline hands the body at point `t`, -/
def handed11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d))
    ∗ (∃ d, owns (c : Thread nD τ) (st11_3 t) fullShare ((dat11 V c).before 3 t d))
    ∗ (∃ d, owns (c : Thread nD τ) (st11_4 t) fullShare ((dat11 V c).before 4 t d)))

/-- and what the body gives back. -/
def returned11 (c : Dev nD) (t : Fin cfg11.N) : sProp 𝕄 :=
  iprop((dat11 V c).Φ t.succ ∗ (dat11 V c).owesAt () t.succ
    ∗ owns (c : Thread nD τ) (st11_0 t) fullShare ((dat11 V c).after 0 t)
    ∗ owns (c : Thread nD τ) (st11_1 t) fullShare ((dat11 V c).after 1 t)
    ∗ owns (c : Thread nD τ) (st11_2 t) fullShare ((dat11 V c).after 2 t)
    ∗ owns (c : Thread nD τ) (st11_3 t) fullShare ((dat11 V c).after 3 t)
    ∗ owns (c : Thread nD τ) (st11_4 t) fullShare ((dat11 V c).after 4 t))

/-- The body at any point: the inputs' buffers hold their blocks, so `body11` applies; the invariant and the
    core's dues pass through untouched. -/
theorem at_point11 (c : Dev nD) (t : Fin cfg11.N) :
    handed11 V c t ⊢ wp frame (wpE (defs₀ (F := F)) Variants.none c none) Set.univ (bodyAt11 t) (fun _ => returned11 V c t) := by
  unfold handed11 returned11 bodyAt11
  simp only [found11_0, found11_1, found11_2, found11_3]
  rw [show (dat11 V c).Φ t.succ = (dat11 V c).Φ t.castSucc from rfl,
    show (dat11 V c).owesAt () t.succ = (dat11 V c).owesAt () t.castSucc from rfl,
    left11_0, left11_1, left11_2, left11_3, left11_4]
  iintro ⟨HΦ, Ho, ⟨%d0, H0⟩, ⟨%d1, H1⟩, ⟨%d2, H2⟩, ⟨%d3, H3⟩, ⟨%d4, H4⟩⟩
  iapply (body11 c Set.univ _ _ _ _ _ _ _ _ _ _ _ (blk11 V c 0 t) (blk11 V c 1 t) (blk11 V c 2 t) (blk11 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of pipeline 11, at every point. -/
theorem obligation11 (c : Dev nD) : BodyObligation (dat11 (F := F) V c) (defs₀ (F := F)) Variants.none () Set.univ := fun t => by
  rw [bigSep_W11, bigSep_W11]
  exact at_point11 V c t

end Cert.KernelIdeal.Fr

end
-- ==== Proof.KI.Region12.lean ====
/-
  Region 12 of the program (the pallas_call of `cc12__fingerprint_kernel`, the softmax fingerprint of layer 1's features), at any float instance.
  At every grid point the body reads each input block whole and writes the output block whole, so the output's
  staging buffer holds one function of the input blocks (`stored12`); an input block is where the pipeline
  left it whether or not the point fetched it, because the block index of an unfetched window has not moved.
  From these: the proof data of the pipeline (`dat12`) and the body obligation at every point (`obligation12`),
  both relative to the contents `V` the region is entered with.
-/
import proofs.«143046_j34703335751794_1_alg».proof.Proof.Gen.KernelIdeal.Launch
import proofs.«143046_j34703335751794_1_alg».proof.Proof.Gen.KernelIdeal.Skeleton
import proofs.«143046_j34703335751794_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the rectangle of its array (as the region finds it) that the index map
    names at `t`. -/
def blk12 (c : Dev nD) (w : Fin cfg12.W) (t : Fin cfg12.N) :
    ((cfg12.win w).xblock (cfg12.grid.coords t)).Idx → Elt F (cfg12.win w).elt :=
  ((cfg12.win w).blk t).view.read (Elt F) (V c (Pipeline.arrRef spec12 w))

/-- Input window 0's staging buffer holds the window's block at every point, fetched there or not. -/
theorem found12_0_of {c : Dev nD} (dat : Dat τ (Elt F) Unit ℕ (UR sig nD τ) ℕ cfg12 c)
    (hA : dat.A 0 = V c (Pipeline.arrRef spec12 0)) (hafter : ∀ t, dat.after 0 t = blk12 V c 0 t)
    (t : Fin cfg12.N) (d) : dat.before 0 t d = blk12 V c 0 t :=
  (dat.before_in_eq_fetched 0 rfl (fun _ => rfl) (fun _ _ _ => rfl)
      (fun t => by rw [hafter]; unfold Dat.blockOf blk12; rw [hA]; try rfl) t d).trans
    (by unfold Dat.fetched Dat.blockOf blk12; rw [hA]; try rfl)

/-- Input window 1's staging buffer holds the window's block at every point, fetched there or not. -/
theorem found12_1_of {c : Dev nD} (dat : Dat τ (Elt F) Unit ℕ (UR sig nD τ) ℕ cfg12 c)
    (hA : dat.A 1 = V c (Pipeline.arrRef spec12 1)) (hafter : ∀ t, dat.after 1 t = blk12 V c 1 t)
    (t : Fin cfg12.N) (d) : dat.before 1 t d = blk12 V c 1 t :=
  (dat.before_in_eq_fetched 1 rfl (fun _ => rfl) (fun _ _ _ => rfl)
      (fun t => by rw [hafter]; unfold Dat.blockOf blk12; rw [hA]; try rfl) t d).trans
    (by unfold Dat.fetched Dat.blockOf blk12; rw [hA]; try rfl)

/-- Input window 2's staging buffer holds the window's block at every point, fetched there or not. -/
theorem found12_2_of {c : Dev nD} (dat : Dat τ (Elt F) Unit ℕ (UR sig nD τ) ℕ cfg12 c)
    (hA : dat.A 2 = V c (Pipeline.arrRef spec12 2)) (hafter : ∀ t, dat.after 2 t = blk12 V c 2 t)
    (t : Fin cfg12.N) (d) : dat.before 2 t d = blk12 V c 2 t :=
  (dat.before_in_eq_fetched 2 rfl (fun _ => rfl) (fun _ _ _ => rfl)
      (fun t => by rw [hafter]; unfold Dat.blockOf blk12; rw [hA]; try rfl) t d).trans
    (by unfold Dat.fetched Dat.blockOf blk12; rw [hA]; try rfl)

/-- What the body leaves in the output's staging buffer: its one store, of the body's value at the whole input
    blocks, over the whole block. -/
def stored12 (x0 : Vec F S2000x100 .f32) (x1 : Vec F S100x512 .f32) (x2 : Vec F S1x512 .f32) : Vec F S2000x512 .f32 :=
  View.canon [⟨(Rect.unit (s := S2000x512) ![0, 0] S2000x512.size inb_S2000x512_S2000x512_0_0), k12_pay1 (View.ld x0 (Rect.unit (s := S2000x100) ![0, 0] S2000x100.size inb_S2000x100_S2000x100_0_0)) (View.ld x1 (Rect.unit (s := S100x512) ![0, 0] S100x512.size inb_S100x512_S100x512_0_0)) (View.ld x2 (Rect.unit (s := S1x512) ![0, 0] S1x512.size inb_S1x512_S1x512_0_0))⟩]

/-- The store's rectangle is the whole block. -/
theorem whole12 (p : Vec F S2000x512 .f32) (y : S2000x512.Idx) :
    ∃ pc ∈ ([⟨(Rect.unit (s := S2000x512) ![0, 0] S2000x512.size inb_S2000x512_S2000x512_0_0), p⟩] : List (View.Piece (Elt F) S2000x512 .f32)), y ∈ pc.1.set :=
  View.cover_of_tiled [⟨(Rect.unit (s := S2000x512) ![0, 0] S2000x512.size inb_S2000x512_S2000x512_0_0), p⟩] S2000x512.size (by rfl) y

set_option maxHeartbeats 1000000 in
/-- The body, run on whole staging buffers holding `x0 …` (the output's holding anything), ends with the inputs as
    they were and the output's at `stored12` of them. -/
theorem body12 (c : Dev nD) (E : Set ℕ) (i : grid12.Coords) (a0 : Memref sig .tc .vmem S2000x100 .f32) (ha0 : a0.IsWhole) (a1 : Memref sig .tc .vmem S100x512 .f32) (ha1 : a1.IsWhole) (a2 : Memref sig .tc .vmem S1x512 .f32) (ha2 : a2.IsWhole) (a3 : Memref sig .tc .vmem S2000x512 .f32) (ha3 : a3.IsWhole)
    (x0 : Vec F S2000x100 .f32) (x1 : Vec F S100x512 .f32) (x2 : Vec F S1x512 .f32) (Q : PUnit → sProp 𝕄) :
    iprop(owns (c : Thread nD τ) a0 fullShare x0 ∗ owns (c : Thread nD τ) a1 fullShare x1 ∗ owns (c : Thread nD τ) a2 fullShare x2 ∗ (∃ d, owns (c : Thread nD τ) a3 fullShare d)
        ∗ (iprop(owns (c : Thread nD τ) a0 fullShare x0 ∗ owns (c : Thread nD τ) a1 fullShare x1 ∗ owns (c : Thread nD τ) a2 fullShare x2 ∗ owns (c : Thread nD τ) a3 fullShare (stored12 x0 x1 x2)) -∗ Q ⟨⟩))
      ⊢ wp frame (wpE (defs₀ (F := F)) Variants.none c none) E (cc12__fingerprint_kernel i a0 ha0 a1 ha1 a2 ha2 a3 ha3) Q := by
  simp only [cc12__fingerprint_kernel_eq_skeleton]; unfold cc12__fingerprint_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (whole12 _)

/-- The proof data of pipeline 12 on core `c`: the arrays as the region finds them; after the body each input's
    buffer at its block and the output's at `stored12` of the input blocks; the invariant that of a kernel that
    keeps nothing between points; nothing owed. -/
def dat12 (c : Dev nD) : Dat τ (Elt F) Unit ℕ (UR sig nD τ) ℕ cfg12 c where
  A w := V c (Pipeline.arrRef spec12 w)
  after w t := match w with
    | ⟨0, _⟩ => blk12 V c 0 t
    | ⟨1, _⟩ => blk12 V c 1 t
    | ⟨2, _⟩ => blk12 V c 2 t
    | ⟨3, _⟩ => stored12 (blk12 V c 0 t) (blk12 V c 1 t) (blk12 V c 2 t)
  Φ _ := Pipeline.ΦA spec12 c
  q _ := fullShare
  owed _ := 0

theorem arr12 (c : Dev nD) (w : Fin cfg12.W) : (dat12 V c).A w = V c (Pipeline.arrRef spec12 w) := by
  dsimp only [dat12]
theorem left12_0 (c : Dev nD) (t : Fin cfg12.N) : (dat12 V c).after 0 t = blk12 V c 0 t := by dsimp only [dat12]
theorem left12_1 (c : Dev nD) (t : Fin cfg12.N) : (dat12 V c).after 1 t = blk12 V c 1 t := by dsimp only [dat12]
theorem left12_2 (c : Dev nD) (t : Fin cfg12.N) : (dat12 V c).after 2 t = blk12 V c 2 t := by dsimp only [dat12]
theorem left12_3 (c : Dev nD) (t : Fin cfg12.N) :
    (dat12 V c).after 3 t = stored12 (blk12 V c 0 t) (blk12 V c 1 t) (blk12 V c 2 t) := by dsimp only [dat12]
theorem found12_0 (c : Dev nD) (t : Fin cfg12.N) (d) : (dat12 V c).before 0 t d = blk12 V c 0 t :=
  found12_0_of V (dat12 V c) (arr12 V c 0) (left12_0 V c) t d
theorem found12_1 (c : Dev nD) (t : Fin cfg12.N) (d) : (dat12 V c).before 1 t d = blk12 V c 1 t :=
  found12_1_of V (dat12 V c) (arr12 V c 1) (left12_1 V c) t d
theorem found12_2 (c : Dev nD) (t : Fin cfg12.N) (d) : (dat12 V c).before 2 t d = blk12 V c 2 t :=
  found12_2_of V (dat12 V c) (arr12 V c 2) (left12_2 V c) t d

/-- What the pipeline hands the body at point `t`, -/
def handed12 (c : Dev nD) (t : Fin cfg12.N) : sProp 𝕄 :=
  iprop((dat12 V c).Φ t.castSucc ∗ (dat12 V c).owesAt () t.castSucc
    ∗ (∃ d, owns (c : Thread nD τ) (st12_0 t) fullShare ((dat12 V c).before 0 t d))
    ∗ (∃ d, owns (c : Thread nD τ) (st12_1 t) fullShare ((dat12 V c).before 1 t d))
    ∗ (∃ d, owns (c : Thread nD τ) (st12_2 t) fullShare ((dat12 V c).before 2 t d))
    ∗ (∃ d, owns (c : Thread nD τ) (st12_3 t) fullShare ((dat12 V c).before 3 t d)))

/-- and what the body gives back. -/
def returned12 (c : Dev nD) (t : Fin cfg12.N) : sProp 𝕄 :=
  iprop((dat12 V c).Φ t.succ ∗ (dat12 V c).owesAt () t.succ
    ∗ owns (c : Thread nD τ) (st12_0 t) fullShare ((dat12 V c).after 0 t)
    ∗ owns (c : Thread nD τ) (st12_1 t) fullShare ((dat12 V c).after 1 t)
    ∗ owns (c : Thread nD τ) (st12_2 t) fullShare ((dat12 V c).after 2 t)
    ∗ owns (c : Thread nD τ) (st12_3 t) fullShare ((dat12 V c).after 3 t))

/-- The body at any point: the inputs' buffers hold their blocks, so `body12` applies; the invariant and the
    core's dues pass through untouched. -/
theorem at_point12 (c : Dev nD) (t : Fin cfg12.N) :
    handed12 V c t ⊢ wp frame (wpE (defs₀ (F := F)) Variants.none c none) Set.univ (bodyAt12 t) (fun _ => returned12 V c t) := by
  unfold handed12 returned12 bodyAt12
  simp only [found12_0, found12_1, found12_2]
  rw [show (dat12 V c).Φ t.succ = (dat12 V c).Φ t.castSucc from rfl,
    show (dat12 V c).owesAt () t.succ = (dat12 V c).owesAt () t.castSucc from rfl,
    left12_0, left12_1, left12_2, left12_3]
  iintro ⟨HΦ, Ho, ⟨%d0, H0⟩, ⟨%d1, H1⟩, ⟨%d2, H2⟩, ⟨%d3, H3⟩⟩
  iapply (body12 c Set.univ _ _ _ _ _ _ _ _ _ (blk12 V c 0 t) (blk12 V c 1 t) (blk12 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of pipeline 12, at every point. -/
theorem obligation12 (c : Dev nD) : BodyObligation (dat12 (F := F) V c) (defs₀ (F := F)) Variants.none () Set.univ := fun t => by
  rw [bigSep_W12, bigSep_W12]
  exact at_point12 V c t

end Cert.KernelIdeal.Fr

end
-- ==== Proof.KI.Chain.lean ====
/-
  The buffers' contents between the items of the program (host stretch, pallas_call, host stretch, …), on each core:
  the launch memory, then alternately the fold of a host stretch's operations and the update, at a pallas_call's result
  array, to what that pipeline's write-backs leave (`Dat.arrAt` at the last point) — every other buffer, the call's
  inputs among them, as the call found it. `outs` names these contents the way the conditional frame of the program
  reads them, and `pdats` is every pipeline's proof data at the contents its call is entered with.
-/
import proofs.«143046_j34703335751794_1_alg».proof.Proof.KI.Region0
import proofs.«143046_j34703335751794_1_alg».proof.Proof.KI.Region1
import proofs.«143046_j34703335751794_1_alg».proof.Proof.KI.Region2
import proofs.«143046_j34703335751794_1_alg».proof.Proof.KI.Region3
import proofs.«143046_j34703335751794_1_alg».proof.Proof.KI.Region4
import proofs.«143046_j34703335751794_1_alg».proof.Proof.KI.Region5
import proofs.«143046_j34703335751794_1_alg».proof.Proof.KI.Region6
import proofs.«143046_j34703335751794_1_alg».proof.Proof.KI.Region7
import proofs.«143046_j34703335751794_1_alg».proof.Proof.KI.Region8
import proofs.«143046_j34703335751794_1_alg».proof.Proof.KI.Region9
import proofs.«143046_j34703335751794_1_alg».proof.Proof.KI.Region10
import proofs.«143046_j34703335751794_1_alg».proof.Proof.KI.Region11
import proofs.«143046_j34703335751794_1_alg».proof.Proof.KI.Region12
import proofs.«143046_j34703335751794_1_alg».proof.Proof.Gen.KernelIdeal.Regions

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Core `c`'s buffers at launch. -/
abbrev W0 (c : Dev nD) : Valuation τ sig (Elt F) := fun b => m (c, b)
/-- After host stretch 0: what pallas_call 0 is entered with. -/
abbrev W1 (c : Dev nD) : Valuation τ sig (Elt F) := StableHlo.after hostOps0 (W0 m c)
abbrev E1 : (c : Dev nD) → (b : Ref sig .tc) → Buf (Elt F) ((c : Thread nD τ).loc b) := fun c b => W1 m c b
/-- After pallas_call 0: its result array `main_v1` at what the write-backs leave, the rest as entered. -/
def W2 (c : Dev nD) : Valuation τ sig (Elt F) :=
  Function.update (W1 m c) main_v1 ((dat0 (E1 m) c).arrAt 3 cfg0.N)
abbrev E2 : (c : Dev nD) → (b : Ref sig .tc) → Buf (Elt F) ((c : Thread nD τ).loc b) := fun c b => W2 m c b
theorem W2_at (c : Dev nD) : W2 m c main_v1 = (dat0 (E1 m) c).arrAt 3 cfg0.N := by
  simp only [W2, Function.update_self]
theorem W2_off (c : Dev nD) (b : Ref sig .tc) (h : b ≠ main_v1) : W2 m c b = W1 m c b := by
  simp only [W2, Function.update_of_ne (StableHlo.devRef_ne_of_ne h : (Proc.devRef .tc b : DevRef τ sig) ≠ Proc.devRef .tc main_v1)]
/-- After host stretch 1: what pallas_call 1 is entered with. -/
abbrev W3 (c : Dev nD) : Valuation τ sig (Elt F) := StableHlo.after hostOps1 (W2 m c)
abbrev E3 : (c : Dev nD) → (b : Ref sig .tc) → Buf (Elt F) ((c : Thread nD τ).loc b) := fun c b => W3 m c b
/-- After pallas_call 1: its result array `main_v28` at what the write-backs leave, the rest as entered. -/
def W4 (c : Dev nD) : Valuation τ sig (Elt F) :=
  Function.update (W3 m c) main_v28 ((dat1 (E3 m) c).arrAt 3 cfg1.N)
abbrev E4 : (c : Dev nD) → (b : Ref sig .tc) → Buf (Elt F) ((c : Thread nD τ).loc b) := fun c b => W4 m c b
theorem W4_at (c : Dev nD) : W4 m c main_v28 = (dat1 (E3 m) c).arrAt 3 cfg1.N := by
  simp only [W4, Function.update_self]
theorem W4_off (c : Dev nD) (b : Ref sig .tc) (h : b ≠ main_v28) : W4 m c b = W3 m c b := by
  simp only [W4, Function.update_of_ne (StableHlo.devRef_ne_of_ne h : (Proc.devRef .tc b : DevRef τ sig) ≠ Proc.devRef .tc main_v28)]
/-- After host stretch 2: what pallas_call 2 is entered with. -/
abbrev W5 (c : Dev nD) : Valuation τ sig (Elt F) := StableHlo.after hostOps2 (W4 m c)
abbrev E5 : (c : Dev nD) → (b : Ref sig .tc) → Buf (Elt F) ((c : Thread nD τ).loc b) := fun c b => W5 m c b
/-- After pallas_call 2: its result array `main_v51` at what the write-backs leave, the rest as entered. -/
def W6 (c : Dev nD) : Valuation τ sig (Elt F) :=
  Function.update (W5 m c) main_v51 ((dat2 (E5 m) c).arrAt 3 cfg2.N)
abbrev E6 : (c : Dev nD) → (b : Ref sig .tc) → Buf (Elt F) ((c : Thread nD τ).loc b) := fun c b => W6 m c b
theorem W6_at (c : Dev nD) : W6 m c main_v51 = (dat2 (E5 m) c).arrAt 3 cfg2.N := by
  simp only [W6, Function.update_self]
theorem W6_off (c : Dev nD) (b : Ref sig .tc) (h : b ≠ main_v51) : W6 m c b = W5 m c b := by
  simp only [W6, Function.update_of_ne (StableHlo.devRef_ne_of_ne h : (Proc.devRef .tc b : DevRef τ sig) ≠ Proc.devRef .tc main_v51)]
/-- After host stretch 3: what pallas_call 3 is entered with. -/
abbrev W7 (c : Dev nD) : Valuation τ sig (Elt F) := StableHlo.after hostOps3 (W6 m c)
abbrev E7 : (c : Dev nD) → (b : Ref sig .tc) → Buf (Elt F) ((c : Thread nD τ).loc b) := fun c b => W7 m c b
/-- After pallas_call 3: its result array `main_v74` at what the write-backs leave, the rest as entered. -/
def W8 (c : Dev nD) : Valuation τ sig (Elt F) :=
  Function.update (W7 m c) main_v74 ((dat3 (E7 m) c).arrAt 3 cfg3.N)
abbrev E8 : (c : Dev nD) → (b : Ref sig .tc) → Buf (Elt F) ((c : Thread nD τ).loc b) := fun c b => W8 m c b
theorem W8_at (c : Dev nD) : W8 m c main_v74 = (dat3 (E7 m) c).arrAt 3 cfg3.N := by
  simp only [W8, Function.update_self]
theorem W8_off (c : Dev nD) (b : Ref sig .tc) (h : b ≠ main_v74) : W8 m c b = W7 m c b := by
  simp only [W8, Function.update_of_ne (StableHlo.devRef_ne_of_ne h : (Proc.devRef .tc b : DevRef τ sig) ≠ Proc.devRef .tc main_v74)]
/-- After host stretch 4: what pallas_call 4 is entered with. -/
abbrev W9 (c : Dev nD) : Valuation τ sig (Elt F) := StableHlo.after hostOps4 (W8 m c)
abbrev E9 : (c : Dev nD) → (b : Ref sig .tc) → Buf (Elt F) ((c : Thread nD τ).loc b) := fun c b => W9 m c b
/-- After pallas_call 4: its result array `main_v97` at what the write-backs leave, the rest as entered. -/
def W10 (c : Dev nD) : Valuation τ sig (Elt F) :=
  Function.update (W9 m c) main_v97 ((dat4 (E9 m) c).arrAt 3 cfg4.N)
abbrev E10 : (c : Dev nD) → (b : Ref sig .tc) → Buf (Elt F) ((c : Thread nD τ).loc b) := fun c b => W10 m c b
theorem W10_at (c : Dev nD) : W10 m c main_v97 = (dat4 (E9 m) c).arrAt 3 cfg4.N := by
  simp only [W10, Function.update_self]
theorem W10_off (c : Dev nD) (b : Ref sig .tc) (h : b ≠ main_v97) : W10 m c b = W9 m c b := by
  simp only [W10, Function.update_of_ne (StableHlo.devRef_ne_of_ne h : (Proc.devRef .tc b : DevRef τ sig) ≠ Proc.devRef .tc main_v97)]
/-- After host stretch 5: what pallas_call 5 is entered with. -/
abbrev W11 (c : Dev nD) : Valuation τ sig (Elt F) := StableHlo.after hostOps5 (W10 m c)
abbrev E11 : (c : Dev nD) → (b : Ref sig .tc) → Buf (Elt F) ((c : Thread nD τ).loc b) := fun c b => W11 m c b
/-- After pallas_call 5: its result array `main_v99` at what the write-backs leave, the rest as entered. -/
def W12 (c : Dev nD) : Valuation τ sig (Elt F) :=
  Function.update (W11 m c) main_v99 ((dat5 (E11 m) c).arrAt 4 cfg5.N)
abbrev E12 : (c : Dev nD) → (b : Ref sig .tc) → Buf (Elt F) ((c : Thread nD τ).loc b) := fun c b => W12 m c b
theorem W12_at (c : Dev nD) : W12 m c main_v99 = (dat5 (E11 m) c).arrAt 4 cfg5.N := by
  simp only [W12, Function.update_self]
theorem W12_off (c : Dev nD) (b : Ref sig .tc) (h : b ≠ main_v99) : W12 m c b = W11 m c b := by
  simp only [W12, Function.update_of_ne (StableHlo.devRef_ne_of_ne h : (Proc.devRef .tc b : DevRef τ sig) ≠ Proc.devRef .tc main_v99)]
/-- After host stretch 6: what pallas_call 6 is entered with. -/
abbrev W13 (c : Dev nD) : Valuation τ sig (Elt F) := StableHlo.after hostOps6 (W12 m c)
abbrev E13 : (c : Dev nD) → (b : Ref sig .tc) → Buf (Elt F) ((c : Thread nD τ).loc b) := fun c b => W13 m c b
/-- After pallas_call 6: its result array `main_v101` at what the write-backs leave, the rest as entered. -/
def W14 (c : Dev nD) : Valuation τ sig (Elt F) :=
  Function.update (W13 m c) main_v101 ((dat6 (E13 m) c).arrAt 3 cfg6.N)
abbrev E14 : (c : Dev nD) → (b : Ref sig .tc) → Buf (Elt F) ((c : Thread nD τ).loc b) := fun c b => W14 m c b
theorem W14_at (c : Dev nD) : W14 m c main_v101 = (dat6 (E13 m) c).arrAt 3 cfg6.N := by
  simp only [W14, Function.update_self]
theorem W14_off (c : Dev nD) (b : Ref sig .tc) (h : b ≠ main_v101) : W14 m c b = W13 m c b := by
  simp only [W14, Function.update_of_ne (StableHlo.devRef_ne_of_ne h : (Proc.devRef .tc b : DevRef τ sig) ≠ Proc.devRef .tc main_v101)]
/-- After host stretch 7: what pallas_call 7 is entered with. -/
abbrev W15 (c : Dev nD) : Valuation τ sig (Elt F) := StableHlo.after hostOps7 (W14 m c)
abbrev E15 : (c : Dev nD) → (b : Ref sig .tc) → Buf (Elt F) ((c : Thread nD τ).loc b) := fun c b => W15 m c b
/-- After pallas_call 7: its result array `main_v129` at what the write-backs leave, the rest as entered. -/
def W16 (c : Dev nD) : Valuation τ sig (Elt F) :=
  Function.update (W15 m c) main_v129 ((dat7 (E15 m) c).arrAt 3 cfg7.N)
abbrev E16 : (c : Dev nD) → (b : Ref sig .tc) → Buf (Elt F) ((c : Thread nD τ).loc b) := fun c b => W16 m c b
theorem W16_at (c : Dev nD) : W16 m c main_v129 = (dat7 (E15 m) c).arrAt 3 cfg7.N := by
  simp only [W16, Function.update_self]
theorem W16_off (c : Dev nD) (b : Ref sig .tc) (h : b ≠ main_v129) : W16 m c b = W15 m c b := by
  simp only [W16, Function.update_of_ne (StableHlo.devRef_ne_of_ne h : (Proc.devRef .tc b : DevRef τ sig) ≠ Proc.devRef .tc main_v129)]
/-- After host stretch 8: what pallas_call 8 is entered with. -/
abbrev W17 (c : Dev nD) : Valuation τ sig (Elt F) := StableHlo.after hostOps8 (W16 m c)
abbrev E17 : (c : Dev nD) → (b : Ref sig .tc) → Buf (Elt F) ((c : Thread nD τ).loc b) := fun c b => W17 m c b
/-- After pallas_call 8: its result array `main_v152` at what the write-backs leave, the rest as entered. -/
def W18 (c : Dev nD) : Valuation τ sig (Elt F) :=
  Function.update (W17 m c) main_v152 ((dat8 (E17 m) c).arrAt 3 cfg8.N)
abbrev E18 : (c : Dev nD) → (b : Ref sig .tc) → Buf (Elt F) ((c : Thread nD τ).loc b) := fun c b => W18 m c b
theorem W18_at (c : Dev nD) : W18 m c main_v152 = (dat8 (E17 m) c).arrAt 3 cfg8.N := by
  simp only [W18, Function.update_self]
theorem W18_off (c : Dev nD) (b : Ref sig .tc) (h : b ≠ main_v152) : W18 m c b = W17 m c b := by
  simp only [W18, Function.update_of_ne (StableHlo.devRef_ne_of_ne h : (Proc.devRef .tc b : DevRef τ sig) ≠ Proc.devRef .tc main_v152)]
/-- After host stretch 9: what pallas_call 9 is entered with. -/
abbrev W19 (c : Dev nD) : Valuation τ sig (Elt F) := StableHlo.after hostOps9 (W18 m c)
abbrev E19 : (c : Dev nD) → (b : Ref sig .tc) → Buf (Elt F) ((c : Thread nD τ).loc b) := fun c b => W19 m c b
/-- After pallas_call 9: its result array `main_v175` at what the write-backs leave, the rest as entered. -/
def W20 (c : Dev nD) : Valuation τ sig (Elt F) :=
  Function.update (W19 m c) main_v175 ((dat9 (E19 m) c).arrAt 3 cfg9.N)
abbrev E20 : (c : Dev nD) → (b : Ref sig .tc) → Buf (Elt F) ((c : Thread nD τ).loc b) := fun c b => W20 m c b
theorem W20_at (c : Dev nD) : W20 m c main_v175 = (dat9 (E19 m) c).arrAt 3 cfg9.N := by
  simp only [W20, Function.update_self]
theorem W20_off (c : Dev nD) (b : Ref sig .tc) (h : b ≠ main_v175) : W20 m c b = W19 m c b := by
  simp only [W20, Function.update_of_ne (StableHlo.devRef_ne_of_ne h : (Proc.devRef .tc b : DevRef τ sig) ≠ Proc.devRef .tc main_v175)]
/-- After host stretch 10: what pallas_call 10 is entered with. -/
abbrev W21 (c : Dev nD) : Valuation τ sig (Elt F) := StableHlo.after hostOps10 (W20 m c)
abbrev E21 : (c : Dev nD) → (b : Ref sig .tc) → Buf (Elt F) ((c : Thread nD τ).loc b) := fun c b => W21 m c b
/-- After pallas_call 10: its result array `main_v198` at what the write-backs leave, the rest as entered. -/
def W22 (c : Dev nD) : Valuation τ sig (Elt F) :=
  Function.update (W21 m c) main_v198 ((dat10 (E21 m) c).arrAt 3 cfg10.N)
abbrev E22 : (c : Dev nD) → (b : Ref sig .tc) → Buf (Elt F) ((c : Thread nD τ).loc b) := fun c b => W22 m c b
theorem W22_at (c : Dev nD) : W22 m c main_v198 = (dat10 (E21 m) c).arrAt 3 cfg10.N := by
  simp only [W22, Function.update_self]
theorem W22_off (c : Dev nD) (b : Ref sig .tc) (h : b ≠ main_v198) : W22 m c b = W21 m c b := by
  simp only [W22, Function.update_of_ne (StableHlo.devRef_ne_of_ne h : (Proc.devRef .tc b : DevRef τ sig) ≠ Proc.devRef .tc main_v198)]
/-- After host stretch 11: what pallas_call 11 is entered with. -/
abbrev W23 (c : Dev nD) : Valuation τ sig (Elt F) := StableHlo.after hostOps11 (W22 m c)
abbrev E23 : (c : Dev nD) → (b : Ref sig .tc) → Buf (Elt F) ((c : Thread nD τ).loc b) := fun c b => W23 m c b
/-- After pallas_call 11: its result array `main_v200` at what the write-backs leave, the rest as entered. -/
def W24 (c : Dev nD) : Valuation τ sig (Elt F) :=
  Function.update (W23 m c) main_v200 ((dat11 (E23 m) c).arrAt 4 cfg11.N)
abbrev E24 : (c : Dev nD) → (b : Ref sig .tc) → Buf (Elt F) ((c : Thread nD τ).loc b) := fun c b => W24 m c b
theorem W24_at (c : Dev nD) : W24 m c main_v200 = (dat11 (E23 m) c).arrAt 4 cfg11.N := by
  simp only [W24, Function.update_self]
theorem W24_off (c : Dev nD) (b : Ref sig .tc) (h : b ≠ main_v200) : W24 m c b = W23 m c b := by
  simp only [W24, Function.update_of_ne (StableHlo.devRef_ne_of_ne h : (Proc.devRef .tc b : DevRef τ sig) ≠ Proc.devRef .tc main_v200)]
/-- After host stretch 12: what pallas_call 12 is entered with. -/
abbrev W25 (c : Dev nD) : Valuation τ sig (Elt F) := StableHlo.after hostOps12 (W24 m c)
abbrev E25 : (c : Dev nD) → (b : Ref sig .tc) → Buf (Elt F) ((c : Thread nD τ).loc b) := fun c b => W25 m c b
/-- After pallas_call 12: its result array `main_v202` at what the write-backs leave, the rest as entered. -/
def W26 (c : Dev nD) : Valuation τ sig (Elt F) :=
  Function.update (W25 m c) main_v202 ((dat12 (E25 m) c).arrAt 3 cfg12.N)
abbrev E26 : (c : Dev nD) → (b : Ref sig .tc) → Buf (Elt F) ((c : Thread nD τ).loc b) := fun c b => W26 m c b
theorem W26_at (c : Dev nD) : W26 m c main_v202 = (dat12 (E25 m) c).arrAt 3 cfg12.N := by
  simp only [W26, Function.update_self]
theorem W26_off (c : Dev nD) (b : Ref sig .tc) (h : b ≠ main_v202) : W26 m c b = W25 m c b := by
  simp only [W26, Function.update_of_ne (StableHlo.devRef_ne_of_ne h : (Proc.devRef .tc b : DevRef τ sig) ≠ Proc.devRef .tc main_v202)]
/-- After the last host stretch: the contents at the return. -/
abbrev W27 (c : Dev nD) : Valuation τ sig (Elt F) := StableHlo.after hostOps13 (W26 m c)

/-- The contents the pallas_calls leave, as the conditional frame names them: after item `j − 1` buffer `r` holds
    what the chain above holds there. -/
def outs : Outs (F := F) := fun j r c => match j with
  | 2 => W2 m c r
  | 4 => W4 m c r
  | 6 => W6 m c r
  | 8 => W8 m c r
  | 10 => W10 m c r
  | 12 => W12 m c r
  | 14 => W14 m c r
  | 16 => W16 m c r
  | 18 => W18 m c r
  | 20 => W20 m c r
  | 22 => W22 m c r
  | 24 => W24 m c r
  | 26 => W26 m c r
  | _ => W0 m c r

/-! The conditional frame's own chain of contents, read at `outs`, is the chain above. -/
theorem chain1 (c : Dev nD) : V1 m c = W1 m c := rfl
theorem chain2 (c : Dev nD) : V2 m (outs m) c = W2 m c := by
  show Function.update (V1 m c) _ (W2 m c _) = W2 m c
  rw [chain1]; unfold W2; rw [Function.update_self]
theorem chain3 (c : Dev nD) : V3 m (outs m) c = W3 m c := by
  show StableHlo.after hostOps1 (V2 m (outs m) c) = _; rw [chain2]
theorem chain4 (c : Dev nD) : V4 m (outs m) c = W4 m c := by
  show Function.update (V3 m (outs m) c) _ (W4 m c _) = W4 m c
  rw [chain3]; unfold W4; rw [Function.update_self]
theorem chain5 (c : Dev nD) : V5 m (outs m) c = W5 m c := by
  show StableHlo.after hostOps2 (V4 m (outs m) c) = _; rw [chain4]
theorem chain6 (c : Dev nD) : V6 m (outs m) c = W6 m c := by
  show Function.update (V5 m (outs m) c) _ (W6 m c _) = W6 m c
  rw [chain5]; unfold W6; rw [Function.update_self]
theorem chain7 (c : Dev nD) : V7 m (outs m) c = W7 m c := by
  show StableHlo.after hostOps3 (V6 m (outs m) c) = _; rw [chain6]
theorem chain8 (c : Dev nD) : V8 m (outs m) c = W8 m c := by
  show Function.update (V7 m (outs m) c) _ (W8 m c _) = W8 m c
  rw [chain7]; unfold W8; rw [Function.update_self]
theorem chain9 (c : Dev nD) : V9 m (outs m) c = W9 m c := by
  show StableHlo.after hostOps4 (V8 m (outs m) c) = _; rw [chain8]
theorem chain10 (c : Dev nD) : V10 m (outs m) c = W10 m c := by
  show Function.update (V9 m (outs m) c) _ (W10 m c _) = W10 m c
  rw [chain9]; unfold W10; rw [Function.update_self]
theorem chain11 (c : Dev nD) : V11 m (outs m) c = W11 m c := by
  show StableHlo.after hostOps5 (V10 m (outs m) c) = _; rw [chain10]
theorem chain12 (c : Dev nD) : V12 m (outs m) c = W12 m c := by
  show Function.update (V11 m (outs m) c) _ (W12 m c _) = W12 m c
  rw [chain11]; unfold W12; rw [Function.update_self]
theorem chain13 (c : Dev nD) : V13 m (outs m) c = W13 m c := by
  show StableHlo.after hostOps6 (V12 m (outs m) c) = _; rw [chain12]
theorem chain14 (c : Dev nD) : V14 m (outs m) c = W14 m c := by
  show Function.update (V13 m (outs m) c) _ (W14 m c _) = W14 m c
  rw [chain13]; unfold W14; rw [Function.update_self]
theorem chain15 (c : Dev nD) : V15 m (outs m) c = W15 m c := by
  show StableHlo.after hostOps7 (V14 m (outs m) c) = _; rw [chain14]
theorem chain16 (c : Dev nD) : V16 m (outs m) c = W16 m c := by
  show Function.update (V15 m (outs m) c) _ (W16 m c _) = W16 m c
  rw [chain15]; unfold W16; rw [Function.update_self]
theorem chain17 (c : Dev nD) : V17 m (outs m) c = W17 m c := by
  show StableHlo.after hostOps8 (V16 m (outs m) c) = _; rw [chain16]
theorem chain18 (c : Dev nD) : V18 m (outs m) c = W18 m c := by
  show Function.update (V17 m (outs m) c) _ (W18 m c _) = W18 m c
  rw [chain17]; unfold W18; rw [Function.update_self]
theorem chain19 (c : Dev nD) : V19 m (outs m) c = W19 m c := by
  show StableHlo.after hostOps9 (V18 m (outs m) c) = _; rw [chain18]
theorem chain20 (c : Dev nD) : V20 m (outs m) c = W20 m c := by
  show Function.update (V19 m (outs m) c) _ (W20 m c _) = W20 m c
  rw [chain19]; unfold W20; rw [Function.update_self]
theorem chain21 (c : Dev nD) : V21 m (outs m) c = W21 m c := by
  show StableHlo.after hostOps10 (V20 m (outs m) c) = _; rw [chain20]
theorem chain22 (c : Dev nD) : V22 m (outs m) c = W22 m c := by
  show Function.update (V21 m (outs m) c) _ (W22 m c _) = W22 m c
  rw [chain21]; unfold W22; rw [Function.update_self]
theorem chain23 (c : Dev nD) : V23 m (outs m) c = W23 m c := by
  show StableHlo.after hostOps11 (V22 m (outs m) c) = _; rw [chain22]
theorem chain24 (c : Dev nD) : V24 m (outs m) c = W24 m c := by
  show Function.update (V23 m (outs m) c) _ (W24 m c _) = W24 m c
  rw [chain23]; unfold W24; rw [Function.update_self]
theorem chain25 (c : Dev nD) : V25 m (outs m) c = W25 m c := by
  show StableHlo.after hostOps12 (V24 m (outs m) c) = _; rw [chain24]
theorem chain26 (c : Dev nD) : V26 m (outs m) c = W26 m c := by
  show Function.update (V25 m (outs m) c) _ (W26 m c _) = W26 m c
  rw [chain25]; unfold W26; rw [Function.update_self]
theorem chain27 (c : Dev nD) : V27 m (outs m) c = W27 m c := by
  show StableHlo.after hostOps13 (V26 m (outs m) c) = _; rw [chain26]

/-- At pallas_call 0's exit each of its arrays holds what the pipeline leaves there: an input what it held at
    entry, the result the write-backs' fold. -/
theorem ends0 (c : Dev nD) : ∀ w : Fin cfg0.W,
    (dat0 (E1 m) c).arrAt w cfg0.N = E2 m c (Pipeline.arrRef spec0 w)
  | ⟨0, _⟩ => by
      show (dat0 (E1 m) c).arrAt 0 cfg0.N = W2 m c main_arg0
      rw [W2_off m c main_arg0 (by decide)]
      exact ((dat0 (E1 m) c).arrAt_in 0 rfl _).trans (arr0 (E1 m) c 0)
  | ⟨1, _⟩ => by
      show (dat0 (E1 m) c).arrAt 1 cfg0.N = W2 m c main_arg19
      rw [W2_off m c main_arg19 (by decide)]
      exact ((dat0 (E1 m) c).arrAt_in 1 rfl _).trans (arr0 (E1 m) c 1)
  | ⟨2, _⟩ => by
      show (dat0 (E1 m) c).arrAt 2 cfg0.N = W2 m c main_v0
      rw [W2_off m c main_v0 (by decide)]
      exact ((dat0 (E1 m) c).arrAt_in 2 rfl _).trans (arr0 (E1 m) c 2)
  | ⟨3, _⟩ => by
      show (dat0 (E1 m) c).arrAt 3 cfg0.N = W2 m c main_v1
      rw [W2_at]
/-- Every buffer that is none of its arrays is as it was at entry. -/
theorem rest0 (c : Dev nD) : ∀ b, b ∉ Finset.univ.image (Pipeline.arrRef spec0) → E2 m c b = E1 m c b :=
  fun b hb => W2_off m c b fun e => hb (Finset.mem_image.mpr
    ⟨3, Finset.mem_univ _, (show Pipeline.arrRef spec0 3 = main_v1 from rfl).trans e.symm⟩)

/-- At pallas_call 1's exit each of its arrays holds what the pipeline leaves there: an input what it held at
    entry, the result the write-backs' fold. -/
theorem ends1 (c : Dev nD) : ∀ w : Fin cfg1.W,
    (dat1 (E3 m) c).arrAt w cfg1.N = E4 m c (Pipeline.arrRef spec1 w)
  | ⟨0, _⟩ => by
      show (dat1 (E3 m) c).arrAt 0 cfg1.N = W4 m c main_v22
      rw [W4_off m c main_v22 (by decide)]
      exact ((dat1 (E3 m) c).arrAt_in 0 rfl _).trans (arr1 (E3 m) c 0)
  | ⟨1, _⟩ => by
      show (dat1 (E3 m) c).arrAt 1 cfg1.N = W4 m c main_v24
      rw [W4_off m c main_v24 (by decide)]
      exact ((dat1 (E3 m) c).arrAt_in 1 rfl _).trans (arr1 (E3 m) c 1)
  | ⟨2, _⟩ => by
      show (dat1 (E3 m) c).arrAt 2 cfg1.N = W4 m c main_v27
      rw [W4_off m c main_v27 (by decide)]
      exact ((dat1 (E3 m) c).arrAt_in 2 rfl _).trans (arr1 (E3 m) c 2)
  | ⟨3, _⟩ => by
      show (dat1 (E3 m) c).arrAt 3 cfg1.N = W4 m c main_v28
      rw [W4_at]
/-- Every buffer that is none of its arrays is as it was at entry. -/
theorem rest1 (c : Dev nD) : ∀ b, b ∉ Finset.univ.image (Pipeline.arrRef spec1) → E4 m c b = E3 m c b :=
  fun b hb => W4_off m c b fun e => hb (Finset.mem_image.mpr
    ⟨3, Finset.mem_univ _, (show Pipeline.arrRef spec1 3 = main_v28 from rfl).trans e.symm⟩)

/-- At pallas_call 2's exit each of its arrays holds what the pipeline leaves there: an input what it held at
    entry, the result the write-backs' fold. -/
theorem ends2 (c : Dev nD) : ∀ w : Fin cfg2.W,
    (dat2 (E5 m) c).arrAt w cfg2.N = E6 m c (Pipeline.arrRef spec2 w)
  | ⟨0, _⟩ => by
      show (dat2 (E5 m) c).arrAt 0 cfg2.N = W6 m c main_v45
      rw [W6_off m c main_v45 (by decide)]
      exact ((dat2 (E5 m) c).arrAt_in 0 rfl _).trans (arr2 (E5 m) c 0)
  | ⟨1, _⟩ => by
      show (dat2 (E5 m) c).arrAt 1 cfg2.N = W6 m c main_v47
      rw [W6_off m c main_v47 (by decide)]
      exact ((dat2 (E5 m) c).arrAt_in 1 rfl _).trans (arr2 (E5 m) c 1)
  | ⟨2, _⟩ => by
      show (dat2 (E5 m) c).arrAt 2 cfg2.N = W6 m c main_v50
      rw [W6_off m c main_v50 (by decide)]
      exact ((dat2 (E5 m) c).arrAt_in 2 rfl _).trans (arr2 (E5 m) c 2)
  | ⟨3, _⟩ => by
      show (dat2 (E5 m) c).arrAt 3 cfg2.N = W6 m c main_v51
      rw [W6_at]
/-- Every buffer that is none of its arrays is as it was at entry. -/
theorem rest2 (c : Dev nD) : ∀ b, b ∉ Finset.univ.image (Pipeline.arrRef spec2) → E6 m c b = E5 m c b :=
  fun b hb => W6_off m c b fun e => hb (Finset.mem_image.mpr
    ⟨3, Finset.mem_univ _, (show Pipeline.arrRef spec2 3 = main_v51 from rfl).trans e.symm⟩)

/-- At pallas_call 3's exit each of its arrays holds what the pipeline leaves there: an input what it held at
    entry, the result the write-backs' fold. -/
theorem ends3 (c : Dev nD) : ∀ w : Fin cfg3.W,
    (dat3 (E7 m) c).arrAt w cfg3.N = E8 m c (Pipeline.arrRef spec3 w)
  | ⟨0, _⟩ => by
      show (dat3 (E7 m) c).arrAt 0 cfg3.N = W8 m c main_v68
      rw [W8_off m c main_v68 (by decide)]
      exact ((dat3 (E7 m) c).arrAt_in 0 rfl _).trans (arr3 (E7 m) c 0)
  | ⟨1, _⟩ => by
      show (dat3 (E7 m) c).arrAt 1 cfg3.N = W8 m c main_v70
      rw [W8_off m c main_v70 (by decide)]
      exact ((dat3 (E7 m) c).arrAt_in 1 rfl _).trans (arr3 (E7 m) c 1)
  | ⟨2, _⟩ => by
      show (dat3 (E7 m) c).arrAt 2 cfg3.N = W8 m c main_v73
      rw [W8_off m c main_v73 (by decide)]
      exact ((dat3 (E7 m) c).arrAt_in 2 rfl _).trans (arr3 (E7 m) c 2)
  | ⟨3, _⟩ => by
      show (dat3 (E7 m) c).arrAt 3 cfg3.N = W8 m c main_v74
      rw [W8_at]
/-- Every buffer that is none of its arrays is as it was at entry. -/
theorem rest3 (c : Dev nD) : ∀ b, b ∉ Finset.univ.image (Pipeline.arrRef spec3) → E8 m c b = E7 m c b :=
  fun b hb => W8_off m c b fun e => hb (Finset.mem_image.mpr
    ⟨3, Finset.mem_univ _, (show Pipeline.arrRef spec3 3 = main_v74 from rfl).trans e.symm⟩)

/-- At pallas_call 4's exit each of its arrays holds what the pipeline leaves there: an input what it held at
    entry, the result the write-backs' fold. -/
theorem ends4 (c : Dev nD) : ∀ w : Fin cfg4.W,
    (dat4 (E9 m) c).arrAt w cfg4.N = E10 m c (Pipeline.arrRef spec4 w)
  | ⟨0, _⟩ => by
      show (dat4 (E9 m) c).arrAt 0 cfg4.N = W10 m c main_v91
      rw [W10_off m c main_v91 (by decide)]
      exact ((dat4 (E9 m) c).arrAt_in 0 rfl _).trans (arr4 (E9 m) c 0)
  | ⟨1, _⟩ => by
      show (dat4 (E9 m) c).arrAt 1 cfg4.N = W10 m c main_v93
      rw [W10_off m c main_v93 (by decide)]
      exact ((dat4 (E9 m) c).arrAt_in 1 rfl _).trans (arr4 (E9 m) c 1)
  | ⟨2, _⟩ => by
      show (dat4 (E9 m) c).arrAt 2 cfg4.N = W10 m c main_v96
      rw [W10_off m c main_v96 (by decide)]
      exact ((dat4 (E9 m) c).arrAt_in 2 rfl _).trans (arr4 (E9 m) c 2)
  | ⟨3, _⟩ => by
      show (dat4 (E9 m) c).arrAt 3 cfg4.N = W10 m c main_v97
      rw [W10_at]
/-- Every buffer that is none of its arrays is as it was at entry. -/
theorem rest4 (c : Dev nD) : ∀ b, b ∉ Finset.univ.image (Pipeline.arrRef spec4) → E10 m c b = E9 m c b :=
  fun b hb => W10_off m c b fun e => hb (Finset.mem_image.mpr
    ⟨3, Finset.mem_univ _, (show Pipeline.arrRef spec4 3 = main_v97 from rfl).trans e.symm⟩)

/-- At pallas_call 5's exit each of its arrays holds what the pipeline leaves there: an input what it held at
    entry, the result the write-backs' fold. -/
theorem ends5 (c : Dev nD) : ∀ w : Fin cfg5.W,
    (dat5 (E11 m) c).arrAt w cfg5.N = E12 m c (Pipeline.arrRef spec5 w)
  | ⟨0, _⟩ => by
      show (dat5 (E11 m) c).arrAt 0 cfg5.N = W12 m c main_arg0
      rw [W12_off m c main_arg0 (by decide)]
      exact ((dat5 (E11 m) c).arrAt_in 0 rfl _).trans (arr5 (E11 m) c 0)
  | ⟨1, _⟩ => by
      show (dat5 (E11 m) c).arrAt 1 cfg5.N = W12 m c main_arg11
      rw [W12_off m c main_arg11 (by decide)]
      exact ((dat5 (E11 m) c).arrAt_in 1 rfl _).trans (arr5 (E11 m) c 1)
  | ⟨2, _⟩ => by
      show (dat5 (E11 m) c).arrAt 2 cfg5.N = W12 m c main_v5
      rw [W12_off m c main_v5 (by decide)]
      exact ((dat5 (E11 m) c).arrAt_in 2 rfl _).trans (arr5 (E11 m) c 2)
  | ⟨3, _⟩ => by
      show (dat5 (E11 m) c).arrAt 3 cfg5.N = W12 m c main_v98
      rw [W12_off m c main_v98 (by decide)]
      exact ((dat5 (E11 m) c).arrAt_in 3 rfl _).trans (arr5 (E11 m) c 3)
  | ⟨4, _⟩ => by
      show (dat5 (E11 m) c).arrAt 4 cfg5.N = W12 m c main_v99
      rw [W12_at]
/-- Every buffer that is none of its arrays is as it was at entry. -/
theorem rest5 (c : Dev nD) : ∀ b, b ∉ Finset.univ.image (Pipeline.arrRef spec5) → E12 m c b = E11 m c b :=
  fun b hb => W12_off m c b fun e => hb (Finset.mem_image.mpr
    ⟨4, Finset.mem_univ _, (show Pipeline.arrRef spec5 4 = main_v99 from rfl).trans e.symm⟩)

/-- At pallas_call 6's exit each of its arrays holds what the pipeline leaves there: an input what it held at
    entry, the result the write-backs' fold. -/
theorem ends6 (c : Dev nD) : ∀ w : Fin cfg6.W,
    (dat6 (E13 m) c).arrAt w cfg6.N = E14 m c (Pipeline.arrRef spec6 w)
  | ⟨0, _⟩ => by
      show (dat6 (E13 m) c).arrAt 0 cfg6.N = W14 m c main_v99
      rw [W14_off m c main_v99 (by decide)]
      exact ((dat6 (E13 m) c).arrAt_in 0 rfl _).trans (arr6 (E13 m) c 0)
  | ⟨1, _⟩ => by
      show (dat6 (E13 m) c).arrAt 1 cfg6.N = W14 m c main_arg21
      rw [W14_off m c main_arg21 (by decide)]
      exact ((dat6 (E13 m) c).arrAt_in 1 rfl _).trans (arr6 (E13 m) c 1)
  | ⟨2, _⟩ => by
      show (dat6 (E13 m) c).arrAt 2 cfg6.N = W14 m c main_v100
      rw [W14_off m c main_v100 (by decide)]
      exact ((dat6 (E13 m) c).arrAt_in 2 rfl _).trans (arr6 (E13 m) c 2)
  | ⟨3, _⟩ => by
      show (dat6 (E13 m) c).arrAt 3 cfg6.N = W14 m c main_v101
      rw [W14_at]
/-- Every buffer that is none of its arrays is as it was at entry. -/
theorem rest6 (c : Dev nD) : ∀ b, b ∉ Finset.univ.image (Pipeline.arrRef spec6) → E14 m c b = E13 m c b :=
  fun b hb => W14_off m c b fun e => hb (Finset.mem_image.mpr
    ⟨3, Finset.mem_univ _, (show Pipeline.arrRef spec6 3 = main_v101 from rfl).trans e.symm⟩)

/-- At pallas_call 7's exit each of its arrays holds what the pipeline leaves there: an input what it held at
    entry, the result the write-backs' fold. -/
theorem ends7 (c : Dev nD) : ∀ w : Fin cfg7.W,
    (dat7 (E15 m) c).arrAt w cfg7.N = E16 m c (Pipeline.arrRef spec7 w)
  | ⟨0, _⟩ => by
      show (dat7 (E15 m) c).arrAt 0 cfg7.N = W16 m c main_v123
      rw [W16_off m c main_v123 (by decide)]
      exact ((dat7 (E15 m) c).arrAt_in 0 rfl _).trans (arr7 (E15 m) c 0)
  | ⟨1, _⟩ => by
      show (dat7 (E15 m) c).arrAt 1 cfg7.N = W16 m c main_v125
      rw [W16_off m c main_v125 (by decide)]
      exact ((dat7 (E15 m) c).arrAt_in 1 rfl _).trans (arr7 (E15 m) c 1)
  | ⟨2, _⟩ => by
      show (dat7 (E15 m) c).arrAt 2 cfg7.N = W16 m c main_v128
      rw [W16_off m c main_v128 (by decide)]
      exact ((dat7 (E15 m) c).arrAt_in 2 rfl _).trans (arr7 (E15 m) c 2)
  | ⟨3, _⟩ => by
      show (dat7 (E15 m) c).arrAt 3 cfg7.N = W16 m c main_v129
      rw [W16_at]
/-- Every buffer that is none of its arrays is as it was at entry. -/
theorem rest7 (c : Dev nD) : ∀ b, b ∉ Finset.univ.image (Pipeline.arrRef spec7) → E16 m c b = E15 m c b :=
  fun b hb => W16_off m c b fun e => hb (Finset.mem_image.mpr
    ⟨3, Finset.mem_univ _, (show Pipeline.arrRef spec7 3 = main_v129 from rfl).trans e.symm⟩)

/-- At pallas_call 8's exit each of its arrays holds what the pipeline leaves there: an input what it held at
    entry, the result the write-backs' fold. -/
theorem ends8 (c : Dev nD) : ∀ w : Fin cfg8.W,
    (dat8 (E17 m) c).arrAt w cfg8.N = E18 m c (Pipeline.arrRef spec8 w)
  | ⟨0, _⟩ => by
      show (dat8 (E17 m) c).arrAt 0 cfg8.N = W18 m c main_v146
      rw [W18_off m c main_v146 (by decide)]
      exact ((dat8 (E17 m) c).arrAt_in 0 rfl _).trans (arr8 (E17 m) c 0)
  | ⟨1, _⟩ => by
      show (dat8 (E17 m) c).arrAt 1 cfg8.N = W18 m c main_v148
      rw [W18_off m c main_v148 (by decide)]
      exact ((dat8 (E17 m) c).arrAt_in 1 rfl _).trans (arr8 (E17 m) c 1)
  | ⟨2, _⟩ => by
      show (dat8 (E17 m) c).arrAt 2 cfg8.N = W18 m c main_v151
      rw [W18_off m c main_v151 (by decide)]
      exact ((dat8 (E17 m) c).arrAt_in 2 rfl _).trans (arr8 (E17 m) c 2)
  | ⟨3, _⟩ => by
      show (dat8 (E17 m) c).arrAt 3 cfg8.N = W18 m c main_v152
      rw [W18_at]
/-- Every buffer that is none of its arrays is as it was at entry. -/
theorem rest8 (c : Dev nD) : ∀ b, b ∉ Finset.univ.image (Pipeline.arrRef spec8) → E18 m c b = E17 m c b :=
  fun b hb => W18_off m c b fun e => hb (Finset.mem_image.mpr
    ⟨3, Finset.mem_univ _, (show Pipeline.arrRef spec8 3 = main_v152 from rfl).trans e.symm⟩)

/-- At pallas_call 9's exit each of its arrays holds what the pipeline leaves there: an input what it held at
    entry, the result the write-backs' fold. -/
theorem ends9 (c : Dev nD) : ∀ w : Fin cfg9.W,
    (dat9 (E19 m) c).arrAt w cfg9.N = E20 m c (Pipeline.arrRef spec9 w)
  | ⟨0, _⟩ => by
      show (dat9 (E19 m) c).arrAt 0 cfg9.N = W20 m c main_v169
      rw [W20_off m c main_v169 (by decide)]
      exact ((dat9 (E19 m) c).arrAt_in 0 rfl _).trans (arr9 (E19 m) c 0)
  | ⟨1, _⟩ => by
      show (dat9 (E19 m) c).arrAt 1 cfg9.N = W20 m c main_v171
      rw [W20_off m c main_v171 (by decide)]
      exact ((dat9 (E19 m) c).arrAt_in 1 rfl _).trans (arr9 (E19 m) c 1)
  | ⟨2, _⟩ => by
      show (dat9 (E19 m) c).arrAt 2 cfg9.N = W20 m c main_v174
      rw [W20_off m c main_v174 (by decide)]
      exact ((dat9 (E19 m) c).arrAt_in 2 rfl _).trans (arr9 (E19 m) c 2)
  | ⟨3, _⟩ => by
      show (dat9 (E19 m) c).arrAt 3 cfg9.N = W20 m c main_v175
      rw [W20_at]
/-- Every buffer that is none of its arrays is as it was at entry. -/
theorem rest9 (c : Dev nD) : ∀ b, b ∉ Finset.univ.image (Pipeline.arrRef spec9) → E20 m c b = E19 m c b :=
  fun b hb => W20_off m c b fun e => hb (Finset.mem_image.mpr
    ⟨3, Finset.mem_univ _, (show Pipeline.arrRef spec9 3 = main_v175 from rfl).trans e.symm⟩)

/-- At pallas_call 10's exit each of its arrays holds what the pipeline leaves there: an input what it held at
    entry, the result the write-backs' fold. -/
theorem ends10 (c : Dev nD) : ∀ w : Fin cfg10.W,
    (dat10 (E21 m) c).arrAt w cfg10.N = E22 m c (Pipeline.arrRef spec10 w)
  | ⟨0, _⟩ => by
      show (dat10 (E21 m) c).arrAt 0 cfg10.N = W22 m c main_v192
      rw [W22_off m c main_v192 (by decide)]
      exact ((dat10 (E21 m) c).arrAt_in 0 rfl _).trans (arr10 (E21 m) c 0)
  | ⟨1, _⟩ => by
      show (dat10 (E21 m) c).arrAt 1 cfg10.N = W22 m c main_v194
      rw [W22_off m c main_v194 (by decide)]
      exact ((dat10 (E21 m) c).arrAt_in 1 rfl _).trans (arr10 (E21 m) c 1)
  | ⟨2, _⟩ => by
      show (dat10 (E21 m) c).arrAt 2 cfg10.N = W22 m c main_v197
      rw [W22_off m c main_v197 (by decide)]
      exact ((dat10 (E21 m) c).arrAt_in 2 rfl _).trans (arr10 (E21 m) c 2)
  | ⟨3, _⟩ => by
      show (dat10 (E21 m) c).arrAt 3 cfg10.N = W22 m c main_v198
      rw [W22_at]
/-- Every buffer that is none of its arrays is as it was at entry. -/
theorem rest10 (c : Dev nD) : ∀ b, b ∉ Finset.univ.image (Pipeline.arrRef spec10) → E22 m c b = E21 m c b :=
  fun b hb => W22_off m c b fun e => hb (Finset.mem_image.mpr
    ⟨3, Finset.mem_univ _, (show Pipeline.arrRef spec10 3 = main_v198 from rfl).trans e.symm⟩)

/-- At pallas_call 11's exit each of its arrays holds what the pipeline leaves there: an input what it held at
    entry, the result the write-backs' fold. -/
theorem ends11 (c : Dev nD) : ∀ w : Fin cfg11.W,
    (dat11 (E23 m) c).arrAt w cfg11.N = E24 m c (Pipeline.arrRef spec11 w)
  | ⟨0, _⟩ => by
      show (dat11 (E23 m) c).arrAt 0 cfg11.N = W24 m c main_v99
      rw [W24_off m c main_v99 (by decide)]
      exact ((dat11 (E23 m) c).arrAt_in 0 rfl _).trans (arr11 (E23 m) c 0)
  | ⟨1, _⟩ => by
      show (dat11 (E23 m) c).arrAt 1 cfg11.N = W24 m c main_arg15
      rw [W24_off m c main_arg15 (by decide)]
      exact ((dat11 (E23 m) c).arrAt_in 1 rfl _).trans (arr11 (E23 m) c 1)
  | ⟨2, _⟩ => by
      show (dat11 (E23 m) c).arrAt 2 cfg11.N = W24 m c main_v106
      rw [W24_off m c main_v106 (by decide)]
      exact ((dat11 (E23 m) c).arrAt_in 2 rfl _).trans (arr11 (E23 m) c 2)
  | ⟨3, _⟩ => by
      show (dat11 (E23 m) c).arrAt 3 cfg11.N = W24 m c main_v199
      rw [W24_off m c main_v199 (by decide)]
      exact ((dat11 (E23 m) c).arrAt_in 3 rfl _).trans (arr11 (E23 m) c 3)
  | ⟨4, _⟩ => by
      show (dat11 (E23 m) c).arrAt 4 cfg11.N = W24 m c main_v200
      rw [W24_at]
/-- Every buffer that is none of its arrays is as it was at entry. -/
theorem rest11 (c : Dev nD) : ∀ b, b ∉ Finset.univ.image (Pipeline.arrRef spec11) → E24 m c b = E23 m c b :=
  fun b hb => W24_off m c b fun e => hb (Finset.mem_image.mpr
    ⟨4, Finset.mem_univ _, (show Pipeline.arrRef spec11 4 = main_v200 from rfl).trans e.symm⟩)

/-- At pallas_call 12's exit each of its arrays holds what the pipeline leaves there: an input what it held at
    entry, the result the write-backs' fold. -/
theorem ends12 (c : Dev nD) : ∀ w : Fin cfg12.W,
    (dat12 (E25 m) c).arrAt w cfg12.N = E26 m c (Pipeline.arrRef spec12 w)
  | ⟨0, _⟩ => by
      show (dat12 (E25 m) c).arrAt 0 cfg12.N = W26 m c main_v200
      rw [W26_off m c main_v200 (by decide)]
      exact ((dat12 (E25 m) c).arrAt_in 0 rfl _).trans (arr12 (E25 m) c 0)
  | ⟨1, _⟩ => by
      show (dat12 (E25 m) c).arrAt 1 cfg12.N = W26 m c main_arg23
      rw [W26_off m c main_arg23 (by decide)]
      exact ((dat12 (E25 m) c).arrAt_in 1 rfl _).trans (arr12 (E25 m) c 1)
  | ⟨2, _⟩ => by
      show (dat12 (E25 m) c).arrAt 2 cfg12.N = W26 m c main_v201
      rw [W26_off m c main_v201 (by decide)]
      exact ((dat12 (E25 m) c).arrAt_in 2 rfl _).trans (arr12 (E25 m) c 2)
  | ⟨3, _⟩ => by
      show (dat12 (E25 m) c).arrAt 3 cfg12.N = W26 m c main_v202
      rw [W26_at]
/-- Every buffer that is none of its arrays is as it was at entry. -/
theorem rest12 (c : Dev nD) : ∀ b, b ∉ Finset.univ.image (Pipeline.arrRef spec12) → E26 m c b = E25 m c b :=
  fun b hb => W26_off m c b fun e => hb (Finset.mem_image.mpr
    ⟨3, Finset.mem_univ _, (show Pipeline.arrRef spec12 3 = main_v202 from rfl).trans e.symm⟩)

/-- Every pipeline's proof data, each at the contents its pallas_call is entered with. -/
def pdats : (p : Fin 13) → (c : Dev nD) → Dat τ (Elt F) Unit ℕ (UR sig nD τ) ℕ (cfgs p) c
  | ⟨0, _⟩ => fun c => dat0 (E1 m) c
  | ⟨1, _⟩ => fun c => dat1 (E3 m) c
  | ⟨2, _⟩ => fun c => dat2 (E5 m) c
  | ⟨3, _⟩ => fun c => dat3 (E7 m) c
  | ⟨4, _⟩ => fun c => dat4 (E9 m) c
  | ⟨5, _⟩ => fun c => dat5 (E11 m) c
  | ⟨6, _⟩ => fun c => dat6 (E13 m) c
  | ⟨7, _⟩ => fun c => dat7 (E15 m) c
  | ⟨8, _⟩ => fun c => dat8 (E17 m) c
  | ⟨9, _⟩ => fun c => dat9 (E19 m) c
  | ⟨10, _⟩ => fun c => dat10 (E21 m) c
  | ⟨11, _⟩ => fun c => dat11 (E23 m) c
  | ⟨12, _⟩ => fun c => dat12 (E25 m) c

/-- What rides beside the buffers through every item: the core's generator register at some state (a kernel that keeps
    nothing between points takes it in and gives it back) and the core's dues, none. -/
abbrev Rr (c : Dev nD) : sProp 𝕄 := iprop((∃ r, prngReg c r) ∗ ∃ W, owes (c : Thread nD τ) (0 : CellTallies nD τ sig Unit) W)
abbrev Lz : GSem nD τ sig → Finset Unit := fun _ => ∅
abbrev lvz : GSem nD τ sig → Unit → ℕ := fun _ _ => 0

end Cert.KernelIdeal.Fr

end
-- ==== Proof.KI.Seg0.lean ====
/-
  pallas_call 0 as a segment of the program. It is entered holding every unscoped buffer at the contents before it and
  leaves holding them at the contents after it: its arrays are split out of the unscoped buffers at entry and put back,
  the result at what the write-backs leave, at exit; the generator register goes into the kernel's invariant and comes
  back; nothing is owed and the kernel has no semaphore of its own.
-/
import proofs.«143046_j34703335751794_1_alg».proof.Proof.KI.Chain

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold
-- plain definitions in a metavariable's type
set_option backward.isDefEq.respectTransparency.types false in
def seg0 : Pipeline.RegionSeg (pcfgs (F := F)) adm (pdats m) () defs₀ Variants.none Lz lvz 0 where
  win := launch0.win.to₀
  block_pos := launch0.block_pos
  stage_whole := launch0.stage_whole
  K := PEmpty
  osem k := k.elim
  ho := Pipeline.OwnSemFacts.none _
  hbody c := (obligation0 (E1 m) c).loose
  hwaits := Pipeline.hwaits_of_owed_zero _ _ _ _ Lz lvz 0 fun _ _ => rfl
  pre c := iprop(StableHlo.held (c : Thread nD τ) (Pipeline.ucRefs τ sig) (W1 m c) ∗ Rr c)
  post c := iprop(StableHlo.held (c : Thread nD τ) (Pipeline.ucRefs τ sig) (W2 m c) ∗ Rr c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (ends0 m c) (rest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Fr

end
-- ==== Proof.KI.Seg1.lean ====
/-
  pallas_call 1 as a segment of the program. It is entered holding every unscoped buffer at the contents before it and
  leaves holding them at the contents after it: its arrays are split out of the unscoped buffers at entry and put back,
  the result at what the write-backs leave, at exit; the generator register goes into the kernel's invariant and comes
  back; nothing is owed and the kernel has no semaphore of its own.
-/
import proofs.«143046_j34703335751794_1_alg».proof.Proof.KI.Chain

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold
-- plain definitions in a metavariable's type
set_option backward.isDefEq.respectTransparency.types false in
def seg1 : Pipeline.RegionSeg (pcfgs (F := F)) adm (pdats m) () defs₀ Variants.none Lz lvz 1 where
  win := launch1.win.to₀
  block_pos := launch1.block_pos
  stage_whole := launch1.stage_whole
  K := PEmpty
  osem k := k.elim
  ho := Pipeline.OwnSemFacts.none _
  hbody c := (obligation1 (E3 m) c).loose
  hwaits := Pipeline.hwaits_of_owed_zero _ _ _ _ Lz lvz 1 fun _ _ => rfl
  pre c := iprop(StableHlo.held (c : Thread nD τ) (Pipeline.ucRefs τ sig) (W3 m c) ∗ Rr c)
  post c := iprop(StableHlo.held (c : Thread nD τ) (Pipeline.ucRefs τ sig) (W4 m c) ∗ Rr c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E3 m c) (E4 m c) ((pdats m 1 c).arrAt · cfg1.N) (ends1 m c) (rest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Fr

end
-- ==== Proof.KI.Seg2.lean ====
/-
  pallas_call 2 as a segment of the program. It is entered holding every unscoped buffer at the contents before it and
  leaves holding them at the contents after it: its arrays are split out of the unscoped buffers at entry and put back,
  the result at what the write-backs leave, at exit; the generator register goes into the kernel's invariant and comes
  back; nothing is owed and the kernel has no semaphore of its own.
-/
import proofs.«143046_j34703335751794_1_alg».proof.Proof.KI.Chain

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold
-- plain definitions in a metavariable's type
set_option backward.isDefEq.respectTransparency.types false in
def seg2 : Pipeline.RegionSeg (pcfgs (F := F)) adm (pdats m) () defs₀ Variants.none Lz lvz 2 where
  win := launch2.win.to₀
  block_pos := launch2.block_pos
  stage_whole := launch2.stage_whole
  K := PEmpty
  osem k := k.elim
  ho := Pipeline.OwnSemFacts.none _
  hbody c := (obligation2 (E5 m) c).loose
  hwaits := Pipeline.hwaits_of_owed_zero _ _ _ _ Lz lvz 2 fun _ _ => rfl
  pre c := iprop(StableHlo.held (c : Thread nD τ) (Pipeline.ucRefs τ sig) (W5 m c) ∗ Rr c)
  post c := iprop(StableHlo.held (c : Thread nD τ) (Pipeline.ucRefs τ sig) (W6 m c) ∗ Rr c)
  X c := iprop(∃ r, prngReg c r)
  Y c := iprop(∃ r, prngReg c r)
  Z c := Pipeline.unscopedRest (Ix := Unit) (Name := ℕ) (U := UR sig nD τ) (Lvl := ℕ) spec2 c (E5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E5 m c) (E6 m c) ((pdats m 2 c).arrAt · cfg2.N) (ends2 m c) (rest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Fr

end
-- ==== Proof.KI.Seg3.lean ====
/-
  pallas_call 3 as a segment of the program. It is entered holding every unscoped buffer at the contents before it and
  leaves holding them at the contents after it: its arrays are split out of the unscoped buffers at entry and put back,
  the result at what the write-backs leave, at exit; the generator register goes into the kernel's invariant and comes
  back; nothing is owed and the kernel has no semaphore of its own.
-/
import proofs.«143046_j34703335751794_1_alg».proof.Proof.KI.Chain

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold
-- plain definitions in a metavariable's type
set_option backward.isDefEq.respectTransparency.types false in
def seg3 : Pipeline.RegionSeg (pcfgs (F := F)) adm (pdats m) () defs₀ Variants.none Lz lvz 3 where
  win := launch3.win.to₀
  block_pos := launch3.block_pos
  stage_whole := launch3.stage_whole
  K := PEmpty
  osem k := k.elim
  ho := Pipeline.OwnSemFacts.none _
  hbody c := (obligation3 (E7 m) c).loose
  hwaits := Pipeline.hwaits_of_owed_zero _ _ _ _ Lz lvz 3 fun _ _ => rfl
  pre c := iprop(StableHlo.held (c : Thread nD τ) (Pipeline.ucRefs τ sig) (W7 m c) ∗ Rr c)
  post c := iprop(StableHlo.held (c : Thread nD τ) (Pipeline.ucRefs τ sig) (W8 m c) ∗ Rr c)
  X c := iprop(∃ r, prngReg c r)
  Y c := iprop(∃ r, prngReg c r)
  Z c := Pipeline.unscopedRest (Ix := Unit) (Name := ℕ) (U := UR sig nD τ) (Lvl := ℕ) spec3 c (E7 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (E7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (E7 m c) (E8 m c) ((pdats m 3 c).arrAt · cfg3.N) (ends3 m c) (rest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Fr

end
-- ==== Proof.KI.Seg4.lean ====
/-
  pallas_call 4 as a segment of the program. It is entered holding every unscoped buffer at the contents before it and
  leaves holding them at the contents after it: its arrays are split out of the unscoped buffers at entry and put back,
  the result at what the write-backs leave, at exit; the generator register goes into the kernel's invariant and comes
  back; nothing is owed and the kernel has no semaphore of its own.
-/
import proofs.«143046_j34703335751794_1_alg».proof.Proof.KI.Chain

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold
-- plain definitions in a metavariable's type
set_option backward.isDefEq.respectTransparency.types false in
def seg4 : Pipeline.RegionSeg (pcfgs (F := F)) adm (pdats m) () defs₀ Variants.none Lz lvz 4 where
  win := launch4.win.to₀
  block_pos := launch4.block_pos
  stage_whole := launch4.stage_whole
  K := PEmpty
  osem k := k.elim
  ho := Pipeline.OwnSemFacts.none _
  hbody c := (obligation4 (E9 m) c).loose
  hwaits := Pipeline.hwaits_of_owed_zero _ _ _ _ Lz lvz 4 fun _ _ => rfl
  pre c := iprop(StableHlo.held (c : Thread nD τ) (Pipeline.ucRefs τ sig) (W9 m c) ∗ Rr c)
  post c := iprop(StableHlo.held (c : Thread nD τ) (Pipeline.ucRefs τ sig) (W10 m c) ∗ Rr c)
  X c := iprop(∃ r, prngReg c r)
  Y c := iprop(∃ r, prngReg c r)
  Z c := Pipeline.unscopedRest (Ix := Unit) (Name := ℕ) (U := UR sig nD τ) (Lvl := ℕ) spec4 c (E9 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (E9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (E9 m c) (E10 m c) ((pdats m 4 c).arrAt · cfg4.N) (ends4 m c) (rest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Fr

end
-- ==== Proof.KI.Seg5.lean ====
/-
  pallas_call 5 as a segment of the program. It is entered holding every unscoped buffer at the contents before it and
  leaves holding them at the contents after it: its arrays are split out of the unscoped buffers at entry and put back,
  the result at what the write-backs leave, at exit; the generator register goes into the kernel's invariant and comes
  back; nothing is owed and the kernel has no semaphore of its own.
-/
import proofs.«143046_j34703335751794_1_alg».proof.Proof.KI.Chain

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold
-- plain definitions in a metavariable's type
set_option backward.isDefEq.respectTransparency.types false in
def seg5 : Pipeline.RegionSeg (pcfgs (F := F)) adm (pdats m) () defs₀ Variants.none Lz lvz 5 where
  win := launch5.win.to₀
  block_pos := launch5.block_pos
  stage_whole := launch5.stage_whole
  K := PEmpty
  osem k := k.elim
  ho := Pipeline.OwnSemFacts.none _
  hbody c := (obligation5 (E11 m) c).loose
  hwaits := Pipeline.hwaits_of_owed_zero _ _ _ _ Lz lvz 5 fun _ _ => rfl
  pre c := iprop(StableHlo.held (c : Thread nD τ) (Pipeline.ucRefs τ sig) (W11 m c) ∗ Rr c)
  post c := iprop(StableHlo.held (c : Thread nD τ) (Pipeline.ucRefs τ sig) (W12 m c) ∗ Rr c)
  X c := iprop(∃ r, prngReg c r)
  Y c := iprop(∃ r, prngReg c r)
  Z c := Pipeline.unscopedRest (Ix := Unit) (Name := ℕ) (U := UR sig nD τ) (Lvl := ℕ) spec5 c (E11 m c)
  hentry c := by
    rw [Pipeline.ownSems0_none]
    have hsplit := Pipeline.arrays_of_unscopedBufs (p := 5) (pcfgs (F := F)) adm (pdats m) launch5.win launch5.arr_whole c
      ((pdats m 5 c).share_full fun _ => rfl) (E11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (E11 m c) (E12 m c) ((pdats m 5 c).arrAt · cfg5.N) (ends5 m c) (rest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Fr

end
-- ==== Proof.KI.Seg6.lean ====
/-
  pallas_call 6 as a segment of the program. It is entered holding every unscoped buffer at the contents before it and
  leaves holding them at the contents after it: its arrays are split out of the unscoped buffers at entry and put back,
  the result at what the write-backs leave, at exit; the generator register goes into the kernel's invariant and comes
  back; nothing is owed and the kernel has no semaphore of its own.
-/
import proofs.«143046_j34703335751794_1_alg».proof.Proof.KI.Chain

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold
-- plain definitions in a metavariable's type
set_option backward.isDefEq.respectTransparency.types false in
def seg6 : Pipeline.RegionSeg (pcfgs (F := F)) adm (pdats m) () defs₀ Variants.none Lz lvz 6 where
  win := launch6.win.to₀
  block_pos := launch6.block_pos
  stage_whole := launch6.stage_whole
  K := PEmpty
  osem k := k.elim
  ho := Pipeline.OwnSemFacts.none _
  hbody c := (obligation6 (E13 m) c).loose
  hwaits := Pipeline.hwaits_of_owed_zero _ _ _ _ Lz lvz 6 fun _ _ => rfl
  pre c := iprop(StableHlo.held (c : Thread nD τ) (Pipeline.ucRefs τ sig) (W13 m c) ∗ Rr c)
  post c := iprop(StableHlo.held (c : Thread nD τ) (Pipeline.ucRefs τ sig) (W14 m c) ∗ Rr c)
  X c := iprop(∃ r, prngReg c r)
  Y c := iprop(∃ r, prngReg c r)
  Z c := Pipeline.unscopedRest (Ix := Unit) (Name := ℕ) (U := UR sig nD τ) (Lvl := ℕ) spec6 c (E13 m c)
  hentry c := by
    rw [Pipeline.ownSems0_none]
    have hsplit := Pipeline.arrays_of_unscopedBufs (p := 6) (pcfgs (F := F)) adm (pdats m) launch6.win launch6.arr_whole c
      ((pdats m 6 c).share_full fun _ => rfl) (E13 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m) ((pdats m 6 c).share_full fun _ => rfl)
      (E13 m c) (E14 m c) ((pdats m 6 c).arrAt · cfg6.N) (ends6 m c) (rest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Fr

end
-- ==== Proof.KI.Seg7.lean ====
/-
  pallas_call 7 as a segment of the program. It is entered holding every unscoped buffer at the contents before it and
  leaves holding them at the contents after it: its arrays are split out of the unscoped buffers at entry and put back,
  the result at what the write-backs leave, at exit; the generator register goes into the kernel's invariant and comes
  back; nothing is owed and the kernel has no semaphore of its own.
-/
import proofs.«143046_j34703335751794_1_alg».proof.Proof.KI.Chain

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold
-- plain definitions in a metavariable's type
set_option backward.isDefEq.respectTransparency.types false in
def seg7 : Pipeline.RegionSeg (pcfgs (F := F)) adm (pdats m) () defs₀ Variants.none Lz lvz 7 where
  win := launch7.win.to₀
  block_pos := launch7.block_pos
  stage_whole := launch7.stage_whole
  K := PEmpty
  osem k := k.elim
  ho := Pipeline.OwnSemFacts.none _
  hbody c := (obligation7 (E15 m) c).loose
  hwaits := Pipeline.hwaits_of_owed_zero _ _ _ _ Lz lvz 7 fun _ _ => rfl
  pre c := iprop(StableHlo.held (c : Thread nD τ) (Pipeline.ucRefs τ sig) (W15 m c) ∗ Rr c)
  post c := iprop(StableHlo.held (c : Thread nD τ) (Pipeline.ucRefs τ sig) (W16 m c) ∗ Rr c)
  X c := iprop(∃ r, prngReg c r)
  Y c := iprop(∃ r, prngReg c r)
  Z c := Pipeline.unscopedRest (Ix := Unit) (Name := ℕ) (U := UR sig nD τ) (Lvl := ℕ) spec7 c (E15 m c)
  hentry c := by
    rw [Pipeline.ownSems0_none]
    have hsplit := Pipeline.arrays_of_unscopedBufs (p := 7) (pcfgs (F := F)) adm (pdats m) launch7.win launch7.arr_whole c
      ((pdats m 7 c).share_full fun _ => rfl) (E15 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m) ((pdats m 7 c).share_full fun _ => rfl)
      (E15 m c) (E16 m c) ((pdats m 7 c).arrAt · cfg7.N) (ends7 m c) (rest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Fr

end
-- ==== Proof.KI.Seg8.lean ====
/-
  pallas_call 8 as a segment of the program. It is entered holding every unscoped buffer at the contents before it and
  leaves holding them at the contents after it: its arrays are split out of the unscoped buffers at entry and put back,
  the result at what the write-backs leave, at exit; the generator register goes into the kernel's invariant and comes
  back; nothing is owed and the kernel has no semaphore of its own.
-/
import proofs.«143046_j34703335751794_1_alg».proof.Proof.KI.Chain

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold
-- plain definitions in a metavariable's type
set_option backward.isDefEq.respectTransparency.types false in
def seg8 : Pipeline.RegionSeg (pcfgs (F := F)) adm (pdats m) () defs₀ Variants.none Lz lvz 8 where
  win := launch8.win.to₀
  block_pos := launch8.block_pos
  stage_whole := launch8.stage_whole
  K := PEmpty
  osem k := k.elim
  ho := Pipeline.OwnSemFacts.none _
  hbody c := (obligation8 (E17 m) c).loose
  hwaits := Pipeline.hwaits_of_owed_zero _ _ _ _ Lz lvz 8 fun _ _ => rfl
  pre c := iprop(StableHlo.held (c : Thread nD τ) (Pipeline.ucRefs τ sig) (W17 m c) ∗ Rr c)
  post c := iprop(StableHlo.held (c : Thread nD τ) (Pipeline.ucRefs τ sig) (W18 m c) ∗ Rr c)
  X c := iprop(∃ r, prngReg c r)
  Y c := iprop(∃ r, prngReg c r)
  Z c := Pipeline.unscopedRest (Ix := Unit) (Name := ℕ) (U := UR sig nD τ) (Lvl := ℕ) spec8 c (E17 m c)
  hentry c := by
    rw [Pipeline.ownSems0_none]
    have hsplit := Pipeline.arrays_of_unscopedBufs (p := 8) (pcfgs (F := F)) adm (pdats m) launch8.win launch8.arr_whole c
      ((pdats m 8 c).share_full fun _ => rfl) (E17 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m) ((pdats m 8 c).share_full fun _ => rfl)
      (E17 m c) (E18 m c) ((pdats m 8 c).arrAt · cfg8.N) (ends8 m c) (rest8 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Fr

end
-- ==== Proof.KI.Seg9.lean ====
/-
  pallas_call 9 as a segment of the program. It is entered holding every unscoped buffer at the contents before it and
  leaves holding them at the contents after it: its arrays are split out of the unscoped buffers at entry and put back,
  the result at what the write-backs leave, at exit; the generator register goes into the kernel's invariant and comes
  back; nothing is owed and the kernel has no semaphore of its own.
-/
import proofs.«143046_j34703335751794_1_alg».proof.Proof.KI.Chain

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold
-- plain definitions in a metavariable's type
set_option backward.isDefEq.respectTransparency.types false in
def seg9 : Pipeline.RegionSeg (pcfgs (F := F)) adm (pdats m) () defs₀ Variants.none Lz lvz 9 where
  win := launch9.win.to₀
  block_pos := launch9.block_pos
  stage_whole := launch9.stage_whole
  K := PEmpty
  osem k := k.elim
  ho := Pipeline.OwnSemFacts.none _
  hbody c := (obligation9 (E19 m) c).loose
  hwaits := Pipeline.hwaits_of_owed_zero _ _ _ _ Lz lvz 9 fun _ _ => rfl
  pre c := iprop(StableHlo.held (c : Thread nD τ) (Pipeline.ucRefs τ sig) (W19 m c) ∗ Rr c)
  post c := iprop(StableHlo.held (c : Thread nD τ) (Pipeline.ucRefs τ sig) (W20 m c) ∗ Rr c)
  X c := iprop(∃ r, prngReg c r)
  Y c := iprop(∃ r, prngReg c r)
  Z c := Pipeline.unscopedRest (Ix := Unit) (Name := ℕ) (U := UR sig nD τ) (Lvl := ℕ) spec9 c (E19 m c)
  hentry c := by
    rw [Pipeline.ownSems0_none]
    have hsplit := Pipeline.arrays_of_unscopedBufs (p := 9) (pcfgs (F := F)) adm (pdats m) launch9.win launch9.arr_whole c
      ((pdats m 9 c).share_full fun _ => rfl) (E19 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 9 c).Φ 0 = Pipeline.ΦA spec9 c from rfl]; unfold Pipeline.ΦA
    iintro ⟨Hp, -, Hr⟩
    isplitl [Hr]; · iexact Hr
    iexact Hp
  hout c := by
    rw [Pipeline.ownSems0_none, show (pdats m 9 c).Φ (Fin.last _) = Pipeline.ΦA spec9 c from rfl]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m) ((pdats m 9 c).share_full fun _ => rfl)
      (E19 m c) (E20 m c) ((pdats m 9 c).arrAt · cfg9.N) (ends9 m c) (rest9 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Fr

end
-- ==== Proof.KI.Seg10.lean ====
/-
  pallas_call 10 as a segment of the program. It is entered holding every unscoped buffer at the contents before it and
  leaves holding them at the contents after it: its arrays are split out of the unscoped buffers at entry and put back,
  the result at what the write-backs leave, at exit; the generator register goes into the kernel's invariant and comes
  back; nothing is owed and the kernel has no semaphore of its own.
-/
import proofs.«143046_j34703335751794_1_alg».proof.Proof.KI.Chain

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold
-- plain definitions in a metavariable's type
set_option backward.isDefEq.respectTransparency.types false in
def seg10 : Pipeline.RegionSeg (pcfgs (F := F)) adm (pdats m) () defs₀ Variants.none Lz lvz 10 where
  win := launch10.win.to₀
  block_pos := launch10.block_pos
  stage_whole := launch10.stage_whole
  K := PEmpty
  osem k := k.elim
  ho := Pipeline.OwnSemFacts.none _
  hbody c := (obligation10 (E21 m) c).loose
  hwaits := Pipeline.hwaits_of_owed_zero _ _ _ _ Lz lvz 10 fun _ _ => rfl
  pre c := iprop(StableHlo.held (c : Thread nD τ) (Pipeline.ucRefs τ sig) (W21 m c) ∗ Rr c)
  post c := iprop(StableHlo.held (c : Thread nD τ) (Pipeline.ucRefs τ sig) (W22 m c) ∗ Rr c)
  X c := iprop(∃ r, prngReg c r)
  Y c := iprop(∃ r, prngReg c r)
  Z c := Pipeline.unscopedRest (Ix := Unit) (Name := ℕ) (U := UR sig nD τ) (Lvl := ℕ) spec10 c (E21 m c)
  hentry c := by
    rw [Pipeline.ownSems0_none]
    have hsplit := Pipeline.arrays_of_unscopedBufs (p := 10) (pcfgs (F := F)) adm (pdats m) launch10.win launch10.arr_whole c
      ((pdats m 10 c).share_full fun _ => rfl) (E21 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 10 c).Φ 0 = Pipeline.ΦA spec10 c from rfl]; unfold Pipeline.ΦA
    iintro ⟨Hp, -, Hr⟩
    isplitl [Hr]; · iexact Hr
    iexact Hp
  hout c := by
    rw [Pipeline.ownSems0_none, show (pdats m 10 c).Φ (Fin.last _) = Pipeline.ΦA spec10 c from rfl]; unfold Pipeline.ΦA
    iintro ⟨Hr, Hp⟩
    isplitl [Hp]; · iexact Hp
    isplitr; · iempintro
    iexact Hr
  hexit c := by
    have hjoin := Pipeline.unscopedBufs_of_arrays (p := 10) (pcfgs (F := F)) adm (Ix := Unit) (Name := ℕ) (U := UR sig nD τ) (Lvl := ℕ)
      launch10.win launch10.arr_whole c (pdats m) ((pdats m 10 c).share_full fun _ => rfl)
      (E21 m c) (E22 m c) ((pdats m 10 c).arrAt · cfg10.N) (ends10 m c) (rest10 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Fr

end
-- ==== Proof.KI.Seg11.lean ====
/-
  pallas_call 11 as a segment of the program. It is entered holding every unscoped buffer at the contents before it and
  leaves holding them at the contents after it: its arrays are split out of the unscoped buffers at entry and put back,
  the result at what the write-backs leave, at exit; the generator register goes into the kernel's invariant and comes
  back; nothing is owed and the kernel has no semaphore of its own.
-/
import proofs.«143046_j34703335751794_1_alg».proof.Proof.KI.Chain

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold
-- plain definitions in a metavariable's type
set_option backward.isDefEq.respectTransparency.types false in
def seg11 : Pipeline.RegionSeg (pcfgs (F := F)) adm (pdats m) () defs₀ Variants.none Lz lvz 11 where
  win := launch11.win.to₀
  block_pos := launch11.block_pos
  stage_whole := launch11.stage_whole
  K := PEmpty
  osem k := k.elim
  ho := Pipeline.OwnSemFacts.none _
  hbody c := (obligation11 (E23 m) c).loose
  hwaits := Pipeline.hwaits_of_owed_zero _ _ _ _ Lz lvz 11 fun _ _ => rfl
  pre c := iprop(StableHlo.held (c : Thread nD τ) (Pipeline.ucRefs τ sig) (W23 m c) ∗ Rr c)
  post c := iprop(StableHlo.held (c : Thread nD τ) (Pipeline.ucRefs τ sig) (W24 m c) ∗ Rr c)
  X c := iprop(∃ r, prngReg c r)
  Y c := iprop(∃ r, prngReg c r)
  Z c := Pipeline.unscopedRest (Ix := Unit) (Name := ℕ) (U := UR sig nD τ) (Lvl := ℕ) spec11 c (E23 m c)
  hentry c := by
    rw [Pipeline.ownSems0_none]
    have hsplit := Pipeline.arrays_of_unscopedBufs (p := 11) (pcfgs (F := F)) adm (pdats m) launch11.win launch11.arr_whole c
      ((pdats m 11 c).share_full fun _ => rfl) (E23 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 11 c).Φ 0 = Pipeline.ΦA spec11 c from rfl]; unfold Pipeline.ΦA
    iintro ⟨Hp, -, Hr⟩
    isplitl [Hr]; · iexact Hr
    iexact Hp
  hout c := by
    rw [Pipeline.ownSems0_none, show (pdats m 11 c).Φ (Fin.last _) = Pipeline.ΦA spec11 c from rfl]; unfold Pipeline.ΦA
    iintro ⟨Hr, Hp⟩
    isplitl [Hp]; · iexact Hp
    isplitr; · iempintro
    iexact Hr
  hexit c := by
    have hjoin := Pipeline.unscopedBufs_of_arrays (p := 11) (pcfgs (F := F)) adm (Ix := Unit) (Name := ℕ) (U := UR sig nD τ) (Lvl := ℕ)
      launch11.win launch11.arr_whole c (pdats m) ((pdats m 11 c).share_full fun _ => rfl)
      (E23 m c) (E24 m c) ((pdats m 11 c).arrAt · cfg11.N) (ends11 m c) (rest11 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Fr

end
-- ==== Proof.KI.Seg12.lean ====
/-
  pallas_call 12 as a segment of the program. It is entered holding every unscoped buffer at the contents before it and
  leaves holding them at the contents after it: its arrays are split out of the unscoped buffers at entry and put back,
  the result at what the write-backs leave, at exit; the generator register goes into the kernel's invariant and comes
  back; nothing is owed and the kernel has no semaphore of its own.
-/
import proofs.«143046_j34703335751794_1_alg».proof.Proof.KI.Chain

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold
-- plain definitions in a metavariable's type
set_option backward.isDefEq.respectTransparency.types false in
def seg12 : Pipeline.RegionSeg (pcfgs (F := F)) adm (pdats m) () defs₀ Variants.none Lz lvz 12 where
  win := launch12.win.to₀
  block_pos := launch12.block_pos
  stage_whole := launch12.stage_whole
  K := PEmpty
  osem k := k.elim
  ho := Pipeline.OwnSemFacts.none _
  hbody c := (obligation12 (E25 m) c).loose
  hwaits := Pipeline.hwaits_of_owed_zero _ _ _ _ Lz lvz 12 fun _ _ => rfl
  pre c := iprop(StableHlo.held (c : Thread nD τ) (Pipeline.ucRefs τ sig) (W25 m c) ∗ Rr c)
  post c := iprop(StableHlo.held (c : Thread nD τ) (Pipeline.ucRefs τ sig) (W26 m c) ∗ Rr c)
  X c := iprop(∃ r, prngReg c r)
  Y c := iprop(∃ r, prngReg c r)
  Z c := Pipeline.unscopedRest (Ix := Unit) (Name := ℕ) (U := UR sig nD τ) (Lvl := ℕ) spec12 c (E25 m c)
  hentry c := by
    rw [Pipeline.ownSems0_none]
    have hsplit := Pipeline.arrays_of_unscopedBufs (p := 12) (pcfgs (F := F)) adm (pdats m) launch12.win launch12.arr_whole c
      ((pdats m 12 c).share_full fun _ => rfl) (E25 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 12 c).Φ 0 = Pipeline.ΦA spec12 c from rfl]; unfold Pipeline.ΦA
    iintro ⟨Hp, -, Hr⟩
    isplitl [Hr]; · iexact Hr
    iexact Hp
  hout c := by
    rw [Pipeline.ownSems0_none, show (pdats m 12 c).Φ (Fin.last _) = Pipeline.ΦA spec12 c from rfl]; unfold Pipeline.ΦA
    iintro ⟨Hr, Hp⟩
    isplitl [Hp]; · iexact Hp
    isplitr; · iempintro
    iexact Hr
  hexit c := by
    have hjoin := Pipeline.unscopedBufs_of_arrays (p := 12) (pcfgs (F := F)) adm (Ix := Unit) (Name := ℕ) (U := UR sig nD τ) (Lvl := ℕ)
      launch12.win launch12.arr_whole c (pdats m) ((pdats m 12 c).share_full fun _ => rfl)
      (E25 m c) (E26 m c) ((pdats m 12 c).arrAt · cfg12.N) (ends12 m c) (rest12 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Fr

end
-- ==== Proof.KI.Frame.lean ====
/-
  The frame of the program: from any memory with zero counters every weakly fair execution terminates, faults nowhere,
  and ends with each argument array as launched. The program's host side is the conditional frame over the segments;
  supplied here are the thirteen pallas_calls' segments, entered and left at the chain of contents, the launch's
  resources (the generator register and the core's dues, none, riding along), and the end owing nothing.
-/
import proofs.«143046_j34703335751794_1_alg».proof.Proof.KI.Seg0
import proofs.«143046_j34703335751794_1_alg».proof.Proof.KI.Seg1
import proofs.«143046_j34703335751794_1_alg».proof.Proof.KI.Seg2
import proofs.«143046_j34703335751794_1_alg».proof.Proof.KI.Seg3
import proofs.«143046_j34703335751794_1_alg».proof.Proof.KI.Seg4
import proofs.«143046_j34703335751794_1_alg».proof.Proof.KI.Seg5
import proofs.«143046_j34703335751794_1_alg».proof.Proof.KI.Seg6
import proofs.«143046_j34703335751794_1_alg».proof.Proof.KI.Seg7
import proofs.«143046_j34703335751794_1_alg».proof.Proof.KI.Seg8
import proofs.«143046_j34703335751794_1_alg».proof.Proof.KI.Seg9
import proofs.«143046_j34703335751794_1_alg».proof.Proof.KI.Seg10
import proofs.«143046_j34703335751794_1_alg».proof.Proof.KI.Seg11
import proofs.«143046_j34703335751794_1_alg».proof.Proof.KI.Seg12

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) :=
  frame_cond m emb₁ () Variants.none Lz lvz (fun _ _ => rfl) ρ (outs m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => Rr c)
    (Pipeline.initEach Lz lvz fun c => by
      iintro ⟨⟨-, HO, -, Hp, -⟩, -⟩
      imodintro
      isplitl [Hp]; · iexists _; iexact Hp
      iexists ∅; iexact HO)
    (fun c => by iintro ⟨-, HO⟩; iexact HO)
    (seg0 m) (fun c => by exact .rfl) (fun c => by rw [chain2]; exact .rfl)
    (seg1 m) (fun c => by rw [chain3]; exact .rfl) (fun c => by rw [chain4]; exact .rfl)
    (seg2 m) (fun c => by rw [chain5]; exact .rfl) (fun c => by rw [chain6]; exact .rfl)
    (seg3 m) (fun c => by rw [chain7]; exact .rfl) (fun c => by rw [chain8]; exact .rfl)
    (seg4 m) (fun c => by rw [chain9]; exact .rfl) (fun c => by rw [chain10]; exact .rfl)
    (seg5 m) (fun c => by rw [chain11]; exact .rfl) (fun c => by rw [chain12]; exact .rfl)
    (seg6 m) (fun c => by rw [chain13]; exact .rfl) (fun c => by rw [chain14]; exact .rfl)
    (seg7 m) (fun c => by rw [chain15]; exact .rfl) (fun c => by rw [chain16]; exact .rfl)
    (seg8 m) (fun c => by rw [chain17]; exact .rfl) (fun c => by rw [chain18]; exact .rfl)
    (seg9 m) (fun c => by rw [chain19]; exact .rfl) (fun c => by rw [chain20]; exact .rfl)
    (seg10 m) (fun c => by rw [chain21]; exact .rfl) (fun c => by rw [chain22]; exact .rfl)
    (seg11 m) (fun c => by rw [chain23]; exact .rfl) (fun c => by rw [chain24]; exact .rfl)
    (seg12 m) (fun c => by rw [chain25]; exact .rfl) (fun c => by rw [chain26]; exact .rfl)

end Cert.KernelIdeal.Fr

end
-- ==== Proof.RefFrame.lean ====
/-
  The reference is a host program with no pallas_call: its run, read back stage by stage, ends with every argument array
  as launched (no operation writes an argument), which is its frame.
-/
import proofs.«143046_j34703335751794_1_alg».proof.Defs
import proofs.«143046_j34703335751794_1_alg».proof.Proof.Gen.ReferenceIdeal
import proofs.«143046_j34703335751794_1_alg».proof.Proof.Gen.Pre_finite_inputs
import proofs.«143046_j34703335751794_1_alg».proof.Proof.Ref.Stages

noncomputable section

namespace Cert.Proof

open Idealize.ShloMosaic Idealize.SL.Sem Cert.ReferenceIdeal Cert.ReferenceIdeal.Stages

/-- Every weakly fair execution of the reference terminates, faults nowhere and leaves the arguments unchanged: the
    run read at the arguments, which no stage writes. -/
theorem frame_ri : Cert.frame_ReferenceIdeal := fun m ρ _ =>
  (θ_run Cert.ReferenceIdeal.defs _ _).mono (fun _ h c =>
    ⟨(h c main_arg0).trans (args_kept m c main_arg0 (by decide)),
     (h c main_arg1).trans (args_kept m c main_arg1 (by decide)),
     (h c main_arg2).trans (args_kept m c main_arg2 (by decide)),
     (h c main_arg3).trans (args_kept m c main_arg3 (by decide)),
     (h c main_arg4).trans (args_kept m c main_arg4 (by decide)),
     (h c main_arg5).trans (args_kept m c main_arg5 (by decide)),
     (h c main_arg6).trans (args_kept m c main_arg6 (by decide)),
     (h c main_arg7).trans (args_kept m c main_arg7 (by decide)),
     (h c main_arg8).trans (args_kept m c main_arg8 (by decide)),
     (h c main_arg9).trans (args_kept m c main_arg9 (by decide)),
     (h c main_arg10).trans (args_kept m c main_arg10 (by decide)),
     (h c main_arg11).trans (args_kept m c main_arg11 (by decide)),
     (h c main_arg12).trans (args_kept m c main_arg12 (by decide)),
     (h c main_arg13).trans (args_kept m c main_arg13 (by decide)),
     (h c main_arg14).trans (args_kept m c main_arg14 (by decide)),
     (h c main_arg15).trans (args_kept m c main_arg15 (by decide)),
     (h c main_arg16).trans (args_kept m c main_arg16 (by decide)),
     (h c main_arg17).trans (args_kept m c main_arg17 (by decide)),
     (h c main_arg18).trans (args_kept m c main_arg18 (by decide)),
     (h c main_arg19).trans (args_kept m c main_arg19 (by decide)),
     (h c main_arg20).trans (args_kept m c main_arg20 (by decide)),
     (h c main_arg21).trans (args_kept m c main_arg21 (by decide)),
     (h c main_arg22).trans (args_kept m c main_arg22 (by decide)),
     (h c main_arg23).trans (args_kept m c main_arg23 (by decide)),
     (h c main_arg24).trans (args_kept m c main_arg24 (by decide))⟩)
    (Cert.ReferenceIdeal.Stages.run (F := Ideal) m ρ)

end Cert.Proof

end
-- ==== Proof.KI.Run.lean ====
/-
  The run of the idealized kernel program with its result named: from any memory with zero counters every weakly fair
  execution terminates, faults nowhere, and ends with the result array at the last contents of the chain and each
  argument array as launched. The same segments and launch resources as for the frame, under the run that also reads
  the result buffer.
-/
import proofs.«143046_j34703335751794_1_alg».proof.Proof.KI.Frame
import proofs.«143046_j34703335751794_1_alg».proof.Proof.KI.RunCond

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem run : θ_run defs (onTc (τ := τ) (main (F := F))) ⟨m, fun _ => 0, ρ⟩ (fun r => ∀ c : Dev nD,
      r.2.mem ((c.tc : Thread nD τ).loc main_v206) = W27 m c main_v206
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) :=
  (θ_run defs _ _).mono (fun r h c => ⟨(h c).1.trans (congrFun (chain27 m c) _), (h c).2⟩) <|
  run_cond m emb₁ () Variants.none Lz lvz (fun _ _ => rfl) ρ (outs m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => Rr c)
    (Pipeline.initEach Lz lvz fun c => by
      iintro ⟨⟨-, HO, -, Hp, -⟩, -⟩
      imodintro
      isplitl [Hp]; · iexists _; iexact Hp
      iexists ∅; iexact HO)
    (fun c => by iintro ⟨-, HO⟩; iexact HO)
    (seg0 m) (fun c => by exact .rfl) (fun c => by rw [chain2]; exact .rfl)
    (seg1 m) (fun c => by rw [chain3]; exact .rfl) (fun c => by rw [chain4]; exact .rfl)
    (seg2 m) (fun c => by rw [chain5]; exact .rfl) (fun c => by rw [chain6]; exact .rfl)
    (seg3 m) (fun c => by rw [chain7]; exact .rfl) (fun c => by rw [chain8]; exact .rfl)
    (seg4 m) (fun c => by rw [chain9]; exact .rfl) (fun c => by rw [chain10]; exact .rfl)
    (seg5 m) (fun c => by rw [chain11]; exact .rfl) (fun c => by rw [chain12]; exact .rfl)
    (seg6 m) (fun c => by rw [chain13]; exact .rfl) (fun c => by rw [chain14]; exact .rfl)
    (seg7 m) (fun c => by rw [chain15]; exact .rfl) (fun c => by rw [chain16]; exact .rfl)
    (seg8 m) (fun c => by rw [chain17]; exact .rfl) (fun c => by rw [chain18]; exact .rfl)
    (seg9 m) (fun c => by rw [chain19]; exact .rfl) (fun c => by rw [chain20]; exact .rfl)
    (seg10 m) (fun c => by rw [chain21]; exact .rfl) (fun c => by rw [chain22]; exact .rfl)
    (seg11 m) (fun c => by rw [chain23]; exact .rfl) (fun c => by rw [chain24]; exact .rfl)
    (seg12 m) (fun c => by rw [chain25]; exact .rfl) (fun c => by rw [chain26]; exact .rfl)

end Cert.KernelIdeal.Fr

end
-- ==== Proof.Sim.Agree.lean ====
/-
  The hypothesis under which the two idealized programs are compared: on a core, the reference's launch memory holds at
  each of its argument arrays what the kernel program's launch memory holds at the argument of the same position. Each
  equality is stated at the array type both sides have (the two programs name that type through different buffer
  tables).
-/
import proofs.«143046_j34703335751794_1_alg».proof.KernelIdeal
import proofs.«143046_j34703335751794_1_alg».proof.ReferenceIdeal
import Idealize.ShloMosaic.PureOps.Ideal

noncomputable section

namespace Cert.Sim

open Idealize.ShloMosaic Idealize.ShloMosaic.TcCoe

/-- The launch memories agree on the 25 arguments, paired by position, on core `c`. -/
def Agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD) : Prop :=
  @Eq ((⟨Cert.ReferenceIdeal.S200000x62, .f32⟩ : BufTy).Contents (Elt Ideal)) (m' ((c.tc : Thread Cert.ReferenceIdeal.nD Cert.ReferenceIdeal.τ).loc Cert.ReferenceIdeal.main_arg0)) (m ((c.tc : Thread Cert.KernelIdeal.nD Cert.KernelIdeal.τ).loc Cert.KernelIdeal.main_arg0))
  ∧ @Eq ((⟨Cert.ReferenceIdeal.S220000x6, .f32⟩ : BufTy).Contents (Elt Ideal)) (m' ((c.tc : Thread Cert.ReferenceIdeal.nD Cert.ReferenceIdeal.τ).loc Cert.ReferenceIdeal.main_arg1)) (m ((c.tc : Thread Cert.KernelIdeal.nD Cert.KernelIdeal.τ).loc Cert.KernelIdeal.main_arg1))
  ∧ @Eq ((⟨Cert.ReferenceIdeal.S40000x1, .i32⟩ : BufTy).Contents (Elt Ideal)) (m' ((c.tc : Thread Cert.ReferenceIdeal.nD Cert.ReferenceIdeal.τ).loc Cert.ReferenceIdeal.main_arg2)) (m ((c.tc : Thread Cert.KernelIdeal.nD Cert.KernelIdeal.τ).loc Cert.KernelIdeal.main_arg2))
  ∧ @Eq ((⟨Cert.ReferenceIdeal.S40000x1, .i32⟩ : BufTy).Contents (Elt Ideal)) (m' ((c.tc : Thread Cert.ReferenceIdeal.nD Cert.ReferenceIdeal.τ).loc Cert.ReferenceIdeal.main_arg3)) (m ((c.tc : Thread Cert.KernelIdeal.nD Cert.KernelIdeal.τ).loc Cert.KernelIdeal.main_arg3))
  ∧ @Eq ((⟨Cert.ReferenceIdeal.S60000x2, .i32⟩ : BufTy).Contents (Elt Ideal)) (m' ((c.tc : Thread Cert.ReferenceIdeal.nD Cert.ReferenceIdeal.τ).loc Cert.ReferenceIdeal.main_arg4)) (m ((c.tc : Thread Cert.KernelIdeal.nD Cert.KernelIdeal.τ).loc Cert.KernelIdeal.main_arg4))
  ∧ @Eq ((⟨Cert.ReferenceIdeal.S60000x2, .i32⟩ : BufTy).Contents (Elt Ideal)) (m' ((c.tc : Thread Cert.ReferenceIdeal.nD Cert.ReferenceIdeal.τ).loc Cert.ReferenceIdeal.main_arg5)) (m ((c.tc : Thread Cert.KernelIdeal.nD Cert.KernelIdeal.τ).loc Cert.KernelIdeal.main_arg5))
  ∧ @Eq ((⟨Cert.ReferenceIdeal.S60000x3, .i32⟩ : BufTy).Contents (Elt Ideal)) (m' ((c.tc : Thread Cert.ReferenceIdeal.nD Cert.ReferenceIdeal.τ).loc Cert.ReferenceIdeal.main_arg6)) (m ((c.tc : Thread Cert.KernelIdeal.nD Cert.KernelIdeal.τ).loc Cert.KernelIdeal.main_arg6))
  ∧ @Eq ((⟨Cert.ReferenceIdeal.S60000x3, .i32⟩ : BufTy).Contents (Elt Ideal)) (m' ((c.tc : Thread Cert.ReferenceIdeal.nD Cert.ReferenceIdeal.τ).loc Cert.ReferenceIdeal.main_arg7)) (m ((c.tc : Thread Cert.KernelIdeal.nD Cert.KernelIdeal.τ).loc Cert.KernelIdeal.main_arg7))
  ∧ @Eq ((⟨Cert.ReferenceIdeal.S40000x4, .i32⟩ : BufTy).Contents (Elt Ideal)) (m' ((c.tc : Thread Cert.ReferenceIdeal.nD Cert.ReferenceIdeal.τ).loc Cert.ReferenceIdeal.main_arg8)) (m ((c.tc : Thread Cert.KernelIdeal.nD Cert.KernelIdeal.τ).loc Cert.KernelIdeal.main_arg8))
  ∧ @Eq ((⟨Cert.ReferenceIdeal.S40000x4, .i32⟩ : BufTy).Contents (Elt Ideal)) (m' ((c.tc : Thread Cert.ReferenceIdeal.nD Cert.ReferenceIdeal.τ).loc Cert.ReferenceIdeal.main_arg9)) (m ((c.tc : Thread Cert.KernelIdeal.nD Cert.KernelIdeal.τ).loc Cert.KernelIdeal.main_arg9))
  ∧ @Eq ((⟨Cert.ReferenceIdeal.S200000, .i32⟩ : BufTy).Contents (Elt Ideal)) (m' ((c.tc : Thread Cert.ReferenceIdeal.nD Cert.ReferenceIdeal.τ).loc Cert.ReferenceIdeal.main_arg10)) (m ((c.tc : Thread Cert.KernelIdeal.nD Cert.KernelIdeal.τ).loc Cert.KernelIdeal.main_arg10))
  ∧ @Eq ((⟨Cert.ReferenceIdeal.S62x100, .f32⟩ : BufTy).Contents (Elt Ideal)) (m' ((c.tc : Thread Cert.ReferenceIdeal.nD Cert.ReferenceIdeal.τ).loc Cert.ReferenceIdeal.main_arg11)) (m ((c.tc : Thread Cert.KernelIdeal.nD Cert.KernelIdeal.τ).loc Cert.KernelIdeal.main_arg11))
  ∧ @Eq ((⟨Cert.ReferenceIdeal.S100, .f32⟩ : BufTy).Contents (Elt Ideal)) (m' ((c.tc : Thread Cert.ReferenceIdeal.nD Cert.ReferenceIdeal.τ).loc Cert.ReferenceIdeal.main_arg12)) (m ((c.tc : Thread Cert.KernelIdeal.nD Cert.KernelIdeal.τ).loc Cert.KernelIdeal.main_arg12))
  ∧ @Eq ((⟨Cert.ReferenceIdeal.S4x68x100, .f32⟩ : BufTy).Contents (Elt Ideal)) (m' ((c.tc : Thread Cert.ReferenceIdeal.nD Cert.ReferenceIdeal.τ).loc Cert.ReferenceIdeal.main_arg13)) (m ((c.tc : Thread Cert.KernelIdeal.nD Cert.KernelIdeal.τ).loc Cert.KernelIdeal.main_arg13))
  ∧ @Eq ((⟨Cert.ReferenceIdeal.S4x100, .f32⟩ : BufTy).Contents (Elt Ideal)) (m' ((c.tc : Thread Cert.ReferenceIdeal.nD Cert.ReferenceIdeal.τ).loc Cert.ReferenceIdeal.main_arg14)) (m ((c.tc : Thread Cert.KernelIdeal.nD Cert.KernelIdeal.τ).loc Cert.KernelIdeal.main_arg14))
  ∧ @Eq ((⟨Cert.ReferenceIdeal.S100x100, .f32⟩ : BufTy).Contents (Elt Ideal)) (m' ((c.tc : Thread Cert.ReferenceIdeal.nD Cert.ReferenceIdeal.τ).loc Cert.ReferenceIdeal.main_arg15)) (m ((c.tc : Thread Cert.KernelIdeal.nD Cert.KernelIdeal.τ).loc Cert.KernelIdeal.main_arg15))
  ∧ @Eq ((⟨Cert.ReferenceIdeal.S100, .f32⟩ : BufTy).Contents (Elt Ideal)) (m' ((c.tc : Thread Cert.ReferenceIdeal.nD Cert.ReferenceIdeal.τ).loc Cert.ReferenceIdeal.main_arg16)) (m ((c.tc : Thread Cert.KernelIdeal.nD Cert.KernelIdeal.τ).loc Cert.KernelIdeal.main_arg16))
  ∧ @Eq ((⟨Cert.ReferenceIdeal.S4x106x100, .f32⟩ : BufTy).Contents (Elt Ideal)) (m' ((c.tc : Thread Cert.ReferenceIdeal.nD Cert.ReferenceIdeal.τ).loc Cert.ReferenceIdeal.main_arg17)) (m ((c.tc : Thread Cert.KernelIdeal.nD Cert.KernelIdeal.τ).loc Cert.KernelIdeal.main_arg17))
  ∧ @Eq ((⟨Cert.ReferenceIdeal.S4x100, .f32⟩ : BufTy).Contents (Elt Ideal)) (m' ((c.tc : Thread Cert.ReferenceIdeal.nD Cert.ReferenceIdeal.τ).loc Cert.ReferenceIdeal.main_arg18)) (m ((c.tc : Thread Cert.KernelIdeal.nD Cert.KernelIdeal.τ).loc Cert.KernelIdeal.main_arg18))
  ∧ @Eq ((⟨Cert.ReferenceIdeal.S62x512, .f32⟩ : BufTy).Contents (Elt Ideal)) (m' ((c.tc : Thread Cert.ReferenceIdeal.nD Cert.ReferenceIdeal.τ).loc Cert.ReferenceIdeal.main_arg19)) (m ((c.tc : Thread Cert.KernelIdeal.nD Cert.KernelIdeal.τ).loc Cert.KernelIdeal.main_arg19))
  ∧ @Eq ((⟨Cert.ReferenceIdeal.S512, .f32⟩ : BufTy).Contents (Elt Ideal)) (m' ((c.tc : Thread Cert.ReferenceIdeal.nD Cert.ReferenceIdeal.τ).loc Cert.ReferenceIdeal.main_arg20)) (m ((c.tc : Thread Cert.KernelIdeal.nD Cert.KernelIdeal.τ).loc Cert.KernelIdeal.main_arg20))
  ∧ @Eq ((⟨Cert.ReferenceIdeal.S100x512, .f32⟩ : BufTy).Contents (Elt Ideal)) (m' ((c.tc : Thread Cert.ReferenceIdeal.nD Cert.ReferenceIdeal.τ).loc Cert.ReferenceIdeal.main_arg21)) (m ((c.tc : Thread Cert.KernelIdeal.nD Cert.KernelIdeal.τ).loc Cert.KernelIdeal.main_arg21))
  ∧ @Eq ((⟨Cert.ReferenceIdeal.S512, .f32⟩ : BufTy).Contents (Elt Ideal)) (m' ((c.tc : Thread Cert.ReferenceIdeal.nD Cert.ReferenceIdeal.τ).loc Cert.ReferenceIdeal.main_arg22)) (m ((c.tc : Thread Cert.KernelIdeal.nD Cert.KernelIdeal.τ).loc Cert.KernelIdeal.main_arg22))
  ∧ @Eq ((⟨Cert.ReferenceIdeal.S100x512, .f32⟩ : BufTy).Contents (Elt Ideal)) (m' ((c.tc : Thread Cert.ReferenceIdeal.nD Cert.ReferenceIdeal.τ).loc Cert.ReferenceIdeal.main_arg23)) (m ((c.tc : Thread Cert.KernelIdeal.nD Cert.KernelIdeal.τ).loc Cert.KernelIdeal.main_arg23))
  ∧ @Eq ((⟨Cert.ReferenceIdeal.S512, .f32⟩ : BufTy).Contents (Elt Ideal)) (m' ((c.tc : Thread Cert.ReferenceIdeal.nD Cert.ReferenceIdeal.τ).loc Cert.ReferenceIdeal.main_arg24)) (m ((c.tc : Thread Cert.KernelIdeal.nD Cert.KernelIdeal.τ).loc Cert.KernelIdeal.main_arg24))

variable {m : (ℓ : Loc Cert.KernelIdeal.nD Cert.KernelIdeal.τ Cert.KernelIdeal.sig) → Buf (Elt Ideal) ℓ}
  {m' : (ℓ : Loc Cert.ReferenceIdeal.nD Cert.ReferenceIdeal.τ Cert.ReferenceIdeal.sig) → Buf (Elt Ideal) ℓ}
  {c : Dev Cert.KernelIdeal.nD}

def Agree.a0 (h : Agree m m' c) := h.1
def Agree.a1 (h : Agree m m' c) := h.2.1
def Agree.a2 (h : Agree m m' c) := h.2.2.1
def Agree.a3 (h : Agree m m' c) := h.2.2.2.1
def Agree.a4 (h : Agree m m' c) := h.2.2.2.2.1
def Agree.a5 (h : Agree m m' c) := h.2.2.2.2.2.1
def Agree.a6 (h : Agree m m' c) := h.2.2.2.2.2.2.1
def Agree.a7 (h : Agree m m' c) := h.2.2.2.2.2.2.2.1
def Agree.a8 (h : Agree m m' c) := h.2.2.2.2.2.2.2.2.1
def Agree.a9 (h : Agree m m' c) := h.2.2.2.2.2.2.2.2.2.1
def Agree.a10 (h : Agree m m' c) := h.2.2.2.2.2.2.2.2.2.2.1
def Agree.a11 (h : Agree m m' c) := h.2.2.2.2.2.2.2.2.2.2.2.1
def Agree.a12 (h : Agree m m' c) := h.2.2.2.2.2.2.2.2.2.2.2.2.1
def Agree.a13 (h : Agree m m' c) := h.2.2.2.2.2.2.2.2.2.2.2.2.2.1
def Agree.a14 (h : Agree m m' c) := h.2.2.2.2.2.2.2.2.2.2.2.2.2.2.1
def Agree.a15 (h : Agree m m' c) := h.2.2.2.2.2.2.2.2.2.2.2.2.2.2.2.1
def Agree.a16 (h : Agree m m' c) := h.2.2.2.2.2.2.2.2.2.2.2.2.2.2.2.2.1
def Agree.a17 (h : Agree m m' c) := h.2.2.2.2.2.2.2.2.2.2.2.2.2.2.2.2.2.1
def Agree.a18 (h : Agree m m' c) := h.2.2.2.2.2.2.2.2.2.2.2.2.2.2.2.2.2.2.1
def Agree.a19 (h : Agree m m' c) := h.2.2.2.2.2.2.2.2.2.2.2.2.2.2.2.2.2.2.2.1
def Agree.a20 (h : Agree m m' c) := h.2.2.2.2.2.2.2.2.2.2.2.2.2.2.2.2.2.2.2.2.1
def Agree.a21 (h : Agree m m' c) := h.2.2.2.2.2.2.2.2.2.2.2.2.2.2.2.2.2.2.2.2.2.1
def Agree.a22 (h : Agree m m' c) := h.2.2.2.2.2.2.2.2.2.2.2.2.2.2.2.2.2.2.2.2.2.2.1
def Agree.a23 (h : Agree m m' c) := h.2.2.2.2.2.2.2.2.2.2.2.2.2.2.2.2.2.2.2.2.2.2.2.1
def Agree.a24 (h : Agree m m' c) := h.2.2.2.2.2.2.2.2.2.2.2.2.2.2.2.2.2.2.2.2.2.2.2.2

end Cert.Sim

end
-- ==== Proof.KI.Hold.lean ====
/-
  What the host stretches of the program leave untouched: a stretch changes only the buffers its operations write
  (a pallas_call only its result array: the chain's own lemmas).
-/
import proofs.«143046_j34703335751794_1_alg».proof.Proof.KI.Chain

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Host stretch 0 changes only what it writes. -/
theorem hold1 (c : Dev nD) (r : Ref sig .tc) (h : r ∉ hostOps0_W) : W1 m c r = W0 m c r :=
  StableHlo.after_of_writes_sub hostOps0 _ hostOps0_writes h
/-- Host stretch 1 changes only what it writes. -/
theorem hold3 (c : Dev nD) (r : Ref sig .tc) (h : r ∉ hostOps1_W) : W3 m c r = W2 m c r :=
  StableHlo.after_of_writes_sub hostOps1 _ hostOps1_writes h
/-- Host stretch 2 changes only what it writes. -/
theorem hold5 (c : Dev nD) (r : Ref sig .tc) (h : r ∉ hostOps2_W) : W5 m c r = W4 m c r :=
  StableHlo.after_of_writes_sub hostOps2 _ hostOps2_writes h
/-- Host stretch 3 changes only what it writes. -/
theorem hold7 (c : Dev nD) (r : Ref sig .tc) (h : r ∉ hostOps3_W) : W7 m c r = W6 m c r :=
  StableHlo.after_of_writes_sub hostOps3 _ hostOps3_writes h
/-- Host stretch 4 changes only what it writes. -/
theorem hold9 (c : Dev nD) (r : Ref sig .tc) (h : r ∉ hostOps4_W) : W9 m c r = W8 m c r :=
  StableHlo.after_of_writes_sub hostOps4 _ hostOps4_writes h
/-- Host stretch 5 changes only what it writes. -/
theorem hold11 (c : Dev nD) (r : Ref sig .tc) (h : r ∉ hostOps5_W) : W11 m c r = W10 m c r :=
  StableHlo.after_of_writes_sub hostOps5 _ hostOps5_writes h
/-- Host stretch 6 changes only what it writes. -/
theorem hold13 (c : Dev nD) (r : Ref sig .tc) (h : r ∉ hostOps6_W) : W13 m c r = W12 m c r :=
  StableHlo.after_of_writes_sub hostOps6 _ hostOps6_writes h
/-- Host stretch 7 changes only what it writes. -/
theorem hold15 (c : Dev nD) (r : Ref sig .tc) (h : r ∉ hostOps7_W) : W15 m c r = W14 m c r :=
  StableHlo.after_of_writes_sub hostOps7 _ hostOps7_writes h
/-- Host stretch 8 changes only what it writes. -/
theorem hold17 (c : Dev nD) (r : Ref sig .tc) (h : r ∉ hostOps8_W) : W17 m c r = W16 m c r :=
  StableHlo.after_of_writes_sub hostOps8 _ hostOps8_writes h
/-- Host stretch 9 changes only what it writes. -/
theorem hold19 (c : Dev nD) (r : Ref sig .tc) (h : r ∉ hostOps9_W) : W19 m c r = W18 m c r :=
  StableHlo.after_of_writes_sub hostOps9 _ hostOps9_writes h
/-- Host stretch 10 changes only what it writes. -/
theorem hold21 (c : Dev nD) (r : Ref sig .tc) (h : r ∉ hostOps10_W) : W21 m c r = W20 m c r :=
  StableHlo.after_of_writes_sub hostOps10 _ hostOps10_writes h
/-- Host stretch 11 changes only what it writes. -/
theorem hold23 (c : Dev nD) (r : Ref sig .tc) (h : r ∉ hostOps11_W) : W23 m c r = W22 m c r :=
  StableHlo.after_of_writes_sub hostOps11 _ hostOps11_writes h
/-- Host stretch 12 changes only what it writes. -/
theorem hold25 (c : Dev nD) (r : Ref sig .tc) (h : r ∉ hostOps12_W) : W25 m c r = W24 m c r :=
  StableHlo.after_of_writes_sub hostOps12 _ hostOps12_writes h
/-- Host stretch 13 changes only what it writes. -/
theorem hold27 (c : Dev nD) (r : Ref sig .tc) (h : r ∉ hostOps13_W) : W27 m c r = W26 m c r :=
  StableHlo.after_of_writes_sub hostOps13 _ hostOps13_writes h

end Cert.KernelIdeal.Fr

end
-- ==== Proof.KI.Cover0.lean ====
/-
  pallas_call 0: where its blocks sit in their arrays. Grid point t handles rows 2000·t … 2000·t + 1999: the blocks of the
  row-blocked windows (the first input and the output) are those rows, full width; the weight and the bias row
  are whole at every point. So a row-blocked window's block at (p, q) is its array at (2000·t + p, q), a whole window's block
  is its array, and the output's blocks cover its array: row r lies in the block of point r / 2000.
-/
import proofs.«143046_j34703335751794_1_alg».proof.Proof.KI.Region0
import Idealize.ShloMosaic.Lib.Pipeline.Value
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (V : (c : Dev nD) → (b : Ref sig .tc) → Buf (Elt F) ((c : Thread nD τ).loc b))

/-- The printed index maps, decided over the grid. -/
theorem maps0 : ∀ t : Fin cfg0.N, win0_0.index t (0 : Fin 2) = t.val
    ∧ win0_0.index t (1 : Fin 2) = 0
    ∧ win0_3.index t (0 : Fin 2) = t.val
    ∧ win0_3.index t (1 : Fin 2) = 0
    ∧ win0_1.index t (0 : Fin 2) = 0
    ∧ win0_1.index t (1 : Fin 2) = 0
    ∧ win0_2.index t (0 : Fin 2) = 0
    ∧ win0_2.index t (1 : Fin 2) = 0 :=
  (by decide +kernel : ∀ t : Fin grid0.N, _)

theorem pts0 : cfg0.N = 100 := N_0

/-- A row-blocked input's block at (p, q) is its array at (2000·t + p, q). -/
theorem rows0_0 (c : Dev nD) (t : Fin cfg0.N) (p : Fin 2000) (q : Fin 62) (hb : t.val * 2000 + p.val < 200000) :
    blk0 V c 0 t (ix2 p q) = V c main_arg0 (ix2 (⟨t.val * 2000 + p.val, hb⟩ : Fin 200000) q) := by
  show V c main_arg0 (((cfg0.win 0).blk t).view.emb (ix2 p q)) = _
  refine congrArg _ (funext fun a => Fin.ext ?_)
  obtain ⟨h0, h1, h2, h3, h4, h5, h6, h7⟩ := maps0 t
  match a with
  | ⟨0, _⟩ => show win0_0.index t (0 : Fin 2) * 2000 + 1 * p.val = t.val * 2000 + p.val; omega
  | ⟨1, _⟩ => show win0_0.index t (1 : Fin 2) * 62 + 1 * q.val = q.val; omega

/-- A whole window's block is its array. -/
theorem all0_1 (c : Dev nD) (t : Fin cfg0.N) (y : S62x512.Idx) : blk0 V c 1 t y = V c main_arg19 y := by
  show V c main_arg19 (((cfg0.win 1).blk t).view.emb y) = _
  refine congrArg _ (funext fun a => Fin.ext ?_)
  obtain ⟨h0, h1, h2, h3, h4, h5, h6, h7⟩ := maps0 t
  match a with
  | ⟨0, _⟩ => show win0_1.index t (0 : Fin 2) * 62 + 1 * (y 0).val = (y 0).val; omega
  | ⟨1, _⟩ => show win0_1.index t (1 : Fin 2) * 512 + 1 * (y 1).val = (y 1).val; omega

/-- A whole window's block is its array. -/
theorem all0_2 (c : Dev nD) (t : Fin cfg0.N) (y : S1x512.Idx) : blk0 V c 2 t y = V c main_v0 y := by
  show V c main_v0 (((cfg0.win 2).blk t).view.emb y) = _
  refine congrArg _ (funext fun a => Fin.ext ?_)
  obtain ⟨h0, h1, h2, h3, h4, h5, h6, h7⟩ := maps0 t
  match a with
  | ⟨0, _⟩ => show win0_2.index t (0 : Fin 2) * 1 + 1 * (y 0).val = (y 0).val; omega
  | ⟨1, _⟩ => show win0_2.index t (1 : Fin 2) * 512 + 1 * (y 1).val = (y 1).val; omega

/-- Where the output's block sits: (p, q) of point t's block is (2000·t + p, q) of the array. -/
theorem outRow0 (t : Fin cfg0.N) (y : S2000x512.Idx) :
    (((cfg0.win 3).blk t).view.emb y (0 : Fin 2)).val = t.val * 2000 + (y 0).val := by
  obtain ⟨h0, h1, h2, h3, h4, h5, h6, h7⟩ := maps0 t
  show win0_3.index t (0 : Fin 2) * 2000 + 1 * (y 0).val = _
  omega
theorem outCol0 (t : Fin cfg0.N) (y : S2000x512.Idx) :
    (((cfg0.win 3).blk t).view.emb y (1 : Fin 2)).val = (y 1).val := by
  obtain ⟨h0, h1, h2, h3, h4, h5, h6, h7⟩ := maps0 t
  show win0_3.index t (1 : Fin 2) * 512 + 1 * (y 1).val = _
  omega

/-- An index of the output array is in point t's block iff its row is among the point's rows. -/
theorem inBlock0 (t : Fin cfg0.N) (i : S200000x512.Idx) :
    i ∈ ((cfg0.win 3).blk t).view.set ↔ ∀ a : Fin 2, win0_3.index t a * S2000x512.size a ≤ (i a).val ∧ (i a).val < win0_3.index t a * S2000x512.size a + S2000x512.size a := by
  show i ∈ ((View.whole main_v1).slice (win0_3.rect t)).set ↔ _
  rw [View.set_slice_whole, Rect.mem_set_unit]
  exact Iff.rfl

/-- The output's blocks cover its array. -/
theorem covered0 (i : S200000x512.Idx) : ∃ t : Fin cfg0.N, (cfg0.win 3).flush t = true ∧ i ∈ ((cfg0.win 3).blk t).view.set := by
  have hi0 : (i 0).val < 200000 := (i 0).isLt
  have hi1 : (i 1).val < 512 := (i 1).isLt
  refine ⟨⟨(i 0).val / 2000, by rw [pts0]; omega⟩, flush0_3 _, ?_⟩
  rw [inBlock0]
  obtain ⟨h0, h1, h2, h3, h4, h5, h6, h7⟩ := maps0 ⟨(i 0).val / 2000, by rw [pts0]; omega⟩
  intro a
  match a with
  | ⟨0, _⟩ => show win0_3.index _ (0 : Fin 2) * 2000 ≤ (i 0).val ∧ (i 0).val < win0_3.index _ (0 : Fin 2) * 2000 + 2000; simp only at *; omega
  | ⟨1, _⟩ => show win0_3.index _ (1 : Fin 2) * 512 ≤ (i 1).val ∧ (i 1).val < win0_3.index _ (1 : Fin 2) * 512 + 512; simp only at *; omega

end Cert.KernelIdeal.Fr

end
-- ==== Proof.LibUnitColumn.lean ====
/-
  A vector laid out as a one-column matrix, and a one-column matrix spread along the rows.

  A length-`a` vector becomes an `[a, 1]` matrix either by a reshape or by a broadcast that keeps axis 0; either
  way the entry at `(i, u)` is the vector's entry `i`. Spreading an `[a, 1]` matrix to `[a, b]` repeats the
  column: the entry at `(i, j)` is the column's entry `(i, 0)`. Hence the two spellings of "the vector as a column,
  repeated along each row" are one matrix.
-/
import Idealize.ShloMosaic.Lib.Pipeline.Value
import Idealize.ShloMosaic.Lib.ValueIdx

namespace Cert.LibUnitColumn

open Idealize.ShloMosaic Idealize.ShloMosaic.ValueIdx

variable {α : Type}

/-- An `[a]` vector cast to `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a]` vector broadcast to `[a, 1]` along axis 0 reads, at `(i, u)`, the vector at `i`. -/
theorem broadcastInDim_a_a1_apply {a : ℕ} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) :=
  broadcastInDim_apply ![0] h x _ _ (fun d => by
    match d with
    | ⟨0, _⟩ =>
      show i.val = if a = 1 then 0 else i.val
      split_ifs with e
      · have := i.isLt; omega
      · rfl)

/-- An `[a, 1]` column spread to `[a, b]` reads, at `(i, j)`, the column at `(i, 0)`. -/
theorem broadcastInDim_a1_ab_apply {a b : ℕ} (x : (⟨2, ![a, 1]⟩ : Shape).Idx → α)
    (h : (⟨2, ![a, 1]⟩ : Shape).BroadcastsInDim ⟨2, ![a, b]⟩ ![0, 1]) (i : Fin a) (j : Fin b) :
    broadcastInDim ⟨2, ![a, b]⟩ ![0, 1] h x (ix2 i j) = x (ix2 i 0) :=
  broadcastInDim_apply ![0, 1] h x _ _ (fun d => by
    match d with
    | ⟨0, _⟩ =>
      show i.val = if a = 1 then 0 else i.val
      split_ifs with e
      · have := i.isLt; omega
      · rfl
    | ⟨1, _⟩ =>
      show (0 : ℕ) = if (1 : ℕ) = 1 then 0 else j.val
      rw [if_pos rfl])

/-- The vector as a column repeated along each row, by a reshape or by a broadcast: one matrix. -/
theorem spread_cast_eq_spread_bcast {a b : ℕ} (x : (⟨1, ![a]⟩ : Shape).Idx → α)
    (hc : (⟨1, ![a]⟩ : Shape).ShapeCasts ⟨2, ![a, 1]⟩) (hb : (⟨1, ![a]⟩ : Shape).BroadcastsInDim ⟨2, ![a, 1]⟩ ![0])
    (h2 : (⟨2, ![a, 1]⟩ : Shape).BroadcastsInDim ⟨2, ![a, b]⟩ ![0, 1]) :
    broadcastInDim ⟨2, ![a, b]⟩ ![0, 1] h2 (shapeCast ⟨2, ![a, 1]⟩ x hc)
      = broadcastInDim ⟨2, ![a, b]⟩ ![0, 1] h2 (broadcastInDim ⟨2, ![a, 1]⟩ ![0] hb x) := by
  funext i
  obtain ⟨p, q, rfl⟩ : ∃ (p : Fin a) (q : Fin b), i = ix2 p q := ⟨i 0, i 1, eq_ix2 i⟩
  rw [broadcastInDim_a1_ab_apply, broadcastInDim_a1_ab_apply, shapeCast_a_a1_apply, broadcastInDim_a_a1_apply]

end Cert.LibUnitColumn
-- ==== Proof.LibSpreadColumn.lean ====
/-
  A one-column matrix spread along the rows by a vector broadcast.

  Broadcasting an [a, 1] array to [a, b] repeats its one column: the entry at (p, c) is the column's entry (p, 0).
-/
import Idealize.ShloMosaic.Lib.Pipeline.Value
import Idealize.ShloMosaic.Lib.ValueIdx

namespace Cert.LibSpreadColumn

open Idealize.ShloMosaic Idealize.ShloMosaic.ValueIdx

variable {α : Type}

/-- An [a, 1] array broadcast to [a, b] reads, at (p, c), the operand's column entry of row p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibSpreadColumn
-- ==== Proof.LibSoftmaxRows.lean ====
/-
  The softmax of each row of a matrix, on the extended reals.

  For a row L of n extended reals let  M = max(−∞, L 0, …, L (n−1))  be its maximum, folded from the f32 word of −∞.
  The softmax of the row at entry q is   exp(L q − M) / Σ_j exp(L j − M).   Entry (p, q) of the softmax of an m × n
  matrix depends on the matrix only through its row p.  A kernel and a host program spell the two row reductions
  differently.  The kernel reduces over axis 1 into a vector of m entries from the accumulator word (−∞ for the
  maximum, +0 for the sum), reshapes the vector to a column and repeats the column along the rows.  The host reduces
  over the same axis from a rank-0 constant, takes the maximum of the result with the constant −∞ once more (which
  changes nothing, the fold having started from it), lays the vector out as a column by a broadcast that keeps axis 0
  and repeats the column along the rows.  Both subtract, exponentiate and divide entry by entry.  Read at an entry both
  are the same function of the row, whatever the number of rows.  Nothing here uses more of the extended reals than
  max c (max c …) = max c …  and  0 + x = x,  so everything holds at the infinities too.
-/
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws
import proofs.«143046_j34703335751794_1_alg».proof.Proof.LibUnitColumn
import proofs.«143046_j34703335751794_1_alg».proof.Proof.LibSpreadColumn

noncomputable section

namespace Cert.LibSoftmaxRows

open Idealize.ShloMosaic Idealize.ShloMosaic.ValueIdx

/-- The maximum of a row, folded from the f32 word of −∞. -/
def rowMax {n : ℕ} (L : Fin n → EReal) : EReal :=
  (Finset.univ : Finset (Fin n)).fold max (Ideal.ofBits .f32 0xFF800000#32) L

/-- The softmax of a row at entry q:  exp(L q − max L) / Σ_j exp(L j − max L). -/
def softmaxRow {n : ℕ} (L : Fin n → EReal) (q : Fin n) : EReal :=
  Ideal.div (Ideal.exp (L q - rowMax L)) (∑ j : Fin n, Ideal.exp (L j - rowMax L))

/-- The softmax of a whole matrix: entry (i, j) is the softmax of row i, at j. -/
def softmaxArr {m n : ℕ} (L : (⟨2, ![m, n]⟩ : Shape).Idx → EReal) : (⟨2, ![m, n]⟩ : Shape).Idx → EReal :=
  fun i => softmaxRow (fun j => L (ix2 (i 0 : Fin m) j)) (i 1 : Fin n)

/-- Taking the maximum with the starting value once more changes nothing. -/
theorem max_start_rowMax {n : ℕ} (L : Fin n → EReal) :
    max (Ideal.ofBits .f32 0xFF800000#32) (rowMax L) = rowMax L :=
  max_eq_right ((Finset.le_fold_max _).2 (Or.inl le_rfl))

/-- In a matrix reduced over axis 1, the index over the result's index p with k inserted on the reduced axis is (p, k). -/
theorem lift_row {m n : ℕ} (hr : (⟨2, ![m, n]⟩ : Shape).Reduces [1] ⟨1, ![m]⟩) (p : Fin m) (k : Fin n) :
    hr.lift (ix1 p) k = ix2 p k := by
  funext c
  match c with
  | ⟨0, _⟩ => exact Fin.ext rfl
  | ⟨1, _⟩ => exact Fin.ext rfl

/-- The shape relation of a reduction over axis 1 that also admits a rank-0 result gives, when the result is a vector,
    the relation that asks for a result of positive rank. -/
theorem reduces_of_reducesTo {m n : ℕ} (hrt : (⟨2, ![m, n]⟩ : Shape).ReducesTo [1] ⟨1, ![m]⟩) :
    (⟨2, ![m, n]⟩ : Shape).Reduces [1] ⟨1, ![m]⟩ :=
  let ⟨h1, h2⟩ := hrt
  ⟨h1, Nat.one_pos, h2⟩

/-! ## The kernel's spelling -/

/-- The kernel's row maximum at p: the maximum of row p. -/
theorem kernel_rowMax_apply {m n : ℕ} (L : FVec Ideal ⟨2, ![m, n]⟩ .f32)
    (hr : (⟨2, ![m, n]⟩ : Shape).Reduces [1] ⟨1, ![m]⟩) (hφ : FKind.Formats .f32)
    (hmax : (0xFF800000#32 : BitVec 32) = 0xFF800000#32) (p : Fin m) :
    multiReduction .maximumf [1] ⟨1, ![m]⟩ L 0xFF800000#32 hr hφ hmax (ix1 p) = rowMax (fun j => L (ix2 p j)) :=
  (Ideal.multiReduction_maximumf_single L 0xFF800000#32 hr hφ hmax (ix1 p)).trans
    (congrArg (fun f : Fin n → EReal => (Finset.univ : Finset (Fin n)).fold max (Ideal.ofBits .f32 0xFF800000#32) f)
      (funext fun k => congrArg L (lift_row hr p k)))

/-- The kernel's row sum at p: the sum of row p. -/
theorem kernel_rowSum_apply {m n : ℕ} (E : FVec Ideal ⟨2, ![m, n]⟩ .f32)
    (hr : (⟨2, ![m, n]⟩ : Shape).Reduces [1] ⟨1, ![m]⟩) (hφ : FKind.Formats .f32)
    (hadd : (0x00000000#32 : BitVec 32) = 0x00000000#32) (p : Fin m) :
    multiReduction .add [1] ⟨1, ![m]⟩ E 0x00000000#32 hr hφ hadd (ix1 p) = ∑ k : Fin n, E (ix2 p k) :=
  (Ideal.multiReduction_add_single E 0x00000000#32 hr hφ hadd (ix1 p)).trans
    (Finset.sum_congr rfl fun k _ => congrArg E (lift_row hr p k))

/-- A vector reshaped to a column and repeated along the rows reads, at (p, q), the vector at p. -/
theorem kernel_column_apply {α : Type} {m n : ℕ} (v : (⟨1, ![m]⟩ : Shape).Idx → α)
    (hc : (⟨1, ![m]⟩ : Shape).ShapeCasts ⟨2, ![m, 1]⟩) (hb : (⟨2, ![m, 1]⟩ : Shape).Broadcasts ⟨2, ![m, n]⟩)
    (p : Fin m) (q : Fin n) :
    broadcastTo ⟨2, ![m, n]⟩ (shapeCast ⟨2, ![m, 1]⟩ v hc) hb (ix2 p q) = v (ix1 p) := by
  rw [Cert.LibSpreadColumn.broadcastTo_a1_ab_apply, Cert.LibUnitColumn.shapeCast_a_a1_apply]

/-- The kernel's softmax at entry (p, q): the softmax of row p, at q. -/
theorem kernel_softmax_apply {m n : ℕ} (L : FVec Ideal ⟨2, ![m, n]⟩ .f32)
    (hr : (⟨2, ![m, n]⟩ : Shape).Reduces [1] ⟨1, ![m]⟩) (hφ : FKind.Formats .f32)
    (hmax : (0xFF800000#32 : BitVec 32) = 0xFF800000#32) (hadd : (0x00000000#32 : BitVec 32) = 0x00000000#32)
    (hc : (⟨1, ![m]⟩ : Shape).ShapeCasts ⟨2, ![m, 1]⟩) (hb : (⟨2, ![m, 1]⟩ : Shape).Broadcasts ⟨2, ![m, n]⟩)
    (p : Fin m) (q : Fin n) :
    divf
        (exp (subf L (broadcastTo ⟨2, ![m, n]⟩ (shapeCast ⟨2, ![m, 1]⟩
          (multiReduction .maximumf [1] ⟨1, ![m]⟩ L 0xFF800000#32 hr hφ hmax) hc) hb)))
        (broadcastTo ⟨2, ![m, n]⟩ (shapeCast ⟨2, ![m, 1]⟩
          (multiReduction .add [1] ⟨1, ![m]⟩
            (exp (subf L (broadcastTo ⟨2, ![m, n]⟩ (shapeCast ⟨2, ![m, 1]⟩
              (multiReduction .maximumf [1] ⟨1, ![m]⟩ L 0xFF800000#32 hr hφ hmax) hc) hb)))
            0x00000000#32 hr hφ hadd) hc) hb)
        (ix2 p q)
      = softmaxRow (fun j => L (ix2 p j)) q := by
  have hB : ∀ k : Fin n,
      broadcastTo ⟨2, ![m, n]⟩ (shapeCast ⟨2, ![m, 1]⟩
        (multiReduction .maximumf [1] ⟨1, ![m]⟩ L 0xFF800000#32 hr hφ hmax) hc) hb (ix2 p k)
        = rowMax (fun j => L (ix2 p j)) := fun k => by
    rw [kernel_column_apply, kernel_rowMax_apply]
  refine congrArg₂ Ideal.div ?_ ?_
  · exact congrArg (fun t => Ideal.exp (L (ix2 p q) - t)) (hB q)
  · rw [kernel_column_apply]
    refine (kernel_rowSum_apply _ hr hφ hadd p).trans (Finset.sum_congr rfl fun k _ => ?_)
    exact congrArg (fun t => Ideal.exp (L (ix2 p k) - t)) (hB k)

/-! ## The host's spelling -/

/-- The host's row maximum at p, capped below by −∞ once more: the maximum of row p. -/
theorem host_rowMax_apply {m n : ℕ} (L : FVec Ideal ⟨2, ![m, n]⟩ .f32)
    (hrt : (⟨2, ![m, n]⟩ : Shape).ReducesTo [1] ⟨1, ![m]⟩) (hu : 0 < (⟨0, ![]⟩ : Shape).numel)
    (hb0 : (⟨0, ![]⟩ : Shape).BroadcastsInDim ⟨1, ![m]⟩ ![]) (p : Fin m) :
    maximumf (broadcastInDim ⟨1, ![m]⟩ ![] hb0 (constant (F := Ideal) ⟨0, ![]⟩ .f32 0xFF800000#32))
        (Host.reduce FloatOps.maximumf L (constant (F := Ideal) ⟨0, ![]⟩ .f32 0xFF800000#32) hrt hu) (ix1 p)
      = rowMax (fun j => L (ix2 p j)) := by
  have hfold : Host.reduce FloatOps.maximumf L (constant (F := Ideal) ⟨0, ![]⟩ .f32 0xFF800000#32) hrt hu (ix1 p)
      = rowMax (fun j => L (ix2 p j)) :=
    (Host.reduce_eq_fold_single FloatOps.maximumf L _ hrt (reduces_of_reducesTo hrt) hu (ix1 p)).trans
      (congrArg (fun f : Fin n → EReal => (Finset.univ : Finset (Fin n)).fold max (Ideal.ofBits .f32 0xFF800000#32) f)
        (funext fun k => congrArg L (lift_row (reduces_of_reducesTo hrt) p k)))
  rw [maximumf_apply, broadcastInDim_scalar_apply, hfold]
  exact max_start_rowMax _

/-- The host's row sum at p from the zero constant: the sum of row p. -/
theorem host_rowSum_apply {m n : ℕ} (E : FVec Ideal ⟨2, ![m, n]⟩ .f32)
    (hrt : (⟨2, ![m, n]⟩ : Shape).ReducesTo [1] ⟨1, ![m]⟩) (hu : 0 < (⟨0, ![]⟩ : Shape).numel) (p : Fin m) :
    Host.reduceAdd E (constant (F := Ideal) ⟨0, ![]⟩ .f32 0x00000000#32) hrt hu (ix1 p) = ∑ k : Fin n, E (ix2 p k) := by
  rw [hostReduceAdd_apply, Ideal.hostReduceAdd_single hrt (reduces_of_reducesTo hrt), constant_apply,
    Ideal.ofBits_zero_f32, zero_add]
  exact Finset.sum_congr rfl fun k _ => congrArg E (lift_row (reduces_of_reducesTo hrt) p k)

/-- A vector laid out as a column by a broadcast and repeated along the rows reads, at (p, q), the vector at p. -/
theorem host_column_apply {α : Type} {m n : ℕ} (v : (⟨1, ![m]⟩ : Shape).Idx → α)
    (hb1 : (⟨1, ![m]⟩ : Shape).BroadcastsInDim ⟨2, ![m, 1]⟩ ![0])
    (hb2 : (⟨2, ![m, 1]⟩ : Shape).BroadcastsInDim ⟨2, ![m, n]⟩ ![0, 1]) (p : Fin m) (q : Fin n) :
    broadcastInDim ⟨2, ![m, n]⟩ ![0, 1] hb2 (broadcastInDim ⟨2, ![m, 1]⟩ ![0] hb1 v) (ix2 p q) = v (ix1 p) := by
  rw [Cert.LibUnitColumn.broadcastInDim_a1_ab_apply, Cert.LibUnitColumn.broadcastInDim_a_a1_apply]

/-- The host's softmax at entry (p, q): the softmax of row p, at q. -/
theorem host_softmax_apply {m n : ℕ} (L : FVec Ideal ⟨2, ![m, n]⟩ .f32)
    (hrt : (⟨2, ![m, n]⟩ : Shape).ReducesTo [1] ⟨1, ![m]⟩) (hu : 0 < (⟨0, ![]⟩ : Shape).numel)
    (hb0 : (⟨0, ![]⟩ : Shape).BroadcastsInDim ⟨1, ![m]⟩ ![])
    (hb1 : (⟨1, ![m]⟩ : Shape).BroadcastsInDim ⟨2, ![m, 1]⟩ ![0])
    (hb2 : (⟨2, ![m, 1]⟩ : Shape).BroadcastsInDim ⟨2, ![m, n]⟩ ![0, 1]) (p : Fin m) (q : Fin n) :
    Host.divf
        (Host.exp (subf L (broadcastInDim ⟨2, ![m, n]⟩ ![0, 1] hb2 (broadcastInDim ⟨2, ![m, 1]⟩ ![0] hb1
          (maximumf (broadcastInDim ⟨1, ![m]⟩ ![] hb0 (constant (F := Ideal) ⟨0, ![]⟩ .f32 0xFF800000#32))
            (Host.reduce FloatOps.maximumf L (constant (F := Ideal) ⟨0, ![]⟩ .f32 0xFF800000#32) hrt hu))))))
        (broadcastInDim ⟨2, ![m, n]⟩ ![0, 1] hb2 (broadcastInDim ⟨2, ![m, 1]⟩ ![0] hb1
          (Host.reduceAdd
            (Host.exp (subf L (broadcastInDim ⟨2, ![m, n]⟩ ![0, 1] hb2 (broadcastInDim ⟨2, ![m, 1]⟩ ![0] hb1
              (maximumf (broadcastInDim ⟨1, ![m]⟩ ![] hb0 (constant (F := Ideal) ⟨0, ![]⟩ .f32 0xFF800000#32))
                (Host.reduce FloatOps.maximumf L (constant (F := Ideal) ⟨0, ![]⟩ .f32 0xFF800000#32) hrt hu))))))
            (constant (F := Ideal) ⟨0, ![]⟩ .f32 0x00000000#32) hrt hu)))
        (ix2 p q)
      = softmaxRow (fun j => L (ix2 p j)) q := by
  have hB : ∀ k : Fin n,
      broadcastInDim ⟨2, ![m, n]⟩ ![0, 1] hb2 (broadcastInDim ⟨2, ![m, 1]⟩ ![0] hb1
        (maximumf (broadcastInDim ⟨1, ![m]⟩ ![] hb0 (constant (F := Ideal) ⟨0, ![]⟩ .f32 0xFF800000#32))
          (Host.reduce FloatOps.maximumf L (constant (F := Ideal) ⟨0, ![]⟩ .f32 0xFF800000#32) hrt hu))) (ix2 p k)
        = rowMax (fun j => L (ix2 p j)) := fun k => by
    rw [host_column_apply, host_rowMax_apply]
  refine congrArg₂ Ideal.div ?_ ?_
  · exact congrArg (fun t => Ideal.exp (L (ix2 p q) - t)) (hB q)
  · rw [host_column_apply]
    refine (host_rowSum_apply _ hrt hu p).trans (Finset.sum_congr rfl fun k _ => ?_)
    exact congrArg (fun t => Ideal.exp (L (ix2 p k) - t)) (hB k)

/-- The host's softmax of a whole matrix is `softmaxArr`. -/
theorem host_softmax_eq {m n : ℕ} (L : FVec Ideal ⟨2, ![m, n]⟩ .f32)
    (hrt : (⟨2, ![m, n]⟩ : Shape).ReducesTo [1] ⟨1, ![m]⟩) (hu : 0 < (⟨0, ![]⟩ : Shape).numel)
    (hb0 : (⟨0, ![]⟩ : Shape).BroadcastsInDim ⟨1, ![m]⟩ ![])
    (hb1 : (⟨1, ![m]⟩ : Shape).BroadcastsInDim ⟨2, ![m, 1]⟩ ![0])
    (hb2 : (⟨2, ![m, 1]⟩ : Shape).BroadcastsInDim ⟨2, ![m, n]⟩ ![0, 1]) :
    Host.divf
        (Host.exp (subf L (broadcastInDim ⟨2, ![m, n]⟩ ![0, 1] hb2 (broadcastInDim ⟨2, ![m, 1]⟩ ![0] hb1
          (maximumf (broadcastInDim ⟨1, ![m]⟩ ![] hb0 (constant (F := Ideal) ⟨0, ![]⟩ .f32 0xFF800000#32))
            (Host.reduce FloatOps.maximumf L (constant (F := Ideal) ⟨0, ![]⟩ .f32 0xFF800000#32) hrt hu))))))
        (broadcastInDim ⟨2, ![m, n]⟩ ![0, 1] hb2 (broadcastInDim ⟨2, ![m, 1]⟩ ![0] hb1
          (Host.reduceAdd
            (Host.exp (subf L (broadcastInDim ⟨2, ![m, n]⟩ ![0, 1] hb2 (broadcastInDim ⟨2, ![m, 1]⟩ ![0] hb1
              (maximumf (broadcastInDim ⟨1, ![m]⟩ ![] hb0 (constant (F := Ideal) ⟨0, ![]⟩ .f32 0xFF800000#32))
                (Host.reduce FloatOps.maximumf L (constant (F := Ideal) ⟨0, ![]⟩ .f32 0xFF800000#32) hrt hu))))))
            (constant (F := Ideal) ⟨0, ![]⟩ .f32 0x00000000#32) hrt hu)))
      = softmaxArr L := by
  funext i
  obtain ⟨p, q, rfl⟩ : ∃ (p : Fin m) (q : Fin n), i = ix2 p q := ⟨i 0, i 1, eq_ix2 i⟩
  exact host_softmax_apply L hrt hu hb0 hb1 hb2 p q

end Cert.LibSoftmaxRows

end
-- ==== Proof.LibDenseRows.lean ====
/-
  A dense layer read one row at a time, on the extended reals.

  A dense layer takes a matrix x (m rows of k entries), a weight matrix w (k × n) and a bias b (one row of n entries)
  to the matrix whose entry (p, q) is  (Σ_c x[p, c] · w[c, q]) + b[0, q].  Entry (p, q) depends on x only through its
  row p.  A kernel and a host program spell the layer differently — the kernel as a matrix unit's product accumulated
  into a zero splat plus the bias row broadcast down the rows, the host as a dot_general plus a broadcast along axis 0 —
  and cut the rows differently (a kernel sees a block of rows, the host all of them); read at an entry both are the
  same function of the row, whatever the number of rows.  The rectifier max(·, 0) is likewise read entry by entry.
  Nothing here uses more of real arithmetic than 0 + x = x, so everything holds at the infinities too.
-/
import Idealize.ShloMosaic.Lib.StackMember
import Idealize.ShloMosaic.Lib.KernelVsHost
import Idealize.ShloMosaic.Lib.ValueLayout
import Idealize.ShloMosaic.Lib.ValueIdx
import Idealize.ShloMosaic.PureOps.Ideal.Laws

noncomputable section

namespace Cert.LibDenseRows

open Idealize.ShloMosaic Idealize.ShloMosaic.ValueIdx

/-- One row through a dense layer: entry q of  r · w + b. -/
def denseRow {k n : ℕ} (r : Fin k → EReal) (w : (⟨2, ![k, n]⟩ : Shape).Idx → EReal)
    (b : (⟨2, ![1, n]⟩ : Shape).Idx → EReal) (q : Fin n) : EReal :=
  (∑ c : Fin k, r c * w (ix2 c q)) + b (ix2 (0 : Fin 1) q)

/-- The rectifier on one extended real, against the f32 zero word. -/
def relu (x : EReal) : EReal := max x (Ideal.ofBits .f32 0x00000000#32)

/-- One row through two rectified dense layers:  relu(relu(r · w1 + b1) · w2 + b2)  at entry q. -/
def mlp2Row {k h n : ℕ} (r : Fin k → EReal) (w1 : (⟨2, ![k, h]⟩ : Shape).Idx → EReal) (b1 : (⟨2, ![1, h]⟩ : Shape).Idx → EReal)
    (w2 : (⟨2, ![h, n]⟩ : Shape).Idx → EReal) (b2 : (⟨2, ![1, n]⟩ : Shape).Idx → EReal) (q : Fin n) : EReal :=
  relu (denseRow (fun c => relu (denseRow r w1 b1 c)) w2 b2 q)

/-- One row through two rectified dense layers and a last, unrectified one:
    relu(relu(r · w0 + b0) · w1 + b1) · w2 + b2  at entry q. -/
def mlp3Row {k h g n : ℕ} (r : Fin k → EReal) (w0 : (⟨2, ![k, h]⟩ : Shape).Idx → EReal) (b0 : (⟨2, ![1, h]⟩ : Shape).Idx → EReal)
    (w1 : (⟨2, ![h, g]⟩ : Shape).Idx → EReal) (b1 : (⟨2, ![1, g]⟩ : Shape).Idx → EReal)
    (w2 : (⟨2, ![g, n]⟩ : Shape).Idx → EReal) (b2 : (⟨2, ![1, n]⟩ : Shape).Idx → EReal) (q : Fin n) : EReal :=
  denseRow (fun d => relu (denseRow (fun c => relu (denseRow r w0 b0 c)) w1 b1 d)) w2 b2 q

/-- The dense layer of a whole matrix: entry (i, j) is row i through the layer, at j. -/
def denseArr {m k n : ℕ} (x : (⟨2, ![m, k]⟩ : Shape).Idx → EReal) (w : (⟨2, ![k, n]⟩ : Shape).Idx → EReal)
    (b : (⟨2, ![1, n]⟩ : Shape).Idx → EReal) : (⟨2, ![m, n]⟩ : Shape).Idx → EReal :=
  fun i => denseRow (fun c => x (ix2 (i 0 : Fin m) c)) w b (i 1 : Fin n)

/-- Two rectified dense layers of a whole matrix, row by row. -/
def mlp2Arr {m k h n : ℕ} (x : (⟨2, ![m, k]⟩ : Shape).Idx → EReal) (w1 : (⟨2, ![k, h]⟩ : Shape).Idx → EReal)
    (b1 : (⟨2, ![1, h]⟩ : Shape).Idx → EReal) (w2 : (⟨2, ![h, n]⟩ : Shape).Idx → EReal) (b2 : (⟨2, ![1, n]⟩ : Shape).Idx → EReal) :
    (⟨2, ![m, n]⟩ : Shape).Idx → EReal :=
  fun i => mlp2Row (fun c => x (ix2 (i 0 : Fin m) c)) w1 b1 w2 b2 (i 1 : Fin n)

/-- Two rectified dense layers and a last, unrectified one of a whole matrix, row by row. -/
def mlp3Arr {m k h g n : ℕ} (x : (⟨2, ![m, k]⟩ : Shape).Idx → EReal) (w0 : (⟨2, ![k, h]⟩ : Shape).Idx → EReal)
    (b0 : (⟨2, ![1, h]⟩ : Shape).Idx → EReal) (w1 : (⟨2, ![h, g]⟩ : Shape).Idx → EReal) (b1 : (⟨2, ![1, g]⟩ : Shape).Idx → EReal)
    (w2 : (⟨2, ![g, n]⟩ : Shape).Idx → EReal) (b2 : (⟨2, ![1, n]⟩ : Shape).Idx → EReal) : (⟨2, ![m, n]⟩ : Shape).Idx → EReal :=
  fun i => mlp3Row (fun c => x (ix2 (i 0 : Fin m) c)) w0 b0 w1 b1 w2 b2 (i 1 : Fin n)

/-- The host's dense layer at entry (p, q): the layer applied to row p. -/
theorem host_dense_apply {m k n : ℕ} {φ₁ φ₂ : FTy} (x : FVec Ideal ⟨2, ![m, k]⟩ φ₁) (w : FVec Ideal ⟨2, ![k, n]⟩ φ₂)
    (b : FVec Ideal ⟨2, ![1, n]⟩ .f32) (hbc : (⟨2, ![1, n]⟩ : Shape).BroadcastsInDim ⟨2, ![m, n]⟩ ![0, 1])
    (p : Fin m) (q : Fin n) :
    addf (Host.dotGeneral (DotDims.plain m k n) none x w) (broadcastInDim ⟨2, ![m, n]⟩ ![0, 1] hbc b) (ix2 p q)
      = denseRow (fun c => x (ix2 p c)) w b q := by
  rw [addf_apply, StackMember.dotGeneral_plain_apply, broadcastInDim_oneRow_apply]
  rfl

/-- The kernel's dense layer on a block of rows at entry (p, q): the layer applied to row p of the block. -/
theorem kernel_dense_apply {m k n : ℕ} {φ₁ φ₂ : FTy} (x : FVec Ideal ⟨2, ![m, k]⟩ φ₁) (w : FVec Ideal ⟨2, ![k, n]⟩ φ₂)
    (b : FVec Ideal ⟨2, ![1, n]⟩ .f32) (hb : (⟨2, ![1, n]⟩ : Shape).Broadcasts ⟨2, ![m, n]⟩) (p : Fin m) (q : Fin n) :
    addf (matmul (DotDims.plain m k n) none x w (constant ⟨2, ![m, n]⟩ .f32 0x00000000#32))
        (broadcastTo ⟨2, ![m, n]⟩ b hb) (ix2 p q)
      = denseRow (fun c => x (ix2 p c)) w b q := by
  rw [addf_apply, matmul_zero_eq_dotGeneral, StackMember.dotGeneral_plain_apply, broadcastTo_1b_ab_apply]
  rfl

/-- The kernel's rectifier (a maximum with the splat of the zero word) at an entry. -/
theorem kernel_relu_apply {s : Shape} (v : FVec Ideal s .f32) (i : s.Idx) :
    maximumf v (broadcast s (Scalar.ofBits (F := Ideal) .f32 0x00000000#32)) i = relu (v i) := rfl

/-- The host's rectifier (a maximum with the broadcast of the zero constant) at an entry. -/
theorem host_relu_apply {s : Shape} (v : FVec Ideal s .f32) (h : (⟨0, ![]⟩ : Shape).BroadcastsInDim s ![]) (i : s.Idx) :
    maximumf v (broadcastInDim s ![] h (constant (F := Ideal) ⟨0, ![]⟩ .f32 0x00000000#32)) i = relu (v i) := by
  rw [maximumf_apply, broadcastInDim_apply ![] h _ i ix0 (fun a => a.elim0)]
  rfl

/-- A vector of n entries as a one-row matrix: the reshape is the broadcast along axis 1. -/
theorem oneRow_cast_eq_bcast {α : Type} {n : ℕ} (b : (⟨1, ![n]⟩ : Shape).Idx → α)
    (hc : (⟨1, ![n]⟩ : Shape).ShapeCasts ⟨2, ![1, n]⟩) (hb : (⟨1, ![n]⟩ : Shape).BroadcastsInDim ⟨2, ![1, n]⟩ ![1]) :
    shapeCast ⟨2, ![1, n]⟩ b hc = broadcastInDim ⟨2, ![1, n]⟩ ![1] hb b := by
  funext i
  have e1 := shapeCast_apply b hc i (ix1 (i 1 : Fin n)) (by
    rw [Shape.rowMajor_val_two, Shape.rowMajor_val_one]
    have h0 : (i 0).val < 1 := (i 0).isLt
    show (i 1).val = (i 0).val * n + (i 1).val
    have : (i 0).val = 0 := by omega
    rw [this]; omega)
  have e2 := broadcastInDim_apply ![1] hb b i (ix1 (i 1 : Fin n)) (by
    intro a
    match a with
    | ⟨0, _⟩ =>
      show (i 1).val = if n = 1 then 0 else (i 1).val
      split
      · have := (i 1).isLt; have e : (i 1).val < n := this; omega
      · rfl)
  exact e1.trans e2.symm

/-- A one-row matrix flattened to a vector and broadcast back along axis 1 is the one-row matrix. -/
theorem bcast_cast_oneRow {α : Type} {n : ℕ} (r : (⟨2, ![1, n]⟩ : Shape).Idx → α)
    (hc : (⟨2, ![1, n]⟩ : Shape).ShapeCasts ⟨1, ![n]⟩) (hb : (⟨1, ![n]⟩ : Shape).BroadcastsInDim ⟨2, ![1, n]⟩ ![1]) :
    broadcastInDim ⟨2, ![1, n]⟩ ![1] hb (shapeCast ⟨1, ![n]⟩ r hc) = r := by
  funext i
  have e2 := broadcastInDim_apply ![1] hb (shapeCast ⟨1, ![n]⟩ r hc) i (ix1 (i 1 : Fin n)) (by
    intro a
    match a with
    | ⟨0, _⟩ =>
      show (i 1).val = if n = 1 then 0 else (i 1).val
      split
      · have := (i 1).isLt; have e : (i 1).val < n := this; omega
      · rfl)
  have e1 := shapeCast_apply r hc (ix1 (i 1 : Fin n)) i (by
    rw [Shape.rowMajor_val_two, Shape.rowMajor_val_one]
    have h0 : (i 0).val < 1 := (i 0).isLt
    show (i 0).val * n + (i 1).val = (i 1).val
    have : (i 0).val = 0 := by omega
    rw [this]; omega)
  exact e2.trans e1

/-- The host's dense layer of a whole matrix is `denseArr`. -/
theorem host_dense_eq {m k n : ℕ} {φ₁ φ₂ : FTy} (x : FVec Ideal ⟨2, ![m, k]⟩ φ₁) (w : FVec Ideal ⟨2, ![k, n]⟩ φ₂)
    (b : FVec Ideal ⟨2, ![1, n]⟩ .f32) (hbc : (⟨2, ![1, n]⟩ : Shape).BroadcastsInDim ⟨2, ![m, n]⟩ ![0, 1]) :
    addf (Host.dotGeneral (DotDims.plain m k n) none x w) (broadcastInDim ⟨2, ![m, n]⟩ ![0, 1] hbc b) = denseArr x w b := by
  funext i
  obtain ⟨p, q, rfl⟩ : ∃ (p : Fin m) (q : Fin n), i = ix2 p q := ⟨i 0, i 1, eq_ix2 i⟩
  exact host_dense_apply x w b hbc p q

/-- The host's rectified dense layer of a whole matrix, entry by entry. -/
theorem host_relu_dense_apply {m k n : ℕ} {φ₁ φ₂ : FTy} (x : FVec Ideal ⟨2, ![m, k]⟩ φ₁) (w : FVec Ideal ⟨2, ![k, n]⟩ φ₂)
    (b : FVec Ideal ⟨2, ![1, n]⟩ .f32) (hbc : (⟨2, ![1, n]⟩ : Shape).BroadcastsInDim ⟨2, ![m, n]⟩ ![0, 1])
    (h0 : (⟨0, ![]⟩ : Shape).BroadcastsInDim ⟨2, ![m, n]⟩ ![]) (p : Fin m) (q : Fin n) :
    maximumf (addf (Host.dotGeneral (DotDims.plain m k n) none x w) (broadcastInDim ⟨2, ![m, n]⟩ ![0, 1] hbc b))
        (broadcastInDim ⟨2, ![m, n]⟩ ![] h0 (constant (F := Ideal) ⟨0, ![]⟩ .f32 0x00000000#32)) (ix2 p q)
      = relu (denseRow (fun c => x (ix2 p c)) w b q) :=
  (host_relu_apply _ h0 _).trans (congrArg relu (host_dense_apply x w b hbc p q))

end Cert.LibDenseRows

end
-- ==== Proof.Val.Softmax.lean ====
/-
  The kernels' and the reference's softmax of a dense layer, read one row at a time.

  Each of the three kernels computes, for a block of 2000 rows x, a weight matrix W and a bias row b, the array
  softmax(x · W + b): entry (p, q) is the softmax of row p of the dense layer, at q.  The reference computes the same
  array for all of its rows at once.
-/
import proofs.«143046_j34703335751794_1_alg».proof.Proof.LibSoftmaxRows
import proofs.«143046_j34703335751794_1_alg».proof.Proof.LibDenseRows
import proofs.«143046_j34703335751794_1_alg».proof.Proof.Gen.KernelIdeal.Skeleton
import proofs.«143046_j34703335751794_1_alg».proof.Proof.Gen.ReferenceIdeal

noncomputable section

namespace Cert.KernelIdeal.Val

open Idealize.ShloMosaic Idealize.ShloMosaic.ValueIdx Cert.KernelIdeal Cert.KernelIdeal.Gen
open Cert.LibSoftmaxRows Cert.LibDenseRows

/-- The first kernel's stored array at (p, q): the softmax of row p of the 62-wide dense layer, at q. -/
theorem pay0_apply (x : Vec Ideal S2000x62 .f32) (W : Vec Ideal S62x512 .f32) (b : Vec Ideal S1x512 .f32)
    (p : Fin 2000) (q : Fin 512) :
    k0_pay1 (F := Ideal) x W b (ix2 p q)
      = Cert.LibSoftmaxRows.softmaxRow (fun j => Cert.LibDenseRows.denseRow (fun c => x (ix2 p c)) W b j) q := by
  have hD : ∀ j : Fin 512,
      addf (F := Ideal) (matmul dot_S2000x62_S62x512_S2000x512_1_0_0_1_n_n none (truncf (F := Ideal) .bf16 x bitsLt_bf16_f32)
          (truncf (F := Ideal) .bf16 W bitsLt_bf16_f32) (constant S2000x512 .f32 0x00000000#32))
        (broadcastTo S2000x512 (shapeCast S1x512 b shapeCasts_S1x512_S1x512) broadcasts_S1x512_S2000x512) (ix2 p j)
        = denseRow (fun c => x (ix2 p c)) W b j := fun j => by
    rw [shapeCast_self]
    exact kernel_dense_apply (m := 2000) (k := 62) (n := 512) (truncf (F := Ideal) .bf16 x bitsLt_bf16_f32)
      (truncf (F := Ideal) .bf16 W bitsLt_bf16_f32) b broadcasts_S1x512_S2000x512 p j
  unfold k0_pay1
  refine (kernel_softmax_apply (m := 2000) (n := 512) _ reduces_S2000x512_S2000 (.inl rfl) rfl rfl
    shapeCasts_S2000_S2000x1 broadcasts_S2000x1_S2000x512 p q).trans ?_
  exact congrArg (fun f : Fin 512 → EReal => softmaxRow f q) (funext hD)

/-- The seventh kernel's stored array at (p, q): the softmax of row p of the 100-wide dense layer, at q. -/
theorem pay6_apply (x : Vec Ideal S2000x100 .f32) (W : Vec Ideal S100x512 .f32) (b : Vec Ideal S1x512 .f32)
    (p : Fin 2000) (q : Fin 512) :
    k6_pay1 (F := Ideal) x W b (ix2 p q)
      = Cert.LibSoftmaxRows.softmaxRow (fun j => Cert.LibDenseRows.denseRow (fun c => x (ix2 p c)) W b j) q := by
  have hD : ∀ j : Fin 512,
      addf (F := Ideal) (matmul dot_S2000x100_S100x512_S2000x512_1_0_0_1_n_n none
          (truncf (F := Ideal) .bf16 (shapeCast S2000x100 x shapeCasts_S2000x100_S2000x100) bitsLt_bf16_f32)
          (truncf (F := Ideal) .bf16 W bitsLt_bf16_f32) (constant S2000x512 .f32 0x00000000#32))
        (broadcastTo S2000x512 (shapeCast S1x512 b shapeCasts_S1x512_S1x512) broadcasts_S1x512_S2000x512) (ix2 p j)
        = denseRow (fun c => x (ix2 p c)) W b j := fun j => by
    rw [shapeCast_self, shapeCast_self]
    exact kernel_dense_apply (m := 2000) (k := 100) (n := 512) (truncf (F := Ideal) .bf16 x bitsLt_bf16_f32)
      (truncf (F := Ideal) .bf16 W bitsLt_bf16_f32) b broadcasts_S1x512_S2000x512 p j
  unfold k6_pay1
  refine (kernel_softmax_apply (m := 2000) (n := 512) _ reduces_S2000x512_S2000 (.inl rfl) rfl rfl
    shapeCasts_S2000_S2000x1 broadcasts_S2000x1_S2000x512 p q).trans ?_
  exact congrArg (fun f : Fin 512 → EReal => softmaxRow f q) (funext hD)

/-- The thirteenth kernel's stored array at (p, q): the softmax of row p of the 100-wide dense layer, at q. -/
theorem pay12_apply (x : Vec Ideal S2000x100 .f32) (W : Vec Ideal S100x512 .f32) (b : Vec Ideal S1x512 .f32)
    (p : Fin 2000) (q : Fin 512) :
    k12_pay1 (F := Ideal) x W b (ix2 p q)
      = Cert.LibSoftmaxRows.softmaxRow (fun j => Cert.LibDenseRows.denseRow (fun c => x (ix2 p c)) W b j) q := by
  have hD : ∀ j : Fin 512,
      addf (F := Ideal) (matmul dot_S2000x100_S100x512_S2000x512_1_0_0_1_n_n none
          (truncf (F := Ideal) .bf16 (shapeCast S2000x100 x shapeCasts_S2000x100_S2000x100) bitsLt_bf16_f32)
          (truncf (F := Ideal) .bf16 W bitsLt_bf16_f32) (constant S2000x512 .f32 0x00000000#32))
        (broadcastTo S2000x512 (shapeCast S1x512 b shapeCasts_S1x512_S1x512) broadcasts_S1x512_S2000x512) (ix2 p j)
        = denseRow (fun c => x (ix2 p c)) W b j := fun j => by
    rw [shapeCast_self, shapeCast_self]
    exact kernel_dense_apply (m := 2000) (k := 100) (n := 512) (truncf (F := Ideal) .bf16 x bitsLt_bf16_f32)
      (truncf (F := Ideal) .bf16 W bitsLt_bf16_f32) b broadcasts_S1x512_S2000x512 p j
  unfold k12_pay1
  refine (kernel_softmax_apply (m := 2000) (n := 512) _ reduces_S2000x512_S2000 (.inl rfl) rfl rfl
    shapeCasts_S2000_S2000x1 broadcasts_S2000x1_S2000x512 p q).trans ?_
  exact congrArg (fun f : Fin 512 → EReal => softmaxRow f q) (funext hD)

end Cert.KernelIdeal.Val

namespace Cert.ReferenceIdeal.RefVal

open Idealize.ShloMosaic Idealize.ShloMosaic.ValueIdx Cert.ReferenceIdeal Cert.ReferenceIdeal.Gen
open Cert.LibSoftmaxRows Cert.LibDenseRows

/-- The reference's softmax of the 62-wide dense layer, all rows at once: entry (i 0, i 1) is the softmax of row i 0 of the layer, at i 1. -/
theorem softmax_dense62_eq (x : FVec Ideal S200000x62 .f32) (W : FVec Ideal S62x512 .f32) (b : FVec Ideal S512 .f32) :
    Host.divf (Host.exp (subf (addf (Host.dotGeneral dot_S200000x62_S62x512_S200000x512_1_0_0_1_n_n none x W) (broadcastInDim S200000x512 ![0, 1] bcast_S1x512_S200000x512_0_1 (broadcastInDim S1x512 ![1] bcast_S512_S1x512_1 b))) (broadcastInDim S200000x512 ![0, 1] bcast_S200000x1_S200000x512_0_1 (broadcastInDim S200000x1 ![0] bcast_S200000_S200000x1_0 (maximumf (broadcastInDim S200000 ![] bcast_S_S200000 (constant (F := Ideal) S_ .f32 0xFF800000#32)) (Host.reduce FloatOps.maximumf (addf (Host.dotGeneral dot_S200000x62_S62x512_S200000x512_1_0_0_1_n_n none x W) (broadcastInDim S200000x512 ![0, 1] bcast_S1x512_S200000x512_0_1 (broadcastInDim S1x512 ![1] bcast_S512_S1x512_1 b))) (constant (F := Ideal) S_ .f32 0xFF800000#32) reducesTo_S200000x512_S200000_d1 h_S_)))))) (broadcastInDim S200000x512 ![0, 1] bcast_S200000x1_S200000x512_0_1 (broadcastInDim S200000x1 ![0] bcast_S200000_S200000x1_0 (Host.reduceAdd (Host.exp (subf (addf (Host.dotGeneral dot_S200000x62_S62x512_S200000x512_1_0_0_1_n_n none x W) (broadcastInDim S200000x512 ![0, 1] bcast_S1x512_S200000x512_0_1 (broadcastInDim S1x512 ![1] bcast_S512_S1x512_1 b))) (broadcastInDim S200000x512 ![0, 1] bcast_S200000x1_S200000x512_0_1 (broadcastInDim S200000x1 ![0] bcast_S200000_S200000x1_0 (maximumf (broadcastInDim S200000 ![] bcast_S_S200000 (constant (F := Ideal) S_ .f32 0xFF800000#32)) (Host.reduce FloatOps.maximumf (addf (Host.dotGeneral dot_S200000x62_S62x512_S200000x512_1_0_0_1_n_n none x W) (broadcastInDim S200000x512 ![0, 1] bcast_S1x512_S200000x512_0_1 (broadcastInDim S1x512 ![1] bcast_S512_S1x512_1 b))) (constant (F := Ideal) S_ .f32 0xFF800000#32) reducesTo_S200000x512_S200000_d1 h_S_)))))) (constant (F := Ideal) S_ .f32 0x00000000#32) reducesTo_S200000x512_S200000_d1 h_S_)))
      = fun i => softmaxRow (fun j => denseRow (fun c => x (ix2 (i 0 : Fin 200000) c)) W
          (broadcastInDim S1x512 ![1] bcast_S512_S1x512_1 b) j) (i 1 : Fin 512) := by
  have hD : addf (Host.dotGeneral dot_S200000x62_S62x512_S200000x512_1_0_0_1_n_n none x W)
      (broadcastInDim S200000x512 ![0, 1] bcast_S1x512_S200000x512_0_1 (broadcastInDim S1x512 ![1] bcast_S512_S1x512_1 b))
      = denseArr x W (broadcastInDim S1x512 ![1] bcast_S512_S1x512_1 b) :=
    host_dense_eq (m := 200000) (k := 62) (n := 512) x W _ bcast_S1x512_S200000x512_0_1
  rw [hD]
  exact host_softmax_eq (m := 200000) (n := 512) _ reducesTo_S200000x512_S200000_d1 h_S_ bcast_S_S200000
    bcast_S200000_S200000x1_0 bcast_S200000x1_S200000x512_0_1

/-- The reference's softmax of the 100-wide dense layer, all rows at once: entry (i 0, i 1) is the softmax of row i 0 of the layer, at i 1. -/
theorem softmax_dense100_eq (x : FVec Ideal S200000x100 .f32) (W : FVec Ideal S100x512 .f32) (b : FVec Ideal S512 .f32) :
    Host.divf (Host.exp (subf (addf (Host.dotGeneral dot_S200000x100_S100x512_S200000x512_1_0_0_1_n_n none x W) (broadcastInDim S200000x512 ![0, 1] bcast_S1x512_S200000x512_0_1 (broadcastInDim S1x512 ![1] bcast_S512_S1x512_1 b))) (broadcastInDim S200000x512 ![0, 1] bcast_S200000x1_S200000x512_0_1 (broadcastInDim S200000x1 ![0] bcast_S200000_S200000x1_0 (maximumf (broadcastInDim S200000 ![] bcast_S_S200000 (constant (F := Ideal) S_ .f32 0xFF800000#32)) (Host.reduce FloatOps.maximumf (addf (Host.dotGeneral dot_S200000x100_S100x512_S200000x512_1_0_0_1_n_n none x W) (broadcastInDim S200000x512 ![0, 1] bcast_S1x512_S200000x512_0_1 (broadcastInDim S1x512 ![1] bcast_S512_S1x512_1 b))) (constant (F := Ideal) S_ .f32 0xFF800000#32) reducesTo_S200000x512_S200000_d1 h_S_)))))) (broadcastInDim S200000x512 ![0, 1] bcast_S200000x1_S200000x512_0_1 (broadcastInDim S200000x1 ![0] bcast_S200000_S200000x1_0 (Host.reduceAdd (Host.exp (subf (addf (Host.dotGeneral dot_S200000x100_S100x512_S200000x512_1_0_0_1_n_n none x W) (broadcastInDim S200000x512 ![0, 1] bcast_S1x512_S200000x512_0_1 (broadcastInDim S1x512 ![1] bcast_S512_S1x512_1 b))) (broadcastInDim S200000x512 ![0, 1] bcast_S200000x1_S200000x512_0_1 (broadcastInDim S200000x1 ![0] bcast_S200000_S200000x1_0 (maximumf (broadcastInDim S200000 ![] bcast_S_S200000 (constant (F := Ideal) S_ .f32 0xFF800000#32)) (Host.reduce FloatOps.maximumf (addf (Host.dotGeneral dot_S200000x100_S100x512_S200000x512_1_0_0_1_n_n none x W) (broadcastInDim S200000x512 ![0, 1] bcast_S1x512_S200000x512_0_1 (broadcastInDim S1x512 ![1] bcast_S512_S1x512_1 b))) (constant (F := Ideal) S_ .f32 0xFF800000#32) reducesTo_S200000x512_S200000_d1 h_S_)))))) (constant (F := Ideal) S_ .f32 0x00000000#32) reducesTo_S200000x512_S200000_d1 h_S_)))
      = fun i => softmaxRow (fun j => denseRow (fun c => x (ix2 (i 0 : Fin 200000) c)) W
          (broadcastInDim S1x512 ![1] bcast_S512_S1x512_1 b) j) (i 1 : Fin 512) := by
  have hD : addf (Host.dotGeneral dot_S200000x100_S100x512_S200000x512_1_0_0_1_n_n none x W)
      (broadcastInDim S200000x512 ![0, 1] bcast_S1x512_S200000x512_0_1 (broadcastInDim S1x512 ![1] bcast_S512_S1x512_1 b))
      = denseArr x W (broadcastInDim S1x512 ![1] bcast_S512_S1x512_1 b) :=
    host_dense_eq (m := 200000) (k := 100) (n := 512) x W _ bcast_S1x512_S200000x512_0_1
  rw [hD]
  exact host_softmax_eq (m := 200000) (n := 512) _ reducesTo_S200000x512_S200000_d1 h_S_ bcast_S_S200000
    bcast_S200000_S200000x1_0 bcast_S200000x1_S200000x512_0_1

end Cert.ReferenceIdeal.RefVal

end
-- ==== Proof.KI.Value0.lean ====
/-
  What pallas_call 0 leaves in its result array at the ideal instance: the softmax, row by row, of the dense layer of its first input.
  Point t writes rows 2000·t … 2000·t + 1999; at (p, q) of its block the body's value depends on the first input only
  through row p of the block, which is row 2000·t + p of the array, and the blocks cover the result array.
-/
import proofs.«143046_j34703335751794_1_alg».proof.Proof.KI.Cover0
import proofs.«143046_j34703335751794_1_alg».proof.Proof.Val.Softmax

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Cert.LibDenseRows Cert.LibSoftmaxRows Cert.KernelIdeal.Val

variable (V : (c : Dev nD) → (b : Ref sig .tc) → Buf (Elt Ideal) ((c : Thread nD τ).loc b))

theorem corner0 : (![0, 0] : Fin 2 → Nat) = fun _ => 0 := funext fun a => by fin_cases a <;> rfl

theorem value0 (c : Dev nD) :
    (dat0 (F := Ideal) V c).arrAt 3 cfg0.N = softmaxArr (m := 200000) (n := 512) (denseArr (m := 200000) (k := 62) (n := 512) (V c main_arg0) (V c main_arg19) (V c main_v0)) := by
  refine (dat0 (F := Ideal) V c).arrAt_eq_of_cover 3 _ (fun t _ => ?_) (covered0)
  show (cfg0.win 3).cut (grid0.coords t) ((dat0 (F := Ideal) V c).after 3 t) = _
  rw [left0_3]
  funext y
  obtain ⟨p, q, rfl⟩ : ∃ (p : Fin 2000) (q : Fin 512), y = ix2 p q := ⟨y 0, y 1, eq_ix2 y⟩
  have ht : t.val < 100 := lt_of_lt_of_eq t.isLt pts0
  have hb : t.val * 2000 + p.val < 200000 := by have := p.isLt; omega
  have e0 : ((cfg0.win 3).blk t).view.emb (ix2 p q) = ix2 (⟨t.val * 2000 + p.val, hb⟩ : Fin 200000) q :=
    funext fun a => Fin.ext (by
      match a with
      | ⟨0, _⟩ => exact outRow0 t (ix2 p q)
      | ⟨1, _⟩ => exact outCol0 t (ix2 p q))
  show stored0 (blk0 V c 0 t : Vec Ideal S2000x62 .f32) (blk0 V c 1 t : Vec Ideal S62x512 .f32) (blk0 V c 2 t : Vec Ideal S1x512 .f32) (ix2 p q)
      = (softmaxArr (m := 200000) (n := 512) (denseArr (m := 200000) (k := 62) (n := 512) (V c main_arg0) (V c main_arg19) (V c main_v0))) (((cfg0.win 3).blk t).view.emb (ix2 p q))
  rw [e0]
  unfold stored0
  rw [View.canon_unit_zero corner0]
  simp only [View.ld_unit_zero (S := S2000x62) corner0, View.ld_unit_zero (S := S62x512) corner0, View.ld_unit_zero (S := S1x512) corner0]
  refine (pay0_apply (blk0 V c 0 t : Vec Ideal S2000x62 .f32) (blk0 V c 1 t : Vec Ideal S62x512 .f32) (blk0 V c 2 t : Vec Ideal S1x512 .f32) p q).trans ?_
  show softmaxRow (fun j => denseRow (fun cc => (blk0 V c 0 t : Vec Ideal S2000x62 .f32) (ix2 p cc)) (blk0 V c 1 t : Vec Ideal S62x512 .f32) (blk0 V c 2 t : Vec Ideal S1x512 .f32) j) q = softmaxRow (fun j => denseRow (fun cc => V c main_arg0 (ix2 (⟨t.val * 2000 + p.val, hb⟩ : Fin 200000) cc)) (V c main_arg19) (V c main_v0) j) q
  have h0 : (fun cc => (blk0 V c 0 t : Vec Ideal S2000x62 .f32) (ix2 p cc)) = fun cc => V c main_arg0 (ix2 (⟨t.val * 2000 + p.val, hb⟩ : Fin 200000) cc) :=
    funext fun cc => rows0_0 V c t p cc hb
  have h1 : (blk0 V c 1 t : Vec Ideal S62x512 .f32) = V c main_arg19 := funext (all0_1 V c t)
  have h2 : (blk0 V c 2 t : Vec Ideal S1x512 .f32) = V c main_v0 := funext (all0_2 V c t)
  rw [h0, h1, h2]

end Cert.KernelIdeal.Fr

end
-- ==== Proof.KI.Cover6.lean ====
/-
  pallas_call 6: where its blocks sit in their arrays. Grid point t handles rows 2000·t … 2000·t + 1999: the blocks of the
  row-blocked windows (the first input and the output) are those rows, full width; the weight and the bias row
  are whole at every point. So a row-blocked window's block at (p, q) is its array at (2000·t + p, q), a whole window's block
  is its array, and the output's blocks cover its array: row r lies in the block of point r / 2000.
-/
import proofs.«143046_j34703335751794_1_alg».proof.Proof.KI.Region6
import Idealize.ShloMosaic.Lib.Pipeline.Value
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (V : (c : Dev nD) → (b : Ref sig .tc) → Buf (Elt F) ((c : Thread nD τ).loc b))

/-- The printed index maps, decided over the grid. -/
theorem maps6 : ∀ t : Fin cfg6.N, win6_0.index t (0 : Fin 2) = t.val
    ∧ win6_0.index t (1 : Fin 2) = 0
    ∧ win6_3.index t (0 : Fin 2) = t.val
    ∧ win6_3.index t (1 : Fin 2) = 0
    ∧ win6_1.index t (0 : Fin 2) = 0
    ∧ win6_1.index t (1 : Fin 2) = 0
    ∧ win6_2.index t (0 : Fin 2) = 0
    ∧ win6_2.index t (1 : Fin 2) = 0 :=
  (by decide +kernel : ∀ t : Fin grid6.N, _)

theorem pts6 : cfg6.N = 100 := N_6

/-- A row-blocked input's block at (p, q) is its array at (2000·t + p, q). -/
theorem rows6_0 (c : Dev nD) (t : Fin cfg6.N) (p : Fin 2000) (q : Fin 100) (hb : t.val * 2000 + p.val < 200000) :
    blk6 V c 0 t (ix2 p q) = V c main_v99 (ix2 (⟨t.val * 2000 + p.val, hb⟩ : Fin 200000) q) := by
  show V c main_v99 (((cfg6.win 0).blk t).view.emb (ix2 p q)) = _
  refine congrArg _ (funext fun a => Fin.ext ?_)
  obtain ⟨h0, h1, h2, h3, h4, h5, h6, h7⟩ := maps6 t
  match a with
  | ⟨0, _⟩ => show win6_0.index t (0 : Fin 2) * 2000 + 1 * p.val = t.val * 2000 + p.val; omega
  | ⟨1, _⟩ => show win6_0.index t (1 : Fin 2) * 100 + 1 * q.val = q.val; omega

/-- A whole window's block is its array. -/
theorem all6_1 (c : Dev nD) (t : Fin cfg6.N) (y : S100x512.Idx) : blk6 V c 1 t y = V c main_arg21 y := by
  show V c main_arg21 (((cfg6.win 1).blk t).view.emb y) = _
  refine congrArg _ (funext fun a => Fin.ext ?_)
  obtain ⟨h0, h1, h2, h3, h4, h5, h6, h7⟩ := maps6 t
  match a with
  | ⟨0, _⟩ => show win6_1.index t (0 : Fin 2) * 100 + 1 * (y 0).val = (y 0).val; omega
  | ⟨1, _⟩ => show win6_1.index t (1 : Fin 2) * 512 + 1 * (y 1).val = (y 1).val; omega

/-- A whole window's block is its array. -/
theorem all6_2 (c : Dev nD) (t : Fin cfg6.N) (y : S1x512.Idx) : blk6 V c 2 t y = V c main_v100 y := by
  show V c main_v100 (((cfg6.win 2).blk t).view.emb y) = _
  refine congrArg _ (funext fun a => Fin.ext ?_)
  obtain ⟨h0, h1, h2, h3, h4, h5, h6, h7⟩ := maps6 t
  match a with
  | ⟨0, _⟩ => show win6_2.index t (0 : Fin 2) * 1 + 1 * (y 0).val = (y 0).val; omega
  | ⟨1, _⟩ => show win6_2.index t (1 : Fin 2) * 512 + 1 * (y 1).val = (y 1).val; omega

/-- Where the output's block sits: (p, q) of point t's block is (2000·t + p, q) of the array. -/
theorem outRow6 (t : Fin cfg6.N) (y : S2000x512.Idx) :
    (((cfg6.win 3).blk t).view.emb y (0 : Fin 2)).val = t.val * 2000 + (y 0).val := by
  obtain ⟨h0, h1, h2, h3, h4, h5, h6, h7⟩ := maps6 t
  show win6_3.index t (0 : Fin 2) * 2000 + 1 * (y 0).val = _
  omega
theorem outCol6 (t : Fin cfg6.N) (y : S2000x512.Idx) :
    (((cfg6.win 3).blk t).view.emb y (1 : Fin 2)).val = (y 1).val := by
  obtain ⟨h0, h1, h2, h3, h4, h5, h6, h7⟩ := maps6 t
  show win6_3.index t (1 : Fin 2) * 512 + 1 * (y 1).val = _
  omega

/-- An index of the output array is in point t's block iff its row is among the point's rows. -/
theorem inBlock6 (t : Fin cfg6.N) (i : S200000x512.Idx) :
    i ∈ ((cfg6.win 3).blk t).view.set ↔ ∀ a : Fin 2, win6_3.index t a * S2000x512.size a ≤ (i a).val ∧ (i a).val < win6_3.index t a * S2000x512.size a + S2000x512.size a := by
  show i ∈ ((View.whole main_v101).slice (win6_3.rect t)).set ↔ _
  rw [View.set_slice_whole, Rect.mem_set_unit]
  exact Iff.rfl

/-- The output's blocks cover its array. -/
theorem covered6 (i : S200000x512.Idx) : ∃ t : Fin cfg6.N, (cfg6.win 3).flush t = true ∧ i ∈ ((cfg6.win 3).blk t).view.set := by
  have hi0 : (i 0).val < 200000 := (i 0).isLt
  have hi1 : (i 1).val < 512 := (i 1).isLt
  refine ⟨⟨(i 0).val / 2000, by rw [pts6]; omega⟩, flush6_3 _, ?_⟩
  rw [inBlock6]
  obtain ⟨h0, h1, h2, h3, h4, h5, h6, h7⟩ := maps6 ⟨(i 0).val / 2000, by rw [pts6]; omega⟩
  intro a
  match a with
  | ⟨0, _⟩ => show win6_3.index _ (0 : Fin 2) * 2000 ≤ (i 0).val ∧ (i 0).val < win6_3.index _ (0 : Fin 2) * 2000 + 2000; simp only at *; omega
  | ⟨1, _⟩ => show win6_3.index _ (1 : Fin 2) * 512 ≤ (i 1).val ∧ (i 1).val < win6_3.index _ (1 : Fin 2) * 512 + 512; simp only at *; omega

end Cert.KernelIdeal.Fr

end
-- ==== Proof.KI.Value6.lean ====
/-
  What pallas_call 6 leaves in its result array at the ideal instance: the softmax, row by row, of the dense layer of its first input.
  Point t writes rows 2000·t … 2000·t + 1999; at (p, q) of its block the body's value depends on the first input only
  through row p of the block, which is row 2000·t + p of the array, and the blocks cover the result array.
-/
import proofs.«143046_j34703335751794_1_alg».proof.Proof.KI.Cover6
import proofs.«143046_j34703335751794_1_alg».proof.Proof.Val.Softmax

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Cert.LibDenseRows Cert.LibSoftmaxRows Cert.KernelIdeal.Val

variable (V : (c : Dev nD) → (b : Ref sig .tc) → Buf (Elt Ideal) ((c : Thread nD τ).loc b))

theorem corner6 : (![0, 0] : Fin 2 → Nat) = fun _ => 0 := funext fun a => by fin_cases a <;> rfl

theorem value6 (c : Dev nD) :
    (dat6 (F := Ideal) V c).arrAt 3 cfg6.N = softmaxArr (m := 200000) (n := 512) (denseArr (m := 200000) (k := 100) (n := 512) (V c main_v99) (V c main_arg21) (V c main_v100)) := by
  refine (dat6 (F := Ideal) V c).arrAt_eq_of_cover 3 _ (fun t _ => ?_) (covered6)
  show (cfg6.win 3).cut (grid6.coords t) ((dat6 (F := Ideal) V c).after 3 t) = _
  rw [left6_3]
  funext y
  obtain ⟨p, q, rfl⟩ : ∃ (p : Fin 2000) (q : Fin 512), y = ix2 p q := ⟨y 0, y 1, eq_ix2 y⟩
  have ht : t.val < 100 := lt_of_lt_of_eq t.isLt pts6
  have hb : t.val * 2000 + p.val < 200000 := by have := p.isLt; omega
  have e0 : ((cfg6.win 3).blk t).view.emb (ix2 p q) = ix2 (⟨t.val * 2000 + p.val, hb⟩ : Fin 200000) q :=
    funext fun a => Fin.ext (by
      match a with
      | ⟨0, _⟩ => exact outRow6 t (ix2 p q)
      | ⟨1, _⟩ => exact outCol6 t (ix2 p q))
  show stored6 (blk6 V c 0 t : Vec Ideal S2000x100 .f32) (blk6 V c 1 t : Vec Ideal S100x512 .f32) (blk6 V c 2 t : Vec Ideal S1x512 .f32) (ix2 p q)
      = (softmaxArr (m := 200000) (n := 512) (denseArr (m := 200000) (k := 100) (n := 512) (V c main_v99) (V c main_arg21) (V c main_v100))) (((cfg6.win 3).blk t).view.emb (ix2 p q))
  rw [e0]
  unfold stored6
  rw [View.canon_unit_zero corner6]
  simp only [View.ld_unit_zero (S := S2000x100) corner6, View.ld_unit_zero (S := S100x512) corner6, View.ld_unit_zero (S := S1x512) corner6]
  refine (pay6_apply (blk6 V c 0 t : Vec Ideal S2000x100 .f32) (blk6 V c 1 t : Vec Ideal S100x512 .f32) (blk6 V c 2 t : Vec Ideal S1x512 .f32) p q).trans ?_
  show softmaxRow (fun j => denseRow (fun cc => (blk6 V c 0 t : Vec Ideal S2000x100 .f32) (ix2 p cc)) (blk6 V c 1 t : Vec Ideal S100x512 .f32) (blk6 V c 2 t : Vec Ideal S1x512 .f32) j) q = softmaxRow (fun j => denseRow (fun cc => V c main_v99 (ix2 (⟨t.val * 2000 + p.val, hb⟩ : Fin 200000) cc)) (V c main_arg21) (V c main_v100) j) q
  have h0 : (fun cc => (blk6 V c 0 t : Vec Ideal S2000x100 .f32) (ix2 p cc)) = fun cc => V c main_v99 (ix2 (⟨t.val * 2000 + p.val, hb⟩ : Fin 200000) cc) :=
    funext fun cc => rows6_0 V c t p cc hb
  have h1 : (blk6 V c 1 t : Vec Ideal S100x512 .f32) = V c main_arg21 := funext (all6_1 V c t)
  have h2 : (blk6 V c 2 t : Vec Ideal S1x512 .f32) = V c main_v100 := funext (all6_2 V c t)
  rw [h0, h1, h2]

end Cert.KernelIdeal.Fr

end
-- ==== Proof.KI.Cover12.lean ====
/-
  pallas_call 12: where its blocks sit in their arrays. Grid point t handles rows 2000·t … 2000·t + 1999: the blocks of the
  row-blocked windows (the first input and the output) are those rows, full width; the weight and the bias row
  are whole at every point. So a row-blocked window's block at (p, q) is its array at (2000·t + p, q), a whole window's block
  is its array, and the output's blocks cover its array: row r lies in the block of point r / 2000.
-/
import proofs.«143046_j34703335751794_1_alg».proof.Proof.KI.Region12
import Idealize.ShloMosaic.Lib.Pipeline.Value
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (V : (c : Dev nD) → (b : Ref sig .tc) → Buf (Elt F) ((c : Thread nD τ).loc b))

/-- The printed index maps, decided over the grid. -/
theorem maps12 : ∀ t : Fin cfg12.N, win12_0.index t (0 : Fin 2) = t.val
    ∧ win12_0.index t (1 : Fin 2) = 0
    ∧ win12_3.index t (0 : Fin 2) = t.val
    ∧ win12_3.index t (1 : Fin 2) = 0
    ∧ win12_1.index t (0 : Fin 2) = 0
    ∧ win12_1.index t (1 : Fin 2) = 0
    ∧ win12_2.index t (0 : Fin 2) = 0
    ∧ win12_2.index t (1 : Fin 2) = 0 :=
  (by decide +kernel : ∀ t : Fin grid12.N, _)

theorem pts12 : cfg12.N = 100 := N_12

/-- A row-blocked input's block at (p, q) is its array at (2000·t + p, q). -/
theorem rows12_0 (c : Dev nD) (t : Fin cfg12.N) (p : Fin 2000) (q : Fin 100) (hb : t.val * 2000 + p.val < 200000) :
    blk12 V c 0 t (ix2 p q) = V c main_v200 (ix2 (⟨t.val * 2000 + p.val, hb⟩ : Fin 200000) q) := by
  show V c main_v200 (((cfg12.win 0).blk t).view.emb (ix2 p q)) = _
  refine congrArg _ (funext fun a => Fin.ext ?_)
  obtain ⟨h0, h1, h2, h3, h4, h5, h6, h7⟩ := maps12 t
  match a with
  | ⟨0, _⟩ => show win12_0.index t (0 : Fin 2) * 2000 + 1 * p.val = t.val * 2000 + p.val; omega
  | ⟨1, _⟩ => show win12_0.index t (1 : Fin 2) * 100 + 1 * q.val = q.val; omega

/-- A whole window's block is its array. -/
theorem all12_1 (c : Dev nD) (t : Fin cfg12.N) (y : S100x512.Idx) : blk12 V c 1 t y = V c main_arg23 y := by
  show V c main_arg23 (((cfg12.win 1).blk t).view.emb y) = _
  refine congrArg _ (funext fun a => Fin.ext ?_)
  obtain ⟨h0, h1, h2, h3, h4, h5, h6, h7⟩ := maps12 t
  match a with
  | ⟨0, _⟩ => show win12_1.index t (0 : Fin 2) * 100 + 1 * (y 0).val = (y 0).val; omega
  | ⟨1, _⟩ => show win12_1.index t (1 : Fin 2) * 512 + 1 * (y 1).val = (y 1).val; omega

/-- A whole window's block is its array. -/
theorem all12_2 (c : Dev nD) (t : Fin cfg12.N) (y : S1x512.Idx) : blk12 V c 2 t y = V c main_v201 y := by
  show V c main_v201 (((cfg12.win 2).blk t).view.emb y) = _
  refine congrArg _ (funext fun a => Fin.ext ?_)
  obtain ⟨h0, h1, h2, h3, h4, h5, h6, h7⟩ := maps12 t
  match a with
  | ⟨0, _⟩ => show win12_2.index t (0 : Fin 2) * 1 + 1 * (y 0).val = (y 0).val; omega
  | ⟨1, _⟩ => show win12_2.index t (1 : Fin 2) * 512 + 1 * (y 1).val = (y 1).val; omega

/-- Where the output's block sits: (p, q) of point t's block is (2000·t + p, q) of the array. -/
theorem outRow12 (t : Fin cfg12.N) (y : S2000x512.Idx) :
    (((cfg12.win 3).blk t).view.emb y (0 : Fin 2)).val = t.val * 2000 + (y 0).val := by
  obtain ⟨h0, h1, h2, h3, h4, h5, h6, h7⟩ := maps12 t
  show win12_3.index t (0 : Fin 2) * 2000 + 1 * (y 0).val = _
  omega
theorem outCol12 (t : Fin cfg12.N) (y : S2000x512.Idx) :
    (((cfg12.win 3).blk t).view.emb y (1 : Fin 2)).val = (y 1).val := by
  obtain ⟨h0, h1, h2, h3, h4, h5, h6, h7⟩ := maps12 t
  show win12_3.index t (1 : Fin 2) * 512 + 1 * (y 1).val = _
  omega

/-- An index of the output array is in point t's block iff its row is among the point's rows. -/
theorem inBlock12 (t : Fin cfg12.N) (i : S200000x512.Idx) :
    i ∈ ((cfg12.win 3).blk t).view.set ↔ ∀ a : Fin 2, win12_3.index t a * S2000x512.size a ≤ (i a).val ∧ (i a).val < win12_3.index t a * S2000x512.size a + S2000x512.size a := by
  show i ∈ ((View.whole main_v202).slice (win12_3.rect t)).set ↔ _
  rw [View.set_slice_whole, Rect.mem_set_unit]
  exact Iff.rfl

/-- The output's blocks cover its array. -/
theorem covered12 (i : S200000x512.Idx) : ∃ t : Fin cfg12.N, (cfg12.win 3).flush t = true ∧ i ∈ ((cfg12.win 3).blk t).view.set := by
  have hi0 : (i 0).val < 200000 := (i 0).isLt
  have hi1 : (i 1).val < 512 := (i 1).isLt
  refine ⟨⟨(i 0).val / 2000, by rw [pts12]; omega⟩, flush12_3 _, ?_⟩
  rw [inBlock12]
  obtain ⟨h0, h1, h2, h3, h4, h5, h6, h7⟩ := maps12 ⟨(i 0).val / 2000, by rw [pts12]; omega⟩
  intro a
  match a with
  | ⟨0, _⟩ => show win12_3.index _ (0 : Fin 2) * 2000 ≤ (i 0).val ∧ (i 0).val < win12_3.index _ (0 : Fin 2) * 2000 + 2000; simp only at *; omega
  | ⟨1, _⟩ => show win12_3.index _ (1 : Fin 2) * 512 ≤ (i 1).val ∧ (i 1).val < win12_3.index _ (1 : Fin 2) * 512 + 512; simp only at *; omega

end Cert.KernelIdeal.Fr

end
-- ==== Proof.KI.Value12.lean ====
/-
  What pallas_call 12 leaves in its result array at the ideal instance: the softmax, row by row, of the dense layer of its first input.
  Point t writes rows 2000·t … 2000·t + 1999; at (p, q) of its block the body's value depends on the first input only
  through row p of the block, which is row 2000·t + p of the array, and the blocks cover the result array.
-/
import proofs.«143046_j34703335751794_1_alg».proof.Proof.KI.Cover12
import proofs.«143046_j34703335751794_1_alg».proof.Proof.Val.Softmax

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Cert.LibDenseRows Cert.LibSoftmaxRows Cert.KernelIdeal.Val

variable (V : (c : Dev nD) → (b : Ref sig .tc) → Buf (Elt Ideal) ((c : Thread nD τ).loc b))

theorem corner12 : (![0, 0] : Fin 2 → Nat) = fun _ => 0 := funext fun a => by fin_cases a <;> rfl

theorem value12 (c : Dev nD) :
    (dat12 (F := Ideal) V c).arrAt 3 cfg12.N = softmaxArr (m := 200000) (n := 512) (denseArr (m := 200000) (k := 100) (n := 512) (V c main_v200) (V c main_arg23) (V c main_v201)) := by
  refine (dat12 (F := Ideal) V c).arrAt_eq_of_cover 3 _ (fun t _ => ?_) (covered12)
  show (cfg12.win 3).cut (grid12.coords t) ((dat12 (F := Ideal) V c).after 3 t) = _
  rw [left12_3]
  funext y
  obtain ⟨p, q, rfl⟩ : ∃ (p : Fin 2000) (q : Fin 512), y = ix2 p q := ⟨y 0, y 1, eq_ix2 y⟩
  have ht : t.val < 100 := lt_of_lt_of_eq t.isLt pts12
  have hb : t.val * 2000 + p.val < 200000 := by have := p.isLt; omega
  have e0 : ((cfg12.win 3).blk t).view.emb (ix2 p q) = ix2 (⟨t.val * 2000 + p.val, hb⟩ : Fin 200000) q :=
    funext fun a => Fin.ext (by
      match a with
      | ⟨0, _⟩ => exact outRow12 t (ix2 p q)
      | ⟨1, _⟩ => exact outCol12 t (ix2 p q))
  show stored12 (blk12 V c 0 t : Vec Ideal S2000x100 .f32) (blk12 V c 1 t : Vec Ideal S100x512 .f32) (blk12 V c 2 t : Vec Ideal S1x512 .f32) (ix2 p q)
      = (softmaxArr (m := 200000) (n := 512) (denseArr (m := 200000) (k := 100) (n := 512) (V c main_v200) (V c main_arg23) (V c main_v201))) (((cfg12.win 3).blk t).view.emb (ix2 p q))
  rw [e0]
  unfold stored12
  rw [View.canon_unit_zero corner12]
  simp only [View.ld_unit_zero (S := S2000x100) corner12, View.ld_unit_zero (S := S100x512) corner12, View.ld_unit_zero (S := S1x512) corner12]
  refine (pay12_apply (blk12 V c 0 t : Vec Ideal S2000x100 .f32) (blk12 V c 1 t : Vec Ideal S100x512 .f32) (blk12 V c 2 t : Vec Ideal S1x512 .f32) p q).trans ?_
  show softmaxRow (fun j => denseRow (fun cc => (blk12 V c 0 t : Vec Ideal S2000x100 .f32) (ix2 p cc)) (blk12 V c 1 t : Vec Ideal S100x512 .f32) (blk12 V c 2 t : Vec Ideal S1x512 .f32) j) q = softmaxRow (fun j => denseRow (fun cc => V c main_v200 (ix2 (⟨t.val * 2000 + p.val, hb⟩ : Fin 200000) cc)) (V c main_arg23) (V c main_v201) j) q
  have h0 : (fun cc => (blk12 V c 0 t : Vec Ideal S2000x100 .f32) (ix2 p cc)) = fun cc => V c main_v200 (ix2 (⟨t.val * 2000 + p.val, hb⟩ : Fin 200000) cc) :=
    funext fun cc => rows12_0 V c t p cc hb
  have h1 : (blk12 V c 1 t : Vec Ideal S100x512 .f32) = V c main_arg23 := funext (all12_1 V c t)
  have h2 : (blk12 V c 2 t : Vec Ideal S1x512 .f32) = V c main_v201 := funext (all12_2 V c t)
  rw [h0, h1, h2]

end Cert.KernelIdeal.Fr

end
-- ==== Proof.Sim.FpLib.lean ====
/-
  The fingerprints of the two programs from arbitrary buffer contents.

  A fingerprint is the rows' softmax of a dense layer of an array of atom features, scatter-added by the molecule index
  into an 8000 × 512 array.  From any contents V of its buffers, a host stretch of the kernel program leaves the
  scatter-add of a pallas_call's result array (plus the running total), and a stage of the reference leaves the
  scatter-add of the softmax it computes itself, which is the rows' softmax of the dense layer.  The two expressions
  differ in the spelling of the bias row (a reshape to one row against a broadcast along axis 1) and in which program's
  constants name the shapes and the dimension records; they are equal once the arrays they read are equal.
-/
import proofs.«143046_j34703335751794_1_alg».proof.Proof.Gen.KernelIdeal.Launch
import proofs.«143046_j34703335751794_1_alg».proof.Proof.Ref.Stages
import proofs.«143046_j34703335751794_1_alg».proof.Proof.Val.Softmax

set_option maxRecDepth 16384

noncomputable section

namespace Cert.Sim

open Idealize.ShloMosaic Idealize.ShloMosaic.TcCoe Idealize.ShloMosaic.StableHlo Idealize.SL.Sem
open Idealize.ShloMosaic.ValueIdx Cert.LibDenseRows Cert.LibSoftmaxRows

set_option maxHeartbeats 4000000

/-! ## The reference's stages, from any contents -/

/-- Stage A of the reference from any contents: the rows' softmax of the 62-wide dense layer of three argument arrays,
    scatter-added by the molecule index. -/
theorem refA_gen (V : Valuation Cert.ReferenceIdeal.τ Cert.ReferenceIdeal.sig (Elt Ideal)) :
    StableHlo.after Cert.ReferenceIdeal.Stages.opsA V (Proc.devRef .tc Cert.ReferenceIdeal.main_v17)
      = Host.scatterAdd Cert.ReferenceIdeal.scatter_S8000x512_S200000x1_S200000x512_1_0_0_1
          (broadcastInDim Cert.ReferenceIdeal.S8000x512 ![] Cert.ReferenceIdeal.Gen.bcast_S_S8000x512
            (constant (F := Ideal) Cert.ReferenceIdeal.S_ .f32 0x00000000#32))
          (broadcastInDim Cert.ReferenceIdeal.S200000x1 ![0] Cert.ReferenceIdeal.Gen.bcast_S200000_S200000x1_0 (V (Proc.devRef .tc Cert.ReferenceIdeal.main_arg10)))
          (softmaxArr (m := 200000) (n := 512) (denseArr (m := 200000) (k := 62) (n := 512) (V (Proc.devRef .tc Cert.ReferenceIdeal.main_arg0)) (V (Proc.devRef .tc Cert.ReferenceIdeal.main_arg19))
            (broadcastInDim Cert.ReferenceIdeal.S1x512 ![1] Cert.ReferenceIdeal.Gen.bcast_S512_S1x512_1 (V (Proc.devRef .tc Cert.ReferenceIdeal.main_arg20))))) := by
  after_results_simp
  rw [Cert.ReferenceIdeal.RefVal.softmax_dense62_eq]
  rfl

/-- Stage C of the reference from any contents: the first layer's output through the 100-wide dense layer and the rows'
    softmax, scatter-added by the molecule index and added to the first fingerprint. -/
theorem refC_gen (V : Valuation Cert.ReferenceIdeal.τ Cert.ReferenceIdeal.sig (Elt Ideal)) :
    StableHlo.after Cert.ReferenceIdeal.Stages.opsC V (Proc.devRef .tc Cert.ReferenceIdeal.main_v148)
      = addf (F := Ideal) (V (Proc.devRef .tc Cert.ReferenceIdeal.main_v17))
        (Host.scatterAdd Cert.ReferenceIdeal.scatter_S8000x512_S200000x1_S200000x512_1_0_0_1
          (broadcastInDim Cert.ReferenceIdeal.S8000x512 ![] Cert.ReferenceIdeal.Gen.bcast_S_S8000x512
            (constant (F := Ideal) Cert.ReferenceIdeal.S_ .f32 0x00000000#32))
          (broadcastInDim Cert.ReferenceIdeal.S200000x1 ![0] Cert.ReferenceIdeal.Gen.bcast_S200000_S200000x1_0 (V (Proc.devRef .tc Cert.ReferenceIdeal.main_arg10)))
          (softmaxArr (m := 200000) (n := 512) (denseArr (m := 200000) (k := 100) (n := 512) (V (Proc.devRef .tc Cert.ReferenceIdeal.main_v129)) (V (Proc.devRef .tc Cert.ReferenceIdeal.main_arg21))
            (broadcastInDim Cert.ReferenceIdeal.S1x512 ![1] Cert.ReferenceIdeal.Gen.bcast_S512_S1x512_1 (V (Proc.devRef .tc Cert.ReferenceIdeal.main_arg22)))))) := by
  after_results_simp
  rw [Cert.ReferenceIdeal.RefVal.softmax_dense100_eq]
  rfl

/-- Stage E of the reference from any contents: the second layer's output through the 100-wide dense layer and the rows'
    softmax, scatter-added by the molecule index and added to the running total. -/
theorem refE_gen (V : Valuation Cert.ReferenceIdeal.τ Cert.ReferenceIdeal.sig (Elt Ideal)) :
    StableHlo.after Cert.ReferenceIdeal.Stages.opsE V (Proc.devRef .tc Cert.ReferenceIdeal.main_v279)
      = addf (F := Ideal) (V (Proc.devRef .tc Cert.ReferenceIdeal.main_v148))
        (Host.scatterAdd Cert.ReferenceIdeal.scatter_S8000x512_S200000x1_S200000x512_1_0_0_1
          (broadcastInDim Cert.ReferenceIdeal.S8000x512 ![] Cert.ReferenceIdeal.Gen.bcast_S_S8000x512
            (constant (F := Ideal) Cert.ReferenceIdeal.S_ .f32 0x00000000#32))
          (broadcastInDim Cert.ReferenceIdeal.S200000x1 ![0] Cert.ReferenceIdeal.Gen.bcast_S200000_S200000x1_0 (V (Proc.devRef .tc Cert.ReferenceIdeal.main_arg10)))
          (softmaxArr (m := 200000) (n := 512) (denseArr (m := 200000) (k := 100) (n := 512) (V (Proc.devRef .tc Cert.ReferenceIdeal.main_v260)) (V (Proc.devRef .tc Cert.ReferenceIdeal.main_arg23))
            (broadcastInDim Cert.ReferenceIdeal.S1x512 ![1] Cert.ReferenceIdeal.Gen.bcast_S512_S1x512_1 (V (Proc.devRef .tc Cert.ReferenceIdeal.main_arg24)))))) := by
  after_results_simp
  rw [Cert.ReferenceIdeal.RefVal.softmax_dense100_eq]
  rfl

/-! ## The kernel program's host stretches, from any contents -/

/-- Host stretch 0 of the kernel program from any contents: the first bias vector as a one-row matrix. -/
theorem ker0_gen (V : Valuation Cert.KernelIdeal.τ Cert.KernelIdeal.sig (Elt Ideal)) :
    StableHlo.after Cert.KernelIdeal.Gen.hostOps0 V (Proc.devRef .tc Cert.KernelIdeal.main_v0)
      = shapeCast Cert.KernelIdeal.S1x512 (V (Proc.devRef .tc Cert.KernelIdeal.main_arg20)) Cert.KernelIdeal.Gen.shapeCasts_S512_S1x512 := by
  after_results
  rfl

/-- Host stretch 6 from any contents: the second bias vector as a one-row matrix. -/
theorem ker6_gen (V : Valuation Cert.KernelIdeal.τ Cert.KernelIdeal.sig (Elt Ideal)) :
    StableHlo.after Cert.KernelIdeal.Gen.hostOps6 V (Proc.devRef .tc Cert.KernelIdeal.main_v100)
      = shapeCast Cert.KernelIdeal.S1x512 (V (Proc.devRef .tc Cert.KernelIdeal.main_arg22)) Cert.KernelIdeal.Gen.shapeCasts_S512_S1x512 := by
  after_results
  rfl

/-- Host stretch 12 from any contents: the third bias vector as a one-row matrix. -/
theorem ker12_gen (V : Valuation Cert.KernelIdeal.τ Cert.KernelIdeal.sig (Elt Ideal)) :
    StableHlo.after Cert.KernelIdeal.Gen.hostOps12 V (Proc.devRef .tc Cert.KernelIdeal.main_v201)
      = shapeCast Cert.KernelIdeal.S1x512 (V (Proc.devRef .tc Cert.KernelIdeal.main_arg24)) Cert.KernelIdeal.Gen.shapeCasts_S512_S1x512 := by
  after_results
  rfl

/-- Host stretch 1 from any contents: the first pallas_call's result scatter-added by the molecule index. -/
theorem ker1_gen (V : Valuation Cert.KernelIdeal.τ Cert.KernelIdeal.sig (Elt Ideal)) :
    StableHlo.after Cert.KernelIdeal.Gen.hostOps1 V (Proc.devRef .tc Cert.KernelIdeal.main_v4)
      = Host.scatterAdd Cert.KernelIdeal.scatter_S8000x512_S200000x1_S200000x512_1_0_0_1
          (broadcastInDim Cert.KernelIdeal.S8000x512 ![] Cert.KernelIdeal.Gen.bcast_S_S8000x512
            (constant (F := Ideal) Cert.KernelIdeal.S_ .f32 0x00000000#32))
          (broadcastInDim Cert.KernelIdeal.S200000x1 ![0] Cert.KernelIdeal.Gen.bcast_S200000_S200000x1_0 (V (Proc.devRef .tc Cert.KernelIdeal.main_arg10)))
          (V (Proc.devRef .tc Cert.KernelIdeal.main_v1)) := by
  after_results_simp

/-- Host stretch 7 from any contents: the seventh pallas_call's result scatter-added by the molecule index and added
    to the first fingerprint. -/
theorem ker7_gen (V : Valuation Cert.KernelIdeal.τ Cert.KernelIdeal.sig (Elt Ideal)) :
    StableHlo.after Cert.KernelIdeal.Gen.hostOps7 V (Proc.devRef .tc Cert.KernelIdeal.main_v105)
      = addf (F := Ideal) (V (Proc.devRef .tc Cert.KernelIdeal.main_v4))
        (Host.scatterAdd Cert.KernelIdeal.scatter_S8000x512_S200000x1_S200000x512_1_0_0_1
          (broadcastInDim Cert.KernelIdeal.S8000x512 ![] Cert.KernelIdeal.Gen.bcast_S_S8000x512
            (constant (F := Ideal) Cert.KernelIdeal.S_ .f32 0x00000000#32))
          (broadcastInDim Cert.KernelIdeal.S200000x1 ![0] Cert.KernelIdeal.Gen.bcast_S200000_S200000x1_0 (V (Proc.devRef .tc Cert.KernelIdeal.main_arg10)))
          (V (Proc.devRef .tc Cert.KernelIdeal.main_v101))) := by
  after_results_simp

/-- Host stretch 13 from any contents: the last pallas_call's result scatter-added by the molecule index and added to
    the running total. -/
theorem ker13_gen (V : Valuation Cert.KernelIdeal.τ Cert.KernelIdeal.sig (Elt Ideal)) :
    StableHlo.after Cert.KernelIdeal.Gen.hostOps13 V (Proc.devRef .tc Cert.KernelIdeal.main_v206)
      = addf (F := Ideal) (V (Proc.devRef .tc Cert.KernelIdeal.main_v105))
        (Host.scatterAdd Cert.KernelIdeal.scatter_S8000x512_S200000x1_S200000x512_1_0_0_1
          (broadcastInDim Cert.KernelIdeal.S8000x512 ![] Cert.KernelIdeal.Gen.bcast_S_S8000x512
            (constant (F := Ideal) Cert.KernelIdeal.S_ .f32 0x00000000#32))
          (broadcastInDim Cert.KernelIdeal.S200000x1 ![0] Cert.KernelIdeal.Gen.bcast_S200000_S200000x1_0 (V (Proc.devRef .tc Cert.KernelIdeal.main_arg10)))
          (V (Proc.devRef .tc Cert.KernelIdeal.main_v202))) := by
  after_results_simp

/-! ## The junction -/

/-- The two spellings of the first fingerprint summed per molecule agree once the arrays they read do: the bias vector
    reshaped to one row is the bias vector broadcast along axis 1, and the dimension records of the two programs are
    equal. -/
theorem fp62_agree
    (x : FVec Ideal Cert.KernelIdeal.S200000x62 .f32) (x' : FVec Ideal Cert.ReferenceIdeal.S200000x62 .f32)
    (W : FVec Ideal Cert.KernelIdeal.S62x512 .f32) (W' : FVec Ideal Cert.ReferenceIdeal.S62x512 .f32)
    (b : FVec Ideal Cert.KernelIdeal.S512 .f32) (b' : FVec Ideal Cert.ReferenceIdeal.S512 .f32)
    (g : IVec Cert.KernelIdeal.S200000 32) (g' : IVec Cert.ReferenceIdeal.S200000 32)
    (hx : x' = x) (hW : W' = W) (hb : b' = b) (hg : g' = g) :
    Host.scatterAdd Cert.KernelIdeal.scatter_S8000x512_S200000x1_S200000x512_1_0_0_1
        (broadcastInDim Cert.KernelIdeal.S8000x512 ![] Cert.KernelIdeal.Gen.bcast_S_S8000x512
          (constant (F := Ideal) Cert.KernelIdeal.S_ .f32 0x00000000#32))
        (broadcastInDim Cert.KernelIdeal.S200000x1 ![0] Cert.KernelIdeal.Gen.bcast_S200000_S200000x1_0 g)
        (softmaxArr (m := 200000) (n := 512) (denseArr (m := 200000) (k := 62) (n := 512) x W
          (shapeCast Cert.KernelIdeal.S1x512 b Cert.KernelIdeal.Gen.shapeCasts_S512_S1x512)))
      = Host.scatterAdd Cert.ReferenceIdeal.scatter_S8000x512_S200000x1_S200000x512_1_0_0_1
        (broadcastInDim Cert.ReferenceIdeal.S8000x512 ![] Cert.ReferenceIdeal.Gen.bcast_S_S8000x512
          (constant (F := Ideal) Cert.ReferenceIdeal.S_ .f32 0x00000000#32))
        (broadcastInDim Cert.ReferenceIdeal.S200000x1 ![0] Cert.ReferenceIdeal.Gen.bcast_S200000_S200000x1_0 g')
        (softmaxArr (m := 200000) (n := 512) (denseArr (m := 200000) (k := 62) (n := 512) x' W'
          (broadcastInDim Cert.ReferenceIdeal.S1x512 ![1] Cert.ReferenceIdeal.Gen.bcast_S512_S1x512_1 b'))) := by
  subst hx hW hb hg
  rw [oneRow_cast_eq_bcast (n := 512) _ Cert.KernelIdeal.Gen.shapeCasts_S512_S1x512
    Cert.ReferenceIdeal.Gen.bcast_S512_S1x512_1]
  rfl

/-- The two spellings of a later fingerprint added to the running total agree once the arrays they read do. -/
theorem fp100_agree
    (t : FVec Ideal Cert.KernelIdeal.S8000x512 .f32) (t' : FVec Ideal Cert.ReferenceIdeal.S8000x512 .f32)
    (x : FVec Ideal Cert.KernelIdeal.S200000x100 .f32) (x' : FVec Ideal Cert.ReferenceIdeal.S200000x100 .f32)
    (W : FVec Ideal Cert.KernelIdeal.S100x512 .f32) (W' : FVec Ideal Cert.ReferenceIdeal.S100x512 .f32)
    (b : FVec Ideal Cert.KernelIdeal.S512 .f32) (b' : FVec Ideal Cert.ReferenceIdeal.S512 .f32)
    (g : IVec Cert.KernelIdeal.S200000 32) (g' : IVec Cert.ReferenceIdeal.S200000 32)
    (ht : t = t') (hx : x = x') (hW : W' = W) (hb : b' = b) (hg : g' = g) :
    addf (F := Ideal) t (Host.scatterAdd Cert.KernelIdeal.scatter_S8000x512_S200000x1_S200000x512_1_0_0_1
          (broadcastInDim Cert.KernelIdeal.S8000x512 ![] Cert.KernelIdeal.Gen.bcast_S_S8000x512
            (constant (F := Ideal) Cert.KernelIdeal.S_ .f32 0x00000000#32))
          (broadcastInDim Cert.KernelIdeal.S200000x1 ![0] Cert.KernelIdeal.Gen.bcast_S200000_S200000x1_0 g)
          (softmaxArr (m := 200000) (n := 512) (denseArr (m := 200000) (k := 100) (n := 512) x W
            (shapeCast Cert.KernelIdeal.S1x512 b Cert.KernelIdeal.Gen.shapeCasts_S512_S1x512))))
      = addf (F := Ideal) t' (Host.scatterAdd Cert.ReferenceIdeal.scatter_S8000x512_S200000x1_S200000x512_1_0_0_1
          (broadcastInDim Cert.ReferenceIdeal.S8000x512 ![] Cert.ReferenceIdeal.Gen.bcast_S_S8000x512
            (constant (F := Ideal) Cert.ReferenceIdeal.S_ .f32 0x00000000#32))
          (broadcastInDim Cert.ReferenceIdeal.S200000x1 ![0] Cert.ReferenceIdeal.Gen.bcast_S200000_S200000x1_0 g')
          (softmaxArr (m := 200000) (n := 512) (denseArr (m := 200000) (k := 100) (n := 512) x' W'
            (broadcastInDim Cert.ReferenceIdeal.S1x512 ![1] Cert.ReferenceIdeal.Gen.bcast_S512_S1x512_1 b')))) := by
  subst ht hx hW hb hg
  rw [oneRow_cast_eq_bcast (n := 512) _ Cert.KernelIdeal.Gen.shapeCasts_S512_S1x512
    Cert.ReferenceIdeal.Gen.bcast_S512_S1x512_1]
  rfl

end Cert.Sim

end
-- ==== Proof.Sim.Fp.lean ====
/-
  The three fingerprints, summed per molecule and accumulated: the kernel program's arrays against the reference's.

  The first fingerprint is taken of an argument array through a 62-wide layer, the second and third of the first and
  second layers' outputs through 100-wide layers, and each later one is added to the running total.  The kernel
  program computes the softmax of the dense layer in a pallas_call and the rest on the host; the reference computes
  everything on the host.  Each side's array is written as one expression of the launch contents of the argument arrays
  it reads (an argument array is written by no item of either program) and of the earlier pieces; the two expressions
  are equal once those are.
-/
import proofs.«143046_j34703335751794_1_alg».proof.Proof.KI.Hold
import proofs.«143046_j34703335751794_1_alg».proof.Proof.KI.Value0
import proofs.«143046_j34703335751794_1_alg».proof.Proof.KI.Value6
import proofs.«143046_j34703335751794_1_alg».proof.Proof.KI.Value12
import proofs.«143046_j34703335751794_1_alg».proof.Proof.Sim.FpLib

set_option maxRecDepth 16384

noncomputable section

namespace Cert.Sim

open Idealize.ShloMosaic Idealize.ShloMosaic.TcCoe Idealize.ShloMosaic.StableHlo Idealize.SL.Sem
open Idealize.ShloMosaic.ValueIdx Cert.LibDenseRows Cert.LibSoftmaxRows
open Cert.KernelIdeal.Fr

set_option maxHeartbeats 4000000

/-! ## The reference's three fingerprints over its launch contents -/

/-- An argument array holds its launch contents after the reference's first stage. -/
theorem argQ1 (m' : (ℓ : Loc Cert.ReferenceIdeal.nD Cert.ReferenceIdeal.τ Cert.ReferenceIdeal.sig) → Buf (Elt Ideal) ℓ) (c' : Dev Cert.ReferenceIdeal.nD) (r : Ref Cert.ReferenceIdeal.sig .tc)
    (h : r ∈ Cert.ReferenceIdeal.Stages.argRefs) :
    Cert.ReferenceIdeal.Stages.Q1 m' c' (Proc.devRef .tc r)
      = m' ((c'.tc : Thread Cert.ReferenceIdeal.nD Cert.ReferenceIdeal.τ).loc r) :=
  Cert.ReferenceIdeal.Stages.keepA m' c' r
    ((by decide : ∀ r ∈ Cert.ReferenceIdeal.Stages.argRefs, r ∉ Cert.ReferenceIdeal.Stages.wrA) r h)

/-- An argument array holds its launch contents after the reference's second stage. -/
theorem argQ2 (m' : (ℓ : Loc Cert.ReferenceIdeal.nD Cert.ReferenceIdeal.τ Cert.ReferenceIdeal.sig) → Buf (Elt Ideal) ℓ) (c' : Dev Cert.ReferenceIdeal.nD) (r : Ref Cert.ReferenceIdeal.sig .tc)
    (h : r ∈ Cert.ReferenceIdeal.Stages.argRefs) :
    Cert.ReferenceIdeal.Stages.Q2 m' c' (Proc.devRef .tc r)
      = m' ((c'.tc : Thread Cert.ReferenceIdeal.nD Cert.ReferenceIdeal.τ).loc r) :=
  (Cert.ReferenceIdeal.Stages.keepB m' c' r
    ((by decide : ∀ r ∈ Cert.ReferenceIdeal.Stages.argRefs, r ∉ Cert.ReferenceIdeal.Stages.wrB) r h)).trans
    (argQ1 m' c' r h)

/-- An argument array holds its launch contents after the reference's fourth stage. -/
theorem argQ4 (m' : (ℓ : Loc Cert.ReferenceIdeal.nD Cert.ReferenceIdeal.τ Cert.ReferenceIdeal.sig) → Buf (Elt Ideal) ℓ) (c' : Dev Cert.ReferenceIdeal.nD) (r : Ref Cert.ReferenceIdeal.sig .tc)
    (h : r ∈ Cert.ReferenceIdeal.Stages.argRefs) :
    Cert.ReferenceIdeal.Stages.Q4 m' c' (Proc.devRef .tc r)
      = m' ((c'.tc : Thread Cert.ReferenceIdeal.nD Cert.ReferenceIdeal.τ).loc r) :=
  (Cert.ReferenceIdeal.Stages.keepD m' c' r
    ((by decide : ∀ r ∈ Cert.ReferenceIdeal.Stages.argRefs, r ∉ Cert.ReferenceIdeal.Stages.wrD) r h)).trans
    ((Cert.ReferenceIdeal.Stages.keepC m' c' r
      ((by decide : ∀ r ∈ Cert.ReferenceIdeal.Stages.argRefs, r ∉ Cert.ReferenceIdeal.Stages.wrC) r h)).trans
      (argQ2 m' c' r h))

/-- The reference's first fingerprint summed per molecule, over its launch contents. -/
theorem refA (m' : (ℓ : Loc Cert.ReferenceIdeal.nD Cert.ReferenceIdeal.τ Cert.ReferenceIdeal.sig) → Buf (Elt Ideal) ℓ) (c' : Dev Cert.ReferenceIdeal.nD) :
    (Cert.ReferenceIdeal.Stages.Q1 m' c' (Proc.devRef .tc Cert.ReferenceIdeal.main_v17))
      = Host.scatterAdd Cert.ReferenceIdeal.scatter_S8000x512_S200000x1_S200000x512_1_0_0_1
          (broadcastInDim Cert.ReferenceIdeal.S8000x512 ![] Cert.ReferenceIdeal.Gen.bcast_S_S8000x512
            (constant (F := Ideal) Cert.ReferenceIdeal.S_ .f32 0x00000000#32))
          (broadcastInDim Cert.ReferenceIdeal.S200000x1 ![0] Cert.ReferenceIdeal.Gen.bcast_S200000_S200000x1_0 (m' ((c'.tc : Thread Cert.ReferenceIdeal.nD Cert.ReferenceIdeal.τ).loc Cert.ReferenceIdeal.main_arg10)))
          (softmaxArr (m := 200000) (n := 512) (denseArr (m := 200000) (k := 62) (n := 512) (m' ((c'.tc : Thread Cert.ReferenceIdeal.nD Cert.ReferenceIdeal.τ).loc Cert.ReferenceIdeal.main_arg0)) (m' ((c'.tc : Thread Cert.ReferenceIdeal.nD Cert.ReferenceIdeal.τ).loc Cert.ReferenceIdeal.main_arg19))
            (broadcastInDim Cert.ReferenceIdeal.S1x512 ![1] Cert.ReferenceIdeal.Gen.bcast_S512_S1x512_1 (m' ((c'.tc : Thread Cert.ReferenceIdeal.nD Cert.ReferenceIdeal.τ).loc Cert.ReferenceIdeal.main_arg20))))) :=
  refA_gen (launchContents m' c')

/-- The reference's running total after the second fingerprint: the first one plus the second, which is computed from
    the first layer's output and two argument arrays. -/
theorem refC (m' : (ℓ : Loc Cert.ReferenceIdeal.nD Cert.ReferenceIdeal.τ Cert.ReferenceIdeal.sig) → Buf (Elt Ideal) ℓ) (c' : Dev Cert.ReferenceIdeal.nD) :
    (Cert.ReferenceIdeal.Stages.Q3 m' c' (Proc.devRef .tc Cert.ReferenceIdeal.main_v148))
      = addf (F := Ideal) (Cert.ReferenceIdeal.Stages.Q1 m' c' (Proc.devRef .tc Cert.ReferenceIdeal.main_v17))
        (Host.scatterAdd Cert.ReferenceIdeal.scatter_S8000x512_S200000x1_S200000x512_1_0_0_1
          (broadcastInDim Cert.ReferenceIdeal.S8000x512 ![] Cert.ReferenceIdeal.Gen.bcast_S_S8000x512
            (constant (F := Ideal) Cert.ReferenceIdeal.S_ .f32 0x00000000#32))
          (broadcastInDim Cert.ReferenceIdeal.S200000x1 ![0] Cert.ReferenceIdeal.Gen.bcast_S200000_S200000x1_0 (m' ((c'.tc : Thread Cert.ReferenceIdeal.nD Cert.ReferenceIdeal.τ).loc Cert.ReferenceIdeal.main_arg10)))
          (softmaxArr (m := 200000) (n := 512) (denseArr (m := 200000) (k := 100) (n := 512) (Cert.ReferenceIdeal.Stages.Q2 m' c' (Proc.devRef .tc Cert.ReferenceIdeal.main_v129)) (m' ((c'.tc : Thread Cert.ReferenceIdeal.nD Cert.ReferenceIdeal.τ).loc Cert.ReferenceIdeal.main_arg21))
            (broadcastInDim Cert.ReferenceIdeal.S1x512 ![1] Cert.ReferenceIdeal.Gen.bcast_S512_S1x512_1 (m' ((c'.tc : Thread Cert.ReferenceIdeal.nD Cert.ReferenceIdeal.τ).loc Cert.ReferenceIdeal.main_arg22)))))) := by
  refine (refC_gen (Cert.ReferenceIdeal.Stages.Q2 m' c')).trans ?_
  rw [Cert.ReferenceIdeal.Stages.keepB m' c' Cert.ReferenceIdeal.main_v17 (by decide),
    argQ2 m' c' Cert.ReferenceIdeal.main_arg10 (by decide), argQ2 m' c' Cert.ReferenceIdeal.main_arg21 (by decide),
    argQ2 m' c' Cert.ReferenceIdeal.main_arg22 (by decide)]

/-- The reference's total after the third fingerprint: the running total plus the third, which is computed from the
    second layer's output and two argument arrays. -/
theorem refE (m' : (ℓ : Loc Cert.ReferenceIdeal.nD Cert.ReferenceIdeal.τ Cert.ReferenceIdeal.sig) → Buf (Elt Ideal) ℓ) (c' : Dev Cert.ReferenceIdeal.nD) :
    (Cert.ReferenceIdeal.Stages.Q5 m' c' (Proc.devRef .tc Cert.ReferenceIdeal.main_v279))
      = addf (F := Ideal) (Cert.ReferenceIdeal.Stages.Q3 m' c' (Proc.devRef .tc Cert.ReferenceIdeal.main_v148))
        (Host.scatterAdd Cert.ReferenceIdeal.scatter_S8000x512_S200000x1_S200000x512_1_0_0_1
          (broadcastInDim Cert.ReferenceIdeal.S8000x512 ![] Cert.ReferenceIdeal.Gen.bcast_S_S8000x512
            (constant (F := Ideal) Cert.ReferenceIdeal.S_ .f32 0x00000000#32))
          (broadcastInDim Cert.ReferenceIdeal.S200000x1 ![0] Cert.ReferenceIdeal.Gen.bcast_S200000_S200000x1_0 (m' ((c'.tc : Thread Cert.ReferenceIdeal.nD Cert.ReferenceIdeal.τ).loc Cert.ReferenceIdeal.main_arg10)))
          (softmaxArr (m := 200000) (n := 512) (denseArr (m := 200000) (k := 100) (n := 512) (Cert.ReferenceIdeal.Stages.Q4 m' c' (Proc.devRef .tc Cert.ReferenceIdeal.main_v260)) (m' ((c'.tc : Thread Cert.ReferenceIdeal.nD Cert.ReferenceIdeal.τ).loc Cert.ReferenceIdeal.main_arg23))
            (broadcastInDim Cert.ReferenceIdeal.S1x512 ![1] Cert.ReferenceIdeal.Gen.bcast_S512_S1x512_1 (m' ((c'.tc : Thread Cert.ReferenceIdeal.nD Cert.ReferenceIdeal.τ).loc Cert.ReferenceIdeal.main_arg24)))))) := by
  refine (refE_gen (Cert.ReferenceIdeal.Stages.Q4 m' c')).trans ?_
  rw [Cert.ReferenceIdeal.Stages.keepD m' c' Cert.ReferenceIdeal.main_v148 (by decide),
    argQ4 m' c' Cert.ReferenceIdeal.main_arg10 (by decide), argQ4 m' c' Cert.ReferenceIdeal.main_arg23 (by decide),
    argQ4 m' c' Cert.ReferenceIdeal.main_arg24 (by decide)]

/-! ## Argument arrays along the kernel program's chain

No item of the program writes an argument array, so at each point of the chain it holds its launch contents. -/

/-- The atom features when the first pallas_call is entered. -/
theorem arg0_W1 (m : (ℓ : Loc Cert.KernelIdeal.nD Cert.KernelIdeal.τ Cert.KernelIdeal.sig) → Buf (Elt Ideal) ℓ) (c : Dev Cert.KernelIdeal.nD) :
    W1 m c Cert.KernelIdeal.main_arg0 = (m ((c.tc : Thread Cert.KernelIdeal.nD Cert.KernelIdeal.τ).loc Cert.KernelIdeal.main_arg0)) :=
  (hold1 m c _ (by decide))

/-- The first fingerprint's weights when the first pallas_call is entered. -/
theorem arg19_W1 (m : (ℓ : Loc Cert.KernelIdeal.nD Cert.KernelIdeal.τ Cert.KernelIdeal.sig) → Buf (Elt Ideal) ℓ) (c : Dev Cert.KernelIdeal.nD) :
    W1 m c Cert.KernelIdeal.main_arg19 = (m ((c.tc : Thread Cert.KernelIdeal.nD Cert.KernelIdeal.τ).loc Cert.KernelIdeal.main_arg19)) :=
  (hold1 m c _ (by decide))

/-- The molecule index after the first pallas_call. -/
theorem arg10_W2 (m : (ℓ : Loc Cert.KernelIdeal.nD Cert.KernelIdeal.τ Cert.KernelIdeal.sig) → Buf (Elt Ideal) ℓ) (c : Dev Cert.KernelIdeal.nD) :
    W2 m c Cert.KernelIdeal.main_arg10 = (m ((c.tc : Thread Cert.KernelIdeal.nD Cert.KernelIdeal.τ).loc Cert.KernelIdeal.main_arg10)) :=
  (W2_off m c _ (by decide)).trans <| (hold1 m c _ (by decide))

/-- The second fingerprint's bias after the sixth pallas_call. -/
theorem arg22_W12 (m : (ℓ : Loc Cert.KernelIdeal.nD Cert.KernelIdeal.τ Cert.KernelIdeal.sig) → Buf (Elt Ideal) ℓ) (c : Dev Cert.KernelIdeal.nD) :
    W12 m c Cert.KernelIdeal.main_arg22 = (m ((c.tc : Thread Cert.KernelIdeal.nD Cert.KernelIdeal.τ).loc Cert.KernelIdeal.main_arg22)) :=
  (W12_off m c _ (by decide)).trans <| (hold11 m c _ (by decide)).trans <| (W10_off m c _ (by decide)).trans <| (hold9 m c _ (by decide)).trans <| (W8_off m c _ (by decide)).trans <| (hold7 m c _ (by decide)).trans <| (W6_off m c _ (by decide)).trans <| (hold5 m c _ (by decide)).trans <| (W4_off m c _ (by decide)).trans <| (hold3 m c _ (by decide)).trans <| (W2_off m c _ (by decide)).trans <| (hold1 m c _ (by decide))

/-- The second fingerprint's weights when the seventh pallas_call is entered. -/
theorem arg21_W13 (m : (ℓ : Loc Cert.KernelIdeal.nD Cert.KernelIdeal.τ Cert.KernelIdeal.sig) → Buf (Elt Ideal) ℓ) (c : Dev Cert.KernelIdeal.nD) :
    W13 m c Cert.KernelIdeal.main_arg21 = (m ((c.tc : Thread Cert.KernelIdeal.nD Cert.KernelIdeal.τ).loc Cert.KernelIdeal.main_arg21)) :=
  (hold13 m c _ (by decide)).trans <| (W12_off m c _ (by decide)).trans <| (hold11 m c _ (by decide)).trans <| (W10_off m c _ (by decide)).trans <| (hold9 m c _ (by decide)).trans <| (W8_off m c _ (by decide)).trans <| (hold7 m c _ (by decide)).trans <| (W6_off m c _ (by decide)).trans <| (hold5 m c _ (by decide)).trans <| (W4_off m c _ (by decide)).trans <| (hold3 m c _ (by decide)).trans <| (W2_off m c _ (by decide)).trans <| (hold1 m c _ (by decide))

/-- The molecule index after the seventh pallas_call. -/
theorem arg10_W14 (m : (ℓ : Loc Cert.KernelIdeal.nD Cert.KernelIdeal.τ Cert.KernelIdeal.sig) → Buf (Elt Ideal) ℓ) (c : Dev Cert.KernelIdeal.nD) :
    W14 m c Cert.KernelIdeal.main_arg10 = (m ((c.tc : Thread Cert.KernelIdeal.nD Cert.KernelIdeal.τ).loc Cert.KernelIdeal.main_arg10)) :=
  (W14_off m c _ (by decide)).trans <| (hold13 m c _ (by decide)).trans <| (W12_off m c _ (by decide)).trans <| (hold11 m c _ (by decide)).trans <| (W10_off m c _ (by decide)).trans <| (hold9 m c _ (by decide)).trans <| (W8_off m c _ (by decide)).trans <| (hold7 m c _ (by decide)).trans <| (W6_off m c _ (by decide)).trans <| (hold5 m c _ (by decide)).trans <| (W4_off m c _ (by decide)).trans <| (hold3 m c _ (by decide)).trans <| arg10_W2 m c

/-- The third fingerprint's bias after the twelfth pallas_call. -/
theorem arg24_W24 (m : (ℓ : Loc Cert.KernelIdeal.nD Cert.KernelIdeal.τ Cert.KernelIdeal.sig) → Buf (Elt Ideal) ℓ) (c : Dev Cert.KernelIdeal.nD) :
    W24 m c Cert.KernelIdeal.main_arg24 = (m ((c.tc : Thread Cert.KernelIdeal.nD Cert.KernelIdeal.τ).loc Cert.KernelIdeal.main_arg24)) :=
  (W24_off m c _ (by decide)).trans <| (hold23 m c _ (by decide)).trans <| (W22_off m c _ (by decide)).trans <| (hold21 m c _ (by decide)).trans <| (W20_off m c _ (by decide)).trans <| (hold19 m c _ (by decide)).trans <| (W18_off m c _ (by decide)).trans <| (hold17 m c _ (by decide)).trans <| (W16_off m c _ (by decide)).trans <| (hold15 m c _ (by decide)).trans <| (W14_off m c _ (by decide)).trans <| (hold13 m c _ (by decide)).trans <| (W12_off m c _ (by decide)).trans <| (hold11 m c _ (by decide)).trans <| (W10_off m c _ (by decide)).trans <| (hold9 m c _ (by decide)).trans <| (W8_off m c _ (by decide)).trans <| (hold7 m c _ (by decide)).trans <| (W6_off m c _ (by decide)).trans <| (hold5 m c _ (by decide)).trans <| (W4_off m c _ (by decide)).trans <| (hold3 m c _ (by decide)).trans <| (W2_off m c _ (by decide)).trans <| (hold1 m c _ (by decide))

/-- The third fingerprint's weights when the last pallas_call is entered. -/
theorem arg23_W25 (m : (ℓ : Loc Cert.KernelIdeal.nD Cert.KernelIdeal.τ Cert.KernelIdeal.sig) → Buf (Elt Ideal) ℓ) (c : Dev Cert.KernelIdeal.nD) :
    W25 m c Cert.KernelIdeal.main_arg23 = (m ((c.tc : Thread Cert.KernelIdeal.nD Cert.KernelIdeal.τ).loc Cert.KernelIdeal.main_arg23)) :=
  (hold25 m c _ (by decide)).trans <| (W24_off m c _ (by decide)).trans <| (hold23 m c _ (by decide)).trans <| (W22_off m c _ (by decide)).trans <| (hold21 m c _ (by decide)).trans <| (W20_off m c _ (by decide)).trans <| (hold19 m c _ (by decide)).trans <| (W18_off m c _ (by decide)).trans <| (hold17 m c _ (by decide)).trans <| (W16_off m c _ (by decide)).trans <| (hold15 m c _ (by decide)).trans <| (W14_off m c _ (by decide)).trans <| (hold13 m c _ (by decide)).trans <| (W12_off m c _ (by decide)).trans <| (hold11 m c _ (by decide)).trans <| (W10_off m c _ (by decide)).trans <| (hold9 m c _ (by decide)).trans <| (W8_off m c _ (by decide)).trans <| (hold7 m c _ (by decide)).trans <| (W6_off m c _ (by decide)).trans <| (hold5 m c _ (by decide)).trans <| (W4_off m c _ (by decide)).trans <| (hold3 m c _ (by decide)).trans <| (W2_off m c _ (by decide)).trans <| (hold1 m c _ (by decide))

/-- The molecule index after the last pallas_call. -/
theorem arg10_W26 (m : (ℓ : Loc Cert.KernelIdeal.nD Cert.KernelIdeal.τ Cert.KernelIdeal.sig) → Buf (Elt Ideal) ℓ) (c : Dev Cert.KernelIdeal.nD) :
    W26 m c Cert.KernelIdeal.main_arg10 = (m ((c.tc : Thread Cert.KernelIdeal.nD Cert.KernelIdeal.τ).loc Cert.KernelIdeal.main_arg10)) :=
  (W26_off m c _ (by decide)).trans <| (hold25 m c _ (by decide)).trans <| (W24_off m c _ (by decide)).trans <| (hold23 m c _ (by decide)).trans <| (W22_off m c _ (by decide)).trans <| (hold21 m c _ (by decide)).trans <| (W20_off m c _ (by decide)).trans <| (hold19 m c _ (by decide)).trans <| (W18_off m c _ (by decide)).trans <| (hold17 m c _ (by decide)).trans <| (W16_off m c _ (by decide)).trans <| (hold15 m c _ (by decide)).trans <| arg10_W14 m c

/-! ## The kernel program's three fingerprints over its launch contents -/

/-- The first fingerprint is carried unchanged from the second pallas_call's entry to the seventh's exit. -/
theorem carry_v4 (m : (ℓ : Loc Cert.KernelIdeal.nD Cert.KernelIdeal.τ Cert.KernelIdeal.sig) → Buf (Elt Ideal) ℓ) (c : Dev Cert.KernelIdeal.nD) :
    W14 m c Cert.KernelIdeal.main_v4 = W3 m c Cert.KernelIdeal.main_v4 :=
  (W14_off m c _ (by decide)).trans <| (hold13 m c _ (by decide)).trans <| (W12_off m c _ (by decide)).trans <|
  (hold11 m c _ (by decide)).trans <| (W10_off m c _ (by decide)).trans <| (hold9 m c _ (by decide)).trans <|
  (W8_off m c _ (by decide)).trans <| (hold7 m c _ (by decide)).trans <| (W6_off m c _ (by decide)).trans <|
  (hold5 m c _ (by decide)).trans (W4_off m c _ (by decide))

/-- The running total is carried unchanged from the eighth pallas_call's entry to the last one's exit. -/
theorem carry_v105 (m : (ℓ : Loc Cert.KernelIdeal.nD Cert.KernelIdeal.τ Cert.KernelIdeal.sig) → Buf (Elt Ideal) ℓ) (c : Dev Cert.KernelIdeal.nD) :
    W26 m c Cert.KernelIdeal.main_v105 = W15 m c Cert.KernelIdeal.main_v105 :=
  (W26_off m c _ (by decide)).trans <| (hold25 m c _ (by decide)).trans <| (W24_off m c _ (by decide)).trans <|
  (hold23 m c _ (by decide)).trans <| (W22_off m c _ (by decide)).trans <| (hold21 m c _ (by decide)).trans <|
  (W20_off m c _ (by decide)).trans <| (hold19 m c _ (by decide)).trans <| (W18_off m c _ (by decide)).trans <|
  (hold17 m c _ (by decide)).trans (W16_off m c _ (by decide))

/-- The first pallas_call's result: the rows' softmax of the 62-wide dense layer of three argument arrays. -/
theorem ker_v1 (m : (ℓ : Loc Cert.KernelIdeal.nD Cert.KernelIdeal.τ Cert.KernelIdeal.sig) → Buf (Elt Ideal) ℓ) (c : Dev Cert.KernelIdeal.nD) :
    W2 m c Cert.KernelIdeal.main_v1
      = (softmaxArr (m := 200000) (n := 512) (denseArr (m := 200000) (k := 62) (n := 512) (m ((c.tc : Thread Cert.KernelIdeal.nD Cert.KernelIdeal.τ).loc Cert.KernelIdeal.main_arg0)) (m ((c.tc : Thread Cert.KernelIdeal.nD Cert.KernelIdeal.τ).loc Cert.KernelIdeal.main_arg19))
            (shapeCast Cert.KernelIdeal.S1x512 (m ((c.tc : Thread Cert.KernelIdeal.nD Cert.KernelIdeal.τ).loc Cert.KernelIdeal.main_arg20)) Cert.KernelIdeal.Gen.shapeCasts_S512_S1x512))) := by
  rw [W2_at, value0 (E1 m) c]
  show softmaxArr (m := 200000) (n := 512) (denseArr (m := 200000) (k := 62) (n := 512)
    (W1 m c Cert.KernelIdeal.main_arg0) (W1 m c Cert.KernelIdeal.main_arg19) (W1 m c Cert.KernelIdeal.main_v0)) = _
  rw [arg0_W1 m c, arg19_W1 m c]
  exact congrArg (fun b => softmaxArr (m := 200000) (n := 512) (denseArr (m := 200000) (k := 62) (n := 512)
    (m ((c.tc : Thread Cert.KernelIdeal.nD Cert.KernelIdeal.τ).loc Cert.KernelIdeal.main_arg0)) (m ((c.tc : Thread Cert.KernelIdeal.nD Cert.KernelIdeal.τ).loc Cert.KernelIdeal.main_arg19)) b)) (ker0_gen (W0 m c))

/-- The seventh pallas_call's result: the rows' softmax of the 100-wide dense layer of the first layer's output. -/
theorem ker_v101 (m : (ℓ : Loc Cert.KernelIdeal.nD Cert.KernelIdeal.τ Cert.KernelIdeal.sig) → Buf (Elt Ideal) ℓ) (c : Dev Cert.KernelIdeal.nD) :
    W14 m c Cert.KernelIdeal.main_v101
      = (softmaxArr (m := 200000) (n := 512) (denseArr (m := 200000) (k := 100) (n := 512) (W12 m c Cert.KernelIdeal.main_v99) (m ((c.tc : Thread Cert.KernelIdeal.nD Cert.KernelIdeal.τ).loc Cert.KernelIdeal.main_arg21))
            (shapeCast Cert.KernelIdeal.S1x512 (m ((c.tc : Thread Cert.KernelIdeal.nD Cert.KernelIdeal.τ).loc Cert.KernelIdeal.main_arg22)) Cert.KernelIdeal.Gen.shapeCasts_S512_S1x512))) := by
  rw [W14_at, value6 (E13 m) c]
  show softmaxArr (m := 200000) (n := 512) (denseArr (m := 200000) (k := 100) (n := 512)
    (W13 m c Cert.KernelIdeal.main_v99) (W13 m c Cert.KernelIdeal.main_arg21) (W13 m c Cert.KernelIdeal.main_v100)) = _
  rw [hold13 m c Cert.KernelIdeal.main_v99 (by decide), arg21_W13 m c]
  refine congrArg (fun b => softmaxArr (m := 200000) (n := 512) (denseArr (m := 200000) (k := 100) (n := 512)
    (W12 m c Cert.KernelIdeal.main_v99) (m ((c.tc : Thread Cert.KernelIdeal.nD Cert.KernelIdeal.τ).loc Cert.KernelIdeal.main_arg21)) b)) ((ker6_gen (W12 m c)).trans ?_)
  rw [arg22_W12 m c]

/-- The last pallas_call's result: the rows' softmax of the 100-wide dense layer of the second layer's output. -/
theorem ker_v202 (m : (ℓ : Loc Cert.KernelIdeal.nD Cert.KernelIdeal.τ Cert.KernelIdeal.sig) → Buf (Elt Ideal) ℓ) (c : Dev Cert.KernelIdeal.nD) :
    W26 m c Cert.KernelIdeal.main_v202
      = (softmaxArr (m := 200000) (n := 512) (denseArr (m := 200000) (k := 100) (n := 512) (W24 m c Cert.KernelIdeal.main_v200) (m ((c.tc : Thread Cert.KernelIdeal.nD Cert.KernelIdeal.τ).loc Cert.KernelIdeal.main_arg23))
            (shapeCast Cert.KernelIdeal.S1x512 (m ((c.tc : Thread Cert.KernelIdeal.nD Cert.KernelIdeal.τ).loc Cert.KernelIdeal.main_arg24)) Cert.KernelIdeal.Gen.shapeCasts_S512_S1x512))) := by
  rw [W26_at, value12 (E25 m) c]
  show softmaxArr (m := 200000) (n := 512) (denseArr (m := 200000) (k := 100) (n := 512)
    (W25 m c Cert.KernelIdeal.main_v200) (W25 m c Cert.KernelIdeal.main_arg23) (W25 m c Cert.KernelIdeal.main_v201)) = _
  rw [hold25 m c Cert.KernelIdeal.main_v200 (by decide), arg23_W25 m c]
  refine congrArg (fun b => softmaxArr (m := 200000) (n := 512) (denseArr (m := 200000) (k := 100) (n := 512)
    (W24 m c Cert.KernelIdeal.main_v200) (m ((c.tc : Thread Cert.KernelIdeal.nD Cert.KernelIdeal.τ).loc Cert.KernelIdeal.main_arg23)) b)) ((ker12_gen (W24 m c)).trans ?_)
  rw [arg24_W24 m c]

/-- The kernel program's first fingerprint summed per molecule, over its launch contents. -/
theorem kerA (m : (ℓ : Loc Cert.KernelIdeal.nD Cert.KernelIdeal.τ Cert.KernelIdeal.sig) → Buf (Elt Ideal) ℓ) (c : Dev Cert.KernelIdeal.nD) :
    W3 m c Cert.KernelIdeal.main_v4
      = Host.scatterAdd Cert.KernelIdeal.scatter_S8000x512_S200000x1_S200000x512_1_0_0_1
          (broadcastInDim Cert.KernelIdeal.S8000x512 ![] Cert.KernelIdeal.Gen.bcast_S_S8000x512
            (constant (F := Ideal) Cert.KernelIdeal.S_ .f32 0x00000000#32))
          (broadcastInDim Cert.KernelIdeal.S200000x1 ![0] Cert.KernelIdeal.Gen.bcast_S200000_S200000x1_0 (m ((c.tc : Thread Cert.KernelIdeal.nD Cert.KernelIdeal.τ).loc Cert.KernelIdeal.main_arg10)))
          (softmaxArr (m := 200000) (n := 512) (denseArr (m := 200000) (k := 62) (n := 512) (m ((c.tc : Thread Cert.KernelIdeal.nD Cert.KernelIdeal.τ).loc Cert.KernelIdeal.main_arg0)) (m ((c.tc : Thread Cert.KernelIdeal.nD Cert.KernelIdeal.τ).loc Cert.KernelIdeal.main_arg19))
            (shapeCast Cert.KernelIdeal.S1x512 (m ((c.tc : Thread Cert.KernelIdeal.nD Cert.KernelIdeal.τ).loc Cert.KernelIdeal.main_arg20)) Cert.KernelIdeal.Gen.shapeCasts_S512_S1x512))) := by
  refine (ker1_gen (W2 m c)).trans ?_
  rw [arg10_W2 m c, ker_v1 m c]

/-- The kernel program's running total after the second fingerprint. -/
theorem kerC (m : (ℓ : Loc Cert.KernelIdeal.nD Cert.KernelIdeal.τ Cert.KernelIdeal.sig) → Buf (Elt Ideal) ℓ) (c : Dev Cert.KernelIdeal.nD) :
    W15 m c Cert.KernelIdeal.main_v105
      = addf (F := Ideal) (W3 m c Cert.KernelIdeal.main_v4)
        (Host.scatterAdd Cert.KernelIdeal.scatter_S8000x512_S200000x1_S200000x512_1_0_0_1
          (broadcastInDim Cert.KernelIdeal.S8000x512 ![] Cert.KernelIdeal.Gen.bcast_S_S8000x512
            (constant (F := Ideal) Cert.KernelIdeal.S_ .f32 0x00000000#32))
          (broadcastInDim Cert.KernelIdeal.S200000x1 ![0] Cert.KernelIdeal.Gen.bcast_S200000_S200000x1_0 (m ((c.tc : Thread Cert.KernelIdeal.nD Cert.KernelIdeal.τ).loc Cert.KernelIdeal.main_arg10)))
          (softmaxArr (m := 200000) (n := 512) (denseArr (m := 200000) (k := 100) (n := 512) (W12 m c Cert.KernelIdeal.main_v99) (m ((c.tc : Thread Cert.KernelIdeal.nD Cert.KernelIdeal.τ).loc Cert.KernelIdeal.main_arg21))
            (shapeCast Cert.KernelIdeal.S1x512 (m ((c.tc : Thread Cert.KernelIdeal.nD Cert.KernelIdeal.τ).loc Cert.KernelIdeal.main_arg22)) Cert.KernelIdeal.Gen.shapeCasts_S512_S1x512)))) := by
  refine (ker7_gen (W14 m c)).trans ?_
  rw [carry_v4 m c, arg10_W14 m c, ker_v101 m c]

/-- The kernel program's total after the third fingerprint. -/
theorem kerE (m : (ℓ : Loc Cert.KernelIdeal.nD Cert.KernelIdeal.τ Cert.KernelIdeal.sig) → Buf (Elt Ideal) ℓ) (c : Dev Cert.KernelIdeal.nD) :
    W27 m c Cert.KernelIdeal.main_v206
      = addf (F := Ideal) (W15 m c Cert.KernelIdeal.main_v105)
        (Host.scatterAdd Cert.KernelIdeal.scatter_S8000x512_S200000x1_S200000x512_1_0_0_1
          (broadcastInDim Cert.KernelIdeal.S8000x512 ![] Cert.KernelIdeal.Gen.bcast_S_S8000x512
            (constant (F := Ideal) Cert.KernelIdeal.S_ .f32 0x00000000#32))
          (broadcastInDim Cert.KernelIdeal.S200000x1 ![0] Cert.KernelIdeal.Gen.bcast_S200000_S200000x1_0 (m ((c.tc : Thread Cert.KernelIdeal.nD Cert.KernelIdeal.τ).loc Cert.KernelIdeal.main_arg10)))
          (softmaxArr (m := 200000) (n := 512) (denseArr (m := 200000) (k := 100) (n := 512) (W24 m c Cert.KernelIdeal.main_v200) (m ((c.tc : Thread Cert.KernelIdeal.nD Cert.KernelIdeal.τ).loc Cert.KernelIdeal.main_arg23))
            (shapeCast Cert.KernelIdeal.S1x512 (m ((c.tc : Thread Cert.KernelIdeal.nD Cert.KernelIdeal.τ).loc Cert.KernelIdeal.main_arg24)) Cert.KernelIdeal.Gen.shapeCasts_S512_S1x512)))) := by
  refine (ker13_gen (W26 m c)).trans ?_
  rw [carry_v105 m c, arg10_W26 m c, ker_v202 m c]

/-! ## The pieces, from the equalities of the argument arrays read -/

/-- The first fingerprint summed per molecule: the kernel program's and the reference's agree, when the launch
    contents of the four argument arrays read agree. -/
theorem P1_of (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ) (c : Dev Cert.KernelIdeal.nD)
    (h0 : (m' ((c.tc : Thread Cert.ReferenceIdeal.nD Cert.ReferenceIdeal.τ).loc Cert.ReferenceIdeal.main_arg0)) = (m ((c.tc : Thread Cert.KernelIdeal.nD Cert.KernelIdeal.τ).loc Cert.KernelIdeal.main_arg0)))
    (h19 : (m' ((c.tc : Thread Cert.ReferenceIdeal.nD Cert.ReferenceIdeal.τ).loc Cert.ReferenceIdeal.main_arg19)) = (m ((c.tc : Thread Cert.KernelIdeal.nD Cert.KernelIdeal.τ).loc Cert.KernelIdeal.main_arg19)))
    (h20 : (m' ((c.tc : Thread Cert.ReferenceIdeal.nD Cert.ReferenceIdeal.τ).loc Cert.ReferenceIdeal.main_arg20)) = (m ((c.tc : Thread Cert.KernelIdeal.nD Cert.KernelIdeal.τ).loc Cert.KernelIdeal.main_arg20)))
    (h10 : (m' ((c.tc : Thread Cert.ReferenceIdeal.nD Cert.ReferenceIdeal.τ).loc Cert.ReferenceIdeal.main_arg10)) = (m ((c.tc : Thread Cert.KernelIdeal.nD Cert.KernelIdeal.τ).loc Cert.KernelIdeal.main_arg10))) :
    W3 m c Cert.KernelIdeal.main_v4
      = Cert.ReferenceIdeal.Stages.Q1 m' c Cert.ReferenceIdeal.main_v17 :=
  (kerA m c).trans ((fp62_agree _ _ _ _ _ _ _ _ h0 h19 h20 h10).trans (refA m' c).symm)

/-- The running total after the second fingerprint agrees, given the first fingerprint, the first layer's output and
    the three argument arrays read. -/
theorem P3_of (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ) (c : Dev Cert.KernelIdeal.nD)
    (h21 : (m' ((c.tc : Thread Cert.ReferenceIdeal.nD Cert.ReferenceIdeal.τ).loc Cert.ReferenceIdeal.main_arg21)) = (m ((c.tc : Thread Cert.KernelIdeal.nD Cert.KernelIdeal.τ).loc Cert.KernelIdeal.main_arg21)))
    (h22 : (m' ((c.tc : Thread Cert.ReferenceIdeal.nD Cert.ReferenceIdeal.τ).loc Cert.ReferenceIdeal.main_arg22)) = (m ((c.tc : Thread Cert.KernelIdeal.nD Cert.KernelIdeal.τ).loc Cert.KernelIdeal.main_arg22)))
    (h10 : (m' ((c.tc : Thread Cert.ReferenceIdeal.nD Cert.ReferenceIdeal.τ).loc Cert.ReferenceIdeal.main_arg10)) = (m ((c.tc : Thread Cert.KernelIdeal.nD Cert.KernelIdeal.τ).loc Cert.KernelIdeal.main_arg10)))
    (hP1 : W3 m c Cert.KernelIdeal.main_v4 = Cert.ReferenceIdeal.Stages.Q1 m' c Cert.ReferenceIdeal.main_v17)
    (hP2 : W12 m c Cert.KernelIdeal.main_v99 = Cert.ReferenceIdeal.Stages.Q2 m' c Cert.ReferenceIdeal.main_v129) :
    W15 m c Cert.KernelIdeal.main_v105
      = Cert.ReferenceIdeal.Stages.Q3 m' c Cert.ReferenceIdeal.main_v148 :=
  (kerC m c).trans ((fp100_agree _ _ _ _ _ _ _ _ _ _ hP1 hP2 h21 h22 h10).trans (refC m' c).symm)

/-- The total after the third fingerprint agrees, given the running total, the second layer's output and the three
    argument arrays read. -/
theorem P5_of (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ) (c : Dev Cert.KernelIdeal.nD)
    (h23 : (m' ((c.tc : Thread Cert.ReferenceIdeal.nD Cert.ReferenceIdeal.τ).loc Cert.ReferenceIdeal.main_arg23)) = (m ((c.tc : Thread Cert.KernelIdeal.nD Cert.KernelIdeal.τ).loc Cert.KernelIdeal.main_arg23)))
    (h24 : (m' ((c.tc : Thread Cert.ReferenceIdeal.nD Cert.ReferenceIdeal.τ).loc Cert.ReferenceIdeal.main_arg24)) = (m ((c.tc : Thread Cert.KernelIdeal.nD Cert.KernelIdeal.τ).loc Cert.KernelIdeal.main_arg24)))
    (h10 : (m' ((c.tc : Thread Cert.ReferenceIdeal.nD Cert.ReferenceIdeal.τ).loc Cert.ReferenceIdeal.main_arg10)) = (m ((c.tc : Thread Cert.KernelIdeal.nD Cert.KernelIdeal.τ).loc Cert.KernelIdeal.main_arg10)))
    (hP3 : W15 m c Cert.KernelIdeal.main_v105 = Cert.ReferenceIdeal.Stages.Q3 m' c Cert.ReferenceIdeal.main_v148)
    (hP4 : W24 m c Cert.KernelIdeal.main_v200 = Cert.ReferenceIdeal.Stages.Q4 m' c Cert.ReferenceIdeal.main_v260) :
    W27 m c Cert.KernelIdeal.main_v206
      = Cert.ReferenceIdeal.Stages.Q5 m' c Cert.ReferenceIdeal.main_v279 :=
  (kerE m c).trans ((fp100_agree _ _ _ _ _ _ _ _ _ _ hP3 hP4 h23 h24 h10).trans (refE m' c).symm)

end Cert.Sim

end
-- ==== Proof.Sim.FpAgree.lean ====
/-
  The three fingerprints under the comparison hypothesis: the two launch memories agree on the argument arrays.
-/
import proofs.«143046_j34703335751794_1_alg».proof.Proof.Sim.Agree
import proofs.«143046_j34703335751794_1_alg».proof.Proof.Sim.Fp

set_option maxRecDepth 16384

noncomputable section

namespace Cert.Sim

open Idealize.ShloMosaic Idealize.ShloMosaic.TcCoe Idealize.ShloMosaic.StableHlo Idealize.SL.Sem
open Cert.KernelIdeal.Fr

set_option maxHeartbeats 4000000

/-- The first fingerprint summed per molecule: the kernel program's and the reference's agree. -/
theorem P1 (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ) (c : Dev Cert.KernelIdeal.nD) (h : Agree m m' c) :
    W3 m c Cert.KernelIdeal.main_v4
      = Cert.ReferenceIdeal.Stages.Q1 m' c Cert.ReferenceIdeal.main_v17 :=
  P1_of m m' c h.a0 h.a19 h.a20 h.a10

/-- The running total after the second fingerprint agrees, given the first fingerprint and the first layer's output. -/
theorem P3 (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ) (c : Dev Cert.KernelIdeal.nD) (h : Agree m m' c)
    (hP1 : W3 m c Cert.KernelIdeal.main_v4 = Cert.ReferenceIdeal.Stages.Q1 m' c Cert.ReferenceIdeal.main_v17)
    (hP2 : W12 m c Cert.KernelIdeal.main_v99 = Cert.ReferenceIdeal.Stages.Q2 m' c Cert.ReferenceIdeal.main_v129) :
    W15 m c Cert.KernelIdeal.main_v105
      = Cert.ReferenceIdeal.Stages.Q3 m' c Cert.ReferenceIdeal.main_v148 :=
  P3_of m m' c h.a21 h.a22 h.a10 hP1 hP2

/-- The total after the third fingerprint agrees, given the running total and the second layer's output. -/
theorem P5 (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ) (c : Dev Cert.KernelIdeal.nD) (h : Agree m m' c)
    (hP3 : W15 m c Cert.KernelIdeal.main_v105 = Cert.ReferenceIdeal.Stages.Q3 m' c Cert.ReferenceIdeal.main_v148)
    (hP4 : W24 m c Cert.KernelIdeal.main_v200 = Cert.ReferenceIdeal.Stages.Q4 m' c Cert.ReferenceIdeal.main_v260) :
    W27 m c Cert.KernelIdeal.main_v206
      = Cert.ReferenceIdeal.Stages.Q5 m' c Cert.ReferenceIdeal.main_v279 :=
  P5_of m m' c h.a23 h.a24 h.a10 hP3 hP4

end Cert.Sim

end
-- ==== Proof.KI.Cover1.lean ====
/-
  pallas_call 1: where its blocks sit in their arrays. Grid point t handles rows 2000·t … 2000·t + 1999: the blocks of the
  row-blocked windows (the first input and the output) are those rows, full width; the weight and the bias row
  are whole at every point. So a row-blocked window's block at (p, q) is its array at (2000·t + p, q), a whole window's block
  is its array, and the output's blocks cover its array: row r lies in the block of point r / 2000.
-/
import proofs.«143046_j34703335751794_1_alg».proof.Proof.KI.Region1
import Idealize.ShloMosaic.Lib.Pipeline.Value
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (V : (c : Dev nD) → (b : Ref sig .tc) → Buf (Elt F) ((c : Thread nD τ).loc b))

/-- The printed index maps, decided over the grid. -/
theorem maps1 : ∀ t : Fin cfg1.N, win1_0.index t (0 : Fin 2) = t.val
    ∧ win1_0.index t (1 : Fin 2) = 0
    ∧ win1_3.index t (0 : Fin 2) = t.val
    ∧ win1_3.index t (1 : Fin 2) = 0
    ∧ win1_1.index t (0 : Fin 2) = 0
    ∧ win1_1.index t (1 : Fin 2) = 0
    ∧ win1_2.index t (0 : Fin 2) = 0
    ∧ win1_2.index t (1 : Fin 2) = 0 :=
  (by decide +kernel : ∀ t : Fin grid1.N, _)

theorem pts1 : cfg1.N = 20 := N_1

/-- A row-blocked input's block at (p, q) is its array at (2000·t + p, q). -/
theorem rows1_0 (c : Dev nD) (t : Fin cfg1.N) (p : Fin 2000) (q : Fin 68) (hb : t.val * 2000 + p.val < 40000) :
    blk1 V c 0 t (ix2 p q) = V c main_v22 (ix2 (⟨t.val * 2000 + p.val, hb⟩ : Fin 40000) q) := by
  show V c main_v22 (((cfg1.win 0).blk t).view.emb (ix2 p q)) = _
  refine congrArg _ (funext fun a => Fin.ext ?_)
  obtain ⟨h0, h1, h2, h3, h4, h5, h6, h7⟩ := maps1 t
  match a with
  | ⟨0, _⟩ => show win1_0.index t (0 : Fin 2) * 2000 + 1 * p.val = t.val * 2000 + p.val; omega
  | ⟨1, _⟩ => show win1_0.index t (1 : Fin 2) * 68 + 1 * q.val = q.val; omega

/-- A whole window's block is its array. -/
theorem all1_1 (c : Dev nD) (t : Fin cfg1.N) (y : S68x100.Idx) : blk1 V c 1 t y = V c main_v24 y := by
  show V c main_v24 (((cfg1.win 1).blk t).view.emb y) = _
  refine congrArg _ (funext fun a => Fin.ext ?_)
  obtain ⟨h0, h1, h2, h3, h4, h5, h6, h7⟩ := maps1 t
  match a with
  | ⟨0, _⟩ => show win1_1.index t (0 : Fin 2) * 68 + 1 * (y 0).val = (y 0).val; omega
  | ⟨1, _⟩ => show win1_1.index t (1 : Fin 2) * 100 + 1 * (y 1).val = (y 1).val; omega

/-- A whole window's block is its array. -/
theorem all1_2 (c : Dev nD) (t : Fin cfg1.N) (y : S1x100.Idx) : blk1 V c 2 t y = V c main_v27 y := by
  show V c main_v27 (((cfg1.win 2).blk t).view.emb y) = _
  refine congrArg _ (funext fun a => Fin.ext ?_)
  obtain ⟨h0, h1, h2, h3, h4, h5, h6, h7⟩ := maps1 t
  match a with
  | ⟨0, _⟩ => show win1_2.index t (0 : Fin 2) * 1 + 1 * (y 0).val = (y 0).val; omega
  | ⟨1, _⟩ => show win1_2.index t (1 : Fin 2) * 100 + 1 * (y 1).val = (y 1).val; omega

/-- Where the output's block sits: (p, q) of point t's block is (2000·t + p, q) of the array. -/
theorem outRow1 (t : Fin cfg1.N) (y : S2000x100.Idx) :
    (((cfg1.win 3).blk t).view.emb y (0 : Fin 2)).val = t.val * 2000 + (y 0).val := by
  obtain ⟨h0, h1, h2, h3, h4, h5, h6, h7⟩ := maps1 t
  show win1_3.index t (0 : Fin 2) * 2000 + 1 * (y 0).val = _
  omega
theorem outCol1 (t : Fin cfg1.N) (y : S2000x100.Idx) :
    (((cfg1.win 3).blk t).view.emb y (1 : Fin 2)).val = (y 1).val := by
  obtain ⟨h0, h1, h2, h3, h4, h5, h6, h7⟩ := maps1 t
  show win1_3.index t (1 : Fin 2) * 100 + 1 * (y 1).val = _
  omega

/-- An index of the output array is in point t's block iff its row is among the point's rows. -/
theorem inBlock1 (t : Fin cfg1.N) (i : S40000x100.Idx) :
    i ∈ ((cfg1.win 3).blk t).view.set ↔ ∀ a : Fin 2, win1_3.index t a * S2000x100.size a ≤ (i a).val ∧ (i a).val < win1_3.index t a * S2000x100.size a + S2000x100.size a := by
  show i ∈ ((View.whole main_v28).slice (win1_3.rect t)).set ↔ _
  rw [View.set_slice_whole, Rect.mem_set_unit]
  exact Iff.rfl

/-- The output's blocks cover its array. -/
theorem covered1 (i : S40000x100.Idx) : ∃ t : Fin cfg1.N, (cfg1.win 3).flush t = true ∧ i ∈ ((cfg1.win 3).blk t).view.set := by
  have hi0 : (i 0).val < 40000 := (i 0).isLt
  have hi1 : (i 1).val < 100 := (i 1).isLt
  refine ⟨⟨(i 0).val / 2000, by rw [pts1]; omega⟩, flush1_3 _, ?_⟩
  rw [inBlock1]
  obtain ⟨h0, h1, h2, h3, h4, h5, h6, h7⟩ := maps1 ⟨(i 0).val / 2000, by rw [pts1]; omega⟩
  intro a
  match a with
  | ⟨0, _⟩ => show win1_3.index _ (0 : Fin 2) * 2000 ≤ (i 0).val ∧ (i 0).val < win1_3.index _ (0 : Fin 2) * 2000 + 2000; simp only at *; omega
  | ⟨1, _⟩ => show win1_3.index _ (1 : Fin 2) * 100 ≤ (i 1).val ∧ (i 1).val < win1_3.index _ (1 : Fin 2) * 100 + 100; simp only at *; omega

end Cert.KernelIdeal.Fr

end
-- ==== Proof.LibNormRows.lean ====
/-
  A matrix normalised row by row and rectified, read one row at a time, on the extended reals.

  Take a matrix t of m rows and n entries per row.  Normalising a row divides each of its entries by the row's
  Euclidean length  sqrt(Σ_j t[p, j]²),  the length first raised to a small positive floor ε so that the divisor is
  never below ε; rectifying takes the maximum with zero.  Entry (p, q) of the result is

      max( t[p, q] / max( sqrt(Σ_j t[p, j] · t[p, j]), ε ), 0 ),

  which depends on t only through its row p.  A kernel and a host program spell this differently.  The kernel sums
  the squares along each row into a vector of m entries, reshapes that vector into a one-column matrix, takes the
  root and the floor there, and spreads the column across the n entries of each row.  The host sums the squares
  from an initial value 0, keeps the summed axis as a unit axis by a broadcast, takes the root and the floor, and
  spreads the column by a second broadcast; its floor and its zero are rank-0 constants broadcast to the array.
  They also cut the rows differently (a kernel sees a block of rows, the host all of them).  Read at an entry both
  are the same function of the row, whatever the number of rows.

  The matrix that is normalised is, in the programs this serves, a dense layer plus a second matrix:
  t[p, j] = (Σ_c x[p, c] · w[c, j]) + b[0, j] + d[p, j].  The kernel adds d last, the host adds it first; the last
  section reads both at an entry as the same row function.

  The floor ε and the rectifier's zero stay the f32 words the programs write.  The only word evaluated is the zero
  a sum starts from, and the only arithmetic used is 0 + x = x and x + y = y + x, so everything holds at the
  infinities too.
-/
import Idealize.ShloMosaic.Lib.StackMember
import Idealize.ShloMosaic.Lib.KernelVsHost
import Idealize.ShloMosaic.Lib.ValueLayout
import Idealize.ShloMosaic.Lib.ValueIdx
import Idealize.ShloMosaic.Lib.Pipeline.Value
import Idealize.ShloMosaic.PureOps.Ideal.Laws
import proofs.«143046_j34703335751794_1_alg».proof.Proof.LibDenseRows
import proofs.«143046_j34703335751794_1_alg».proof.Proof.LibUnitColumn
import proofs.«143046_j34703335751794_1_alg».proof.Proof.LibSpreadColumn

noncomputable section

namespace Cert.LibNormRows

open Idealize.ShloMosaic Idealize.ShloMosaic.ValueIdx Cert.LibDenseRows

/-- One row normalised by its Euclidean length (raised to the floor 0x2B8CBCCC, about 1e-12) and rectified, at
    entry q:  max( t[q] / max( sqrt(Σ_j t[j] · t[j]), ε ), 0 ). -/
def normReluRow {n : ℕ} (t : Fin n → EReal) (q : Fin n) : EReal :=
  max (Ideal.div (t q) (max (Ideal.sqrt (∑ j : Fin n, t j * t j)) (Ideal.ofBits .f32 0x2B8CBCCC#32)))
    (Ideal.ofBits .f32 0x00000000#32)

/-- A whole matrix normalised and rectified row by row: entry (i, j) is row i normalised, at j. -/
def normReluArr {m n : ℕ} (t : (⟨2, ![m, n]⟩ : Shape).Idx → EReal) : (⟨2, ![m, n]⟩ : Shape).Idx → EReal :=
  fun i => normReluRow (fun j => t (ix2 (i 0 : Fin m) j)) (i 1 : Fin n)

/-- Rows that agree entry by entry normalise to the same value. -/
theorem normReluRow_congr {n : ℕ} {s t : Fin n → EReal} (h : ∀ j, s j = t j) (q : Fin n) :
    normReluRow s q = normReluRow t q := by
  rw [show s = t from funext h]

/-! ## The operations at an entry -/

/-- A square root at an entry is the square root of the entry. -/
theorem sqrt_apply {s : Shape} {φ : FTy} (a : FVec Ideal s φ) (i : s.Idx) : sqrt a i = Ideal.sqrt (a i) := rfl

/-- The host's square root at an entry likewise. -/
theorem hostSqrt_apply {s : Shape} {φ : FTy} (a : FVec Ideal s φ) (i : s.Idx) : Host.sqrt a i = Ideal.sqrt (a i) := rfl

/-- The host's quotient at an entry is the quotient of the entries. -/
theorem hostDivf_apply {s : Shape} {φ : FTy} (a b : FVec Ideal s φ) (i : s.Idx) :
    Host.divf a b i = Ideal.div (a i) (b i) := rfl

/-! ## The sum of a row's squares -/

/-- Summing an m × n matrix along its rows: the entry of the matrix over row p whose position in the row is k
    is (p, k). -/
theorem lift_row {m n : ℕ} (h : (⟨2, ![m, n]⟩ : Shape).Reduces [1] ⟨1, ![m]⟩) (p : Fin m) (k : Fin n) :
    h.lift (ix1 p) k = ix2 p k := by
  funext c
  match c with
  | ⟨0, _⟩ => exact Fin.ext rfl
  | ⟨1, _⟩ => exact Fin.ext rfl

/-- The kernel's sum of squares along the rows, at row p:  Σ_j t[p, j] · t[p, j]. -/
theorem kernel_rowSumSq_apply {m n : ℕ} (t : FVec Ideal ⟨2, ![m, n]⟩ .f32)
    (hr : (⟨2, ![m, n]⟩ : Shape).Reduces [1] ⟨1, ![m]⟩) (hφ : FKind.Formats .f32)
    (hacc : (0x00000000#32 : BitVec 32) = 0x00000000#32) (p : Fin m) :
    multiReduction .add [1] ⟨1, ![m]⟩ (mulf t t) 0x00000000#32 hr hφ hacc (ix1 p)
      = ∑ j : Fin n, t (ix2 p j) * t (ix2 p j) := by
  refine (Ideal.multiReduction_add_single (mulf t t) 0x00000000#32 hr hφ hacc (ix1 p)).trans ?_
  exact Finset.sum_congr rfl fun k _ => by rw [lift_row hr p k]; rfl

/-- The host's sum of squares along the rows from the initial value 0, at row p:  Σ_j t[p, j] · t[p, j]. -/
theorem host_rowSumSq_apply {m n : ℕ} (t : FVec Ideal ⟨2, ![m, n]⟩ .f32)
    (hr : (⟨2, ![m, n]⟩ : Shape).ReducesTo [1] ⟨1, ![m]⟩) (hu : 0 < (⟨0, ![]⟩ : Shape).numel) (p : Fin m) :
    Host.reduceAdd (F := Ideal) (mulf t t) (constant (F := Ideal) ⟨0, ![]⟩ .f32 0x00000000#32) hr hu (ix1 p)
      = ∑ j : Fin n, t (ix2 p j) * t (ix2 p j) := by
  have h : (⟨2, ![m, n]⟩ : Shape).Reduces [1] ⟨1, ![m]⟩ := ⟨hr.1, Nat.one_pos, hr.2⟩
  refine (Ideal.hostReduceAdd_single hr h (mulf t t) _ (ix1 p)).trans ?_
  rw [constant_apply, Ideal.ofBits_zero_f32, zero_add]
  exact Finset.sum_congr rfl fun k _ => by rw [lift_row h p k]; rfl

/-! ## The normalised, rectified matrix at an entry -/

/-- The kernel's spelling on a block of rows — squares summed along the rows, the sums reshaped to a column, root,
    floor, the column spread along the rows, quotient, rectifier — at entry (p, q): row p of the block normalised. -/
theorem kernel_norm_apply {m n : ℕ} (t : FVec Ideal ⟨2, ![m, n]⟩ .f32)
    (hr : (⟨2, ![m, n]⟩ : Shape).Reduces [1] ⟨1, ![m]⟩) (hφ : FKind.Formats .f32)
    (hacc : (0x00000000#32 : BitVec 32) = 0x00000000#32)
    (hc : (⟨1, ![m]⟩ : Shape).ShapeCasts ⟨2, ![m, 1]⟩) (hb : (⟨2, ![m, 1]⟩ : Shape).Broadcasts ⟨2, ![m, n]⟩)
    (p : Fin m) (q : Fin n) :
    maximumf (divf t (broadcastTo ⟨2, ![m, n]⟩
        (maximumf (sqrt (shapeCast ⟨2, ![m, 1]⟩ (multiReduction .add [1] ⟨1, ![m]⟩ (mulf t t) 0x00000000#32 hr hφ hacc) hc))
          (broadcast ⟨2, ![m, 1]⟩ (Scalar.ofBits (F := Ideal) .f32 0x2B8CBCCC#32))) hb))
        (broadcast ⟨2, ![m, n]⟩ (Scalar.ofBits (F := Ideal) .f32 0x00000000#32)) (ix2 p q)
      = normReluRow (fun j => t (ix2 p j)) q := by
  rw [maximumf_apply, divf_apply, Cert.LibSpreadColumn.broadcastTo_a1_ab_apply, maximumf_apply, sqrt_apply,
    Cert.LibUnitColumn.shapeCast_a_a1_apply, kernel_rowSumSq_apply]
  rfl

/-- The host's spelling on all the rows — squares summed from 0, the summed axis kept as a unit axis by a broadcast,
    root, floor (a broadcast constant, the second operand of the maximum), the column spread by a broadcast, quotient,
    rectifier (a broadcast constant, again the second operand) — at entry (p, q): row p normalised. -/
theorem host_norm_apply {m n : ℕ} (t : FVec Ideal ⟨2, ![m, n]⟩ .f32)
    (hr : (⟨2, ![m, n]⟩ : Shape).ReducesTo [1] ⟨1, ![m]⟩) (hu : 0 < (⟨0, ![]⟩ : Shape).numel)
    (hk : (⟨1, ![m]⟩ : Shape).BroadcastsInDim ⟨2, ![m, 1]⟩ ![0])
    (he : (⟨0, ![]⟩ : Shape).BroadcastsInDim ⟨2, ![m, 1]⟩ ![])
    (hs : (⟨2, ![m, 1]⟩ : Shape).BroadcastsInDim ⟨2, ![m, n]⟩ ![0, 1])
    (h0 : (⟨0, ![]⟩ : Shape).BroadcastsInDim ⟨2, ![m, n]⟩ ![])
    (p : Fin m) (q : Fin n) :
    maximumf (Host.divf t (broadcastInDim ⟨2, ![m, n]⟩ ![0, 1] hs
        (maximumf (Host.sqrt (broadcastInDim ⟨2, ![m, 1]⟩ ![0] hk
            (Host.reduceAdd (F := Ideal) (mulf t t) (constant (F := Ideal) ⟨0, ![]⟩ .f32 0x00000000#32) hr hu)))
          (broadcastInDim ⟨2, ![m, 1]⟩ ![] he (constant (F := Ideal) ⟨0, ![]⟩ .f32 0x2B8CBCCC#32)))))
        (broadcastInDim ⟨2, ![m, n]⟩ ![] h0 (constant (F := Ideal) ⟨0, ![]⟩ .f32 0x00000000#32)) (ix2 p q)
      = normReluRow (fun j => t (ix2 p j)) q := by
  rw [maximumf_apply, broadcastInDim_apply ![] h0 _ (ix2 p q) ix0 (fun a => a.elim0), hostDivf_apply,
    Cert.LibUnitColumn.broadcastInDim_a1_ab_apply, maximumf_apply,
    broadcastInDim_apply ![] he _ (ix2 p (0 : Fin 1)) ix0 (fun a => a.elim0), hostSqrt_apply,
    Cert.LibUnitColumn.broadcastInDim_a_a1_apply, host_rowSumSq_apply]
  rfl

/-- The host's spelling of a whole matrix is `normReluArr`. -/
theorem host_norm_eq {m n : ℕ} (t : FVec Ideal ⟨2, ![m, n]⟩ .f32)
    (hr : (⟨2, ![m, n]⟩ : Shape).ReducesTo [1] ⟨1, ![m]⟩) (hu : 0 < (⟨0, ![]⟩ : Shape).numel)
    (hk : (⟨1, ![m]⟩ : Shape).BroadcastsInDim ⟨2, ![m, 1]⟩ ![0])
    (he : (⟨0, ![]⟩ : Shape).BroadcastsInDim ⟨2, ![m, 1]⟩ ![])
    (hs : (⟨2, ![m, 1]⟩ : Shape).BroadcastsInDim ⟨2, ![m, n]⟩ ![0, 1])
    (h0 : (⟨0, ![]⟩ : Shape).BroadcastsInDim ⟨2, ![m, n]⟩ ![]) :
    maximumf (Host.divf t (broadcastInDim ⟨2, ![m, n]⟩ ![0, 1] hs
        (maximumf (Host.sqrt (broadcastInDim ⟨2, ![m, 1]⟩ ![0] hk
            (Host.reduceAdd (F := Ideal) (mulf t t) (constant (F := Ideal) ⟨0, ![]⟩ .f32 0x00000000#32) hr hu)))
          (broadcastInDim ⟨2, ![m, 1]⟩ ![] he (constant (F := Ideal) ⟨0, ![]⟩ .f32 0x2B8CBCCC#32)))))
        (broadcastInDim ⟨2, ![m, n]⟩ ![] h0 (constant (F := Ideal) ⟨0, ![]⟩ .f32 0x00000000#32))
      = normReluArr t := by
  funext i
  obtain ⟨p, q, rfl⟩ : ∃ (p : Fin m) (q : Fin n), i = ix2 p q := ⟨i 0, i 1, eq_ix2 i⟩
  exact host_norm_apply t hr hu hk he hs h0 p q

/-! ## A dense layer plus a second matrix, normalised and rectified -/

/-- The kernel's sum (x · w + b) + d at entry (p, j): row p through the dense layer, plus d's entry. -/
theorem kernel_dense_add_apply {m k n : ℕ} {φ₁ φ₂ : FTy} (x : FVec Ideal ⟨2, ![m, k]⟩ φ₁) (w : FVec Ideal ⟨2, ![k, n]⟩ φ₂)
    (b : FVec Ideal ⟨2, ![1, n]⟩ .f32) (d : FVec Ideal ⟨2, ![m, n]⟩ .f32)
    (hbb : (⟨2, ![1, n]⟩ : Shape).Broadcasts ⟨2, ![m, n]⟩) (p : Fin m) (j : Fin n) :
    addf (addf (matmul (DotDims.plain m k n) none x w (constant ⟨2, ![m, n]⟩ .f32 0x00000000#32))
        (broadcastTo ⟨2, ![m, n]⟩ b hbb)) d (ix2 p j)
      = denseRow (fun c => x (ix2 p c)) w b j + d (ix2 p j) := by
  rw [addf_apply, kernel_dense_apply]

/-- The host's sum d + (x · w + b) at entry (p, j): the same value, by commutativity of the sum. -/
theorem host_add_dense_apply {m k n : ℕ} {φ₁ φ₂ : FTy} (d : FVec Ideal ⟨2, ![m, n]⟩ .f32)
    (x : FVec Ideal ⟨2, ![m, k]⟩ φ₁) (w : FVec Ideal ⟨2, ![k, n]⟩ φ₂) (b : FVec Ideal ⟨2, ![1, n]⟩ .f32)
    (hbc : (⟨2, ![1, n]⟩ : Shape).BroadcastsInDim ⟨2, ![m, n]⟩ ![0, 1]) (p : Fin m) (j : Fin n) :
    addf d (addf (Host.dotGeneral (DotDims.plain m k n) none x w) (broadcastInDim ⟨2, ![m, n]⟩ ![0, 1] hbc b)) (ix2 p j)
      = denseRow (fun c => x (ix2 p c)) w b j + d (ix2 p j) := by
  rw [addf_apply, host_dense_apply, add_comm]

/-- The kernel's finished layer on a block of rows at entry (p, q): row p of the block through the dense layer, plus
    row p of d, normalised and rectified. -/
theorem kernel_dense_norm_apply {m k n : ℕ} {φ₁ φ₂ : FTy} (x : FVec Ideal ⟨2, ![m, k]⟩ φ₁) (w : FVec Ideal ⟨2, ![k, n]⟩ φ₂)
    (b : FVec Ideal ⟨2, ![1, n]⟩ .f32) (d : FVec Ideal ⟨2, ![m, n]⟩ .f32)
    (hbb : (⟨2, ![1, n]⟩ : Shape).Broadcasts ⟨2, ![m, n]⟩)
    (hr : (⟨2, ![m, n]⟩ : Shape).Reduces [1] ⟨1, ![m]⟩) (hφ : FKind.Formats .f32)
    (hacc : (0x00000000#32 : BitVec 32) = 0x00000000#32)
    (hc : (⟨1, ![m]⟩ : Shape).ShapeCasts ⟨2, ![m, 1]⟩) (hb : (⟨2, ![m, 1]⟩ : Shape).Broadcasts ⟨2, ![m, n]⟩)
    (p : Fin m) (q : Fin n) :
    maximumf (divf
          (addf (addf (matmul (DotDims.plain m k n) none x w (constant ⟨2, ![m, n]⟩ .f32 0x00000000#32))
            (broadcastTo ⟨2, ![m, n]⟩ b hbb)) d)
          (broadcastTo ⟨2, ![m, n]⟩
            (maximumf (sqrt (shapeCast ⟨2, ![m, 1]⟩ (multiReduction .add [1] ⟨1, ![m]⟩
                (mulf
                  (addf (addf (matmul (DotDims.plain m k n) none x w (constant ⟨2, ![m, n]⟩ .f32 0x00000000#32))
                    (broadcastTo ⟨2, ![m, n]⟩ b hbb)) d)
                  (addf (addf (matmul (DotDims.plain m k n) none x w (constant ⟨2, ![m, n]⟩ .f32 0x00000000#32))
                    (broadcastTo ⟨2, ![m, n]⟩ b hbb)) d))
                0x00000000#32 hr hφ hacc) hc))
              (broadcast ⟨2, ![m, 1]⟩ (Scalar.ofBits (F := Ideal) .f32 0x2B8CBCCC#32))) hb))
        (broadcast ⟨2, ![m, n]⟩ (Scalar.ofBits (F := Ideal) .f32 0x00000000#32)) (ix2 p q)
      = normReluRow (fun j => denseRow (fun c => x (ix2 p c)) w b j + d (ix2 p j)) q :=
  (kernel_norm_apply _ hr hφ hacc hc hb p q).trans
    (normReluRow_congr (fun j => kernel_dense_add_apply x w b d hbb p j) q)

/-- The host's finished layer at entry (p, q): row p through the dense layer, plus row p of d, normalised and
    rectified — the kernel's value, the two sums taken in the other order. -/
theorem host_dense_norm_apply {m k n : ℕ} {φ₁ φ₂ : FTy} (d : FVec Ideal ⟨2, ![m, n]⟩ .f32)
    (x : FVec Ideal ⟨2, ![m, k]⟩ φ₁) (w : FVec Ideal ⟨2, ![k, n]⟩ φ₂) (b : FVec Ideal ⟨2, ![1, n]⟩ .f32)
    (hbc : (⟨2, ![1, n]⟩ : Shape).BroadcastsInDim ⟨2, ![m, n]⟩ ![0, 1])
    (hr : (⟨2, ![m, n]⟩ : Shape).ReducesTo [1] ⟨1, ![m]⟩) (hu : 0 < (⟨0, ![]⟩ : Shape).numel)
    (hk : (⟨1, ![m]⟩ : Shape).BroadcastsInDim ⟨2, ![m, 1]⟩ ![0])
    (he : (⟨0, ![]⟩ : Shape).BroadcastsInDim ⟨2, ![m, 1]⟩ ![])
    (hs : (⟨2, ![m, 1]⟩ : Shape).BroadcastsInDim ⟨2, ![m, n]⟩ ![0, 1])
    (h0 : (⟨0, ![]⟩ : Shape).BroadcastsInDim ⟨2, ![m, n]⟩ ![])
    (p : Fin m) (q : Fin n) :
    maximumf (Host.divf
          (addf d (addf (Host.dotGeneral (DotDims.plain m k n) none x w) (broadcastInDim ⟨2, ![m, n]⟩ ![0, 1] hbc b)))
          (broadcastInDim ⟨2, ![m, n]⟩ ![0, 1] hs
            (maximumf (Host.sqrt (broadcastInDim ⟨2, ![m, 1]⟩ ![0] hk
                (Host.reduceAdd (F := Ideal)
                  (mulf
                    (addf d (addf (Host.dotGeneral (DotDims.plain m k n) none x w) (broadcastInDim ⟨2, ![m, n]⟩ ![0, 1] hbc b)))
                    (addf d (addf (Host.dotGeneral (DotDims.plain m k n) none x w) (broadcastInDim ⟨2, ![m, n]⟩ ![0, 1] hbc b))))
                  (constant (F := Ideal) ⟨0, ![]⟩ .f32 0x00000000#32) hr hu)))
              (broadcastInDim ⟨2, ![m, 1]⟩ ![] he (constant (F := Ideal) ⟨0, ![]⟩ .f32 0x2B8CBCCC#32)))))
        (broadcastInDim ⟨2, ![m, n]⟩ ![] h0 (constant (F := Ideal) ⟨0, ![]⟩ .f32 0x00000000#32)) (ix2 p q)
      = normReluRow (fun j => denseRow (fun c => x (ix2 p c)) w b j + d (ix2 p j)) q :=
  (host_norm_apply _ hr hu hk he hs h0 p q).trans
    (normReluRow_congr (fun j => host_add_dense_apply d x w b hbc p j) q)

/-- The host's finished layer of a whole matrix, row by row. -/
theorem host_dense_norm_eq {m k n : ℕ} {φ₁ φ₂ : FTy} (d : FVec Ideal ⟨2, ![m, n]⟩ .f32)
    (x : FVec Ideal ⟨2, ![m, k]⟩ φ₁) (w : FVec Ideal ⟨2, ![k, n]⟩ φ₂) (b : FVec Ideal ⟨2, ![1, n]⟩ .f32)
    (hbc : (⟨2, ![1, n]⟩ : Shape).BroadcastsInDim ⟨2, ![m, n]⟩ ![0, 1])
    (hr : (⟨2, ![m, n]⟩ : Shape).ReducesTo [1] ⟨1, ![m]⟩) (hu : 0 < (⟨0, ![]⟩ : Shape).numel)
    (hk : (⟨1, ![m]⟩ : Shape).BroadcastsInDim ⟨2, ![m, 1]⟩ ![0])
    (he : (⟨0, ![]⟩ : Shape).BroadcastsInDim ⟨2, ![m, 1]⟩ ![])
    (hs : (⟨2, ![m, 1]⟩ : Shape).BroadcastsInDim ⟨2, ![m, n]⟩ ![0, 1])
    (h0 : (⟨0, ![]⟩ : Shape).BroadcastsInDim ⟨2, ![m, n]⟩ ![]) :
    maximumf (Host.divf
          (addf d (addf (Host.dotGeneral (DotDims.plain m k n) none x w) (broadcastInDim ⟨2, ![m, n]⟩ ![0, 1] hbc b)))
          (broadcastInDim ⟨2, ![m, n]⟩ ![0, 1] hs
            (maximumf (Host.sqrt (broadcastInDim ⟨2, ![m, 1]⟩ ![0] hk
                (Host.reduceAdd (F := Ideal)
                  (mulf
                    (addf d (addf (Host.dotGeneral (DotDims.plain m k n) none x w) (broadcastInDim ⟨2, ![m, n]⟩ ![0, 1] hbc b)))
                    (addf d (addf (Host.dotGeneral (DotDims.plain m k n) none x w) (broadcastInDim ⟨2, ![m, n]⟩ ![0, 1] hbc b))))
                  (constant (F := Ideal) ⟨0, ![]⟩ .f32 0x00000000#32) hr hu)))
              (broadcastInDim ⟨2, ![m, 1]⟩ ![] he (constant (F := Ideal) ⟨0, ![]⟩ .f32 0x2B8CBCCC#32)))))
        (broadcastInDim ⟨2, ![m, n]⟩ ![] h0 (constant (F := Ideal) ⟨0, ![]⟩ .f32 0x00000000#32))
      = fun i => normReluRow (fun j => denseRow (fun c => x (ix2 (i 0 : Fin m) c)) w b j + d (ix2 (i 0 : Fin m) j)) (i 1 : Fin n) := by
  funext i
  obtain ⟨p, q, rfl⟩ : ∃ (p : Fin m) (q : Fin n), i = ix2 p q := ⟨i 0, i 1, eq_ix2 i⟩
  exact host_dense_norm_apply d x w b hbc hr hu hk he hs h0 p q

end Cert.LibNormRows

end
-- ==== Proof.Val.Norm.lean ====
/-
  The dense kernels and the two finishing kernels of this program, read at an entry.

  Eight kernels compute a dense layer of a block of 2000 rows: entry (p, q) of the block they store is
  (Σ_c x[p, c] · w[c, q]) + b[0, q], row p of the block through the layer.  Two kernels finish a graph-convolution
  layer: they add to a dense layer of the block a second block d (the gathered neighbour parts), divide each row by
  its Euclidean length raised to a small floor, and rectify; entry (p, q) is row p of
  x · w + b + d normalised and rectified.  The reshapes to the same shape and the narrowing of the two factors'
  format that the kernels apply change nothing on the extended reals.
-/
import proofs.«143046_j34703335751794_1_alg».proof.Proof.Gen.KernelIdeal.Skeleton
import proofs.«143046_j34703335751794_1_alg».proof.Proof.LibDenseRows
import proofs.«143046_j34703335751794_1_alg».proof.Proof.LibNormRows

noncomputable section

namespace Cert.KernelIdeal.Val

open Idealize.ShloMosaic Idealize.ShloMosaic.ValueIdx Cert.KernelIdeal Cert.KernelIdeal.Gen Cert.LibDenseRows Cert.LibNormRows

/-! ## The plain dense kernels -/

/-- A dense layer whose three operands first pass through reshapes to their own shapes, the two factors also through
    a narrowing of the format: on the extended reals the reshapes and the narrowing change nothing, and entry (p, q)
    is row p through the layer. -/
theorem dense_pay_apply {m k n : ℕ} (x : FVec Ideal ⟨2, ![m, k]⟩ .f32) (W : FVec Ideal ⟨2, ![k, n]⟩ .f32)
    (b : FVec Ideal ⟨2, ![1, n]⟩ .f32)
    (hx : (⟨2, ![m, k]⟩ : Shape).ShapeCasts ⟨2, ![m, k]⟩) (hW : (⟨2, ![k, n]⟩ : Shape).ShapeCasts ⟨2, ![k, n]⟩)
    (hb : (⟨2, ![1, n]⟩ : Shape).ShapeCasts ⟨2, ![1, n]⟩) (hlt : FTy.bits .bf16 < FTy.bits .f32)
    (hbb : (⟨2, ![1, n]⟩ : Shape).Broadcasts ⟨2, ![m, n]⟩)
    (d : DotDims ⟨2, ![m, k]⟩ ⟨2, ![k, n]⟩ ⟨2, ![m, n]⟩) (hd : d = DotDims.plain m k n) (p : Fin m) (q : Fin n) :
    addf (matmul d none (truncf .bf16 (shapeCast ⟨2, ![m, k]⟩ x hx) hlt) (truncf .bf16 (shapeCast ⟨2, ![k, n]⟩ W hW) hlt)
          (constant ⟨2, ![m, n]⟩ .f32 0x00000000#32))
        (broadcastTo ⟨2, ![m, n]⟩ (shapeCast ⟨2, ![1, n]⟩ b hb) hbb) (ix2 p q)
      = denseRow (fun c => x (ix2 p c)) W b q := by
  subst hd
  rw [shapeCast_self, shapeCast_self, shapeCast_self]
  exact kernel_dense_apply (truncf .bf16 x hlt) (truncf .bf16 W hlt) b hbb p q

theorem pay1_apply (x : FVec Ideal S2000x68 .f32) (W : FVec Ideal S68x100 .f32) (b : FVec Ideal S1x100 .f32)
    (p : Fin 2000) (q : Fin 100) :
    k1_pay1 (F := Ideal) x W b (ix2 p q) = denseRow (fun c => x (ix2 p c)) W b q :=
  dense_pay_apply x W b _ _ _ _ _ dot_S2000x68_S68x100_S2000x100_1_0_0_1_n_n rfl p q

theorem pay2_apply (x : FVec Ideal S2000x68 .f32) (W : FVec Ideal S68x100 .f32) (b : FVec Ideal S1x100 .f32)
    (p : Fin 2000) (q : Fin 100) :
    k2_pay1 (F := Ideal) x W b (ix2 p q) = denseRow (fun c => x (ix2 p c)) W b q :=
  dense_pay_apply x W b _ _ _ _ _ dot_S2000x68_S68x100_S2000x100_1_0_0_1_n_n rfl p q

theorem pay3_apply (x : FVec Ideal S2000x68 .f32) (W : FVec Ideal S68x100 .f32) (b : FVec Ideal S1x100 .f32)
    (p : Fin 2000) (q : Fin 100) :
    k3_pay1 (F := Ideal) x W b (ix2 p q) = denseRow (fun c => x (ix2 p c)) W b q :=
  dense_pay_apply x W b _ _ _ _ _ dot_S2000x68_S68x100_S2000x100_1_0_0_1_n_n rfl p q

theorem pay4_apply (x : FVec Ideal S2000x68 .f32) (W : FVec Ideal S68x100 .f32) (b : FVec Ideal S1x100 .f32)
    (p : Fin 2000) (q : Fin 100) :
    k4_pay1 (F := Ideal) x W b (ix2 p q) = denseRow (fun c => x (ix2 p c)) W b q :=
  dense_pay_apply x W b _ _ _ _ _ dot_S2000x68_S68x100_S2000x100_1_0_0_1_n_n rfl p q

theorem pay7_apply (x : FVec Ideal S2000x106 .f32) (W : FVec Ideal S106x100 .f32) (b : FVec Ideal S1x100 .f32)
    (p : Fin 2000) (q : Fin 100) :
    k7_pay1 (F := Ideal) x W b (ix2 p q) = denseRow (fun c => x (ix2 p c)) W b q :=
  dense_pay_apply x W b _ _ _ _ _ dot_S2000x106_S106x100_S2000x100_1_0_0_1_n_n rfl p q

theorem pay8_apply (x : FVec Ideal S2000x106 .f32) (W : FVec Ideal S106x100 .f32) (b : FVec Ideal S1x100 .f32)
    (p : Fin 2000) (q : Fin 100) :
    k8_pay1 (F := Ideal) x W b (ix2 p q) = denseRow (fun c => x (ix2 p c)) W b q :=
  dense_pay_apply x W b _ _ _ _ _ dot_S2000x106_S106x100_S2000x100_1_0_0_1_n_n rfl p q

theorem pay9_apply (x : FVec Ideal S2000x106 .f32) (W : FVec Ideal S106x100 .f32) (b : FVec Ideal S1x100 .f32)
    (p : Fin 2000) (q : Fin 100) :
    k9_pay1 (F := Ideal) x W b (ix2 p q) = denseRow (fun c => x (ix2 p c)) W b q :=
  dense_pay_apply x W b _ _ _ _ _ dot_S2000x106_S106x100_S2000x100_1_0_0_1_n_n rfl p q

theorem pay10_apply (x : FVec Ideal S2000x106 .f32) (W : FVec Ideal S106x100 .f32) (b : FVec Ideal S1x100 .f32)
    (p : Fin 2000) (q : Fin 100) :
    k10_pay1 (F := Ideal) x W b (ix2 p q) = denseRow (fun c => x (ix2 p c)) W b q :=
  dense_pay_apply x W b _ _ _ _ _ dot_S2000x106_S106x100_S2000x100_1_0_0_1_n_n rfl p q

/-! ## The two finishing kernels: a dense layer plus the gathered parts, normalised and rectified -/

theorem pay5_apply (x : FVec Ideal S2000x62 .f32) (W : FVec Ideal S62x100 .f32) (b : FVec Ideal S1x100 .f32)
    (d : FVec Ideal S2000x100 .f32) (p : Fin 2000) (q : Fin 100) :
    k5_pay1 (F := Ideal) x W b d (ix2 p q)
      = normReluRow (fun j => denseRow (fun c => x (ix2 p c)) W b j + d (ix2 p j)) q := by
  unfold k5_pay1
  simp only [shapeCast_self]
  exact kernel_dense_norm_apply (truncf .bf16 x bitsLt_bf16_f32) (truncf .bf16 W bitsLt_bf16_f32) b d
    broadcasts_S1x100_S2000x100 reduces_S2000x100_S2000 (.inl rfl) rfl shapeCasts_S2000_S2000x1
    broadcasts_S2000x1_S2000x100 p q

theorem pay11_apply (x : FVec Ideal S2000x100 .f32) (W : FVec Ideal S100x100 .f32) (b : FVec Ideal S1x100 .f32)
    (d : FVec Ideal S2000x100 .f32) (p : Fin 2000) (q : Fin 100) :
    k11_pay1 (F := Ideal) x W b d (ix2 p q)
      = normReluRow (fun j => denseRow (fun c => x (ix2 p c)) W b j + d (ix2 p j)) q := by
  unfold k11_pay1
  simp only [shapeCast_self]
  exact kernel_dense_norm_apply (truncf .bf16 x bitsLt_bf16_f32) (truncf .bf16 W bitsLt_bf16_f32) b d
    broadcasts_S1x100_S2000x100 reduces_S2000x100_S2000 (.inl rfl) rfl shapeCasts_S2000_S2000x1
    broadcasts_S2000x1_S2000x100 p q

end Cert.KernelIdeal.Val

end
-- ==== Proof.KI.Value1.lean ====
/-
  What pallas_call 1 leaves in its result array at the ideal instance: the dense layer of its first input.
  Point t writes rows 2000·t … 2000·t + 1999; at (p, q) of its block the body's value depends on the first input only
  through row p of the block, which is row 2000·t + p of the array, and the blocks cover the result array.
-/
import proofs.«143046_j34703335751794_1_alg».proof.Proof.KI.Cover1
import proofs.«143046_j34703335751794_1_alg».proof.Proof.Val.Norm

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Cert.LibDenseRows Cert.LibNormRows Cert.KernelIdeal.Val

variable (V : (c : Dev nD) → (b : Ref sig .tc) → Buf (Elt Ideal) ((c : Thread nD τ).loc b))

theorem corner1 : (![0, 0] : Fin 2 → Nat) = fun _ => 0 := funext fun a => by fin_cases a <;> rfl

theorem value1 (c : Dev nD) :
    (dat1 (F := Ideal) V c).arrAt 3 cfg1.N = denseArr (m := 40000) (k := 68) (n := 100) (V c main_v22) (V c main_v24) (V c main_v27) := by
  refine (dat1 (F := Ideal) V c).arrAt_eq_of_cover 3 _ (fun t _ => ?_) (covered1)
  show (cfg1.win 3).cut (grid1.coords t) ((dat1 (F := Ideal) V c).after 3 t) = _
  rw [left1_3]
  funext y
  obtain ⟨p, q, rfl⟩ : ∃ (p : Fin 2000) (q : Fin 100), y = ix2 p q := ⟨y 0, y 1, eq_ix2 y⟩
  have ht : t.val < 20 := lt_of_lt_of_eq t.isLt pts1
  have hb : t.val * 2000 + p.val < 40000 := by have := p.isLt; omega
  have e0 : ((cfg1.win 3).blk t).view.emb (ix2 p q) = ix2 (⟨t.val * 2000 + p.val, hb⟩ : Fin 40000) q :=
    funext fun a => Fin.ext (by
      match a with
      | ⟨0, _⟩ => exact outRow1 t (ix2 p q)
      | ⟨1, _⟩ => exact outCol1 t (ix2 p q))
  show stored1 (blk1 V c 0 t : Vec Ideal S2000x68 .f32) (blk1 V c 1 t : Vec Ideal S68x100 .f32) (blk1 V c 2 t : Vec Ideal S1x100 .f32) (ix2 p q)
      = (denseArr (m := 40000) (k := 68) (n := 100) (V c main_v22) (V c main_v24) (V c main_v27)) (((cfg1.win 3).blk t).view.emb (ix2 p q))
  rw [e0]
  unfold stored1
  rw [View.canon_unit_zero corner1]
  simp only [View.ld_unit_zero (S := S2000x68) corner1, View.ld_unit_zero (S := S68x100) corner1, View.ld_unit_zero (S := S1x100) corner1]
  refine (pay1_apply (blk1 V c 0 t : Vec Ideal S2000x68 .f32) (blk1 V c 1 t : Vec Ideal S68x100 .f32) (blk1 V c 2 t : Vec Ideal S1x100 .f32) p q).trans ?_
  show denseRow (fun cc => (blk1 V c 0 t : Vec Ideal S2000x68 .f32) (ix2 p cc)) (blk1 V c 1 t : Vec Ideal S68x100 .f32) (blk1 V c 2 t : Vec Ideal S1x100 .f32) q = denseRow (fun cc => V c main_v22 (ix2 (⟨t.val * 2000 + p.val, hb⟩ : Fin 40000) cc)) (V c main_v24) (V c main_v27) q
  have h0 : (fun cc => (blk1 V c 0 t : Vec Ideal S2000x68 .f32) (ix2 p cc)) = fun cc => V c main_v22 (ix2 (⟨t.val * 2000 + p.val, hb⟩ : Fin 40000) cc) :=
    funext fun cc => rows1_0 V c t p cc hb
  have h1 : (blk1 V c 1 t : Vec Ideal S68x100 .f32) = V c main_v24 := funext (all1_1 V c t)
  have h2 : (blk1 V c 2 t : Vec Ideal S1x100 .f32) = V c main_v27 := funext (all1_2 V c t)
  rw [h0, h1, h2]

end Cert.KernelIdeal.Fr

end
-- ==== Proof.KI.Cover2.lean ====
/-
  pallas_call 2: where its blocks sit in their arrays. Grid point t handles rows 2000·t … 2000·t + 1999: the blocks of the
  row-blocked windows (the first input and the output) are those rows, full width; the weight and the bias row
  are whole at every point. So a row-blocked window's block at (p, q) is its array at (2000·t + p, q), a whole window's block
  is its array, and the output's blocks cover its array: row r lies in the block of point r / 2000.
-/
import proofs.«143046_j34703335751794_1_alg».proof.Proof.KI.Region2
import Idealize.ShloMosaic.Lib.Pipeline.Value
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (V : (c : Dev nD) → (b : Ref sig .tc) → Buf (Elt F) ((c : Thread nD τ).loc b))

/-- The printed index maps, decided over the grid. -/
theorem maps2 : ∀ t : Fin cfg2.N, win2_0.index t (0 : Fin 2) = t.val
    ∧ win2_0.index t (1 : Fin 2) = 0
    ∧ win2_3.index t (0 : Fin 2) = t.val
    ∧ win2_3.index t (1 : Fin 2) = 0
    ∧ win2_1.index t (0 : Fin 2) = 0
    ∧ win2_1.index t (1 : Fin 2) = 0
    ∧ win2_2.index t (0 : Fin 2) = 0
    ∧ win2_2.index t (1 : Fin 2) = 0 :=
  (by decide +kernel : ∀ t : Fin grid2.N, _)

theorem pts2 : cfg2.N = 30 := N_2

/-- A row-blocked input's block at (p, q) is its array at (2000·t + p, q). -/
theorem rows2_0 (c : Dev nD) (t : Fin cfg2.N) (p : Fin 2000) (q : Fin 68) (hb : t.val * 2000 + p.val < 60000) :
    blk2 V c 0 t (ix2 p q) = V c main_v45 (ix2 (⟨t.val * 2000 + p.val, hb⟩ : Fin 60000) q) := by
  show V c main_v45 (((cfg2.win 0).blk t).view.emb (ix2 p q)) = _
  refine congrArg _ (funext fun a => Fin.ext ?_)
  obtain ⟨h0, h1, h2, h3, h4, h5, h6, h7⟩ := maps2 t
  match a with
  | ⟨0, _⟩ => show win2_0.index t (0 : Fin 2) * 2000 + 1 * p.val = t.val * 2000 + p.val; omega
  | ⟨1, _⟩ => show win2_0.index t (1 : Fin 2) * 68 + 1 * q.val = q.val; omega

/-- A whole window's block is its array. -/
theorem all2_1 (c : Dev nD) (t : Fin cfg2.N) (y : S68x100.Idx) : blk2 V c 1 t y = V c main_v47 y := by
  show V c main_v47 (((cfg2.win 1).blk t).view.emb y) = _
  refine congrArg _ (funext fun a => Fin.ext ?_)
  obtain ⟨h0, h1, h2, h3, h4, h5, h6, h7⟩ := maps2 t
  match a with
  | ⟨0, _⟩ => show win2_1.index t (0 : Fin 2) * 68 + 1 * (y 0).val = (y 0).val; omega
  | ⟨1, _⟩ => show win2_1.index t (1 : Fin 2) * 100 + 1 * (y 1).val = (y 1).val; omega

/-- A whole window's block is its array. -/
theorem all2_2 (c : Dev nD) (t : Fin cfg2.N) (y : S1x100.Idx) : blk2 V c 2 t y = V c main_v50 y := by
  show V c main_v50 (((cfg2.win 2).blk t).view.emb y) = _
  refine congrArg _ (funext fun a => Fin.ext ?_)
  obtain ⟨h0, h1, h2, h3, h4, h5, h6, h7⟩ := maps2 t
  match a with
  | ⟨0, _⟩ => show win2_2.index t (0 : Fin 2) * 1 + 1 * (y 0).val = (y 0).val; omega
  | ⟨1, _⟩ => show win2_2.index t (1 : Fin 2) * 100 + 1 * (y 1).val = (y 1).val; omega

/-- Where the output's block sits: (p, q) of point t's block is (2000·t + p, q) of the array. -/
theorem outRow2 (t : Fin cfg2.N) (y : S2000x100.Idx) :
    (((cfg2.win 3).blk t).view.emb y (0 : Fin 2)).val = t.val * 2000 + (y 0).val := by
  obtain ⟨h0, h1, h2, h3, h4, h5, h6, h7⟩ := maps2 t
  show win2_3.index t (0 : Fin 2) * 2000 + 1 * (y 0).val = _
  omega
theorem outCol2 (t : Fin cfg2.N) (y : S2000x100.Idx) :
    (((cfg2.win 3).blk t).view.emb y (1 : Fin 2)).val = (y 1).val := by
  obtain ⟨h0, h1, h2, h3, h4, h5, h6, h7⟩ := maps2 t
  show win2_3.index t (1 : Fin 2) * 100 + 1 * (y 1).val = _
  omega

/-- An index of the output array is in point t's block iff its row is among the point's rows. -/
theorem inBlock2 (t : Fin cfg2.N) (i : S60000x100.Idx) :
    i ∈ ((cfg2.win 3).blk t).view.set ↔ ∀ a : Fin 2, win2_3.index t a * S2000x100.size a ≤ (i a).val ∧ (i a).val < win2_3.index t a * S2000x100.size a + S2000x100.size a := by
  show i ∈ ((View.whole main_v51).slice (win2_3.rect t)).set ↔ _
  rw [View.set_slice_whole, Rect.mem_set_unit]
  exact Iff.rfl

/-- The output's blocks cover its array. -/
theorem covered2 (i : S60000x100.Idx) : ∃ t : Fin cfg2.N, (cfg2.win 3).flush t = true ∧ i ∈ ((cfg2.win 3).blk t).view.set := by
  have hi0 : (i 0).val < 60000 := (i 0).isLt
  have hi1 : (i 1).val < 100 := (i 1).isLt
  refine ⟨⟨(i 0).val / 2000, by rw [pts2]; omega⟩, flush2_3 _, ?_⟩
  rw [inBlock2]
  obtain ⟨h0, h1, h2, h3, h4, h5, h6, h7⟩ := maps2 ⟨(i 0).val / 2000, by rw [pts2]; omega⟩
  intro a
  match a with
  | ⟨0, _⟩ => show win2_3.index _ (0 : Fin 2) * 2000 ≤ (i 0).val ∧ (i 0).val < win2_3.index _ (0 : Fin 2) * 2000 + 2000; simp only at *; omega
  | ⟨1, _⟩ => show win2_3.index _ (1 : Fin 2) * 100 ≤ (i 1).val ∧ (i 1).val < win2_3.index _ (1 : Fin 2) * 100 + 100; simp only at *; omega

end Cert.KernelIdeal.Fr

end
-- ==== Proof.KI.Value2.lean ====
/-
  What pallas_call 2 leaves in its result array at the ideal instance: the dense layer of its first input.
  Point t writes rows 2000·t … 2000·t + 1999; at (p, q) of its block the body's value depends on the first input only
  through row p of the block, which is row 2000·t + p of the array, and the blocks cover the result array.
-/
import proofs.«143046_j34703335751794_1_alg».proof.Proof.KI.Cover2
import proofs.«143046_j34703335751794_1_alg».proof.Proof.Val.Norm

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Cert.LibDenseRows Cert.LibNormRows Cert.KernelIdeal.Val

variable (V : (c : Dev nD) → (b : Ref sig .tc) → Buf (Elt Ideal) ((c : Thread nD τ).loc b))

theorem corner2 : (![0, 0] : Fin 2 → Nat) = fun _ => 0 := funext fun a => by fin_cases a <;> rfl

theorem value2 (c : Dev nD) :
    (dat2 (F := Ideal) V c).arrAt 3 cfg2.N = denseArr (m := 60000) (k := 68) (n := 100) (V c main_v45) (V c main_v47) (V c main_v50) := by
  refine (dat2 (F := Ideal) V c).arrAt_eq_of_cover 3 _ (fun t _ => ?_) (covered2)
  show (cfg2.win 3).cut (grid2.coords t) ((dat2 (F := Ideal) V c).after 3 t) = _
  rw [left2_3]
  funext y
  obtain ⟨p, q, rfl⟩ : ∃ (p : Fin 2000) (q : Fin 100), y = ix2 p q := ⟨y 0, y 1, eq_ix2 y⟩
  have ht : t.val < 30 := lt_of_lt_of_eq t.isLt pts2
  have hb : t.val * 2000 + p.val < 60000 := by have := p.isLt; omega
  have e0 : ((cfg2.win 3).blk t).view.emb (ix2 p q) = ix2 (⟨t.val * 2000 + p.val, hb⟩ : Fin 60000) q :=
    funext fun a => Fin.ext (by
      match a with
      | ⟨0, _⟩ => exact outRow2 t (ix2 p q)
      | ⟨1, _⟩ => exact outCol2 t (ix2 p q))
  show stored2 (blk2 V c 0 t : Vec Ideal S2000x68 .f32) (blk2 V c 1 t : Vec Ideal S68x100 .f32) (blk2 V c 2 t : Vec Ideal S1x100 .f32) (ix2 p q)
      = (denseArr (m := 60000) (k := 68) (n := 100) (V c main_v45) (V c main_v47) (V c main_v50)) (((cfg2.win 3).blk t).view.emb (ix2 p q))
  rw [e0]
  unfold stored2
  rw [View.canon_unit_zero corner2]
  simp only [View.ld_unit_zero (S := S2000x68) corner2, View.ld_unit_zero (S := S68x100) corner2, View.ld_unit_zero (S := S1x100) corner2]
  refine (pay2_apply (blk2 V c 0 t : Vec Ideal S2000x68 .f32) (blk2 V c 1 t : Vec Ideal S68x100 .f32) (blk2 V c 2 t : Vec Ideal S1x100 .f32) p q).trans ?_
  show denseRow (fun cc => (blk2 V c 0 t : Vec Ideal S2000x68 .f32) (ix2 p cc)) (blk2 V c 1 t : Vec Ideal S68x100 .f32) (blk2 V c 2 t : Vec Ideal S1x100 .f32) q = denseRow (fun cc => V c main_v45 (ix2 (⟨t.val * 2000 + p.val, hb⟩ : Fin 60000) cc)) (V c main_v47) (V c main_v50) q
  have h0 : (fun cc => (blk2 V c 0 t : Vec Ideal S2000x68 .f32) (ix2 p cc)) = fun cc => V c main_v45 (ix2 (⟨t.val * 2000 + p.val, hb⟩ : Fin 60000) cc) :=
    funext fun cc => rows2_0 V c t p cc hb
  have h1 : (blk2 V c 1 t : Vec Ideal S68x100 .f32) = V c main_v47 := funext (all2_1 V c t)
  have h2 : (blk2 V c 2 t : Vec Ideal S1x100 .f32) = V c main_v50 := funext (all2_2 V c t)
  rw [h0, h1, h2]

end Cert.KernelIdeal.Fr

end
-- ==== Proof.KI.Cover3.lean ====
/-
  pallas_call 3: where its blocks sit in their arrays. Grid point t handles rows 2000·t … 2000·t + 1999: the blocks of the
  row-blocked windows (the first input and the output) are those rows, full width; the weight and the bias row
  are whole at every point. So a row-blocked window's block at (p, q) is its array at (2000·t + p, q), a whole window's block
  is its array, and the output's blocks cover its array: row r lies in the block of point r / 2000.
-/
import proofs.«143046_j34703335751794_1_alg».proof.Proof.KI.Region3
import Idealize.ShloMosaic.Lib.Pipeline.Value
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (V : (c : Dev nD) → (b : Ref sig .tc) → Buf (Elt F) ((c : Thread nD τ).loc b))

/-- The printed index maps, decided over the grid. -/
theorem maps3 : ∀ t : Fin cfg3.N, win3_0.index t (0 : Fin 2) = t.val
    ∧ win3_0.index t (1 : Fin 2) = 0
    ∧ win3_3.index t (0 : Fin 2) = t.val
    ∧ win3_3.index t (1 : Fin 2) = 0
    ∧ win3_1.index t (0 : Fin 2) = 0
    ∧ win3_1.index t (1 : Fin 2) = 0
    ∧ win3_2.index t (0 : Fin 2) = 0
    ∧ win3_2.index t (1 : Fin 2) = 0 :=
  (by decide +kernel : ∀ t : Fin grid3.N, _)

theorem pts3 : cfg3.N = 30 := N_3

/-- A row-blocked input's block at (p, q) is its array at (2000·t + p, q). -/
theorem rows3_0 (c : Dev nD) (t : Fin cfg3.N) (p : Fin 2000) (q : Fin 68) (hb : t.val * 2000 + p.val < 60000) :
    blk3 V c 0 t (ix2 p q) = V c main_v68 (ix2 (⟨t.val * 2000 + p.val, hb⟩ : Fin 60000) q) := by
  show V c main_v68 (((cfg3.win 0).blk t).view.emb (ix2 p q)) = _
  refine congrArg _ (funext fun a => Fin.ext ?_)
  obtain ⟨h0, h1, h2, h3, h4, h5, h6, h7⟩ := maps3 t
  match a with
  | ⟨0, _⟩ => show win3_0.index t (0 : Fin 2) * 2000 + 1 * p.val = t.val * 2000 + p.val; omega
  | ⟨1, _⟩ => show win3_0.index t (1 : Fin 2) * 68 + 1 * q.val = q.val; omega

/-- A whole window's block is its array. -/
theorem all3_1 (c : Dev nD) (t : Fin cfg3.N) (y : S68x100.Idx) : blk3 V c 1 t y = V c main_v70 y := by
  show V c main_v70 (((cfg3.win 1).blk t).view.emb y) = _
  refine congrArg _ (funext fun a => Fin.ext ?_)
  obtain ⟨h0, h1, h2, h3, h4, h5, h6, h7⟩ := maps3 t
  match a with
  | ⟨0, _⟩ => show win3_1.index t (0 : Fin 2) * 68 + 1 * (y 0).val = (y 0).val; omega
  | ⟨1, _⟩ => show win3_1.index t (1 : Fin 2) * 100 + 1 * (y 1).val = (y 1).val; omega

/-- A whole window's block is its array. -/
theorem all3_2 (c : Dev nD) (t : Fin cfg3.N) (y : S1x100.Idx) : blk3 V c 2 t y = V c main_v73 y := by
  show V c main_v73 (((cfg3.win 2).blk t).view.emb y) = _
  refine congrArg _ (funext fun a => Fin.ext ?_)
  obtain ⟨h0, h1, h2, h3, h4, h5, h6, h7⟩ := maps3 t
  match a with
  | ⟨0, _⟩ => show win3_2.index t (0 : Fin 2) * 1 + 1 * (y 0).val = (y 0).val; omega
  | ⟨1, _⟩ => show win3_2.index t (1 : Fin 2) * 100 + 1 * (y 1).val = (y 1).val; omega

/-- Where the output's block sits: (p, q) of point t's block is (2000·t + p, q) of the array. -/
theorem outRow3 (t : Fin cfg3.N) (y : S2000x100.Idx) :
    (((cfg3.win 3).blk t).view.emb y (0 : Fin 2)).val = t.val * 2000 + (y 0).val := by
  obtain ⟨h0, h1, h2, h3, h4, h5, h6, h7⟩ := maps3 t
  show win3_3.index t (0 : Fin 2) * 2000 + 1 * (y 0).val = _
  omega
theorem outCol3 (t : Fin cfg3.N) (y : S2000x100.Idx) :
    (((cfg3.win 3).blk t).view.emb y (1 : Fin 2)).val = (y 1).val := by
  obtain ⟨h0, h1, h2, h3, h4, h5, h6, h7⟩ := maps3 t
  show win3_3.index t (1 : Fin 2) * 100 + 1 * (y 1).val = _
  omega

/-- An index of the output array is in point t's block iff its row is among the point's rows. -/
theorem inBlock3 (t : Fin cfg3.N) (i : S60000x100.Idx) :
    i ∈ ((cfg3.win 3).blk t).view.set ↔ ∀ a : Fin 2, win3_3.index t a * S2000x100.size a ≤ (i a).val ∧ (i a).val < win3_3.index t a * S2000x100.size a + S2000x100.size a := by
  show i ∈ ((View.whole main_v74).slice (win3_3.rect t)).set ↔ _
  rw [View.set_slice_whole, Rect.mem_set_unit]
  exact Iff.rfl

/-- The output's blocks cover its array. -/
theorem covered3 (i : S60000x100.Idx) : ∃ t : Fin cfg3.N, (cfg3.win 3).flush t = true ∧ i ∈ ((cfg3.win 3).blk t).view.set := by
  have hi0 : (i 0).val < 60000 := (i 0).isLt
  have hi1 : (i 1).val < 100 := (i 1).isLt
  refine ⟨⟨(i 0).val / 2000, by rw [pts3]; omega⟩, flush3_3 _, ?_⟩
  rw [inBlock3]
  obtain ⟨h0, h1, h2, h3, h4, h5, h6, h7⟩ := maps3 ⟨(i 0).val / 2000, by rw [pts3]; omega⟩
  intro a
  match a with
  | ⟨0, _⟩ => show win3_3.index _ (0 : Fin 2) * 2000 ≤ (i 0).val ∧ (i 0).val < win3_3.index _ (0 : Fin 2) * 2000 + 2000; simp only at *; omega
  | ⟨1, _⟩ => show win3_3.index _ (1 : Fin 2) * 100 ≤ (i 1).val ∧ (i 1).val < win3_3.index _ (1 : Fin 2) * 100 + 100; simp only at *; omega

end Cert.KernelIdeal.Fr

end
-- ==== Proof.KI.Value3.lean ====
/-
  What pallas_call 3 leaves in its result array at the ideal instance: the dense layer of its first input.
  Point t writes rows 2000·t … 2000·t + 1999; at (p, q) of its block the body's value depends on the first input only
  through row p of the block, which is row 2000·t + p of the array, and the blocks cover the result array.
-/
import proofs.«143046_j34703335751794_1_alg».proof.Proof.KI.Cover3
import proofs.«143046_j34703335751794_1_alg».proof.Proof.Val.Norm

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Cert.LibDenseRows Cert.LibNormRows Cert.KernelIdeal.Val

variable (V : (c : Dev nD) → (b : Ref sig .tc) → Buf (Elt Ideal) ((c : Thread nD τ).loc b))

theorem corner3 : (![0, 0] : Fin 2 → Nat) = fun _ => 0 := funext fun a => by fin_cases a <;> rfl

theorem value3 (c : Dev nD) :
    (dat3 (F := Ideal) V c).arrAt 3 cfg3.N = denseArr (m := 60000) (k := 68) (n := 100) (V c main_v68) (V c main_v70) (V c main_v73) := by
  refine (dat3 (F := Ideal) V c).arrAt_eq_of_cover 3 _ (fun t _ => ?_) (covered3)
  show (cfg3.win 3).cut (grid3.coords t) ((dat3 (F := Ideal) V c).after 3 t) = _
  rw [left3_3]
  funext y
  obtain ⟨p, q, rfl⟩ : ∃ (p : Fin 2000) (q : Fin 100), y = ix2 p q := ⟨y 0, y 1, eq_ix2 y⟩
  have ht : t.val < 30 := lt_of_lt_of_eq t.isLt pts3
  have hb : t.val * 2000 + p.val < 60000 := by have := p.isLt; omega
  have e0 : ((cfg3.win 3).blk t).view.emb (ix2 p q) = ix2 (⟨t.val * 2000 + p.val, hb⟩ : Fin 60000) q :=
    funext fun a => Fin.ext (by
      match a with
      | ⟨0, _⟩ => exact outRow3 t (ix2 p q)
      | ⟨1, _⟩ => exact outCol3 t (ix2 p q))
  show stored3 (blk3 V c 0 t : Vec Ideal S2000x68 .f32) (blk3 V c 1 t : Vec Ideal S68x100 .f32) (blk3 V c 2 t : Vec Ideal S1x100 .f32) (ix2 p q)
      = (denseArr (m := 60000) (k := 68) (n := 100) (V c main_v68) (V c main_v70) (V c main_v73)) (((cfg3.win 3).blk t).view.emb (ix2 p q))
  rw [e0]
  unfold stored3
  rw [View.canon_unit_zero corner3]
  simp only [View.ld_unit_zero (S := S2000x68) corner3, View.ld_unit_zero (S := S68x100) corner3, View.ld_unit_zero (S := S1x100) corner3]
  refine (pay3_apply (blk3 V c 0 t : Vec Ideal S2000x68 .f32) (blk3 V c 1 t : Vec Ideal S68x100 .f32) (blk3 V c 2 t : Vec Ideal S1x100 .f32) p q).trans ?_
  show denseRow (fun cc => (blk3 V c 0 t : Vec Ideal S2000x68 .f32) (ix2 p cc)) (blk3 V c 1 t : Vec Ideal S68x100 .f32) (blk3 V c 2 t : Vec Ideal S1x100 .f32) q = denseRow (fun cc => V c main_v68 (ix2 (⟨t.val * 2000 + p.val, hb⟩ : Fin 60000) cc)) (V c main_v70) (V c main_v73) q
  have h0 : (fun cc => (blk3 V c 0 t : Vec Ideal S2000x68 .f32) (ix2 p cc)) = fun cc => V c main_v68 (ix2 (⟨t.val * 2000 + p.val, hb⟩ : Fin 60000) cc) :=
    funext fun cc => rows3_0 V c t p cc hb
  have h1 : (blk3 V c 1 t : Vec Ideal S68x100 .f32) = V c main_v70 := funext (all3_1 V c t)
  have h2 : (blk3 V c 2 t : Vec Ideal S1x100 .f32) = V c main_v73 := funext (all3_2 V c t)
  rw [h0, h1, h2]

end Cert.KernelIdeal.Fr

end
-- ==== Proof.KI.Cover4.lean ====
/-
  pallas_call 4: where its blocks sit in their arrays. Grid point t handles rows 2000·t … 2000·t + 1999: the blocks of the
  row-blocked windows (the first input and the output) are those rows, full width; the weight and the bias row
  are whole at every point. So a row-blocked window's block at (p, q) is its array at (2000·t + p, q), a whole window's block
  is its array, and the output's blocks cover its array: row r lies in the block of point r / 2000.
-/
import proofs.«143046_j34703335751794_1_alg».proof.Proof.KI.Region4
import Idealize.ShloMosaic.Lib.Pipeline.Value
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (V : (c : Dev nD) → (b : Ref sig .tc) → Buf (Elt F) ((c : Thread nD τ).loc b))

/-- The printed index maps, decided over the grid. -/
theorem maps4 : ∀ t : Fin cfg4.N, win4_0.index t (0 : Fin 2) = t.val
    ∧ win4_0.index t (1 : Fin 2) = 0
    ∧ win4_3.index t (0 : Fin 2) = t.val
    ∧ win4_3.index t (1 : Fin 2) = 0
    ∧ win4_1.index t (0 : Fin 2) = 0
    ∧ win4_1.index t (1 : Fin 2) = 0
    ∧ win4_2.index t (0 : Fin 2) = 0
    ∧ win4_2.index t (1 : Fin 2) = 0 :=
  (by decide +kernel : ∀ t : Fin grid4.N, _)

theorem pts4 : cfg4.N = 20 := N_4

/-- A row-blocked input's block at (p, q) is its array at (2000·t + p, q). -/
theorem rows4_0 (c : Dev nD) (t : Fin cfg4.N) (p : Fin 2000) (q : Fin 68) (hb : t.val * 2000 + p.val < 40000) :
    blk4 V c 0 t (ix2 p q) = V c main_v91 (ix2 (⟨t.val * 2000 + p.val, hb⟩ : Fin 40000) q) := by
  show V c main_v91 (((cfg4.win 0).blk t).view.emb (ix2 p q)) = _
  refine congrArg _ (funext fun a => Fin.ext ?_)
  obtain ⟨h0, h1, h2, h3, h4, h5, h6, h7⟩ := maps4 t
  match a with
  | ⟨0, _⟩ => show win4_0.index t (0 : Fin 2) * 2000 + 1 * p.val = t.val * 2000 + p.val; omega
  | ⟨1, _⟩ => show win4_0.index t (1 : Fin 2) * 68 + 1 * q.val = q.val; omega

/-- A whole window's block is its array. -/
theorem all4_1 (c : Dev nD) (t : Fin cfg4.N) (y : S68x100.Idx) : blk4 V c 1 t y = V c main_v93 y := by
  show V c main_v93 (((cfg4.win 1).blk t).view.emb y) = _
  refine congrArg _ (funext fun a => Fin.ext ?_)
  obtain ⟨h0, h1, h2, h3, h4, h5, h6, h7⟩ := maps4 t
  match a with
  | ⟨0, _⟩ => show win4_1.index t (0 : Fin 2) * 68 + 1 * (y 0).val = (y 0).val; omega
  | ⟨1, _⟩ => show win4_1.index t (1 : Fin 2) * 100 + 1 * (y 1).val = (y 1).val; omega

/-- A whole window's block is its array. -/
theorem all4_2 (c : Dev nD) (t : Fin cfg4.N) (y : S1x100.Idx) : blk4 V c 2 t y = V c main_v96 y := by
  show V c main_v96 (((cfg4.win 2).blk t).view.emb y) = _
  refine congrArg _ (funext fun a => Fin.ext ?_)
  obtain ⟨h0, h1, h2, h3, h4, h5, h6, h7⟩ := maps4 t
  match a with
  | ⟨0, _⟩ => show win4_2.index t (0 : Fin 2) * 1 + 1 * (y 0).val = (y 0).val; omega
  | ⟨1, _⟩ => show win4_2.index t (1 : Fin 2) * 100 + 1 * (y 1).val = (y 1).val; omega

/-- Where the output's block sits: (p, q) of point t's block is (2000·t + p, q) of the array. -/
theorem outRow4 (t : Fin cfg4.N) (y : S2000x100.Idx) :
    (((cfg4.win 3).blk t).view.emb y (0 : Fin 2)).val = t.val * 2000 + (y 0).val := by
  obtain ⟨h0, h1, h2, h3, h4, h5, h6, h7⟩ := maps4 t
  show win4_3.index t (0 : Fin 2) * 2000 + 1 * (y 0).val = _
  omega
theorem outCol4 (t : Fin cfg4.N) (y : S2000x100.Idx) :
    (((cfg4.win 3).blk t).view.emb y (1 : Fin 2)).val = (y 1).val := by
  obtain ⟨h0, h1, h2, h3, h4, h5, h6, h7⟩ := maps4 t
  show win4_3.index t (1 : Fin 2) * 100 + 1 * (y 1).val = _
  omega

/-- An index of the output array is in point t's block iff its row is among the point's rows. -/
theorem inBlock4 (t : Fin cfg4.N) (i : S40000x100.Idx) :
    i ∈ ((cfg4.win 3).blk t).view.set ↔ ∀ a : Fin 2, win4_3.index t a * S2000x100.size a ≤ (i a).val ∧ (i a).val < win4_3.index t a * S2000x100.size a + S2000x100.size a := by
  show i ∈ ((View.whole main_v97).slice (win4_3.rect t)).set ↔ _
  rw [View.set_slice_whole, Rect.mem_set_unit]
  exact Iff.rfl

/-- The output's blocks cover its array. -/
theorem covered4 (i : S40000x100.Idx) : ∃ t : Fin cfg4.N, (cfg4.win 3).flush t = true ∧ i ∈ ((cfg4.win 3).blk t).view.set := by
  have hi0 : (i 0).val < 40000 := (i 0).isLt
  have hi1 : (i 1).val < 100 := (i 1).isLt
  refine ⟨⟨(i 0).val / 2000, by rw [pts4]; omega⟩, flush4_3 _, ?_⟩
  rw [inBlock4]
  obtain ⟨h0, h1, h2, h3, h4, h5, h6, h7⟩ := maps4 ⟨(i 0).val / 2000, by rw [pts4]; omega⟩
  intro a
  match a with
  | ⟨0, _⟩ => show win4_3.index _ (0 : Fin 2) * 2000 ≤ (i 0).val ∧ (i 0).val < win4_3.index _ (0 : Fin 2) * 2000 + 2000; simp only at *; omega
  | ⟨1, _⟩ => show win4_3.index _ (1 : Fin 2) * 100 ≤ (i 1).val ∧ (i 1).val < win4_3.index _ (1 : Fin 2) * 100 + 100; simp only at *; omega

end Cert.KernelIdeal.Fr

end
-- ==== Proof.KI.Value4.lean ====
/-
  What pallas_call 4 leaves in its result array at the ideal instance: the dense layer of its first input.
  Point t writes rows 2000·t … 2000·t + 1999; at (p, q) of its block the body's value depends on the first input only
  through row p of the block, which is row 2000·t + p of the array, and the blocks cover the result array.
-/
import proofs.«143046_j34703335751794_1_alg».proof.Proof.KI.Cover4
import proofs.«143046_j34703335751794_1_alg».proof.Proof.Val.Norm

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Cert.LibDenseRows Cert.LibNormRows Cert.KernelIdeal.Val

variable (V : (c : Dev nD) → (b : Ref sig .tc) → Buf (Elt Ideal) ((c : Thread nD τ).loc b))

theorem corner4 : (![0, 0] : Fin 2 → Nat) = fun _ => 0 := funext fun a => by fin_cases a <;> rfl

theorem value4 (c : Dev nD) :
    (dat4 (F := Ideal) V c).arrAt 3 cfg4.N = denseArr (m := 40000) (k := 68) (n := 100) (V c main_v91) (V c main_v93) (V c main_v96) := by
  refine (dat4 (F := Ideal) V c).arrAt_eq_of_cover 3 _ (fun t _ => ?_) (covered4)
  show (cfg4.win 3).cut (grid4.coords t) ((dat4 (F := Ideal) V c).after 3 t) = _
  rw [left4_3]
  funext y
  obtain ⟨p, q, rfl⟩ : ∃ (p : Fin 2000) (q : Fin 100), y = ix2 p q := ⟨y 0, y 1, eq_ix2 y⟩
  have ht : t.val < 20 := lt_of_lt_of_eq t.isLt pts4
  have hb : t.val * 2000 + p.val < 40000 := by have := p.isLt; omega
  have e0 : ((cfg4.win 3).blk t).view.emb (ix2 p q) = ix2 (⟨t.val * 2000 + p.val, hb⟩ : Fin 40000) q :=
    funext fun a => Fin.ext (by
      match a with
      | ⟨0, _⟩ => exact outRow4 t (ix2 p q)
      | ⟨1, _⟩ => exact outCol4 t (ix2 p q))
  show stored4 (blk4 V c 0 t : Vec Ideal S2000x68 .f32) (blk4 V c 1 t : Vec Ideal S68x100 .f32) (blk4 V c 2 t : Vec Ideal S1x100 .f32) (ix2 p q)
      = (denseArr (m := 40000) (k := 68) (n := 100) (V c main_v91) (V c main_v93) (V c main_v96)) (((cfg4.win 3).blk t).view.emb (ix2 p q))
  rw [e0]
  unfold stored4
  rw [View.canon_unit_zero corner4]
  simp only [View.ld_unit_zero (S := S2000x68) corner4, View.ld_unit_zero (S := S68x100) corner4, View.ld_unit_zero (S := S1x100) corner4]
  refine (pay4_apply (blk4 V c 0 t : Vec Ideal S2000x68 .f32) (blk4 V c 1 t : Vec Ideal S68x100 .f32) (blk4 V c 2 t : Vec Ideal S1x100 .f32) p q).trans ?_
  show denseRow (fun cc => (blk4 V c 0 t : Vec Ideal S2000x68 .f32) (ix2 p cc)) (blk4 V c 1 t : Vec Ideal S68x100 .f32) (blk4 V c 2 t : Vec Ideal S1x100 .f32) q = denseRow (fun cc => V c main_v91 (ix2 (⟨t.val * 2000 + p.val, hb⟩ : Fin 40000) cc)) (V c main_v93) (V c main_v96) q
  have h0 : (fun cc => (blk4 V c 0 t : Vec Ideal S2000x68 .f32) (ix2 p cc)) = fun cc => V c main_v91 (ix2 (⟨t.val * 2000 + p.val, hb⟩ : Fin 40000) cc) :=
    funext fun cc => rows4_0 V c t p cc hb
  have h1 : (blk4 V c 1 t : Vec Ideal S68x100 .f32) = V c main_v93 := funext (all4_1 V c t)
  have h2 : (blk4 V c 2 t : Vec Ideal S1x100 .f32) = V c main_v96 := funext (all4_2 V c t)
  rw [h0, h1, h2]

end Cert.KernelIdeal.Fr

end
-- ==== Proof.KI.Cover5.lean ====
/-
  pallas_call 5: where its blocks sit in their arrays. Grid point t handles rows 2000·t … 2000·t + 1999: the blocks of the
  row-blocked windows (the first input, the added array and the output) are those rows, full width; the weight and the bias row
  are whole at every point. So a row-blocked window's block at (p, q) is its array at (2000·t + p, q), a whole window's block
  is its array, and the output's blocks cover its array: row r lies in the block of point r / 2000.
-/
import proofs.«143046_j34703335751794_1_alg».proof.Proof.KI.Region5
import Idealize.ShloMosaic.Lib.Pipeline.Value
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (V : (c : Dev nD) → (b : Ref sig .tc) → Buf (Elt F) ((c : Thread nD τ).loc b))

/-- The printed index maps, decided over the grid. -/
theorem maps5 : ∀ t : Fin cfg5.N, win5_0.index t (0 : Fin 2) = t.val
    ∧ win5_0.index t (1 : Fin 2) = 0
    ∧ win5_3.index t (0 : Fin 2) = t.val
    ∧ win5_3.index t (1 : Fin 2) = 0
    ∧ win5_4.index t (0 : Fin 2) = t.val
    ∧ win5_4.index t (1 : Fin 2) = 0
    ∧ win5_1.index t (0 : Fin 2) = 0
    ∧ win5_1.index t (1 : Fin 2) = 0
    ∧ win5_2.index t (0 : Fin 2) = 0
    ∧ win5_2.index t (1 : Fin 2) = 0 :=
  (by decide +kernel : ∀ t : Fin grid5.N, _)

theorem pts5 : cfg5.N = 100 := N_5

/-- A row-blocked input's block at (p, q) is its array at (2000·t + p, q). -/
theorem rows5_0 (c : Dev nD) (t : Fin cfg5.N) (p : Fin 2000) (q : Fin 62) (hb : t.val * 2000 + p.val < 200000) :
    blk5 V c 0 t (ix2 p q) = V c main_arg0 (ix2 (⟨t.val * 2000 + p.val, hb⟩ : Fin 200000) q) := by
  show V c main_arg0 (((cfg5.win 0).blk t).view.emb (ix2 p q)) = _
  refine congrArg _ (funext fun a => Fin.ext ?_)
  obtain ⟨h0, h1, h2, h3, h4, h5, h6, h7, h8, h9⟩ := maps5 t
  match a with
  | ⟨0, _⟩ => show win5_0.index t (0 : Fin 2) * 2000 + 1 * p.val = t.val * 2000 + p.val; omega
  | ⟨1, _⟩ => show win5_0.index t (1 : Fin 2) * 62 + 1 * q.val = q.val; omega

/-- A row-blocked input's block at (p, q) is its array at (2000·t + p, q). -/
theorem rows5_3 (c : Dev nD) (t : Fin cfg5.N) (p : Fin 2000) (q : Fin 100) (hb : t.val * 2000 + p.val < 200000) :
    blk5 V c 3 t (ix2 p q) = V c main_v98 (ix2 (⟨t.val * 2000 + p.val, hb⟩ : Fin 200000) q) := by
  show V c main_v98 (((cfg5.win 3).blk t).view.emb (ix2 p q)) = _
  refine congrArg _ (funext fun a => Fin.ext ?_)
  obtain ⟨h0, h1, h2, h3, h4, h5, h6, h7, h8, h9⟩ := maps5 t
  match a with
  | ⟨0, _⟩ => show win5_3.index t (0 : Fin 2) * 2000 + 1 * p.val = t.val * 2000 + p.val; omega
  | ⟨1, _⟩ => show win5_3.index t (1 : Fin 2) * 100 + 1 * q.val = q.val; omega

/-- A whole window's block is its array. -/
theorem all5_1 (c : Dev nD) (t : Fin cfg5.N) (y : S62x100.Idx) : blk5 V c 1 t y = V c main_arg11 y := by
  show V c main_arg11 (((cfg5.win 1).blk t).view.emb y) = _
  refine congrArg _ (funext fun a => Fin.ext ?_)
  obtain ⟨h0, h1, h2, h3, h4, h5, h6, h7, h8, h9⟩ := maps5 t
  match a with
  | ⟨0, _⟩ => show win5_1.index t (0 : Fin 2) * 62 + 1 * (y 0).val = (y 0).val; omega
  | ⟨1, _⟩ => show win5_1.index t (1 : Fin 2) * 100 + 1 * (y 1).val = (y 1).val; omega

/-- A whole window's block is its array. -/
theorem all5_2 (c : Dev nD) (t : Fin cfg5.N) (y : S1x100.Idx) : blk5 V c 2 t y = V c main_v5 y := by
  show V c main_v5 (((cfg5.win 2).blk t).view.emb y) = _
  refine congrArg _ (funext fun a => Fin.ext ?_)
  obtain ⟨h0, h1, h2, h3, h4, h5, h6, h7, h8, h9⟩ := maps5 t
  match a with
  | ⟨0, _⟩ => show win5_2.index t (0 : Fin 2) * 1 + 1 * (y 0).val = (y 0).val; omega
  | ⟨1, _⟩ => show win5_2.index t (1 : Fin 2) * 100 + 1 * (y 1).val = (y 1).val; omega

/-- Where the output's block sits: (p, q) of point t's block is (2000·t + p, q) of the array. -/
theorem outRow5 (t : Fin cfg5.N) (y : S2000x100.Idx) :
    (((cfg5.win 4).blk t).view.emb y (0 : Fin 2)).val = t.val * 2000 + (y 0).val := by
  obtain ⟨h0, h1, h2, h3, h4, h5, h6, h7, h8, h9⟩ := maps5 t
  show win5_4.index t (0 : Fin 2) * 2000 + 1 * (y 0).val = _
  omega
theorem outCol5 (t : Fin cfg5.N) (y : S2000x100.Idx) :
    (((cfg5.win 4).blk t).view.emb y (1 : Fin 2)).val = (y 1).val := by
  obtain ⟨h0, h1, h2, h3, h4, h5, h6, h7, h8, h9⟩ := maps5 t
  show win5_4.index t (1 : Fin 2) * 100 + 1 * (y 1).val = _
  omega

/-- An index of the output array is in point t's block iff its row is among the point's rows. -/
theorem inBlock5 (t : Fin cfg5.N) (i : S200000x100.Idx) :
    i ∈ ((cfg5.win 4).blk t).view.set ↔ ∀ a : Fin 2, win5_4.index t a * S2000x100.size a ≤ (i a).val ∧ (i a).val < win5_4.index t a * S2000x100.size a + S2000x100.size a := by
  show i ∈ ((View.whole main_v99).slice (win5_4.rect t)).set ↔ _
  rw [View.set_slice_whole, Rect.mem_set_unit]
  exact Iff.rfl

/-- The output's blocks cover its array. -/
theorem covered5 (i : S200000x100.Idx) : ∃ t : Fin cfg5.N, (cfg5.win 4).flush t = true ∧ i ∈ ((cfg5.win 4).blk t).view.set := by
  have hi0 : (i 0).val < 200000 := (i 0).isLt
  have hi1 : (i 1).val < 100 := (i 1).isLt
  refine ⟨⟨(i 0).val / 2000, by rw [pts5]; omega⟩, flush5_4 _, ?_⟩
  rw [inBlock5]
  obtain ⟨h0, h1, h2, h3, h4, h5, h6, h7, h8, h9⟩ := maps5 ⟨(i 0).val / 2000, by rw [pts5]; omega⟩
  intro a
  match a with
  | ⟨0, _⟩ => show win5_4.index _ (0 : Fin 2) * 2000 ≤ (i 0).val ∧ (i 0).val < win5_4.index _ (0 : Fin 2) * 2000 + 2000; simp only at *; omega
  | ⟨1, _⟩ => show win5_4.index _ (1 : Fin 2) * 100 ≤ (i 1).val ∧ (i 1).val < win5_4.index _ (1 : Fin 2) * 100 + 100; simp only at *; omega

end Cert.KernelIdeal.Fr

end
-- ==== Proof.KI.Value5.lean ====
/-
  What pallas_call 5 leaves in its result array at the ideal instance: the dense layer of its first input plus the added array, each row divided by its norm (floored) and rectified.
  Point t writes rows 2000·t … 2000·t + 1999; at (p, q) of its block the body's value depends on the first input and the added array only
  through row p of the block, which is row 2000·t + p of the array, and the blocks cover the result array.
-/
import proofs.«143046_j34703335751794_1_alg».proof.Proof.KI.Cover5
import proofs.«143046_j34703335751794_1_alg».proof.Proof.Val.Norm

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Cert.LibDenseRows Cert.LibNormRows Cert.KernelIdeal.Val

variable (V : (c : Dev nD) → (b : Ref sig .tc) → Buf (Elt Ideal) ((c : Thread nD τ).loc b))

theorem corner5 : (![0, 0] : Fin 2 → Nat) = fun _ => 0 := funext fun a => by fin_cases a <;> rfl

theorem value5 (c : Dev nD) :
    (dat5 (F := Ideal) V c).arrAt 4 cfg5.N = normReluArr (m := 200000) (n := 100) (fun i => denseArr (m := 200000) (k := 62) (n := 100) (V c main_arg0) (V c main_arg11) (V c main_v5) i + V c main_v98 i) := by
  refine (dat5 (F := Ideal) V c).arrAt_eq_of_cover 4 _ (fun t _ => ?_) (covered5)
  show (cfg5.win 4).cut (grid5.coords t) ((dat5 (F := Ideal) V c).after 4 t) = _
  rw [left5_4]
  funext y
  obtain ⟨p, q, rfl⟩ : ∃ (p : Fin 2000) (q : Fin 100), y = ix2 p q := ⟨y 0, y 1, eq_ix2 y⟩
  have ht : t.val < 100 := lt_of_lt_of_eq t.isLt pts5
  have hb : t.val * 2000 + p.val < 200000 := by have := p.isLt; omega
  have e0 : ((cfg5.win 4).blk t).view.emb (ix2 p q) = ix2 (⟨t.val * 2000 + p.val, hb⟩ : Fin 200000) q :=
    funext fun a => Fin.ext (by
      match a with
      | ⟨0, _⟩ => exact outRow5 t (ix2 p q)
      | ⟨1, _⟩ => exact outCol5 t (ix2 p q))
  show stored5 (blk5 V c 0 t : Vec Ideal S2000x62 .f32) (blk5 V c 1 t : Vec Ideal S62x100 .f32) (blk5 V c 2 t : Vec Ideal S1x100 .f32) (blk5 V c 3 t : Vec Ideal S2000x100 .f32) (ix2 p q)
      = (normReluArr (m := 200000) (n := 100) (fun i => denseArr (m := 200000) (k := 62) (n := 100) (V c main_arg0) (V c main_arg11) (V c main_v5) i + V c main_v98 i)) (((cfg5.win 4).blk t).view.emb (ix2 p q))
  rw [e0]
  unfold stored5
  rw [View.canon_unit_zero corner5]
  simp only [View.ld_unit_zero (S := S2000x62) corner5, View.ld_unit_zero (S := S62x100) corner5, View.ld_unit_zero (S := S1x100) corner5, View.ld_unit_zero (S := S2000x100) corner5]
  refine (pay5_apply (blk5 V c 0 t : Vec Ideal S2000x62 .f32) (blk5 V c 1 t : Vec Ideal S62x100 .f32) (blk5 V c 2 t : Vec Ideal S1x100 .f32) (blk5 V c 3 t : Vec Ideal S2000x100 .f32) p q).trans ?_
  show normReluRow (fun j => denseRow (fun cc => (blk5 V c 0 t : Vec Ideal S2000x62 .f32) (ix2 p cc)) (blk5 V c 1 t : Vec Ideal S62x100 .f32) (blk5 V c 2 t : Vec Ideal S1x100 .f32) j + (blk5 V c 3 t : Vec Ideal S2000x100 .f32) (ix2 p j)) q = normReluRow (fun j => denseRow (fun cc => V c main_arg0 (ix2 (⟨t.val * 2000 + p.val, hb⟩ : Fin 200000) cc)) (V c main_arg11) (V c main_v5) j + V c main_v98 (ix2 (⟨t.val * 2000 + p.val, hb⟩ : Fin 200000) j)) q
  have h0 : (fun cc => (blk5 V c 0 t : Vec Ideal S2000x62 .f32) (ix2 p cc)) = fun cc => V c main_arg0 (ix2 (⟨t.val * 2000 + p.val, hb⟩ : Fin 200000) cc) :=
    funext fun cc => rows5_0 V c t p cc hb
  have h1 : (blk5 V c 1 t : Vec Ideal S62x100 .f32) = V c main_arg11 := funext (all5_1 V c t)
  have h2 : (blk5 V c 2 t : Vec Ideal S1x100 .f32) = V c main_v5 := funext (all5_2 V c t)
  have h3 : (fun j => (blk5 V c 3 t : Vec Ideal S2000x100 .f32) (ix2 p j)) = fun j => V c main_v98 (ix2 (⟨t.val * 2000 + p.val, hb⟩ : Fin 200000) j) :=
    funext fun j => rows5_3 V c t p j hb
  simp only [h0, h1, h2, congrFun h3]

end Cert.KernelIdeal.Fr

end
-- ==== Proof.Val.NormRef.lean ====
/-
  The reference's dense layers and its two finished layers, as whole arrays.

  The reference computes, for each group of gathered rows, a dense layer of the whole group, and for each of the two
  graph-convolution layers the sum of the concatenated groups D with a dense layer of all 200000 rows, each row then
  divided by its Euclidean length raised to a small floor and rectified.  Entry (i, j) of a dense layer is row i
  through the layer; entry (i, j) of a finished layer is row i of  x · w + b + D  normalised and rectified.  The
  reference adds D first, D + (x · w + b); on the extended reals the sum commutes.
-/
import proofs.«143046_j34703335751794_1_alg».proof.Proof.Gen.ReferenceIdeal
import proofs.«143046_j34703335751794_1_alg».proof.Proof.LibDenseRows
import proofs.«143046_j34703335751794_1_alg».proof.Proof.LibNormRows

noncomputable section

namespace Cert.ReferenceIdeal.RefVal

open Idealize.ShloMosaic Idealize.ShloMosaic.ValueIdx Cert.ReferenceIdeal Cert.ReferenceIdeal.Gen Cert.LibDenseRows Cert.LibNormRows

/-! ## The reference's dense layers of the gathered parts -/

/-- The host's dense layer of a whole matrix, its dimension record any record that is the plain product's. -/
theorem host_dense_eq_of_plain {m k n : ℕ} (x : FVec Ideal ⟨2, ![m, k]⟩ .f32) (w : FVec Ideal ⟨2, ![k, n]⟩ .f32)
    (b : FVec Ideal ⟨2, ![1, n]⟩ .f32) (hbc : (⟨2, ![1, n]⟩ : Shape).BroadcastsInDim ⟨2, ![m, n]⟩ ![0, 1])
    (d : DotDims ⟨2, ![m, k]⟩ ⟨2, ![k, n]⟩ ⟨2, ![m, n]⟩) (hd : d = DotDims.plain m k n) :
    addf (Host.dotGeneral d none x w) (broadcastInDim ⟨2, ![m, n]⟩ ![0, 1] hbc b) = denseArr x w b := by
  subst hd
  exact host_dense_eq x w b hbc

/-- The dense layer of the 40000 gathered rows of 68 entries, as the reference spells it, is the layer row by row. -/
theorem dense_S40000x68_eq (S : FVec Ideal S40000x68 .f32) (W : FVec Ideal S68x100 .f32) (b : FVec Ideal S100 .f32) :
    addf (Host.dotGeneral dot_S40000x68_S68x100_S40000x100_1_0_0_1_n_n none S W)
        (broadcastInDim S40000x100 ![0, 1] bcast_S1x100_S40000x100_0_1 (broadcastInDim S1x100 ![1] bcast_S100_S1x100_1 b))
      = denseArr S W (broadcastInDim S1x100 ![1] bcast_S100_S1x100_1 b) :=
  host_dense_eq_of_plain S W (broadcastInDim S1x100 ![1] bcast_S100_S1x100_1 b) bcast_S1x100_S40000x100_0_1
    dot_S40000x68_S68x100_S40000x100_1_0_0_1_n_n rfl

/-- The dense layer of the 60000 gathered rows of 68 entries, as the reference spells it, is the layer row by row. -/
theorem dense_S60000x68_eq (S : FVec Ideal S60000x68 .f32) (W : FVec Ideal S68x100 .f32) (b : FVec Ideal S100 .f32) :
    addf (Host.dotGeneral dot_S60000x68_S68x100_S60000x100_1_0_0_1_n_n none S W)
        (broadcastInDim S60000x100 ![0, 1] bcast_S1x100_S60000x100_0_1 (broadcastInDim S1x100 ![1] bcast_S100_S1x100_1 b))
      = denseArr S W (broadcastInDim S1x100 ![1] bcast_S100_S1x100_1 b) :=
  host_dense_eq_of_plain S W (broadcastInDim S1x100 ![1] bcast_S100_S1x100_1 b) bcast_S1x100_S60000x100_0_1
    dot_S60000x68_S68x100_S60000x100_1_0_0_1_n_n rfl

/-- The dense layer of the 40000 gathered rows of 106 entries, as the reference spells it, is the layer row by row. -/
theorem dense_S40000x106_eq (S : FVec Ideal S40000x106 .f32) (W : FVec Ideal S106x100 .f32) (b : FVec Ideal S100 .f32) :
    addf (Host.dotGeneral dot_S40000x106_S106x100_S40000x100_1_0_0_1_n_n none S W)
        (broadcastInDim S40000x100 ![0, 1] bcast_S1x100_S40000x100_0_1 (broadcastInDim S1x100 ![1] bcast_S100_S1x100_1 b))
      = denseArr S W (broadcastInDim S1x100 ![1] bcast_S100_S1x100_1 b) :=
  host_dense_eq_of_plain S W (broadcastInDim S1x100 ![1] bcast_S100_S1x100_1 b) bcast_S1x100_S40000x100_0_1
    dot_S40000x106_S106x100_S40000x100_1_0_0_1_n_n rfl

/-- The dense layer of the 60000 gathered rows of 106 entries, as the reference spells it, is the layer row by row. -/
theorem dense_S60000x106_eq (S : FVec Ideal S60000x106 .f32) (W : FVec Ideal S106x100 .f32) (b : FVec Ideal S100 .f32) :
    addf (Host.dotGeneral dot_S60000x106_S106x100_S60000x100_1_0_0_1_n_n none S W)
        (broadcastInDim S60000x100 ![0, 1] bcast_S1x100_S60000x100_0_1 (broadcastInDim S1x100 ![1] bcast_S100_S1x100_1 b))
      = denseArr S W (broadcastInDim S1x100 ![1] bcast_S100_S1x100_1 b) :=
  host_dense_eq_of_plain S W (broadcastInDim S1x100 ![1] bcast_S100_S1x100_1 b) bcast_S1x100_S60000x100_0_1
    dot_S60000x106_S106x100_S60000x100_1_0_0_1_n_n rfl

/-! ## The reference's two finished layers, whole arrays

The reference adds the concatenated parts D first, D + (x · w + b); entry by entry that is (x · w + b) + D. -/

/-- The first finished layer of all 200000 rows: row i of x through the dense layer, plus row i of D, normalised and rectified. -/
theorem layer1_eq (D : FVec Ideal S200000x100 .f32) (x : FVec Ideal S200000x62 .f32) (W : FVec Ideal S62x100 .f32)
    (b : FVec Ideal S100 .f32) :
    maximumf (Host.divf (addf D (addf (Host.dotGeneral dot_S200000x62_S62x100_S200000x100_1_0_0_1_n_n none x W) (broadcastInDim S200000x100 ![0, 1] bcast_S1x100_S200000x100_0_1 (broadcastInDim S1x100 ![1] bcast_S100_S1x100_1 b)))) (broadcastInDim S200000x100 ![0, 1] bcast_S200000x1_S200000x100_0_1 (maximumf (Host.sqrt (broadcastInDim S200000x1 ![0] bcast_S200000_S200000x1_0 (Host.reduceAdd (F := Ideal) (mulf (addf D (addf (Host.dotGeneral dot_S200000x62_S62x100_S200000x100_1_0_0_1_n_n none x W) (broadcastInDim S200000x100 ![0, 1] bcast_S1x100_S200000x100_0_1 (broadcastInDim S1x100 ![1] bcast_S100_S1x100_1 b)))) (addf D (addf (Host.dotGeneral dot_S200000x62_S62x100_S200000x100_1_0_0_1_n_n none x W) (broadcastInDim S200000x100 ![0, 1] bcast_S1x100_S200000x100_0_1 (broadcastInDim S1x100 ![1] bcast_S100_S1x100_1 b))))) (constant (F := Ideal) S_ .f32 0x00000000#32) reducesTo_S200000x100_S200000_d1 h_S_))) (broadcastInDim S200000x1 ![] bcast_S_S200000x1 (constant (F := Ideal) S_ .f32 0x2B8CBCCC#32))))) (broadcastInDim S200000x100 ![] bcast_S_S200000x100 (constant (F := Ideal) S_ .f32 0x00000000#32))
      = fun i => normReluRow (fun j => denseRow (fun c => x (ix2 (i 0 : Fin 200000) c)) W
          (broadcastInDim S1x100 ![1] bcast_S100_S1x100_1 b) j + D (ix2 (i 0 : Fin 200000) j)) (i 1 : Fin 100) := by
  have e : dot_S200000x62_S62x100_S200000x100_1_0_0_1_n_n = DotDims.plain 200000 62 100 := rfl
  rw [e]
  have key := host_dense_norm_eq D x W (broadcastInDim S1x100 ![1] bcast_S100_S1x100_1 b) bcast_S1x100_S200000x100_0_1
    reducesTo_S200000x100_S200000_d1 h_S_ bcast_S200000_S200000x1_0 bcast_S_S200000x1 bcast_S200000x1_S200000x100_0_1
    bcast_S_S200000x100
  exact key

/-- The second finished layer likewise, on rows of 100 entries. -/
theorem layer2_eq (D : FVec Ideal S200000x100 .f32) (x : FVec Ideal S200000x100 .f32) (W : FVec Ideal S100x100 .f32)
    (b : FVec Ideal S100 .f32) :
    maximumf (Host.divf (addf D (addf (Host.dotGeneral dot_S200000x100_S100x100_S200000x100_1_0_0_1_n_n none x W) (broadcastInDim S200000x100 ![0, 1] bcast_S1x100_S200000x100_0_1 (broadcastInDim S1x100 ![1] bcast_S100_S1x100_1 b)))) (broadcastInDim S200000x100 ![0, 1] bcast_S200000x1_S200000x100_0_1 (maximumf (Host.sqrt (broadcastInDim S200000x1 ![0] bcast_S200000_S200000x1_0 (Host.reduceAdd (F := Ideal) (mulf (addf D (addf (Host.dotGeneral dot_S200000x100_S100x100_S200000x100_1_0_0_1_n_n none x W) (broadcastInDim S200000x100 ![0, 1] bcast_S1x100_S200000x100_0_1 (broadcastInDim S1x100 ![1] bcast_S100_S1x100_1 b)))) (addf D (addf (Host.dotGeneral dot_S200000x100_S100x100_S200000x100_1_0_0_1_n_n none x W) (broadcastInDim S200000x100 ![0, 1] bcast_S1x100_S200000x100_0_1 (broadcastInDim S1x100 ![1] bcast_S100_S1x100_1 b))))) (constant (F := Ideal) S_ .f32 0x00000000#32) reducesTo_S200000x100_S200000_d1 h_S_))) (broadcastInDim S200000x1 ![] bcast_S_S200000x1 (constant (F := Ideal) S_ .f32 0x2B8CBCCC#32))))) (broadcastInDim S200000x100 ![] bcast_S_S200000x100 (constant (F := Ideal) S_ .f32 0x00000000#32))
      = fun i => normReluRow (fun j => denseRow (fun c => x (ix2 (i 0 : Fin 200000) c)) W
          (broadcastInDim S1x100 ![1] bcast_S100_S1x100_1 b) j + D (ix2 (i 0 : Fin 200000) j)) (i 1 : Fin 100) := by
  have e : dot_S200000x100_S100x100_S200000x100_1_0_0_1_n_n = DotDims.plain 200000 100 100 := rfl
  rw [e]
  have key := host_dense_norm_eq D x W (broadcastInDim S1x100 ![1] bcast_S100_S1x100_1 b) bcast_S1x100_S200000x100_0_1
    reducesTo_S200000x100_S200000_d1 h_S_ bcast_S200000_S200000x1_0 bcast_S_S200000x1 bcast_S200000x1_S200000x100_0_1
    bcast_S_S200000x100
  exact key

end Cert.ReferenceIdeal.RefVal

end
-- ==== Proof.Sim.Layer0Lib.lean ====
/-
  Shared vocabulary for comparing the two programs' first layer: the types of buffer contents and launch memories of
  the two programs, and the fact that a concatenation of arrays along an axis is determined by its parts.
-/
import proofs.«143046_j34703335751794_1_alg».proof.KernelIdeal
import proofs.«143046_j34703335751794_1_alg».proof.ReferenceIdeal
import Idealize.ShloMosaic.Lib.StableHlo.Run
import Idealize.ShloMosaic.PureOps.Ideal

noncomputable section

namespace Cert.Sim

open Idealize.ShloMosaic Idealize.ShloMosaic.TcCoe Idealize.SL.Sem Idealize.ShloMosaic.StableHlo

/-- Buffer contents of the kernel program on a core. -/
abbrev KVal := Valuation Cert.KernelIdeal.τ Cert.KernelIdeal.sig (Elt Ideal)
/-- Buffer contents of the reference on a core. -/
abbrev RVal := Valuation Cert.ReferenceIdeal.τ Cert.ReferenceIdeal.sig (Elt Ideal)
/-- The kernel program's launch memory. -/
abbrev KMem := (ℓ : Loc Cert.KernelIdeal.nD Cert.KernelIdeal.τ Cert.KernelIdeal.sig) → Buf (Elt Ideal) ℓ
/-- The reference's launch memory. -/
abbrev RMem := (ℓ : Loc Cert.ReferenceIdeal.nD Cert.ReferenceIdeal.τ Cert.ReferenceIdeal.sig) → Buf (Elt Ideal) ℓ

/-- Two concatenations of two parts along an axis agree when the parts agree. -/
theorem concat2_congr {α : Type} {t s1 s2 : Shape} {d : Fin t.rank} {a a' : s1.Idx → α} {b b' : s2.Idx → α}
    (ha : a = a') (hb : b = b') (h h' : Shape.Concatenates [s1, s2] t d) :
    concatenate t d [⟨s1, a⟩, ⟨s2, b⟩] h = concatenate t d [⟨s1, a'⟩, ⟨s2, b'⟩] h' := by
  subst ha; subst hb; rfl

/-- Two concatenations of four parts along an axis agree when the parts agree. -/
theorem concat4_congr {α : Type} {t s1 s2 s3 s4 : Shape} {d : Fin t.rank} {a a' : s1.Idx → α} {b b' : s2.Idx → α}
    {e e' : s3.Idx → α} {f f' : s4.Idx → α}
    (ha : a = a') (hb : b = b') (he : e = e') (hf : f = f') (h h' : Shape.Concatenates [s1, s2, s3, s4] t d) :
    concatenate t d [⟨s1, a⟩, ⟨s2, b⟩, ⟨s3, e⟩, ⟨s4, f⟩] h = concatenate t d [⟨s1, a'⟩, ⟨s2, b'⟩, ⟨s3, e'⟩, ⟨s4, f'⟩] h' := by
  subst ha; subst hb; subst he; subst hf; rfl

end Cert.Sim

end
-- ==== Proof.Sim.Layer0D1.lean ====
/-
  The first layer, neighbours of degree 1: the 40000 gathered rows and their dense layer, in the two programs.

  Both programs gather, for each of the 40000 nodes of this degree, the rows of its 1 neighbour (62 node entries from the
  node array, 6 edge entries from the edge array, a negative index first wrapped around), sum them over the
  neighbours, and put the two sums side by side as a row of 68 entries; they take slice 0 of the stacked weights as a
  68 × 100 matrix and slice 0 of the stacked biases as one row.  The operations are the same in the two programs, over
  buffers with other names; so from contents that agree on the argument arrays they compute the same rows, weights and
  bias row (the bias row is a reshape in one program and a broadcast along axis 1 in the other: the same one-row
  matrix).  The reference then applies the dense layer to these, which is the layer row by row.
  Everything is stated for arbitrary buffer contents V of the kernel program and V' of the reference.
-/
import proofs.«143046_j34703335751794_1_alg».proof.Proof.Gen.KernelIdeal.Launch
import proofs.«143046_j34703335751794_1_alg».proof.Proof.Ref.Stages
import proofs.«143046_j34703335751794_1_alg».proof.Proof.LibDenseRows
import proofs.«143046_j34703335751794_1_alg».proof.Proof.Val.NormRef
import proofs.«143046_j34703335751794_1_alg».proof.Proof.Sim.Layer0Lib

set_option maxRecDepth 16384

noncomputable section

namespace Cert.Sim

open Idealize.ShloMosaic Idealize.ShloMosaic.TcCoe Idealize.SL.Sem Idealize.ShloMosaic.StableHlo

section Degree1

variable (V : KVal) (V' : RVal)

set_option maxHeartbeats 2000000 in
/-- Degree 1: the sums of the gathered neighbour rows (the 62 node entries) are the same gather and sum of the same
    argument arrays in both programs. -/
theorem d1_sumX (h0 : V' (Proc.devRef .tc Cert.ReferenceIdeal.main_arg0) = V (Proc.devRef .tc Cert.KernelIdeal.main_arg0)) (hX : V' (Proc.devRef .tc Cert.ReferenceIdeal.main_arg2) = V (Proc.devRef .tc Cert.KernelIdeal.main_arg2)) :
    after Cert.KernelIdeal.Gen.hostOps1 V (Proc.devRef .tc Cert.KernelIdeal.main_v13) = after Cert.ReferenceIdeal.Stages.opsB V' (Proc.devRef .tc Cert.ReferenceIdeal.main_v29) := by
  after_results_simp
  rw [h0, hX]
  rfl

set_option maxHeartbeats 2000000 in
/-- Degree 1: likewise the sums of the gathered edge rows (the 6 edge entries). -/
theorem d1_sumE (h1 : V' (Proc.devRef .tc Cert.ReferenceIdeal.main_arg1) = V (Proc.devRef .tc Cert.KernelIdeal.main_arg1)) (hE : V' (Proc.devRef .tc Cert.ReferenceIdeal.main_arg3) = V (Proc.devRef .tc Cert.KernelIdeal.main_arg3)) :
    after Cert.KernelIdeal.Gen.hostOps1 V (Proc.devRef .tc Cert.KernelIdeal.main_v21) = after Cert.ReferenceIdeal.Stages.opsB V' (Proc.devRef .tc Cert.ReferenceIdeal.main_v37) := by
  after_results_simp
  rw [h1, hE]
  rfl

set_option maxHeartbeats 4000000 in
/-- Degree 1: the rows the dense layer is applied to — the two sums side by side — agree. -/
theorem d1_rows (h0 : V' (Proc.devRef .tc Cert.ReferenceIdeal.main_arg0) = V (Proc.devRef .tc Cert.KernelIdeal.main_arg0)) (h1 : V' (Proc.devRef .tc Cert.ReferenceIdeal.main_arg1) = V (Proc.devRef .tc Cert.KernelIdeal.main_arg1)) (hX : V' (Proc.devRef .tc Cert.ReferenceIdeal.main_arg2) = V (Proc.devRef .tc Cert.KernelIdeal.main_arg2)) (hE : V' (Proc.devRef .tc Cert.ReferenceIdeal.main_arg3) = V (Proc.devRef .tc Cert.KernelIdeal.main_arg3)) :
    after Cert.KernelIdeal.Gen.hostOps1 V (Proc.devRef .tc Cert.KernelIdeal.main_v22) = after Cert.ReferenceIdeal.Stages.opsB V' (Proc.devRef .tc Cert.ReferenceIdeal.main_v38) := by
  have ek : after Cert.KernelIdeal.Gen.hostOps1 V (Proc.devRef .tc Cert.KernelIdeal.main_v22)
      = concatenate Cert.KernelIdeal.S40000x68 1 [⟨Cert.KernelIdeal.S40000x62, after Cert.KernelIdeal.Gen.hostOps1 V (Proc.devRef .tc Cert.KernelIdeal.main_v13)⟩, ⟨Cert.KernelIdeal.S40000x6, after Cert.KernelIdeal.Gen.hostOps1 V (Proc.devRef .tc Cert.KernelIdeal.main_v21)⟩]
          Cert.KernelIdeal.Gen.concatenates_S40000x62_S40000x6_S40000x68_d1 := rfl
  have er : after Cert.ReferenceIdeal.Stages.opsB V' (Proc.devRef .tc Cert.ReferenceIdeal.main_v38)
      = concatenate Cert.ReferenceIdeal.S40000x68 1 [⟨Cert.ReferenceIdeal.S40000x62, after Cert.ReferenceIdeal.Stages.opsB V' (Proc.devRef .tc Cert.ReferenceIdeal.main_v29)⟩, ⟨Cert.ReferenceIdeal.S40000x6, after Cert.ReferenceIdeal.Stages.opsB V' (Proc.devRef .tc Cert.ReferenceIdeal.main_v37)⟩]
          Cert.ReferenceIdeal.Gen.concatenates_S40000x62_S40000x6_S40000x68_d1 := rfl
  rw [ek, er]
  exact concat2_congr (d1_sumX V V' h0 hX) (d1_sumE V V' h1 hE) _ _

set_option maxHeartbeats 2000000 in
/-- Degree 1: the degree's weight matrix is the same slice of the stacked weights. -/
theorem d1_w (h13 : V' (Proc.devRef .tc Cert.ReferenceIdeal.main_arg13) = V (Proc.devRef .tc Cert.KernelIdeal.main_arg13)) :
    after Cert.KernelIdeal.Gen.hostOps1 V (Proc.devRef .tc Cert.KernelIdeal.main_v24) = after Cert.ReferenceIdeal.Stages.opsB V' (Proc.devRef .tc Cert.ReferenceIdeal.main_v40) := by
  after_results_simp
  rw [h13]
  rfl

set_option maxHeartbeats 2000000 in
/-- Degree 1: the degree's bias as a one-row matrix — a reshape in the kernel program, a broadcast along axis 1 in
    the reference — of the same slice of the stacked biases. -/
theorem d1_b (h14 : V' (Proc.devRef .tc Cert.ReferenceIdeal.main_arg14) = V (Proc.devRef .tc Cert.KernelIdeal.main_arg14)) :
    after Cert.KernelIdeal.Gen.hostOps1 V (Proc.devRef .tc Cert.KernelIdeal.main_v27) = after Cert.ReferenceIdeal.Stages.opsB V' (Proc.devRef .tc Cert.ReferenceIdeal.main_v44) := by
  after_results_simp
  rw [h14]
  exact Cert.LibDenseRows.oneRow_cast_eq_bcast _ _ _

set_option maxHeartbeats 4000000 in
/-- Degree 1: the reference's dense layer of the degree's rows is the layer row by row. -/
theorem d1_refDense :
    @Eq (FVec Ideal Cert.ReferenceIdeal.S40000x100 .f32) (after Cert.ReferenceIdeal.Stages.opsB V' (Proc.devRef .tc Cert.ReferenceIdeal.main_v46)) (Cert.LibDenseRows.denseArr (after Cert.ReferenceIdeal.Stages.opsB V' (Proc.devRef .tc Cert.ReferenceIdeal.main_v38) : FVec Ideal Cert.ReferenceIdeal.S40000x68 .f32) (after Cert.ReferenceIdeal.Stages.opsB V' (Proc.devRef .tc Cert.ReferenceIdeal.main_v40) : FVec Ideal Cert.ReferenceIdeal.S68x100 .f32) (after Cert.ReferenceIdeal.Stages.opsB V' (Proc.devRef .tc Cert.ReferenceIdeal.main_v44) : FVec Ideal Cert.ReferenceIdeal.S1x100 .f32)) := by
  have e : @Eq (FVec Ideal Cert.ReferenceIdeal.S40000x100 .f32) (after Cert.ReferenceIdeal.Stages.opsB V' (Proc.devRef .tc Cert.ReferenceIdeal.main_v46))
      (addf (Host.dotGeneral (φ₁ := .f32) (φ₂ := .f32) Cert.ReferenceIdeal.dot_S40000x68_S68x100_S40000x100_1_0_0_1_n_n none (after Cert.ReferenceIdeal.Stages.opsB V' (Proc.devRef .tc Cert.ReferenceIdeal.main_v38) : FVec Ideal Cert.ReferenceIdeal.S40000x68 .f32) (after Cert.ReferenceIdeal.Stages.opsB V' (Proc.devRef .tc Cert.ReferenceIdeal.main_v40) : FVec Ideal Cert.ReferenceIdeal.S68x100 .f32))
          (broadcastInDim Cert.ReferenceIdeal.S40000x100 ![0, 1] Cert.ReferenceIdeal.Gen.bcast_S1x100_S40000x100_0_1 (after Cert.ReferenceIdeal.Stages.opsB V' (Proc.devRef .tc Cert.ReferenceIdeal.main_v44) : FVec Ideal Cert.ReferenceIdeal.S1x100 .f32))) := by rfl
  rw [e]
  exact Cert.ReferenceIdeal.RefVal.host_dense_eq_of_plain _ _ _ _ _ rfl

end Degree1

end Cert.Sim

end
-- ==== Proof.Sim.Layer0D2.lean ====
/-
  The first layer, neighbours of degree 2: the 60000 gathered rows and their dense layer, in the two programs.

  Both programs gather, for each of the 60000 nodes of this degree, the rows of its 2 neighbours (62 node entries from the
  node array, 6 edge entries from the edge array, a negative index first wrapped around), sum them over the
  neighbours, and put the two sums side by side as a row of 68 entries; they take slice 1 of the stacked weights as a
  68 × 100 matrix and slice 1 of the stacked biases as one row.  The operations are the same in the two programs, over
  buffers with other names; so from contents that agree on the argument arrays they compute the same rows, weights and
  bias row (the bias row is a reshape in one program and a broadcast along axis 1 in the other: the same one-row
  matrix).  The reference then applies the dense layer to these, which is the layer row by row.
  Everything is stated for arbitrary buffer contents V of the kernel program and V' of the reference.
-/
import proofs.«143046_j34703335751794_1_alg».proof.Proof.Gen.KernelIdeal.Launch
import proofs.«143046_j34703335751794_1_alg».proof.Proof.Ref.Stages
import proofs.«143046_j34703335751794_1_alg».proof.Proof.LibDenseRows
import proofs.«143046_j34703335751794_1_alg».proof.Proof.Val.NormRef
import proofs.«143046_j34703335751794_1_alg».proof.Proof.Sim.Layer0Lib

set_option maxRecDepth 16384

noncomputable section

namespace Cert.Sim

open Idealize.ShloMosaic Idealize.ShloMosaic.TcCoe Idealize.SL.Sem Idealize.ShloMosaic.StableHlo

section Degree2

variable (V : KVal) (V' : RVal)

set_option maxHeartbeats 2000000 in
/-- Degree 2: the sums of the gathered neighbour rows (the 62 node entries) are the same gather and sum of the same
    argument arrays in both programs. -/
theorem d2_sumX (h0 : V' (Proc.devRef .tc Cert.ReferenceIdeal.main_arg0) = V (Proc.devRef .tc Cert.KernelIdeal.main_arg0)) (hX : V' (Proc.devRef .tc Cert.ReferenceIdeal.main_arg4) = V (Proc.devRef .tc Cert.KernelIdeal.main_arg4)) :
    after Cert.KernelIdeal.Gen.hostOps2 V (Proc.devRef .tc Cert.KernelIdeal.main_v36) = after Cert.ReferenceIdeal.Stages.opsB V' (Proc.devRef .tc Cert.ReferenceIdeal.main_v54) := by
  after_results_simp
  rw [h0, hX]
  rfl

set_option maxHeartbeats 2000000 in
/-- Degree 2: likewise the sums of the gathered edge rows (the 6 edge entries). -/
theorem d2_sumE (h1 : V' (Proc.devRef .tc Cert.ReferenceIdeal.main_arg1) = V (Proc.devRef .tc Cert.KernelIdeal.main_arg1)) (hE : V' (Proc.devRef .tc Cert.ReferenceIdeal.main_arg5) = V (Proc.devRef .tc Cert.KernelIdeal.main_arg5)) :
    after Cert.KernelIdeal.Gen.hostOps2 V (Proc.devRef .tc Cert.KernelIdeal.main_v44) = after Cert.ReferenceIdeal.Stages.opsB V' (Proc.devRef .tc Cert.ReferenceIdeal.main_v62) := by
  after_results_simp
  rw [h1, hE]
  rfl

set_option maxHeartbeats 4000000 in
/-- Degree 2: the rows the dense layer is applied to — the two sums side by side — agree. -/
theorem d2_rows (h0 : V' (Proc.devRef .tc Cert.ReferenceIdeal.main_arg0) = V (Proc.devRef .tc Cert.KernelIdeal.main_arg0)) (h1 : V' (Proc.devRef .tc Cert.ReferenceIdeal.main_arg1) = V (Proc.devRef .tc Cert.KernelIdeal.main_arg1)) (hX : V' (Proc.devRef .tc Cert.ReferenceIdeal.main_arg4) = V (Proc.devRef .tc Cert.KernelIdeal.main_arg4)) (hE : V' (Proc.devRef .tc Cert.ReferenceIdeal.main_arg5) = V (Proc.devRef .tc Cert.KernelIdeal.main_arg5)) :
    after Cert.KernelIdeal.Gen.hostOps2 V (Proc.devRef .tc Cert.KernelIdeal.main_v45) = after Cert.ReferenceIdeal.Stages.opsB V' (Proc.devRef .tc Cert.ReferenceIdeal.main_v63) := by
  have ek : after Cert.KernelIdeal.Gen.hostOps2 V (Proc.devRef .tc Cert.KernelIdeal.main_v45)
      = concatenate Cert.KernelIdeal.S60000x68 1 [⟨Cert.KernelIdeal.S60000x62, after Cert.KernelIdeal.Gen.hostOps2 V (Proc.devRef .tc Cert.KernelIdeal.main_v36)⟩, ⟨Cert.KernelIdeal.S60000x6, after Cert.KernelIdeal.Gen.hostOps2 V (Proc.devRef .tc Cert.KernelIdeal.main_v44)⟩]
          Cert.KernelIdeal.Gen.concatenates_S60000x62_S60000x6_S60000x68_d1 := rfl
  have er : after Cert.ReferenceIdeal.Stages.opsB V' (Proc.devRef .tc Cert.ReferenceIdeal.main_v63)
      = concatenate Cert.ReferenceIdeal.S60000x68 1 [⟨Cert.ReferenceIdeal.S60000x62, after Cert.ReferenceIdeal.Stages.opsB V' (Proc.devRef .tc Cert.ReferenceIdeal.main_v54)⟩, ⟨Cert.ReferenceIdeal.S60000x6, after Cert.ReferenceIdeal.Stages.opsB V' (Proc.devRef .tc Cert.ReferenceIdeal.main_v62)⟩]
          Cert.ReferenceIdeal.Gen.concatenates_S60000x62_S60000x6_S60000x68_d1 := rfl
  rw [ek, er]
  exact concat2_congr (d2_sumX V V' h0 hX) (d2_sumE V V' h1 hE) _ _

set_option maxHeartbeats 2000000 in
/-- Degree 2: the degree's weight matrix is the same slice of the stacked weights. -/
theorem d2_w (h13 : V' (Proc.devRef .tc Cert.ReferenceIdeal.main_arg13) = V (Proc.devRef .tc Cert.KernelIdeal.main_arg13)) :
    after Cert.KernelIdeal.Gen.hostOps2 V (Proc.devRef .tc Cert.KernelIdeal.main_v47) = after Cert.ReferenceIdeal.Stages.opsB V' (Proc.devRef .tc Cert.ReferenceIdeal.main_v65) := by
  after_results_simp
  rw [h13]
  rfl

set_option maxHeartbeats 2000000 in
/-- Degree 2: the degree's bias as a one-row matrix — a reshape in the kernel program, a broadcast along axis 1 in
    the reference — of the same slice of the stacked biases. -/
theorem d2_b (h14 : V' (Proc.devRef .tc Cert.ReferenceIdeal.main_arg14) = V (Proc.devRef .tc Cert.KernelIdeal.main_arg14)) :
    after Cert.KernelIdeal.Gen.hostOps2 V (Proc.devRef .tc Cert.KernelIdeal.main_v50) = after Cert.ReferenceIdeal.Stages.opsB V' (Proc.devRef .tc Cert.ReferenceIdeal.main_v69) := by
  after_results_simp
  rw [h14]
  exact Cert.LibDenseRows.oneRow_cast_eq_bcast _ _ _

set_option maxHeartbeats 4000000 in
/-- Degree 2: the reference's dense layer of the degree's rows is the layer row by row. -/
theorem d2_refDense :
    @Eq (FVec Ideal Cert.ReferenceIdeal.S60000x100 .f32) (after Cert.ReferenceIdeal.Stages.opsB V' (Proc.devRef .tc Cert.ReferenceIdeal.main_v71)) (Cert.LibDenseRows.denseArr (after Cert.ReferenceIdeal.Stages.opsB V' (Proc.devRef .tc Cert.ReferenceIdeal.main_v63) : FVec Ideal Cert.ReferenceIdeal.S60000x68 .f32) (after Cert.ReferenceIdeal.Stages.opsB V' (Proc.devRef .tc Cert.ReferenceIdeal.main_v65) : FVec Ideal Cert.ReferenceIdeal.S68x100 .f32) (after Cert.ReferenceIdeal.Stages.opsB V' (Proc.devRef .tc Cert.ReferenceIdeal.main_v69) : FVec Ideal Cert.ReferenceIdeal.S1x100 .f32)) := by
  have e : @Eq (FVec Ideal Cert.ReferenceIdeal.S60000x100 .f32) (after Cert.ReferenceIdeal.Stages.opsB V' (Proc.devRef .tc Cert.ReferenceIdeal.main_v71))
      (addf (Host.dotGeneral (φ₁ := .f32) (φ₂ := .f32) Cert.ReferenceIdeal.dot_S60000x68_S68x100_S60000x100_1_0_0_1_n_n none (after Cert.ReferenceIdeal.Stages.opsB V' (Proc.devRef .tc Cert.ReferenceIdeal.main_v63) : FVec Ideal Cert.ReferenceIdeal.S60000x68 .f32) (after Cert.ReferenceIdeal.Stages.opsB V' (Proc.devRef .tc Cert.ReferenceIdeal.main_v65) : FVec Ideal Cert.ReferenceIdeal.S68x100 .f32))
          (broadcastInDim Cert.ReferenceIdeal.S60000x100 ![0, 1] Cert.ReferenceIdeal.Gen.bcast_S1x100_S60000x100_0_1 (after Cert.ReferenceIdeal.Stages.opsB V' (Proc.devRef .tc Cert.ReferenceIdeal.main_v69) : FVec Ideal Cert.ReferenceIdeal.S1x100 .f32))) := by rfl
  rw [e]
  exact Cert.ReferenceIdeal.RefVal.host_dense_eq_of_plain _ _ _ _ _ rfl

end Degree2

end Cert.Sim

end
-- ==== Proof.Sim.Layer0D3.lean ====
/-
  The first layer, neighbours of degree 3: the 60000 gathered rows and their dense layer, in the two programs.

  Both programs gather, for each of the 60000 nodes of this degree, the rows of its 3 neighbours (62 node entries from the
  node array, 6 edge entries from the edge array, a negative index first wrapped around), sum them over the
  neighbours, and put the two sums side by side as a row of 68 entries; they take slice 2 of the stacked weights as a
  68 × 100 matrix and slice 2 of the stacked biases as one row.  The operations are the same in the two programs, over
  buffers with other names; so from contents that agree on the argument arrays they compute the same rows, weights and
  bias row (the bias row is a reshape in one program and a broadcast along axis 1 in the other: the same one-row
  matrix).  The reference then applies the dense layer to these, which is the layer row by row.
  Everything is stated for arbitrary buffer contents V of the kernel program and V' of the reference.
-/
import proofs.«143046_j34703335751794_1_alg».proof.Proof.Gen.KernelIdeal.Launch
import proofs.«143046_j34703335751794_1_alg».proof.Proof.Ref.Stages
import proofs.«143046_j34703335751794_1_alg».proof.Proof.LibDenseRows
import proofs.«143046_j34703335751794_1_alg».proof.Proof.Val.NormRef
import proofs.«143046_j34703335751794_1_alg».proof.Proof.Sim.Layer0Lib

set_option maxRecDepth 16384

noncomputable section

namespace Cert.Sim

open Idealize.ShloMosaic Idealize.ShloMosaic.TcCoe Idealize.SL.Sem Idealize.ShloMosaic.StableHlo

section Degree3

variable (V : KVal) (V' : RVal)

set_option maxHeartbeats 2000000 in
/-- Degree 3: the sums of the gathered neighbour rows (the 62 node entries) are the same gather and sum of the same
    argument arrays in both programs. -/
theorem d3_sumX (h0 : V' (Proc.devRef .tc Cert.ReferenceIdeal.main_arg0) = V (Proc.devRef .tc Cert.KernelIdeal.main_arg0)) (hX : V' (Proc.devRef .tc Cert.ReferenceIdeal.main_arg6) = V (Proc.devRef .tc Cert.KernelIdeal.main_arg6)) :
    after Cert.KernelIdeal.Gen.hostOps3 V (Proc.devRef .tc Cert.KernelIdeal.main_v59) = after Cert.ReferenceIdeal.Stages.opsB V' (Proc.devRef .tc Cert.ReferenceIdeal.main_v79) := by
  after_results_simp
  rw [h0, hX]
  rfl

set_option maxHeartbeats 2000000 in
/-- Degree 3: likewise the sums of the gathered edge rows (the 6 edge entries). -/
theorem d3_sumE (h1 : V' (Proc.devRef .tc Cert.ReferenceIdeal.main_arg1) = V (Proc.devRef .tc Cert.KernelIdeal.main_arg1)) (hE : V' (Proc.devRef .tc Cert.ReferenceIdeal.main_arg7) = V (Proc.devRef .tc Cert.KernelIdeal.main_arg7)) :
    after Cert.KernelIdeal.Gen.hostOps3 V (Proc.devRef .tc Cert.KernelIdeal.main_v67) = after Cert.ReferenceIdeal.Stages.opsB V' (Proc.devRef .tc Cert.ReferenceIdeal.main_v87) := by
  after_results_simp
  rw [h1, hE]
  rfl

set_option maxHeartbeats 4000000 in
/-- Degree 3: the rows the dense layer is applied to — the two sums side by side — agree. -/
theorem d3_rows (h0 : V' (Proc.devRef .tc Cert.ReferenceIdeal.main_arg0) = V (Proc.devRef .tc Cert.KernelIdeal.main_arg0)) (h1 : V' (Proc.devRef .tc Cert.ReferenceIdeal.main_arg1) = V (Proc.devRef .tc Cert.KernelIdeal.main_arg1)) (hX : V' (Proc.devRef .tc Cert.ReferenceIdeal.main_arg6) = V (Proc.devRef .tc Cert.KernelIdeal.main_arg6)) (hE : V' (Proc.devRef .tc Cert.ReferenceIdeal.main_arg7) = V (Proc.devRef .tc Cert.KernelIdeal.main_arg7)) :
    after Cert.KernelIdeal.Gen.hostOps3 V (Proc.devRef .tc Cert.KernelIdeal.main_v68) = after Cert.ReferenceIdeal.Stages.opsB V' (Proc.devRef .tc Cert.ReferenceIdeal.main_v88) := by
  have ek : after Cert.KernelIdeal.Gen.hostOps3 V (Proc.devRef .tc Cert.KernelIdeal.main_v68)
      = concatenate Cert.KernelIdeal.S60000x68 1 [⟨Cert.KernelIdeal.S60000x62, after Cert.KernelIdeal.Gen.hostOps3 V (Proc.devRef .tc Cert.KernelIdeal.main_v59)⟩, ⟨Cert.KernelIdeal.S60000x6, after Cert.KernelIdeal.Gen.hostOps3 V (Proc.devRef .tc Cert.KernelIdeal.main_v67)⟩]
          Cert.KernelIdeal.Gen.concatenates_S60000x62_S60000x6_S60000x68_d1 := rfl
  have er : after Cert.ReferenceIdeal.Stages.opsB V' (Proc.devRef .tc Cert.ReferenceIdeal.main_v88)
      = concatenate Cert.ReferenceIdeal.S60000x68 1 [⟨Cert.ReferenceIdeal.S60000x62, after Cert.ReferenceIdeal.Stages.opsB V' (Proc.devRef .tc Cert.ReferenceIdeal.main_v79)⟩, ⟨Cert.ReferenceIdeal.S60000x6, after Cert.ReferenceIdeal.Stages.opsB V' (Proc.devRef .tc Cert.ReferenceIdeal.main_v87)⟩]
          Cert.ReferenceIdeal.Gen.concatenates_S60000x62_S60000x6_S60000x68_d1 := rfl
  rw [ek, er]
  exact concat2_congr (d3_sumX V V' h0 hX) (d3_sumE V V' h1 hE) _ _

set_option maxHeartbeats 2000000 in
/-- Degree 3: the degree's weight matrix is the same slice of the stacked weights. -/
theorem d3_w (h13 : V' (Proc.devRef .tc Cert.ReferenceIdeal.main_arg13) = V (Proc.devRef .tc Cert.KernelIdeal.main_arg13)) :
    after Cert.KernelIdeal.Gen.hostOps3 V (Proc.devRef .tc Cert.KernelIdeal.main_v70) = after Cert.ReferenceIdeal.Stages.opsB V' (Proc.devRef .tc Cert.ReferenceIdeal.main_v90) := by
  after_results_simp
  rw [h13]
  rfl

set_option maxHeartbeats 2000000 in
/-- Degree 3: the degree's bias as a one-row matrix — a reshape in the kernel program, a broadcast along axis 1 in
    the reference — of the same slice of the stacked biases. -/
theorem d3_b (h14 : V' (Proc.devRef .tc Cert.ReferenceIdeal.main_arg14) = V (Proc.devRef .tc Cert.KernelIdeal.main_arg14)) :
    after Cert.KernelIdeal.Gen.hostOps3 V (Proc.devRef .tc Cert.KernelIdeal.main_v73) = after Cert.ReferenceIdeal.Stages.opsB V' (Proc.devRef .tc Cert.ReferenceIdeal.main_v94) := by
  after_results_simp
  rw [h14]
  exact Cert.LibDenseRows.oneRow_cast_eq_bcast _ _ _

set_option maxHeartbeats 4000000 in
/-- Degree 3: the reference's dense layer of the degree's rows is the layer row by row. -/
theorem d3_refDense :
    @Eq (FVec Ideal Cert.ReferenceIdeal.S60000x100 .f32) (after Cert.ReferenceIdeal.Stages.opsB V' (Proc.devRef .tc Cert.ReferenceIdeal.main_v96)) (Cert.LibDenseRows.denseArr (after Cert.ReferenceIdeal.Stages.opsB V' (Proc.devRef .tc Cert.ReferenceIdeal.main_v88) : FVec Ideal Cert.ReferenceIdeal.S60000x68 .f32) (after Cert.ReferenceIdeal.Stages.opsB V' (Proc.devRef .tc Cert.ReferenceIdeal.main_v90) : FVec Ideal Cert.ReferenceIdeal.S68x100 .f32) (after Cert.ReferenceIdeal.Stages.opsB V' (Proc.devRef .tc Cert.ReferenceIdeal.main_v94) : FVec Ideal Cert.ReferenceIdeal.S1x100 .f32)) := by
  have e : @Eq (FVec Ideal Cert.ReferenceIdeal.S60000x100 .f32) (after Cert.ReferenceIdeal.Stages.opsB V' (Proc.devRef .tc Cert.ReferenceIdeal.main_v96))
      (addf (Host.dotGeneral (φ₁ := .f32) (φ₂ := .f32) Cert.ReferenceIdeal.dot_S60000x68_S68x100_S60000x100_1_0_0_1_n_n none (after Cert.ReferenceIdeal.Stages.opsB V' (Proc.devRef .tc Cert.ReferenceIdeal.main_v88) : FVec Ideal Cert.ReferenceIdeal.S60000x68 .f32) (after Cert.ReferenceIdeal.Stages.opsB V' (Proc.devRef .tc Cert.ReferenceIdeal.main_v90) : FVec Ideal Cert.ReferenceIdeal.S68x100 .f32))
          (broadcastInDim Cert.ReferenceIdeal.S60000x100 ![0, 1] Cert.ReferenceIdeal.Gen.bcast_S1x100_S60000x100_0_1 (after Cert.ReferenceIdeal.Stages.opsB V' (Proc.devRef .tc Cert.ReferenceIdeal.main_v94) : FVec Ideal Cert.ReferenceIdeal.S1x100 .f32))) := by rfl
  rw [e]
  exact Cert.ReferenceIdeal.RefVal.host_dense_eq_of_plain _ _ _ _ _ rfl

end Degree3

end Cert.Sim

end
-- ==== Proof.Sim.Layer0D4.lean ====
/-
  The first layer, neighbours of degree 4: the 40000 gathered rows and their dense layer, in the two programs.

  Both programs gather, for each of the 40000 nodes of this degree, the rows of its 4 neighbours (62 node entries from the
  node array, 6 edge entries from the edge array, a negative index first wrapped around), sum them over the
  neighbours, and put the two sums side by side as a row of 68 entries; they take slice 3 of the stacked weights as a
  68 × 100 matrix and slice 3 of the stacked biases as one row.  The operations are the same in the two programs, over
  buffers with other names; so from contents that agree on the argument arrays they compute the same rows, weights and
  bias row (the bias row is a reshape in one program and a broadcast along axis 1 in the other: the same one-row
  matrix).  The reference then applies the dense layer to these, which is the layer row by row.
  Everything is stated for arbitrary buffer contents V of the kernel program and V' of the reference.
-/
import proofs.«143046_j34703335751794_1_alg».proof.Proof.Gen.KernelIdeal.Launch
import proofs.«143046_j34703335751794_1_alg».proof.Proof.Ref.Stages
import proofs.«143046_j34703335751794_1_alg».proof.Proof.LibDenseRows
import proofs.«143046_j34703335751794_1_alg».proof.Proof.Val.NormRef
import proofs.«143046_j34703335751794_1_alg».proof.Proof.Sim.Layer0Lib

set_option maxRecDepth 16384

noncomputable section

namespace Cert.Sim

open Idealize.ShloMosaic Idealize.ShloMosaic.TcCoe Idealize.SL.Sem Idealize.ShloMosaic.StableHlo

section Degree4

variable (V : KVal) (V' : RVal)

set_option maxHeartbeats 2000000 in
/-- Degree 4: the sums of the gathered neighbour rows (the 62 node entries) are the same gather and sum of the same
    argument arrays in both programs. -/
theorem d4_sumX (h0 : V' (Proc.devRef .tc Cert.ReferenceIdeal.main_arg0) = V (Proc.devRef .tc Cert.KernelIdeal.main_arg0)) (hX : V' (Proc.devRef .tc Cert.ReferenceIdeal.main_arg8) = V (Proc.devRef .tc Cert.KernelIdeal.main_arg8)) :
    after Cert.KernelIdeal.Gen.hostOps4 V (Proc.devRef .tc Cert.KernelIdeal.main_v82) = after Cert.ReferenceIdeal.Stages.opsB V' (Proc.devRef .tc Cert.ReferenceIdeal.main_v104) := by
  after_results_simp
  rw [h0, hX]
  rfl

set_option maxHeartbeats 2000000 in
/-- Degree 4: likewise the sums of the gathered edge rows (the 6 edge entries). -/
theorem d4_sumE (h1 : V' (Proc.devRef .tc Cert.ReferenceIdeal.main_arg1) = V (Proc.devRef .tc Cert.KernelIdeal.main_arg1)) (hE : V' (Proc.devRef .tc Cert.ReferenceIdeal.main_arg9) = V (Proc.devRef .tc Cert.KernelIdeal.main_arg9)) :
    after Cert.KernelIdeal.Gen.hostOps4 V (Proc.devRef .tc Cert.KernelIdeal.main_v90) = after Cert.ReferenceIdeal.Stages.opsB V' (Proc.devRef .tc Cert.ReferenceIdeal.main_v112) := by
  after_results_simp
  rw [h1, hE]
  rfl

set_option maxHeartbeats 4000000 in
/-- Degree 4: the rows the dense layer is applied to — the two sums side by side — agree. -/
theorem d4_rows (h0 : V' (Proc.devRef .tc Cert.ReferenceIdeal.main_arg0) = V (Proc.devRef .tc Cert.KernelIdeal.main_arg0)) (h1 : V' (Proc.devRef .tc Cert.ReferenceIdeal.main_arg1) = V (Proc.devRef .tc Cert.KernelIdeal.main_arg1)) (hX : V' (Proc.devRef .tc Cert.ReferenceIdeal.main_arg8) = V (Proc.devRef .tc Cert.KernelIdeal.main_arg8)) (hE : V' (Proc.devRef .tc Cert.ReferenceIdeal.main_arg9) = V (Proc.devRef .tc Cert.KernelIdeal.main_arg9)) :
    after Cert.KernelIdeal.Gen.hostOps4 V (Proc.devRef .tc Cert.KernelIdeal.main_v91) = after Cert.ReferenceIdeal.Stages.opsB V' (Proc.devRef .tc Cert.ReferenceIdeal.main_v113) := by
  have ek : after Cert.KernelIdeal.Gen.hostOps4 V (Proc.devRef .tc Cert.KernelIdeal.main_v91)
      = concatenate Cert.KernelIdeal.S40000x68 1 [⟨Cert.KernelIdeal.S40000x62, after Cert.KernelIdeal.Gen.hostOps4 V (Proc.devRef .tc Cert.KernelIdeal.main_v82)⟩, ⟨Cert.KernelIdeal.S40000x6, after Cert.KernelIdeal.Gen.hostOps4 V (Proc.devRef .tc Cert.KernelIdeal.main_v90)⟩]
          Cert.KernelIdeal.Gen.concatenates_S40000x62_S40000x6_S40000x68_d1 := rfl
  have er : after Cert.ReferenceIdeal.Stages.opsB V' (Proc.devRef .tc Cert.ReferenceIdeal.main_v113)
      = concatenate Cert.ReferenceIdeal.S40000x68 1 [⟨Cert.ReferenceIdeal.S40000x62, after Cert.ReferenceIdeal.Stages.opsB V' (Proc.devRef .tc Cert.ReferenceIdeal.main_v104)⟩, ⟨Cert.ReferenceIdeal.S40000x6, after Cert.ReferenceIdeal.Stages.opsB V' (Proc.devRef .tc Cert.ReferenceIdeal.main_v112)⟩]
          Cert.ReferenceIdeal.Gen.concatenates_S40000x62_S40000x6_S40000x68_d1 := rfl
  rw [ek, er]
  exact concat2_congr (d4_sumX V V' h0 hX) (d4_sumE V V' h1 hE) _ _

set_option maxHeartbeats 2000000 in
/-- Degree 4: the degree's weight matrix is the same slice of the stacked weights. -/
theorem d4_w (h13 : V' (Proc.devRef .tc Cert.ReferenceIdeal.main_arg13) = V (Proc.devRef .tc Cert.KernelIdeal.main_arg13)) :
    after Cert.KernelIdeal.Gen.hostOps4 V (Proc.devRef .tc Cert.KernelIdeal.main_v93) = after Cert.ReferenceIdeal.Stages.opsB V' (Proc.devRef .tc Cert.ReferenceIdeal.main_v115) := by
  after_results_simp
  rw [h13]
  rfl

set_option maxHeartbeats 2000000 in
/-- Degree 4: the degree's bias as a one-row matrix — a reshape in the kernel program, a broadcast along axis 1 in
    the reference — of the same slice of the stacked biases. -/
theorem d4_b (h14 : V' (Proc.devRef .tc Cert.ReferenceIdeal.main_arg14) = V (Proc.devRef .tc Cert.KernelIdeal.main_arg14)) :
    after Cert.KernelIdeal.Gen.hostOps4 V (Proc.devRef .tc Cert.KernelIdeal.main_v96) = after Cert.ReferenceIdeal.Stages.opsB V' (Proc.devRef .tc Cert.ReferenceIdeal.main_v119) := by
  after_results_simp
  rw [h14]
  exact Cert.LibDenseRows.oneRow_cast_eq_bcast _ _ _

set_option maxHeartbeats 4000000 in
/-- Degree 4: the reference's dense layer of the degree's rows is the layer row by row. -/
theorem d4_refDense :
    @Eq (FVec Ideal Cert.ReferenceIdeal.S40000x100 .f32) (after Cert.ReferenceIdeal.Stages.opsB V' (Proc.devRef .tc Cert.ReferenceIdeal.main_v121)) (Cert.LibDenseRows.denseArr (after Cert.ReferenceIdeal.Stages.opsB V' (Proc.devRef .tc Cert.ReferenceIdeal.main_v113) : FVec Ideal Cert.ReferenceIdeal.S40000x68 .f32) (after Cert.ReferenceIdeal.Stages.opsB V' (Proc.devRef .tc Cert.ReferenceIdeal.main_v115) : FVec Ideal Cert.ReferenceIdeal.S68x100 .f32) (after Cert.ReferenceIdeal.Stages.opsB V' (Proc.devRef .tc Cert.ReferenceIdeal.main_v119) : FVec Ideal Cert.ReferenceIdeal.S1x100 .f32)) := by
  have e : @Eq (FVec Ideal Cert.ReferenceIdeal.S40000x100 .f32) (after Cert.ReferenceIdeal.Stages.opsB V' (Proc.devRef .tc Cert.ReferenceIdeal.main_v121))
      (addf (Host.dotGeneral (φ₁ := .f32) (φ₂ := .f32) Cert.ReferenceIdeal.dot_S40000x68_S68x100_S40000x100_1_0_0_1_n_n none (after Cert.ReferenceIdeal.Stages.opsB V' (Proc.devRef .tc Cert.ReferenceIdeal.main_v113) : FVec Ideal Cert.ReferenceIdeal.S40000x68 .f32) (after Cert.ReferenceIdeal.Stages.opsB V' (Proc.devRef .tc Cert.ReferenceIdeal.main_v115) : FVec Ideal Cert.ReferenceIdeal.S68x100 .f32))
          (broadcastInDim Cert.ReferenceIdeal.S40000x100 ![0, 1] Cert.ReferenceIdeal.Gen.bcast_S1x100_S40000x100_0_1 (after Cert.ReferenceIdeal.Stages.opsB V' (Proc.devRef .tc Cert.ReferenceIdeal.main_v119) : FVec Ideal Cert.ReferenceIdeal.S1x100 .f32))) := by rfl
  rw [e]
  exact Cert.ReferenceIdeal.RefVal.host_dense_eq_of_plain _ _ _ _ _ rfl

end Degree4

end Cert.Sim

end
-- ==== Proof.Sim.Layer0Fin.lean ====
/-
  The first layer, the last step in the two programs, for arbitrary buffer contents.

  Both programs stack the four degrees' dense parts one under the other into an array D of 200000 rows.  The kernel
  program's finishing kernel adds D to a dense layer of the node array and normalises and rectifies each row; its
  bias row is a reshape of the bias vector.  The reference adds D to its dense layer of the node array, sums the
  squares of each row, takes the root, raises it to the floor, divides and rectifies: row i of the node array
  through the dense layer, plus row i of D, normalised and rectified.
-/
import proofs.«143046_j34703335751794_1_alg».proof.Proof.Gen.KernelIdeal.Launch
import proofs.«143046_j34703335751794_1_alg».proof.Proof.Ref.Stages
import proofs.«143046_j34703335751794_1_alg».proof.Proof.LibDenseRows
import proofs.«143046_j34703335751794_1_alg».proof.Proof.LibNormRows
import proofs.«143046_j34703335751794_1_alg».proof.Proof.Val.NormRef
import proofs.«143046_j34703335751794_1_alg».proof.Proof.Sim.Layer0Lib

set_option maxRecDepth 16384

noncomputable section

namespace Cert.Sim

open Idealize.ShloMosaic Idealize.ShloMosaic.TcCoe Idealize.SL.Sem Idealize.ShloMosaic.StableHlo

section Finish

variable (V : KVal) (V' : RVal)

set_option maxHeartbeats 4000000 in
/-- The kernel program's array of the four degrees' parts, one under the other. -/
theorem k_parts :
    after Cert.KernelIdeal.Gen.hostOps5 V (Proc.devRef .tc Cert.KernelIdeal.main_v98)
      = concatenate Cert.KernelIdeal.S200000x100 0
          [⟨Cert.KernelIdeal.S40000x100, V (Proc.devRef .tc Cert.KernelIdeal.main_v28)⟩, ⟨Cert.KernelIdeal.S60000x100, V (Proc.devRef .tc Cert.KernelIdeal.main_v51)⟩,
           ⟨Cert.KernelIdeal.S60000x100, V (Proc.devRef .tc Cert.KernelIdeal.main_v74)⟩, ⟨Cert.KernelIdeal.S40000x100, V (Proc.devRef .tc Cert.KernelIdeal.main_v97)⟩]
          Cert.KernelIdeal.Gen.concatenates_S40000x100_S60000x100_S60000x100_S40000x100_S200000x100_d0 := by rfl

set_option maxHeartbeats 4000000 in
/-- The reference's array of the four degrees' parts, one under the other. -/
theorem r_parts :
    after Cert.ReferenceIdeal.Stages.opsB V' (Proc.devRef .tc Cert.ReferenceIdeal.main_v122)
      = concatenate Cert.ReferenceIdeal.S200000x100 0
          [⟨Cert.ReferenceIdeal.S40000x100, after Cert.ReferenceIdeal.Stages.opsB V' (Proc.devRef .tc Cert.ReferenceIdeal.main_v46)⟩, ⟨Cert.ReferenceIdeal.S60000x100, after Cert.ReferenceIdeal.Stages.opsB V' (Proc.devRef .tc Cert.ReferenceIdeal.main_v71)⟩,
           ⟨Cert.ReferenceIdeal.S60000x100, after Cert.ReferenceIdeal.Stages.opsB V' (Proc.devRef .tc Cert.ReferenceIdeal.main_v96)⟩, ⟨Cert.ReferenceIdeal.S40000x100, after Cert.ReferenceIdeal.Stages.opsB V' (Proc.devRef .tc Cert.ReferenceIdeal.main_v121)⟩]
          Cert.ReferenceIdeal.Gen.concatenates_S40000x100_S60000x100_S60000x100_S40000x100_S200000x100_d0 := by rfl

set_option maxHeartbeats 2000000 in
/-- The kernel program's bias of the self part as a one-row matrix: a reshape of the bias vector. -/
theorem k_bias :
    after Cert.KernelIdeal.Gen.hostOps1 V (Proc.devRef .tc Cert.KernelIdeal.main_v5)
      = shapeCast Cert.KernelIdeal.S1x100 (V (Proc.devRef .tc Cert.KernelIdeal.main_arg12)) Cert.KernelIdeal.Gen.shapeCasts_S100_S1x100 := by
  after_results_simp
  rfl

open Cert.ReferenceIdeal Cert.ReferenceIdeal.Gen in
set_option maxHeartbeats 8000000 in
/-- The reference's finished first layer: row i of the node array through the dense layer, plus row i of the
    concatenated parts, normalised and rectified. -/
theorem r_layer :
    @Eq (FVec Ideal Cert.ReferenceIdeal.S200000x100 .f32) (after Cert.ReferenceIdeal.Stages.opsB V' (Proc.devRef .tc Cert.ReferenceIdeal.main_v129))
      (fun i => Cert.LibNormRows.normReluRow (fun j => Cert.LibDenseRows.denseRow
          (fun cc => (V' (Proc.devRef .tc Cert.ReferenceIdeal.main_arg0) : FVec Ideal Cert.ReferenceIdeal.S200000x62 .f32) (ValueIdx.ix2 (i 0 : Fin 200000) cc))
          (V' (Proc.devRef .tc Cert.ReferenceIdeal.main_arg11) : FVec Ideal Cert.ReferenceIdeal.S62x100 .f32)
          (broadcastInDim Cert.ReferenceIdeal.S1x100 ![1] Cert.ReferenceIdeal.Gen.bcast_S100_S1x100_1 (V' (Proc.devRef .tc Cert.ReferenceIdeal.main_arg12) : FVec Ideal Cert.ReferenceIdeal.S100 .f32)) j
          + (after Cert.ReferenceIdeal.Stages.opsB V' (Proc.devRef .tc Cert.ReferenceIdeal.main_v122) : FVec Ideal Cert.ReferenceIdeal.S200000x100 .f32) (ValueIdx.ix2 (i 0 : Fin 200000) j)) (i 1 : Fin 100)) := by
  have key : ∀ (D : FVec Ideal S200000x100 .f32) (x : FVec Ideal S200000x62 .f32) (W : FVec Ideal S62x100 .f32)
      (b : FVec Ideal S100 .f32), D = after Cert.ReferenceIdeal.Stages.opsB V' (Proc.devRef .tc Cert.ReferenceIdeal.main_v122) → x = V' (Proc.devRef .tc Cert.ReferenceIdeal.main_arg0) → W = V' (Proc.devRef .tc Cert.ReferenceIdeal.main_arg11)
      → b = V' (Proc.devRef .tc Cert.ReferenceIdeal.main_arg12) →
      @Eq (FVec Ideal S200000x100 .f32) (after Cert.ReferenceIdeal.Stages.opsB V' (Proc.devRef .tc Cert.ReferenceIdeal.main_v129))
        (maximumf (Host.divf (addf D (addf (Host.dotGeneral dot_S200000x62_S62x100_S200000x100_1_0_0_1_n_n none x W) (broadcastInDim S200000x100 ![0, 1] bcast_S1x100_S200000x100_0_1 (broadcastInDim S1x100 ![1] bcast_S100_S1x100_1 b)))) (broadcastInDim S200000x100 ![0, 1] bcast_S200000x1_S200000x100_0_1 (maximumf (Host.sqrt (broadcastInDim S200000x1 ![0] bcast_S200000_S200000x1_0 (Host.reduceAdd (F := Ideal) (mulf (addf D (addf (Host.dotGeneral dot_S200000x62_S62x100_S200000x100_1_0_0_1_n_n none x W) (broadcastInDim S200000x100 ![0, 1] bcast_S1x100_S200000x100_0_1 (broadcastInDim S1x100 ![1] bcast_S100_S1x100_1 b)))) (addf D (addf (Host.dotGeneral dot_S200000x62_S62x100_S200000x100_1_0_0_1_n_n none x W) (broadcastInDim S200000x100 ![0, 1] bcast_S1x100_S200000x100_0_1 (broadcastInDim S1x100 ![1] bcast_S100_S1x100_1 b))))) (constant (F := Ideal) S_ .f32 0x00000000#32) reducesTo_S200000x100_S200000_d1 h_S_))) (broadcastInDim S200000x1 ![] bcast_S_S200000x1 (constant (F := Ideal) S_ .f32 0x2B8CBCCC#32))))) (broadcastInDim S200000x100 ![] bcast_S_S200000x100 (constant (F := Ideal) S_ .f32 0x00000000#32))) := by
    intro D x W b hD hx hW hb
    subst hD; subst hx; subst hW; subst hb
    rfl
  exact (key _ _ _ _ rfl rfl rfl rfl).trans (Cert.ReferenceIdeal.RefVal.layer1_eq _ _ _ _)

end Finish

end Cert.Sim

end
-- ==== Proof.Sim.Layer0.lean ====
/-
  The first layer's output agrees between the two programs.

  On a core, let the two launch memories agree on the 25 argument arrays.  For each degree d = 1 … 4 the kernel program
  runs a dense kernel on the degree's gathered rows, weight slice and bias row, which its host operations computed
  from the argument arrays; the reference computes the same rows, slice and bias row and applies the dense layer to
  them: the degree's part is the same array.  The four parts stacked give the same array D; the kernel program's
  finishing kernel and the reference's last operations both produce, at row i, row i of the node array through the
  self dense layer plus row i of D, normalised and rectified.  Between a buffer's writing and its use no host operation
  and no kernel of the kernel program writes it, so it still holds what was written.
-/
import proofs.«143046_j34703335751794_1_alg».proof.Proof.KI.Hold
import proofs.«143046_j34703335751794_1_alg».proof.Proof.KI.Value1
import proofs.«143046_j34703335751794_1_alg».proof.Proof.KI.Value2
import proofs.«143046_j34703335751794_1_alg».proof.Proof.KI.Value3
import proofs.«143046_j34703335751794_1_alg».proof.Proof.KI.Value4
import proofs.«143046_j34703335751794_1_alg».proof.Proof.KI.Value5
import proofs.«143046_j34703335751794_1_alg».proof.Proof.Sim.Agree
import proofs.«143046_j34703335751794_1_alg».proof.Proof.Sim.Layer0D1
import proofs.«143046_j34703335751794_1_alg».proof.Proof.Sim.Layer0D2
import proofs.«143046_j34703335751794_1_alg».proof.Proof.Sim.Layer0D3
import proofs.«143046_j34703335751794_1_alg».proof.Proof.Sim.Layer0D4
import proofs.«143046_j34703335751794_1_alg».proof.Proof.Sim.Layer0Fin

set_option maxRecDepth 16384

noncomputable section

namespace Cert.Sim

open Idealize.ShloMosaic Idealize.ShloMosaic.TcCoe Idealize.SL.Sem Idealize.ShloMosaic.StableHlo
open Cert.KernelIdeal.Fr

set_option maxHeartbeats 4000000 in
/-- Degree 1: the dense layer of the degree's gathered rows is the same array in both programs. -/
theorem D1 (m : KMem) (m' : RMem) (c : Dev Cert.KernelIdeal.nD) (h : Agree m m' c) :
    W4 m c (Proc.devRef .tc Cert.KernelIdeal.main_v28) = Cert.ReferenceIdeal.Stages.Q2 m' c (Proc.devRef .tc Cert.ReferenceIdeal.main_v46) := by
  have e1 := d1_rows (W2 m c) (Cert.ReferenceIdeal.Stages.Q1 m' c) (((Cert.ReferenceIdeal.Stages.keepA m' c Cert.ReferenceIdeal.main_arg0 (by decide)).trans h.a0).trans ((W2_off m c Cert.KernelIdeal.main_arg0 (by decide)).trans (hold1 m c Cert.KernelIdeal.main_arg0 (by decide))).symm) (((Cert.ReferenceIdeal.Stages.keepA m' c Cert.ReferenceIdeal.main_arg1 (by decide)).trans h.a1).trans ((W2_off m c Cert.KernelIdeal.main_arg1 (by decide)).trans (hold1 m c Cert.KernelIdeal.main_arg1 (by decide))).symm) (((Cert.ReferenceIdeal.Stages.keepA m' c Cert.ReferenceIdeal.main_arg2 (by decide)).trans h.a2).trans ((W2_off m c Cert.KernelIdeal.main_arg2 (by decide)).trans (hold1 m c Cert.KernelIdeal.main_arg2 (by decide))).symm) (((Cert.ReferenceIdeal.Stages.keepA m' c Cert.ReferenceIdeal.main_arg3 (by decide)).trans h.a3).trans ((W2_off m c Cert.KernelIdeal.main_arg3 (by decide)).trans (hold1 m c Cert.KernelIdeal.main_arg3 (by decide))).symm)
  have e2 := d1_w (W2 m c) (Cert.ReferenceIdeal.Stages.Q1 m' c) (((Cert.ReferenceIdeal.Stages.keepA m' c Cert.ReferenceIdeal.main_arg13 (by decide)).trans h.a13).trans ((W2_off m c Cert.KernelIdeal.main_arg13 (by decide)).trans (hold1 m c Cert.KernelIdeal.main_arg13 (by decide))).symm)
  have e3 := d1_b (W2 m c) (Cert.ReferenceIdeal.Stages.Q1 m' c) (((Cert.ReferenceIdeal.Stages.keepA m' c Cert.ReferenceIdeal.main_arg14 (by decide)).trans h.a14).trans ((W2_off m c Cert.KernelIdeal.main_arg14 (by decide)).trans (hold1 m c Cert.KernelIdeal.main_arg14 (by decide))).symm)
  rw [W4_at, value1 (E3 m) c]
  refine Eq.trans ?_ (d1_refDense (Cert.ReferenceIdeal.Stages.Q1 m' c)).symm
  show Cert.LibDenseRows.denseArr (m := 40000) (k := 68) (n := 100) (after Cert.KernelIdeal.Gen.hostOps1 (W2 m c) (Proc.devRef .tc Cert.KernelIdeal.main_v22)) (after Cert.KernelIdeal.Gen.hostOps1 (W2 m c) (Proc.devRef .tc Cert.KernelIdeal.main_v24)) (after Cert.KernelIdeal.Gen.hostOps1 (W2 m c) (Proc.devRef .tc Cert.KernelIdeal.main_v27)) = _
  rw [e1, e2, e3]

set_option maxHeartbeats 4000000 in
/-- Degree 2: the dense layer of the degree's gathered rows is the same array in both programs. -/
theorem D2 (m : KMem) (m' : RMem) (c : Dev Cert.KernelIdeal.nD) (h : Agree m m' c) :
    W6 m c (Proc.devRef .tc Cert.KernelIdeal.main_v51) = Cert.ReferenceIdeal.Stages.Q2 m' c (Proc.devRef .tc Cert.ReferenceIdeal.main_v71) := by
  have e1 := d2_rows (W4 m c) (Cert.ReferenceIdeal.Stages.Q1 m' c) (((Cert.ReferenceIdeal.Stages.keepA m' c Cert.ReferenceIdeal.main_arg0 (by decide)).trans h.a0).trans ((W4_off m c Cert.KernelIdeal.main_arg0 (by decide)).trans ((hold3 m c Cert.KernelIdeal.main_arg0 (by decide)).trans ((W2_off m c Cert.KernelIdeal.main_arg0 (by decide)).trans (hold1 m c Cert.KernelIdeal.main_arg0 (by decide))))).symm) (((Cert.ReferenceIdeal.Stages.keepA m' c Cert.ReferenceIdeal.main_arg1 (by decide)).trans h.a1).trans ((W4_off m c Cert.KernelIdeal.main_arg1 (by decide)).trans ((hold3 m c Cert.KernelIdeal.main_arg1 (by decide)).trans ((W2_off m c Cert.KernelIdeal.main_arg1 (by decide)).trans (hold1 m c Cert.KernelIdeal.main_arg1 (by decide))))).symm) (((Cert.ReferenceIdeal.Stages.keepA m' c Cert.ReferenceIdeal.main_arg4 (by decide)).trans h.a4).trans ((W4_off m c Cert.KernelIdeal.main_arg4 (by decide)).trans ((hold3 m c Cert.KernelIdeal.main_arg4 (by decide)).trans ((W2_off m c Cert.KernelIdeal.main_arg4 (by decide)).trans (hold1 m c Cert.KernelIdeal.main_arg4 (by decide))))).symm) (((Cert.ReferenceIdeal.Stages.keepA m' c Cert.ReferenceIdeal.main_arg5 (by decide)).trans h.a5).trans ((W4_off m c Cert.KernelIdeal.main_arg5 (by decide)).trans ((hold3 m c Cert.KernelIdeal.main_arg5 (by decide)).trans ((W2_off m c Cert.KernelIdeal.main_arg5 (by decide)).trans (hold1 m c Cert.KernelIdeal.main_arg5 (by decide))))).symm)
  have e2 := d2_w (W4 m c) (Cert.ReferenceIdeal.Stages.Q1 m' c) (((Cert.ReferenceIdeal.Stages.keepA m' c Cert.ReferenceIdeal.main_arg13 (by decide)).trans h.a13).trans ((W4_off m c Cert.KernelIdeal.main_arg13 (by decide)).trans ((hold3 m c Cert.KernelIdeal.main_arg13 (by decide)).trans ((W2_off m c Cert.KernelIdeal.main_arg13 (by decide)).trans (hold1 m c Cert.KernelIdeal.main_arg13 (by decide))))).symm)
  have e3 := d2_b (W4 m c) (Cert.ReferenceIdeal.Stages.Q1 m' c) (((Cert.ReferenceIdeal.Stages.keepA m' c Cert.ReferenceIdeal.main_arg14 (by decide)).trans h.a14).trans ((W4_off m c Cert.KernelIdeal.main_arg14 (by decide)).trans ((hold3 m c Cert.KernelIdeal.main_arg14 (by decide)).trans ((W2_off m c Cert.KernelIdeal.main_arg14 (by decide)).trans (hold1 m c Cert.KernelIdeal.main_arg14 (by decide))))).symm)
  rw [W6_at, value2 (E5 m) c]
  refine Eq.trans ?_ (d2_refDense (Cert.ReferenceIdeal.Stages.Q1 m' c)).symm
  show Cert.LibDenseRows.denseArr (m := 60000) (k := 68) (n := 100) (after Cert.KernelIdeal.Gen.hostOps2 (W4 m c) (Proc.devRef .tc Cert.KernelIdeal.main_v45)) (after Cert.KernelIdeal.Gen.hostOps2 (W4 m c) (Proc.devRef .tc Cert.KernelIdeal.main_v47)) (after Cert.KernelIdeal.Gen.hostOps2 (W4 m c) (Proc.devRef .tc Cert.KernelIdeal.main_v50)) = _
  rw [e1, e2, e3]

set_option maxHeartbeats 4000000 in
/-- Degree 3: the dense layer of the degree's gathered rows is the same array in both programs. -/
theorem D3 (m : KMem) (m' : RMem) (c : Dev Cert.KernelIdeal.nD) (h : Agree m m' c) :
    W8 m c (Proc.devRef .tc Cert.KernelIdeal.main_v74) = Cert.ReferenceIdeal.Stages.Q2 m' c (Proc.devRef .tc Cert.ReferenceIdeal.main_v96) := by
  have e1 := d3_rows (W6 m c) (Cert.ReferenceIdeal.Stages.Q1 m' c) (((Cert.ReferenceIdeal.Stages.keepA m' c Cert.ReferenceIdeal.main_arg0 (by decide)).trans h.a0).trans ((W6_off m c Cert.KernelIdeal.main_arg0 (by decide)).trans ((hold5 m c Cert.KernelIdeal.main_arg0 (by decide)).trans ((W4_off m c Cert.KernelIdeal.main_arg0 (by decide)).trans ((hold3 m c Cert.KernelIdeal.main_arg0 (by decide)).trans ((W2_off m c Cert.KernelIdeal.main_arg0 (by decide)).trans (hold1 m c Cert.KernelIdeal.main_arg0 (by decide))))))).symm) (((Cert.ReferenceIdeal.Stages.keepA m' c Cert.ReferenceIdeal.main_arg1 (by decide)).trans h.a1).trans ((W6_off m c Cert.KernelIdeal.main_arg1 (by decide)).trans ((hold5 m c Cert.KernelIdeal.main_arg1 (by decide)).trans ((W4_off m c Cert.KernelIdeal.main_arg1 (by decide)).trans ((hold3 m c Cert.KernelIdeal.main_arg1 (by decide)).trans ((W2_off m c Cert.KernelIdeal.main_arg1 (by decide)).trans (hold1 m c Cert.KernelIdeal.main_arg1 (by decide))))))).symm) (((Cert.ReferenceIdeal.Stages.keepA m' c Cert.ReferenceIdeal.main_arg6 (by decide)).trans h.a6).trans ((W6_off m c Cert.KernelIdeal.main_arg6 (by decide)).trans ((hold5 m c Cert.KernelIdeal.main_arg6 (by decide)).trans ((W4_off m c Cert.KernelIdeal.main_arg6 (by decide)).trans ((hold3 m c Cert.KernelIdeal.main_arg6 (by decide)).trans ((W2_off m c Cert.KernelIdeal.main_arg6 (by decide)).trans (hold1 m c Cert.KernelIdeal.main_arg6 (by decide))))))).symm) (((Cert.ReferenceIdeal.Stages.keepA m' c Cert.ReferenceIdeal.main_arg7 (by decide)).trans h.a7).trans ((W6_off m c Cert.KernelIdeal.main_arg7 (by decide)).trans ((hold5 m c Cert.KernelIdeal.main_arg7 (by decide)).trans ((W4_off m c Cert.KernelIdeal.main_arg7 (by decide)).trans ((hold3 m c Cert.KernelIdeal.main_arg7 (by decide)).trans ((W2_off m c Cert.KernelIdeal.main_arg7 (by decide)).trans (hold1 m c Cert.KernelIdeal.main_arg7 (by decide))))))).symm)
  have e2 := d3_w (W6 m c) (Cert.ReferenceIdeal.Stages.Q1 m' c) (((Cert.ReferenceIdeal.Stages.keepA m' c Cert.ReferenceIdeal.main_arg13 (by decide)).trans h.a13).trans ((W6_off m c Cert.KernelIdeal.main_arg13 (by decide)).trans ((hold5 m c Cert.KernelIdeal.main_arg13 (by decide)).trans ((W4_off m c Cert.KernelIdeal.main_arg13 (by decide)).trans ((hold3 m c Cert.KernelIdeal.main_arg13 (by decide)).trans ((W2_off m c Cert.KernelIdeal.main_arg13 (by decide)).trans (hold1 m c Cert.KernelIdeal.main_arg13 (by decide))))))).symm)
  have e3 := d3_b (W6 m c) (Cert.ReferenceIdeal.Stages.Q1 m' c) (((Cert.ReferenceIdeal.Stages.keepA m' c Cert.ReferenceIdeal.main_arg14 (by decide)).trans h.a14).trans ((W6_off m c Cert.KernelIdeal.main_arg14 (by decide)).trans ((hold5 m c Cert.KernelIdeal.main_arg14 (by decide)).trans ((W4_off m c Cert.KernelIdeal.main_arg14 (by decide)).trans ((hold3 m c Cert.KernelIdeal.main_arg14 (by decide)).trans ((W2_off m c Cert.KernelIdeal.main_arg14 (by decide)).trans (hold1 m c Cert.KernelIdeal.main_arg14 (by decide))))))).symm)
  rw [W8_at, value3 (E7 m) c]
  refine Eq.trans ?_ (d3_refDense (Cert.ReferenceIdeal.Stages.Q1 m' c)).symm
  show Cert.LibDenseRows.denseArr (m := 60000) (k := 68) (n := 100) (after Cert.KernelIdeal.Gen.hostOps3 (W6 m c) (Proc.devRef .tc Cert.KernelIdeal.main_v68)) (after Cert.KernelIdeal.Gen.hostOps3 (W6 m c) (Proc.devRef .tc Cert.KernelIdeal.main_v70)) (after Cert.KernelIdeal.Gen.hostOps3 (W6 m c) (Proc.devRef .tc Cert.KernelIdeal.main_v73)) = _
  rw [e1, e2, e3]

set_option maxHeartbeats 4000000 in
/-- Degree 4: the dense layer of the degree's gathered rows is the same array in both programs. -/
theorem D4 (m : KMem) (m' : RMem) (c : Dev Cert.KernelIdeal.nD) (h : Agree m m' c) :
    W10 m c (Proc.devRef .tc Cert.KernelIdeal.main_v97) = Cert.ReferenceIdeal.Stages.Q2 m' c (Proc.devRef .tc Cert.ReferenceIdeal.main_v121) := by
  have e1 := d4_rows (W8 m c) (Cert.ReferenceIdeal.Stages.Q1 m' c) (((Cert.ReferenceIdeal.Stages.keepA m' c Cert.ReferenceIdeal.main_arg0 (by decide)).trans h.a0).trans ((W8_off m c Cert.KernelIdeal.main_arg0 (by decide)).trans ((hold7 m c Cert.KernelIdeal.main_arg0 (by decide)).trans ((W6_off m c Cert.KernelIdeal.main_arg0 (by decide)).trans ((hold5 m c Cert.KernelIdeal.main_arg0 (by decide)).trans ((W4_off m c Cert.KernelIdeal.main_arg0 (by decide)).trans ((hold3 m c Cert.KernelIdeal.main_arg0 (by decide)).trans ((W2_off m c Cert.KernelIdeal.main_arg0 (by decide)).trans (hold1 m c Cert.KernelIdeal.main_arg0 (by decide))))))))).symm) (((Cert.ReferenceIdeal.Stages.keepA m' c Cert.ReferenceIdeal.main_arg1 (by decide)).trans h.a1).trans ((W8_off m c Cert.KernelIdeal.main_arg1 (by decide)).trans ((hold7 m c Cert.KernelIdeal.main_arg1 (by decide)).trans ((W6_off m c Cert.KernelIdeal.main_arg1 (by decide)).trans ((hold5 m c Cert.KernelIdeal.main_arg1 (by decide)).trans ((W4_off m c Cert.KernelIdeal.main_arg1 (by decide)).trans ((hold3 m c Cert.KernelIdeal.main_arg1 (by decide)).trans ((W2_off m c Cert.KernelIdeal.main_arg1 (by decide)).trans (hold1 m c Cert.KernelIdeal.main_arg1 (by decide))))))))).symm) (((Cert.ReferenceIdeal.Stages.keepA m' c Cert.ReferenceIdeal.main_arg8 (by decide)).trans h.a8).trans ((W8_off m c Cert.KernelIdeal.main_arg8 (by decide)).trans ((hold7 m c Cert.KernelIdeal.main_arg8 (by decide)).trans ((W6_off m c Cert.KernelIdeal.main_arg8 (by decide)).trans ((hold5 m c Cert.KernelIdeal.main_arg8 (by decide)).trans ((W4_off m c Cert.KernelIdeal.main_arg8 (by decide)).trans ((hold3 m c Cert.KernelIdeal.main_arg8 (by decide)).trans ((W2_off m c Cert.KernelIdeal.main_arg8 (by decide)).trans (hold1 m c Cert.KernelIdeal.main_arg8 (by decide))))))))).symm) (((Cert.ReferenceIdeal.Stages.keepA m' c Cert.ReferenceIdeal.main_arg9 (by decide)).trans h.a9).trans ((W8_off m c Cert.KernelIdeal.main_arg9 (by decide)).trans ((hold7 m c Cert.KernelIdeal.main_arg9 (by decide)).trans ((W6_off m c Cert.KernelIdeal.main_arg9 (by decide)).trans ((hold5 m c Cert.KernelIdeal.main_arg9 (by decide)).trans ((W4_off m c Cert.KernelIdeal.main_arg9 (by decide)).trans ((hold3 m c Cert.KernelIdeal.main_arg9 (by decide)).trans ((W2_off m c Cert.KernelIdeal.main_arg9 (by decide)).trans (hold1 m c Cert.KernelIdeal.main_arg9 (by decide))))))))).symm)
  have e2 := d4_w (W8 m c) (Cert.ReferenceIdeal.Stages.Q1 m' c) (((Cert.ReferenceIdeal.Stages.keepA m' c Cert.ReferenceIdeal.main_arg13 (by decide)).trans h.a13).trans ((W8_off m c Cert.KernelIdeal.main_arg13 (by decide)).trans ((hold7 m c Cert.KernelIdeal.main_arg13 (by decide)).trans ((W6_off m c Cert.KernelIdeal.main_arg13 (by decide)).trans ((hold5 m c Cert.KernelIdeal.main_arg13 (by decide)).trans ((W4_off m c Cert.KernelIdeal.main_arg13 (by decide)).trans ((hold3 m c Cert.KernelIdeal.main_arg13 (by decide)).trans ((W2_off m c Cert.KernelIdeal.main_arg13 (by decide)).trans (hold1 m c Cert.KernelIdeal.main_arg13 (by decide))))))))).symm)
  have e3 := d4_b (W8 m c) (Cert.ReferenceIdeal.Stages.Q1 m' c) (((Cert.ReferenceIdeal.Stages.keepA m' c Cert.ReferenceIdeal.main_arg14 (by decide)).trans h.a14).trans ((W8_off m c Cert.KernelIdeal.main_arg14 (by decide)).trans ((hold7 m c Cert.KernelIdeal.main_arg14 (by decide)).trans ((W6_off m c Cert.KernelIdeal.main_arg14 (by decide)).trans ((hold5 m c Cert.KernelIdeal.main_arg14 (by decide)).trans ((W4_off m c Cert.KernelIdeal.main_arg14 (by decide)).trans ((hold3 m c Cert.KernelIdeal.main_arg14 (by decide)).trans ((W2_off m c Cert.KernelIdeal.main_arg14 (by decide)).trans (hold1 m c Cert.KernelIdeal.main_arg14 (by decide))))))))).symm)
  rw [W10_at, value4 (E9 m) c]
  refine Eq.trans ?_ (d4_refDense (Cert.ReferenceIdeal.Stages.Q1 m' c)).symm
  show Cert.LibDenseRows.denseArr (m := 40000) (k := 68) (n := 100) (after Cert.KernelIdeal.Gen.hostOps4 (W8 m c) (Proc.devRef .tc Cert.KernelIdeal.main_v91)) (after Cert.KernelIdeal.Gen.hostOps4 (W8 m c) (Proc.devRef .tc Cert.KernelIdeal.main_v93)) (after Cert.KernelIdeal.Gen.hostOps4 (W8 m c) (Proc.devRef .tc Cert.KernelIdeal.main_v96)) = _
  rw [e1, e2, e3]

set_option maxHeartbeats 8000000 in
/-- The first layer's output is the same array in both programs: the kernel program's finishing kernel's result and
    the reference's rectified, normalised sum. -/
theorem layer0_agree (m : KMem) (m' : RMem) (c : Dev Cert.KernelIdeal.nD) (h : Agree m m' c) :
    W12 m c (Proc.devRef .tc Cert.KernelIdeal.main_v99) = Cert.ReferenceIdeal.Stages.Q2 m' c (Proc.devRef .tc Cert.ReferenceIdeal.main_v129) := by
  have hx : W11 m c (Proc.devRef .tc Cert.KernelIdeal.main_arg0) = Cert.ReferenceIdeal.Stages.Q1 m' c (Proc.devRef .tc Cert.ReferenceIdeal.main_arg0) := (((Cert.ReferenceIdeal.Stages.keepA m' c Cert.ReferenceIdeal.main_arg0 (by decide)).trans h.a0).trans ((hold11 m c Cert.KernelIdeal.main_arg0 (by decide)).trans ((W10_off m c Cert.KernelIdeal.main_arg0 (by decide)).trans ((hold9 m c Cert.KernelIdeal.main_arg0 (by decide)).trans ((W8_off m c Cert.KernelIdeal.main_arg0 (by decide)).trans ((hold7 m c Cert.KernelIdeal.main_arg0 (by decide)).trans ((W6_off m c Cert.KernelIdeal.main_arg0 (by decide)).trans ((hold5 m c Cert.KernelIdeal.main_arg0 (by decide)).trans ((W4_off m c Cert.KernelIdeal.main_arg0 (by decide)).trans ((hold3 m c Cert.KernelIdeal.main_arg0 (by decide)).trans ((W2_off m c Cert.KernelIdeal.main_arg0 (by decide)).trans (hold1 m c Cert.KernelIdeal.main_arg0 (by decide)))))))))))).symm).symm
  have hW : W11 m c (Proc.devRef .tc Cert.KernelIdeal.main_arg11) = Cert.ReferenceIdeal.Stages.Q1 m' c (Proc.devRef .tc Cert.ReferenceIdeal.main_arg11) := (((Cert.ReferenceIdeal.Stages.keepA m' c Cert.ReferenceIdeal.main_arg11 (by decide)).trans h.a11).trans ((hold11 m c Cert.KernelIdeal.main_arg11 (by decide)).trans ((W10_off m c Cert.KernelIdeal.main_arg11 (by decide)).trans ((hold9 m c Cert.KernelIdeal.main_arg11 (by decide)).trans ((W8_off m c Cert.KernelIdeal.main_arg11 (by decide)).trans ((hold7 m c Cert.KernelIdeal.main_arg11 (by decide)).trans ((W6_off m c Cert.KernelIdeal.main_arg11 (by decide)).trans ((hold5 m c Cert.KernelIdeal.main_arg11 (by decide)).trans ((W4_off m c Cert.KernelIdeal.main_arg11 (by decide)).trans ((hold3 m c Cert.KernelIdeal.main_arg11 (by decide)).trans ((W2_off m c Cert.KernelIdeal.main_arg11 (by decide)).trans (hold1 m c Cert.KernelIdeal.main_arg11 (by decide)))))))))))).symm).symm
  have hb12 : Cert.ReferenceIdeal.Stages.Q1 m' c (Proc.devRef .tc Cert.ReferenceIdeal.main_arg12) = W2 m c (Proc.devRef .tc Cert.KernelIdeal.main_arg12) := (((Cert.ReferenceIdeal.Stages.keepA m' c Cert.ReferenceIdeal.main_arg12 (by decide)).trans h.a12).trans ((W2_off m c Cert.KernelIdeal.main_arg12 (by decide)).trans (hold1 m c Cert.KernelIdeal.main_arg12 (by decide))).symm)
  have hb : W11 m c (Proc.devRef .tc Cert.KernelIdeal.main_v5)
      = broadcastInDim Cert.ReferenceIdeal.S1x100 ![1] Cert.ReferenceIdeal.Gen.bcast_S100_S1x100_1 (Cert.ReferenceIdeal.Stages.Q1 m' c (Proc.devRef .tc Cert.ReferenceIdeal.main_arg12)) := by
    refine ((hold11 m c Cert.KernelIdeal.main_v5 (by decide)).trans ((W10_off m c Cert.KernelIdeal.main_v5 (by decide)).trans ((hold9 m c Cert.KernelIdeal.main_v5 (by decide)).trans ((W8_off m c Cert.KernelIdeal.main_v5 (by decide)).trans ((hold7 m c Cert.KernelIdeal.main_v5 (by decide)).trans ((W6_off m c Cert.KernelIdeal.main_v5 (by decide)).trans ((hold5 m c Cert.KernelIdeal.main_v5 (by decide)).trans (W4_off m c Cert.KernelIdeal.main_v5 (by decide))))))))).trans ?_
    show after Cert.KernelIdeal.Gen.hostOps1 (W2 m c) (Proc.devRef .tc Cert.KernelIdeal.main_v5) = _
    rw [k_bias (W2 m c), hb12]
    exact Cert.LibDenseRows.oneRow_cast_eq_bcast _ _ _
  have hD : W11 m c (Proc.devRef .tc Cert.KernelIdeal.main_v98) = after Cert.ReferenceIdeal.Stages.opsB (Cert.ReferenceIdeal.Stages.Q1 m' c) (Proc.devRef .tc Cert.ReferenceIdeal.main_v122) := by
    show after Cert.KernelIdeal.Gen.hostOps5 (W10 m c) (Proc.devRef .tc Cert.KernelIdeal.main_v98) = _
    rw [k_parts (W10 m c), r_parts (Cert.ReferenceIdeal.Stages.Q1 m' c)]
    exact concat4_congr (((W10_off m c Cert.KernelIdeal.main_v28 (by decide)).trans ((hold9 m c Cert.KernelIdeal.main_v28 (by decide)).trans ((W8_off m c Cert.KernelIdeal.main_v28 (by decide)).trans ((hold7 m c Cert.KernelIdeal.main_v28 (by decide)).trans ((W6_off m c Cert.KernelIdeal.main_v28 (by decide)).trans (hold5 m c Cert.KernelIdeal.main_v28 (by decide))))))).trans (D1 m m' c h)) (((W10_off m c Cert.KernelIdeal.main_v51 (by decide)).trans ((hold9 m c Cert.KernelIdeal.main_v51 (by decide)).trans ((W8_off m c Cert.KernelIdeal.main_v51 (by decide)).trans (hold7 m c Cert.KernelIdeal.main_v51 (by decide))))).trans (D2 m m' c h))
      (((W10_off m c Cert.KernelIdeal.main_v74 (by decide)).trans (hold9 m c Cert.KernelIdeal.main_v74 (by decide))).trans (D3 m m' c h)) (D4 m m' c h) _ _
  rw [W12_at, value5 (E11 m) c]
  refine Eq.trans ?_ (r_layer (Cert.ReferenceIdeal.Stages.Q1 m' c)).symm
  show Cert.LibNormRows.normReluArr (m := 200000) (n := 100) (fun i => Cert.LibDenseRows.denseArr (m := 200000) (k := 62) (n := 100)
      (W11 m c (Proc.devRef .tc Cert.KernelIdeal.main_arg0)) (W11 m c (Proc.devRef .tc Cert.KernelIdeal.main_arg11)) (W11 m c (Proc.devRef .tc Cert.KernelIdeal.main_v5)) i
      + W11 m c (Proc.devRef .tc Cert.KernelIdeal.main_v98) i) = _
  rw [hx, hW, hb, hD]
  rfl

end Cert.Sim

end
-- ==== Proof.KI.Cover7.lean ====
/-
  pallas_call 7: where its blocks sit in their arrays. Grid point t handles rows 2000·t … 2000·t + 1999: the blocks of the
  row-blocked windows (the first input and the output) are those rows, full width; the weight and the bias row
  are whole at every point. So a row-blocked window's block at (p, q) is its array at (2000·t + p, q), a whole window's block
  is its array, and the output's blocks cover its array: row r lies in the block of point r / 2000.
-/
import proofs.«143046_j34703335751794_1_alg».proof.Proof.KI.Region7
import Idealize.ShloMosaic.Lib.Pipeline.Value
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (V : (c : Dev nD) → (b : Ref sig .tc) → Buf (Elt F) ((c : Thread nD τ).loc b))

/-- The printed index maps, decided over the grid. -/
theorem maps7 : ∀ t : Fin cfg7.N, win7_0.index t (0 : Fin 2) = t.val
    ∧ win7_0.index t (1 : Fin 2) = 0
    ∧ win7_3.index t (0 : Fin 2) = t.val
    ∧ win7_3.index t (1 : Fin 2) = 0
    ∧ win7_1.index t (0 : Fin 2) = 0
    ∧ win7_1.index t (1 : Fin 2) = 0
    ∧ win7_2.index t (0 : Fin 2) = 0
    ∧ win7_2.index t (1 : Fin 2) = 0 :=
  (by decide +kernel : ∀ t : Fin grid7.N, _)

theorem pts7 : cfg7.N = 20 := N_7

/-- A row-blocked input's block at (p, q) is its array at (2000·t + p, q). -/
theorem rows7_0 (c : Dev nD) (t : Fin cfg7.N) (p : Fin 2000) (q : Fin 106) (hb : t.val * 2000 + p.val < 40000) :
    blk7 V c 0 t (ix2 p q) = V c main_v123 (ix2 (⟨t.val * 2000 + p.val, hb⟩ : Fin 40000) q) := by
  show V c main_v123 (((cfg7.win 0).blk t).view.emb (ix2 p q)) = _
  refine congrArg _ (funext fun a => Fin.ext ?_)
  obtain ⟨h0, h1, h2, h3, h4, h5, h6, h7⟩ := maps7 t
  match a with
  | ⟨0, _⟩ => show win7_0.index t (0 : Fin 2) * 2000 + 1 * p.val = t.val * 2000 + p.val; omega
  | ⟨1, _⟩ => show win7_0.index t (1 : Fin 2) * 106 + 1 * q.val = q.val; omega

/-- A whole window's block is its array. -/
theorem all7_1 (c : Dev nD) (t : Fin cfg7.N) (y : S106x100.Idx) : blk7 V c 1 t y = V c main_v125 y := by
  show V c main_v125 (((cfg7.win 1).blk t).view.emb y) = _
  refine congrArg _ (funext fun a => Fin.ext ?_)
  obtain ⟨h0, h1, h2, h3, h4, h5, h6, h7⟩ := maps7 t
  match a with
  | ⟨0, _⟩ => show win7_1.index t (0 : Fin 2) * 106 + 1 * (y 0).val = (y 0).val; omega
  | ⟨1, _⟩ => show win7_1.index t (1 : Fin 2) * 100 + 1 * (y 1).val = (y 1).val; omega

/-- A whole window's block is its array. -/
theorem all7_2 (c : Dev nD) (t : Fin cfg7.N) (y : S1x100.Idx) : blk7 V c 2 t y = V c main_v128 y := by
  show V c main_v128 (((cfg7.win 2).blk t).view.emb y) = _
  refine congrArg _ (funext fun a => Fin.ext ?_)
  obtain ⟨h0, h1, h2, h3, h4, h5, h6, h7⟩ := maps7 t
  match a with
  | ⟨0, _⟩ => show win7_2.index t (0 : Fin 2) * 1 + 1 * (y 0).val = (y 0).val; omega
  | ⟨1, _⟩ => show win7_2.index t (1 : Fin 2) * 100 + 1 * (y 1).val = (y 1).val; omega

/-- Where the output's block sits: (p, q) of point t's block is (2000·t + p, q) of the array. -/
theorem outRow7 (t : Fin cfg7.N) (y : S2000x100.Idx) :
    (((cfg7.win 3).blk t).view.emb y (0 : Fin 2)).val = t.val * 2000 + (y 0).val := by
  obtain ⟨h0, h1, h2, h3, h4, h5, h6, h7⟩ := maps7 t
  show win7_3.index t (0 : Fin 2) * 2000 + 1 * (y 0).val = _
  omega
theorem outCol7 (t : Fin cfg7.N) (y : S2000x100.Idx) :
    (((cfg7.win 3).blk t).view.emb y (1 : Fin 2)).val = (y 1).val := by
  obtain ⟨h0, h1, h2, h3, h4, h5, h6, h7⟩ := maps7 t
  show win7_3.index t (1 : Fin 2) * 100 + 1 * (y 1).val = _
  omega

/-- An index of the output array is in point t's block iff its row is among the point's rows. -/
theorem inBlock7 (t : Fin cfg7.N) (i : S40000x100.Idx) :
    i ∈ ((cfg7.win 3).blk t).view.set ↔ ∀ a : Fin 2, win7_3.index t a * S2000x100.size a ≤ (i a).val ∧ (i a).val < win7_3.index t a * S2000x100.size a + S2000x100.size a := by
  show i ∈ ((View.whole main_v129).slice (win7_3.rect t)).set ↔ _
  rw [View.set_slice_whole, Rect.mem_set_unit]
  exact Iff.rfl

/-- The output's blocks cover its array. -/
theorem covered7 (i : S40000x100.Idx) : ∃ t : Fin cfg7.N, (cfg7.win 3).flush t = true ∧ i ∈ ((cfg7.win 3).blk t).view.set := by
  have hi0 : (i 0).val < 40000 := (i 0).isLt
  have hi1 : (i 1).val < 100 := (i 1).isLt
  refine ⟨⟨(i 0).val / 2000, by rw [pts7]; omega⟩, flush7_3 _, ?_⟩
  rw [inBlock7]
  obtain ⟨h0, h1, h2, h3, h4, h5, h6, h7⟩ := maps7 ⟨(i 0).val / 2000, by rw [pts7]; omega⟩
  intro a
  match a with
  | ⟨0, _⟩ => show win7_3.index _ (0 : Fin 2) * 2000 ≤ (i 0).val ∧ (i 0).val < win7_3.index _ (0 : Fin 2) * 2000 + 2000; simp only at *; omega
  | ⟨1, _⟩ => show win7_3.index _ (1 : Fin 2) * 100 ≤ (i 1).val ∧ (i 1).val < win7_3.index _ (1 : Fin 2) * 100 + 100; simp only at *; omega

end Cert.KernelIdeal.Fr

end
-- ==== Proof.KI.Value7.lean ====
/-
  What pallas_call 7 leaves in its result array at the ideal instance: the dense layer of its first input.
  Point t writes rows 2000·t … 2000·t + 1999; at (p, q) of its block the body's value depends on the first input only
  through row p of the block, which is row 2000·t + p of the array, and the blocks cover the result array.
-/
import proofs.«143046_j34703335751794_1_alg».proof.Proof.KI.Cover7
import proofs.«143046_j34703335751794_1_alg».proof.Proof.Val.Norm

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Cert.LibDenseRows Cert.LibNormRows Cert.KernelIdeal.Val

variable (V : (c : Dev nD) → (b : Ref sig .tc) → Buf (Elt Ideal) ((c : Thread nD τ).loc b))

theorem corner7 : (![0, 0] : Fin 2 → Nat) = fun _ => 0 := funext fun a => by fin_cases a <;> rfl

theorem value7 (c : Dev nD) :
    (dat7 (F := Ideal) V c).arrAt 3 cfg7.N = denseArr (m := 40000) (k := 106) (n := 100) (V c main_v123) (V c main_v125) (V c main_v128) := by
  refine (dat7 (F := Ideal) V c).arrAt_eq_of_cover 3 _ (fun t _ => ?_) (covered7)
  show (cfg7.win 3).cut (grid7.coords t) ((dat7 (F := Ideal) V c).after 3 t) = _
  rw [left7_3]
  funext y
  obtain ⟨p, q, rfl⟩ : ∃ (p : Fin 2000) (q : Fin 100), y = ix2 p q := ⟨y 0, y 1, eq_ix2 y⟩
  have ht : t.val < 20 := lt_of_lt_of_eq t.isLt pts7
  have hb : t.val * 2000 + p.val < 40000 := by have := p.isLt; omega
  have e0 : ((cfg7.win 3).blk t).view.emb (ix2 p q) = ix2 (⟨t.val * 2000 + p.val, hb⟩ : Fin 40000) q :=
    funext fun a => Fin.ext (by
      match a with
      | ⟨0, _⟩ => exact outRow7 t (ix2 p q)
      | ⟨1, _⟩ => exact outCol7 t (ix2 p q))
  show stored7 (blk7 V c 0 t : Vec Ideal S2000x106 .f32) (blk7 V c 1 t : Vec Ideal S106x100 .f32) (blk7 V c 2 t : Vec Ideal S1x100 .f32) (ix2 p q)
      = (denseArr (m := 40000) (k := 106) (n := 100) (V c main_v123) (V c main_v125) (V c main_v128)) (((cfg7.win 3).blk t).view.emb (ix2 p q))
  rw [e0]
  unfold stored7
  rw [View.canon_unit_zero corner7]
  simp only [View.ld_unit_zero (S := S2000x106) corner7, View.ld_unit_zero (S := S106x100) corner7, View.ld_unit_zero (S := S1x100) corner7]
  refine (pay7_apply (blk7 V c 0 t : Vec Ideal S2000x106 .f32) (blk7 V c 1 t : Vec Ideal S106x100 .f32) (blk7 V c 2 t : Vec Ideal S1x100 .f32) p q).trans ?_
  show denseRow (fun cc => (blk7 V c 0 t : Vec Ideal S2000x106 .f32) (ix2 p cc)) (blk7 V c 1 t : Vec Ideal S106x100 .f32) (blk7 V c 2 t : Vec Ideal S1x100 .f32) q = denseRow (fun cc => V c main_v123 (ix2 (⟨t.val * 2000 + p.val, hb⟩ : Fin 40000) cc)) (V c main_v125) (V c main_v128) q
  have h0 : (fun cc => (blk7 V c 0 t : Vec Ideal S2000x106 .f32) (ix2 p cc)) = fun cc => V c main_v123 (ix2 (⟨t.val * 2000 + p.val, hb⟩ : Fin 40000) cc) :=
    funext fun cc => rows7_0 V c t p cc hb
  have h1 : (blk7 V c 1 t : Vec Ideal S106x100 .f32) = V c main_v125 := funext (all7_1 V c t)
  have h2 : (blk7 V c 2 t : Vec Ideal S1x100 .f32) = V c main_v128 := funext (all7_2 V c t)
  rw [h0, h1, h2]

end Cert.KernelIdeal.Fr

end
-- ==== Proof.KI.Cover8.lean ====
/-
  pallas_call 8: where its blocks sit in their arrays. Grid point t handles rows 2000·t … 2000·t + 1999: the blocks of the
  row-blocked windows (the first input and the output) are those rows, full width; the weight and the bias row
  are whole at every point. So a row-blocked window's block at (p, q) is its array at (2000·t + p, q), a whole window's block
  is its array, and the output's blocks cover its array: row r lies in the block of point r / 2000.
-/
import proofs.«143046_j34703335751794_1_alg».proof.Proof.KI.Region8
import Idealize.ShloMosaic.Lib.Pipeline.Value
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (V : (c : Dev nD) → (b : Ref sig .tc) → Buf (Elt F) ((c : Thread nD τ).loc b))

/-- The printed index maps, decided over the grid. -/
theorem maps8 : ∀ t : Fin cfg8.N, win8_0.index t (0 : Fin 2) = t.val
    ∧ win8_0.index t (1 : Fin 2) = 0
    ∧ win8_3.index t (0 : Fin 2) = t.val
    ∧ win8_3.index t (1 : Fin 2) = 0
    ∧ win8_1.index t (0 : Fin 2) = 0
    ∧ win8_1.index t (1 : Fin 2) = 0
    ∧ win8_2.index t (0 : Fin 2) = 0
    ∧ win8_2.index t (1 : Fin 2) = 0 :=
  (by decide +kernel : ∀ t : Fin grid8.N, _)

theorem pts8 : cfg8.N = 30 := N_8

/-- A row-blocked input's block at (p, q) is its array at (2000·t + p, q). -/
theorem rows8_0 (c : Dev nD) (t : Fin cfg8.N) (p : Fin 2000) (q : Fin 106) (hb : t.val * 2000 + p.val < 60000) :
    blk8 V c 0 t (ix2 p q) = V c main_v146 (ix2 (⟨t.val * 2000 + p.val, hb⟩ : Fin 60000) q) := by
  show V c main_v146 (((cfg8.win 0).blk t).view.emb (ix2 p q)) = _
  refine congrArg _ (funext fun a => Fin.ext ?_)
  obtain ⟨h0, h1, h2, h3, h4, h5, h6, h7⟩ := maps8 t
  match a with
  | ⟨0, _⟩ => show win8_0.index t (0 : Fin 2) * 2000 + 1 * p.val = t.val * 2000 + p.val; omega
  | ⟨1, _⟩ => show win8_0.index t (1 : Fin 2) * 106 + 1 * q.val = q.val; omega

/-- A whole window's block is its array. -/
theorem all8_1 (c : Dev nD) (t : Fin cfg8.N) (y : S106x100.Idx) : blk8 V c 1 t y = V c main_v148 y := by
  show V c main_v148 (((cfg8.win 1).blk t).view.emb y) = _
  refine congrArg _ (funext fun a => Fin.ext ?_)
  obtain ⟨h0, h1, h2, h3, h4, h5, h6, h7⟩ := maps8 t
  match a with
  | ⟨0, _⟩ => show win8_1.index t (0 : Fin 2) * 106 + 1 * (y 0).val = (y 0).val; omega
  | ⟨1, _⟩ => show win8_1.index t (1 : Fin 2) * 100 + 1 * (y 1).val = (y 1).val; omega

/-- A whole window's block is its array. -/
theorem all8_2 (c : Dev nD) (t : Fin cfg8.N) (y : S1x100.Idx) : blk8 V c 2 t y = V c main_v151 y := by
  show V c main_v151 (((cfg8.win 2).blk t).view.emb y) = _
  refine congrArg _ (funext fun a => Fin.ext ?_)
  obtain ⟨h0, h1, h2, h3, h4, h5, h6, h7⟩ := maps8 t
  match a with
  | ⟨0, _⟩ => show win8_2.index t (0 : Fin 2) * 1 + 1 * (y 0).val = (y 0).val; omega
  | ⟨1, _⟩ => show win8_2.index t (1 : Fin 2) * 100 + 1 * (y 1).val = (y 1).val; omega

/-- Where the output's block sits: (p, q) of point t's block is (2000·t + p, q) of the array. -/
theorem outRow8 (t : Fin cfg8.N) (y : S2000x100.Idx) :
    (((cfg8.win 3).blk t).view.emb y (0 : Fin 2)).val = t.val * 2000 + (y 0).val := by
  obtain ⟨h0, h1, h2, h3, h4, h5, h6, h7⟩ := maps8 t
  show win8_3.index t (0 : Fin 2) * 2000 + 1 * (y 0).val = _
  omega
theorem outCol8 (t : Fin cfg8.N) (y : S2000x100.Idx) :
    (((cfg8.win 3).blk t).view.emb y (1 : Fin 2)).val = (y 1).val := by
  obtain ⟨h0, h1, h2, h3, h4, h5, h6, h7⟩ := maps8 t
  show win8_3.index t (1 : Fin 2) * 100 + 1 * (y 1).val = _
  omega

/-- An index of the output array is in point t's block iff its row is among the point's rows. -/
theorem inBlock8 (t : Fin cfg8.N) (i : S60000x100.Idx) :
    i ∈ ((cfg8.win 3).blk t).view.set ↔ ∀ a : Fin 2, win8_3.index t a * S2000x100.size a ≤ (i a).val ∧ (i a).val < win8_3.index t a * S2000x100.size a + S2000x100.size a := by
  show i ∈ ((View.whole main_v152).slice (win8_3.rect t)).set ↔ _
  rw [View.set_slice_whole, Rect.mem_set_unit]
  exact Iff.rfl

/-- The output's blocks cover its array. -/
theorem covered8 (i : S60000x100.Idx) : ∃ t : Fin cfg8.N, (cfg8.win 3).flush t = true ∧ i ∈ ((cfg8.win 3).blk t).view.set := by
  have hi0 : (i 0).val < 60000 := (i 0).isLt
  have hi1 : (i 1).val < 100 := (i 1).isLt
  refine ⟨⟨(i 0).val / 2000, by rw [pts8]; omega⟩, flush8_3 _, ?_⟩
  rw [inBlock8]
  obtain ⟨h0, h1, h2, h3, h4, h5, h6, h7⟩ := maps8 ⟨(i 0).val / 2000, by rw [pts8]; omega⟩
  intro a
  match a with
  | ⟨0, _⟩ => show win8_3.index _ (0 : Fin 2) * 2000 ≤ (i 0).val ∧ (i 0).val < win8_3.index _ (0 : Fin 2) * 2000 + 2000; simp only at *; omega
  | ⟨1, _⟩ => show win8_3.index _ (1 : Fin 2) * 100 ≤ (i 1).val ∧ (i 1).val < win8_3.index _ (1 : Fin 2) * 100 + 100; simp only at *; omega

end Cert.KernelIdeal.Fr

end
-- ==== Proof.KI.Value8.lean ====
/-
  What pallas_call 8 leaves in its result array at the ideal instance: the dense layer of its first input.
  Point t writes rows 2000·t … 2000·t + 1999; at (p, q) of its block the body's value depends on the first input only
  through row p of the block, which is row 2000·t + p of the array, and the blocks cover the result array.
-/
import proofs.«143046_j34703335751794_1_alg».proof.Proof.KI.Cover8
import proofs.«143046_j34703335751794_1_alg».proof.Proof.Val.Norm

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Cert.LibDenseRows Cert.LibNormRows Cert.KernelIdeal.Val

variable (V : (c : Dev nD) → (b : Ref sig .tc) → Buf (Elt Ideal) ((c : Thread nD τ).loc b))

theorem corner8 : (![0, 0] : Fin 2 → Nat) = fun _ => 0 := funext fun a => by fin_cases a <;> rfl

theorem value8 (c : Dev nD) :
    (dat8 (F := Ideal) V c).arrAt 3 cfg8.N = denseArr (m := 60000) (k := 106) (n := 100) (V c main_v146) (V c main_v148) (V c main_v151) := by
  refine (dat8 (F := Ideal) V c).arrAt_eq_of_cover 3 _ (fun t _ => ?_) (covered8)
  show (cfg8.win 3).cut (grid8.coords t) ((dat8 (F := Ideal) V c).after 3 t) = _
  rw [left8_3]
  funext y
  obtain ⟨p, q, rfl⟩ : ∃ (p : Fin 2000) (q : Fin 100), y = ix2 p q := ⟨y 0, y 1, eq_ix2 y⟩
  have ht : t.val < 30 := lt_of_lt_of_eq t.isLt pts8
  have hb : t.val * 2000 + p.val < 60000 := by have := p.isLt; omega
  have e0 : ((cfg8.win 3).blk t).view.emb (ix2 p q) = ix2 (⟨t.val * 2000 + p.val, hb⟩ : Fin 60000) q :=
    funext fun a => Fin.ext (by
      match a with
      | ⟨0, _⟩ => exact outRow8 t (ix2 p q)
      | ⟨1, _⟩ => exact outCol8 t (ix2 p q))
  show stored8 (blk8 V c 0 t : Vec Ideal S2000x106 .f32) (blk8 V c 1 t : Vec Ideal S106x100 .f32) (blk8 V c 2 t : Vec Ideal S1x100 .f32) (ix2 p q)
      = (denseArr (m := 60000) (k := 106) (n := 100) (V c main_v146) (V c main_v148) (V c main_v151)) (((cfg8.win 3).blk t).view.emb (ix2 p q))
  rw [e0]
  unfold stored8
  rw [View.canon_unit_zero corner8]
  simp only [View.ld_unit_zero (S := S2000x106) corner8, View.ld_unit_zero (S := S106x100) corner8, View.ld_unit_zero (S := S1x100) corner8]
  refine (pay8_apply (blk8 V c 0 t : Vec Ideal S2000x106 .f32) (blk8 V c 1 t : Vec Ideal S106x100 .f32) (blk8 V c 2 t : Vec Ideal S1x100 .f32) p q).trans ?_
  show denseRow (fun cc => (blk8 V c 0 t : Vec Ideal S2000x106 .f32) (ix2 p cc)) (blk8 V c 1 t : Vec Ideal S106x100 .f32) (blk8 V c 2 t : Vec Ideal S1x100 .f32) q = denseRow (fun cc => V c main_v146 (ix2 (⟨t.val * 2000 + p.val, hb⟩ : Fin 60000) cc)) (V c main_v148) (V c main_v151) q
  have h0 : (fun cc => (blk8 V c 0 t : Vec Ideal S2000x106 .f32) (ix2 p cc)) = fun cc => V c main_v146 (ix2 (⟨t.val * 2000 + p.val, hb⟩ : Fin 60000) cc) :=
    funext fun cc => rows8_0 V c t p cc hb
  have h1 : (blk8 V c 1 t : Vec Ideal S106x100 .f32) = V c main_v148 := funext (all8_1 V c t)
  have h2 : (blk8 V c 2 t : Vec Ideal S1x100 .f32) = V c main_v151 := funext (all8_2 V c t)
  rw [h0, h1, h2]

end Cert.KernelIdeal.Fr

end
-- ==== Proof.KI.Cover9.lean ====
/-
  pallas_call 9: where its blocks sit in their arrays. Grid point t handles rows 2000·t … 2000·t + 1999: the blocks of the
  row-blocked windows (the first input and the output) are those rows, full width; the weight and the bias row
  are whole at every point. So a row-blocked window's block at (p, q) is its array at (2000·t + p, q), a whole window's block
  is its array, and the output's blocks cover its array: row r lies in the block of point r / 2000.
-/
import proofs.«143046_j34703335751794_1_alg».proof.Proof.KI.Region9
import Idealize.ShloMosaic.Lib.Pipeline.Value
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (V : (c : Dev nD) → (b : Ref sig .tc) → Buf (Elt F) ((c : Thread nD τ).loc b))

/-- The printed index maps, decided over the grid. -/
theorem maps9 : ∀ t : Fin cfg9.N, win9_0.index t (0 : Fin 2) = t.val
    ∧ win9_0.index t (1 : Fin 2) = 0
    ∧ win9_3.index t (0 : Fin 2) = t.val
    ∧ win9_3.index t (1 : Fin 2) = 0
    ∧ win9_1.index t (0 : Fin 2) = 0
    ∧ win9_1.index t (1 : Fin 2) = 0
    ∧ win9_2.index t (0 : Fin 2) = 0
    ∧ win9_2.index t (1 : Fin 2) = 0 :=
  (by decide +kernel : ∀ t : Fin grid9.N, _)

theorem pts9 : cfg9.N = 30 := N_9

/-- A row-blocked input's block at (p, q) is its array at (2000·t + p, q). -/
theorem rows9_0 (c : Dev nD) (t : Fin cfg9.N) (p : Fin 2000) (q : Fin 106) (hb : t.val * 2000 + p.val < 60000) :
    blk9 V c 0 t (ix2 p q) = V c main_v169 (ix2 (⟨t.val * 2000 + p.val, hb⟩ : Fin 60000) q) := by
  show V c main_v169 (((cfg9.win 0).blk t).view.emb (ix2 p q)) = _
  refine congrArg _ (funext fun a => Fin.ext ?_)
  obtain ⟨h0, h1, h2, h3, h4, h5, h6, h7⟩ := maps9 t
  match a with
  | ⟨0, _⟩ => show win9_0.index t (0 : Fin 2) * 2000 + 1 * p.val = t.val * 2000 + p.val; omega
  | ⟨1, _⟩ => show win9_0.index t (1 : Fin 2) * 106 + 1 * q.val = q.val; omega

/-- A whole window's block is its array. -/
theorem all9_1 (c : Dev nD) (t : Fin cfg9.N) (y : S106x100.Idx) : blk9 V c 1 t y = V c main_v171 y := by
  show V c main_v171 (((cfg9.win 1).blk t).view.emb y) = _
  refine congrArg _ (funext fun a => Fin.ext ?_)
  obtain ⟨h0, h1, h2, h3, h4, h5, h6, h7⟩ := maps9 t
  match a with
  | ⟨0, _⟩ => show win9_1.index t (0 : Fin 2) * 106 + 1 * (y 0).val = (y 0).val; omega
  | ⟨1, _⟩ => show win9_1.index t (1 : Fin 2) * 100 + 1 * (y 1).val = (y 1).val; omega

/-- A whole window's block is its array. -/
theorem all9_2 (c : Dev nD) (t : Fin cfg9.N) (y : S1x100.Idx) : blk9 V c 2 t y = V c main_v174 y := by
  show V c main_v174 (((cfg9.win 2).blk t).view.emb y) = _
  refine congrArg _ (funext fun a => Fin.ext ?_)
  obtain ⟨h0, h1, h2, h3, h4, h5, h6, h7⟩ := maps9 t
  match a with
  | ⟨0, _⟩ => show win9_2.index t (0 : Fin 2) * 1 + 1 * (y 0).val = (y 0).val; omega
  | ⟨1, _⟩ => show win9_2.index t (1 : Fin 2) * 100 + 1 * (y 1).val = (y 1).val; omega

/-- Where the output's block sits: (p, q) of point t's block is (2000·t + p, q) of the array. -/
theorem outRow9 (t : Fin cfg9.N) (y : S2000x100.Idx) :
    (((cfg9.win 3).blk t).view.emb y (0 : Fin 2)).val = t.val * 2000 + (y 0).val := by
  obtain ⟨h0, h1, h2, h3, h4, h5, h6, h7⟩ := maps9 t
  show win9_3.index t (0 : Fin 2) * 2000 + 1 * (y 0).val = _
  omega
theorem outCol9 (t : Fin cfg9.N) (y : S2000x100.Idx) :
    (((cfg9.win 3).blk t).view.emb y (1 : Fin 2)).val = (y 1).val := by
  obtain ⟨h0, h1, h2, h3, h4, h5, h6, h7⟩ := maps9 t
  show win9_3.index t (1 : Fin 2) * 100 + 1 * (y 1).val = _
  omega

/-- An index of the output array is in point t's block iff its row is among the point's rows. -/
theorem inBlock9 (t : Fin cfg9.N) (i : S60000x100.Idx) :
    i ∈ ((cfg9.win 3).blk t).view.set ↔ ∀ a : Fin 2, win9_3.index t a * S2000x100.size a ≤ (i a).val ∧ (i a).val < win9_3.index t a * S2000x100.size a + S2000x100.size a := by
  show i ∈ ((View.whole main_v175).slice (win9_3.rect t)).set ↔ _
  rw [View.set_slice_whole, Rect.mem_set_unit]
  exact Iff.rfl

/-- The output's blocks cover its array. -/
theorem covered9 (i : S60000x100.Idx) : ∃ t : Fin cfg9.N, (cfg9.win 3).flush t = true ∧ i ∈ ((cfg9.win 3).blk t).view.set := by
  have hi0 : (i 0).val < 60000 := (i 0).isLt
  have hi1 : (i 1).val < 100 := (i 1).isLt
  refine ⟨⟨(i 0).val / 2000, by rw [pts9]; omega⟩, flush9_3 _, ?_⟩
  rw [inBlock9]
  obtain ⟨h0, h1, h2, h3, h4, h5, h6, h7⟩ := maps9 ⟨(i 0).val / 2000, by rw [pts9]; omega⟩
  intro a
  match a with
  | ⟨0, _⟩ => show win9_3.index _ (0 : Fin 2) * 2000 ≤ (i 0).val ∧ (i 0).val < win9_3.index _ (0 : Fin 2) * 2000 + 2000; simp only at *; omega
  | ⟨1, _⟩ => show win9_3.index _ (1 : Fin 2) * 100 ≤ (i 1).val ∧ (i 1).val < win9_3.index _ (1 : Fin 2) * 100 + 100; simp only at *; omega

end Cert.KernelIdeal.Fr

end
-- ==== Proof.KI.Value9.lean ====
/-
  What pallas_call 9 leaves in its result array at the ideal instance: the dense layer of its first input.
  Point t writes rows 2000·t … 2000·t + 1999; at (p, q) of its block the body's value depends on the first input only
  through row p of the block, which is row 2000·t + p of the array, and the blocks cover the result array.
-/
import proofs.«143046_j34703335751794_1_alg».proof.Proof.KI.Cover9
import proofs.«143046_j34703335751794_1_alg».proof.Proof.Val.Norm

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Cert.LibDenseRows Cert.LibNormRows Cert.KernelIdeal.Val

variable (V : (c : Dev nD) → (b : Ref sig .tc) → Buf (Elt Ideal) ((c : Thread nD τ).loc b))

theorem corner9 : (![0, 0] : Fin 2 → Nat) = fun _ => 0 := funext fun a => by fin_cases a <;> rfl

theorem value9 (c : Dev nD) :
    (dat9 (F := Ideal) V c).arrAt 3 cfg9.N = denseArr (m := 60000) (k := 106) (n := 100) (V c main_v169) (V c main_v171) (V c main_v174) := by
  refine (dat9 (F := Ideal) V c).arrAt_eq_of_cover 3 _ (fun t _ => ?_) (covered9)
  show (cfg9.win 3).cut (grid9.coords t) ((dat9 (F := Ideal) V c).after 3 t) = _
  rw [left9_3]
  funext y
  obtain ⟨p, q, rfl⟩ : ∃ (p : Fin 2000) (q : Fin 100), y = ix2 p q := ⟨y 0, y 1, eq_ix2 y⟩
  have ht : t.val < 30 := lt_of_lt_of_eq t.isLt pts9
  have hb : t.val * 2000 + p.val < 60000 := by have := p.isLt; omega
  have e0 : ((cfg9.win 3).blk t).view.emb (ix2 p q) = ix2 (⟨t.val * 2000 + p.val, hb⟩ : Fin 60000) q :=
    funext fun a => Fin.ext (by
      match a with
      | ⟨0, _⟩ => exact outRow9 t (ix2 p q)
      | ⟨1, _⟩ => exact outCol9 t (ix2 p q))
  show stored9 (blk9 V c 0 t : Vec Ideal S2000x106 .f32) (blk9 V c 1 t : Vec Ideal S106x100 .f32) (blk9 V c 2 t : Vec Ideal S1x100 .f32) (ix2 p q)
      = (denseArr (m := 60000) (k := 106) (n := 100) (V c main_v169) (V c main_v171) (V c main_v174)) (((cfg9.win 3).blk t).view.emb (ix2 p q))
  rw [e0]
  unfold stored9
  rw [View.canon_unit_zero corner9]
  simp only [View.ld_unit_zero (S := S2000x106) corner9, View.ld_unit_zero (S := S106x100) corner9, View.ld_unit_zero (S := S1x100) corner9]
  refine (pay9_apply (blk9 V c 0 t : Vec Ideal S2000x106 .f32) (blk9 V c 1 t : Vec Ideal S106x100 .f32) (blk9 V c 2 t : Vec Ideal S1x100 .f32) p q).trans ?_
  show denseRow (fun cc => (blk9 V c 0 t : Vec Ideal S2000x106 .f32) (ix2 p cc)) (blk9 V c 1 t : Vec Ideal S106x100 .f32) (blk9 V c 2 t : Vec Ideal S1x100 .f32) q = denseRow (fun cc => V c main_v169 (ix2 (⟨t.val * 2000 + p.val, hb⟩ : Fin 60000) cc)) (V c main_v171) (V c main_v174) q
  have h0 : (fun cc => (blk9 V c 0 t : Vec Ideal S2000x106 .f32) (ix2 p cc)) = fun cc => V c main_v169 (ix2 (⟨t.val * 2000 + p.val, hb⟩ : Fin 60000) cc) :=
    funext fun cc => rows9_0 V c t p cc hb
  have h1 : (blk9 V c 1 t : Vec Ideal S106x100 .f32) = V c main_v171 := funext (all9_1 V c t)
  have h2 : (blk9 V c 2 t : Vec Ideal S1x100 .f32) = V c main_v174 := funext (all9_2 V c t)
  rw [h0, h1, h2]

end Cert.KernelIdeal.Fr

end
-- ==== Proof.KI.Cover10.lean ====
/-
  pallas_call 10: where its blocks sit in their arrays. Grid point t handles rows 2000·t … 2000·t + 1999: the blocks of the
  row-blocked windows (the first input and the output) are those rows, full width; the weight and the bias row
  are whole at every point. So a row-blocked window's block at (p, q) is its array at (2000·t + p, q), a whole window's block
  is its array, and the output's blocks cover its array: row r lies in the block of point r / 2000.
-/
import proofs.«143046_j34703335751794_1_alg».proof.Proof.KI.Region10
import Idealize.ShloMosaic.Lib.Pipeline.Value
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (V : (c : Dev nD) → (b : Ref sig .tc) → Buf (Elt F) ((c : Thread nD τ).loc b))

/-- The printed index maps, decided over the grid. -/
theorem maps10 : ∀ t : Fin cfg10.N, win10_0.index t (0 : Fin 2) = t.val
    ∧ win10_0.index t (1 : Fin 2) = 0
    ∧ win10_3.index t (0 : Fin 2) = t.val
    ∧ win10_3.index t (1 : Fin 2) = 0
    ∧ win10_1.index t (0 : Fin 2) = 0
    ∧ win10_1.index t (1 : Fin 2) = 0
    ∧ win10_2.index t (0 : Fin 2) = 0
    ∧ win10_2.index t (1 : Fin 2) = 0 :=
  (by decide +kernel : ∀ t : Fin grid10.N, _)

theorem pts10 : cfg10.N = 20 := N_10

/-- A row-blocked input's block at (p, q) is its array at (2000·t + p, q). -/
theorem rows10_0 (c : Dev nD) (t : Fin cfg10.N) (p : Fin 2000) (q : Fin 106) (hb : t.val * 2000 + p.val < 40000) :
    blk10 V c 0 t (ix2 p q) = V c main_v192 (ix2 (⟨t.val * 2000 + p.val, hb⟩ : Fin 40000) q) := by
  show V c main_v192 (((cfg10.win 0).blk t).view.emb (ix2 p q)) = _
  refine congrArg _ (funext fun a => Fin.ext ?_)
  obtain ⟨h0, h1, h2, h3, h4, h5, h6, h7⟩ := maps10 t
  match a with
  | ⟨0, _⟩ => show win10_0.index t (0 : Fin 2) * 2000 + 1 * p.val = t.val * 2000 + p.val; omega
  | ⟨1, _⟩ => show win10_0.index t (1 : Fin 2) * 106 + 1 * q.val = q.val; omega

/-- A whole window's block is its array. -/
theorem all10_1 (c : Dev nD) (t : Fin cfg10.N) (y : S106x100.Idx) : blk10 V c 1 t y = V c main_v194 y := by
  show V c main_v194 (((cfg10.win 1).blk t).view.emb y) = _
  refine congrArg _ (funext fun a => Fin.ext ?_)
  obtain ⟨h0, h1, h2, h3, h4, h5, h6, h7⟩ := maps10 t
  match a with
  | ⟨0, _⟩ => show win10_1.index t (0 : Fin 2) * 106 + 1 * (y 0).val = (y 0).val; omega
  | ⟨1, _⟩ => show win10_1.index t (1 : Fin 2) * 100 + 1 * (y 1).val = (y 1).val; omega

/-- A whole window's block is its array. -/
theorem all10_2 (c : Dev nD) (t : Fin cfg10.N) (y : S1x100.Idx) : blk10 V c 2 t y = V c main_v197 y := by
  show V c main_v197 (((cfg10.win 2).blk t).view.emb y) = _
  refine congrArg _ (funext fun a => Fin.ext ?_)
  obtain ⟨h0, h1, h2, h3, h4, h5, h6, h7⟩ := maps10 t
  match a with
  | ⟨0, _⟩ => show win10_2.index t (0 : Fin 2) * 1 + 1 * (y 0).val = (y 0).val; omega
  | ⟨1, _⟩ => show win10_2.index t (1 : Fin 2) * 100 + 1 * (y 1).val = (y 1).val; omega

/-- Where the output's block sits: (p, q) of point t's block is (2000·t + p, q) of the array. -/
theorem outRow10 (t : Fin cfg10.N) (y : S2000x100.Idx) :
    (((cfg10.win 3).blk t).view.emb y (0 : Fin 2)).val = t.val * 2000 + (y 0).val := by
  obtain ⟨h0, h1, h2, h3, h4, h5, h6, h7⟩ := maps10 t
  show win10_3.index t (0 : Fin 2) * 2000 + 1 * (y 0).val = _
  omega
theorem outCol10 (t : Fin cfg10.N) (y : S2000x100.Idx) :
    (((cfg10.win 3).blk t).view.emb y (1 : Fin 2)).val = (y 1).val := by
  obtain ⟨h0, h1, h2, h3, h4, h5, h6, h7⟩ := maps10 t
  show win10_3.index t (1 : Fin 2) * 100 + 1 * (y 1).val = _
  omega

/-- An index of the output array is in point t's block iff its row is among the point's rows. -/
theorem inBlock10 (t : Fin cfg10.N) (i : S40000x100.Idx) :
    i ∈ ((cfg10.win 3).blk t).view.set ↔ ∀ a : Fin 2, win10_3.index t a * S2000x100.size a ≤ (i a).val ∧ (i a).val < win10_3.index t a * S2000x100.size a + S2000x100.size a := by
  show i ∈ ((View.whole main_v198).slice (win10_3.rect t)).set ↔ _
  rw [View.set_slice_whole, Rect.mem_set_unit]
  exact Iff.rfl

/-- The output's blocks cover its array. -/
theorem covered10 (i : S40000x100.Idx) : ∃ t : Fin cfg10.N, (cfg10.win 3).flush t = true ∧ i ∈ ((cfg10.win 3).blk t).view.set := by
  have hi0 : (i 0).val < 40000 := (i 0).isLt
  have hi1 : (i 1).val < 100 := (i 1).isLt
  refine ⟨⟨(i 0).val / 2000, by rw [pts10]; omega⟩, flush10_3 _, ?_⟩
  rw [inBlock10]
  obtain ⟨h0, h1, h2, h3, h4, h5, h6, h7⟩ := maps10 ⟨(i 0).val / 2000, by rw [pts10]; omega⟩
  intro a
  match a with
  | ⟨0, _⟩ => show win10_3.index _ (0 : Fin 2) * 2000 ≤ (i 0).val ∧ (i 0).val < win10_3.index _ (0 : Fin 2) * 2000 + 2000; simp only at *; omega
  | ⟨1, _⟩ => show win10_3.index _ (1 : Fin 2) * 100 ≤ (i 1).val ∧ (i 1).val < win10_3.index _ (1 : Fin 2) * 100 + 100; simp only at *; omega

end Cert.KernelIdeal.Fr

end
-- ==== Proof.KI.Value10.lean ====
/-
  What pallas_call 10 leaves in its result array at the ideal instance: the dense layer of its first input.
  Point t writes rows 2000·t … 2000·t + 1999; at (p, q) of its block the body's value depends on the first input only
  through row p of the block, which is row 2000·t + p of the array, and the blocks cover the result array.
-/
import proofs.«143046_j34703335751794_1_alg».proof.Proof.KI.Cover10
import proofs.«143046_j34703335751794_1_alg».proof.Proof.Val.Norm

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Cert.LibDenseRows Cert.LibNormRows Cert.KernelIdeal.Val

variable (V : (c : Dev nD) → (b : Ref sig .tc) → Buf (Elt Ideal) ((c : Thread nD τ).loc b))

theorem corner10 : (![0, 0] : Fin 2 → Nat) = fun _ => 0 := funext fun a => by fin_cases a <;> rfl

theorem value10 (c : Dev nD) :
    (dat10 (F := Ideal) V c).arrAt 3 cfg10.N = denseArr (m := 40000) (k := 106) (n := 100) (V c main_v192) (V c main_v194) (V c main_v197) := by
  refine (dat10 (F := Ideal) V c).arrAt_eq_of_cover 3 _ (fun t _ => ?_) (covered10)
  show (cfg10.win 3).cut (grid10.coords t) ((dat10 (F := Ideal) V c).after 3 t) = _
  rw [left10_3]
  funext y
  obtain ⟨p, q, rfl⟩ : ∃ (p : Fin 2000) (q : Fin 100), y = ix2 p q := ⟨y 0, y 1, eq_ix2 y⟩
  have ht : t.val < 20 := lt_of_lt_of_eq t.isLt pts10
  have hb : t.val * 2000 + p.val < 40000 := by have := p.isLt; omega
  have e0 : ((cfg10.win 3).blk t).view.emb (ix2 p q) = ix2 (⟨t.val * 2000 + p.val, hb⟩ : Fin 40000) q :=
    funext fun a => Fin.ext (by
      match a with
      | ⟨0, _⟩ => exact outRow10 t (ix2 p q)
      | ⟨1, _⟩ => exact outCol10 t (ix2 p q))
  show stored10 (blk10 V c 0 t : Vec Ideal S2000x106 .f32) (blk10 V c 1 t : Vec Ideal S106x100 .f32) (blk10 V c 2 t : Vec Ideal S1x100 .f32) (ix2 p q)
      = (denseArr (m := 40000) (k := 106) (n := 100) (V c main_v192) (V c main_v194) (V c main_v197)) (((cfg10.win 3).blk t).view.emb (ix2 p q))
  rw [e0]
  unfold stored10
  rw [View.canon_unit_zero corner10]
  simp only [View.ld_unit_zero (S := S2000x106) corner10, View.ld_unit_zero (S := S106x100) corner10, View.ld_unit_zero (S := S1x100) corner10]
  refine (pay10_apply (blk10 V c 0 t : Vec Ideal S2000x106 .f32) (blk10 V c 1 t : Vec Ideal S106x100 .f32) (blk10 V c 2 t : Vec Ideal S1x100 .f32) p q).trans ?_
  show denseRow (fun cc => (blk10 V c 0 t : Vec Ideal S2000x106 .f32) (ix2 p cc)) (blk10 V c 1 t : Vec Ideal S106x100 .f32) (blk10 V c 2 t : Vec Ideal S1x100 .f32) q = denseRow (fun cc => V c main_v192 (ix2 (⟨t.val * 2000 + p.val, hb⟩ : Fin 40000) cc)) (V c main_v194) (V c main_v197) q
  have h0 : (fun cc => (blk10 V c 0 t : Vec Ideal S2000x106 .f32) (ix2 p cc)) = fun cc => V c main_v192 (ix2 (⟨t.val * 2000 + p.val, hb⟩ : Fin 40000) cc) :=
    funext fun cc => rows10_0 V c t p cc hb
  have h1 : (blk10 V c 1 t : Vec Ideal S106x100 .f32) = V c main_v194 := funext (all10_1 V c t)
  have h2 : (blk10 V c 2 t : Vec Ideal S1x100 .f32) = V c main_v197 := funext (all10_2 V c t)
  rw [h0, h1, h2]

end Cert.KernelIdeal.Fr

end
-- ==== Proof.KI.Cover11.lean ====
/-
  pallas_call 11: where its blocks sit in their arrays. Grid point t handles rows 2000·t … 2000·t + 1999: the blocks of the
  row-blocked windows (the first input, the added array and the output) are those rows, full width; the weight and the bias row
  are whole at every point. So a row-blocked window's block at (p, q) is its array at (2000·t + p, q), a whole window's block
  is its array, and the output's blocks cover its array: row r lies in the block of point r / 2000.
-/
import proofs.«143046_j34703335751794_1_alg».proof.Proof.KI.Region11
import Idealize.ShloMosaic.Lib.Pipeline.Value
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (V : (c : Dev nD) → (b : Ref sig .tc) → Buf (Elt F) ((c : Thread nD τ).loc b))

/-- The printed index maps, decided over the grid. -/
theorem maps11 : ∀ t : Fin cfg11.N, win11_0.index t (0 : Fin 2) = t.val
    ∧ win11_0.index t (1 : Fin 2) = 0
    ∧ win11_3.index t (0 : Fin 2) = t.val
    ∧ win11_3.index t (1 : Fin 2) = 0
    ∧ win11_4.index t (0 : Fin 2) = t.val
    ∧ win11_4.index t (1 : Fin 2) = 0
    ∧ win11_1.index t (0 : Fin 2) = 0
    ∧ win11_1.index t (1 : Fin 2) = 0
    ∧ win11_2.index t (0 : Fin 2) = 0
    ∧ win11_2.index t (1 : Fin 2) = 0 :=
  (by decide +kernel : ∀ t : Fin grid11.N, _)

theorem pts11 : cfg11.N = 100 := N_11

/-- A row-blocked input's block at (p, q) is its array at (2000·t + p, q). -/
theorem rows11_0 (c : Dev nD) (t : Fin cfg11.N) (p : Fin 2000) (q : Fin 100) (hb : t.val * 2000 + p.val < 200000) :
    blk11 V c 0 t (ix2 p q) = V c main_v99 (ix2 (⟨t.val * 2000 + p.val, hb⟩ : Fin 200000) q) := by
  show V c main_v99 (((cfg11.win 0).blk t).view.emb (ix2 p q)) = _
  refine congrArg _ (funext fun a => Fin.ext ?_)
  obtain ⟨h0, h1, h2, h3, h4, h5, h6, h7, h8, h9⟩ := maps11 t
  match a with
  | ⟨0, _⟩ => show win11_0.index t (0 : Fin 2) * 2000 + 1 * p.val = t.val * 2000 + p.val; omega
  | ⟨1, _⟩ => show win11_0.index t (1 : Fin 2) * 100 + 1 * q.val = q.val; omega

/-- A row-blocked input's block at (p, q) is its array at (2000·t + p, q). -/
theorem rows11_3 (c : Dev nD) (t : Fin cfg11.N) (p : Fin 2000) (q : Fin 100) (hb : t.val * 2000 + p.val < 200000) :
    blk11 V c 3 t (ix2 p q) = V c main_v199 (ix2 (⟨t.val * 2000 + p.val, hb⟩ : Fin 200000) q) := by
  show V c main_v199 (((cfg11.win 3).blk t).view.emb (ix2 p q)) = _
  refine congrArg _ (funext fun a => Fin.ext ?_)
  obtain ⟨h0, h1, h2, h3, h4, h5, h6, h7, h8, h9⟩ := maps11 t
  match a with
  | ⟨0, _⟩ => show win11_3.index t (0 : Fin 2) * 2000 + 1 * p.val = t.val * 2000 + p.val; omega
  | ⟨1, _⟩ => show win11_3.index t (1 : Fin 2) * 100 + 1 * q.val = q.val; omega

/-- A whole window's block is its array. -/
theorem all11_1 (c : Dev nD) (t : Fin cfg11.N) (y : S100x100.Idx) : blk11 V c 1 t y = V c main_arg15 y := by
  show V c main_arg15 (((cfg11.win 1).blk t).view.emb y) = _
  refine congrArg _ (funext fun a => Fin.ext ?_)
  obtain ⟨h0, h1, h2, h3, h4, h5, h6, h7, h8, h9⟩ := maps11 t
  match a with
  | ⟨0, _⟩ => show win11_1.index t (0 : Fin 2) * 100 + 1 * (y 0).val = (y 0).val; omega
  | ⟨1, _⟩ => show win11_1.index t (1 : Fin 2) * 100 + 1 * (y 1).val = (y 1).val; omega

/-- A whole window's block is its array. -/
theorem all11_2 (c : Dev nD) (t : Fin cfg11.N) (y : S1x100.Idx) : blk11 V c 2 t y = V c main_v106 y := by
  show V c main_v106 (((cfg11.win 2).blk t).view.emb y) = _
  refine congrArg _ (funext fun a => Fin.ext ?_)
  obtain ⟨h0, h1, h2, h3, h4, h5, h6, h7, h8, h9⟩ := maps11 t
  match a with
  | ⟨0, _⟩ => show win11_2.index t (0 : Fin 2) * 1 + 1 * (y 0).val = (y 0).val; omega
  | ⟨1, _⟩ => show win11_2.index t (1 : Fin 2) * 100 + 1 * (y 1).val = (y 1).val; omega

/-- Where the output's block sits: (p, q) of point t's block is (2000·t + p, q) of the array. -/
theorem outRow11 (t : Fin cfg11.N) (y : S2000x100.Idx) :
    (((cfg11.win 4).blk t).view.emb y (0 : Fin 2)).val = t.val * 2000 + (y 0).val := by
  obtain ⟨h0, h1, h2, h3, h4, h5, h6, h7, h8, h9⟩ := maps11 t
  show win11_4.index t (0 : Fin 2) * 2000 + 1 * (y 0).val = _
  omega
theorem outCol11 (t : Fin cfg11.N) (y : S2000x100.Idx) :
    (((cfg11.win 4).blk t).view.emb y (1 : Fin 2)).val = (y 1).val := by
  obtain ⟨h0, h1, h2, h3, h4, h5, h6, h7, h8, h9⟩ := maps11 t
  show win11_4.index t (1 : Fin 2) * 100 + 1 * (y 1).val = _
  omega

/-- An index of the output array is in point t's block iff its row is among the point's rows. -/
theorem inBlock11 (t : Fin cfg11.N) (i : S200000x100.Idx) :
    i ∈ ((cfg11.win 4).blk t).view.set ↔ ∀ a : Fin 2, win11_4.index t a * S2000x100.size a ≤ (i a).val ∧ (i a).val < win11_4.index t a * S2000x100.size a + S2000x100.size a := by
  show i ∈ ((View.whole main_v200).slice (win11_4.rect t)).set ↔ _
  rw [View.set_slice_whole, Rect.mem_set_unit]
  exact Iff.rfl

/-- The output's blocks cover its array. -/
theorem covered11 (i : S200000x100.Idx) : ∃ t : Fin cfg11.N, (cfg11.win 4).flush t = true ∧ i ∈ ((cfg11.win 4).blk t).view.set := by
  have hi0 : (i 0).val < 200000 := (i 0).isLt
  have hi1 : (i 1).val < 100 := (i 1).isLt
  refine ⟨⟨(i 0).val / 2000, by rw [pts11]; omega⟩, flush11_4 _, ?_⟩
  rw [inBlock11]
  obtain ⟨h0, h1, h2, h3, h4, h5, h6, h7, h8, h9⟩ := maps11 ⟨(i 0).val / 2000, by rw [pts11]; omega⟩
  intro a
  match a with
  | ⟨0, _⟩ => show win11_4.index _ (0 : Fin 2) * 2000 ≤ (i 0).val ∧ (i 0).val < win11_4.index _ (0 : Fin 2) * 2000 + 2000; simp only at *; omega
  | ⟨1, _⟩ => show win11_4.index _ (1 : Fin 2) * 100 ≤ (i 1).val ∧ (i 1).val < win11_4.index _ (1 : Fin 2) * 100 + 100; simp only at *; omega

end Cert.KernelIdeal.Fr

end
-- ==== Proof.KI.Value11.lean ====
/-
  What pallas_call 11 leaves in its result array at the ideal instance: the dense layer of its first input plus the added array, each row divided by its norm (floored) and rectified.
  Point t writes rows 2000·t … 2000·t + 1999; at (p, q) of its block the body's value depends on the first input and the added array only
  through row p of the block, which is row 2000·t + p of the array, and the blocks cover the result array.
-/
import proofs.«143046_j34703335751794_1_alg».proof.Proof.KI.Cover11
import proofs.«143046_j34703335751794_1_alg».proof.Proof.Val.Norm

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Cert.LibDenseRows Cert.LibNormRows Cert.KernelIdeal.Val

variable (V : (c : Dev nD) → (b : Ref sig .tc) → Buf (Elt Ideal) ((c : Thread nD τ).loc b))

theorem corner11 : (![0, 0] : Fin 2 → Nat) = fun _ => 0 := funext fun a => by fin_cases a <;> rfl

theorem value11 (c : Dev nD) :
    (dat11 (F := Ideal) V c).arrAt 4 cfg11.N = normReluArr (m := 200000) (n := 100) (fun i => denseArr (m := 200000) (k := 100) (n := 100) (V c main_v99) (V c main_arg15) (V c main_v106) i + V c main_v199 i) := by
  refine (dat11 (F := Ideal) V c).arrAt_eq_of_cover 4 _ (fun t _ => ?_) (covered11)
  show (cfg11.win 4).cut (grid11.coords t) ((dat11 (F := Ideal) V c).after 4 t) = _
  rw [left11_4]
  funext y
  obtain ⟨p, q, rfl⟩ : ∃ (p : Fin 2000) (q : Fin 100), y = ix2 p q := ⟨y 0, y 1, eq_ix2 y⟩
  have ht : t.val < 100 := lt_of_lt_of_eq t.isLt pts11
  have hb : t.val * 2000 + p.val < 200000 := by have := p.isLt; omega
  have e0 : ((cfg11.win 4).blk t).view.emb (ix2 p q) = ix2 (⟨t.val * 2000 + p.val, hb⟩ : Fin 200000) q :=
    funext fun a => Fin.ext (by
      match a with
      | ⟨0, _⟩ => exact outRow11 t (ix2 p q)
      | ⟨1, _⟩ => exact outCol11 t (ix2 p q))
  show stored11 (blk11 V c 0 t : Vec Ideal S2000x100 .f32) (blk11 V c 1 t : Vec Ideal S100x100 .f32) (blk11 V c 2 t : Vec Ideal S1x100 .f32) (blk11 V c 3 t : Vec Ideal S2000x100 .f32) (ix2 p q)
      = (normReluArr (m := 200000) (n := 100) (fun i => denseArr (m := 200000) (k := 100) (n := 100) (V c main_v99) (V c main_arg15) (V c main_v106) i + V c main_v199 i)) (((cfg11.win 4).blk t).view.emb (ix2 p q))
  rw [e0]
  unfold stored11
  rw [View.canon_unit_zero corner11]
  simp only [View.ld_unit_zero (S := S2000x100) corner11, View.ld_unit_zero (S := S100x100) corner11, View.ld_unit_zero (S := S1x100) corner11]
  refine (pay11_apply (blk11 V c 0 t : Vec Ideal S2000x100 .f32) (blk11 V c 1 t : Vec Ideal S100x100 .f32) (blk11 V c 2 t : Vec Ideal S1x100 .f32) (blk11 V c 3 t : Vec Ideal S2000x100 .f32) p q).trans ?_
  show normReluRow (fun j => denseRow (fun cc => (blk11 V c 0 t : Vec Ideal S2000x100 .f32) (ix2 p cc)) (blk11 V c 1 t : Vec Ideal S100x100 .f32) (blk11 V c 2 t : Vec Ideal S1x100 .f32) j + (blk11 V c 3 t : Vec Ideal S2000x100 .f32) (ix2 p j)) q = normReluRow (fun j => denseRow (fun cc => V c main_v99 (ix2 (⟨t.val * 2000 + p.val, hb⟩ : Fin 200000) cc)) (V c main_arg15) (V c main_v106) j + V c main_v199 (ix2 (⟨t.val * 2000 + p.val, hb⟩ : Fin 200000) j)) q
  have h0 : (fun cc => (blk11 V c 0 t : Vec Ideal S2000x100 .f32) (ix2 p cc)) = fun cc => V c main_v99 (ix2 (⟨t.val * 2000 + p.val, hb⟩ : Fin 200000) cc) :=
    funext fun cc => rows11_0 V c t p cc hb
  have h1 : (blk11 V c 1 t : Vec Ideal S100x100 .f32) = V c main_arg15 := funext (all11_1 V c t)
  have h2 : (blk11 V c 2 t : Vec Ideal S1x100 .f32) = V c main_v106 := funext (all11_2 V c t)
  have h3 : (fun j => (blk11 V c 3 t : Vec Ideal S2000x100 .f32) (ix2 p j)) = fun j => V c main_v199 (ix2 (⟨t.val * 2000 + p.val, hb⟩ : Fin 200000) j) :=
    funext fun j => rows11_3 V c t p j hb
  simp only [h0, h1, h2, congrFun h3]

end Cert.KernelIdeal.Fr

end
-- ==== Proof.Sim.Layer1D1.lean ====
/-
  The second layer, neighbours of degree 1: the 40000 gathered rows and their dense layer, in the two programs.

  Both programs gather, for each of the 40000 nodes of this degree, the rows of its 1 neighbour (100 entries from the
  first layer's output, 6 edge entries from the edge array, a negative index first wrapped around), sum them over the
  neighbours, and put the two sums side by side as a row of 106 entries; they take slice 0 of the stacked weights as a
  106 × 100 matrix and slice 0 of the stacked biases as one row.  The operations are the same in the two programs, over
  buffers with other names; so from contents that agree on the first layer's output and on the argument arrays they
  compute the same rows, weights and bias row (the bias row is a reshape in one program and a broadcast along axis 1
  in the other: the same one-row matrix).  The reference then applies the dense layer to these, which is the layer
  row by row.  Everything is stated for arbitrary buffer contents V of the kernel program and V' of the reference.
-/
import proofs.«143046_j34703335751794_1_alg».proof.Proof.Gen.KernelIdeal.Launch
import proofs.«143046_j34703335751794_1_alg».proof.Proof.Ref.Stages
import proofs.«143046_j34703335751794_1_alg».proof.Proof.LibDenseRows
import proofs.«143046_j34703335751794_1_alg».proof.Proof.Val.NormRef
import proofs.«143046_j34703335751794_1_alg».proof.Proof.Sim.Layer0Lib

set_option maxRecDepth 16384

noncomputable section

namespace Cert.Sim

open Idealize.ShloMosaic Idealize.ShloMosaic.TcCoe Idealize.SL.Sem Idealize.ShloMosaic.StableHlo

section Layer1Degree1

variable (V : KVal) (V' : RVal)

set_option maxHeartbeats 4000000 in
/-- Degree 1: the sums of the gathered neighbour rows (the 100 entries of the first layer's output) are the same
    gather and sum of the same arrays in both programs. -/
theorem l1d1_sumX (hx : V' (Proc.devRef .tc Cert.ReferenceIdeal.main_v129) = V (Proc.devRef .tc Cert.KernelIdeal.main_v99)) (hA : V' (Proc.devRef .tc Cert.ReferenceIdeal.main_arg2) = V (Proc.devRef .tc Cert.KernelIdeal.main_arg2)) :
    after Cert.KernelIdeal.Gen.hostOps7 V (Proc.devRef .tc Cert.KernelIdeal.main_v114) = after Cert.ReferenceIdeal.Stages.opsD V' (Proc.devRef .tc Cert.ReferenceIdeal.main_v160) := by
  after_results_simp
  rw [hx, hA]
  rfl

set_option maxHeartbeats 4000000 in
/-- Degree 1: likewise the sums of the gathered edge rows (the 6 edge entries). -/
theorem l1d1_sumE (h1 : V' (Proc.devRef .tc Cert.ReferenceIdeal.main_arg1) = V (Proc.devRef .tc Cert.KernelIdeal.main_arg1)) (hB : V' (Proc.devRef .tc Cert.ReferenceIdeal.main_arg3) = V (Proc.devRef .tc Cert.KernelIdeal.main_arg3)) :
    after Cert.KernelIdeal.Gen.hostOps7 V (Proc.devRef .tc Cert.KernelIdeal.main_v122) = after Cert.ReferenceIdeal.Stages.opsD V' (Proc.devRef .tc Cert.ReferenceIdeal.main_v168) := by
  after_results_simp
  rw [h1, hB]
  rfl

set_option maxHeartbeats 4000000 in
/-- Degree 1: the rows the dense layer is applied to — the two sums side by side — agree. -/
theorem l1d1_rows (hx : V' (Proc.devRef .tc Cert.ReferenceIdeal.main_v129) = V (Proc.devRef .tc Cert.KernelIdeal.main_v99)) (h1 : V' (Proc.devRef .tc Cert.ReferenceIdeal.main_arg1) = V (Proc.devRef .tc Cert.KernelIdeal.main_arg1)) (hA : V' (Proc.devRef .tc Cert.ReferenceIdeal.main_arg2) = V (Proc.devRef .tc Cert.KernelIdeal.main_arg2)) (hB : V' (Proc.devRef .tc Cert.ReferenceIdeal.main_arg3) = V (Proc.devRef .tc Cert.KernelIdeal.main_arg3)) :
    after Cert.KernelIdeal.Gen.hostOps7 V (Proc.devRef .tc Cert.KernelIdeal.main_v123) = after Cert.ReferenceIdeal.Stages.opsD V' (Proc.devRef .tc Cert.ReferenceIdeal.main_v169) := by
  have ek : after Cert.KernelIdeal.Gen.hostOps7 V (Proc.devRef .tc Cert.KernelIdeal.main_v123)
      = concatenate Cert.KernelIdeal.S40000x106 1 [⟨Cert.KernelIdeal.S40000x100, after Cert.KernelIdeal.Gen.hostOps7 V (Proc.devRef .tc Cert.KernelIdeal.main_v114)⟩, ⟨Cert.KernelIdeal.S40000x6, after Cert.KernelIdeal.Gen.hostOps7 V (Proc.devRef .tc Cert.KernelIdeal.main_v122)⟩]
          Cert.KernelIdeal.Gen.concatenates_S40000x100_S40000x6_S40000x106_d1 := rfl
  have er : after Cert.ReferenceIdeal.Stages.opsD V' (Proc.devRef .tc Cert.ReferenceIdeal.main_v169)
      = concatenate Cert.ReferenceIdeal.S40000x106 1 [⟨Cert.ReferenceIdeal.S40000x100, after Cert.ReferenceIdeal.Stages.opsD V' (Proc.devRef .tc Cert.ReferenceIdeal.main_v160)⟩, ⟨Cert.ReferenceIdeal.S40000x6, after Cert.ReferenceIdeal.Stages.opsD V' (Proc.devRef .tc Cert.ReferenceIdeal.main_v168)⟩]
          Cert.ReferenceIdeal.Gen.concatenates_S40000x100_S40000x6_S40000x106_d1 := rfl
  rw [ek, er]
  exact concat2_congr (l1d1_sumX V V' hx hA) (l1d1_sumE V V' h1 hB) _ _

set_option maxHeartbeats 4000000 in
/-- Degree 1: the degree's weight matrix is the same slice of the stacked weights. -/
theorem l1d1_w (h17 : V' (Proc.devRef .tc Cert.ReferenceIdeal.main_arg17) = V (Proc.devRef .tc Cert.KernelIdeal.main_arg17)) :
    after Cert.KernelIdeal.Gen.hostOps7 V (Proc.devRef .tc Cert.KernelIdeal.main_v125) = after Cert.ReferenceIdeal.Stages.opsD V' (Proc.devRef .tc Cert.ReferenceIdeal.main_v171) := by
  after_results_simp
  rw [h17]
  rfl

set_option maxHeartbeats 4000000 in
/-- Degree 1: the degree's bias as a one-row matrix — a reshape in the kernel program, a broadcast along axis 1 in
    the reference — of the same slice of the stacked biases. -/
theorem l1d1_b (h18 : V' (Proc.devRef .tc Cert.ReferenceIdeal.main_arg18) = V (Proc.devRef .tc Cert.KernelIdeal.main_arg18)) :
    after Cert.KernelIdeal.Gen.hostOps7 V (Proc.devRef .tc Cert.KernelIdeal.main_v128) = after Cert.ReferenceIdeal.Stages.opsD V' (Proc.devRef .tc Cert.ReferenceIdeal.main_v175) := by
  after_results_simp
  rw [h18]
  exact Cert.LibDenseRows.oneRow_cast_eq_bcast _ _ _

set_option maxHeartbeats 4000000 in
/-- Degree 1: the reference's dense layer of the degree's rows is the layer row by row. -/
theorem l1d1_refDense :
    @Eq (FVec Ideal Cert.ReferenceIdeal.S40000x100 .f32) (after Cert.ReferenceIdeal.Stages.opsD V' (Proc.devRef .tc Cert.ReferenceIdeal.main_v177)) (Cert.LibDenseRows.denseArr (after Cert.ReferenceIdeal.Stages.opsD V' (Proc.devRef .tc Cert.ReferenceIdeal.main_v169) : FVec Ideal Cert.ReferenceIdeal.S40000x106 .f32) (after Cert.ReferenceIdeal.Stages.opsD V' (Proc.devRef .tc Cert.ReferenceIdeal.main_v171) : FVec Ideal Cert.ReferenceIdeal.S106x100 .f32) (after Cert.ReferenceIdeal.Stages.opsD V' (Proc.devRef .tc Cert.ReferenceIdeal.main_v175) : FVec Ideal Cert.ReferenceIdeal.S1x100 .f32)) := by
  have e : @Eq (FVec Ideal Cert.ReferenceIdeal.S40000x100 .f32) (after Cert.ReferenceIdeal.Stages.opsD V' (Proc.devRef .tc Cert.ReferenceIdeal.main_v177))
      (addf (Host.dotGeneral (φ₁ := .f32) (φ₂ := .f32) Cert.ReferenceIdeal.dot_S40000x106_S106x100_S40000x100_1_0_0_1_n_n none (after Cert.ReferenceIdeal.Stages.opsD V' (Proc.devRef .tc Cert.ReferenceIdeal.main_v169) : FVec Ideal Cert.ReferenceIdeal.S40000x106 .f32) (after Cert.ReferenceIdeal.Stages.opsD V' (Proc.devRef .tc Cert.ReferenceIdeal.main_v171) : FVec Ideal Cert.ReferenceIdeal.S106x100 .f32))
          (broadcastInDim Cert.ReferenceIdeal.S40000x100 ![0, 1] Cert.ReferenceIdeal.Gen.bcast_S1x100_S40000x100_0_1 (after Cert.ReferenceIdeal.Stages.opsD V' (Proc.devRef .tc Cert.ReferenceIdeal.main_v175) : FVec Ideal Cert.ReferenceIdeal.S1x100 .f32))) := by rfl
  rw [e]
  exact Cert.ReferenceIdeal.RefVal.host_dense_eq_of_plain _ _ _ _ _ rfl

end Layer1Degree1

end Cert.Sim

end
-- ==== Proof.Sim.Layer1D2.lean ====
/-
  The second layer, neighbours of degree 2: the 60000 gathered rows and their dense layer, in the two programs.

  Both programs gather, for each of the 60000 nodes of this degree, the rows of its 2 neighbours (100 entries from the
  first layer's output, 6 edge entries from the edge array, a negative index first wrapped around), sum them over the
  neighbours, and put the two sums side by side as a row of 106 entries; they take slice 1 of the stacked weights as a
  106 × 100 matrix and slice 1 of the stacked biases as one row.  The operations are the same in the two programs, over
  buffers with other names; so from contents that agree on the first layer's output and on the argument arrays they
  compute the same rows, weights and bias row (the bias row is a reshape in one program and a broadcast along axis 1
  in the other: the same one-row matrix).  The reference then applies the dense layer to these, which is the layer
  row by row.  Everything is stated for arbitrary buffer contents V of the kernel program and V' of the reference.
-/
import proofs.«143046_j34703335751794_1_alg».proof.Proof.Gen.KernelIdeal.Launch
import proofs.«143046_j34703335751794_1_alg».proof.Proof.Ref.Stages
import proofs.«143046_j34703335751794_1_alg».proof.Proof.LibDenseRows
import proofs.«143046_j34703335751794_1_alg».proof.Proof.Val.NormRef
import proofs.«143046_j34703335751794_1_alg».proof.Proof.Sim.Layer0Lib

set_option maxRecDepth 16384

noncomputable section

namespace Cert.Sim

open Idealize.ShloMosaic Idealize.ShloMosaic.TcCoe Idealize.SL.Sem Idealize.ShloMosaic.StableHlo

section Layer1Degree2

variable (V : KVal) (V' : RVal)

set_option maxHeartbeats 4000000 in
/-- Degree 2: the sums of the gathered neighbour rows (the 100 entries of the first layer's output) are the same
    gather and sum of the same arrays in both programs. -/
theorem l1d2_sumX (hx : V' (Proc.devRef .tc Cert.ReferenceIdeal.main_v129) = V (Proc.devRef .tc Cert.KernelIdeal.main_v99)) (hA : V' (Proc.devRef .tc Cert.ReferenceIdeal.main_arg4) = V (Proc.devRef .tc Cert.KernelIdeal.main_arg4)) :
    after Cert.KernelIdeal.Gen.hostOps8 V (Proc.devRef .tc Cert.KernelIdeal.main_v137) = after Cert.ReferenceIdeal.Stages.opsD V' (Proc.devRef .tc Cert.ReferenceIdeal.main_v185) := by
  after_results_simp
  rw [hx, hA]
  rfl

set_option maxHeartbeats 4000000 in
/-- Degree 2: likewise the sums of the gathered edge rows (the 6 edge entries). -/
theorem l1d2_sumE (h1 : V' (Proc.devRef .tc Cert.ReferenceIdeal.main_arg1) = V (Proc.devRef .tc Cert.KernelIdeal.main_arg1)) (hB : V' (Proc.devRef .tc Cert.ReferenceIdeal.main_arg5) = V (Proc.devRef .tc Cert.KernelIdeal.main_arg5)) :
    after Cert.KernelIdeal.Gen.hostOps8 V (Proc.devRef .tc Cert.KernelIdeal.main_v145) = after Cert.ReferenceIdeal.Stages.opsD V' (Proc.devRef .tc Cert.ReferenceIdeal.main_v193) := by
  after_results_simp
  rw [h1, hB]
  rfl

set_option maxHeartbeats 4000000 in
/-- Degree 2: the rows the dense layer is applied to — the two sums side by side — agree. -/
theorem l1d2_rows (hx : V' (Proc.devRef .tc Cert.ReferenceIdeal.main_v129) = V (Proc.devRef .tc Cert.KernelIdeal.main_v99)) (h1 : V' (Proc.devRef .tc Cert.ReferenceIdeal.main_arg1) = V (Proc.devRef .tc Cert.KernelIdeal.main_arg1)) (hA : V' (Proc.devRef .tc Cert.ReferenceIdeal.main_arg4) = V (Proc.devRef .tc Cert.KernelIdeal.main_arg4)) (hB : V' (Proc.devRef .tc Cert.ReferenceIdeal.main_arg5) = V (Proc.devRef .tc Cert.KernelIdeal.main_arg5)) :
    after Cert.KernelIdeal.Gen.hostOps8 V (Proc.devRef .tc Cert.KernelIdeal.main_v146) = after Cert.ReferenceIdeal.Stages.opsD V' (Proc.devRef .tc Cert.ReferenceIdeal.main_v194) := by
  have ek : after Cert.KernelIdeal.Gen.hostOps8 V (Proc.devRef .tc Cert.KernelIdeal.main_v146)
      = concatenate Cert.KernelIdeal.S60000x106 1 [⟨Cert.KernelIdeal.S60000x100, after Cert.KernelIdeal.Gen.hostOps8 V (Proc.devRef .tc Cert.KernelIdeal.main_v137)⟩, ⟨Cert.KernelIdeal.S60000x6, after Cert.KernelIdeal.Gen.hostOps8 V (Proc.devRef .tc Cert.KernelIdeal.main_v145)⟩]
          Cert.KernelIdeal.Gen.concatenates_S60000x100_S60000x6_S60000x106_d1 := rfl
  have er : after Cert.ReferenceIdeal.Stages.opsD V' (Proc.devRef .tc Cert.ReferenceIdeal.main_v194)
      = concatenate Cert.ReferenceIdeal.S60000x106 1 [⟨Cert.ReferenceIdeal.S60000x100, after Cert.ReferenceIdeal.Stages.opsD V' (Proc.devRef .tc Cert.ReferenceIdeal.main_v185)⟩, ⟨Cert.ReferenceIdeal.S60000x6, after Cert.ReferenceIdeal.Stages.opsD V' (Proc.devRef .tc Cert.ReferenceIdeal.main_v193)⟩]
          Cert.ReferenceIdeal.Gen.concatenates_S60000x100_S60000x6_S60000x106_d1 := rfl
  rw [ek, er]
  exact concat2_congr (l1d2_sumX V V' hx hA) (l1d2_sumE V V' h1 hB) _ _

set_option maxHeartbeats 4000000 in
/-- Degree 2: the degree's weight matrix is the same slice of the stacked weights. -/
theorem l1d2_w (h17 : V' (Proc.devRef .tc Cert.ReferenceIdeal.main_arg17) = V (Proc.devRef .tc Cert.KernelIdeal.main_arg17)) :
    after Cert.KernelIdeal.Gen.hostOps8 V (Proc.devRef .tc Cert.KernelIdeal.main_v148) = after Cert.ReferenceIdeal.Stages.opsD V' (Proc.devRef .tc Cert.ReferenceIdeal.main_v196) := by
  after_results_simp
  rw [h17]
  rfl

set_option maxHeartbeats 4000000 in
/-- Degree 2: the degree's bias as a one-row matrix — a reshape in the kernel program, a broadcast along axis 1 in
    the reference — of the same slice of the stacked biases. -/
theorem l1d2_b (h18 : V' (Proc.devRef .tc Cert.ReferenceIdeal.main_arg18) = V (Proc.devRef .tc Cert.KernelIdeal.main_arg18)) :
    after Cert.KernelIdeal.Gen.hostOps8 V (Proc.devRef .tc Cert.KernelIdeal.main_v151) = after Cert.ReferenceIdeal.Stages.opsD V' (Proc.devRef .tc Cert.ReferenceIdeal.main_v200) := by
  after_results_simp
  rw [h18]
  exact Cert.LibDenseRows.oneRow_cast_eq_bcast _ _ _

set_option maxHeartbeats 4000000 in
/-- Degree 2: the reference's dense layer of the degree's rows is the layer row by row. -/
theorem l1d2_refDense :
    @Eq (FVec Ideal Cert.ReferenceIdeal.S60000x100 .f32) (after Cert.ReferenceIdeal.Stages.opsD V' (Proc.devRef .tc Cert.ReferenceIdeal.main_v202)) (Cert.LibDenseRows.denseArr (after Cert.ReferenceIdeal.Stages.opsD V' (Proc.devRef .tc Cert.ReferenceIdeal.main_v194) : FVec Ideal Cert.ReferenceIdeal.S60000x106 .f32) (after Cert.ReferenceIdeal.Stages.opsD V' (Proc.devRef .tc Cert.ReferenceIdeal.main_v196) : FVec Ideal Cert.ReferenceIdeal.S106x100 .f32) (after Cert.ReferenceIdeal.Stages.opsD V' (Proc.devRef .tc Cert.ReferenceIdeal.main_v200) : FVec Ideal Cert.ReferenceIdeal.S1x100 .f32)) := by
  have e : @Eq (FVec Ideal Cert.ReferenceIdeal.S60000x100 .f32) (after Cert.ReferenceIdeal.Stages.opsD V' (Proc.devRef .tc Cert.ReferenceIdeal.main_v202))
      (addf (Host.dotGeneral (φ₁ := .f32) (φ₂ := .f32) Cert.ReferenceIdeal.dot_S60000x106_S106x100_S60000x100_1_0_0_1_n_n none (after Cert.ReferenceIdeal.Stages.opsD V' (Proc.devRef .tc Cert.ReferenceIdeal.main_v194) : FVec Ideal Cert.ReferenceIdeal.S60000x106 .f32) (after Cert.ReferenceIdeal.Stages.opsD V' (Proc.devRef .tc Cert.ReferenceIdeal.main_v196) : FVec Ideal Cert.ReferenceIdeal.S106x100 .f32))
          (broadcastInDim Cert.ReferenceIdeal.S60000x100 ![0, 1] Cert.ReferenceIdeal.Gen.bcast_S1x100_S60000x100_0_1 (after Cert.ReferenceIdeal.Stages.opsD V' (Proc.devRef .tc Cert.ReferenceIdeal.main_v200) : FVec Ideal Cert.ReferenceIdeal.S1x100 .f32))) := by rfl
  rw [e]
  exact Cert.ReferenceIdeal.RefVal.host_dense_eq_of_plain _ _ _ _ _ rfl

end Layer1Degree2

end Cert.Sim

end
-- ==== Proof.Sim.Layer1D3.lean ====
/-
  The second layer, neighbours of degree 3: the 60000 gathered rows and their dense layer, in the two programs.

  Both programs gather, for each of the 60000 nodes of this degree, the rows of its 3 neighbours (100 entries from the
  first layer's output, 6 edge entries from the edge array, a negative index first wrapped around), sum them over the
  neighbours, and put the two sums side by side as a row of 106 entries; they take slice 2 of the stacked weights as a
  106 × 100 matrix and slice 2 of the stacked biases as one row.  The operations are the same in the two programs, over
  buffers with other names; so from contents that agree on the first layer's output and on the argument arrays they
  compute the same rows, weights and bias row (the bias row is a reshape in one program and a broadcast along axis 1
  in the other: the same one-row matrix).  The reference then applies the dense layer to these, which is the layer
  row by row.  Everything is stated for arbitrary buffer contents V of the kernel program and V' of the reference.
-/
import proofs.«143046_j34703335751794_1_alg».proof.Proof.Gen.KernelIdeal.Launch
import proofs.«143046_j34703335751794_1_alg».proof.Proof.Ref.Stages
import proofs.«143046_j34703335751794_1_alg».proof.Proof.LibDenseRows
import proofs.«143046_j34703335751794_1_alg».proof.Proof.Val.NormRef
import proofs.«143046_j34703335751794_1_alg».proof.Proof.Sim.Layer0Lib

set_option maxRecDepth 16384

noncomputable section

namespace Cert.Sim

open Idealize.ShloMosaic Idealize.ShloMosaic.TcCoe Idealize.SL.Sem Idealize.ShloMosaic.StableHlo

section Layer1Degree3

variable (V : KVal) (V' : RVal)

set_option maxHeartbeats 4000000 in
/-- Degree 3: the sums of the gathered neighbour rows (the 100 entries of the first layer's output) are the same
    gather and sum of the same arrays in both programs. -/
theorem l1d3_sumX (hx : V' (Proc.devRef .tc Cert.ReferenceIdeal.main_v129) = V (Proc.devRef .tc Cert.KernelIdeal.main_v99)) (hA : V' (Proc.devRef .tc Cert.ReferenceIdeal.main_arg6) = V (Proc.devRef .tc Cert.KernelIdeal.main_arg6)) :
    after Cert.KernelIdeal.Gen.hostOps9 V (Proc.devRef .tc Cert.KernelIdeal.main_v160) = after Cert.ReferenceIdeal.Stages.opsD V' (Proc.devRef .tc Cert.ReferenceIdeal.main_v210) := by
  after_results_simp
  rw [hx, hA]
  rfl

set_option maxHeartbeats 4000000 in
/-- Degree 3: likewise the sums of the gathered edge rows (the 6 edge entries). -/
theorem l1d3_sumE (h1 : V' (Proc.devRef .tc Cert.ReferenceIdeal.main_arg1) = V (Proc.devRef .tc Cert.KernelIdeal.main_arg1)) (hB : V' (Proc.devRef .tc Cert.ReferenceIdeal.main_arg7) = V (Proc.devRef .tc Cert.KernelIdeal.main_arg7)) :
    after Cert.KernelIdeal.Gen.hostOps9 V (Proc.devRef .tc Cert.KernelIdeal.main_v168) = after Cert.ReferenceIdeal.Stages.opsD V' (Proc.devRef .tc Cert.ReferenceIdeal.main_v218) := by
  after_results_simp
  rw [h1, hB]
  rfl

set_option maxHeartbeats 4000000 in
/-- Degree 3: the rows the dense layer is applied to — the two sums side by side — agree. -/
theorem l1d3_rows (hx : V' (Proc.devRef .tc Cert.ReferenceIdeal.main_v129) = V (Proc.devRef .tc Cert.KernelIdeal.main_v99)) (h1 : V' (Proc.devRef .tc Cert.ReferenceIdeal.main_arg1) = V (Proc.devRef .tc Cert.KernelIdeal.main_arg1)) (hA : V' (Proc.devRef .tc Cert.ReferenceIdeal.main_arg6) = V (Proc.devRef .tc Cert.KernelIdeal.main_arg6)) (hB : V' (Proc.devRef .tc Cert.ReferenceIdeal.main_arg7) = V (Proc.devRef .tc Cert.KernelIdeal.main_arg7)) :
    after Cert.KernelIdeal.Gen.hostOps9 V (Proc.devRef .tc Cert.KernelIdeal.main_v169) = after Cert.ReferenceIdeal.Stages.opsD V' (Proc.devRef .tc Cert.ReferenceIdeal.main_v219) := by
  have ek : after Cert.KernelIdeal.Gen.hostOps9 V (Proc.devRef .tc Cert.KernelIdeal.main_v169)
      = concatenate Cert.KernelIdeal.S60000x106 1 [⟨Cert.KernelIdeal.S60000x100, after Cert.KernelIdeal.Gen.hostOps9 V (Proc.devRef .tc Cert.KernelIdeal.main_v160)⟩, ⟨Cert.KernelIdeal.S60000x6, after Cert.KernelIdeal.Gen.hostOps9 V (Proc.devRef .tc Cert.KernelIdeal.main_v168)⟩]
          Cert.KernelIdeal.Gen.concatenates_S60000x100_S60000x6_S60000x106_d1 := rfl
  have er : after Cert.ReferenceIdeal.Stages.opsD V' (Proc.devRef .tc Cert.ReferenceIdeal.main_v219)
      = concatenate Cert.ReferenceIdeal.S60000x106 1 [⟨Cert.ReferenceIdeal.S60000x100, after Cert.ReferenceIdeal.Stages.opsD V' (Proc.devRef .tc Cert.ReferenceIdeal.main_v210)⟩, ⟨Cert.ReferenceIdeal.S60000x6, after Cert.ReferenceIdeal.Stages.opsD V' (Proc.devRef .tc Cert.ReferenceIdeal.main_v218)⟩]
          Cert.ReferenceIdeal.Gen.concatenates_S60000x100_S60000x6_S60000x106_d1 := rfl
  rw [ek, er]
  exact concat2_congr (l1d3_sumX V V' hx hA) (l1d3_sumE V V' h1 hB) _ _

set_option maxHeartbeats 4000000 in
/-- Degree 3: the degree's weight matrix is the same slice of the stacked weights. -/
theorem l1d3_w (h17 : V' (Proc.devRef .tc Cert.ReferenceIdeal.main_arg17) = V (Proc.devRef .tc Cert.KernelIdeal.main_arg17)) :
    after Cert.KernelIdeal.Gen.hostOps9 V (Proc.devRef .tc Cert.KernelIdeal.main_v171) = after Cert.ReferenceIdeal.Stages.opsD V' (Proc.devRef .tc Cert.ReferenceIdeal.main_v221) := by
  after_results_simp
  rw [h17]
  rfl

set_option maxHeartbeats 4000000 in
/-- Degree 3: the degree's bias as a one-row matrix — a reshape in the kernel program, a broadcast along axis 1 in
    the reference — of the same slice of the stacked biases. -/
theorem l1d3_b (h18 : V' (Proc.devRef .tc Cert.ReferenceIdeal.main_arg18) = V (Proc.devRef .tc Cert.KernelIdeal.main_arg18)) :
    after Cert.KernelIdeal.Gen.hostOps9 V (Proc.devRef .tc Cert.KernelIdeal.main_v174) = after Cert.ReferenceIdeal.Stages.opsD V' (Proc.devRef .tc Cert.ReferenceIdeal.main_v225) := by
  after_results_simp
  rw [h18]
  exact Cert.LibDenseRows.oneRow_cast_eq_bcast _ _ _

set_option maxHeartbeats 4000000 in
/-- Degree 3: the reference's dense layer of the degree's rows is the layer row by row. -/
theorem l1d3_refDense :
    @Eq (FVec Ideal Cert.ReferenceIdeal.S60000x100 .f32) (after Cert.ReferenceIdeal.Stages.opsD V' (Proc.devRef .tc Cert.ReferenceIdeal.main_v227)) (Cert.LibDenseRows.denseArr (after Cert.ReferenceIdeal.Stages.opsD V' (Proc.devRef .tc Cert.ReferenceIdeal.main_v219) : FVec Ideal Cert.ReferenceIdeal.S60000x106 .f32) (after Cert.ReferenceIdeal.Stages.opsD V' (Proc.devRef .tc Cert.ReferenceIdeal.main_v221) : FVec Ideal Cert.ReferenceIdeal.S106x100 .f32) (after Cert.ReferenceIdeal.Stages.opsD V' (Proc.devRef .tc Cert.ReferenceIdeal.main_v225) : FVec Ideal Cert.ReferenceIdeal.S1x100 .f32)) := by
  have e : @Eq (FVec Ideal Cert.ReferenceIdeal.S60000x100 .f32) (after Cert.ReferenceIdeal.Stages.opsD V' (Proc.devRef .tc Cert.ReferenceIdeal.main_v227))
      (addf (Host.dotGeneral (φ₁ := .f32) (φ₂ := .f32) Cert.ReferenceIdeal.dot_S60000x106_S106x100_S60000x100_1_0_0_1_n_n none (after Cert.ReferenceIdeal.Stages.opsD V' (Proc.devRef .tc Cert.ReferenceIdeal.main_v219) : FVec Ideal Cert.ReferenceIdeal.S60000x106 .f32) (after Cert.ReferenceIdeal.Stages.opsD V' (Proc.devRef .tc Cert.ReferenceIdeal.main_v221) : FVec Ideal Cert.ReferenceIdeal.S106x100 .f32))
          (broadcastInDim Cert.ReferenceIdeal.S60000x100 ![0, 1] Cert.ReferenceIdeal.Gen.bcast_S1x100_S60000x100_0_1 (after Cert.ReferenceIdeal.Stages.opsD V' (Proc.devRef .tc Cert.ReferenceIdeal.main_v225) : FVec Ideal Cert.ReferenceIdeal.S1x100 .f32))) := by rfl
  rw [e]
  exact Cert.ReferenceIdeal.RefVal.host_dense_eq_of_plain _ _ _ _ _ rfl

end Layer1Degree3

end Cert.Sim

end
-- ==== Proof.Sim.Layer1D4.lean ====
/-
  The second layer, neighbours of degree 4: the 40000 gathered rows and their dense layer, in the two programs.

  Both programs gather, for each of the 40000 nodes of this degree, the rows of its 4 neighbours (100 entries from the
  first layer's output, 6 edge entries from the edge array, a negative index first wrapped around), sum them over the
  neighbours, and put the two sums side by side as a row of 106 entries; they take slice 3 of the stacked weights as a
  106 × 100 matrix and slice 3 of the stacked biases as one row.  The operations are the same in the two programs, over
  buffers with other names; so from contents that agree on the first layer's output and on the argument arrays they
  compute the same rows, weights and bias row (the bias row is a reshape in one program and a broadcast along axis 1
  in the other: the same one-row matrix).  The reference then applies the dense layer to these, which is the layer
  row by row.  Everything is stated for arbitrary buffer contents V of the kernel program and V' of the reference.
-/
import proofs.«143046_j34703335751794_1_alg».proof.Proof.Gen.KernelIdeal.Launch
import proofs.«143046_j34703335751794_1_alg».proof.Proof.Ref.Stages
import proofs.«143046_j34703335751794_1_alg».proof.Proof.LibDenseRows
import proofs.«143046_j34703335751794_1_alg».proof.Proof.Val.NormRef
import proofs.«143046_j34703335751794_1_alg».proof.Proof.Sim.Layer0Lib

set_option maxRecDepth 16384

noncomputable section

namespace Cert.Sim

open Idealize.ShloMosaic Idealize.ShloMosaic.TcCoe Idealize.SL.Sem Idealize.ShloMosaic.StableHlo

section Layer1Degree4

variable (V : KVal) (V' : RVal)

set_option maxHeartbeats 4000000 in
/-- Degree 4: the sums of the gathered neighbour rows (the 100 entries of the first layer's output) are the same
    gather and sum of the same arrays in both programs. -/
theorem l1d4_sumX (hx : V' (Proc.devRef .tc Cert.ReferenceIdeal.main_v129) = V (Proc.devRef .tc Cert.KernelIdeal.main_v99)) (hA : V' (Proc.devRef .tc Cert.ReferenceIdeal.main_arg8) = V (Proc.devRef .tc Cert.KernelIdeal.main_arg8)) :
    after Cert.KernelIdeal.Gen.hostOps10 V (Proc.devRef .tc Cert.KernelIdeal.main_v183) = after Cert.ReferenceIdeal.Stages.opsD V' (Proc.devRef .tc Cert.ReferenceIdeal.main_v235) := by
  after_results_simp
  rw [hx, hA]
  rfl

set_option maxHeartbeats 4000000 in
/-- Degree 4: likewise the sums of the gathered edge rows (the 6 edge entries). -/
theorem l1d4_sumE (h1 : V' (Proc.devRef .tc Cert.ReferenceIdeal.main_arg1) = V (Proc.devRef .tc Cert.KernelIdeal.main_arg1)) (hB : V' (Proc.devRef .tc Cert.ReferenceIdeal.main_arg9) = V (Proc.devRef .tc Cert.KernelIdeal.main_arg9)) :
    after Cert.KernelIdeal.Gen.hostOps10 V (Proc.devRef .tc Cert.KernelIdeal.main_v191) = after Cert.ReferenceIdeal.Stages.opsD V' (Proc.devRef .tc Cert.ReferenceIdeal.main_v243) := by
  after_results_simp
  rw [h1, hB]
  rfl

set_option maxHeartbeats 4000000 in
/-- Degree 4: the rows the dense layer is applied to — the two sums side by side — agree. -/
theorem l1d4_rows (hx : V' (Proc.devRef .tc Cert.ReferenceIdeal.main_v129) = V (Proc.devRef .tc Cert.KernelIdeal.main_v99)) (h1 : V' (Proc.devRef .tc Cert.ReferenceIdeal.main_arg1) = V (Proc.devRef .tc Cert.KernelIdeal.main_arg1)) (hA : V' (Proc.devRef .tc Cert.ReferenceIdeal.main_arg8) = V (Proc.devRef .tc Cert.KernelIdeal.main_arg8)) (hB : V' (Proc.devRef .tc Cert.ReferenceIdeal.main_arg9) = V (Proc.devRef .tc Cert.KernelIdeal.main_arg9)) :
    after Cert.KernelIdeal.Gen.hostOps10 V (Proc.devRef .tc Cert.KernelIdeal.main_v192) = after Cert.ReferenceIdeal.Stages.opsD V' (Proc.devRef .tc Cert.ReferenceIdeal.main_v244) := by
  have ek : after Cert.KernelIdeal.Gen.hostOps10 V (Proc.devRef .tc Cert.KernelIdeal.main_v192)
      = concatenate Cert.KernelIdeal.S40000x106 1 [⟨Cert.KernelIdeal.S40000x100, after Cert.KernelIdeal.Gen.hostOps10 V (Proc.devRef .tc Cert.KernelIdeal.main_v183)⟩, ⟨Cert.KernelIdeal.S40000x6, after Cert.KernelIdeal.Gen.hostOps10 V (Proc.devRef .tc Cert.KernelIdeal.main_v191)⟩]
          Cert.KernelIdeal.Gen.concatenates_S40000x100_S40000x6_S40000x106_d1 := rfl
  have er : after Cert.ReferenceIdeal.Stages.opsD V' (Proc.devRef .tc Cert.ReferenceIdeal.main_v244)
      = concatenate Cert.ReferenceIdeal.S40000x106 1 [⟨Cert.ReferenceIdeal.S40000x100, after Cert.ReferenceIdeal.Stages.opsD V' (Proc.devRef .tc Cert.ReferenceIdeal.main_v235)⟩, ⟨Cert.ReferenceIdeal.S40000x6, after Cert.ReferenceIdeal.Stages.opsD V' (Proc.devRef .tc Cert.ReferenceIdeal.main_v243)⟩]
          Cert.ReferenceIdeal.Gen.concatenates_S40000x100_S40000x6_S40000x106_d1 := rfl
  rw [ek, er]
  exact concat2_congr (l1d4_sumX V V' hx hA) (l1d4_sumE V V' h1 hB) _ _

set_option maxHeartbeats 4000000 in
/-- Degree 4: the degree's weight matrix is the same slice of the stacked weights. -/
theorem l1d4_w (h17 : V' (Proc.devRef .tc Cert.ReferenceIdeal.main_arg17) = V (Proc.devRef .tc Cert.KernelIdeal.main_arg17)) :
    after Cert.KernelIdeal.Gen.hostOps10 V (Proc.devRef .tc Cert.KernelIdeal.main_v194) = after Cert.ReferenceIdeal.Stages.opsD V' (Proc.devRef .tc Cert.ReferenceIdeal.main_v246) := by
  after_results_simp
  rw [h17]
  rfl

set_option maxHeartbeats 4000000 in
/-- Degree 4: the degree's bias as a one-row matrix — a reshape in the kernel program, a broadcast along axis 1 in
    the reference — of the same slice of the stacked biases. -/
theorem l1d4_b (h18 : V' (Proc.devRef .tc Cert.ReferenceIdeal.main_arg18) = V (Proc.devRef .tc Cert.KernelIdeal.main_arg18)) :
    after Cert.KernelIdeal.Gen.hostOps10 V (Proc.devRef .tc Cert.KernelIdeal.main_v197) = after Cert.ReferenceIdeal.Stages.opsD V' (Proc.devRef .tc Cert.ReferenceIdeal.main_v250) := by
  after_results_simp
  rw [h18]
  exact Cert.LibDenseRows.oneRow_cast_eq_bcast _ _ _

set_option maxHeartbeats 4000000 in
/-- Degree 4: the reference's dense layer of the degree's rows is the layer row by row. -/
theorem l1d4_refDense :
    @Eq (FVec Ideal Cert.ReferenceIdeal.S40000x100 .f32) (after Cert.ReferenceIdeal.Stages.opsD V' (Proc.devRef .tc Cert.ReferenceIdeal.main_v252)) (Cert.LibDenseRows.denseArr (after Cert.ReferenceIdeal.Stages.opsD V' (Proc.devRef .tc Cert.ReferenceIdeal.main_v244) : FVec Ideal Cert.ReferenceIdeal.S40000x106 .f32) (after Cert.ReferenceIdeal.Stages.opsD V' (Proc.devRef .tc Cert.ReferenceIdeal.main_v246) : FVec Ideal Cert.ReferenceIdeal.S106x100 .f32) (after Cert.ReferenceIdeal.Stages.opsD V' (Proc.devRef .tc Cert.ReferenceIdeal.main_v250) : FVec Ideal Cert.ReferenceIdeal.S1x100 .f32)) := by
  have e : @Eq (FVec Ideal Cert.ReferenceIdeal.S40000x100 .f32) (after Cert.ReferenceIdeal.Stages.opsD V' (Proc.devRef .tc Cert.ReferenceIdeal.main_v252))
      (addf (Host.dotGeneral (φ₁ := .f32) (φ₂ := .f32) Cert.ReferenceIdeal.dot_S40000x106_S106x100_S40000x100_1_0_0_1_n_n none (after Cert.ReferenceIdeal.Stages.opsD V' (Proc.devRef .tc Cert.ReferenceIdeal.main_v244) : FVec Ideal Cert.ReferenceIdeal.S40000x106 .f32) (after Cert.ReferenceIdeal.Stages.opsD V' (Proc.devRef .tc Cert.ReferenceIdeal.main_v246) : FVec Ideal Cert.ReferenceIdeal.S106x100 .f32))
          (broadcastInDim Cert.ReferenceIdeal.S40000x100 ![0, 1] Cert.ReferenceIdeal.Gen.bcast_S1x100_S40000x100_0_1 (after Cert.ReferenceIdeal.Stages.opsD V' (Proc.devRef .tc Cert.ReferenceIdeal.main_v250) : FVec Ideal Cert.ReferenceIdeal.S1x100 .f32))) := by rfl
  rw [e]
  exact Cert.ReferenceIdeal.RefVal.host_dense_eq_of_plain _ _ _ _ _ rfl

end Layer1Degree4

end Cert.Sim

end
-- ==== Proof.Sim.Layer1Fin.lean ====
/-
  The second layer, finished: the four degrees' parts one above the other, added to the dense layer of all 200000
  rows of the first layer's output, each row divided by its length (floored) and rectified.

  In the kernel program the four parts are concatenated by one host operation and the rest is done by one
  pallas_call; here only the host operations are read: the concatenation and the self bias as a one-row matrix (a
  reshape).  In the reference the whole finish is host operations: the concatenation, the sum with the dense layer,
  the row norms, the quotient and the rectifier; read at an entry it is the row function of the kernel's finish,
  the bias row a broadcast along axis 1 of the same vector.  Everything is stated for arbitrary buffer contents V of
  the kernel program and V' of the reference.
-/
import proofs.«143046_j34703335751794_1_alg».proof.Proof.Gen.KernelIdeal.Launch
import proofs.«143046_j34703335751794_1_alg».proof.Proof.Ref.Stages
import proofs.«143046_j34703335751794_1_alg».proof.Proof.LibDenseRows
import proofs.«143046_j34703335751794_1_alg».proof.Proof.LibNormRows
import proofs.«143046_j34703335751794_1_alg».proof.Proof.Val.NormRef
import proofs.«143046_j34703335751794_1_alg».proof.Proof.Sim.Layer0Lib

set_option maxRecDepth 16384

noncomputable section

namespace Cert.Sim

open Idealize.ShloMosaic Idealize.ShloMosaic.TcCoe Idealize.SL.Sem Idealize.ShloMosaic.StableHlo
open Idealize.ShloMosaic.ValueIdx Cert.LibDenseRows Cert.LibNormRows

section Layer1Finish

variable (V : KVal) (V' : RVal)

set_option maxHeartbeats 4000000 in
/-- The kernel program's added array: the four degrees' dense parts one above the other. -/
theorem l1_partsK :
    after Cert.KernelIdeal.Gen.hostOps11 V (Proc.devRef .tc Cert.KernelIdeal.main_v199)
      = concatenate Cert.KernelIdeal.S200000x100 0 [⟨Cert.KernelIdeal.S40000x100, V (Proc.devRef .tc Cert.KernelIdeal.main_v129)⟩, ⟨Cert.KernelIdeal.S60000x100, V (Proc.devRef .tc Cert.KernelIdeal.main_v152)⟩, ⟨Cert.KernelIdeal.S60000x100, V (Proc.devRef .tc Cert.KernelIdeal.main_v175)⟩, ⟨Cert.KernelIdeal.S40000x100, V (Proc.devRef .tc Cert.KernelIdeal.main_v198)⟩] Cert.KernelIdeal.Gen.concatenates_S40000x100_S60000x100_S60000x100_S40000x100_S200000x100_d0 := rfl

set_option maxHeartbeats 4000000 in
/-- The reference's added array: its four degrees' dense parts one above the other. -/
theorem l1_partsR :
    after Cert.ReferenceIdeal.Stages.opsD V' (Proc.devRef .tc Cert.ReferenceIdeal.main_v253)
      = concatenate Cert.ReferenceIdeal.S200000x100 0 [⟨Cert.ReferenceIdeal.S40000x100, after Cert.ReferenceIdeal.Stages.opsD V' (Proc.devRef .tc Cert.ReferenceIdeal.main_v177)⟩, ⟨Cert.ReferenceIdeal.S60000x100, after Cert.ReferenceIdeal.Stages.opsD V' (Proc.devRef .tc Cert.ReferenceIdeal.main_v202)⟩, ⟨Cert.ReferenceIdeal.S60000x100, after Cert.ReferenceIdeal.Stages.opsD V' (Proc.devRef .tc Cert.ReferenceIdeal.main_v227)⟩, ⟨Cert.ReferenceIdeal.S40000x100, after Cert.ReferenceIdeal.Stages.opsD V' (Proc.devRef .tc Cert.ReferenceIdeal.main_v252)⟩] Cert.ReferenceIdeal.Gen.concatenates_S40000x100_S60000x100_S60000x100_S40000x100_S200000x100_d0 := rfl

set_option maxHeartbeats 4000000 in
/-- The kernel program's self bias as a one-row matrix: a reshape of the bias vector. -/
theorem l1_biasK :
    after Cert.KernelIdeal.Gen.hostOps7 V (Proc.devRef .tc Cert.KernelIdeal.main_v106)
      = shapeCast Cert.KernelIdeal.S1x100 (V (Proc.devRef .tc Cert.KernelIdeal.main_arg16)) Cert.KernelIdeal.Gen.shapeCasts_S100_S1x100 := by
  after_results_simp
  rfl

set_option maxHeartbeats 8000000 in
/-- The reference's finished second layer: row i of the first layer's output through the dense layer, plus row i of
    the added array, normalised and rectified. -/
theorem l1_finR :
    @Eq (FVec Ideal Cert.ReferenceIdeal.S200000x100 .f32) (after Cert.ReferenceIdeal.Stages.opsD V' (Proc.devRef .tc Cert.ReferenceIdeal.main_v260))
      (fun i => normReluRow (fun j => denseRow (fun cc => (V' (Proc.devRef .tc Cert.ReferenceIdeal.main_v129) : FVec Ideal Cert.ReferenceIdeal.S200000x100 .f32) (ix2 (i 0 : Fin 200000) cc))
          (V' (Proc.devRef .tc Cert.ReferenceIdeal.main_arg15) : FVec Ideal Cert.ReferenceIdeal.S100x100 .f32)
          (broadcastInDim Cert.ReferenceIdeal.S1x100 ![1] Cert.ReferenceIdeal.Gen.bcast_S100_S1x100_1 (V' (Proc.devRef .tc Cert.ReferenceIdeal.main_arg16) : FVec Ideal Cert.ReferenceIdeal.S100 .f32)) j
            + (after Cert.ReferenceIdeal.Stages.opsD V' (Proc.devRef .tc Cert.ReferenceIdeal.main_v253) : FVec Ideal Cert.ReferenceIdeal.S200000x100 .f32) (ix2 (i 0 : Fin 200000) j)) (i 1 : Fin 100)) := by
  have e : @Eq (FVec Ideal Cert.ReferenceIdeal.S200000x100 .f32) (after Cert.ReferenceIdeal.Stages.opsD V' (Proc.devRef .tc Cert.ReferenceIdeal.main_v260))
      (maximumf (Host.divf (addf (after Cert.ReferenceIdeal.Stages.opsD V' (Proc.devRef .tc Cert.ReferenceIdeal.main_v253) : FVec Ideal Cert.ReferenceIdeal.S200000x100 .f32) (addf (Host.dotGeneral (φ₁ := .f32) (φ₂ := .f32) Cert.ReferenceIdeal.dot_S200000x100_S100x100_S200000x100_1_0_0_1_n_n none (V' (Proc.devRef .tc Cert.ReferenceIdeal.main_v129) : FVec Ideal Cert.ReferenceIdeal.S200000x100 .f32) (V' (Proc.devRef .tc Cert.ReferenceIdeal.main_arg15) : FVec Ideal Cert.ReferenceIdeal.S100x100 .f32)) (broadcastInDim Cert.ReferenceIdeal.S200000x100 ![0, 1] Cert.ReferenceIdeal.Gen.bcast_S1x100_S200000x100_0_1 (broadcastInDim Cert.ReferenceIdeal.S1x100 ![1] Cert.ReferenceIdeal.Gen.bcast_S100_S1x100_1 (V' (Proc.devRef .tc Cert.ReferenceIdeal.main_arg16) : FVec Ideal Cert.ReferenceIdeal.S100 .f32))))) (broadcastInDim Cert.ReferenceIdeal.S200000x100 ![0, 1] Cert.ReferenceIdeal.Gen.bcast_S200000x1_S200000x100_0_1 (maximumf (Host.sqrt (broadcastInDim Cert.ReferenceIdeal.S200000x1 ![0] Cert.ReferenceIdeal.Gen.bcast_S200000_S200000x1_0 (Host.reduceAdd (F := Ideal) (mulf (addf (after Cert.ReferenceIdeal.Stages.opsD V' (Proc.devRef .tc Cert.ReferenceIdeal.main_v253) : FVec Ideal Cert.ReferenceIdeal.S200000x100 .f32) (addf (Host.dotGeneral (φ₁ := .f32) (φ₂ := .f32) Cert.ReferenceIdeal.dot_S200000x100_S100x100_S200000x100_1_0_0_1_n_n none (V' (Proc.devRef .tc Cert.ReferenceIdeal.main_v129) : FVec Ideal Cert.ReferenceIdeal.S200000x100 .f32) (V' (Proc.devRef .tc Cert.ReferenceIdeal.main_arg15) : FVec Ideal Cert.ReferenceIdeal.S100x100 .f32)) (broadcastInDim Cert.ReferenceIdeal.S200000x100 ![0, 1] Cert.ReferenceIdeal.Gen.bcast_S1x100_S200000x100_0_1 (broadcastInDim Cert.ReferenceIdeal.S1x100 ![1] Cert.ReferenceIdeal.Gen.bcast_S100_S1x100_1 (V' (Proc.devRef .tc Cert.ReferenceIdeal.main_arg16) : FVec Ideal Cert.ReferenceIdeal.S100 .f32))))) (addf (after Cert.ReferenceIdeal.Stages.opsD V' (Proc.devRef .tc Cert.ReferenceIdeal.main_v253) : FVec Ideal Cert.ReferenceIdeal.S200000x100 .f32) (addf (Host.dotGeneral (φ₁ := .f32) (φ₂ := .f32) Cert.ReferenceIdeal.dot_S200000x100_S100x100_S200000x100_1_0_0_1_n_n none (V' (Proc.devRef .tc Cert.ReferenceIdeal.main_v129) : FVec Ideal Cert.ReferenceIdeal.S200000x100 .f32) (V' (Proc.devRef .tc Cert.ReferenceIdeal.main_arg15) : FVec Ideal Cert.ReferenceIdeal.S100x100 .f32)) (broadcastInDim Cert.ReferenceIdeal.S200000x100 ![0, 1] Cert.ReferenceIdeal.Gen.bcast_S1x100_S200000x100_0_1 (broadcastInDim Cert.ReferenceIdeal.S1x100 ![1] Cert.ReferenceIdeal.Gen.bcast_S100_S1x100_1 (V' (Proc.devRef .tc Cert.ReferenceIdeal.main_arg16) : FVec Ideal Cert.ReferenceIdeal.S100 .f32)))))) (constant (F := Ideal) Cert.ReferenceIdeal.S_ .f32 0x00000000#32) Cert.ReferenceIdeal.Gen.reducesTo_S200000x100_S200000_d1 Cert.ReferenceIdeal.Gen.h_S_))) (broadcastInDim Cert.ReferenceIdeal.S200000x1 ![] Cert.ReferenceIdeal.Gen.bcast_S_S200000x1 (constant (F := Ideal) Cert.ReferenceIdeal.S_ .f32 0x2B8CBCCC#32))))) (broadcastInDim Cert.ReferenceIdeal.S200000x100 ![] Cert.ReferenceIdeal.Gen.bcast_S_S200000x100 (constant (F := Ideal) Cert.ReferenceIdeal.S_ .f32 0x00000000#32))) := by rfl
  rw [e]
  exact Cert.ReferenceIdeal.RefVal.layer2_eq _ _ _ _

set_option maxHeartbeats 4000000 in
/-- The reference's finished second layer against given contents: when its first layer's output is x, its self
    weights w, its self bias vector b and its added array D, the finished layer is the kernel program's finish of
    x, w, the bias reshaped to one row, and D. -/
theorem l1_fin (x : FVec Ideal Cert.KernelIdeal.S200000x100 .f32) (w : FVec Ideal Cert.KernelIdeal.S100x100 .f32) (b : FVec Ideal Cert.KernelIdeal.S100 .f32)
    (D : FVec Ideal Cert.KernelIdeal.S200000x100 .f32)
    (hx : V' (Proc.devRef .tc Cert.ReferenceIdeal.main_v129) = x) (hw : V' (Proc.devRef .tc Cert.ReferenceIdeal.main_arg15) = w) (hb : V' (Proc.devRef .tc Cert.ReferenceIdeal.main_arg16) = b)
    (hD : after Cert.ReferenceIdeal.Stages.opsD V' (Proc.devRef .tc Cert.ReferenceIdeal.main_v253) = D) :
    @Eq (FVec Ideal Cert.KernelIdeal.S200000x100 .f32) (after Cert.ReferenceIdeal.Stages.opsD V' (Proc.devRef .tc Cert.ReferenceIdeal.main_v260))
      (normReluArr (m := 200000) (n := 100) (fun i => denseArr (m := 200000) (k := 100) (n := 100) x w
        (shapeCast Cert.KernelIdeal.S1x100 b Cert.KernelIdeal.Gen.shapeCasts_S100_S1x100) i + D i)) := by
  have hB : @Eq (FVec Ideal Cert.KernelIdeal.S1x100 .f32) (shapeCast Cert.KernelIdeal.S1x100 b Cert.KernelIdeal.Gen.shapeCasts_S100_S1x100)
      (broadcastInDim Cert.ReferenceIdeal.S1x100 ![1] Cert.ReferenceIdeal.Gen.bcast_S100_S1x100_1 b) := oneRow_cast_eq_bcast _ _ _
  rw [l1_finR V', hx, hw, hb, hD, hB]
  rfl

end Layer1Finish

end Cert.Sim

end
-- ==== Proof.Sim.Layer1.lean ====
/-
  The second layer's output in the two programs: what pallas_call 11 leaves in its result array is what the
  reference's second layer (its stage D) leaves in its result, given that the first layer's outputs agree.

  In the kernel program the first layer's output x1 is written once (by pallas_call 5) and every later item leaves
  it alone, as it leaves the arguments alone; so each degree's host stretch reads x1, the edge features, the
  degree's index arrays and the stacked weights and biases at their known contents, and by the degree's comparison
  computes the rows, weights and bias row the reference computes.  The degree's pallas_call applies the dense layer
  to them, which is the reference's dense part.  The four parts, untouched until host stretch 11 concatenates
  them, are the reference's added array; pallas_call 11 finishes x1 with the self weights, the self bias row and
  the added array the way the reference's finish does.
-/
import proofs.«143046_j34703335751794_1_alg».proof.Proof.KI.Hold
import proofs.«143046_j34703335751794_1_alg».proof.Proof.KI.Value7
import proofs.«143046_j34703335751794_1_alg».proof.Proof.KI.Value8
import proofs.«143046_j34703335751794_1_alg».proof.Proof.KI.Value9
import proofs.«143046_j34703335751794_1_alg».proof.Proof.KI.Value10
import proofs.«143046_j34703335751794_1_alg».proof.Proof.KI.Value11
import proofs.«143046_j34703335751794_1_alg».proof.Proof.Ref.Stages
import proofs.«143046_j34703335751794_1_alg».proof.Proof.Sim.Agree
import proofs.«143046_j34703335751794_1_alg».proof.Proof.Sim.Layer1D1
import proofs.«143046_j34703335751794_1_alg».proof.Proof.Sim.Layer1D2
import proofs.«143046_j34703335751794_1_alg».proof.Proof.Sim.Layer1D3
import proofs.«143046_j34703335751794_1_alg».proof.Proof.Sim.Layer1D4
import proofs.«143046_j34703335751794_1_alg».proof.Proof.Sim.Layer1Fin

set_option maxRecDepth 16384

noncomputable section

namespace Cert.Sim

open Idealize.ShloMosaic Idealize.ShloMosaic.TcCoe Idealize.SL.Sem Idealize.ShloMosaic.StableHlo
open Idealize.ShloMosaic.ValueIdx Cert.LibDenseRows Cert.LibNormRows
open Cert.KernelIdeal.Fr

section Layer1

variable (m : KMem) (m' : RMem) (c : Dev Cert.KernelIdeal.nD)

/-! ## The kernel program: the first layer's output stays where pallas_call 5 left it -/

/-- After the first 14 items of the program the first layer's output is still what pallas_call 5 left. -/
theorem l1_x_W14 : W14 m c (Proc.devRef .tc Cert.KernelIdeal.main_v99) = W12 m c (Proc.devRef .tc Cert.KernelIdeal.main_v99) :=
  (W14_off m c Cert.KernelIdeal.main_v99 (by decide)).trans <| (hold13 m c Cert.KernelIdeal.main_v99 (by decide))

/-- After the first 16 items of the program the first layer's output is still what pallas_call 5 left. -/
theorem l1_x_W16 : W16 m c (Proc.devRef .tc Cert.KernelIdeal.main_v99) = W12 m c (Proc.devRef .tc Cert.KernelIdeal.main_v99) :=
  (W16_off m c Cert.KernelIdeal.main_v99 (by decide)).trans <| (hold15 m c Cert.KernelIdeal.main_v99 (by decide)).trans <| l1_x_W14 m c

/-- After the first 18 items of the program the first layer's output is still what pallas_call 5 left. -/
theorem l1_x_W18 : W18 m c (Proc.devRef .tc Cert.KernelIdeal.main_v99) = W12 m c (Proc.devRef .tc Cert.KernelIdeal.main_v99) :=
  (W18_off m c Cert.KernelIdeal.main_v99 (by decide)).trans <| (hold17 m c Cert.KernelIdeal.main_v99 (by decide)).trans <| l1_x_W16 m c

/-- After the first 20 items of the program the first layer's output is still what pallas_call 5 left. -/
theorem l1_x_W20 : W20 m c (Proc.devRef .tc Cert.KernelIdeal.main_v99) = W12 m c (Proc.devRef .tc Cert.KernelIdeal.main_v99) :=
  (W20_off m c Cert.KernelIdeal.main_v99 (by decide)).trans <| (hold19 m c Cert.KernelIdeal.main_v99 (by decide)).trans <| l1_x_W18 m c

/-- After the first 22 items of the program the first layer's output is still what pallas_call 5 left. -/
theorem l1_x_W22 : W22 m c (Proc.devRef .tc Cert.KernelIdeal.main_v99) = W12 m c (Proc.devRef .tc Cert.KernelIdeal.main_v99) :=
  (W22_off m c Cert.KernelIdeal.main_v99 (by decide)).trans <| (hold21 m c Cert.KernelIdeal.main_v99 (by decide)).trans <| l1_x_W20 m c

/-- After the first 23 items of the program the first layer's output is still what pallas_call 5 left. -/
theorem l1_x_W23 : W23 m c (Proc.devRef .tc Cert.KernelIdeal.main_v99) = W12 m c (Proc.devRef .tc Cert.KernelIdeal.main_v99) :=
  (hold23 m c Cert.KernelIdeal.main_v99 (by decide)).trans <| l1_x_W22 m c

/-! ## The kernel program: the arguments read by the second layer hold their launch contents -/

/-- After the first 14 items of the program argument 1 still holds its launch contents. -/
theorem l1_arg1_W14 : W14 m c (Proc.devRef .tc Cert.KernelIdeal.main_arg1) = m (c, Proc.devRef .tc Cert.KernelIdeal.main_arg1) :=
  (W14_off m c Cert.KernelIdeal.main_arg1 (by decide)).trans <| (hold13 m c Cert.KernelIdeal.main_arg1 (by decide)).trans <| (W12_off m c Cert.KernelIdeal.main_arg1 (by decide)).trans <| (hold11 m c Cert.KernelIdeal.main_arg1 (by decide)).trans <| (W10_off m c Cert.KernelIdeal.main_arg1 (by decide)).trans <| (hold9 m c Cert.KernelIdeal.main_arg1 (by decide)).trans <| (W8_off m c Cert.KernelIdeal.main_arg1 (by decide)).trans <| (hold7 m c Cert.KernelIdeal.main_arg1 (by decide)).trans <| (W6_off m c Cert.KernelIdeal.main_arg1 (by decide)).trans <| (hold5 m c Cert.KernelIdeal.main_arg1 (by decide)).trans <| (W4_off m c Cert.KernelIdeal.main_arg1 (by decide)).trans <| (hold3 m c Cert.KernelIdeal.main_arg1 (by decide)).trans <| (W2_off m c Cert.KernelIdeal.main_arg1 (by decide)).trans <| (hold1 m c Cert.KernelIdeal.main_arg1 (by decide))

/-- After the first 16 items of the program argument 1 still holds its launch contents. -/
theorem l1_arg1_W16 : W16 m c (Proc.devRef .tc Cert.KernelIdeal.main_arg1) = m (c, Proc.devRef .tc Cert.KernelIdeal.main_arg1) :=
  (W16_off m c Cert.KernelIdeal.main_arg1 (by decide)).trans <| (hold15 m c Cert.KernelIdeal.main_arg1 (by decide)).trans <| l1_arg1_W14 m c

/-- After the first 18 items of the program argument 1 still holds its launch contents. -/
theorem l1_arg1_W18 : W18 m c (Proc.devRef .tc Cert.KernelIdeal.main_arg1) = m (c, Proc.devRef .tc Cert.KernelIdeal.main_arg1) :=
  (W18_off m c Cert.KernelIdeal.main_arg1 (by decide)).trans <| (hold17 m c Cert.KernelIdeal.main_arg1 (by decide)).trans <| l1_arg1_W16 m c

/-- After the first 20 items of the program argument 1 still holds its launch contents. -/
theorem l1_arg1_W20 : W20 m c (Proc.devRef .tc Cert.KernelIdeal.main_arg1) = m (c, Proc.devRef .tc Cert.KernelIdeal.main_arg1) :=
  (W20_off m c Cert.KernelIdeal.main_arg1 (by decide)).trans <| (hold19 m c Cert.KernelIdeal.main_arg1 (by decide)).trans <| l1_arg1_W18 m c

/-- After the first 14 items of the program argument 2 still holds its launch contents. -/
theorem l1_arg2_W14 : W14 m c (Proc.devRef .tc Cert.KernelIdeal.main_arg2) = m (c, Proc.devRef .tc Cert.KernelIdeal.main_arg2) :=
  (W14_off m c Cert.KernelIdeal.main_arg2 (by decide)).trans <| (hold13 m c Cert.KernelIdeal.main_arg2 (by decide)).trans <| (W12_off m c Cert.KernelIdeal.main_arg2 (by decide)).trans <| (hold11 m c Cert.KernelIdeal.main_arg2 (by decide)).trans <| (W10_off m c Cert.KernelIdeal.main_arg2 (by decide)).trans <| (hold9 m c Cert.KernelIdeal.main_arg2 (by decide)).trans <| (W8_off m c Cert.KernelIdeal.main_arg2 (by decide)).trans <| (hold7 m c Cert.KernelIdeal.main_arg2 (by decide)).trans <| (W6_off m c Cert.KernelIdeal.main_arg2 (by decide)).trans <| (hold5 m c Cert.KernelIdeal.main_arg2 (by decide)).trans <| (W4_off m c Cert.KernelIdeal.main_arg2 (by decide)).trans <| (hold3 m c Cert.KernelIdeal.main_arg2 (by decide)).trans <| (W2_off m c Cert.KernelIdeal.main_arg2 (by decide)).trans <| (hold1 m c Cert.KernelIdeal.main_arg2 (by decide))

/-- After the first 14 items of the program argument 3 still holds its launch contents. -/
theorem l1_arg3_W14 : W14 m c (Proc.devRef .tc Cert.KernelIdeal.main_arg3) = m (c, Proc.devRef .tc Cert.KernelIdeal.main_arg3) :=
  (W14_off m c Cert.KernelIdeal.main_arg3 (by decide)).trans <| (hold13 m c Cert.KernelIdeal.main_arg3 (by decide)).trans <| (W12_off m c Cert.KernelIdeal.main_arg3 (by decide)).trans <| (hold11 m c Cert.KernelIdeal.main_arg3 (by decide)).trans <| (W10_off m c Cert.KernelIdeal.main_arg3 (by decide)).trans <| (hold9 m c Cert.KernelIdeal.main_arg3 (by decide)).trans <| (W8_off m c Cert.KernelIdeal.main_arg3 (by decide)).trans <| (hold7 m c Cert.KernelIdeal.main_arg3 (by decide)).trans <| (W6_off m c Cert.KernelIdeal.main_arg3 (by decide)).trans <| (hold5 m c Cert.KernelIdeal.main_arg3 (by decide)).trans <| (W4_off m c Cert.KernelIdeal.main_arg3 (by decide)).trans <| (hold3 m c Cert.KernelIdeal.main_arg3 (by decide)).trans <| (W2_off m c Cert.KernelIdeal.main_arg3 (by decide)).trans <| (hold1 m c Cert.KernelIdeal.main_arg3 (by decide))

/-- After the first 16 items of the program argument 4 still holds its launch contents. -/
theorem l1_arg4_W16 : W16 m c (Proc.devRef .tc Cert.KernelIdeal.main_arg4) = m (c, Proc.devRef .tc Cert.KernelIdeal.main_arg4) :=
  (W16_off m c Cert.KernelIdeal.main_arg4 (by decide)).trans <| (hold15 m c Cert.KernelIdeal.main_arg4 (by decide)).trans <| (W14_off m c Cert.KernelIdeal.main_arg4 (by decide)).trans <| (hold13 m c Cert.KernelIdeal.main_arg4 (by decide)).trans <| (W12_off m c Cert.KernelIdeal.main_arg4 (by decide)).trans <| (hold11 m c Cert.KernelIdeal.main_arg4 (by decide)).trans <| (W10_off m c Cert.KernelIdeal.main_arg4 (by decide)).trans <| (hold9 m c Cert.KernelIdeal.main_arg4 (by decide)).trans <| (W8_off m c Cert.KernelIdeal.main_arg4 (by decide)).trans <| (hold7 m c Cert.KernelIdeal.main_arg4 (by decide)).trans <| (W6_off m c Cert.KernelIdeal.main_arg4 (by decide)).trans <| (hold5 m c Cert.KernelIdeal.main_arg4 (by decide)).trans <| (W4_off m c Cert.KernelIdeal.main_arg4 (by decide)).trans <| (hold3 m c Cert.KernelIdeal.main_arg4 (by decide)).trans <| (W2_off m c Cert.KernelIdeal.main_arg4 (by decide)).trans <| (hold1 m c Cert.KernelIdeal.main_arg4 (by decide))

/-- After the first 16 items of the program argument 5 still holds its launch contents. -/
theorem l1_arg5_W16 : W16 m c (Proc.devRef .tc Cert.KernelIdeal.main_arg5) = m (c, Proc.devRef .tc Cert.KernelIdeal.main_arg5) :=
  (W16_off m c Cert.KernelIdeal.main_arg5 (by decide)).trans <| (hold15 m c Cert.KernelIdeal.main_arg5 (by decide)).trans <| (W14_off m c Cert.KernelIdeal.main_arg5 (by decide)).trans <| (hold13 m c Cert.KernelIdeal.main_arg5 (by decide)).trans <| (W12_off m c Cert.KernelIdeal.main_arg5 (by decide)).trans <| (hold11 m c Cert.KernelIdeal.main_arg5 (by decide)).trans <| (W10_off m c Cert.KernelIdeal.main_arg5 (by decide)).trans <| (hold9 m c Cert.KernelIdeal.main_arg5 (by decide)).trans <| (W8_off m c Cert.KernelIdeal.main_arg5 (by decide)).trans <| (hold7 m c Cert.KernelIdeal.main_arg5 (by decide)).trans <| (W6_off m c Cert.KernelIdeal.main_arg5 (by decide)).trans <| (hold5 m c Cert.KernelIdeal.main_arg5 (by decide)).trans <| (W4_off m c Cert.KernelIdeal.main_arg5 (by decide)).trans <| (hold3 m c Cert.KernelIdeal.main_arg5 (by decide)).trans <| (W2_off m c Cert.KernelIdeal.main_arg5 (by decide)).trans <| (hold1 m c Cert.KernelIdeal.main_arg5 (by decide))

/-- After the first 18 items of the program argument 6 still holds its launch contents. -/
theorem l1_arg6_W18 : W18 m c (Proc.devRef .tc Cert.KernelIdeal.main_arg6) = m (c, Proc.devRef .tc Cert.KernelIdeal.main_arg6) :=
  (W18_off m c Cert.KernelIdeal.main_arg6 (by decide)).trans <| (hold17 m c Cert.KernelIdeal.main_arg6 (by decide)).trans <| (W16_off m c Cert.KernelIdeal.main_arg6 (by decide)).trans <| (hold15 m c Cert.KernelIdeal.main_arg6 (by decide)).trans <| (W14_off m c Cert.KernelIdeal.main_arg6 (by decide)).trans <| (hold13 m c Cert.KernelIdeal.main_arg6 (by decide)).trans <| (W12_off m c Cert.KernelIdeal.main_arg6 (by decide)).trans <| (hold11 m c Cert.KernelIdeal.main_arg6 (by decide)).trans <| (W10_off m c Cert.KernelIdeal.main_arg6 (by decide)).trans <| (hold9 m c Cert.KernelIdeal.main_arg6 (by decide)).trans <| (W8_off m c Cert.KernelIdeal.main_arg6 (by decide)).trans <| (hold7 m c Cert.KernelIdeal.main_arg6 (by decide)).trans <| (W6_off m c Cert.KernelIdeal.main_arg6 (by decide)).trans <| (hold5 m c Cert.KernelIdeal.main_arg6 (by decide)).trans <| (W4_off m c Cert.KernelIdeal.main_arg6 (by decide)).trans <| (hold3 m c Cert.KernelIdeal.main_arg6 (by decide)).trans <| (W2_off m c Cert.KernelIdeal.main_arg6 (by decide)).trans <| (hold1 m c Cert.KernelIdeal.main_arg6 (by decide))

/-- After the first 18 items of the program argument 7 still holds its launch contents. -/
theorem l1_arg7_W18 : W18 m c (Proc.devRef .tc Cert.KernelIdeal.main_arg7) = m (c, Proc.devRef .tc Cert.KernelIdeal.main_arg7) :=
  (W18_off m c Cert.KernelIdeal.main_arg7 (by decide)).trans <| (hold17 m c Cert.KernelIdeal.main_arg7 (by decide)).trans <| (W16_off m c Cert.KernelIdeal.main_arg7 (by decide)).trans <| (hold15 m c Cert.KernelIdeal.main_arg7 (by decide)).trans <| (W14_off m c Cert.KernelIdeal.main_arg7 (by decide)).trans <| (hold13 m c Cert.KernelIdeal.main_arg7 (by decide)).trans <| (W12_off m c Cert.KernelIdeal.main_arg7 (by decide)).trans <| (hold11 m c Cert.KernelIdeal.main_arg7 (by decide)).trans <| (W10_off m c Cert.KernelIdeal.main_arg7 (by decide)).trans <| (hold9 m c Cert.KernelIdeal.main_arg7 (by decide)).trans <| (W8_off m c Cert.KernelIdeal.main_arg7 (by decide)).trans <| (hold7 m c Cert.KernelIdeal.main_arg7 (by decide)).trans <| (W6_off m c Cert.KernelIdeal.main_arg7 (by decide)).trans <| (hold5 m c Cert.KernelIdeal.main_arg7 (by decide)).trans <| (W4_off m c Cert.KernelIdeal.main_arg7 (by decide)).trans <| (hold3 m c Cert.KernelIdeal.main_arg7 (by decide)).trans <| (W2_off m c Cert.KernelIdeal.main_arg7 (by decide)).trans <| (hold1 m c Cert.KernelIdeal.main_arg7 (by decide))

/-- After the first 20 items of the program argument 8 still holds its launch contents. -/
theorem l1_arg8_W20 : W20 m c (Proc.devRef .tc Cert.KernelIdeal.main_arg8) = m (c, Proc.devRef .tc Cert.KernelIdeal.main_arg8) :=
  (W20_off m c Cert.KernelIdeal.main_arg8 (by decide)).trans <| (hold19 m c Cert.KernelIdeal.main_arg8 (by decide)).trans <| (W18_off m c Cert.KernelIdeal.main_arg8 (by decide)).trans <| (hold17 m c Cert.KernelIdeal.main_arg8 (by decide)).trans <| (W16_off m c Cert.KernelIdeal.main_arg8 (by decide)).trans <| (hold15 m c Cert.KernelIdeal.main_arg8 (by decide)).trans <| (W14_off m c Cert.KernelIdeal.main_arg8 (by decide)).trans <| (hold13 m c Cert.KernelIdeal.main_arg8 (by decide)).trans <| (W12_off m c Cert.KernelIdeal.main_arg8 (by decide)).trans <| (hold11 m c Cert.KernelIdeal.main_arg8 (by decide)).trans <| (W10_off m c Cert.KernelIdeal.main_arg8 (by decide)).trans <| (hold9 m c Cert.KernelIdeal.main_arg8 (by decide)).trans <| (W8_off m c Cert.KernelIdeal.main_arg8 (by decide)).trans <| (hold7 m c Cert.KernelIdeal.main_arg8 (by decide)).trans <| (W6_off m c Cert.KernelIdeal.main_arg8 (by decide)).trans <| (hold5 m c Cert.KernelIdeal.main_arg8 (by decide)).trans <| (W4_off m c Cert.KernelIdeal.main_arg8 (by decide)).trans <| (hold3 m c Cert.KernelIdeal.main_arg8 (by decide)).trans <| (W2_off m c Cert.KernelIdeal.main_arg8 (by decide)).trans <| (hold1 m c Cert.KernelIdeal.main_arg8 (by decide))

/-- After the first 20 items of the program argument 9 still holds its launch contents. -/
theorem l1_arg9_W20 : W20 m c (Proc.devRef .tc Cert.KernelIdeal.main_arg9) = m (c, Proc.devRef .tc Cert.KernelIdeal.main_arg9) :=
  (W20_off m c Cert.KernelIdeal.main_arg9 (by decide)).trans <| (hold19 m c Cert.KernelIdeal.main_arg9 (by decide)).trans <| (W18_off m c Cert.KernelIdeal.main_arg9 (by decide)).trans <| (hold17 m c Cert.KernelIdeal.main_arg9 (by decide)).trans <| (W16_off m c Cert.KernelIdeal.main_arg9 (by decide)).trans <| (hold15 m c Cert.KernelIdeal.main_arg9 (by decide)).trans <| (W14_off m c Cert.KernelIdeal.main_arg9 (by decide)).trans <| (hold13 m c Cert.KernelIdeal.main_arg9 (by decide)).trans <| (W12_off m c Cert.KernelIdeal.main_arg9 (by decide)).trans <| (hold11 m c Cert.KernelIdeal.main_arg9 (by decide)).trans <| (W10_off m c Cert.KernelIdeal.main_arg9 (by decide)).trans <| (hold9 m c Cert.KernelIdeal.main_arg9 (by decide)).trans <| (W8_off m c Cert.KernelIdeal.main_arg9 (by decide)).trans <| (hold7 m c Cert.KernelIdeal.main_arg9 (by decide)).trans <| (W6_off m c Cert.KernelIdeal.main_arg9 (by decide)).trans <| (hold5 m c Cert.KernelIdeal.main_arg9 (by decide)).trans <| (W4_off m c Cert.KernelIdeal.main_arg9 (by decide)).trans <| (hold3 m c Cert.KernelIdeal.main_arg9 (by decide)).trans <| (W2_off m c Cert.KernelIdeal.main_arg9 (by decide)).trans <| (hold1 m c Cert.KernelIdeal.main_arg9 (by decide))

/-- After the first 14 items of the program argument 16 still holds its launch contents. -/
theorem l1_arg16_W14 : W14 m c (Proc.devRef .tc Cert.KernelIdeal.main_arg16) = m (c, Proc.devRef .tc Cert.KernelIdeal.main_arg16) :=
  (W14_off m c Cert.KernelIdeal.main_arg16 (by decide)).trans <| (hold13 m c Cert.KernelIdeal.main_arg16 (by decide)).trans <| (W12_off m c Cert.KernelIdeal.main_arg16 (by decide)).trans <| (hold11 m c Cert.KernelIdeal.main_arg16 (by decide)).trans <| (W10_off m c Cert.KernelIdeal.main_arg16 (by decide)).trans <| (hold9 m c Cert.KernelIdeal.main_arg16 (by decide)).trans <| (W8_off m c Cert.KernelIdeal.main_arg16 (by decide)).trans <| (hold7 m c Cert.KernelIdeal.main_arg16 (by decide)).trans <| (W6_off m c Cert.KernelIdeal.main_arg16 (by decide)).trans <| (hold5 m c Cert.KernelIdeal.main_arg16 (by decide)).trans <| (W4_off m c Cert.KernelIdeal.main_arg16 (by decide)).trans <| (hold3 m c Cert.KernelIdeal.main_arg16 (by decide)).trans <| (W2_off m c Cert.KernelIdeal.main_arg16 (by decide)).trans <| (hold1 m c Cert.KernelIdeal.main_arg16 (by decide))

/-- After the first 14 items of the program argument 17 still holds its launch contents. -/
theorem l1_arg17_W14 : W14 m c (Proc.devRef .tc Cert.KernelIdeal.main_arg17) = m (c, Proc.devRef .tc Cert.KernelIdeal.main_arg17) :=
  (W14_off m c Cert.KernelIdeal.main_arg17 (by decide)).trans <| (hold13 m c Cert.KernelIdeal.main_arg17 (by decide)).trans <| (W12_off m c Cert.KernelIdeal.main_arg17 (by decide)).trans <| (hold11 m c Cert.KernelIdeal.main_arg17 (by decide)).trans <| (W10_off m c Cert.KernelIdeal.main_arg17 (by decide)).trans <| (hold9 m c Cert.KernelIdeal.main_arg17 (by decide)).trans <| (W8_off m c Cert.KernelIdeal.main_arg17 (by decide)).trans <| (hold7 m c Cert.KernelIdeal.main_arg17 (by decide)).trans <| (W6_off m c Cert.KernelIdeal.main_arg17 (by decide)).trans <| (hold5 m c Cert.KernelIdeal.main_arg17 (by decide)).trans <| (W4_off m c Cert.KernelIdeal.main_arg17 (by decide)).trans <| (hold3 m c Cert.KernelIdeal.main_arg17 (by decide)).trans <| (W2_off m c Cert.KernelIdeal.main_arg17 (by decide)).trans <| (hold1 m c Cert.KernelIdeal.main_arg17 (by decide))

/-- After the first 16 items of the program argument 17 still holds its launch contents. -/
theorem l1_arg17_W16 : W16 m c (Proc.devRef .tc Cert.KernelIdeal.main_arg17) = m (c, Proc.devRef .tc Cert.KernelIdeal.main_arg17) :=
  (W16_off m c Cert.KernelIdeal.main_arg17 (by decide)).trans <| (hold15 m c Cert.KernelIdeal.main_arg17 (by decide)).trans <| l1_arg17_W14 m c

/-- After the first 18 items of the program argument 17 still holds its launch contents. -/
theorem l1_arg17_W18 : W18 m c (Proc.devRef .tc Cert.KernelIdeal.main_arg17) = m (c, Proc.devRef .tc Cert.KernelIdeal.main_arg17) :=
  (W18_off m c Cert.KernelIdeal.main_arg17 (by decide)).trans <| (hold17 m c Cert.KernelIdeal.main_arg17 (by decide)).trans <| l1_arg17_W16 m c

/-- After the first 20 items of the program argument 17 still holds its launch contents. -/
theorem l1_arg17_W20 : W20 m c (Proc.devRef .tc Cert.KernelIdeal.main_arg17) = m (c, Proc.devRef .tc Cert.KernelIdeal.main_arg17) :=
  (W20_off m c Cert.KernelIdeal.main_arg17 (by decide)).trans <| (hold19 m c Cert.KernelIdeal.main_arg17 (by decide)).trans <| l1_arg17_W18 m c

/-- After the first 14 items of the program argument 18 still holds its launch contents. -/
theorem l1_arg18_W14 : W14 m c (Proc.devRef .tc Cert.KernelIdeal.main_arg18) = m (c, Proc.devRef .tc Cert.KernelIdeal.main_arg18) :=
  (W14_off m c Cert.KernelIdeal.main_arg18 (by decide)).trans <| (hold13 m c Cert.KernelIdeal.main_arg18 (by decide)).trans <| (W12_off m c Cert.KernelIdeal.main_arg18 (by decide)).trans <| (hold11 m c Cert.KernelIdeal.main_arg18 (by decide)).trans <| (W10_off m c Cert.KernelIdeal.main_arg18 (by decide)).trans <| (hold9 m c Cert.KernelIdeal.main_arg18 (by decide)).trans <| (W8_off m c Cert.KernelIdeal.main_arg18 (by decide)).trans <| (hold7 m c Cert.KernelIdeal.main_arg18 (by decide)).trans <| (W6_off m c Cert.KernelIdeal.main_arg18 (by decide)).trans <| (hold5 m c Cert.KernelIdeal.main_arg18 (by decide)).trans <| (W4_off m c Cert.KernelIdeal.main_arg18 (by decide)).trans <| (hold3 m c Cert.KernelIdeal.main_arg18 (by decide)).trans <| (W2_off m c Cert.KernelIdeal.main_arg18 (by decide)).trans <| (hold1 m c Cert.KernelIdeal.main_arg18 (by decide))

/-- After the first 16 items of the program argument 18 still holds its launch contents. -/
theorem l1_arg18_W16 : W16 m c (Proc.devRef .tc Cert.KernelIdeal.main_arg18) = m (c, Proc.devRef .tc Cert.KernelIdeal.main_arg18) :=
  (W16_off m c Cert.KernelIdeal.main_arg18 (by decide)).trans <| (hold15 m c Cert.KernelIdeal.main_arg18 (by decide)).trans <| l1_arg18_W14 m c

/-- After the first 18 items of the program argument 18 still holds its launch contents. -/
theorem l1_arg18_W18 : W18 m c (Proc.devRef .tc Cert.KernelIdeal.main_arg18) = m (c, Proc.devRef .tc Cert.KernelIdeal.main_arg18) :=
  (W18_off m c Cert.KernelIdeal.main_arg18 (by decide)).trans <| (hold17 m c Cert.KernelIdeal.main_arg18 (by decide)).trans <| l1_arg18_W16 m c

/-- After the first 20 items of the program argument 18 still holds its launch contents. -/
theorem l1_arg18_W20 : W20 m c (Proc.devRef .tc Cert.KernelIdeal.main_arg18) = m (c, Proc.devRef .tc Cert.KernelIdeal.main_arg18) :=
  (W20_off m c Cert.KernelIdeal.main_arg18 (by decide)).trans <| (hold19 m c Cert.KernelIdeal.main_arg18 (by decide)).trans <| l1_arg18_W18 m c

/-- After the first 23 items of the program argument 15 still holds its launch contents. -/
theorem l1_arg15_W23 : W23 m c (Proc.devRef .tc Cert.KernelIdeal.main_arg15) = m (c, Proc.devRef .tc Cert.KernelIdeal.main_arg15) :=
  (hold23 m c Cert.KernelIdeal.main_arg15 (by decide)).trans <| (W22_off m c Cert.KernelIdeal.main_arg15 (by decide)).trans <| (hold21 m c Cert.KernelIdeal.main_arg15 (by decide)).trans <| (W20_off m c Cert.KernelIdeal.main_arg15 (by decide)).trans <| (hold19 m c Cert.KernelIdeal.main_arg15 (by decide)).trans <| (W18_off m c Cert.KernelIdeal.main_arg15 (by decide)).trans <| (hold17 m c Cert.KernelIdeal.main_arg15 (by decide)).trans <| (W16_off m c Cert.KernelIdeal.main_arg15 (by decide)).trans <| (hold15 m c Cert.KernelIdeal.main_arg15 (by decide)).trans <| (W14_off m c Cert.KernelIdeal.main_arg15 (by decide)).trans <| (hold13 m c Cert.KernelIdeal.main_arg15 (by decide)).trans <| (W12_off m c Cert.KernelIdeal.main_arg15 (by decide)).trans <| (hold11 m c Cert.KernelIdeal.main_arg15 (by decide)).trans <| (W10_off m c Cert.KernelIdeal.main_arg15 (by decide)).trans <| (hold9 m c Cert.KernelIdeal.main_arg15 (by decide)).trans <| (W8_off m c Cert.KernelIdeal.main_arg15 (by decide)).trans <| (hold7 m c Cert.KernelIdeal.main_arg15 (by decide)).trans <| (W6_off m c Cert.KernelIdeal.main_arg15 (by decide)).trans <| (hold5 m c Cert.KernelIdeal.main_arg15 (by decide)).trans <| (W4_off m c Cert.KernelIdeal.main_arg15 (by decide)).trans <| (hold3 m c Cert.KernelIdeal.main_arg15 (by decide)).trans <| (W2_off m c Cert.KernelIdeal.main_arg15 (by decide)).trans <| (hold1 m c Cert.KernelIdeal.main_arg15 (by decide))

/-! ## The reference: what stage D reads of the earlier stages -/

/-- The reference's second fingerprint (stage C) leaves the first layer's output alone. -/
theorem l1_q3_x : Cert.ReferenceIdeal.Stages.Q3 m' c (Proc.devRef .tc Cert.ReferenceIdeal.main_v129) = Cert.ReferenceIdeal.Stages.Q2 m' c (Proc.devRef .tc Cert.ReferenceIdeal.main_v129) :=
  Cert.ReferenceIdeal.Stages.keepC m' c Cert.ReferenceIdeal.main_v129 (by decide)

/-- The reference's first three stages leave argument 1 at its launch contents. -/
theorem l1_q3_arg1 : Cert.ReferenceIdeal.Stages.Q3 m' c (Proc.devRef .tc Cert.ReferenceIdeal.main_arg1) = m' (c, Proc.devRef .tc Cert.ReferenceIdeal.main_arg1) :=
  (Cert.ReferenceIdeal.Stages.keepC m' c Cert.ReferenceIdeal.main_arg1 (by decide)).trans <| (Cert.ReferenceIdeal.Stages.keepB m' c Cert.ReferenceIdeal.main_arg1 (by decide)).trans <| (Cert.ReferenceIdeal.Stages.keepA m' c Cert.ReferenceIdeal.main_arg1 (by decide))

/-- The reference's first three stages leave argument 2 at its launch contents. -/
theorem l1_q3_arg2 : Cert.ReferenceIdeal.Stages.Q3 m' c (Proc.devRef .tc Cert.ReferenceIdeal.main_arg2) = m' (c, Proc.devRef .tc Cert.ReferenceIdeal.main_arg2) :=
  (Cert.ReferenceIdeal.Stages.keepC m' c Cert.ReferenceIdeal.main_arg2 (by decide)).trans <| (Cert.ReferenceIdeal.Stages.keepB m' c Cert.ReferenceIdeal.main_arg2 (by decide)).trans <| (Cert.ReferenceIdeal.Stages.keepA m' c Cert.ReferenceIdeal.main_arg2 (by decide))

/-- The reference's first three stages leave argument 3 at its launch contents. -/
theorem l1_q3_arg3 : Cert.ReferenceIdeal.Stages.Q3 m' c (Proc.devRef .tc Cert.ReferenceIdeal.main_arg3) = m' (c, Proc.devRef .tc Cert.ReferenceIdeal.main_arg3) :=
  (Cert.ReferenceIdeal.Stages.keepC m' c Cert.ReferenceIdeal.main_arg3 (by decide)).trans <| (Cert.ReferenceIdeal.Stages.keepB m' c Cert.ReferenceIdeal.main_arg3 (by decide)).trans <| (Cert.ReferenceIdeal.Stages.keepA m' c Cert.ReferenceIdeal.main_arg3 (by decide))

/-- The reference's first three stages leave argument 4 at its launch contents. -/
theorem l1_q3_arg4 : Cert.ReferenceIdeal.Stages.Q3 m' c (Proc.devRef .tc Cert.ReferenceIdeal.main_arg4) = m' (c, Proc.devRef .tc Cert.ReferenceIdeal.main_arg4) :=
  (Cert.ReferenceIdeal.Stages.keepC m' c Cert.ReferenceIdeal.main_arg4 (by decide)).trans <| (Cert.ReferenceIdeal.Stages.keepB m' c Cert.ReferenceIdeal.main_arg4 (by decide)).trans <| (Cert.ReferenceIdeal.Stages.keepA m' c Cert.ReferenceIdeal.main_arg4 (by decide))

/-- The reference's first three stages leave argument 5 at its launch contents. -/
theorem l1_q3_arg5 : Cert.ReferenceIdeal.Stages.Q3 m' c (Proc.devRef .tc Cert.ReferenceIdeal.main_arg5) = m' (c, Proc.devRef .tc Cert.ReferenceIdeal.main_arg5) :=
  (Cert.ReferenceIdeal.Stages.keepC m' c Cert.ReferenceIdeal.main_arg5 (by decide)).trans <| (Cert.ReferenceIdeal.Stages.keepB m' c Cert.ReferenceIdeal.main_arg5 (by decide)).trans <| (Cert.ReferenceIdeal.Stages.keepA m' c Cert.ReferenceIdeal.main_arg5 (by decide))

/-- The reference's first three stages leave argument 6 at its launch contents. -/
theorem l1_q3_arg6 : Cert.ReferenceIdeal.Stages.Q3 m' c (Proc.devRef .tc Cert.ReferenceIdeal.main_arg6) = m' (c, Proc.devRef .tc Cert.ReferenceIdeal.main_arg6) :=
  (Cert.ReferenceIdeal.Stages.keepC m' c Cert.ReferenceIdeal.main_arg6 (by decide)).trans <| (Cert.ReferenceIdeal.Stages.keepB m' c Cert.ReferenceIdeal.main_arg6 (by decide)).trans <| (Cert.ReferenceIdeal.Stages.keepA m' c Cert.ReferenceIdeal.main_arg6 (by decide))

/-- The reference's first three stages leave argument 7 at its launch contents. -/
theorem l1_q3_arg7 : Cert.ReferenceIdeal.Stages.Q3 m' c (Proc.devRef .tc Cert.ReferenceIdeal.main_arg7) = m' (c, Proc.devRef .tc Cert.ReferenceIdeal.main_arg7) :=
  (Cert.ReferenceIdeal.Stages.keepC m' c Cert.ReferenceIdeal.main_arg7 (by decide)).trans <| (Cert.ReferenceIdeal.Stages.keepB m' c Cert.ReferenceIdeal.main_arg7 (by decide)).trans <| (Cert.ReferenceIdeal.Stages.keepA m' c Cert.ReferenceIdeal.main_arg7 (by decide))

/-- The reference's first three stages leave argument 8 at its launch contents. -/
theorem l1_q3_arg8 : Cert.ReferenceIdeal.Stages.Q3 m' c (Proc.devRef .tc Cert.ReferenceIdeal.main_arg8) = m' (c, Proc.devRef .tc Cert.ReferenceIdeal.main_arg8) :=
  (Cert.ReferenceIdeal.Stages.keepC m' c Cert.ReferenceIdeal.main_arg8 (by decide)).trans <| (Cert.ReferenceIdeal.Stages.keepB m' c Cert.ReferenceIdeal.main_arg8 (by decide)).trans <| (Cert.ReferenceIdeal.Stages.keepA m' c Cert.ReferenceIdeal.main_arg8 (by decide))

/-- The reference's first three stages leave argument 9 at its launch contents. -/
theorem l1_q3_arg9 : Cert.ReferenceIdeal.Stages.Q3 m' c (Proc.devRef .tc Cert.ReferenceIdeal.main_arg9) = m' (c, Proc.devRef .tc Cert.ReferenceIdeal.main_arg9) :=
  (Cert.ReferenceIdeal.Stages.keepC m' c Cert.ReferenceIdeal.main_arg9 (by decide)).trans <| (Cert.ReferenceIdeal.Stages.keepB m' c Cert.ReferenceIdeal.main_arg9 (by decide)).trans <| (Cert.ReferenceIdeal.Stages.keepA m' c Cert.ReferenceIdeal.main_arg9 (by decide))

/-- The reference's first three stages leave argument 15 at its launch contents. -/
theorem l1_q3_arg15 : Cert.ReferenceIdeal.Stages.Q3 m' c (Proc.devRef .tc Cert.ReferenceIdeal.main_arg15) = m' (c, Proc.devRef .tc Cert.ReferenceIdeal.main_arg15) :=
  (Cert.ReferenceIdeal.Stages.keepC m' c Cert.ReferenceIdeal.main_arg15 (by decide)).trans <| (Cert.ReferenceIdeal.Stages.keepB m' c Cert.ReferenceIdeal.main_arg15 (by decide)).trans <| (Cert.ReferenceIdeal.Stages.keepA m' c Cert.ReferenceIdeal.main_arg15 (by decide))

/-- The reference's first three stages leave argument 16 at its launch contents. -/
theorem l1_q3_arg16 : Cert.ReferenceIdeal.Stages.Q3 m' c (Proc.devRef .tc Cert.ReferenceIdeal.main_arg16) = m' (c, Proc.devRef .tc Cert.ReferenceIdeal.main_arg16) :=
  (Cert.ReferenceIdeal.Stages.keepC m' c Cert.ReferenceIdeal.main_arg16 (by decide)).trans <| (Cert.ReferenceIdeal.Stages.keepB m' c Cert.ReferenceIdeal.main_arg16 (by decide)).trans <| (Cert.ReferenceIdeal.Stages.keepA m' c Cert.ReferenceIdeal.main_arg16 (by decide))

/-- The reference's first three stages leave argument 17 at its launch contents. -/
theorem l1_q3_arg17 : Cert.ReferenceIdeal.Stages.Q3 m' c (Proc.devRef .tc Cert.ReferenceIdeal.main_arg17) = m' (c, Proc.devRef .tc Cert.ReferenceIdeal.main_arg17) :=
  (Cert.ReferenceIdeal.Stages.keepC m' c Cert.ReferenceIdeal.main_arg17 (by decide)).trans <| (Cert.ReferenceIdeal.Stages.keepB m' c Cert.ReferenceIdeal.main_arg17 (by decide)).trans <| (Cert.ReferenceIdeal.Stages.keepA m' c Cert.ReferenceIdeal.main_arg17 (by decide))

/-- The reference's first three stages leave argument 18 at its launch contents. -/
theorem l1_q3_arg18 : Cert.ReferenceIdeal.Stages.Q3 m' c (Proc.devRef .tc Cert.ReferenceIdeal.main_arg18) = m' (c, Proc.devRef .tc Cert.ReferenceIdeal.main_arg18) :=
  (Cert.ReferenceIdeal.Stages.keepC m' c Cert.ReferenceIdeal.main_arg18 (by decide)).trans <| (Cert.ReferenceIdeal.Stages.keepB m' c Cert.ReferenceIdeal.main_arg18 (by decide)).trans <| (Cert.ReferenceIdeal.Stages.keepA m' c Cert.ReferenceIdeal.main_arg18 (by decide))

/-! ## The kernel program: the buffers the finish reads -/

/-- The self bias row, written by host stretch 7, is still there when pallas_call 11 is entered. -/
theorem l1_bias_W23 :
    W23 m c (Proc.devRef .tc Cert.KernelIdeal.main_v106) = shapeCast Cert.KernelIdeal.S1x100 (m (c, Proc.devRef .tc Cert.KernelIdeal.main_arg16)) Cert.KernelIdeal.Gen.shapeCasts_S100_S1x100 :=
  (hold23 m c Cert.KernelIdeal.main_v106 (by decide)).trans <| (W22_off m c Cert.KernelIdeal.main_v106 (by decide)).trans <| (hold21 m c Cert.KernelIdeal.main_v106 (by decide)).trans <| (W20_off m c Cert.KernelIdeal.main_v106 (by decide)).trans <| (hold19 m c Cert.KernelIdeal.main_v106 (by decide)).trans <| (W18_off m c Cert.KernelIdeal.main_v106 (by decide)).trans <| (hold17 m c Cert.KernelIdeal.main_v106 (by decide)).trans <| (W16_off m c Cert.KernelIdeal.main_v106 (by decide)).trans <| (l1_biasK (W14 m c)).trans (congrArg (fun z => shapeCast Cert.KernelIdeal.S1x100 z Cert.KernelIdeal.Gen.shapeCasts_S100_S1x100) (l1_arg16_W14 m c))

/-- Degree 1's dense part stays where pallas_call 7 left it. -/
theorem l1_p1_W22 : W22 m c (Proc.devRef .tc Cert.KernelIdeal.main_v129) = W16 m c (Proc.devRef .tc Cert.KernelIdeal.main_v129) :=
  (W22_off m c Cert.KernelIdeal.main_v129 (by decide)).trans <| (hold21 m c Cert.KernelIdeal.main_v129 (by decide)).trans <| (W20_off m c Cert.KernelIdeal.main_v129 (by decide)).trans <| (hold19 m c Cert.KernelIdeal.main_v129 (by decide)).trans <| (W18_off m c Cert.KernelIdeal.main_v129 (by decide)).trans <| (hold17 m c Cert.KernelIdeal.main_v129 (by decide))

/-- Degree 2's dense part stays where pallas_call 8 left it. -/
theorem l1_p2_W22 : W22 m c (Proc.devRef .tc Cert.KernelIdeal.main_v152) = W18 m c (Proc.devRef .tc Cert.KernelIdeal.main_v152) :=
  (W22_off m c Cert.KernelIdeal.main_v152 (by decide)).trans <| (hold21 m c Cert.KernelIdeal.main_v152 (by decide)).trans <| (W20_off m c Cert.KernelIdeal.main_v152 (by decide)).trans <| (hold19 m c Cert.KernelIdeal.main_v152 (by decide))

/-- Degree 3's dense part stays where pallas_call 9 left it. -/
theorem l1_p3_W22 : W22 m c (Proc.devRef .tc Cert.KernelIdeal.main_v175) = W20 m c (Proc.devRef .tc Cert.KernelIdeal.main_v175) :=
  (W22_off m c Cert.KernelIdeal.main_v175 (by decide)).trans <| (hold21 m c Cert.KernelIdeal.main_v175 (by decide))

/-- The added array pallas_call 11 is entered with: the four degrees' dense parts one above the other. -/
theorem l1_parts_W23 :
    W23 m c (Proc.devRef .tc Cert.KernelIdeal.main_v199)
      = concatenate Cert.KernelIdeal.S200000x100 0 [⟨Cert.KernelIdeal.S40000x100, W16 m c (Proc.devRef .tc Cert.KernelIdeal.main_v129)⟩, ⟨Cert.KernelIdeal.S60000x100, W18 m c (Proc.devRef .tc Cert.KernelIdeal.main_v152)⟩, ⟨Cert.KernelIdeal.S60000x100, W20 m c (Proc.devRef .tc Cert.KernelIdeal.main_v175)⟩, ⟨Cert.KernelIdeal.S40000x100, W22 m c (Proc.devRef .tc Cert.KernelIdeal.main_v198)⟩] Cert.KernelIdeal.Gen.concatenates_S40000x100_S60000x100_S60000x100_S40000x100_S200000x100_d0 :=
  (l1_partsK (W22 m c)).trans (concat4_congr (l1_p1_W22 m c) (l1_p2_W22 m c) (l1_p3_W22 m c) rfl _ _)

/-! ## The four degrees -/

set_option maxHeartbeats 4000000 in
/-- Degree 1: what pallas_call 7 leaves in its result array is the reference's dense part of this degree. -/
theorem l1_deg1 (h : Agree m m' c) (hP2 : W12 m c (Proc.devRef .tc Cert.KernelIdeal.main_v99) = Cert.ReferenceIdeal.Stages.Q2 m' c (Proc.devRef .tc Cert.ReferenceIdeal.main_v129)) :
    W16 m c (Proc.devRef .tc Cert.KernelIdeal.main_v129) = Cert.ReferenceIdeal.Stages.Q4 m' c (Proc.devRef .tc Cert.ReferenceIdeal.main_v177) := by
  have hx : Cert.ReferenceIdeal.Stages.Q3 m' c (Proc.devRef .tc Cert.ReferenceIdeal.main_v129) = W14 m c (Proc.devRef .tc Cert.KernelIdeal.main_v99) := (l1_q3_x m' c).trans (hP2.symm.trans (l1_x_W14 m c).symm)
  have h1 : Cert.ReferenceIdeal.Stages.Q3 m' c (Proc.devRef .tc Cert.ReferenceIdeal.main_arg1) = W14 m c (Proc.devRef .tc Cert.KernelIdeal.main_arg1) := (l1_q3_arg1 m' c).trans (h.a1.trans (l1_arg1_W14 m c).symm)
  have hA : Cert.ReferenceIdeal.Stages.Q3 m' c (Proc.devRef .tc Cert.ReferenceIdeal.main_arg2) = W14 m c (Proc.devRef .tc Cert.KernelIdeal.main_arg2) := (l1_q3_arg2 m' c).trans (h.a2.trans (l1_arg2_W14 m c).symm)
  have hB : Cert.ReferenceIdeal.Stages.Q3 m' c (Proc.devRef .tc Cert.ReferenceIdeal.main_arg3) = W14 m c (Proc.devRef .tc Cert.KernelIdeal.main_arg3) := (l1_q3_arg3 m' c).trans (h.a3.trans (l1_arg3_W14 m c).symm)
  have h17 : Cert.ReferenceIdeal.Stages.Q3 m' c (Proc.devRef .tc Cert.ReferenceIdeal.main_arg17) = W14 m c (Proc.devRef .tc Cert.KernelIdeal.main_arg17) := (l1_q3_arg17 m' c).trans (h.a17.trans (l1_arg17_W14 m c).symm)
  have h18 : Cert.ReferenceIdeal.Stages.Q3 m' c (Proc.devRef .tc Cert.ReferenceIdeal.main_arg18) = W14 m c (Proc.devRef .tc Cert.KernelIdeal.main_arg18) := (l1_q3_arg18 m' c).trans (h.a18.trans (l1_arg18_W14 m c).symm)
  rw [W16_at, value7 (E15 m) c]
  show denseArr (m := 40000) (k := 106) (n := 100) (after Cert.KernelIdeal.Gen.hostOps7 (W14 m c) (Proc.devRef .tc Cert.KernelIdeal.main_v123)) (after Cert.KernelIdeal.Gen.hostOps7 (W14 m c) (Proc.devRef .tc Cert.KernelIdeal.main_v125)) (after Cert.KernelIdeal.Gen.hostOps7 (W14 m c) (Proc.devRef .tc Cert.KernelIdeal.main_v128))
      = after Cert.ReferenceIdeal.Stages.opsD (Cert.ReferenceIdeal.Stages.Q3 m' c) (Proc.devRef .tc Cert.ReferenceIdeal.main_v177)
  rw [l1d1_refDense (Cert.ReferenceIdeal.Stages.Q3 m' c), l1d1_rows (W14 m c) (Cert.ReferenceIdeal.Stages.Q3 m' c) hx h1 hA hB,
    l1d1_w (W14 m c) (Cert.ReferenceIdeal.Stages.Q3 m' c) h17, l1d1_b (W14 m c) (Cert.ReferenceIdeal.Stages.Q3 m' c) h18]

set_option maxHeartbeats 4000000 in
/-- Degree 2: what pallas_call 8 leaves in its result array is the reference's dense part of this degree. -/
theorem l1_deg2 (h : Agree m m' c) (hP2 : W12 m c (Proc.devRef .tc Cert.KernelIdeal.main_v99) = Cert.ReferenceIdeal.Stages.Q2 m' c (Proc.devRef .tc Cert.ReferenceIdeal.main_v129)) :
    W18 m c (Proc.devRef .tc Cert.KernelIdeal.main_v152) = Cert.ReferenceIdeal.Stages.Q4 m' c (Proc.devRef .tc Cert.ReferenceIdeal.main_v202) := by
  have hx : Cert.ReferenceIdeal.Stages.Q3 m' c (Proc.devRef .tc Cert.ReferenceIdeal.main_v129) = W16 m c (Proc.devRef .tc Cert.KernelIdeal.main_v99) := (l1_q3_x m' c).trans (hP2.symm.trans (l1_x_W16 m c).symm)
  have h1 : Cert.ReferenceIdeal.Stages.Q3 m' c (Proc.devRef .tc Cert.ReferenceIdeal.main_arg1) = W16 m c (Proc.devRef .tc Cert.KernelIdeal.main_arg1) := (l1_q3_arg1 m' c).trans (h.a1.trans (l1_arg1_W16 m c).symm)
  have hA : Cert.ReferenceIdeal.Stages.Q3 m' c (Proc.devRef .tc Cert.ReferenceIdeal.main_arg4) = W16 m c (Proc.devRef .tc Cert.KernelIdeal.main_arg4) := (l1_q3_arg4 m' c).trans (h.a4.trans (l1_arg4_W16 m c).symm)
  have hB : Cert.ReferenceIdeal.Stages.Q3 m' c (Proc.devRef .tc Cert.ReferenceIdeal.main_arg5) = W16 m c (Proc.devRef .tc Cert.KernelIdeal.main_arg5) := (l1_q3_arg5 m' c).trans (h.a5.trans (l1_arg5_W16 m c).symm)
  have h17 : Cert.ReferenceIdeal.Stages.Q3 m' c (Proc.devRef .tc Cert.ReferenceIdeal.main_arg17) = W16 m c (Proc.devRef .tc Cert.KernelIdeal.main_arg17) := (l1_q3_arg17 m' c).trans (h.a17.trans (l1_arg17_W16 m c).symm)
  have h18 : Cert.ReferenceIdeal.Stages.Q3 m' c (Proc.devRef .tc Cert.ReferenceIdeal.main_arg18) = W16 m c (Proc.devRef .tc Cert.KernelIdeal.main_arg18) := (l1_q3_arg18 m' c).trans (h.a18.trans (l1_arg18_W16 m c).symm)
  rw [W18_at, value8 (E17 m) c]
  show denseArr (m := 60000) (k := 106) (n := 100) (after Cert.KernelIdeal.Gen.hostOps8 (W16 m c) (Proc.devRef .tc Cert.KernelIdeal.main_v146)) (after Cert.KernelIdeal.Gen.hostOps8 (W16 m c) (Proc.devRef .tc Cert.KernelIdeal.main_v148)) (after Cert.KernelIdeal.Gen.hostOps8 (W16 m c) (Proc.devRef .tc Cert.KernelIdeal.main_v151))
      = after Cert.ReferenceIdeal.Stages.opsD (Cert.ReferenceIdeal.Stages.Q3 m' c) (Proc.devRef .tc Cert.ReferenceIdeal.main_v202)
  rw [l1d2_refDense (Cert.ReferenceIdeal.Stages.Q3 m' c), l1d2_rows (W16 m c) (Cert.ReferenceIdeal.Stages.Q3 m' c) hx h1 hA hB,
    l1d2_w (W16 m c) (Cert.ReferenceIdeal.Stages.Q3 m' c) h17, l1d2_b (W16 m c) (Cert.ReferenceIdeal.Stages.Q3 m' c) h18]

set_option maxHeartbeats 4000000 in
/-- Degree 3: what pallas_call 9 leaves in its result array is the reference's dense part of this degree. -/
theorem l1_deg3 (h : Agree m m' c) (hP2 : W12 m c (Proc.devRef .tc Cert.KernelIdeal.main_v99) = Cert.ReferenceIdeal.Stages.Q2 m' c (Proc.devRef .tc Cert.ReferenceIdeal.main_v129)) :
    W20 m c (Proc.devRef .tc Cert.KernelIdeal.main_v175) = Cert.ReferenceIdeal.Stages.Q4 m' c (Proc.devRef .tc Cert.ReferenceIdeal.main_v227) := by
  have hx : Cert.ReferenceIdeal.Stages.Q3 m' c (Proc.devRef .tc Cert.ReferenceIdeal.main_v129) = W18 m c (Proc.devRef .tc Cert.KernelIdeal.main_v99) := (l1_q3_x m' c).trans (hP2.symm.trans (l1_x_W18 m c).symm)
  have h1 : Cert.ReferenceIdeal.Stages.Q3 m' c (Proc.devRef .tc Cert.ReferenceIdeal.main_arg1) = W18 m c (Proc.devRef .tc Cert.KernelIdeal.main_arg1) := (l1_q3_arg1 m' c).trans (h.a1.trans (l1_arg1_W18 m c).symm)
  have hA : Cert.ReferenceIdeal.Stages.Q3 m' c (Proc.devRef .tc Cert.ReferenceIdeal.main_arg6) = W18 m c (Proc.devRef .tc Cert.KernelIdeal.main_arg6) := (l1_q3_arg6 m' c).trans (h.a6.trans (l1_arg6_W18 m c).symm)
  have hB : Cert.ReferenceIdeal.Stages.Q3 m' c (Proc.devRef .tc Cert.ReferenceIdeal.main_arg7) = W18 m c (Proc.devRef .tc Cert.KernelIdeal.main_arg7) := (l1_q3_arg7 m' c).trans (h.a7.trans (l1_arg7_W18 m c).symm)
  have h17 : Cert.ReferenceIdeal.Stages.Q3 m' c (Proc.devRef .tc Cert.ReferenceIdeal.main_arg17) = W18 m c (Proc.devRef .tc Cert.KernelIdeal.main_arg17) := (l1_q3_arg17 m' c).trans (h.a17.trans (l1_arg17_W18 m c).symm)
  have h18 : Cert.ReferenceIdeal.Stages.Q3 m' c (Proc.devRef .tc Cert.ReferenceIdeal.main_arg18) = W18 m c (Proc.devRef .tc Cert.KernelIdeal.main_arg18) := (l1_q3_arg18 m' c).trans (h.a18.trans (l1_arg18_W18 m c).symm)
  rw [W20_at, value9 (E19 m) c]
  show denseArr (m := 60000) (k := 106) (n := 100) (after Cert.KernelIdeal.Gen.hostOps9 (W18 m c) (Proc.devRef .tc Cert.KernelIdeal.main_v169)) (after Cert.KernelIdeal.Gen.hostOps9 (W18 m c) (Proc.devRef .tc Cert.KernelIdeal.main_v171)) (after Cert.KernelIdeal.Gen.hostOps9 (W18 m c) (Proc.devRef .tc Cert.KernelIdeal.main_v174))
      = after Cert.ReferenceIdeal.Stages.opsD (Cert.ReferenceIdeal.Stages.Q3 m' c) (Proc.devRef .tc Cert.ReferenceIdeal.main_v227)
  rw [l1d3_refDense (Cert.ReferenceIdeal.Stages.Q3 m' c), l1d3_rows (W18 m c) (Cert.ReferenceIdeal.Stages.Q3 m' c) hx h1 hA hB,
    l1d3_w (W18 m c) (Cert.ReferenceIdeal.Stages.Q3 m' c) h17, l1d3_b (W18 m c) (Cert.ReferenceIdeal.Stages.Q3 m' c) h18]

set_option maxHeartbeats 4000000 in
/-- Degree 4: what pallas_call 10 leaves in its result array is the reference's dense part of this degree. -/
theorem l1_deg4 (h : Agree m m' c) (hP2 : W12 m c (Proc.devRef .tc Cert.KernelIdeal.main_v99) = Cert.ReferenceIdeal.Stages.Q2 m' c (Proc.devRef .tc Cert.ReferenceIdeal.main_v129)) :
    W22 m c (Proc.devRef .tc Cert.KernelIdeal.main_v198) = Cert.ReferenceIdeal.Stages.Q4 m' c (Proc.devRef .tc Cert.ReferenceIdeal.main_v252) := by
  have hx : Cert.ReferenceIdeal.Stages.Q3 m' c (Proc.devRef .tc Cert.ReferenceIdeal.main_v129) = W20 m c (Proc.devRef .tc Cert.KernelIdeal.main_v99) := (l1_q3_x m' c).trans (hP2.symm.trans (l1_x_W20 m c).symm)
  have h1 : Cert.ReferenceIdeal.Stages.Q3 m' c (Proc.devRef .tc Cert.ReferenceIdeal.main_arg1) = W20 m c (Proc.devRef .tc Cert.KernelIdeal.main_arg1) := (l1_q3_arg1 m' c).trans (h.a1.trans (l1_arg1_W20 m c).symm)
  have hA : Cert.ReferenceIdeal.Stages.Q3 m' c (Proc.devRef .tc Cert.ReferenceIdeal.main_arg8) = W20 m c (Proc.devRef .tc Cert.KernelIdeal.main_arg8) := (l1_q3_arg8 m' c).trans (h.a8.trans (l1_arg8_W20 m c).symm)
  have hB : Cert.ReferenceIdeal.Stages.Q3 m' c (Proc.devRef .tc Cert.ReferenceIdeal.main_arg9) = W20 m c (Proc.devRef .tc Cert.KernelIdeal.main_arg9) := (l1_q3_arg9 m' c).trans (h.a9.trans (l1_arg9_W20 m c).symm)
  have h17 : Cert.ReferenceIdeal.Stages.Q3 m' c (Proc.devRef .tc Cert.ReferenceIdeal.main_arg17) = W20 m c (Proc.devRef .tc Cert.KernelIdeal.main_arg17) := (l1_q3_arg17 m' c).trans (h.a17.trans (l1_arg17_W20 m c).symm)
  have h18 : Cert.ReferenceIdeal.Stages.Q3 m' c (Proc.devRef .tc Cert.ReferenceIdeal.main_arg18) = W20 m c (Proc.devRef .tc Cert.KernelIdeal.main_arg18) := (l1_q3_arg18 m' c).trans (h.a18.trans (l1_arg18_W20 m c).symm)
  rw [W22_at, value10 (E21 m) c]
  show denseArr (m := 40000) (k := 106) (n := 100) (after Cert.KernelIdeal.Gen.hostOps10 (W20 m c) (Proc.devRef .tc Cert.KernelIdeal.main_v192)) (after Cert.KernelIdeal.Gen.hostOps10 (W20 m c) (Proc.devRef .tc Cert.KernelIdeal.main_v194)) (after Cert.KernelIdeal.Gen.hostOps10 (W20 m c) (Proc.devRef .tc Cert.KernelIdeal.main_v197))
      = after Cert.ReferenceIdeal.Stages.opsD (Cert.ReferenceIdeal.Stages.Q3 m' c) (Proc.devRef .tc Cert.ReferenceIdeal.main_v252)
  rw [l1d4_refDense (Cert.ReferenceIdeal.Stages.Q3 m' c), l1d4_rows (W20 m c) (Cert.ReferenceIdeal.Stages.Q3 m' c) hx h1 hA hB,
    l1d4_w (W20 m c) (Cert.ReferenceIdeal.Stages.Q3 m' c) h17, l1d4_b (W20 m c) (Cert.ReferenceIdeal.Stages.Q3 m' c) h18]

/-! ## The finished layer -/

set_option maxHeartbeats 4000000 in
/-- The second layer's output: what pallas_call 11 leaves in its result array is the reference's second layer. -/
theorem l1_out (h : Agree m m' c) (hP2 : W12 m c (Proc.devRef .tc Cert.KernelIdeal.main_v99) = Cert.ReferenceIdeal.Stages.Q2 m' c (Proc.devRef .tc Cert.ReferenceIdeal.main_v129)) :
    W24 m c (Proc.devRef .tc Cert.KernelIdeal.main_v200) = Cert.ReferenceIdeal.Stages.Q4 m' c (Proc.devRef .tc Cert.ReferenceIdeal.main_v260) := by
  have hx : Cert.ReferenceIdeal.Stages.Q3 m' c (Proc.devRef .tc Cert.ReferenceIdeal.main_v129) = W12 m c (Proc.devRef .tc Cert.KernelIdeal.main_v99) := (l1_q3_x m' c).trans hP2.symm
  have hw : Cert.ReferenceIdeal.Stages.Q3 m' c (Proc.devRef .tc Cert.ReferenceIdeal.main_arg15) = m (c, Proc.devRef .tc Cert.KernelIdeal.main_arg15) := (l1_q3_arg15 m' c).trans h.a15
  have hb : Cert.ReferenceIdeal.Stages.Q3 m' c (Proc.devRef .tc Cert.ReferenceIdeal.main_arg16) = m (c, Proc.devRef .tc Cert.KernelIdeal.main_arg16) := (l1_q3_arg16 m' c).trans h.a16
  have hD : after Cert.ReferenceIdeal.Stages.opsD (Cert.ReferenceIdeal.Stages.Q3 m' c) (Proc.devRef .tc Cert.ReferenceIdeal.main_v253)
      = concatenate Cert.KernelIdeal.S200000x100 0 [⟨Cert.KernelIdeal.S40000x100, W16 m c (Proc.devRef .tc Cert.KernelIdeal.main_v129)⟩, ⟨Cert.KernelIdeal.S60000x100, W18 m c (Proc.devRef .tc Cert.KernelIdeal.main_v152)⟩, ⟨Cert.KernelIdeal.S60000x100, W20 m c (Proc.devRef .tc Cert.KernelIdeal.main_v175)⟩, ⟨Cert.KernelIdeal.S40000x100, W22 m c (Proc.devRef .tc Cert.KernelIdeal.main_v198)⟩] Cert.KernelIdeal.Gen.concatenates_S40000x100_S60000x100_S60000x100_S40000x100_S200000x100_d0 :=
    (l1_partsR (Cert.ReferenceIdeal.Stages.Q3 m' c)).trans
      (concat4_congr (l1_deg1 m m' c h hP2).symm (l1_deg2 m m' c h hP2).symm (l1_deg3 m m' c h hP2).symm (l1_deg4 m m' c h hP2).symm _ _)
  rw [W24_at, value11 (E23 m) c]
  show normReluArr (m := 200000) (n := 100) (fun i => denseArr (m := 200000) (k := 100) (n := 100)
        (W23 m c (Proc.devRef .tc Cert.KernelIdeal.main_v99)) (W23 m c (Proc.devRef .tc Cert.KernelIdeal.main_arg15)) (W23 m c (Proc.devRef .tc Cert.KernelIdeal.main_v106)) i + (W23 m c (Proc.devRef .tc Cert.KernelIdeal.main_v199) : FVec Ideal Cert.KernelIdeal.S200000x100 .f32) i)
      = after Cert.ReferenceIdeal.Stages.opsD (Cert.ReferenceIdeal.Stages.Q3 m' c) (Proc.devRef .tc Cert.ReferenceIdeal.main_v260)
  rw [l1_x_W23 m c, l1_arg15_W23 m c, l1_bias_W23 m c, l1_parts_W23 m c]
  exact (l1_fin (Cert.ReferenceIdeal.Stages.Q3 m' c) _ _ _ _ hx hw hb hD).symm

end Layer1

end Cert.Sim

end
-- ==== Proof.Sim.All.lean ====
/-
  The two idealized programs end with the same result. The pieces in order: the first fingerprint (summed per molecule),
  the first layer's output, the running total after the second fingerprint, the second layer's output, the total after
  the third fingerprint — each an equality between what the kernel program's chain of contents and the reference's
  stages hold, each from the ones before it.
-/
import proofs.«143046_j34703335751794_1_alg».proof.Proof.Sim.FpAgree
import proofs.«143046_j34703335751794_1_alg».proof.Proof.Sim.Layer0
import proofs.«143046_j34703335751794_1_alg».proof.Proof.Sim.Layer1

noncomputable section

namespace Cert.Sim

open Idealize.ShloMosaic Idealize.ShloMosaic.TcCoe Cert.KernelIdeal.Fr

/-- On a core where the launch memories agree on the arguments, the kernel program's result array holds what the
    reference's does. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD) (h : Agree m m' c) :
    W27 m c Cert.KernelIdeal.main_v206 = Cert.ReferenceIdeal.Stages.Q5 m' c Cert.ReferenceIdeal.main_v279 :=
  have h1 := P1 m m' c h
  have h2 := layer0_agree m m' c h
  have h3 := P3 m m' c h h1 h2
  have h4 := l1_out (m := m) (m' := m') (c := c) h h2
  P5 m m' c h h3 h4

end Cert.Sim

end
-- ==== Proof.lean ====
/-
  The certificate of a two-layer graph convolution with softmax fingerprints: three frames, the (empty) idealization
  ledger, and the agreement of the idealized kernel program with the idealized reference.

  The agreement: each pallas_call's result array is one function of its input arrays (a dense layer; its row-wise softmax;
  the dense layer plus the degrees' products, each row divided by its floored norm and rectified), the reference spells the
  same functions with host operations, and everything else — gathers, small-axis sums, concatenates, slices, the sums per
  molecule — is the same host operations in both programs; so the two chains of contents agree piece by piece.

  The kernel program is thirteen pallas_calls among stretches of host operations: a fingerprint (softmax of a dense
  layer) of the atom features and of each layer's output, and per layer four neighbour products (one per degree) and a
  finishing call (dense layer plus the degrees' concatenated products, normalised row by row and rectified). Every
  call reads whole input blocks and writes one whole output block per grid point and keeps nothing between points, so
  its frame comes from one body run per call; the host stretches between them write no argument. The reference is a
  host program; its frame is its run read back.
-/
import proofs.«143046_j34703335751794_1_alg».proof.Defs
import proofs.«143046_j34703335751794_1_alg».proof.Proof.Gen.Kernel
import proofs.«143046_j34703335751794_1_alg».proof.Proof.Gen.KernelIdeal
import proofs.«143046_j34703335751794_1_alg».proof.Proof.Gen.ReferenceIdeal
import proofs.«143046_j34703335751794_1_alg».proof.Proof.Gen.Pre_finite_inputs
import proofs.«143046_j34703335751794_1_alg».proof.Proof.KB.Frame
import proofs.«143046_j34703335751794_1_alg».proof.Proof.KI.Frame
import proofs.«143046_j34703335751794_1_alg».proof.Proof.RefFrame
import proofs.«143046_j34703335751794_1_alg».proof.Proof.KI.Run
import proofs.«143046_j34703335751794_1_alg».proof.Proof.Sim.All
import Idealize.ShloMosaic.Adequacy
import Idealize.ShloMosaic.Init

noncomputable section

namespace Cert.Proof

open Idealize.ShloMosaic Idealize.ShloMosaic.TcCoe Idealize.SL.Sem

/-- The word-level kernel program's frame. -/
theorem frame_k : Cert.frame_Kernel := fun m ρ _ => Cert.Kernel.Fr.frame m ρ
/-- The idealized kernel program's frame. -/
theorem frame_ki : Cert.frame_KernelIdeal := fun m ρ _ => Cert.KernelIdeal.Fr.frame m ρ
/-- The idealization rewrote nothing. -/
theorem preserves : Cert.preserves_Kernel_KernelIdeal := trivial

/-- At the ideal instance, from launch memories that agree on the arguments, both programs run to the end and the
    kernel program's result array holds what the reference's does: the kernel program's run names its result as the last
    contents of its chain, the reference's run names its own as its last stage's, and the two are equal piece by piece. -/
theorem algebraic : Cert.algebraic_KernelIdeal_ReferenceIdeal := by
  intro m g m' g' _ hagree
  refine ⟨fun c => Cert.KernelIdeal.Fr.W27 m c (Proc.devRef .tc Cert.KernelIdeal.main_v206), ?_, ?_⟩
  · exact Cert.KernelIdeal.Fr.run (F := Ideal) m g
  refine (θ_run Cert.ReferenceIdeal.defs _ _).mono (fun _ h c => ⟨(h c Cert.ReferenceIdeal.main_v279).trans
      (Cert.Sim.result_eq m m' c (hagree c)).symm,
     (h c Cert.ReferenceIdeal.main_arg0).trans (Cert.ReferenceIdeal.Stages.args_kept m' c Cert.ReferenceIdeal.main_arg0 (by decide)),
     (h c Cert.ReferenceIdeal.main_arg1).trans (Cert.ReferenceIdeal.Stages.args_kept m' c Cert.ReferenceIdeal.main_arg1 (by decide)),
     (h c Cert.ReferenceIdeal.main_arg2).trans (Cert.ReferenceIdeal.Stages.args_kept m' c Cert.ReferenceIdeal.main_arg2 (by decide)),
     (h c Cert.ReferenceIdeal.main_arg3).trans (Cert.ReferenceIdeal.Stages.args_kept m' c Cert.ReferenceIdeal.main_arg3 (by decide)),
     (h c Cert.ReferenceIdeal.main_arg4).trans (Cert.ReferenceIdeal.Stages.args_kept m' c Cert.ReferenceIdeal.main_arg4 (by decide)),
     (h c Cert.ReferenceIdeal.main_arg5).trans (Cert.ReferenceIdeal.Stages.args_kept m' c Cert.ReferenceIdeal.main_arg5 (by decide)),
     (h c Cert.ReferenceIdeal.main_arg6).trans (Cert.ReferenceIdeal.Stages.args_kept m' c Cert.ReferenceIdeal.main_arg6 (by decide)),
     (h c Cert.ReferenceIdeal.main_arg7).trans (Cert.ReferenceIdeal.Stages.args_kept m' c Cert.ReferenceIdeal.main_arg7 (by decide)),
     (h c Cert.ReferenceIdeal.main_arg8).trans (Cert.ReferenceIdeal.Stages.args_kept m' c Cert.ReferenceIdeal.main_arg8 (by decide)),
     (h c Cert.ReferenceIdeal.main_arg9).trans (Cert.ReferenceIdeal.Stages.args_kept m' c Cert.ReferenceIdeal.main_arg9 (by decide)),
     (h c Cert.ReferenceIdeal.main_arg10).trans (Cert.ReferenceIdeal.Stages.args_kept m' c Cert.ReferenceIdeal.main_arg10 (by decide)),
     (h c Cert.ReferenceIdeal.main_arg11).trans (Cert.ReferenceIdeal.Stages.args_kept m' c Cert.ReferenceIdeal.main_arg11 (by decide)),
     (h c Cert.ReferenceIdeal.main_arg12).trans (Cert.ReferenceIdeal.Stages.args_kept m' c Cert.ReferenceIdeal.main_arg12 (by decide)),
     (h c Cert.ReferenceIdeal.main_arg13).trans (Cert.ReferenceIdeal.Stages.args_kept m' c Cert.ReferenceIdeal.main_arg13 (by decide)),
     (h c Cert.ReferenceIdeal.main_arg14).trans (Cert.ReferenceIdeal.Stages.args_kept m' c Cert.ReferenceIdeal.main_arg14 (by decide)),
     (h c Cert.ReferenceIdeal.main_arg15).trans (Cert.ReferenceIdeal.Stages.args_kept m' c Cert.ReferenceIdeal.main_arg15 (by decide)),
     (h c Cert.ReferenceIdeal.main_arg16).trans (Cert.ReferenceIdeal.Stages.args_kept m' c Cert.ReferenceIdeal.main_arg16 (by decide)),
     (h c Cert.ReferenceIdeal.main_arg17).trans (Cert.ReferenceIdeal.Stages.args_kept m' c Cert.ReferenceIdeal.main_arg17 (by decide)),
     (h c Cert.ReferenceIdeal.main_arg18).trans (Cert.ReferenceIdeal.Stages.args_kept m' c Cert.ReferenceIdeal.main_arg18 (by decide)),
     (h c Cert.ReferenceIdeal.main_arg19).trans (Cert.ReferenceIdeal.Stages.args_kept m' c Cert.ReferenceIdeal.main_arg19 (by decide)),
     (h c Cert.ReferenceIdeal.main_arg20).trans (Cert.ReferenceIdeal.Stages.args_kept m' c Cert.ReferenceIdeal.main_arg20 (by decide)),
     (h c Cert.ReferenceIdeal.main_arg21).trans (Cert.ReferenceIdeal.Stages.args_kept m' c Cert.ReferenceIdeal.main_arg21 (by decide)),
     (h c Cert.ReferenceIdeal.main_arg22).trans (Cert.ReferenceIdeal.Stages.args_kept m' c Cert.ReferenceIdeal.main_arg22 (by decide)),
     (h c Cert.ReferenceIdeal.main_arg23).trans (Cert.ReferenceIdeal.Stages.args_kept m' c Cert.ReferenceIdeal.main_arg23 (by decide)),
     (h c Cert.ReferenceIdeal.main_arg24).trans (Cert.ReferenceIdeal.Stages.args_kept m' c Cert.ReferenceIdeal.main_arg24 (by decide))⟩)
    (Cert.ReferenceIdeal.Stages.run (F := Ideal) m' g')

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
